-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v132) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384x26 : Shape := ⟨2, ![16384, 26]⟩
abbrev S26x100000x32 : Shape := ⟨3, ![26, 100000, 32]⟩
abbrev S_ : Shape := ⟨0, ![]⟩

class Facts : Prop where
  bcast_S_S26x100000x32 : S_.BroadcastsInDim S26x100000x32 (![] : Fin 0 → Fin S26x100000x32.rank)
  reducesTo_S26x100000x32_S_d0_1_2 : S26x100000x32.ReducesTo [0, 1, 2] S_
  h_S_ : 0 < S_.numel
  bcast_S_S16384x26 : S_.BroadcastsInDim S16384x26 (![] : Fin 0 → Fin S16384x26.rank)
  reducesTo_S16384x26_S_d0_1 : S16384x26.ReducesTo [0, 1] S_

variable [Facts]

def fn {F : FTy → Type} [FloatOps F] (main_arg0 : IVec S16384x26 32) (main_arg1 : FVec F S26x100000x32 .f32) : IVec S_ 1 :=
  let main_v0 : FVec F S26x100000x32 .f32 := Host.absf main_arg1
  let main_cst : FVec F S_ .f32 := constant S_ .f32 0x7F800000#32
  let main_v1 : FVec F S26x100000x32 .f32 := broadcastInDim S26x100000x32 ![] bcast_S_S26x100000x32 main_cst
  let main_v2 : IVec S26x100000x32 1 := cmpf .olt main_v0 main_v1
  let main_c : IVec S_ 1 := constantI S_ 1 1#1
  let main_v3 : IVec S_ 1 := (fun x v => Host.reduce IntOp.andi x v reducesTo_S26x100000x32_S_d0_1_2 h_S_) main_v2 main_c
  let main_c_0 : IVec S_ 32 := constantI S_ 32 0#32
  let main_v4 : IVec S16384x26 32 := broadcastInDim S16384x26 ![] bcast_S_S16384x26 main_c_0
  let main_v5 : IVec S16384x26 1 := cmpi .sge main_arg0 main_v4
  let main_c_1 : IVec S_ 32 := constantI S_ 32 99999#32
  let main_v6 : IVec S16384x26 32 := broadcastInDim S16384x26 ![] bcast_S_S16384x26 main_c_1
  let main_v7 : IVec S16384x26 1 := cmpi .sle main_arg0 main_v6
  let main_v8 : IVec S16384x26 1 := andi main_v5 main_v7
  let main_c_2 : IVec S_ 1 := constantI S_ 1 1#1
  let main_v9 : IVec S_ 1 := (fun x v => Host.reduce IntOp.andi x v reducesTo_S16384x26_S_d0_1 h_S_) main_v8 main_c_2
  let main_v10 : IVec S_ 1 := andi main_v3 main_v9
  main_v10
-- ==== Kernel.lean ====
abbrev S16384x26 : Shape := ⟨2, ![16384, 26]⟩
abbrev S26x100000x32 : Shape := ⟨3, ![26, 100000, 32]⟩
abbrev S26x16384 : Shape := ⟨2, ![26, 16384]⟩
abbrev S26x32x100000 : Shape := ⟨3, ![26, 32, 100000]⟩
abbrev S832x100000 : Shape := ⟨2, ![832, 100000]⟩
abbrev S832x16384 : Shape := ⟨2, ![832, 16384]⟩
abbrev S100000 : Shape := ⟨1, ![100000]⟩
abbrev S16384 : Shape := ⟨1, ![16384]⟩
abbrev S4096 : Shape := ⟨1, ![4096]⟩
abbrev S_ : Shape := ⟨0, ![]⟩
abbrev S1x100000 : Shape := ⟨2, ![1, 100000]⟩
abbrev S1x16384 : Shape := ⟨2, ![1, 16384]⟩
abbrev S1x4096 : Shape := ⟨2, ![1, 4096]⟩
abbrev S16 : Shape := ⟨1, ![16]⟩
abbrev S16384x832 : Shape := ⟨2, ![16384, 832]⟩

abbrev nBuf : Table → Nat
  | .hbm => 7
  | .local .scVector .vmem => 4
  | _ => 0

abbrev bufTy : (tb : Table) → Fin (nBuf tb) → BufTy
  | .hbm, ⟨0, _⟩ => ⟨S16384x26, .i32⟩
  | .hbm, ⟨1, _⟩ => ⟨S26x100000x32, .f32⟩
  | .hbm, ⟨2, _⟩ => ⟨S26x16384, .i32⟩
  | .hbm, ⟨3, _⟩ => ⟨S26x32x100000, .f32⟩
  | .hbm, ⟨4, _⟩ => ⟨S832x100000, .f32⟩
  | .hbm, ⟨5, _⟩ => ⟨S832x16384, .f32⟩
  | .hbm, ⟨6, _⟩ => ⟨S16384x832, .f32⟩
  | .local .scVector .vmem, ⟨0, _⟩ => ⟨S100000, .f32⟩
  | .local .scVector .vmem, ⟨1, _⟩ => ⟨S16384, .i32⟩
  | .local .scVector .vmem, ⟨2, _⟩ => ⟨S4096, .f32⟩
  | .local .scVector .vmem, ⟨3, _⟩ => ⟨S4096, .f32⟩
  | _, _ => ⟨S16384x26, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v0_scv : Ref sig .scVector := ⟨.hbm, 2, rfl⟩
abbrev main_v2_scv : Ref sig .scVector := ⟨.hbm, 4, rfl⟩
abbrev main_v3_scv : Ref sig .scVector := ⟨.hbm, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c26_i32_1 : BitVec 32 := 26#32
  let v3 : BitVec 32 := Scalar.addi c0_i32_0 c26_i32_1
  let c1_i32 : BitVec 32 := 1#32
  ⟨c0_i32_0, v3, c1_i32⟩
def k0_off1 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c26_i32 : BitVec 32 := 26#32
  let v2 : BitVec 32 := Scalar.muli v1 c26_i32
  let c0_i32_0 : BitVec 32 := 0#32
  let c1_i32 : BitVec 32 := 1#32
  let arg12 : BitVec 32 := Scf.iv c0_i32_0 c1_i32 k0_t1
  let v12 : BitVec 32 := Scalar.addi v2 arg12
  let c0_i32_9 : BitVec 32 := 0#32
  ![v12.toNat, 0]
def k0_cond1 (i : grid0.Coords) (k0_t1 : Fin k0_t1_loop.trips) : BitVec 1 :=
  let c0_i32_0 : BitVec 32 := 0#32
  let c1_i32 : BitVec 32 := 1#32
  let arg12 : BitVec 32 := Scf.iv c0_i32_0 c1_i32 k0_t1
  let c0_i32_11 : BitVec 32 := 0#32
  let v17 : BitVec 1 := Scalar.cmpi .eq arg12 c0_i32_11
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c26_i32 : BitVec 32 := 26#32
  let v2 : BitVec 32 := Scalar.muli v1 c26_i32
  let v12 : BitVec 32 := Scalar.addi v2 arg12
  let c32_i32 : BitVec 32 := 32#32
  let c0_i32_12 : BitVec 32 := 0#32
  let v18 : BitVec 1 := Scalar.cmpi .eq c32_i32 c0_i32_12
  let c1_i32_13 : BitVec 32 := 1#32
  let v19 : BitVec 32 := Scalar.select v18 c1_i32_13 c32_i32
  let v20 : BitVec 32 := Scalar.remsi v12 v19
  let c0_i32_15 : BitVec 32 := 0#32
  let v22 : BitVec 1 := Scalar.cmpi .slt v20 c0_i32_15
  let c0_i32_16 : BitVec 32 := 0#32
  let v23 : BitVec 1 := Scalar.cmpi .slt v19 c0_i32_16
  let v24 : BitVec 1 := Scalar.xori v22 v23
  let c0_i32_14 : BitVec 32 := 0#32
  let v21 : BitVec 1 := Scalar.cmpi .ne v20 c0_i32_14
  let v25 : BitVec 1 := Scalar.andi v24 v21
  let v26 : BitVec 32 := Scalar.addi v20 v19
  let v27 : BitVec 32 := Scalar.select v25 v26 v20
  let c0_i32_17 : BitVec 32 := 0#32
  let v28 : BitVec 1 := Scalar.cmpi .eq v27 c0_i32_17
  let v29 : BitVec 1 := Scalar.ori v17 v28
  let v30 : BitVec 32 := Scalar.extui v29
  let c0_i32_18 : BitVec 32 := 0#32
  let v31 : BitVec 1 := Scalar.cmpi .ne v30 c0_i32_18
  v31

def k0_off2 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c26_i32 : BitVec 32 := 26#32
  let v2 : BitVec 32 := Scalar.muli v1 c26_i32
  let c0_i32_0 : BitVec 32 := 0#32
  let c1_i32 : BitVec 32 := 1#32
  let arg12 : BitVec 32 := Scf.iv c0_i32_0 c1_i32 k0_t1
  let v12 : BitVec 32 := Scalar.addi v2 arg12
  let c0_i32_57 : BitVec 32 := 0#32
  let v71 : BitVec 1 := Scalar.cmpi .sgt v12 c0_i32_57
  let v72 : BitVec 32 := Scalar.extui v71
  let c0_i32_58 : BitVec 32 := 0#32
  let v73 : BitVec 1 := Scalar.cmpi .slt v12 c0_i32_58
  let v74 : BitVec 32 := Scalar.extui v73
  let v75 : BitVec 32 := Scalar.subi v72 v74
  let c32_i32_56 : BitVec 32 := 32#32
  let c0_i32_59 : BitVec 32 := 0#32
  let v76 : BitVec 1 := Scalar.cmpi .sgt c32_i32_56 c0_i32_59
  let v77 : BitVec 32 := Scalar.extui v76
  let c0_i32_60 : BitVec 32 := 0#32
  let v78 : BitVec 1 := Scalar.cmpi .slt c32_i32_56 c0_i32_60
  let v79 : BitVec 32 := Scalar.extui v78
  let v80 : BitVec 32 := Scalar.subi v77 v79
  let v81 : BitVec 1 := Scalar.cmpi .ne v75 v80
  let v82 : BitVec 32 := Scalar.remsi v12 c32_i32_56
  let c0_i32_61 : BitVec 32 := 0#32
  let v83 : BitVec 1 := Scalar.cmpi .ne v82 c0_i32_61
  let v84 : BitVec 1 := Scalar.andi v81 v83
  let v70 : BitVec 32 := Scalar.divsi v12 c32_i32_56
  let c1_i32_62 : BitVec 32 := 1#32
  let v85 : BitVec 32 := Scalar.subi v70 c1_i32_62
  let v86 : BitVec 32 := Scalar.select v84 v85 v70
  let c0_i32_63_r0 : BitVec 32 := 0#32
  ![v86.toNat, 0]
@[reducible] def k0_t2_loop : Scf.Loop 32 :=
  let c0_i32_25 : BitVec 32 := 0#32
  let c256_i32 : BitVec 32 := 256#32
  let v39 : BitVec 32 := Scalar.addi c0_i32_25 c256_i32
  let c1_i32_26 : BitVec 32 := 1#32
  ⟨c0_i32_25, v39, c1_i32_26⟩
def k0_off3 (k0_t2 : Fin k0_t2_loop.trips) : Fin 1 → Nat :=
  let c0_i32_56 : BitVec 32 := 0#32
  let c0_i32_25 : BitVec 32 := 0#32
  let c1_i32_26 : BitVec 32 := 1#32
  let arg13 : BitVec 32 := Scf.iv c0_i32_25 c1_i32_26 k0_t2
  let c16_i32 : BitVec 32 := 16#32
  let v70 : BitVec 32 := Scalar.muli arg13 c16_i32
  let v71 : BitVec 32 := Scalar.addi c0_i32_56 v70
  let v72 : Index := Scalar.indexCast v71
  ![v72.toNat]

def k0_chk1 (v73 : IVec S16 32) : Prop :=
  (∀ a x, ((![v73] : Fin 1 → IVec S16 32) a x).toNat < S100000.size a)
instance k0_chk1.dec : ∀ (v73 : IVec S16 32), Decidable (k0_chk1 v73) := fun v73 => decidable_of_iff' _ (Iff.of_eq (k0_chk1.eq_1 v73))
theorem k0_idx1_inb : ∀ (v73 : IVec S16 32) (k0_hw1 : k0_chk1 v73), ∀ a x, ((![v73] : Fin 1 → IVec S16 32) a x).toNat < S100000.size a := fun v73 k0_hw1 => k0_hw1
def k0_off4 (k0_t2 : Fin k0_t2_loop.trips) : Fin 1 → Nat :=
  let c0_i32_25 : BitVec 32 := 0#32
  let c1_i32_26 : BitVec 32 := 1#32
  let arg13 : BitVec 32 := Scf.iv c0_i32_25 c1_i32_26 k0_t2
  let c16_i32_57 : BitVec 32 := 16#32
  let v75 : BitVec 32 := Scalar.muli arg13 c16_i32_57
  let v76 : Index := Scalar.indexCast v75
  ![v76.toNat]
def k0_off5 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c26_i32 : BitVec 32 := 26#32
  let v2 : BitVec 32 := Scalar.muli v1 c26_i32
  let c0_i32_0 : BitVec 32 := 0#32
  let c1_i32 : BitVec 32 := 1#32
  let arg12 : BitVec 32 := Scf.iv c0_i32_0 c1_i32 k0_t1
  let v12 : BitVec 32 := Scalar.addi v2 arg12
  let c0_i32_28 : BitVec 32 := 0#32
  ![v12.toNat, 0]
@[reducible] def k0_t3_loop : Scf.Loop 32 :=
  let c0_i32_33 : BitVec 32 := 0#32
  let c256_i32_34 : BitVec 32 := 256#32
  let v47 : BitVec 32 := Scalar.addi c0_i32_33 c256_i32_34
  let c1_i32_35 : BitVec 32 := 1#32
  ⟨c0_i32_33, v47, c1_i32_35⟩
def k0_off6 (k0_t3 : Fin k0_t3_loop.trips) : Fin 1 → Nat :=
  let c4096_i32_56 : BitVec 32 := 4096#32
  let c0_i32_33 : BitVec 32 := 0#32
  let c1_i32_35 : BitVec 32 := 1#32
  let arg13 : BitVec 32 := Scf.iv c0_i32_33 c1_i32_35 k0_t3
  let c16_i32 : BitVec 32 := 16#32
  let v70 : BitVec 32 := Scalar.muli arg13 c16_i32
  let v71 : BitVec 32 := Scalar.addi c4096_i32_56 v70
  let v72 : Index := Scalar.indexCast v71
  ![v72.toNat]

def k0_chk2 (v73 : IVec S16 32) : Prop :=
  (∀ a x, ((![v73] : Fin 1 → IVec S16 32) a x).toNat < S100000.size a)
instance k0_chk2.dec : ∀ (v73 : IVec S16 32), Decidable (k0_chk2 v73) := fun v73 => decidable_of_iff' _ (Iff.of_eq (k0_chk2.eq_1 v73))
theorem k0_idx2_inb : ∀ (v73 : IVec S16 32) (k0_hw2 : k0_chk2 v73), ∀ a x, ((![v73] : Fin 1 → IVec S16 32) a x).toNat < S100000.size a := fun v73 k0_hw2 => k0_hw2
def k0_off7 (k0_t3 : Fin k0_t3_loop.trips) : Fin 1 → Nat :=
  let c0_i32_33 : BitVec 32 := 0#32
  let c1_i32_35 : BitVec 32 := 1#32
  let arg13 : BitVec 32 := Scf.iv c0_i32_33 c1_i32_35 k0_t3
  let c16_i32_57 : BitVec 32 := 16#32
  let v75 : BitVec 32 := Scalar.muli arg13 c16_i32_57
  let v76 : Index := Scalar.indexCast v75
  ![v76.toNat]
def k0_off8 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c26_i32 : BitVec 32 := 26#32
  let v2 : BitVec 32 := Scalar.muli v1 c26_i32
  let c0_i32_0 : BitVec 32 := 0#32
  let c1_i32 : BitVec 32 := 1#32
  let arg12 : BitVec 32 := Scf.iv c0_i32_0 c1_i32 k0_t1
  let v12 : BitVec 32 := Scalar.addi v2 arg12
  let c4096_i32 : BitVec 32 := 4096#32
  ![v12.toNat, 4096]
@[reducible] def k0_t4_loop : Scf.Loop 32 :=
  let c0_i32_42 : BitVec 32 := 0#32
  let c256_i32_43 : BitVec 32 := 256#32
  let v56 : BitVec 32 := Scalar.addi c0_i32_42 c256_i32_43
  let c1_i32_44 : BitVec 32 := 1#32
  ⟨c0_i32_42, v56, c1_i32_44⟩
def k0_off9 (k0_t4 : Fin k0_t4_loop.trips) : Fin 1 → Nat :=
  let c8192_i32_56 : BitVec 32 := 8192#32
  let c0_i32_42 : BitVec 32 := 0#32
  let c1_i32_44 : BitVec 32 := 1#32
  let arg13 : BitVec 32 := Scf.iv c0_i32_42 c1_i32_44 k0_t4
  let c16_i32 : BitVec 32 := 16#32
  let v70 : BitVec 32 := Scalar.muli arg13 c16_i32
  let v71 : BitVec 32 := Scalar.addi c8192_i32_56 v70
  let v72 : Index := Scalar.indexCast v71
  ![v72.toNat]

def k0_chk3 (v73 : IVec S16 32) : Prop :=
  (∀ a x, ((![v73] : Fin 1 → IVec S16 32) a x).toNat < S100000.size a)
instance k0_chk3.dec : ∀ (v73 : IVec S16 32), Decidable (k0_chk3 v73) := fun v73 => decidable_of_iff' _ (Iff.of_eq (k0_chk3.eq_1 v73))
theorem k0_idx3_inb : ∀ (v73 : IVec S16 32) (k0_hw3 : k0_chk3 v73), ∀ a x, ((![v73] : Fin 1 → IVec S16 32) a x).toNat < S100000.size a := fun v73 k0_hw3 => k0_hw3
def k0_off10 (k0_t4 : Fin k0_t4_loop.trips) : Fin 1 → Nat :=
  let c0_i32_42 : BitVec 32 := 0#32
  let c1_i32_44 : BitVec 32 := 1#32
  let arg13 : BitVec 32 := Scf.iv c0_i32_42 c1_i32_44 k0_t4
  let c16_i32_57 : BitVec 32 := 16#32
  let v75 : BitVec 32 := Scalar.muli arg13 c16_i32_57
  let v76 : Index := Scalar.indexCast v75
  ![v76.toNat]
def k0_off11 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c26_i32 : BitVec 32 := 26#32
  let v2 : BitVec 32 := Scalar.muli v1 c26_i32
  let c0_i32_0 : BitVec 32 := 0#32
  let c1_i32 : BitVec 32 := 1#32
  let arg12 : BitVec 32 := Scf.iv c0_i32_0 c1_i32 k0_t1
  let v12 : BitVec 32 := Scalar.addi v2 arg12
  let c8192_i32 : BitVec 32 := 8192#32
  ![v12.toNat, 8192]
@[reducible] def k0_t5_loop : Scf.Loop 32 :=
  let c0_i32_51 : BitVec 32 := 0#32
  let c256_i32_52 : BitVec 32 := 256#32
  let v65 : BitVec 32 := Scalar.addi c0_i32_51 c256_i32_52
  let c1_i32_53 : BitVec 32 := 1#32
  ⟨c0_i32_51, v65, c1_i32_53⟩
def k0_off12 (k0_t5 : Fin k0_t5_loop.trips) : Fin 1 → Nat :=
  let c12288_i32_56 : BitVec 32 := 12288#32
  let c0_i32_51 : BitVec 32 := 0#32
  let c1_i32_53 : BitVec 32 := 1#32
  let arg13 : BitVec 32 := Scf.iv c0_i32_51 c1_i32_53 k0_t5
  let c16_i32 : BitVec 32 := 16#32
  let v70 : BitVec 32 := Scalar.muli arg13 c16_i32
  let v71 : BitVec 32 := Scalar.addi c12288_i32_56 v70
  let v72 : Index := Scalar.indexCast v71
  ![v72.toNat]

def k0_chk4 (v73 : IVec S16 32) : Prop :=
  (∀ a x, ((![v73] : Fin 1 → IVec S16 32) a x).toNat < S100000.size a)
instance k0_chk4.dec : ∀ (v73 : IVec S16 32), Decidable (k0_chk4 v73) := fun v73 => decidable_of_iff' _ (Iff.of_eq (k0_chk4.eq_1 v73))
theorem k0_idx4_inb : ∀ (v73 : IVec S16 32) (k0_hw4 : k0_chk4 v73), ∀ a x, ((![v73] : Fin 1 → IVec S16 32) a x).toNat < S100000.size a := fun v73 k0_hw4 => k0_hw4
def k0_off13 (k0_t5 : Fin k0_t5_loop.trips) : Fin 1 → Nat :=
  let c0_i32_51 : BitVec 32 := 0#32
  let c1_i32_53 : BitVec 32 := 1#32
  let arg13 : BitVec 32 := Scf.iv c0_i32_51 c1_i32_53 k0_t5
  let c16_i32_57 : BitVec 32 := 16#32
  let v75 : BitVec 32 := Scalar.muli arg13 c16_i32_57
  let v76 : Index := Scalar.indexCast v75
  ![v76.toNat]
def k0_off14 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c26_i32 : BitVec 32 := 26#32
  let v2 : BitVec 32 := Scalar.muli v1 c26_i32
  let c0_i32_0 : BitVec 32 := 0#32
  let c1_i32 : BitVec 32 := 1#32
  let arg12 : BitVec 32 := Scf.iv c0_i32_0 c1_i32 k0_t1
  let v12 : BitVec 32 := Scalar.addi v2 arg12
  let c12288_i32 : BitVec 32 := 12288#32
  ![v12.toNat, 12288]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  transposes_S16384x26_S26x16384_1_0 : S16384x26.Transposes [1, 0] S26x16384
  transposes_S26x100000x32_S26x32x100000_0_2_1 : S26x100000x32.Transposes [0, 2, 1] S26x32x100000
  shapeCasts_S26x32x100000_S832x100000 : S26x32x100000.ShapeCasts S832x100000
  squeezes_S1x100000_S100000 : S1x100000.Squeezes S100000
  squeezes_S1x16384_S16384 : S1x16384.Squeezes S16384
  inb_S832x100000_S1x100000_0_0 : ∀ a, (![0, 0] : Fin 2 → Nat) a + S1x100000.size a ≤ S832x100000.size a
  inb_S832x16384_S1x4096_0_0 : ∀ a, (![0, 0] : Fin 2 → Nat) a + S1x4096.size a ≤ S832x16384.size a
  squeezes_S1x4096_S4096 : S1x4096.Squeezes S4096
  h_S16 : 0 < S16.numel
  h_S100000 : 0 < S100000.numel
  transposes_S832x16384_S16384x832_1_0 : S832x16384.Transposes [1, 0] S16384x832
  hcc0_scratch4 : 0 + S_.numel ≤ 4
  hcc0_scratch5 : 1 + S_.numel ≤ 4
  hcc0_scratch6 : 2 + S_.numel ≤ 4
  hcc0_scoped0 : 3 + S_.numel ≤ 4
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_t1_ok : k0_t1_loop.OK
  k0_off1_inb : ∀ (i : grid0.Coords) (k0_t1 : Fin k0_t1_loop.trips), ∀ a, (k0_off1 i k0_t1) a + S1x100000.size a ≤ S832x100000.size a
  k0_off2_inb : ∀ (i : grid0.Coords) (k0_t1 : Fin k0_t1_loop.trips), ∀ (k0_h1 : k0_cond1 i k0_t1 = 1#1), ∀ a, (k0_off2 i k0_t1) a + S1x16384.size a ≤ S26x16384.size a
  k0_t2_ok : k0_t2_loop.OK
  k0_off3_inb : ∀ k0_t2 : Fin k0_t2_loop.trips, ∀ a, (k0_off3 k0_t2) a + S16.size a ≤ S16384.size a
  k0_off4_inb : ∀ k0_t2 : Fin k0_t2_loop.trips, ∀ a, (k0_off4 k0_t2) a + S16.size a ≤ S4096.size a
  k0_off5_inb : ∀ (i : grid0.Coords) (k0_t1 : Fin k0_t1_loop.trips), ∀ a, (k0_off5 i k0_t1) a + S1x4096.size a ≤ S832x16384.size a
  k0_t3_ok : k0_t3_loop.OK
  k0_off6_inb : ∀ k0_t3 : Fin k0_t3_loop.trips, ∀ a, (k0_off6 k0_t3) a + S16.size a ≤ S16384.size a
  k0_off7_inb : ∀ k0_t3 : Fin k0_t3_loop.trips, ∀ a, (k0_off7 k0_t3) a + S16.size a ≤ S4096.size a
  k0_off8_inb : ∀ (i : grid0.Coords) (k0_t1 : Fin k0_t1_loop.trips), ∀ a, (k0_off8 i k0_t1) a + S1x4096.size a ≤ S832x16384.size a
  k0_t4_ok : k0_t4_loop.OK
  k0_off9_inb : ∀ k0_t4 : Fin k0_t4_loop.trips, ∀ a, (k0_off9 k0_t4) a + S16.size a ≤ S16384.size a
  k0_off10_inb : ∀ k0_t4 : Fin k0_t4_loop.trips, ∀ a, (k0_off10 k0_t4) a + S16.size a ≤ S4096.size a
  k0_off11_inb : ∀ (i : grid0.Coords) (k0_t1 : Fin k0_t1_loop.trips), ∀ a, (k0_off11 i k0_t1) a + S1x4096.size a ≤ S832x16384.size a
  k0_t5_ok : k0_t5_loop.OK
  k0_off12_inb : ∀ k0_t5 : Fin k0_t5_loop.trips, ∀ a, (k0_off12 k0_t5) a + S16.size a ≤ S16384.size a
  k0_off13_inb : ∀ k0_t5 : Fin k0_t5_loop.trips, ∀ a, (k0_off13 k0_t5) a + S16.size a ≤ S4096.size a
  k0_off14_inb : ∀ (i : grid0.Coords) (k0_t1 : Fin k0_t1_loop.trips), ∀ a, (k0_off14 i k0_t1) a + S1x4096.size a ≤ S832x16384.size a

variable [Facts₀]

abbrev cc0_scratch4 : DmaSems sig S_ := SemArray.consecutive 0 S_ hcc0_scratch4
abbrev cc0_scratch5 : DmaSems sig S_ := SemArray.consecutive 1 S_ hcc0_scratch5
abbrev cc0_scratch6 : DmaSems sig S_ := SemArray.consecutive 2 S_ hcc0_scratch6
abbrev cc0_scoped0 : DmaSems sig S_ := SemArray.consecutive 3 S_ hcc0_scoped0

class Facts : Prop extends Facts₀ where

variable [Facts]
-- ==== ReferenceIdeal.lean ====
abbrev S16384x26 : Shape := ⟨2, ![16384, 26]⟩
abbrev S26x100000x32 : Shape := ⟨3, ![26, 100000, 32]⟩
abbrev S16384x1 : Shape := ⟨2, ![16384, 1]⟩
abbrev S16384 : Shape := ⟨1, ![16384]⟩
abbrev S1x100000x32 : Shape := ⟨3, ![1, 100000, 32]⟩
abbrev S100000x32 : Shape := ⟨2, ![100000, 32]⟩
abbrev S_ : Shape := ⟨0, ![]⟩
abbrev S1 : Shape := ⟨1, ![1]⟩
abbrev S1x1 : Shape := ⟨2, ![1, 1]⟩
abbrev S16384x32 : Shape := ⟨2, ![16384, 32]⟩
abbrev S16384x512 : Shape := ⟨2, ![16384, 512]⟩
abbrev S16384x320 : Shape := ⟨2, ![16384, 320]⟩
abbrev S16384x832 : Shape := ⟨2, ![16384, 832]⟩

abbrev nBuf : Space → Nat
  | .hbm => 707
  | .vmem => 0
  | .smem => 0
  | _ => 0

abbrev hbmTy0_0 (i : Nat) : BufTy := match i % 128 with
  | 0 => ⟨S16384x26, .i32⟩
  | 1 => ⟨S26x100000x32, .f32⟩
  | 2 => ⟨S16384x1, .i32⟩
  | 3 => ⟨S16384, .i32⟩
  | 4 => ⟨S1x100000x32, .f32⟩
  | 5 => ⟨S100000x32, .f32⟩
  | 6 => ⟨S_, .i32⟩
  | 7 => ⟨S16384, .i32⟩
  | 8 => ⟨S16384, .i1⟩
  | 9 => ⟨S_, .i32⟩
  | 10 => ⟨S16384, .i32⟩
  | 11 => ⟨S16384, .i32⟩
  | 12 => ⟨S16384, .i32⟩
  | 13 => ⟨S16384x1, .i32⟩
  | 14 => ⟨S1, .i32⟩
  | 15 => ⟨S_, .i32⟩
  | 16 => ⟨S16384x1, .i32⟩
  | 17 => ⟨S16384x1, .i1⟩
  | 18 => ⟨S1x1, .i32⟩
  | 19 => ⟨S16384x1, .i32⟩
  | 20 => ⟨S16384x1, .i1⟩
  | 21 => ⟨S16384x1, .i1⟩
  | 22 => ⟨S_, .i1⟩
  | 23 => ⟨S16384, .i1⟩
  | 24 => ⟨S16384x32, .f32⟩
  | 25 => ⟨S16384x32, .i1⟩
  | 26 => ⟨S_, .f32⟩
  | 27 => ⟨S16384x32, .f32⟩
  | 28 => ⟨S16384x32, .f32⟩
  | 29 => ⟨S16384x1, .i32⟩
  | 30 => ⟨S16384, .i32⟩
  | 31 => ⟨S1x100000x32, .f32⟩
  | 32 => ⟨S100000x32, .f32⟩
  | 33 => ⟨S_, .i32⟩
  | 34 => ⟨S16384, .i32⟩
  | 35 => ⟨S16384, .i1⟩
  | 36 => ⟨S_, .i32⟩
  | 37 => ⟨S16384, .i32⟩
  | 38 => ⟨S16384, .i32⟩
  | 39 => ⟨S16384, .i32⟩
  | 40 => ⟨S16384x1, .i32⟩
  | 41 => ⟨S1, .i32⟩
  | 42 => ⟨S_, .i32⟩
  | 43 => ⟨S16384x1, .i32⟩
  | 44 => ⟨S16384x1, .i1⟩
  | 45 => ⟨S1x1, .i32⟩
  | 46 => ⟨S16384x1, .i32⟩
  | 47 => ⟨S16384x1, .i1⟩
  | 48 => ⟨S16384x1, .i1⟩
  | 49 => ⟨S_, .i1⟩
  | 50 => ⟨S16384, .i1⟩
  | 51 => ⟨S16384x32, .f32⟩
  | 52 => ⟨S16384x32, .i1⟩
  | 53 => ⟨S_, .f32⟩
  | 54 => ⟨S16384x32, .f32⟩
  | 55 => ⟨S16384x32, .f32⟩
  | 56 => ⟨S16384x1, .i32⟩
  | 57 => ⟨S16384, .i32⟩
  | 58 => ⟨S1x100000x32, .f32⟩
  | 59 => ⟨S100000x32, .f32⟩
  | 60 => ⟨S_, .i32⟩
  | 61 => ⟨S16384, .i32⟩
  | 62 => ⟨S16384, .i1⟩
  | 63 => ⟨S_, .i32⟩
  | 64 => ⟨S16384, .i32⟩
  | 65 => ⟨S16384, .i32⟩
  | 66 => ⟨S16384, .i32⟩
  | 67 => ⟨S16384x1, .i32⟩
  | 68 => ⟨S1, .i32⟩
  | 69 => ⟨S_, .i32⟩
  | 70 => ⟨S16384x1, .i32⟩
  | 71 => ⟨S16384x1, .i1⟩
  | 72 => ⟨S1x1, .i32⟩
  | 73 => ⟨S16384x1, .i32⟩
  | 74 => ⟨S16384x1, .i1⟩
  | 75 => ⟨S16384x1, .i1⟩
  | 76 => ⟨S_, .i1⟩
  | 77 => ⟨S16384, .i1⟩
  | 78 => ⟨S16384x32, .f32⟩
  | 79 => ⟨S16384x32, .i1⟩
  | 80 => ⟨S_, .f32⟩
  | 81 => ⟨S16384x32, .f32⟩
  | 82 => ⟨S16384x32, .f32⟩
  | 83 => ⟨S16384x1, .i32⟩
  | 84 => ⟨S16384, .i32⟩
  | 85 => ⟨S1x100000x32, .f32⟩
  | 86 => ⟨S100000x32, .f32⟩
  | 87 => ⟨S_, .i32⟩
  | 88 => ⟨S16384, .i32⟩
  | 89 => ⟨S16384, .i1⟩
  | 90 => ⟨S_, .i32⟩
  | 91 => ⟨S16384, .i32⟩
  | 92 => ⟨S16384, .i32⟩
  | 93 => ⟨S16384, .i32⟩
  | 94 => ⟨S16384x1, .i32⟩
  | 95 => ⟨S1, .i32⟩
  | 96 => ⟨S_, .i32⟩
  | 97 => ⟨S16384x1, .i32⟩
  | 98 => ⟨S16384x1, .i1⟩
  | 99 => ⟨S1x1, .i32⟩
  | 100 => ⟨S16384x1, .i32⟩
  | 101 => ⟨S16384x1, .i1⟩
  | 102 => ⟨S16384x1, .i1⟩
  | 103 => ⟨S_, .i1⟩
  | 104 => ⟨S16384, .i1⟩
  | 105 => ⟨S16384x32, .f32⟩
  | 106 => ⟨S16384x32, .i1⟩
  | 107 => ⟨S_, .f32⟩
  | 108 => ⟨S16384x32, .f32⟩
  | 109 => ⟨S16384x32, .f32⟩
  | 110 => ⟨S16384x1, .i32⟩
  | 111 => ⟨S16384, .i32⟩
  | 112 => ⟨S1x100000x32, .f32⟩
  | 113 => ⟨S100000x32, .f32⟩
  | 114 => ⟨S_, .i32⟩
  | 115 => ⟨S16384, .i32⟩
  | 116 => ⟨S16384, .i1⟩
  | 117 => ⟨S_, .i32⟩
  | 118 => ⟨S16384, .i32⟩
  | 119 => ⟨S16384, .i32⟩
  | 120 => ⟨S16384, .i32⟩
  | 121 => ⟨S16384x1, .i32⟩
  | 122 => ⟨S1, .i32⟩
  | 123 => ⟨S_, .i32⟩
  | 124 => ⟨S16384x1, .i32⟩
  | 125 => ⟨S16384x1, .i1⟩
  | 126 => ⟨S1x1, .i32⟩
  | 127 => ⟨S16384x1, .i32⟩
  | _ => ⟨S16384x26, .i32⟩

abbrev hbmTy0_1 (i : Nat) : BufTy := match i % 128 with
  | 0 => ⟨S16384x1, .i1⟩
  | 1 => ⟨S16384x1, .i1⟩
  | 2 => ⟨S_, .i1⟩
  | 3 => ⟨S16384, .i1⟩
  | 4 => ⟨S16384x32, .f32⟩
  | 5 => ⟨S16384x32, .i1⟩
  | 6 => ⟨S_, .f32⟩
  | 7 => ⟨S16384x32, .f32⟩
  | 8 => ⟨S16384x32, .f32⟩
  | 9 => ⟨S16384x1, .i32⟩
  | 10 => ⟨S16384, .i32⟩
  | 11 => ⟨S1x100000x32, .f32⟩
  | 12 => ⟨S100000x32, .f32⟩
  | 13 => ⟨S_, .i32⟩
  | 14 => ⟨S16384, .i32⟩
  | 15 => ⟨S16384, .i1⟩
  | 16 => ⟨S_, .i32⟩
  | 17 => ⟨S16384, .i32⟩
  | 18 => ⟨S16384, .i32⟩
  | 19 => ⟨S16384, .i32⟩
  | 20 => ⟨S16384x1, .i32⟩
  | 21 => ⟨S1, .i32⟩
  | 22 => ⟨S_, .i32⟩
  | 23 => ⟨S16384x1, .i32⟩
  | 24 => ⟨S16384x1, .i1⟩
  | 25 => ⟨S1x1, .i32⟩
  | 26 => ⟨S16384x1, .i32⟩
  | 27 => ⟨S16384x1, .i1⟩
  | 28 => ⟨S16384x1, .i1⟩
  | 29 => ⟨S_, .i1⟩
  | 30 => ⟨S16384, .i1⟩
  | 31 => ⟨S16384x32, .f32⟩
  | 32 => ⟨S16384x32, .i1⟩
  | 33 => ⟨S_, .f32⟩
  | 34 => ⟨S16384x32, .f32⟩
  | 35 => ⟨S16384x32, .f32⟩
  | 36 => ⟨S16384x1, .i32⟩
  | 37 => ⟨S16384, .i32⟩
  | 38 => ⟨S1x100000x32, .f32⟩
  | 39 => ⟨S100000x32, .f32⟩
  | 40 => ⟨S_, .i32⟩
  | 41 => ⟨S16384, .i32⟩
  | 42 => ⟨S16384, .i1⟩
  | 43 => ⟨S_, .i32⟩
  | 44 => ⟨S16384, .i32⟩
  | 45 => ⟨S16384, .i32⟩
  | 46 => ⟨S16384, .i32⟩
  | 47 => ⟨S16384x1, .i32⟩
  | 48 => ⟨S1, .i32⟩
  | 49 => ⟨S_, .i32⟩
  | 50 => ⟨S16384x1, .i32⟩
  | 51 => ⟨S16384x1, .i1⟩
  | 52 => ⟨S1x1, .i32⟩
  | 53 => ⟨S16384x1, .i32⟩
  | 54 => ⟨S16384x1, .i1⟩
  | 55 => ⟨S16384x1, .i1⟩
  | 56 => ⟨S_, .i1⟩
  | 57 => ⟨S16384, .i1⟩
  | 58 => ⟨S16384x32, .f32⟩
  | 59 => ⟨S16384x32, .i1⟩
  | 60 => ⟨S_, .f32⟩
  | 61 => ⟨S16384x32, .f32⟩
  | 62 => ⟨S16384x32, .f32⟩
  | 63 => ⟨S16384x1, .i32⟩
  | 64 => ⟨S16384, .i32⟩
  | 65 => ⟨S1x100000x32, .f32⟩
  | 66 => ⟨S100000x32, .f32⟩
  | 67 => ⟨S_, .i32⟩
  | 68 => ⟨S16384, .i32⟩
  | 69 => ⟨S16384, .i1⟩
  | 70 => ⟨S_, .i32⟩
  | 71 => ⟨S16384, .i32⟩
  | 72 => ⟨S16384, .i32⟩
  | 73 => ⟨S16384, .i32⟩
  | 74 => ⟨S16384x1, .i32⟩
  | 75 => ⟨S1, .i32⟩
  | 76 => ⟨S_, .i32⟩
  | 77 => ⟨S16384x1, .i32⟩
  | 78 => ⟨S16384x1, .i1⟩
  | 79 => ⟨S1x1, .i32⟩
  | 80 => ⟨S16384x1, .i32⟩
  | 81 => ⟨S16384x1, .i1⟩
  | 82 => ⟨S16384x1, .i1⟩
  | 83 => ⟨S_, .i1⟩
  | 84 => ⟨S16384, .i1⟩
  | 85 => ⟨S16384x32, .f32⟩
  | 86 => ⟨S16384x32, .i1⟩
  | 87 => ⟨S_, .f32⟩
  | 88 => ⟨S16384x32, .f32⟩
  | 89 => ⟨S16384x32, .f32⟩
  | 90 => ⟨S16384x1, .i32⟩
  | 91 => ⟨S16384, .i32⟩
  | 92 => ⟨S1x100000x32, .f32⟩
  | 93 => ⟨S100000x32, .f32⟩
  | 94 => ⟨S_, .i32⟩
  | 95 => ⟨S16384, .i32⟩
  | 96 => ⟨S16384, .i1⟩
  | 97 => ⟨S_, .i32⟩
  | 98 => ⟨S16384, .i32⟩
  | 99 => ⟨S16384, .i32⟩
  | 100 => ⟨S16384, .i32⟩
  | 101 => ⟨S16384x1, .i32⟩
  | 102 => ⟨S1, .i32⟩
  | 103 => ⟨S_, .i32⟩
  | 104 => ⟨S16384x1, .i32⟩
  | 105 => ⟨S16384x1, .i1⟩
  | 106 => ⟨S1x1, .i32⟩
  | 107 => ⟨S16384x1, .i32⟩
  | 108 => ⟨S16384x1, .i1⟩
  | 109 => ⟨S16384x1, .i1⟩
  | 110 => ⟨S_, .i1⟩
  | 111 => ⟨S16384, .i1⟩
  | 112 => ⟨S16384x32, .f32⟩
  | 113 => ⟨S16384x32, .i1⟩
  | 114 => ⟨S_, .f32⟩
  | 115 => ⟨S16384x32, .f32⟩
  | 116 => ⟨S16384x32, .f32⟩
  | 117 => ⟨S16384x1, .i32⟩
  | 118 => ⟨S16384, .i32⟩
  | 119 => ⟨S1x100000x32, .f32⟩
  | 120 => ⟨S100000x32, .f32⟩
  | 121 => ⟨S_, .i32⟩
  | 122 => ⟨S16384, .i32⟩
  | 123 => ⟨S16384, .i1⟩
  | 124 => ⟨S_, .i32⟩
  | 125 => ⟨S16384, .i32⟩
  | 126 => ⟨S16384, .i32⟩
  | 127 => ⟨S16384, .i32⟩
  | _ => ⟨S16384x26, .i32⟩

abbrev hbmTy0_2 (i : Nat) : BufTy := match i % 128 with
  | 0 => ⟨S16384x1, .i32⟩
  | 1 => ⟨S1, .i32⟩
  | 2 => ⟨S_, .i32⟩
  | 3 => ⟨S16384x1, .i32⟩
  | 4 => ⟨S16384x1, .i1⟩
  | 5 => ⟨S1x1, .i32⟩
  | 6 => ⟨S16384x1, .i32⟩
  | 7 => ⟨S16384x1, .i1⟩
  | 8 => ⟨S16384x1, .i1⟩
  | 9 => ⟨S_, .i1⟩
  | 10 => ⟨S16384, .i1⟩
  | 11 => ⟨S16384x32, .f32⟩
  | 12 => ⟨S16384x32, .i1⟩
  | 13 => ⟨S_, .f32⟩
  | 14 => ⟨S16384x32, .f32⟩
  | 15 => ⟨S16384x32, .f32⟩
  | 16 => ⟨S16384x1, .i32⟩
  | 17 => ⟨S16384, .i32⟩
  | 18 => ⟨S1x100000x32, .f32⟩
  | 19 => ⟨S100000x32, .f32⟩
  | 20 => ⟨S_, .i32⟩
  | 21 => ⟨S16384, .i32⟩
  | 22 => ⟨S16384, .i1⟩
  | 23 => ⟨S_, .i32⟩
  | 24 => ⟨S16384, .i32⟩
  | 25 => ⟨S16384, .i32⟩
  | 26 => ⟨S16384, .i32⟩
  | 27 => ⟨S16384x1, .i32⟩
  | 28 => ⟨S1, .i32⟩
  | 29 => ⟨S_, .i32⟩
  | 30 => ⟨S16384x1, .i32⟩
  | 31 => ⟨S16384x1, .i1⟩
  | 32 => ⟨S1x1, .i32⟩
  | 33 => ⟨S16384x1, .i32⟩
  | 34 => ⟨S16384x1, .i1⟩
  | 35 => ⟨S16384x1, .i1⟩
  | 36 => ⟨S_, .i1⟩
  | 37 => ⟨S16384, .i1⟩
  | 38 => ⟨S16384x32, .f32⟩
  | 39 => ⟨S16384x32, .i1⟩
  | 40 => ⟨S_, .f32⟩
  | 41 => ⟨S16384x32, .f32⟩
  | 42 => ⟨S16384x32, .f32⟩
  | 43 => ⟨S16384x1, .i32⟩
  | 44 => ⟨S16384, .i32⟩
  | 45 => ⟨S1x100000x32, .f32⟩
  | 46 => ⟨S100000x32, .f32⟩
  | 47 => ⟨S_, .i32⟩
  | 48 => ⟨S16384, .i32⟩
  | 49 => ⟨S16384, .i1⟩
  | 50 => ⟨S_, .i32⟩
  | 51 => ⟨S16384, .i32⟩
  | 52 => ⟨S16384, .i32⟩
  | 53 => ⟨S16384, .i32⟩
  | 54 => ⟨S16384x1, .i32⟩
  | 55 => ⟨S1, .i32⟩
  | 56 => ⟨S_, .i32⟩
  | 57 => ⟨S16384x1, .i32⟩
  | 58 => ⟨S16384x1, .i1⟩
  | 59 => ⟨S1x1, .i32⟩
  | 60 => ⟨S16384x1, .i32⟩
  | 61 => ⟨S16384x1, .i1⟩
  | 62 => ⟨S16384x1, .i1⟩
  | 63 => ⟨S_, .i1⟩
  | 64 => ⟨S16384, .i1⟩
  | 65 => ⟨S16384x32, .f32⟩
  | 66 => ⟨S16384x32, .i1⟩
  | 67 => ⟨S_, .f32⟩
  | 68 => ⟨S16384x32, .f32⟩
  | 69 => ⟨S16384x32, .f32⟩
  | 70 => ⟨S16384x1, .i32⟩
  | 71 => ⟨S16384, .i32⟩
  | 72 => ⟨S1x100000x32, .f32⟩
  | 73 => ⟨S100000x32, .f32⟩
  | 74 => ⟨S_, .i32⟩
  | 75 => ⟨S16384, .i32⟩
  | 76 => ⟨S16384, .i1⟩
  | 77 => ⟨S_, .i32⟩
  | 78 => ⟨S16384, .i32⟩
  | 79 => ⟨S16384, .i32⟩
  | 80 => ⟨S16384, .i32⟩
  | 81 => ⟨S16384x1, .i32⟩
  | 82 => ⟨S1, .i32⟩
  | 83 => ⟨S_, .i32⟩
  | 84 => ⟨S16384x1, .i32⟩
  | 85 => ⟨S16384x1, .i1⟩
  | 86 => ⟨S1x1, .i32⟩
  | 87 => ⟨S16384x1, .i32⟩
  | 88 => ⟨S16384x1, .i1⟩
  | 89 => ⟨S16384x1, .i1⟩
  | 90 => ⟨S_, .i1⟩
  | 91 => ⟨S16384, .i1⟩
  | 92 => ⟨S16384x32, .f32⟩
  | 93 => ⟨S16384x32, .i1⟩
  | 94 => ⟨S_, .f32⟩
  | 95 => ⟨S16384x32, .f32⟩
  | 96 => ⟨S16384x32, .f32⟩
  | 97 => ⟨S16384x1, .i32⟩
  | 98 => ⟨S16384, .i32⟩
  | 99 => ⟨S1x100000x32, .f32⟩
  | 100 => ⟨S100000x32, .f32⟩
  | 101 => ⟨S_, .i32⟩
  | 102 => ⟨S16384, .i32⟩
  | 103 => ⟨S16384, .i1⟩
  | 104 => ⟨S_, .i32⟩
  | 105 => ⟨S16384, .i32⟩
  | 106 => ⟨S16384, .i32⟩
  | 107 => ⟨S16384, .i32⟩
  | 108 => ⟨S16384x1, .i32⟩
  | 109 => ⟨S1, .i32⟩
  | 110 => ⟨S_, .i32⟩
  | 111 => ⟨S16384x1, .i32⟩
  | 112 => ⟨S16384x1, .i1⟩
  | 113 => ⟨S1x1, .i32⟩
  | 114 => ⟨S16384x1, .i32⟩
  | 115 => ⟨S16384x1, .i1⟩
  | 116 => ⟨S16384x1, .i1⟩
  | 117 => ⟨S_, .i1⟩
  | 118 => ⟨S16384, .i1⟩
  | 119 => ⟨S16384x32, .f32⟩
  | 120 => ⟨S16384x32, .i1⟩
  | 121 => ⟨S_, .f32⟩
  | 122 => ⟨S16384x32, .f32⟩
  | 123 => ⟨S16384x32, .f32⟩
  | 124 => ⟨S16384x1, .i32⟩
  | 125 => ⟨S16384, .i32⟩
  | 126 => ⟨S1x100000x32, .f32⟩
  | 127 => ⟨S100000x32, .f32⟩
  | _ => ⟨S16384x26, .i32⟩

abbrev hbmTy0_3 (i : Nat) : BufTy := match i % 128 with
  | 0 => ⟨S_, .i32⟩
  | 1 => ⟨S16384, .i32⟩
  | 2 => ⟨S16384, .i1⟩
  | 3 => ⟨S_, .i32⟩
  | 4 => ⟨S16384, .i32⟩
  | 5 => ⟨S16384, .i32⟩
  | 6 => ⟨S16384, .i32⟩
  | 7 => ⟨S16384x1, .i32⟩
  | 8 => ⟨S1, .i32⟩
  | 9 => ⟨S_, .i32⟩
  | 10 => ⟨S16384x1, .i32⟩
  | 11 => ⟨S16384x1, .i1⟩
  | 12 => ⟨S1x1, .i32⟩
  | 13 => ⟨S16384x1, .i32⟩
  | 14 => ⟨S16384x1, .i1⟩
  | 15 => ⟨S16384x1, .i1⟩
  | 16 => ⟨S_, .i1⟩
  | 17 => ⟨S16384, .i1⟩
  | 18 => ⟨S16384x32, .f32⟩
  | 19 => ⟨S16384x32, .i1⟩
  | 20 => ⟨S_, .f32⟩
  | 21 => ⟨S16384x32, .f32⟩
  | 22 => ⟨S16384x32, .f32⟩
  | 23 => ⟨S16384x1, .i32⟩
  | 24 => ⟨S16384, .i32⟩
  | 25 => ⟨S1x100000x32, .f32⟩
  | 26 => ⟨S100000x32, .f32⟩
  | 27 => ⟨S_, .i32⟩
  | 28 => ⟨S16384, .i32⟩
  | 29 => ⟨S16384, .i1⟩
  | 30 => ⟨S_, .i32⟩
  | 31 => ⟨S16384, .i32⟩
  | 32 => ⟨S16384, .i32⟩
  | 33 => ⟨S16384, .i32⟩
  | 34 => ⟨S16384x1, .i32⟩
  | 35 => ⟨S1, .i32⟩
  | 36 => ⟨S_, .i32⟩
  | 37 => ⟨S16384x1, .i32⟩
  | 38 => ⟨S16384x1, .i1⟩
  | 39 => ⟨S1x1, .i32⟩
  | 40 => ⟨S16384x1, .i32⟩
  | 41 => ⟨S16384x1, .i1⟩
  | 42 => ⟨S16384x1, .i1⟩
  | 43 => ⟨S_, .i1⟩
  | 44 => ⟨S16384, .i1⟩
  | 45 => ⟨S16384x32, .f32⟩
  | 46 => ⟨S16384x32, .i1⟩
  | 47 => ⟨S_, .f32⟩
  | 48 => ⟨S16384x32, .f32⟩
  | 49 => ⟨S16384x32, .f32⟩
  | 50 => ⟨S16384x1, .i32⟩
  | 51 => ⟨S16384, .i32⟩
  | 52 => ⟨S1x100000x32, .f32⟩
  | 53 => ⟨S100000x32, .f32⟩
  | 54 => ⟨S_, .i32⟩
  | 55 => ⟨S16384, .i32⟩
  | 56 => ⟨S16384, .i1⟩
  | 57 => ⟨S_, .i32⟩
  | 58 => ⟨S16384, .i32⟩
  | 59 => ⟨S16384, .i32⟩
  | 60 => ⟨S16384, .i32⟩
  | 61 => ⟨S16384x1, .i32⟩
  | 62 => ⟨S1, .i32⟩
  | 63 => ⟨S_, .i32⟩
  | 64 => ⟨S16384x1, .i32⟩
  | 65 => ⟨S16384x1, .i1⟩
  | 66 => ⟨S1x1, .i32⟩
  | 67 => ⟨S16384x1, .i32⟩
  | 68 => ⟨S16384x1, .i1⟩
  | 69 => ⟨S16384x1, .i1⟩
  | 70 => ⟨S_, .i1⟩
  | 71 => ⟨S16384, .i1⟩
  | 72 => ⟨S16384x32, .f32⟩
  | 73 => ⟨S16384x32, .i1⟩
  | 74 => ⟨S_, .f32⟩
  | 75 => ⟨S16384x32, .f32⟩
  | 76 => ⟨S16384x32, .f32⟩
  | 77 => ⟨S16384x1, .i32⟩
  | 78 => ⟨S16384, .i32⟩
  | 79 => ⟨S1x100000x32, .f32⟩
  | 80 => ⟨S100000x32, .f32⟩
  | 81 => ⟨S_, .i32⟩
  | 82 => ⟨S16384, .i32⟩
  | 83 => ⟨S16384, .i1⟩
  | 84 => ⟨S_, .i32⟩
  | 85 => ⟨S16384, .i32⟩
  | 86 => ⟨S16384, .i32⟩
  | 87 => ⟨S16384, .i32⟩
  | 88 => ⟨S16384x1, .i32⟩
  | 89 => ⟨S1, .i32⟩
  | 90 => ⟨S_, .i32⟩
  | 91 => ⟨S16384x1, .i32⟩
  | 92 => ⟨S16384x1, .i1⟩
  | 93 => ⟨S1x1, .i32⟩
  | 94 => ⟨S16384x1, .i32⟩
  | 95 => ⟨S16384x1, .i1⟩
  | 96 => ⟨S16384x1, .i1⟩
  | 97 => ⟨S_, .i1⟩
  | 98 => ⟨S16384, .i1⟩
  | 99 => ⟨S16384x32, .f32⟩
  | 100 => ⟨S16384x32, .i1⟩
  | 101 => ⟨S_, .f32⟩
  | 102 => ⟨S16384x32, .f32⟩
  | 103 => ⟨S16384x32, .f32⟩
  | 104 => ⟨S16384x1, .i32⟩
  | 105 => ⟨S16384, .i32⟩
  | 106 => ⟨S1x100000x32, .f32⟩
  | 107 => ⟨S100000x32, .f32⟩
  | 108 => ⟨S_, .i32⟩
  | 109 => ⟨S16384, .i32⟩
  | 110 => ⟨S16384, .i1⟩
  | 111 => ⟨S_, .i32⟩
  | 112 => ⟨S16384, .i32⟩
  | 113 => ⟨S16384, .i32⟩
  | 114 => ⟨S16384, .i32⟩
  | 115 => ⟨S16384x1, .i32⟩
  | 116 => ⟨S1, .i32⟩
  | 117 => ⟨S_, .i32⟩
  | 118 => ⟨S16384x1, .i32⟩
  | 119 => ⟨S16384x1, .i1⟩
  | 120 => ⟨S1x1, .i32⟩
  | 121 => ⟨S16384x1, .i32⟩
  | 122 => ⟨S16384x1, .i1⟩
  | 123 => ⟨S16384x1, .i1⟩
  | 124 => ⟨S_, .i1⟩
  | 125 => ⟨S16384, .i1⟩
  | 126 => ⟨S16384x32, .f32⟩
  | 127 => ⟨S16384x32, .i1⟩
  | _ => ⟨S16384x26, .i32⟩

abbrev hbmTy0_4 (i : Nat) : BufTy := match i % 128 with
  | 0 => ⟨S_, .f32⟩
  | 1 => ⟨S16384x32, .f32⟩
  | 2 => ⟨S16384x32, .f32⟩
  | 3 => ⟨S16384x1, .i32⟩
  | 4 => ⟨S16384, .i32⟩
  | 5 => ⟨S1x100000x32, .f32⟩
  | 6 => ⟨S100000x32, .f32⟩
  | 7 => ⟨S_, .i32⟩
  | 8 => ⟨S16384, .i32⟩
  | 9 => ⟨S16384, .i1⟩
  | 10 => ⟨S_, .i32⟩
  | 11 => ⟨S16384, .i32⟩
  | 12 => ⟨S16384, .i32⟩
  | 13 => ⟨S16384, .i32⟩
  | 14 => ⟨S16384x1, .i32⟩
  | 15 => ⟨S1, .i32⟩
  | 16 => ⟨S_, .i32⟩
  | 17 => ⟨S16384x1, .i32⟩
  | 18 => ⟨S16384x1, .i1⟩
  | 19 => ⟨S1x1, .i32⟩
  | 20 => ⟨S16384x1, .i32⟩
  | 21 => ⟨S16384x1, .i1⟩
  | 22 => ⟨S16384x1, .i1⟩
  | 23 => ⟨S_, .i1⟩
  | 24 => ⟨S16384, .i1⟩
  | 25 => ⟨S16384x32, .f32⟩
  | 26 => ⟨S16384x32, .i1⟩
  | 27 => ⟨S_, .f32⟩
  | 28 => ⟨S16384x32, .f32⟩
  | 29 => ⟨S16384x32, .f32⟩
  | 30 => ⟨S16384x1, .i32⟩
  | 31 => ⟨S16384, .i32⟩
  | 32 => ⟨S1x100000x32, .f32⟩
  | 33 => ⟨S100000x32, .f32⟩
  | 34 => ⟨S_, .i32⟩
  | 35 => ⟨S16384, .i32⟩
  | 36 => ⟨S16384, .i1⟩
  | 37 => ⟨S_, .i32⟩
  | 38 => ⟨S16384, .i32⟩
  | 39 => ⟨S16384, .i32⟩
  | 40 => ⟨S16384, .i32⟩
  | 41 => ⟨S16384x1, .i32⟩
  | 42 => ⟨S1, .i32⟩
  | 43 => ⟨S_, .i32⟩
  | 44 => ⟨S16384x1, .i32⟩
  | 45 => ⟨S16384x1, .i1⟩
  | 46 => ⟨S1x1, .i32⟩
  | 47 => ⟨S16384x1, .i32⟩
  | 48 => ⟨S16384x1, .i1⟩
  | 49 => ⟨S16384x1, .i1⟩
  | 50 => ⟨S_, .i1⟩
  | 51 => ⟨S16384, .i1⟩
  | 52 => ⟨S16384x32, .f32⟩
  | 53 => ⟨S16384x32, .i1⟩
  | 54 => ⟨S_, .f32⟩
  | 55 => ⟨S16384x32, .f32⟩
  | 56 => ⟨S16384x32, .f32⟩
  | 57 => ⟨S16384x1, .i32⟩
  | 58 => ⟨S16384, .i32⟩
  | 59 => ⟨S1x100000x32, .f32⟩
  | 60 => ⟨S100000x32, .f32⟩
  | 61 => ⟨S_, .i32⟩
  | 62 => ⟨S16384, .i32⟩
  | 63 => ⟨S16384, .i1⟩
  | 64 => ⟨S_, .i32⟩
  | 65 => ⟨S16384, .i32⟩
  | 66 => ⟨S16384, .i32⟩
  | 67 => ⟨S16384, .i32⟩
  | 68 => ⟨S16384x1, .i32⟩
  | 69 => ⟨S1, .i32⟩
  | 70 => ⟨S_, .i32⟩
  | 71 => ⟨S16384x1, .i32⟩
  | 72 => ⟨S16384x1, .i1⟩
  | 73 => ⟨S1x1, .i32⟩
  | 74 => ⟨S16384x1, .i32⟩
  | 75 => ⟨S16384x1, .i1⟩
  | 76 => ⟨S16384x1, .i1⟩
  | 77 => ⟨S_, .i1⟩
  | 78 => ⟨S16384, .i1⟩
  | 79 => ⟨S16384x32, .f32⟩
  | 80 => ⟨S16384x32, .i1⟩
  | 81 => ⟨S_, .f32⟩
  | 82 => ⟨S16384x32, .f32⟩
  | 83 => ⟨S16384x32, .f32⟩
  | 84 => ⟨S16384x1, .i32⟩
  | 85 => ⟨S16384, .i32⟩
  | 86 => ⟨S1x100000x32, .f32⟩
  | 87 => ⟨S100000x32, .f32⟩
  | 88 => ⟨S_, .i32⟩
  | 89 => ⟨S16384, .i32⟩
  | 90 => ⟨S16384, .i1⟩
  | 91 => ⟨S_, .i32⟩
  | 92 => ⟨S16384, .i32⟩
  | 93 => ⟨S16384, .i32⟩
  | 94 => ⟨S16384, .i32⟩
  | 95 => ⟨S16384x1, .i32⟩
  | 96 => ⟨S1, .i32⟩
  | 97 => ⟨S_, .i32⟩
  | 98 => ⟨S16384x1, .i32⟩
  | 99 => ⟨S16384x1, .i1⟩
  | 100 => ⟨S1x1, .i32⟩
  | 101 => ⟨S16384x1, .i32⟩
  | 102 => ⟨S16384x1, .i1⟩
  | 103 => ⟨S16384x1, .i1⟩
  | 104 => ⟨S_, .i1⟩
  | 105 => ⟨S16384, .i1⟩
  | 106 => ⟨S16384x32, .f32⟩
  | 107 => ⟨S16384x32, .i1⟩
  | 108 => ⟨S_, .f32⟩
  | 109 => ⟨S16384x32, .f32⟩
  | 110 => ⟨S16384x32, .f32⟩
  | 111 => ⟨S16384x1, .i32⟩
  | 112 => ⟨S16384, .i32⟩
  | 113 => ⟨S1x100000x32, .f32⟩
  | 114 => ⟨S100000x32, .f32⟩
  | 115 => ⟨S_, .i32⟩
  | 116 => ⟨S16384, .i32⟩
  | 117 => ⟨S16384, .i1⟩
  | 118 => ⟨S_, .i32⟩
  | 119 => ⟨S16384, .i32⟩
  | 120 => ⟨S16384, .i32⟩
  | 121 => ⟨S16384, .i32⟩
  | 122 => ⟨S16384x1, .i32⟩
  | 123 => ⟨S1, .i32⟩
  | 124 => ⟨S_, .i32⟩
  | 125 => ⟨S16384x1, .i32⟩
  | 126 => ⟨S16384x1, .i1⟩
  | 127 => ⟨S1x1, .i32⟩
  | _ => ⟨S16384x26, .i32⟩

abbrev hbmTy0_5 (i : Nat) : BufTy := match i % 128 with
  | 0 => ⟨S16384x1, .i32⟩
  | 1 => ⟨S16384x1, .i1⟩
  | 2 => ⟨S16384x1, .i1⟩
  | 3 => ⟨S_, .i1⟩
  | 4 => ⟨S16384, .i1⟩
  | 5 => ⟨S16384x32, .f32⟩
  | 6 => ⟨S16384x32, .i1⟩
  | 7 => ⟨S_, .f32⟩
  | 8 => ⟨S16384x32, .f32⟩
  | 9 => ⟨S16384x32, .f32⟩
  | 10 => ⟨S16384x1, .i32⟩
  | 11 => ⟨S16384, .i32⟩
  | 12 => ⟨S1x100000x32, .f32⟩
  | 13 => ⟨S100000x32, .f32⟩
  | 14 => ⟨S_, .i32⟩
  | 15 => ⟨S16384, .i32⟩
  | 16 => ⟨S16384, .i1⟩
  | 17 => ⟨S_, .i32⟩
  | 18 => ⟨S16384, .i32⟩
  | 19 => ⟨S16384, .i32⟩
  | 20 => ⟨S16384, .i32⟩
  | 21 => ⟨S16384x1, .i32⟩
  | 22 => ⟨S1, .i32⟩
  | 23 => ⟨S_, .i32⟩
  | 24 => ⟨S16384x1, .i32⟩
  | 25 => ⟨S16384x1, .i1⟩
  | 26 => ⟨S1x1, .i32⟩
  | 27 => ⟨S16384x1, .i32⟩
  | 28 => ⟨S16384x1, .i1⟩
  | 29 => ⟨S16384x1, .i1⟩
  | 30 => ⟨S_, .i1⟩
  | 31 => ⟨S16384, .i1⟩
  | 32 => ⟨S16384x32, .f32⟩
  | 33 => ⟨S16384x32, .i1⟩
  | 34 => ⟨S_, .f32⟩
  | 35 => ⟨S16384x32, .f32⟩
  | 36 => ⟨S16384x32, .f32⟩
  | 37 => ⟨S16384x1, .i32⟩
  | 38 => ⟨S16384, .i32⟩
  | 39 => ⟨S1x100000x32, .f32⟩
  | 40 => ⟨S100000x32, .f32⟩
  | 41 => ⟨S_, .i32⟩
  | 42 => ⟨S16384, .i32⟩
  | 43 => ⟨S16384, .i1⟩
  | 44 => ⟨S_, .i32⟩
  | 45 => ⟨S16384, .i32⟩
  | 46 => ⟨S16384, .i32⟩
  | 47 => ⟨S16384, .i32⟩
  | 48 => ⟨S16384x1, .i32⟩
  | 49 => ⟨S1, .i32⟩
  | 50 => ⟨S_, .i32⟩
  | 51 => ⟨S16384x1, .i32⟩
  | 52 => ⟨S16384x1, .i1⟩
  | 53 => ⟨S1x1, .i32⟩
  | 54 => ⟨S16384x1, .i32⟩
  | 55 => ⟨S16384x1, .i1⟩
  | 56 => ⟨S16384x1, .i1⟩
  | 57 => ⟨S_, .i1⟩
  | 58 => ⟨S16384, .i1⟩
  | 59 => ⟨S16384x32, .f32⟩
  | 60 => ⟨S16384x32, .i1⟩
  | 61 => ⟨S_, .f32⟩
  | 62 => ⟨S16384x32, .f32⟩
  | 63 => ⟨S16384x32, .f32⟩
  | 64 => ⟨S16384x512, .f32⟩
  | 65 => ⟨S16384x320, .f32⟩
  | 66 => ⟨S16384x832, .f32⟩
  | _ => ⟨S16384x26, .i32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S16384x26, .i32⟩

abbrev bufTy : (tb : Table) → Fin (tcTables nBuf tb) → BufTy
  | .hbm, ⟨i, _⟩ => hbmTy i
  | _, _ => ⟨S16384x26, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_call1_c : Ref sig .tc := ⟨.hbm, 33, rfl⟩
abbrev main_call1_v0 : Ref sig .tc := ⟨.hbm, 34, rfl⟩
abbrev main_call1_v1 : Ref sig .tc := ⟨.hbm, 35, rfl⟩
abbrev main_call1_c_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_c_1 : Ref sig .tc := ⟨.hbm, 41, rfl⟩
abbrev main_call1_c_2 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_3 : Ref sig .tc := ⟨.hbm, 49, rfl⟩
abbrev main_call1_v12 : Ref sig .tc := ⟨.hbm, 50, rfl⟩
abbrev main_call1_v13 : Ref sig .tc := ⟨.hbm, 51, rfl⟩
abbrev main_call1_v14 : Ref sig .tc := ⟨.hbm, 52, rfl⟩
abbrev main_call1_cst : Ref sig .tc := ⟨.hbm, 53, rfl⟩
abbrev main_call1_v15 : Ref sig .tc := ⟨.hbm, 54, rfl⟩
abbrev main_v9 : Ref sig .tc := ⟨.hbm, 55, rfl⟩
abbrev main_v10 : Ref sig .tc := ⟨.hbm, 56, rfl⟩
abbrev main_v11 : Ref sig .tc := ⟨.hbm, 57, rfl⟩
abbrev main_v12 : Ref sig .tc := ⟨.hbm, 58, rfl⟩
abbrev main_v13 : Ref sig .tc := ⟨.hbm, 59, rfl⟩
abbrev main_call2_c : Ref sig .tc := ⟨.hbm, 60, rfl⟩
abbrev main_call2_v0 : Ref sig .tc := ⟨.hbm, 61, rfl⟩
abbrev main_call2_v1 : Ref sig .tc := ⟨.hbm, 62, rfl⟩
abbrev main_call2_c_0 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_call2_v5 : Ref sig .tc := ⟨.hbm, 67, rfl⟩
abbrev main_call2_c_1 : Ref sig .tc := ⟨.hbm, 68, rfl⟩
abbrev main_call2_c_2 : Ref sig .tc := ⟨.hbm, 69, rfl⟩
abbrev main_call2_v6 : Ref sig .tc := ⟨.hbm, 70, rfl⟩
abbrev main_call2_v7 : Ref sig .tc := ⟨.hbm, 71, rfl⟩
abbrev main_call2_v8 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_c_3 : Ref sig .tc := ⟨.hbm, 76, rfl⟩
abbrev main_call2_v12 : Ref sig .tc := ⟨.hbm, 77, rfl⟩
abbrev main_call2_v13 : Ref sig .tc := ⟨.hbm, 78, rfl⟩
abbrev main_call2_v14 : Ref sig .tc := ⟨.hbm, 79, rfl⟩
abbrev main_call2_cst : Ref sig .tc := ⟨.hbm, 80, rfl⟩
abbrev main_call2_v15 : Ref sig .tc := ⟨.hbm, 81, rfl⟩
abbrev main_v14 : Ref sig .tc := ⟨.hbm, 82, rfl⟩
abbrev main_v15 : Ref sig .tc := ⟨.hbm, 83, rfl⟩
abbrev main_v16 : Ref sig .tc := ⟨.hbm, 84, rfl⟩
abbrev main_v17 : Ref sig .tc := ⟨.hbm, 85, rfl⟩
abbrev main_v18 : Ref sig .tc := ⟨.hbm, 86, rfl⟩
abbrev main_call3_c : Ref sig .tc := ⟨.hbm, 87, rfl⟩
abbrev main_call3_v0 : Ref sig .tc := ⟨.hbm, 88, rfl⟩
abbrev main_call3_v1 : Ref sig .tc := ⟨.hbm, 89, rfl⟩
abbrev main_call3_c_0 : Ref sig .tc := ⟨.hbm, 90, rfl⟩
abbrev main_call3_v2 : Ref sig .tc := ⟨.hbm, 91, rfl⟩
abbrev main_call3_v3 : Ref sig .tc := ⟨.hbm, 92, rfl⟩
abbrev main_call3_v4 : Ref sig .tc := ⟨.hbm, 93, rfl⟩
abbrev main_call3_v5 : Ref sig .tc := ⟨.hbm, 94, rfl⟩
abbrev main_call3_c_1 : Ref sig .tc := ⟨.hbm, 95, rfl⟩
abbrev main_call3_c_2 : Ref sig .tc := ⟨.hbm, 96, rfl⟩
abbrev main_call3_v6 : Ref sig .tc := ⟨.hbm, 97, rfl⟩
abbrev main_call3_v7 : Ref sig .tc := ⟨.hbm, 98, rfl⟩
abbrev main_call3_v8 : Ref sig .tc := ⟨.hbm, 99, rfl⟩
abbrev main_call3_v9 : Ref sig .tc := ⟨.hbm, 100, rfl⟩
abbrev main_call3_v10 : Ref sig .tc := ⟨.hbm, 101, rfl⟩
abbrev main_call3_v11 : Ref sig .tc := ⟨.hbm, 102, rfl⟩
abbrev main_call3_c_3 : Ref sig .tc := ⟨.hbm, 103, rfl⟩
abbrev main_call3_v12 : Ref sig .tc := ⟨.hbm, 104, rfl⟩
abbrev main_call3_v13 : Ref sig .tc := ⟨.hbm, 105, rfl⟩
abbrev main_call3_v14 : Ref sig .tc := ⟨.hbm, 106, rfl⟩
abbrev main_call3_cst : Ref sig .tc := ⟨.hbm, 107, rfl⟩
abbrev main_call3_v15 : Ref sig .tc := ⟨.hbm, 108, rfl⟩
abbrev main_v19 : Ref sig .tc := ⟨.hbm, 109, rfl⟩
abbrev main_v20 : Ref sig .tc := ⟨.hbm, 110, rfl⟩
abbrev main_v21 : Ref sig .tc := ⟨.hbm, 111, rfl⟩
abbrev main_v22 : Ref sig .tc := ⟨.hbm, 112, rfl⟩
abbrev main_v23 : Ref sig .tc := ⟨.hbm, 113, rfl⟩
abbrev main_call4_c : Ref sig .tc := ⟨.hbm, 114, rfl⟩
abbrev main_call4_v0 : Ref sig .tc := ⟨.hbm, 115, rfl⟩
abbrev main_call4_v1 : Ref sig .tc := ⟨.hbm, 116, rfl⟩
abbrev main_call4_c_0 : Ref sig .tc := ⟨.hbm, 117, rfl⟩
abbrev main_call4_v2 : Ref sig .tc := ⟨.hbm, 118, rfl⟩
abbrev main_call4_v3 : Ref sig .tc := ⟨.hbm, 119, rfl⟩
abbrev main_call4_v4 : Ref sig .tc := ⟨.hbm, 120, rfl⟩
abbrev main_call4_v5 : Ref sig .tc := ⟨.hbm, 121, rfl⟩
abbrev main_call4_c_1 : Ref sig .tc := ⟨.hbm, 122, rfl⟩
abbrev main_call4_c_2 : Ref sig .tc := ⟨.hbm, 123, rfl⟩
abbrev main_call4_v6 : Ref sig .tc := ⟨.hbm, 124, rfl⟩
abbrev main_call4_v7 : Ref sig .tc := ⟨.hbm, 125, rfl⟩
abbrev main_call4_v8 : Ref sig .tc := ⟨.hbm, 126, rfl⟩
abbrev main_call4_v9 : Ref sig .tc := ⟨.hbm, 127, rfl⟩
abbrev main_call4_v10 : Ref sig .tc := ⟨.hbm, 128, rfl⟩
abbrev main_call4_v11 : Ref sig .tc := ⟨.hbm, 129, rfl⟩
abbrev main_call4_c_3 : Ref sig .tc := ⟨.hbm, 130, rfl⟩
abbrev main_call4_v12 : Ref sig .tc := ⟨.hbm, 131, rfl⟩
abbrev main_call4_v13 : Ref sig .tc := ⟨.hbm, 132, rfl⟩
abbrev main_call4_v14 : Ref sig .tc := ⟨.hbm, 133, rfl⟩
abbrev main_call4_cst : Ref sig .tc := ⟨.hbm, 134, rfl⟩
abbrev main_call4_v15 : Ref sig .tc := ⟨.hbm, 135, rfl⟩
abbrev main_v24 : Ref sig .tc := ⟨.hbm, 136, rfl⟩
abbrev main_v25 : Ref sig .tc := ⟨.hbm, 137, rfl⟩
abbrev main_v26 : Ref sig .tc := ⟨.hbm, 138, rfl⟩
abbrev main_v27 : Ref sig .tc := ⟨.hbm, 139, rfl⟩
abbrev main_v28 : Ref sig .tc := ⟨.hbm, 140, rfl⟩
abbrev main_call5_c : Ref sig .tc := ⟨.hbm, 141, rfl⟩
abbrev main_call5_v0 : Ref sig .tc := ⟨.hbm, 142, rfl⟩
abbrev main_call5_v1 : Ref sig .tc := ⟨.hbm, 143, rfl⟩
abbrev main_call5_c_0 : Ref sig .tc := ⟨.hbm, 144, rfl⟩
abbrev main_call5_v2 : Ref sig .tc := ⟨.hbm, 145, rfl⟩
abbrev main_call5_v3 : Ref sig .tc := ⟨.hbm, 146, rfl⟩
abbrev main_call5_v4 : Ref sig .tc := ⟨.hbm, 147, rfl⟩
abbrev main_call5_v5 : Ref sig .tc := ⟨.hbm, 148, rfl⟩
abbrev main_call5_c_1 : Ref sig .tc := ⟨.hbm, 149, rfl⟩
abbrev main_call5_c_2 : Ref sig .tc := ⟨.hbm, 150, rfl⟩
abbrev main_call5_v6 : Ref sig .tc := ⟨.hbm, 151, rfl⟩
abbrev main_call5_v7 : Ref sig .tc := ⟨.hbm, 152, rfl⟩
abbrev main_call5_v8 : Ref sig .tc := ⟨.hbm, 153, rfl⟩
abbrev main_call5_v9 : Ref sig .tc := ⟨.hbm, 154, rfl⟩
abbrev main_call5_v10 : Ref sig .tc := ⟨.hbm, 155, rfl⟩
abbrev main_call5_v11 : Ref sig .tc := ⟨.hbm, 156, rfl⟩
abbrev main_call5_c_3 : Ref sig .tc := ⟨.hbm, 157, rfl⟩
abbrev main_call5_v12 : Ref sig .tc := ⟨.hbm, 158, rfl⟩
abbrev main_call5_v13 : Ref sig .tc := ⟨.hbm, 159, rfl⟩
abbrev main_call5_v14 : Ref sig .tc := ⟨.hbm, 160, rfl⟩
abbrev main_call5_cst : Ref sig .tc := ⟨.hbm, 161, rfl⟩
abbrev main_call5_v15 : Ref sig .tc := ⟨.hbm, 162, rfl⟩
abbrev main_v29 : Ref sig .tc := ⟨.hbm, 163, rfl⟩
abbrev main_v30 : Ref sig .tc := ⟨.hbm, 164, rfl⟩
abbrev main_v31 : Ref sig .tc := ⟨.hbm, 165, rfl⟩
abbrev main_v32 : Ref sig .tc := ⟨.hbm, 166, rfl⟩
abbrev main_v33 : Ref sig .tc := ⟨.hbm, 167, rfl⟩
abbrev main_call6_c : Ref sig .tc := ⟨.hbm, 168, rfl⟩
abbrev main_call6_v0 : Ref sig .tc := ⟨.hbm, 169, rfl⟩
abbrev main_call6_v1 : Ref sig .tc := ⟨.hbm, 170, rfl⟩
abbrev main_call6_c_0 : Ref sig .tc := ⟨.hbm, 171, rfl⟩
abbrev main_call6_v2 : Ref sig .tc := ⟨.hbm, 172, rfl⟩
abbrev main_call6_v3 : Ref sig .tc := ⟨.hbm, 173, rfl⟩
abbrev main_call6_v4 : Ref sig .tc := ⟨.hbm, 174, rfl⟩
abbrev main_call6_v5 : Ref sig .tc := ⟨.hbm, 175, rfl⟩
abbrev main_call6_c_1 : Ref sig .tc := ⟨.hbm, 176, rfl⟩
abbrev main_call6_c_2 : Ref sig .tc := ⟨.hbm, 177, rfl⟩
abbrev main_call6_v6 : Ref sig .tc := ⟨.hbm, 178, rfl⟩
abbrev main_call6_v7 : Ref sig .tc := ⟨.hbm, 179, rfl⟩
abbrev main_call6_v8 : Ref sig .tc := ⟨.hbm, 180, rfl⟩
abbrev main_call6_v9 : Ref sig .tc := ⟨.hbm, 181, rfl⟩
abbrev main_call6_v10 : Ref sig .tc := ⟨.hbm, 182, rfl⟩
abbrev main_call6_v11 : Ref sig .tc := ⟨.hbm, 183, rfl⟩
abbrev main_call6_c_3 : Ref sig .tc := ⟨.hbm, 184, rfl⟩
abbrev main_call6_v12 : Ref sig .tc := ⟨.hbm, 185, rfl⟩
abbrev main_call6_v13 : Ref sig .tc := ⟨.hbm, 186, rfl⟩
abbrev main_call6_v14 : Ref sig .tc := ⟨.hbm, 187, rfl⟩
abbrev main_call6_cst : Ref sig .tc := ⟨.hbm, 188, rfl⟩
abbrev main_call6_v15 : Ref sig .tc := ⟨.hbm, 189, rfl⟩
abbrev main_v34 : Ref sig .tc := ⟨.hbm, 190, rfl⟩
abbrev main_v35 : Ref sig .tc := ⟨.hbm, 191, rfl⟩
abbrev main_v36 : Ref sig .tc := ⟨.hbm, 192, rfl⟩
abbrev main_v37 : Ref sig .tc := ⟨.hbm, 193, rfl⟩
abbrev main_v38 : Ref sig .tc := ⟨.hbm, 194, rfl⟩
abbrev main_call7_c : Ref sig .tc := ⟨.hbm, 195, rfl⟩
abbrev main_call7_v0 : Ref sig .tc := ⟨.hbm, 196, rfl⟩
abbrev main_call7_v1 : Ref sig .tc := ⟨.hbm, 197, rfl⟩
abbrev main_call7_c_0 : Ref sig .tc := ⟨.hbm, 198, rfl⟩
abbrev main_call7_v2 : Ref sig .tc := ⟨.hbm, 199, rfl⟩
abbrev main_call7_v3 : Ref sig .tc := ⟨.hbm, 200, rfl⟩
abbrev main_call7_v4 : Ref sig .tc := ⟨.hbm, 201, rfl⟩
abbrev main_call7_v5 : Ref sig .tc := ⟨.hbm, 202, rfl⟩
abbrev main_call7_c_1 : Ref sig .tc := ⟨.hbm, 203, rfl⟩
abbrev main_call7_c_2 : Ref sig .tc := ⟨.hbm, 204, rfl⟩
abbrev main_call7_v6 : Ref sig .tc := ⟨.hbm, 205, rfl⟩
abbrev main_call7_v7 : Ref sig .tc := ⟨.hbm, 206, rfl⟩
abbrev main_call7_v8 : Ref sig .tc := ⟨.hbm, 207, rfl⟩
abbrev main_call7_v9 : Ref sig .tc := ⟨.hbm, 208, rfl⟩
abbrev main_call7_v10 : Ref sig .tc := ⟨.hbm, 209, rfl⟩
abbrev main_call7_v11 : Ref sig .tc := ⟨.hbm, 210, rfl⟩
abbrev main_call7_c_3 : Ref sig .tc := ⟨.hbm, 211, rfl⟩
abbrev main_call7_v12 : Ref sig .tc := ⟨.hbm, 212, rfl⟩
abbrev main_call7_v13 : Ref sig .tc := ⟨.hbm, 213, rfl⟩
abbrev main_call7_v14 : Ref sig .tc := ⟨.hbm, 214, rfl⟩
abbrev main_call7_cst : Ref sig .tc := ⟨.hbm, 215, rfl⟩
abbrev main_call7_v15 : Ref sig .tc := ⟨.hbm, 216, rfl⟩
abbrev main_v39 : Ref sig .tc := ⟨.hbm, 217, rfl⟩
abbrev main_v40 : Ref sig .tc := ⟨.hbm, 218, rfl⟩
abbrev main_v41 : Ref sig .tc := ⟨.hbm, 219, rfl⟩
abbrev main_v42 : Ref sig .tc := ⟨.hbm, 220, rfl⟩
abbrev main_v43 : Ref sig .tc := ⟨.hbm, 221, rfl⟩
abbrev main_call8_c : Ref sig .tc := ⟨.hbm, 222, rfl⟩
abbrev main_call8_v0 : Ref sig .tc := ⟨.hbm, 223, rfl⟩
abbrev main_call8_v1 : Ref sig .tc := ⟨.hbm, 224, rfl⟩
abbrev main_call8_c_0 : Ref sig .tc := ⟨.hbm, 225, rfl⟩
abbrev main_call8_v2 : Ref sig .tc := ⟨.hbm, 226, rfl⟩
abbrev main_call8_v3 : Ref sig .tc := ⟨.hbm, 227, rfl⟩
abbrev main_call8_v4 : Ref sig .tc := ⟨.hbm, 228, rfl⟩
abbrev main_call8_v5 : Ref sig .tc := ⟨.hbm, 229, rfl⟩
abbrev main_call8_c_1 : Ref sig .tc := ⟨.hbm, 230, rfl⟩
abbrev main_call8_c_2 : Ref sig .tc := ⟨.hbm, 231, rfl⟩
abbrev main_call8_v6 : Ref sig .tc := ⟨.hbm, 232, rfl⟩
abbrev main_call8_v7 : Ref sig .tc := ⟨.hbm, 233, rfl⟩
abbrev main_call8_v8 : Ref sig .tc := ⟨.hbm, 234, rfl⟩
abbrev main_call8_v9 : Ref sig .tc := ⟨.hbm, 235, rfl⟩
abbrev main_call8_v10 : Ref sig .tc := ⟨.hbm, 236, rfl⟩
abbrev main_call8_v11 : Ref sig .tc := ⟨.hbm, 237, rfl⟩
abbrev main_call8_c_3 : Ref sig .tc := ⟨.hbm, 238, rfl⟩
abbrev main_call8_v12 : Ref sig .tc := ⟨.hbm, 239, rfl⟩
abbrev main_call8_v13 : Ref sig .tc := ⟨.hbm, 240, rfl⟩
abbrev main_call8_v14 : Ref sig .tc := ⟨.hbm, 241, rfl⟩
abbrev main_call8_cst : Ref sig .tc := ⟨.hbm, 242, rfl⟩
abbrev main_call8_v15 : Ref sig .tc := ⟨.hbm, 243, rfl⟩
abbrev main_v44 : Ref sig .tc := ⟨.hbm, 244, rfl⟩
abbrev main_v45 : Ref sig .tc := ⟨.hbm, 245, rfl⟩
abbrev main_v46 : Ref sig .tc := ⟨.hbm, 246, rfl⟩
abbrev main_v47 : Ref sig .tc := ⟨.hbm, 247, rfl⟩
abbrev main_v48 : Ref sig .tc := ⟨.hbm, 248, rfl⟩
abbrev main_call9_c : Ref sig .tc := ⟨.hbm, 249, rfl⟩
abbrev main_call9_v0 : Ref sig .tc := ⟨.hbm, 250, rfl⟩
abbrev main_call9_v1 : Ref sig .tc := ⟨.hbm, 251, rfl⟩
abbrev main_call9_c_0 : Ref sig .tc := ⟨.hbm, 252, rfl⟩
abbrev main_call9_v2 : Ref sig .tc := ⟨.hbm, 253, rfl⟩
abbrev main_call9_v3 : Ref sig .tc := ⟨.hbm, 254, rfl⟩
abbrev main_call9_v4 : Ref sig .tc := ⟨.hbm, 255, rfl⟩
abbrev main_call9_v5 : Ref sig .tc := ⟨.hbm, 256, rfl⟩
abbrev main_call9_c_1 : Ref sig .tc := ⟨.hbm, 257, rfl⟩
abbrev main_call9_c_2 : Ref sig .tc := ⟨.hbm, 258, rfl⟩
abbrev main_call9_v6 : Ref sig .tc := ⟨.hbm, 259, rfl⟩
abbrev main_call9_v7 : Ref sig .tc := ⟨.hbm, 260, rfl⟩
abbrev main_call9_v8 : Ref sig .tc := ⟨.hbm, 261, rfl⟩
abbrev main_call9_v9 : Ref sig .tc := ⟨.hbm, 262, rfl⟩
abbrev main_call9_v10 : Ref sig .tc := ⟨.hbm, 263, rfl⟩
abbrev main_call9_v11 : Ref sig .tc := ⟨.hbm, 264, rfl⟩
abbrev main_call9_c_3 : Ref sig .tc := ⟨.hbm, 265, rfl⟩
abbrev main_call9_v12 : Ref sig .tc := ⟨.hbm, 266, rfl⟩
abbrev main_call9_v13 : Ref sig .tc := ⟨.hbm, 267, rfl⟩
abbrev main_call9_v14 : Ref sig .tc := ⟨.hbm, 268, rfl⟩
abbrev main_call9_cst : Ref sig .tc := ⟨.hbm, 269, rfl⟩
abbrev main_call9_v15 : Ref sig .tc := ⟨.hbm, 270, rfl⟩
abbrev main_v49 : Ref sig .tc := ⟨.hbm, 271, rfl⟩
abbrev main_v50 : Ref sig .tc := ⟨.hbm, 272, rfl⟩
abbrev main_v51 : Ref sig .tc := ⟨.hbm, 273, rfl⟩
abbrev main_v52 : Ref sig .tc := ⟨.hbm, 274, rfl⟩
abbrev main_v53 : Ref sig .tc := ⟨.hbm, 275, rfl⟩
abbrev main_call10_c : Ref sig .tc := ⟨.hbm, 276, rfl⟩
abbrev main_call10_v0 : Ref sig .tc := ⟨.hbm, 277, rfl⟩
abbrev main_call10_v1 : Ref sig .tc := ⟨.hbm, 278, rfl⟩
abbrev main_call10_c_0 : Ref sig .tc := ⟨.hbm, 279, rfl⟩
abbrev main_call10_v2 : Ref sig .tc := ⟨.hbm, 280, rfl⟩
abbrev main_call10_v3 : Ref sig .tc := ⟨.hbm, 281, rfl⟩
abbrev main_call10_v4 : Ref sig .tc := ⟨.hbm, 282, rfl⟩
abbrev main_call10_v5 : Ref sig .tc := ⟨.hbm, 283, rfl⟩
abbrev main_call10_c_1 : Ref sig .tc := ⟨.hbm, 284, rfl⟩
abbrev main_call10_c_2 : Ref sig .tc := ⟨.hbm, 285, rfl⟩
abbrev main_call10_v6 : Ref sig .tc := ⟨.hbm, 286, rfl⟩
abbrev main_call10_v7 : Ref sig .tc := ⟨.hbm, 287, rfl⟩
abbrev main_call10_v8 : Ref sig .tc := ⟨.hbm, 288, rfl⟩
abbrev main_call10_v9 : Ref sig .tc := ⟨.hbm, 289, rfl⟩
abbrev main_call10_v10 : Ref sig .tc := ⟨.hbm, 290, rfl⟩
abbrev main_call10_v11 : Ref sig .tc := ⟨.hbm, 291, rfl⟩
abbrev main_call10_c_3 : Ref sig .tc := ⟨.hbm, 292, rfl⟩
abbrev main_call10_v12 : Ref sig .tc := ⟨.hbm, 293, rfl⟩
abbrev main_call10_v13 : Ref sig .tc := ⟨.hbm, 294, rfl⟩
abbrev main_call10_v14 : Ref sig .tc := ⟨.hbm, 295, rfl⟩
abbrev main_call10_cst : Ref sig .tc := ⟨.hbm, 296, rfl⟩
abbrev main_call10_v15 : Ref sig .tc := ⟨.hbm, 297, rfl⟩
abbrev main_v54 : Ref sig .tc := ⟨.hbm, 298, rfl⟩
abbrev main_v55 : Ref sig .tc := ⟨.hbm, 299, rfl⟩
abbrev main_v56 : Ref sig .tc := ⟨.hbm, 300, rfl⟩
abbrev main_v57 : Ref sig .tc := ⟨.hbm, 301, rfl⟩
abbrev main_v58 : Ref sig .tc := ⟨.hbm, 302, rfl⟩
abbrev main_call11_c : Ref sig .tc := ⟨.hbm, 303, rfl⟩
abbrev main_call11_v0 : Ref sig .tc := ⟨.hbm, 304, rfl⟩
abbrev main_call11_v1 : Ref sig .tc := ⟨.hbm, 305, rfl⟩
abbrev main_call11_c_0 : Ref sig .tc := ⟨.hbm, 306, rfl⟩
abbrev main_call11_v2 : Ref sig .tc := ⟨.hbm, 307, rfl⟩
abbrev main_call11_v3 : Ref sig .tc := ⟨.hbm, 308, rfl⟩
abbrev main_call11_v4 : Ref sig .tc := ⟨.hbm, 309, rfl⟩
abbrev main_call11_v5 : Ref sig .tc := ⟨.hbm, 310, rfl⟩
abbrev main_call11_c_1 : Ref sig .tc := ⟨.hbm, 311, rfl⟩
abbrev main_call11_c_2 : Ref sig .tc := ⟨.hbm, 312, rfl⟩
abbrev main_call11_v6 : Ref sig .tc := ⟨.hbm, 313, rfl⟩
abbrev main_call11_v7 : Ref sig .tc := ⟨.hbm, 314, rfl⟩
abbrev main_call11_v8 : Ref sig .tc := ⟨.hbm, 315, rfl⟩
abbrev main_call11_v9 : Ref sig .tc := ⟨.hbm, 316, rfl⟩
abbrev main_call11_v10 : Ref sig .tc := ⟨.hbm, 317, rfl⟩
abbrev main_call11_v11 : Ref sig .tc := ⟨.hbm, 318, rfl⟩
abbrev main_call11_c_3 : Ref sig .tc := ⟨.hbm, 319, rfl⟩
abbrev main_call11_v12 : Ref sig .tc := ⟨.hbm, 320, rfl⟩
abbrev main_call11_v13 : Ref sig .tc := ⟨.hbm, 321, rfl⟩
abbrev main_call11_v14 : Ref sig .tc := ⟨.hbm, 322, rfl⟩
abbrev main_call11_cst : Ref sig .tc := ⟨.hbm, 323, rfl⟩
abbrev main_call11_v15 : Ref sig .tc := ⟨.hbm, 324, rfl⟩
abbrev main_v59 : Ref sig .tc := ⟨.hbm, 325, rfl⟩
abbrev main_v60 : Ref sig .tc := ⟨.hbm, 326, rfl⟩
abbrev main_v61 : Ref sig .tc := ⟨.hbm, 327, rfl⟩
abbrev main_v62 : Ref sig .tc := ⟨.hbm, 328, rfl⟩
abbrev main_v63 : Ref sig .tc := ⟨.hbm, 329, rfl⟩
abbrev main_call12_c : Ref sig .tc := ⟨.hbm, 330, rfl⟩
abbrev main_call12_v0 : Ref sig .tc := ⟨.hbm, 331, rfl⟩
abbrev main_call12_v1 : Ref sig .tc := ⟨.hbm, 332, rfl⟩
abbrev main_call12_c_0 : Ref sig .tc := ⟨.hbm, 333, rfl⟩
abbrev main_call12_v2 : Ref sig .tc := ⟨.hbm, 334, rfl⟩
abbrev main_call12_v3 : Ref sig .tc := ⟨.hbm, 335, rfl⟩
abbrev main_call12_v4 : Ref sig .tc := ⟨.hbm, 336, rfl⟩
abbrev main_call12_v5 : Ref sig .tc := ⟨.hbm, 337, rfl⟩
abbrev main_call12_c_1 : Ref sig .tc := ⟨.hbm, 338, rfl⟩
abbrev main_call12_c_2 : Ref sig .tc := ⟨.hbm, 339, rfl⟩
abbrev main_call12_v6 : Ref sig .tc := ⟨.hbm, 340, rfl⟩
abbrev main_call12_v7 : Ref sig .tc := ⟨.hbm, 341, rfl⟩
abbrev main_call12_v8 : Ref sig .tc := ⟨.hbm, 342, rfl⟩
abbrev main_call12_v9 : Ref sig .tc := ⟨.hbm, 343, rfl⟩
abbrev main_call12_v10 : Ref sig .tc := ⟨.hbm, 344, rfl⟩
abbrev main_call12_v11 : Ref sig .tc := ⟨.hbm, 345, rfl⟩
abbrev main_call12_c_3 : Ref sig .tc := ⟨.hbm, 346, rfl⟩
abbrev main_call12_v12 : Ref sig .tc := ⟨.hbm, 347, rfl⟩
abbrev main_call12_v13 : Ref sig .tc := ⟨.hbm, 348, rfl⟩
abbrev main_call12_v14 : Ref sig .tc := ⟨.hbm, 349, rfl⟩
abbrev main_call12_cst : Ref sig .tc := ⟨.hbm, 350, rfl⟩
abbrev main_call12_v15 : Ref sig .tc := ⟨.hbm, 351, rfl⟩
abbrev main_v64 : Ref sig .tc := ⟨.hbm, 352, rfl⟩
abbrev main_v65 : Ref sig .tc := ⟨.hbm, 353, rfl⟩
abbrev main_v66 : Ref sig .tc := ⟨.hbm, 354, rfl⟩
abbrev main_v67 : Ref sig .tc := ⟨.hbm, 355, rfl⟩
abbrev main_v68 : Ref sig .tc := ⟨.hbm, 356, rfl⟩
abbrev main_call13_c : Ref sig .tc := ⟨.hbm, 357, rfl⟩
abbrev main_call13_v0 : Ref sig .tc := ⟨.hbm, 358, rfl⟩
abbrev main_call13_v1 : Ref sig .tc := ⟨.hbm, 359, rfl⟩
abbrev main_call13_c_0 : Ref sig .tc := ⟨.hbm, 360, rfl⟩
abbrev main_call13_v2 : Ref sig .tc := ⟨.hbm, 361, rfl⟩
abbrev main_call13_v3 : Ref sig .tc := ⟨.hbm, 362, rfl⟩
abbrev main_call13_v4 : Ref sig .tc := ⟨.hbm, 363, rfl⟩
abbrev main_call13_v5 : Ref sig .tc := ⟨.hbm, 364, rfl⟩
abbrev main_call13_c_1 : Ref sig .tc := ⟨.hbm, 365, rfl⟩
abbrev main_call13_c_2 : Ref sig .tc := ⟨.hbm, 366, rfl⟩
abbrev main_call13_v6 : Ref sig .tc := ⟨.hbm, 367, rfl⟩
abbrev main_call13_v7 : Ref sig .tc := ⟨.hbm, 368, rfl⟩
abbrev main_call13_v8 : Ref sig .tc := ⟨.hbm, 369, rfl⟩
abbrev main_call13_v9 : Ref sig .tc := ⟨.hbm, 370, rfl⟩
abbrev main_call13_v10 : Ref sig .tc := ⟨.hbm, 371, rfl⟩
abbrev main_call13_v11 : Ref sig .tc := ⟨.hbm, 372, rfl⟩
abbrev main_call13_c_3 : Ref sig .tc := ⟨.hbm, 373, rfl⟩
abbrev main_call13_v12 : Ref sig .tc := ⟨.hbm, 374, rfl⟩
abbrev main_call13_v13 : Ref sig .tc := ⟨.hbm, 375, rfl⟩
abbrev main_call13_v14 : Ref sig .tc := ⟨.hbm, 376, rfl⟩
abbrev main_call13_cst : Ref sig .tc := ⟨.hbm, 377, rfl⟩
abbrev main_call13_v15 : Ref sig .tc := ⟨.hbm, 378, rfl⟩
abbrev main_v69 : Ref sig .tc := ⟨.hbm, 379, rfl⟩
abbrev main_v70 : Ref sig .tc := ⟨.hbm, 380, rfl⟩
abbrev main_v71 : Ref sig .tc := ⟨.hbm, 381, rfl⟩
abbrev main_v72 : Ref sig .tc := ⟨.hbm, 382, rfl⟩
abbrev main_v73 : Ref sig .tc := ⟨.hbm, 383, rfl⟩
abbrev main_call14_c : Ref sig .tc := ⟨.hbm, 384, rfl⟩
abbrev main_call14_v0 : Ref sig .tc := ⟨.hbm, 385, rfl⟩
abbrev main_call14_v1 : Ref sig .tc := ⟨.hbm, 386, rfl⟩
abbrev main_call14_c_0 : Ref sig .tc := ⟨.hbm, 387, rfl⟩
abbrev main_call14_v2 : Ref sig .tc := ⟨.hbm, 388, rfl⟩
abbrev main_call14_v3 : Ref sig .tc := ⟨.hbm, 389, rfl⟩
abbrev main_call14_v4 : Ref sig .tc := ⟨.hbm, 390, rfl⟩
abbrev main_call14_v5 : Ref sig .tc := ⟨.hbm, 391, rfl⟩
abbrev main_call14_c_1 : Ref sig .tc := ⟨.hbm, 392, rfl⟩
abbrev main_call14_c_2 : Ref sig .tc := ⟨.hbm, 393, rfl⟩
abbrev main_call14_v6 : Ref sig .tc := ⟨.hbm, 394, rfl⟩
abbrev main_call14_v7 : Ref sig .tc := ⟨.hbm, 395, rfl⟩
abbrev main_call14_v8 : Ref sig .tc := ⟨.hbm, 396, rfl⟩
abbrev main_call14_v9 : Ref sig .tc := ⟨.hbm, 397, rfl⟩
abbrev main_call14_v10 : Ref sig .tc := ⟨.hbm, 398, rfl⟩
abbrev main_call14_v11 : Ref sig .tc := ⟨.hbm, 399, rfl⟩
abbrev main_call14_c_3 : Ref sig .tc := ⟨.hbm, 400, rfl⟩
abbrev main_call14_v12 : Ref sig .tc := ⟨.hbm, 401, rfl⟩
abbrev main_call14_v13 : Ref sig .tc := ⟨.hbm, 402, rfl⟩
abbrev main_call14_v14 : Ref sig .tc := ⟨.hbm, 403, rfl⟩
abbrev main_call14_cst : Ref sig .tc := ⟨.hbm, 404, rfl⟩
abbrev main_call14_v15 : Ref sig .tc := ⟨.hbm, 405, rfl⟩
abbrev main_v74 : Ref sig .tc := ⟨.hbm, 406, rfl⟩
abbrev main_v75 : Ref sig .tc := ⟨.hbm, 407, rfl⟩
abbrev main_v76 : Ref sig .tc := ⟨.hbm, 408, rfl⟩
abbrev main_v77 : Ref sig .tc := ⟨.hbm, 409, rfl⟩
abbrev main_v78 : Ref sig .tc := ⟨.hbm, 410, rfl⟩
abbrev main_call15_c : Ref sig .tc := ⟨.hbm, 411, rfl⟩
abbrev main_call15_v0 : Ref sig .tc := ⟨.hbm, 412, rfl⟩
abbrev main_call15_v1 : Ref sig .tc := ⟨.hbm, 413, rfl⟩
abbrev main_call15_c_0 : Ref sig .tc := ⟨.hbm, 414, rfl⟩
abbrev main_call15_v2 : Ref sig .tc := ⟨.hbm, 415, rfl⟩
abbrev main_call15_v3 : Ref sig .tc := ⟨.hbm, 416, rfl⟩
abbrev main_call15_v4 : Ref sig .tc := ⟨.hbm, 417, rfl⟩
abbrev main_call15_v5 : Ref sig .tc := ⟨.hbm, 418, rfl⟩
abbrev main_call15_c_1 : Ref sig .tc := ⟨.hbm, 419, rfl⟩
abbrev main_call15_c_2 : Ref sig .tc := ⟨.hbm, 420, rfl⟩
abbrev main_call15_v6 : Ref sig .tc := ⟨.hbm, 421, rfl⟩
abbrev main_call15_v7 : Ref sig .tc := ⟨.hbm, 422, rfl⟩
abbrev main_call15_v8 : Ref sig .tc := ⟨.hbm, 423, rfl⟩
abbrev main_call15_v9 : Ref sig .tc := ⟨.hbm, 424, rfl⟩
abbrev main_call15_v10 : Ref sig .tc := ⟨.hbm, 425, rfl⟩
abbrev main_call15_v11 : Ref sig .tc := ⟨.hbm, 426, rfl⟩
abbrev main_call15_c_3 : Ref sig .tc := ⟨.hbm, 427, rfl⟩
abbrev main_call15_v12 : Ref sig .tc := ⟨.hbm, 428, rfl⟩
abbrev main_call15_v13 : Ref sig .tc := ⟨.hbm, 429, rfl⟩
abbrev main_call15_v14 : Ref sig .tc := ⟨.hbm, 430, rfl⟩
abbrev main_call15_cst : Ref sig .tc := ⟨.hbm, 431, rfl⟩
abbrev main_call15_v15 : Ref sig .tc := ⟨.hbm, 432, rfl⟩
abbrev main_v79 : Ref sig .tc := ⟨.hbm, 433, rfl⟩
abbrev main_v80 : Ref sig .tc := ⟨.hbm, 434, rfl⟩
abbrev main_v81 : Ref sig .tc := ⟨.hbm, 435, rfl⟩
abbrev main_v82 : Ref sig .tc := ⟨.hbm, 436, rfl⟩
abbrev main_v83 : Ref sig .tc := ⟨.hbm, 437, rfl⟩
abbrev main_call16_c : Ref sig .tc := ⟨.hbm, 438, rfl⟩
abbrev main_call16_v0 : Ref sig .tc := ⟨.hbm, 439, rfl⟩
abbrev main_call16_v1 : Ref sig .tc := ⟨.hbm, 440, rfl⟩
abbrev main_call16_c_0 : Ref sig .tc := ⟨.hbm, 441, rfl⟩
abbrev main_call16_v2 : Ref sig .tc := ⟨.hbm, 442, rfl⟩
abbrev main_call16_v3 : Ref sig .tc := ⟨.hbm, 443, rfl⟩
abbrev main_call16_v4 : Ref sig .tc := ⟨.hbm, 444, rfl⟩
abbrev main_call16_v5 : Ref sig .tc := ⟨.hbm, 445, rfl⟩
abbrev main_call16_c_1 : Ref sig .tc := ⟨.hbm, 446, rfl⟩
abbrev main_call16_c_2 : Ref sig .tc := ⟨.hbm, 447, rfl⟩
abbrev main_call16_v6 : Ref sig .tc := ⟨.hbm, 448, rfl⟩
abbrev main_call16_v7 : Ref sig .tc := ⟨.hbm, 449, rfl⟩
abbrev main_call16_v8 : Ref sig .tc := ⟨.hbm, 450, rfl⟩
abbrev main_call16_v9 : Ref sig .tc := ⟨.hbm, 451, rfl⟩
abbrev main_call16_v10 : Ref sig .tc := ⟨.hbm, 452, rfl⟩
abbrev main_call16_v11 : Ref sig .tc := ⟨.hbm, 453, rfl⟩
abbrev main_call16_c_3 : Ref sig .tc := ⟨.hbm, 454, rfl⟩
abbrev main_call16_v12 : Ref sig .tc := ⟨.hbm, 455, rfl⟩
abbrev main_call16_v13 : Ref sig .tc := ⟨.hbm, 456, rfl⟩
abbrev main_call16_v14 : Ref sig .tc := ⟨.hbm, 457, rfl⟩
abbrev main_call16_cst : Ref sig .tc := ⟨.hbm, 458, rfl⟩
abbrev main_call16_v15 : Ref sig .tc := ⟨.hbm, 459, rfl⟩
abbrev main_v84 : Ref sig .tc := ⟨.hbm, 460, rfl⟩
abbrev main_v85 : Ref sig .tc := ⟨.hbm, 461, rfl⟩
abbrev main_v86 : Ref sig .tc := ⟨.hbm, 462, rfl⟩
abbrev main_v87 : Ref sig .tc := ⟨.hbm, 463, rfl⟩
abbrev main_v88 : Ref sig .tc := ⟨.hbm, 464, rfl⟩
abbrev main_call17_c : Ref sig .tc := ⟨.hbm, 465, rfl⟩
abbrev main_call17_v0 : Ref sig .tc := ⟨.hbm, 466, rfl⟩
abbrev main_call17_v1 : Ref sig .tc := ⟨.hbm, 467, rfl⟩
abbrev main_call17_c_0 : Ref sig .tc := ⟨.hbm, 468, rfl⟩
abbrev main_call17_v2 : Ref sig .tc := ⟨.hbm, 469, rfl⟩
abbrev main_call17_v3 : Ref sig .tc := ⟨.hbm, 470, rfl⟩
abbrev main_call17_v4 : Ref sig .tc := ⟨.hbm, 471, rfl⟩
abbrev main_call17_v5 : Ref sig .tc := ⟨.hbm, 472, rfl⟩
abbrev main_call17_c_1 : Ref sig .tc := ⟨.hbm, 473, rfl⟩
abbrev main_call17_c_2 : Ref sig .tc := ⟨.hbm, 474, rfl⟩
abbrev main_call17_v6 : Ref sig .tc := ⟨.hbm, 475, rfl⟩
abbrev main_call17_v7 : Ref sig .tc := ⟨.hbm, 476, rfl⟩
abbrev main_call17_v8 : Ref sig .tc := ⟨.hbm, 477, rfl⟩
abbrev main_call17_v9 : Ref sig .tc := ⟨.hbm, 478, rfl⟩
abbrev main_call17_v10 : Ref sig .tc := ⟨.hbm, 479, rfl⟩
abbrev main_call17_v11 : Ref sig .tc := ⟨.hbm, 480, rfl⟩
abbrev main_call17_c_3 : Ref sig .tc := ⟨.hbm, 481, rfl⟩
abbrev main_call17_v12 : Ref sig .tc := ⟨.hbm, 482, rfl⟩
abbrev main_call17_v13 : Ref sig .tc := ⟨.hbm, 483, rfl⟩
abbrev main_call17_v14 : Ref sig .tc := ⟨.hbm, 484, rfl⟩
abbrev main_call17_cst : Ref sig .tc := ⟨.hbm, 485, rfl⟩
abbrev main_call17_v15 : Ref sig .tc := ⟨.hbm, 486, rfl⟩
abbrev main_v89 : Ref sig .tc := ⟨.hbm, 487, rfl⟩
abbrev main_v90 : Ref sig .tc := ⟨.hbm, 488, rfl⟩
abbrev main_v91 : Ref sig .tc := ⟨.hbm, 489, rfl⟩
abbrev main_v92 : Ref sig .tc := ⟨.hbm, 490, rfl⟩
abbrev main_v93 : Ref sig .tc := ⟨.hbm, 491, rfl⟩
abbrev main_call18_c : Ref sig .tc := ⟨.hbm, 492, rfl⟩
abbrev main_call18_v0 : Ref sig .tc := ⟨.hbm, 493, rfl⟩
abbrev main_call18_v1 : Ref sig .tc := ⟨.hbm, 494, rfl⟩
abbrev main_call18_c_0 : Ref sig .tc := ⟨.hbm, 495, rfl⟩
abbrev main_call18_v2 : Ref sig .tc := ⟨.hbm, 496, rfl⟩
abbrev main_call18_v3 : Ref sig .tc := ⟨.hbm, 497, rfl⟩
abbrev main_call18_v4 : Ref sig .tc := ⟨.hbm, 498, rfl⟩
abbrev main_call18_v5 : Ref sig .tc := ⟨.hbm, 499, rfl⟩
abbrev main_call18_c_1 : Ref sig .tc := ⟨.hbm, 500, rfl⟩
abbrev main_call18_c_2 : Ref sig .tc := ⟨.hbm, 501, rfl⟩
abbrev main_call18_v6 : Ref sig .tc := ⟨.hbm, 502, rfl⟩
abbrev main_call18_v7 : Ref sig .tc := ⟨.hbm, 503, rfl⟩
abbrev main_call18_v8 : Ref sig .tc := ⟨.hbm, 504, rfl⟩
abbrev main_call18_v9 : Ref sig .tc := ⟨.hbm, 505, rfl⟩
abbrev main_call18_v10 : Ref sig .tc := ⟨.hbm, 506, rfl⟩
abbrev main_call18_v11 : Ref sig .tc := ⟨.hbm, 507, rfl⟩
abbrev main_call18_c_3 : Ref sig .tc := ⟨.hbm, 508, rfl⟩
abbrev main_call18_v12 : Ref sig .tc := ⟨.hbm, 509, rfl⟩
abbrev main_call18_v13 : Ref sig .tc := ⟨.hbm, 510, rfl⟩
abbrev main_call18_v14 : Ref sig .tc := ⟨.hbm, 511, rfl⟩
abbrev main_call18_cst : Ref sig .tc := ⟨.hbm, 512, rfl⟩
abbrev main_call18_v15 : Ref sig .tc := ⟨.hbm, 513, rfl⟩
abbrev main_v94 : Ref sig .tc := ⟨.hbm, 514, rfl⟩
abbrev main_v95 : Ref sig .tc := ⟨.hbm, 515, rfl⟩
abbrev main_v96 : Ref sig .tc := ⟨.hbm, 516, rfl⟩
abbrev main_v97 : Ref sig .tc := ⟨.hbm, 517, rfl⟩
abbrev main_v98 : Ref sig .tc := ⟨.hbm, 518, rfl⟩
abbrev main_call19_c : Ref sig .tc := ⟨.hbm, 519, rfl⟩
abbrev main_call19_v0 : Ref sig .tc := ⟨.hbm, 520, rfl⟩
abbrev main_call19_v1 : Ref sig .tc := ⟨.hbm, 521, rfl⟩
abbrev main_call19_c_0 : Ref sig .tc := ⟨.hbm, 522, rfl⟩
abbrev main_call19_v2 : Ref sig .tc := ⟨.hbm, 523, rfl⟩
abbrev main_call19_v3 : Ref sig .tc := ⟨.hbm, 524, rfl⟩
abbrev main_call19_v4 : Ref sig .tc := ⟨.hbm, 525, rfl⟩
abbrev main_call19_v5 : Ref sig .tc := ⟨.hbm, 526, rfl⟩
abbrev main_call19_c_1 : Ref sig .tc := ⟨.hbm, 527, rfl⟩
abbrev main_call19_c_2 : Ref sig .tc := ⟨.hbm, 528, rfl⟩
abbrev main_call19_v6 : Ref sig .tc := ⟨.hbm, 529, rfl⟩
abbrev main_call19_v7 : Ref sig .tc := ⟨.hbm, 530, rfl⟩
abbrev main_call19_v8 : Ref sig .tc := ⟨.hbm, 531, rfl⟩
abbrev main_call19_v9 : Ref sig .tc := ⟨.hbm, 532, rfl⟩
abbrev main_call19_v10 : Ref sig .tc := ⟨.hbm, 533, rfl⟩
abbrev main_call19_v11 : Ref sig .tc := ⟨.hbm, 534, rfl⟩
abbrev main_call19_c_3 : Ref sig .tc := ⟨.hbm, 535, rfl⟩
abbrev main_call19_v12 : Ref sig .tc := ⟨.hbm, 536, rfl⟩
abbrev main_call19_v13 : Ref sig .tc := ⟨.hbm, 537, rfl⟩
abbrev main_call19_v14 : Ref sig .tc := ⟨.hbm, 538, rfl⟩
abbrev main_call19_cst : Ref sig .tc := ⟨.hbm, 539, rfl⟩
abbrev main_call19_v15 : Ref sig .tc := ⟨.hbm, 540, rfl⟩
abbrev main_v99 : Ref sig .tc := ⟨.hbm, 541, rfl⟩
abbrev main_v100 : Ref sig .tc := ⟨.hbm, 542, rfl⟩
abbrev main_v101 : Ref sig .tc := ⟨.hbm, 543, rfl⟩
abbrev main_v102 : Ref sig .tc := ⟨.hbm, 544, rfl⟩
abbrev main_v103 : Ref sig .tc := ⟨.hbm, 545, rfl⟩
abbrev main_call20_c : Ref sig .tc := ⟨.hbm, 546, rfl⟩
abbrev main_call20_v0 : Ref sig .tc := ⟨.hbm, 547, rfl⟩
abbrev main_call20_v1 : Ref sig .tc := ⟨.hbm, 548, rfl⟩
abbrev main_call20_c_0 : Ref sig .tc := ⟨.hbm, 549, rfl⟩
abbrev main_call20_v2 : Ref sig .tc := ⟨.hbm, 550, rfl⟩
abbrev main_call20_v3 : Ref sig .tc := ⟨.hbm, 551, rfl⟩
abbrev main_call20_v4 : Ref sig .tc := ⟨.hbm, 552, rfl⟩
abbrev main_call20_v5 : Ref sig .tc := ⟨.hbm, 553, rfl⟩
abbrev main_call20_c_1 : Ref sig .tc := ⟨.hbm, 554, rfl⟩
abbrev main_call20_c_2 : Ref sig .tc := ⟨.hbm, 555, rfl⟩
abbrev main_call20_v6 : Ref sig .tc := ⟨.hbm, 556, rfl⟩
abbrev main_call20_v7 : Ref sig .tc := ⟨.hbm, 557, rfl⟩
abbrev main_call20_v8 : Ref sig .tc := ⟨.hbm, 558, rfl⟩
abbrev main_call20_v9 : Ref sig .tc := ⟨.hbm, 559, rfl⟩
abbrev main_call20_v10 : Ref sig .tc := ⟨.hbm, 560, rfl⟩
abbrev main_call20_v11 : Ref sig .tc := ⟨.hbm, 561, rfl⟩
abbrev main_call20_c_3 : Ref sig .tc := ⟨.hbm, 562, rfl⟩
abbrev main_call20_v12 : Ref sig .tc := ⟨.hbm, 563, rfl⟩
abbrev main_call20_v13 : Ref sig .tc := ⟨.hbm, 564, rfl⟩
abbrev main_call20_v14 : Ref sig .tc := ⟨.hbm, 565, rfl⟩
abbrev main_call20_cst : Ref sig .tc := ⟨.hbm, 566, rfl⟩
abbrev main_call20_v15 : Ref sig .tc := ⟨.hbm, 567, rfl⟩
abbrev main_v104 : Ref sig .tc := ⟨.hbm, 568, rfl⟩
abbrev main_v105 : Ref sig .tc := ⟨.hbm, 569, rfl⟩
abbrev main_v106 : Ref sig .tc := ⟨.hbm, 570, rfl⟩
abbrev main_v107 : Ref sig .tc := ⟨.hbm, 571, rfl⟩
abbrev main_v108 : Ref sig .tc := ⟨.hbm, 572, rfl⟩
abbrev main_call21_c : Ref sig .tc := ⟨.hbm, 573, rfl⟩
abbrev main_call21_v0 : Ref sig .tc := ⟨.hbm, 574, rfl⟩
abbrev main_call21_v1 : Ref sig .tc := ⟨.hbm, 575, rfl⟩
abbrev main_call21_c_0 : Ref sig .tc := ⟨.hbm, 576, rfl⟩
abbrev main_call21_v2 : Ref sig .tc := ⟨.hbm, 577, rfl⟩
abbrev main_call21_v3 : Ref sig .tc := ⟨.hbm, 578, rfl⟩
abbrev main_call21_v4 : Ref sig .tc := ⟨.hbm, 579, rfl⟩
abbrev main_call21_v5 : Ref sig .tc := ⟨.hbm, 580, rfl⟩
abbrev main_call21_c_1 : Ref sig .tc := ⟨.hbm, 581, rfl⟩
abbrev main_call21_c_2 : Ref sig .tc := ⟨.hbm, 582, rfl⟩
abbrev main_call21_v6 : Ref sig .tc := ⟨.hbm, 583, rfl⟩
abbrev main_call21_v7 : Ref sig .tc := ⟨.hbm, 584, rfl⟩
abbrev main_call21_v8 : Ref sig .tc := ⟨.hbm, 585, rfl⟩
abbrev main_call21_v9 : Ref sig .tc := ⟨.hbm, 586, rfl⟩
abbrev main_call21_v10 : Ref sig .tc := ⟨.hbm, 587, rfl⟩
abbrev main_call21_v11 : Ref sig .tc := ⟨.hbm, 588, rfl⟩
abbrev main_call21_c_3 : Ref sig .tc := ⟨.hbm, 589, rfl⟩
abbrev main_call21_v12 : Ref sig .tc := ⟨.hbm, 590, rfl⟩
abbrev main_call21_v13 : Ref sig .tc := ⟨.hbm, 591, rfl⟩
abbrev main_call21_v14 : Ref sig .tc := ⟨.hbm, 592, rfl⟩
abbrev main_call21_cst : Ref sig .tc := ⟨.hbm, 593, rfl⟩
abbrev main_call21_v15 : Ref sig .tc := ⟨.hbm, 594, rfl⟩
abbrev main_v109 : Ref sig .tc := ⟨.hbm, 595, rfl⟩
abbrev main_v110 : Ref sig .tc := ⟨.hbm, 596, rfl⟩
abbrev main_v111 : Ref sig .tc := ⟨.hbm, 597, rfl⟩
abbrev main_v112 : Ref sig .tc := ⟨.hbm, 598, rfl⟩
abbrev main_v113 : Ref sig .tc := ⟨.hbm, 599, rfl⟩
abbrev main_call22_c : Ref sig .tc := ⟨.hbm, 600, rfl⟩
abbrev main_call22_v0 : Ref sig .tc := ⟨.hbm, 601, rfl⟩
abbrev main_call22_v1 : Ref sig .tc := ⟨.hbm, 602, rfl⟩
abbrev main_call22_c_0 : Ref sig .tc := ⟨.hbm, 603, rfl⟩
abbrev main_call22_v2 : Ref sig .tc := ⟨.hbm, 604, rfl⟩
abbrev main_call22_v3 : Ref sig .tc := ⟨.hbm, 605, rfl⟩
abbrev main_call22_v4 : Ref sig .tc := ⟨.hbm, 606, rfl⟩
abbrev main_call22_v5 : Ref sig .tc := ⟨.hbm, 607, rfl⟩
abbrev main_call22_c_1 : Ref sig .tc := ⟨.hbm, 608, rfl⟩
abbrev main_call22_c_2 : Ref sig .tc := ⟨.hbm, 609, rfl⟩
abbrev main_call22_v6 : Ref sig .tc := ⟨.hbm, 610, rfl⟩
abbrev main_call22_v7 : Ref sig .tc := ⟨.hbm, 611, rfl⟩
abbrev main_call22_v8 : Ref sig .tc := ⟨.hbm, 612, rfl⟩
abbrev main_call22_v9 : Ref sig .tc := ⟨.hbm, 613, rfl⟩
abbrev main_call22_v10 : Ref sig .tc := ⟨.hbm, 614, rfl⟩
abbrev main_call22_v11 : Ref sig .tc := ⟨.hbm, 615, rfl⟩
abbrev main_call22_c_3 : Ref sig .tc := ⟨.hbm, 616, rfl⟩
abbrev main_call22_v12 : Ref sig .tc := ⟨.hbm, 617, rfl⟩
abbrev main_call22_v13 : Ref sig .tc := ⟨.hbm, 618, rfl⟩
abbrev main_call22_v14 : Ref sig .tc := ⟨.hbm, 619, rfl⟩
abbrev main_call22_cst : Ref sig .tc := ⟨.hbm, 620, rfl⟩
abbrev main_call22_v15 : Ref sig .tc := ⟨.hbm, 621, rfl⟩
abbrev main_v114 : Ref sig .tc := ⟨.hbm, 622, rfl⟩
abbrev main_v115 : Ref sig .tc := ⟨.hbm, 623, rfl⟩
abbrev main_v116 : Ref sig .tc := ⟨.hbm, 624, rfl⟩
abbrev main_v117 : Ref sig .tc := ⟨.hbm, 625, rfl⟩
abbrev main_v118 : Ref sig .tc := ⟨.hbm, 626, rfl⟩
abbrev main_call23_c : Ref sig .tc := ⟨.hbm, 627, rfl⟩
abbrev main_call23_v0 : Ref sig .tc := ⟨.hbm, 628, rfl⟩
abbrev main_call23_v1 : Ref sig .tc := ⟨.hbm, 629, rfl⟩
abbrev main_call23_c_0 : Ref sig .tc := ⟨.hbm, 630, rfl⟩
abbrev main_call23_v2 : Ref sig .tc := ⟨.hbm, 631, rfl⟩
abbrev main_call23_v3 : Ref sig .tc := ⟨.hbm, 632, rfl⟩
abbrev main_call23_v4 : Ref sig .tc := ⟨.hbm, 633, rfl⟩
abbrev main_call23_v5 : Ref sig .tc := ⟨.hbm, 634, rfl⟩
abbrev main_call23_c_1 : Ref sig .tc := ⟨.hbm, 635, rfl⟩
abbrev main_call23_c_2 : Ref sig .tc := ⟨.hbm, 636, rfl⟩
abbrev main_call23_v6 : Ref sig .tc := ⟨.hbm, 637, rfl⟩
abbrev main_call23_v7 : Ref sig .tc := ⟨.hbm, 638, rfl⟩
abbrev main_call23_v8 : Ref sig .tc := ⟨.hbm, 639, rfl⟩
abbrev main_call23_v9 : Ref sig .tc := ⟨.hbm, 640, rfl⟩
abbrev main_call23_v10 : Ref sig .tc := ⟨.hbm, 641, rfl⟩
abbrev main_call23_v11 : Ref sig .tc := ⟨.hbm, 642, rfl⟩
abbrev main_call23_c_3 : Ref sig .tc := ⟨.hbm, 643, rfl⟩
abbrev main_call23_v12 : Ref sig .tc := ⟨.hbm, 644, rfl⟩
abbrev main_call23_v13 : Ref sig .tc := ⟨.hbm, 645, rfl⟩
abbrev main_call23_v14 : Ref sig .tc := ⟨.hbm, 646, rfl⟩
abbrev main_call23_cst : Ref sig .tc := ⟨.hbm, 647, rfl⟩
abbrev main_call23_v15 : Ref sig .tc := ⟨.hbm, 648, rfl⟩
abbrev main_v119 : Ref sig .tc := ⟨.hbm, 649, rfl⟩
abbrev main_v120 : Ref sig .tc := ⟨.hbm, 650, rfl⟩
abbrev main_v121 : Ref sig .tc := ⟨.hbm, 651, rfl⟩
abbrev main_v122 : Ref sig .tc := ⟨.hbm, 652, rfl⟩
abbrev main_v123 : Ref sig .tc := ⟨.hbm, 653, rfl⟩
abbrev main_call24_c : Ref sig .tc := ⟨.hbm, 654, rfl⟩
abbrev main_call24_v0 : Ref sig .tc := ⟨.hbm, 655, rfl⟩
abbrev main_call24_v1 : Ref sig .tc := ⟨.hbm, 656, rfl⟩
abbrev main_call24_c_0 : Ref sig .tc := ⟨.hbm, 657, rfl⟩
abbrev main_call24_v2 : Ref sig .tc := ⟨.hbm, 658, rfl⟩
abbrev main_call24_v3 : Ref sig .tc := ⟨.hbm, 659, rfl⟩
abbrev main_call24_v4 : Ref sig .tc := ⟨.hbm, 660, rfl⟩
abbrev main_call24_v5 : Ref sig .tc := ⟨.hbm, 661, rfl⟩
abbrev main_call24_c_1 : Ref sig .tc := ⟨.hbm, 662, rfl⟩
abbrev main_call24_c_2 : Ref sig .tc := ⟨.hbm, 663, rfl⟩
abbrev main_call24_v6 : Ref sig .tc := ⟨.hbm, 664, rfl⟩
abbrev main_call24_v7 : Ref sig .tc := ⟨.hbm, 665, rfl⟩
abbrev main_call24_v8 : Ref sig .tc := ⟨.hbm, 666, rfl⟩
abbrev main_call24_v9 : Ref sig .tc := ⟨.hbm, 667, rfl⟩
abbrev main_call24_v10 : Ref sig .tc := ⟨.hbm, 668, rfl⟩
abbrev main_call24_v11 : Ref sig .tc := ⟨.hbm, 669, rfl⟩
abbrev main_call24_c_3 : Ref sig .tc := ⟨.hbm, 670, rfl⟩
abbrev main_call24_v12 : Ref sig .tc := ⟨.hbm, 671, rfl⟩
abbrev main_call24_v13 : Ref sig .tc := ⟨.hbm, 672, rfl⟩
abbrev main_call24_v14 : Ref sig .tc := ⟨.hbm, 673, rfl⟩
abbrev main_call24_cst : Ref sig .tc := ⟨.hbm, 674, rfl⟩
abbrev main_call24_v15 : Ref sig .tc := ⟨.hbm, 675, rfl⟩
abbrev main_v124 : Ref sig .tc := ⟨.hbm, 676, rfl⟩
abbrev main_v125 : Ref sig .tc := ⟨.hbm, 677, rfl⟩
abbrev main_v126 : Ref sig .tc := ⟨.hbm, 678, rfl⟩
abbrev main_v127 : Ref sig .tc := ⟨.hbm, 679, rfl⟩
abbrev main_v128 : Ref sig .tc := ⟨.hbm, 680, rfl⟩
abbrev main_call25_c : Ref sig .tc := ⟨.hbm, 681, rfl⟩
abbrev main_call25_v0 : Ref sig .tc := ⟨.hbm, 682, rfl⟩
abbrev main_call25_v1 : Ref sig .tc := ⟨.hbm, 683, rfl⟩
abbrev main_call25_c_0 : Ref sig .tc := ⟨.hbm, 684, rfl⟩
abbrev main_call25_v2 : Ref sig .tc := ⟨.hbm, 685, rfl⟩
abbrev main_call25_v3 : Ref sig .tc := ⟨.hbm, 686, rfl⟩
abbrev main_call25_v4 : Ref sig .tc := ⟨.hbm, 687, rfl⟩
abbrev main_call25_v5 : Ref sig .tc := ⟨.hbm, 688, rfl⟩
abbrev main_call25_c_1 : Ref sig .tc := ⟨.hbm, 689, rfl⟩
abbrev main_call25_c_2 : Ref sig .tc := ⟨.hbm, 690, rfl⟩
abbrev main_call25_v6 : Ref sig .tc := ⟨.hbm, 691, rfl⟩
abbrev main_call25_v7 : Ref sig .tc := ⟨.hbm, 692, rfl⟩
abbrev main_call25_v8 : Ref sig .tc := ⟨.hbm, 693, rfl⟩
abbrev main_call25_v9 : Ref sig .tc := ⟨.hbm, 694, rfl⟩
abbrev main_call25_v10 : Ref sig .tc := ⟨.hbm, 695, rfl⟩
abbrev main_call25_v11 : Ref sig .tc := ⟨.hbm, 696, rfl⟩
abbrev main_call25_c_3 : Ref sig .tc := ⟨.hbm, 697, rfl⟩
abbrev main_call25_v12 : Ref sig .tc := ⟨.hbm, 698, rfl⟩
abbrev main_call25_v13 : Ref sig .tc := ⟨.hbm, 699, rfl⟩
abbrev main_call25_v14 : Ref sig .tc := ⟨.hbm, 700, rfl⟩
abbrev main_call25_cst : Ref sig .tc := ⟨.hbm, 701, rfl⟩
abbrev main_call25_v15 : Ref sig .tc := ⟨.hbm, 702, rfl⟩
abbrev main_v129 : Ref sig .tc := ⟨.hbm, 703, rfl⟩
abbrev main_v130 : Ref sig .tc := ⟨.hbm, 704, rfl⟩
abbrev main_v131 : Ref sig .tc := ⟨.hbm, 705, rfl⟩
abbrev main_v132 : Ref sig .tc := ⟨.hbm, 706, rfl⟩

abbrev nD : Nat := 1
abbrev τ : Topo := Topo.v7x

variable {F : FTy → Type} [FloatOps F]

class Facts₀ : Prop where
  slices_S16384x26_S16384x1_0_0 : S16384x26.Slices ![0, 0] S16384x1
  shapeCasts_S16384x1_S16384 : S16384x1.ShapeCasts S16384
  slices_S26x100000x32_S1x100000x32_0_0_0 : S26x100000x32.Slices ![0, 0, 0] S1x100000x32
  shapeCasts_S1x100000x32_S100000x32 : S1x100000x32.ShapeCasts S100000x32
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S16384x32_0 : S16384.BroadcastsInDim S16384x32 (![0] : Fin 1 → Fin S16384x32.rank)
  bcast_S_S16384x32 : S_.BroadcastsInDim S16384x32 (![] : Fin 0 → Fin S16384x32.rank)
  slices_S16384x26_S16384x1_0_1 : S16384x26.Slices ![0, 1] S16384x1
  slices_S26x100000x32_S1x100000x32_1_0_0 : S26x100000x32.Slices ![1, 0, 0] S1x100000x32
  slices_S16384x26_S16384x1_0_2 : S16384x26.Slices ![0, 2] S16384x1
  slices_S26x100000x32_S1x100000x32_2_0_0 : S26x100000x32.Slices ![2, 0, 0] S1x100000x32
  slices_S16384x26_S16384x1_0_3 : S16384x26.Slices ![0, 3] S16384x1
  slices_S26x100000x32_S1x100000x32_3_0_0 : S26x100000x32.Slices ![3, 0, 0] S1x100000x32
  slices_S16384x26_S16384x1_0_4 : S16384x26.Slices ![0, 4] S16384x1
  slices_S26x100000x32_S1x100000x32_4_0_0 : S26x100000x32.Slices ![4, 0, 0] S1x100000x32
  slices_S16384x26_S16384x1_0_5 : S16384x26.Slices ![0, 5] S16384x1
  slices_S26x100000x32_S1x100000x32_5_0_0 : S26x100000x32.Slices ![5, 0, 0] S1x100000x32
  slices_S16384x26_S16384x1_0_6 : S16384x26.Slices ![0, 6] S16384x1
  slices_S26x100000x32_S1x100000x32_6_0_0 : S26x100000x32.Slices ![6, 0, 0] S1x100000x32
  slices_S16384x26_S16384x1_0_7 : S16384x26.Slices ![0, 7] S16384x1
  slices_S26x100000x32_S1x100000x32_7_0_0 : S26x100000x32.Slices ![7, 0, 0] S1x100000x32
  slices_S16384x26_S16384x1_0_8 : S16384x26.Slices ![0, 8] S16384x1
  slices_S26x100000x32_S1x100000x32_8_0_0 : S26x100000x32.Slices ![8, 0, 0] S1x100000x32
  slices_S16384x26_S16384x1_0_9 : S16384x26.Slices ![0, 9] S16384x1
  slices_S26x100000x32_S1x100000x32_9_0_0 : S26x100000x32.Slices ![9, 0, 0] S1x100000x32
  slices_S16384x26_S16384x1_0_10 : S16384x26.Slices ![0, 10] S16384x1
  slices_S26x100000x32_S1x100000x32_10_0_0 : S26x100000x32.Slices ![10, 0, 0] S1x100000x32
  slices_S16384x26_S16384x1_0_11 : S16384x26.Slices ![0, 11] S16384x1
  slices_S26x100000x32_S1x100000x32_11_0_0 : S26x100000x32.Slices ![11, 0, 0] S1x100000x32
  slices_S16384x26_S16384x1_0_12 : S16384x26.Slices ![0, 12] S16384x1
  slices_S26x100000x32_S1x100000x32_12_0_0 : S26x100000x32.Slices ![12, 0, 0] S1x100000x32
  slices_S16384x26_S16384x1_0_13 : S16384x26.Slices ![0, 13] S16384x1
  slices_S26x100000x32_S1x100000x32_13_0_0 : S26x100000x32.Slices ![13, 0, 0] S1x100000x32
  slices_S16384x26_S16384x1_0_14 : S16384x26.Slices ![0, 14] S16384x1
  slices_S26x100000x32_S1x100000x32_14_0_0 : S26x100000x32.Slices ![14, 0, 0] S1x100000x32
  slices_S16384x26_S16384x1_0_15 : S16384x26.Slices ![0, 15] S16384x1
  slices_S26x100000x32_S1x100000x32_15_0_0 : S26x100000x32.Slices ![15, 0, 0] S1x100000x32
  slices_S16384x26_S16384x1_0_16 : S16384x26.Slices ![0, 16] S16384x1
  slices_S26x100000x32_S1x100000x32_16_0_0 : S26x100000x32.Slices ![16, 0, 0] S1x100000x32
  slices_S16384x26_S16384x1_0_17 : S16384x26.Slices ![0, 17] S16384x1
  slices_S26x100000x32_S1x100000x32_17_0_0 : S26x100000x32.Slices ![17, 0, 0] S1x100000x32
  slices_S16384x26_S16384x1_0_18 : S16384x26.Slices ![0, 18] S16384x1
  slices_S26x100000x32_S1x100000x32_18_0_0 : S26x100000x32.Slices ![18, 0, 0] S1x100000x32
  slices_S16384x26_S16384x1_0_19 : S16384x26.Slices ![0, 19] S16384x1
  slices_S26x100000x32_S1x100000x32_19_0_0 : S26x100000x32.Slices ![19, 0, 0] S1x100000x32
  slices_S16384x26_S16384x1_0_20 : S16384x26.Slices ![0, 20] S16384x1
  slices_S26x100000x32_S1x100000x32_20_0_0 : S26x100000x32.Slices ![20, 0, 0] S1x100000x32
  slices_S16384x26_S16384x1_0_21 : S16384x26.Slices ![0, 21] S16384x1
  slices_S26x100000x32_S1x100000x32_21_0_0 : S26x100000x32.Slices ![21, 0, 0] S1x100000x32
  slices_S16384x26_S16384x1_0_22 : S16384x26.Slices ![0, 22] S16384x1
  slices_S26x100000x32_S1x100000x32_22_0_0 : S26x100000x32.Slices ![22, 0, 0] S1x100000x32
  slices_S16384x26_S16384x1_0_23 : S16384x26.Slices ![0, 23] S16384x1
  slices_S26x100000x32_S1x100000x32_23_0_0 : S26x100000x32.Slices ![23, 0, 0] S1x100000x32
  slices_S16384x26_S16384x1_0_24 : S16384x26.Slices ![0, 24] S16384x1
  slices_S26x100000x32_S1x100000x32_24_0_0 : S26x100000x32.Slices ![24, 0, 0] S1x100000x32
  slices_S16384x26_S16384x1_0_25 : S16384x26.Slices ![0, 25] S16384x1
  slices_S26x100000x32_S1x100000x32_25_0_0 : S26x100000x32.Slices ![25, 0, 0] S1x100000x32
  concatenates_S16384x32_S16384x32_S16384x32_S16384x32_S16384x32_S16384x32_S16384x32_S16384x32_S16384x32_S16384x32_S16384x32_S16384x32_S16384x32_S16384x32_S16384x32_S16384x32_S16384x512_d1 : Shape.Concatenates [S16384x32, S16384x32, S16384x32, S16384x32, S16384x32, S16384x32, S16384x32, S16384x32, S16384x32, S16384x32, S16384x32, S16384x32, S16384x32, S16384x32, S16384x32, S16384x32] S16384x512 1
  concatenates_S16384x32_S16384x32_S16384x32_S16384x32_S16384x32_S16384x32_S16384x32_S16384x32_S16384x32_S16384x32_S16384x320_d1 : Shape.Concatenates [S16384x32, S16384x32, S16384x32, S16384x32, S16384x32, S16384x32, S16384x32, S16384x32, S16384x32, S16384x32] S16384x320 1
  concatenates_S16384x512_S16384x320_S16384x832_d1 : Shape.Concatenates [S16384x512, S16384x320] S16384x832 1
  gather_S100000x32_S16384x1_S16384x32_1_0_n_n_0_1_132_wf : GatherDims.WF S100000x32 S16384x1 S16384x32 [1] [0] [] [0] [] 1 ![1, 32]

variable [Facts₀]

def gather_S100000x32_S16384x1_S16384x32_1_0_n_n_0_1_132 : GatherDims S100000x32 S16384x1 S16384x32 where
  offsetDims := [1]
  collapsedSliceDims := [0]
  operandBatchingDims := []
  startIndicesBatchingDims := []
  startIndexMap := [0]
  indexVectorDim := 1
  sliceSizes := ![1, 32]
  wf := gather_S100000x32_S16384x1_S16384x32_1_0_n_n_0_1_132_wf

class Facts : Prop extends Facts₀ where

variable [Facts]
-- ==== Proof.Spec.lean ====
/-
  What the lookup computes, as whole-array functions over any element type.

  The operator takes a batch of 16384 rows of 26 category indices and 26 embedding tables of 100000 rows of 32
  numbers, and returns, for batch row `b` and output column `u = 32 f + e`, component `e` of row `x[b, f]` of table
  `f`. Both programs are pure data movement, so the functions below are stated for contents of any type: the same
  text serves the word-level reading and the extended-real one.
-/
import Idealize.ShloMosaic.Lib.ValueIdx

namespace Cert.Spec

open Idealize.ShloMosaic Idealize.ShloMosaic.ValueIdx

/-- An index word read as a row number of a table of 100000 rows. In range the remainder is the word itself; taking
    it makes the function total. -/
def rowOf (w : BitVec 32) : Fin 100000 := ⟨w.toNat % 100000, Nat.mod_lt _ (by decide)⟩

theorem rowOf_val_of_lt {w : BitVec 32} (h : w.toNat < 100000) : (rowOf w).val = w.toNat := Nat.mod_eq_of_lt h

/-- The field of an output column: `u / 32`. -/
def fieldOf (u : Fin 832) : Fin 26 := ⟨u.val / 32, by have := u.isLt; omega⟩
/-- The component of an output column: `u % 32`. -/
def compOf (u : Fin 832) : Fin 32 := ⟨u.val % 32, Nat.mod_lt _ (by decide)⟩

/-- The result: `out[b, u] = tables[u / 32, x[b, u / 32], u % 32]`. -/
def lookup {α : Type} (x : (⟨2, ![16384, 26]⟩ : Shape).Idx → BitVec 32) (t : (⟨3, ![26, 100000, 32]⟩ : Shape).Idx → α) :
    (⟨2, ![16384, 832]⟩ : Shape).Idx → α :=
  fun i => t (ix3 (fieldOf (i 1)) (rowOf (x (ix2 (i 0) (fieldOf (i 1))))) (compOf (i 1)))

/-- The same computed column by column over the transposed index array `xt[f, b]` and the tables flattened to
    `tb[u, v]` (one row per output column): `out_t[u, b] = tb[u, xt[u / 32, b]]`. -/
def gathered {α : Type} (xt : (⟨2, ![26, 16384]⟩ : Shape).Idx → BitVec 32) (tb : (⟨2, ![832, 100000]⟩ : Shape).Idx → α) :
    (⟨2, ![832, 16384]⟩ : Shape).Idx → α :=
  fun i => tb (ix2 (i 0) (rowOf (xt (ix2 (fieldOf (i 0)) (i 1)))))

end Cert.Spec
-- ==== Proof.KICommon.lean ====
/-
  The kernel's program as the SparseCore launch theorem sees it, and what its threads are handed.

  The TensorCore transposes the index array to `xt[f, b]`, flattens the tables to one row per output column
  (`tb[32 f + e, v] = tables[f, v, e]`), starts the two SparseCores, and transposes what they leave. Each of the 32
  vector subcores (number `w = 2 s + c` for subcore `s` of SparseCore `c`) fills rows `26 w … 26 w + 25` of the
  `[832, 16384]` array `ot` with `ot[u, b] = tb[u, xt[u / 32, b]]`. It only reads `xt` and `tb`, so it is handed a read
  share of each, whole, and its own 26 rows of `ot` outright.
-/
import proofs.«204002_g15616501088794_cont_week2b_169_25_alg».proof.Defs
import proofs.«204002_g15616501088794_cont_week2b_169_25_alg».proof.Proof.Gen.KernelIdeal
import proofs.«204002_g15616501088794_cont_week2b_169_25_alg».proof.Proof.Gen.KernelIdeal.Skeleton
import proofs.«204002_g15616501088794_cont_week2b_169_25_alg».proof.Proof.Spec
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory, the arrays, and what the TensorCore computes before and after the call -/

variable (m : (ℓ : Loc nD τ sig) → Buf (Elt F) ℓ) (ρ : Dev nD → PrngReg)

/-- The two arguments, the three arrays the TensorCore prepares (`xt`, the transposed tables, `tb`), the kernel's
    result `ot` and the program's result, as locations of device `d`. -/
abbrev a0Loc (d : Dev nD) : Loc nD τ sig := (SparseCore.T d).loc main_arg0
abbrev a1Loc (d : Dev nD) : Loc nD τ sig := (SparseCore.T d).loc main_arg1
abbrev xtLoc (d : Dev nD) : Loc nD τ sig := (SparseCore.T d).loc main_v0
abbrev t1Loc (d : Dev nD) : Loc nD τ sig := (SparseCore.T d).loc main_v1
abbrev tbLoc (d : Dev nD) : Loc nD τ sig := (SparseCore.T d).loc main_v2
abbrev otLoc (d : Dev nD) : Loc nD τ sig := (SparseCore.T d).loc main_v3
abbrev ouLoc (d : Dev nD) : Loc nD τ sig := (SparseCore.T d).loc main_v4

/-- `xt[f, b] = x[b, f]`. -/
def XT (d : Dev nD) : Buf (Elt F) (xtLoc d) := transpose S26x16384 [1, 0] (m (a0Loc d)) transposes_S16384x26_S26x16384_1_0
/-- `t1[f, e, v] = tables[f, v, e]`. -/
def T1 (d : Dev nD) : Buf (Elt F) (t1Loc d) := transpose S26x32x100000 [0, 2, 1] (m (a1Loc d)) transposes_S26x100000x32_S26x32x100000_0_2_1
/-- `tb[32 f + e, v] = t1[f, e, v]`. -/
def TB (d : Dev nD) : Buf (Elt F) (tbLoc d) := shapeCast S832x100000 (T1 m d) shapeCasts_S26x32x100000_S832x100000
/-- What the kernel leaves: `ot[u, b] = tb[u, xt[u / 32, b]]`. -/
def OT (d : Dev nD) : Buf (Elt F) (otLoc d) := Cert.Spec.gathered (XT m d) (TB m d)
/-- The program's result: `ot` transposed. -/
def OU (d : Dev nD) : Buf (Elt F) (ouLoc d) := transpose S16384x832 [1, 0] (OT m d) transposes_S832x16384_S16384x832_1_0

/-- What the proof asks of the launch memory: every index the kernel gathers with names a row of a table. -/
def PreOK : Prop := ∀ (d : Dev nD) (i : S26x16384.Idx), (XT m d i).toNat < 100000

/-! ## Rows of `ot` per vector subcore; read shares per SparseCore and per vector subcore -/

/-- The number of vector subcore `i` of SparseCore `c`: `2 i + c`. -/
def wid (c : Fin 2) (i : Fin 16) : Fin 32 := ⟨2 * i.val + c.val, by have := c.isLt; have := i.isLt; omega⟩

theorem hdiv32 : 32 ∣ S832x16384.size 0 := ⟨26, rfl⟩
/-- Rows `26 w … 26 w + 25` of `ot`. -/
abbrev tileRect (w : Fin 32) : Rect S832x16384 := Rect.part (s := S832x16384) (a₀ := 0) hdiv32 w
abbrev tileSet (w : Fin 32) : Finset S832x16384.Idx := (tileRect w).set
/-- The rows of SparseCore `c`'s sixteen vector subcores. -/
abbrev coreSet (c : Fin 2) : Finset S832x16384.Idx := (Finset.univ : Finset (Fin 16)).biUnion fun i => tileSet (wid c i)

/-- SparseCore `c`'s read share of an array, and vector subcore `i`'s part of it. -/
abbrev qC (c : Fin 2) : PosShare TreeShare := Transfers.shareTok fullShare 2 c
abbrev qT (c : Fin 2) (i : Fin 16) : PosShare TreeShare := Transfers.shareTok (qC c) 16 i

/-! ## What the handshakes carry -/

variable [FloatOps F]

/-- A SparseCore's operands: its read shares of `xt` and `tb`, and its vector subcores' rows of `ot` at `fo`. -/
abbrev coreRes (d : Dev nD) (c : Fin 2) (fo : Buf (Elt F) (otLoc d)) : sProp 𝕄 :=
  iprop((xtLoc d ↦{qC c} XT m d) ∗ (tbLoc d ↦{qC c} TB m d) ∗ otLoc d ↦[coreSet c]{fullShare} fo)
/-- A vector subcore's: its read shares, and its own rows of `ot` at `fo`. -/
abbrev tileRes (d : Dev nD) (c : Fin 2) (i : Fin 16) (fo : Buf (Elt F) (otLoc d)) : sProp 𝕄 :=
  iprop((xtLoc d ↦{qT c i} XT m d) ∗ (tbLoc d ↦{qT c i} TB m d) ∗ otLoc d ↦[tileSet (wid c i)]{fullShare} fo)

/-- The one call hands each SparseCore its read shares and its rows of `ot` as the launch left them, and takes them
    back with the rows at `OT`; likewise each vector subcore. -/
def P : (K (F := F)).Pay (nD := nD) (Val := Elt F) (Name := ℕ) (U := UU) where
  st := fun q d c => match q with | 0 => coreRes m d (Fin.cast nCore_zero c) (m (otLoc d))
  dn := fun q d c => match q with | 0 => coreRes m d (Fin.cast nCore_zero c) (OT m d)
  go := fun q d c i => match q with | 0 => tileRes m d (Fin.cast nCore_zero c) (Fin.cast nSub_zero i) (m (otLoc d))
  td := fun q d c i => match q with | 0 => tileRes m d (Fin.cast nCore_zero c) (Fin.cast nSub_zero i) (OT m d)
  x := fun _ _ => iprop(emp)

instance P_storable : (P (F := F) m).IsStorable where
  st q d c := match q with
    | 0 => (inferInstance : BI.Storable (upEmb : UEmb _ 𝕄) (coreRes m d (Fin.cast nCore_zero c) (m (otLoc d))))
  dn q d c := match q with
    | 0 => (inferInstance : BI.Storable (upEmb : UEmb _ 𝕄) (coreRes m d (Fin.cast nCore_zero c) (OT m d)))
  go q d c i := match q with
    | 0 => (inferInstance : BI.Storable (upEmb : UEmb _ 𝕄) (tileRes m d (Fin.cast nCore_zero c) (Fin.cast nSub_zero i) (m (otLoc d))))
  td q d c i := match q with
    | 0 => (inferInstance : BI.Storable (upEmb : UEmb _ 𝕄) (tileRes m d (Fin.cast nCore_zero c) (Fin.cast nSub_zero i) (OT m d)))

/-! ## A vector subcore's coordinates -/

def coordsV (c : Fin (grid0.bound 0)) (s : Fin (grid0.bound 1)) : grid0.Coords :=
  fun | 0 => c | 1 => s | ⟨_ + 2, h⟩ => absurd h (Nat.not_lt.2 (Nat.le_add_left _ _))

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
abbrev cL (L : grid0.Coords) : Fin 2 := Fin.cast bound_zero (L 0)
abbrev jL (L : grid0.Coords) : Fin 16 := Fin.cast bound_one (L 1)

end Cert.Proof.KI

end
-- ==== Proof.KISplit.lean ====
/-
  How the kernel's operands are divided: the whole of `ot` among the two SparseCores and, within one, among its sixteen
  vector subcores; a read share of `xt` and of `tb` likewise.

  The 32 vector subcores' blocks of rows (`tileSet w`, `w < 32`) are pairwise disjoint and cover `ot`, and
  `(c, i) ↦ 2 i + c` numbers them without repetition, so `ot` is the union over the SparseCores `c` of `coreSet c`, each
  the disjoint union of its sixteen blocks. A read share splits into a remainder and one token per receiver; the one who
  splits keeps the remainder and joins it with the tokens when they come back.
-/
import proofs.«204002_g15616501088794_cont_week2b_169_25_alg».proof.Proof.KICommon

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The blocks of rows -/

/-- `(c, i) ↦ 2 i + c` repeats no number. -/
theorem wid_inj {c c' : Fin 2} {i i' : Fin 16} (h : wid c i = wid c' i') : c = c' ∧ i = i' := by
  have h' := congrArg Fin.val h
  simp only [wid] at h'
  have := c.isLt; have := c'.isLt
  exact ⟨Fin.ext (by omega), Fin.ext (by omega)⟩

/-- Every number below 32 is some `2 i + c`. -/
theorem wid_surj (w : Fin 32) : ∃ (c : Fin 2) (i : Fin 16), wid c i = w :=
  ⟨⟨w.val % 2, Nat.mod_lt _ (by decide)⟩, ⟨w.val / 2, by have := w.isLt; omega⟩, Fin.ext (by simp only [wid]; omega)⟩

theorem tiles_disjoint (c : Fin 2) :
    ∀ i ∈ (Finset.univ : Finset (Fin 16)), ∀ j ∈ (Finset.univ : Finset (Fin 16)), i ≠ j → Disjoint (tileSet (wid c i)) (tileSet (wid c j)) :=
  fun _ _ _ _ h => Rect.part_disjoint hdiv32 fun e => h (wid_inj e).2

theorem cores_disjoint :
    ∀ c ∈ (Finset.univ : Finset (Fin 2)), ∀ c' ∈ (Finset.univ : Finset (Fin 2)), c ≠ c' → Disjoint (coreSet c) (coreSet c') := by
  intro c _ c' _ h
  refine (Finset.disjoint_biUnion_left _ _ _).mpr fun i _ => (Finset.disjoint_biUnion_right _ _ _).mpr fun j _ => ?_
  exact Rect.part_disjoint hdiv32 fun e => h (wid_inj e).1

theorem cores_cover : (Finset.univ : Finset (Fin 2)).biUnion coreSet = Finset.univ := by
  ext x
  simp only [Finset.mem_biUnion, Finset.mem_univ, true_and, iff_true]
  obtain ⟨w, hw⟩ := Rect.exists_mem_part hdiv32 x
  obtain ⟨c, i, e⟩ := wid_surj w
  exact ⟨c, i, e ▸ hw⟩

/-! ## `ot` among the SparseCores and among a SparseCore's vector subcores -/

theorem coreSet_pts (d : Dev nD) (c : Fin 2) (q : PosShare TreeShare) (f : Buf (Elt F) (otLoc d)) :
    (otLoc d ↦[coreSet c]{q} f : sProp 𝕄) = bigSep Finset.univ fun i : Fin 16 => otLoc d ↦[tileSet (wid c i)]{q} f := by
  rw [← pointsTo_biUnion Finset.univ (ℓ := otLoc d) (fun i : Fin 16 => tileSet (wid c i)) (tiles_disjoint c)]

theorem ot_cores (d : Dev nD) (f : Buf (Elt F) (otLoc d)) :
    (otLoc d ↦{fullShare} f : sProp 𝕄) = bigSep Finset.univ fun c : Fin 2 => otLoc d ↦[coreSet c]{fullShare} f := by
  rw [← pointsTo_biUnion Finset.univ (ℓ := otLoc d) coreSet cores_disjoint, cores_cover]

/-! ## Families over the call's own index types -/

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

variable (m : (ℓ : Loc nD τ sig) → Buf (Elt F) ℓ)
variable [FloatOps F]

/-! ## A SparseCore's operands among its vector subcores -/

/-- SparseCore `c` hands each vector subcore a token of each of its two read shares, keeping the remainders, and its own
    block of rows; when the blocks come back at `OT` it joins them, and the tokens with the remainders. -/
theorem core_split (d : Dev nD) (c : Fin 2) :
    coreRes m d c (m (otLoc d)) ⊢ |={Set.univ}=> iprop(
      (bigSep Finset.univ fun i : Fin 16 => tileRes m d c i (m (otLoc d)))
      ∗ ((bigSep Finset.univ fun i : Fin 16 => tileRes m d c i (OT m d)) -∗ coreRes m d c (OT m d))) := by
  show iprop((xtLoc d ↦{qC c} XT m d) ∗ (tbLoc d ↦{qC c} TB m d) ∗ otLoc d ↦[coreSet c]{fullShare} m (otLoc d)) ⊢ |={Set.univ}=> iprop(
      (bigSep Finset.univ fun i : Fin 16 =>
        iprop((xtLoc d ↦{qT c i} XT m d) ∗ (tbLoc d ↦{qT c i} TB m d) ∗ otLoc d ↦[tileSet (wid c i)]{fullShare} m (otLoc d)))
      ∗ ((bigSep Finset.univ fun i : Fin 16 =>
          iprop((xtLoc d ↦{qT c i} XT m d) ∗ (tbLoc d ↦{qT c i} TB m d) ∗ otLoc d ↦[tileSet (wid c i)]{fullShare} OT m d))
        -∗ iprop((xtLoc d ↦{qC c} XT m d) ∗ (tbLoc d ↦{qC c} TB m d) ∗ otLoc d ↦[coreSet c]{fullShare} OT m d)))
  rw [bigSep_sep', bigSep_sep', bigSep_sep', bigSep_sep', coreSet_pts, coreSet_pts]
  iintro ⟨Hx, Ht, Ho⟩
  ihave Hx' := (Transfers.pointsTo_toks_split (ℓ := xtLoc d) (S := Finset.univ) (f := XT m d) (qC c) 16) $$ Hx
  icases Hx' with ⟨HxR, HxT⟩
  ihave Ht' := (Transfers.pointsTo_toks_split (ℓ := tbLoc d) (S := Finset.univ) (f := TB m d) (qC c) 16) $$ Ht
  icases Ht' with ⟨HtR, HtT⟩
  imodintro
  isplitl [HxT HtT Ho]
  · isplitl [HxT]; · iexact HxT
    isplitl [HtT]; · iexact HtT
    iexact Ho
  iintro ⟨HxT, HtT, Ho⟩
  isplitl [HxR HxT]
  · iapply (Transfers.pointsTo_toks_join (ℓ := xtLoc d) (S := Finset.univ) (f := XT m d) (qC c) 16)
    isplitl [HxR]; · iexact HxR
    iexact HxT
  isplitl [HtR HtT]
  · iapply (Transfers.pointsTo_toks_join (ℓ := tbLoc d) (S := Finset.univ) (f := TB m d) (qC c) 16)
    isplitl [HtR]; · iexact HtR
    iexact HtT
  iexact Ho

theorem vecSplit : (K (F := F)).VecSplit' (P m) 0 := by
  intro d c
  show coreRes m d (Fin.cast nCore_zero c) (m (otLoc d)) ⊢ |={Set.univ}=> iprop(
      (bigSep Finset.univ fun i : Fin ((K (F := F)).nSub 0) => tileRes m d (Fin.cast nCore_zero c) (Fin.cast nSub_zero i) (m (otLoc d)))
      ∗ ((bigSep Finset.univ fun i : Fin ((K (F := F)).nSub 0) => tileRes m d (Fin.cast nCore_zero c) (Fin.cast nSub_zero i) (OT m d))
          -∗ coreRes m d (Fin.cast nCore_zero c) (OT m d)))
  rw [bigSep_tasks (F := F) (fun i => tileRes m d (Fin.cast nCore_zero c) i (m (otLoc d))),
    bigSep_tasks (F := F) (fun i => tileRes m d (Fin.cast nCore_zero c) i (OT m d))]
  exact core_split m d _

/-! ## What the call takes for the two SparseCores, and what it hands back -/

/-- The two SparseCores' operands together: the two tokens of each read share, and `ot` whole. -/
theorem cores_eq (d : Dev nD) (fo : Buf (Elt F) (otLoc d)) :
    (bigSep Finset.univ fun c : Fin 2 => coreRes m d c fo)
      = iprop((bigSep Finset.univ fun c : Fin 2 => xtLoc d ↦{qC c} XT m d) ∗ (bigSep Finset.univ fun c : Fin 2 => tbLoc d ↦{qC c} TB m d)
          ∗ otLoc d ↦{fullShare} fo) := by
  show (bigSep Finset.univ fun c : Fin 2 =>
      iprop((xtLoc d ↦{qC c} XT m d) ∗ (tbLoc d ↦{qC c} TB m d) ∗ otLoc d ↦[coreSet c]{fullShare} fo)) = _
  rw [bigSep_sep', bigSep_sep', ← ot_cores]

theorem st0_eq (d : Dev nD) :
    (bigSep Finset.univ fun c : Fin ((K (F := F)).nCore 0) => (P m).st 0 d c)
      = iprop((bigSep Finset.univ fun c : Fin 2 => xtLoc d ↦{qC c} XT m d) ∗ (bigSep Finset.univ fun c : Fin 2 => tbLoc d ↦{qC c} TB m d)
          ∗ otLoc d ↦{fullShare} m (otLoc d)) := by
  show (bigSep Finset.univ fun c : Fin ((K (F := F)).nCore 0) => coreRes m d (Fin.cast nCore_zero c) (m (otLoc d))) = _
  rw [bigSep_cores (F := F) (fun c => coreRes m d c (m (otLoc d))), cores_eq]

theorem dn0_eq (d : Dev nD) :
    (bigSep Finset.univ fun c : Fin ((K (F := F)).nCore 0) => (P m).dn 0 d c)
      = iprop((bigSep Finset.univ fun c : Fin 2 => xtLoc d ↦{qC c} XT m d) ∗ (bigSep Finset.univ fun c : Fin 2 => tbLoc d ↦{qC c} TB m d)
          ∗ otLoc d ↦{fullShare} OT m d) := by
  show (bigSep Finset.univ fun c : Fin ((K (F := F)).nCore 0) => coreRes m d (Fin.cast nCore_zero c) (OT m d)) = _
  rw [bigSep_cores (F := F) (fun c => coreRes m d c (OT m d)), cores_eq]

end Cert.Proof.KI

end
-- ==== Proof.KILaunch.lean ====
/-
  The launch of the kernel's program: from the proof of one vector subcore's task to the run of all 35 threads.

  The TensorCore transposes the index array into `xt`, the tables into `t1`, flattens `t1` into `tb`, starts the two
  SparseCores and waits for them, and transposes what they leave in `ot`. Across the call it keeps the remainder of the
  read shares of `xt` and `tb` whose two tokens it hands out, and gives `ot` away whole; it gets the tokens back with
  `ot` at `OT`. No thread signals another outside the launch's own handshakes, so the ghost state is the handshakes'
  beside the transfers' counters, which the launch element drops.
-/
import proofs.«204002_g15616501088794_cont_week2b_169_25_alg».proof.Proof.KISplit

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## The launch element: the handshakes' rounds; nothing of the kernel's own -/

def u₀ : UU := (initOf (K (F := F)).hsCells (K (F := F)).hsToks, 1)

theorem bigSep_emp' {I : Type} (s : Finset I) : (bigSep s fun _ => iprop(emp)) = (iprop(emp) : sProp 𝕄) := bigSep_emp_const s

section Launch

variable [FloatOps F]

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Launch

/-! ## @main's arrays and host operations -/

abbrev a0' : DevRef τ sig := Proc.devRef .tc (main_arg0 : Ref sig .tc)
abbrev a1' : DevRef τ sig := Proc.devRef .tc (main_arg1 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)

/-- The four host operations, as @main spells them. -/
abbrev opXT : HloOp τ sig (Elt F) :=
  StableHlo.unary main_arg0 main_v0 ((transpose S26x16384 [1, 0] · transposes_S16384x26_S26x16384_1_0) : (⟨S16384x26, .i32⟩ : BufTy).Contents (Elt F) → (⟨S26x16384, .i32⟩ : BufTy).Contents (Elt F))
abbrev opT1 : HloOp τ sig (Elt F) :=
  StableHlo.unary main_arg1 main_v1 ((transpose S26x32x100000 [0, 2, 1] · transposes_S26x100000x32_S26x32x100000_0_2_1) : (⟨S26x100000x32, .f32⟩ : BufTy).Contents (Elt F) → (⟨S26x32x100000, .f32⟩ : BufTy).Contents (Elt F))
abbrev opTB : HloOp τ sig (Elt F) := StableHlo.reshape main_v1 main_v2 rfl shapeCasts_S26x32x100000_S832x100000
abbrev opOU : HloOp τ sig (Elt F) :=
  StableHlo.unary main_v3 main_v4 ((transpose S16384x832 [1, 0] · transposes_S832x16384_S16384x832_1_0) : (⟨S832x16384, .f32⟩ : BufTy).Contents (Elt F) → (⟨S16384x832, .f32⟩ : BufTy).Contents (Elt F))

/-- The TensorCore's arrays, all unscoped. -/
abbrev S7 : Finset (DevRef τ sig) := {a0', a1', v0', v1', v2', v3', v4'}

theorem hXT : (opXT (F := F)).bufs ⊆ S7 := show ({a0', v0'} : Finset (DevRef τ sig)) ⊆ S7 by decide
theorem hT1 : (opT1 (F := F)).bufs ⊆ S7 := show ({a1', v1'} : Finset (DevRef τ sig)) ⊆ S7 by decide
theorem hTB : (opTB (F := F)).bufs ⊆ S7 := show ({v1', v2'} : Finset (DevRef τ sig)) ⊆ S7 by decide
theorem hOU : (opOU (F := F)).bufs ⊆ S7 := show ({v3', v4'} : Finset (DevRef τ sig)) ⊆ S7 by decide

theorem held_S7 (d : Dev nD) (W : Valuation τ sig (Elt F)) :
    (held (T d) S7 W : sProp 𝕄) = iprop((a0Loc d ↦{fullShare} W a0') ∗ (a1Loc d ↦{fullShare} W a1') ∗ (xtLoc d ↦{fullShare} W v0')
      ∗ (t1Loc d ↦{fullShare} W v1') ∗ (tbLoc d ↦{fullShare} W v2') ∗ (otLoc d ↦{fullShare} W v3') ∗ ouLoc d ↦{fullShare} W v4') := by
  unfold held S7
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

theorem unscopedBufs_eq (d : Dev nD) (W : (b : Ref sig .tc) → Buf (Elt F) ((d.tc : Thread nD τ).loc b)) :
    (unscopedBufs d W : sProp 𝕄) = iprop((a0Loc d ↦{fullShare} W main_arg0) ∗ (a1Loc d ↦{fullShare} W main_arg1) ∗ (xtLoc d ↦{fullShare} W main_v0)
      ∗ (t1Loc d ↦{fullShare} W main_v1) ∗ (tbLoc d ↦{fullShare} W main_v2) ∗ (otLoc d ↦{fullShare} W main_v3) ∗ ouLoc d ↦{fullShare} W main_v4) := by
  unfold unscopedBufs
  rw [show (Finset.univ.filter fun b : Ref sig .tc => ¬ b.isScoped) = {main_arg0, main_arg1, main_v0, main_v1, main_v2, main_v3, main_v4} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The arrays' contents: at the launch; after each of the three operations before the call; after the call, `ot` at
    `OT`; after the last transpose. -/
def V0 (d : Dev nD) : Valuation τ sig (Elt F) := fun b => m (d, b)
def V1 (d : Dev nD) : Valuation τ sig (Elt F) := (opXT (F := F)).result (V0 m d)
def V2 (d : Dev nD) : Valuation τ sig (Elt F) := (opT1 (F := F)).result (V1 m d)
def V3 (d : Dev nD) : Valuation τ sig (Elt F) := (opTB (F := F)).result (V2 m d)
def V4 (d : Dev nD) : Valuation τ sig (Elt F) := Function.update (V3 m d) v3' (OT m d)
def V5 (d : Dev nD) : Valuation τ sig (Elt F) := (opOU (F := F)).result (V4 m d)

theorem unscoped_held (d : Dev nD) : (unscopedBufs d (fun b => m ((SparseCore.T d).loc b)) : sProp 𝕄) = held (T d) S7 (V0 m d) := by
  rw [unscopedBufs_eq, held_S7]; rfl

theorem V3_a0 (d : Dev nD) : V3 m d a0' = m (a0Loc d) := by
  unfold V3 V2 V1
  rw [StableHlo.reshape_result_ne _ _ _ _ _ _ _ (show main_arg0 ≠ main_v2 by decide), StableHlo.unary_result_ne _ _ _ _ _ _ (show main_arg0 ≠ main_v1 by decide),
    StableHlo.unary_result_ne _ _ _ _ _ _ (show main_arg0 ≠ main_v0 by decide)]
  rfl
theorem V3_a1 (d : Dev nD) : V3 m d a1' = m (a1Loc d) := by
  unfold V3 V2 V1
  rw [StableHlo.reshape_result_ne _ _ _ _ _ _ _ (show main_arg1 ≠ main_v2 by decide), StableHlo.unary_result_ne _ _ _ _ _ _ (show main_arg1 ≠ main_v1 by decide),
    StableHlo.unary_result_ne _ _ _ _ _ _ (show main_arg1 ≠ main_v0 by decide)]
  rfl
theorem V3_v0 (d : Dev nD) : V3 m d v0' = XT m d := by
  unfold V3 V2 V1
  rw [StableHlo.reshape_result_ne _ _ _ _ _ _ _ (show main_v0 ≠ main_v2 by decide), StableHlo.unary_result_ne _ _ _ _ _ _ (show main_v0 ≠ main_v1 by decide),
    StableHlo.unary_result]
  rfl
theorem V2_v1 (d : Dev nD) : V2 m d v1' = T1 m d := by
  unfold V2 V1
  rw [StableHlo.unary_result, StableHlo.unary_result_ne _ _ _ _ _ _ (show main_arg1 ≠ main_v0 by decide)]
  rfl
theorem V3_v2 (d : Dev nD) : V3 m d v2' = TB m d := by
  unfold V3
  rw [StableHlo.reshape_result, V2_v1]
  rfl
theorem V3_v3 (d : Dev nD) : V3 m d v3' = m (otLoc d) := by
  unfold V3 V2 V1
  rw [StableHlo.reshape_result_ne _ _ _ _ _ _ _ (show main_v3 ≠ main_v2 by decide), StableHlo.unary_result_ne _ _ _ _ _ _ (show main_v3 ≠ main_v1 by decide),
    StableHlo.unary_result_ne _ _ _ _ _ _ (show main_v3 ≠ main_v0 by decide)]
  rfl

theorem V4_v3 (d : Dev nD) : V4 m d v3' = OT m d := Function.update_self _ _ _
theorem V4_ne (d : Dev nD) {b : DevRef τ sig} (h : b ≠ v3') : V4 m d b = V3 m d b := Function.update_of_ne h _ _

theorem V5_v4 (d : Dev nD) : V5 m d v4' = OU m d := by
  unfold V5
  rw [StableHlo.unary_result, V4_v3]
  rfl
theorem V5_a0 (d : Dev nD) : V5 m d a0' = m (a0Loc d) := by
  unfold V5
  rw [StableHlo.unary_result_ne _ _ _ _ _ _ (show main_arg0 ≠ main_v4 by decide), V4_ne m d (show a0' ≠ v3' by decide), V3_a0]
theorem V5_a1 (d : Dev nD) : V5 m d a1' = m (a1Loc d) := by
  unfold V5
  rw [StableHlo.unary_result_ne _ _ _ _ _ _ (show main_arg1 ≠ main_v4 by decide), V4_ne m d (show a1' ≠ v3' by decide), V3_a1]

/-- Before the call: `xt`, `tb` and `ot` hold what the call's payloads say. -/
theorem held_V3 (d : Dev nD) :
    (held (T d) S7 (V3 m d) : sProp 𝕄) = iprop((a0Loc d ↦{fullShare} V3 m d a0') ∗ (a1Loc d ↦{fullShare} V3 m d a1') ∗ (xtLoc d ↦{fullShare} XT m d)
      ∗ (t1Loc d ↦{fullShare} V3 m d v1') ∗ (tbLoc d ↦{fullShare} TB m d) ∗ (otLoc d ↦{fullShare} m (otLoc d)) ∗ ouLoc d ↦{fullShare} V3 m d v4') := by
  rw [held_S7, V3_v0, V3_v2, V3_v3]
theorem held_V3' (d : Dev nD) :
    (held (T d) S7 ((opTB (F := F)).result (V2 m d)) : sProp 𝕄) = iprop((a0Loc d ↦{fullShare} V3 m d a0') ∗ (a1Loc d ↦{fullShare} V3 m d a1') ∗ (xtLoc d ↦{fullShare} XT m d)
      ∗ (t1Loc d ↦{fullShare} V3 m d v1') ∗ (tbLoc d ↦{fullShare} TB m d) ∗ (otLoc d ↦{fullShare} m (otLoc d)) ∗ ouLoc d ↦{fullShare} V3 m d v4') :=
  held_V3 m d
/-- After it: the same with `ot` at `OT`. -/
theorem held_V4 (d : Dev nD) :
    (held (T d) S7 (V4 m d) : sProp 𝕄) = iprop((a0Loc d ↦{fullShare} V3 m d a0') ∗ (a1Loc d ↦{fullShare} V3 m d a1') ∗ (xtLoc d ↦{fullShare} XT m d)
      ∗ (t1Loc d ↦{fullShare} V3 m d v1') ∗ (tbLoc d ↦{fullShare} TB m d) ∗ (otLoc d ↦{fullShare} OT m d) ∗ ouLoc d ↦{fullShare} V3 m d v4') := by
  rw [held_S7, V4_v3, V4_ne m d (show a0' ≠ v3' by decide), V4_ne m d (show a1' ≠ v3' by decide), V4_ne m d (show v0' ≠ v3' by decide),
    V4_ne m d (show v1' ≠ v3' by decide), V4_ne m d (show v2' ≠ v3' by decide), V4_ne m d (show v4' ≠ v3' by decide), V3_v0, V3_v2]
/-- At the end: the arguments as launched, the result at `OU`. -/
theorem held_V5 (d : Dev nD) :
    (held (T d) S7 (V5 m d) : sProp 𝕄) = iprop((a0Loc d ↦{fullShare} m (a0Loc d)) ∗ (a1Loc d ↦{fullShare} m (a1Loc d)) ∗ (xtLoc d ↦{fullShare} V5 m d v0')
      ∗ (t1Loc d ↦{fullShare} V5 m d v1') ∗ (tbLoc d ↦{fullShare} V5 m d v2') ∗ (otLoc d ↦{fullShare} V5 m d v3') ∗ ouLoc d ↦{fullShare} OU m d) := by
  rw [held_S7, V5_a0, V5_a1, V5_v4]

theorem held_V5' (d : Dev nD) :
    (held (T d) S7 ((opOU (F := F)).result (V4 m d)) : sProp 𝕄) = iprop((a0Loc d ↦{fullShare} m (a0Loc d)) ∗ (a1Loc d ↦{fullShare} m (a1Loc d)) ∗ (xtLoc d ↦{fullShare} V5 m d v0')
      ∗ (t1Loc d ↦{fullShare} V5 m d v1') ∗ (tbLoc d ↦{fullShare} V5 m d v2') ∗ (otLoc d ↦{fullShare} V5 m d v3') ∗ ouLoc d ↦{fullShare} OU m d) :=
  held_V5 m d

/-! ## @main on the TensorCore -/

section Main

variable [FloatOps F]

/-- What @main leaves the claim: the arguments at their launch contents, the result at `OU`. -/
abbrev FIN (d : Dev nD) : sProp 𝕄 :=
  iprop((a0Loc d ↦{fullShare} m (a0Loc d)) ∗ (a1Loc d ↦{fullShare} m (a1Loc d)) ∗ ouLoc d ↦{fullShare} OU m d)

/-- @main on device `d`'s TensorCore: the three operations before the call (the seven arrays held whole), the call (the
    tokens of `xt` and `tb` and the whole of `ot` out, the same back with `ot` at `OT`), the last transpose. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the index array transposed
  iapply (wp_hlo_within 𝒱 (SparseCore.T d) none Set.univ (op := opXT) (S := S7) hXT (V := V0 m d)) $$ [Hb Hheld]
  · isplitl [Hb]; · iexact Hb
    iexact Hheld
  iintro ⟨Hb, Hheld⟩
  rw [wp_ret]; imodintro
  -- the tables transposed
  iapply (wp_hlo_within 𝒱 (SparseCore.T d) none Set.univ (op := opT1) (S := S7) hT1 (V := V1 m d)) $$ [Hb Hheld]
  · isplitl [Hb]; · iexact Hb
    iexact Hheld
  iintro ⟨Hb, Hheld⟩
  rw [wp_ret]; imodintro
  -- and flattened
  iapply (wp_hlo_within 𝒱 (SparseCore.T d) none Set.univ (op := opTB) (S := S7) hTB (V := V2 m d)) $$ [Hb Hheld]
  · isplitl [Hb]; · iexact Hb
    iexact Hheld
  iintro ⟨Hb, Hheld⟩
  rw [wp_ret]; imodintro
  ihave Hh := (Entails.of_eq (held_V3' m d)) $$ Hheld
  icases Hh with ⟨Ha0, Ha1, Hxt, Ht1, Htb, Hot, Hou⟩
  -- the call: two tokens of each read share out, the remainders kept; `ot` out whole
  ihave Hx := (Transfers.pointsTo_toks_split (ℓ := xtLoc d) (S := Finset.univ) (f := XT m d) fullShare 2) $$ Hxt
  icases Hx with ⟨HxR, HxT⟩
  ihave Ht := (Transfers.pointsTo_toks_split (ℓ := tbLoc d) (S := Finset.univ) (f := TB m d) fullShare 2) $$ Htb
  icases Ht with ⟨HtR, HtT⟩
  iapply ((K (F := F)).wp_run (D (F := F)) 𝒱 (EH := EH) (P := P m) κ d 0) $$ [Hst HxT HtT Hot Hb Ha0 Ha1 Ht1 Hou HxR HtR]
  isplitr; · iexact Hctx
  isplitl [Hst]; · iexact Hst
  isplitl [HxT HtT Hot]
  · rw [st0_eq]
    isplitl [HxT]; · iexact HxT
    isplitl [HtT]; · iexact HtT
    iexact Hot
  iintro ⟨Hst, Hdn⟩
  ihave Hdn' := (Entails.of_eq (dn0_eq m d)) $$ Hdn
  icases Hdn' with ⟨HxT, HtT, Hot⟩
  ihave Hxt := (Transfers.pointsTo_toks_join (ℓ := xtLoc d) (S := Finset.univ) (f := XT m d) fullShare 2) $$ [HxR HxT]
  · isplitl [HxR]; · iexact HxR
    iexact HxT
  ihave Htb := (Transfers.pointsTo_toks_join (ℓ := tbLoc d) (S := Finset.univ) (f := TB m d) fullShare 2) $$ [HtR HtT]
  · isplitl [HtR]; · iexact HtR
    iexact HtT
  -- the last transpose
  iapply (wp_hlo_within 𝒱 (SparseCore.T d) none Set.univ (op := opOU) (S := S7) hOU (V := V4 m d)) $$ [Hb Ha0 Ha1 Hxt Ht1 Htb Hot Hou]
  · isplitl [Hb]; · iexact Hb
    rw [held_V4]
    isplitl [Ha0]; · iexact Ha0
    isplitl [Ha1]; · iexact Ha1
    isplitl [Hxt]; · iexact Hxt
    isplitl [Ht1]; · iexact Ht1
    isplitl [Htb]; · iexact Htb
    isplitl [Hot]; · iexact Hot
    iexact Hou
  iintro ⟨Hb, Hheld⟩
  ihave Hh := (Entails.of_eq (held_V5' m d)) $$ Hheld
  icases Hh with ⟨Ha0, Ha1, -, -, -, -, Hou⟩
  rw [wp_ret]; imodintro; imodintro
  isplitl [Hst]; · iexact Hst
  isplitl [Ha0]; · iexact Ha0
  isplitl [Ha1]; · iexact Ha1
  iexact Hou

/-! ## What the final memory says -/

def fq (d : Dev nD) (s' : Phys nD τ sig (Elt F)) : Prop :=
  s'.mem.mem (ouLoc d) = OU m d ∧ s'.mem.mem (a0Loc d) = m (a0Loc d) ∧ s'.mem.mem (a1Loc d) = m (a1Loc d)

theorem hfin (d : Dev nD) (s' : Phys nD τ sig (Elt F)) : iprop(FIN m d ∗ SI s') ⊢ (⌜fq m d s'⌝ : sProp 𝕄) := by
  iintro ⟨⟨Ha0, Ha1, Hou⟩, HSI⟩
  ihave H := (persistent_entails_right (SI_pointsTo_agree (st := s') (ℓ := a0Loc d) (I := Finset.univ) (q := fullShare) (f := m (a0Loc d)))) $$ [HSI Ha0]
  · isplitl [HSI] <;> iassumption
  icases H with ⟨%h0, HSI, -⟩
  ihave H := (persistent_entails_right (SI_pointsTo_agree (st := s') (ℓ := a1Loc d) (I := Finset.univ) (q := fullShare) (f := m (a1Loc d)))) $$ [HSI Ha1]
  · isplitl [HSI] <;> iassumption
  icases H with ⟨%h1, HSI, -⟩
  ihave H := (SI_pointsTo_agree (st := s') (ℓ := ouLoc d) (I := Finset.univ) (q := fullShare) (f := OU m d)) $$ [HSI Hou]
  · isplitl [HSI] <;> iassumption
  icases H with %h2
  ipureintro
  exact ⟨funext fun i => h2 i (Finset.mem_univ i), funext fun i => h0 i (Finset.mem_univ i), funext fun i => h1 i (Finset.mem_univ i)⟩

/-! ## The program's run -/

def QC : PUnit × MemSt nD τ sig (Elt F) → Prop :=
  fun r => ∀ c : Dev nD, r.2.mem (ouLoc c) = OU m c ∧ r.2.mem (a0Loc c) = m (a0Loc c) ∧ r.2.mem (a1Loc c) = m (a1Loc c)

/-- From the proof of one vector subcore's task: every weakly fair execution of the device's threads ends, the result at
    `OU`, the arguments as launched. The call is a vector-subcore kernel, so there is no sequencer kernel to prove. -/
theorem run_main [∀ e, Nonempty (Elt F e)] (htile : (K (F := F)).TileObl (D (F := F)) 𝒱 (P m) v₀ 0) :
    θ_run (Cert.KernelIdeal.defs (F := F)) (Cert.KernelIdeal.threads (F := F)) ⟨m, fun _ => 0, ρ⟩
      (fun r => ∀ c : Dev nD, r.2.mem (ouLoc c) = OU m c ∧ r.2.mem (a0Loc c) = m (a0Loc c) ∧ r.2.mem (a1Loc c) = m (a1Loc c)) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Main

end Cert.Proof.KI

end
-- ==== Proof.KIFacts.lean ====
/-
  Arithmetic of one vector subcore's work: which output column trip `k` fills, which field's index row it needs,
  when that row is fetched afresh, and which rows of an array a placed one-row window reads.
-/
import proofs.«204002_g15616501088794_cont_week2b_169_25_alg».proof.Proof.KICommon

noncomputable section

namespace Cert.Proof.KI

open Cert.KernelIdeal Cert.KernelIdeal.Gen
open Idealize.ShloMosaic Idealize.ShloMosaic.ValueIdx

/-- The output column the subcore at `L` fills in trip `k`: `26 (2 s + c) + k`. -/
def uOf (L : grid0.Coords) (k : ℕ) : ℕ := 52 * (L 1).val + 26 * (L 0).val + k

theorem L0_lt (L : grid0.Coords) : (L 0).val < 2 := (L 0).isLt
theorem L1_lt (L : grid0.Coords) : (L 1).val < 16 := (L 1).isLt
theorem uOf_lt (L : grid0.Coords) {k : ℕ} (hk : k < 26) : uOf L k < 832 := by
  unfold uOf; have := L0_lt L; have := L1_lt L; omega

theorem trips1 : k0_t1_loop.trips = 26 := by decide
theorem trips2 : k0_t2_loop.trips = 256 := by decide
theorem trips3 : k0_t3_loop.trips = 256 := by decide
theorem trips4 : k0_t4_loop.trips = 256 := by decide
theorem trips5 : k0_t5_loop.trips = 256 := by decide

theorem coords_eta (L : grid0.Coords) : L = coordsV (L 0) (L 1) := by
  funext a; match a with | ⟨0, _⟩ => rfl | ⟨1, _⟩ => rfl

/-- The index row is fetched in the first trip and whenever the column starts a new field. -/
theorem cond1_iff' : ∀ (c : Fin (grid0.bound 0)) (s : Fin (grid0.bound 1)) (k : Fin k0_t1_loop.trips),
    k0_cond1 (coordsV c s) k = 1#1 ↔ (k.val = 0 ∨ (52 * s.val + 26 * c.val + k.val) % 32 = 0) := by decide +kernel
theorem cond1_iff (L : grid0.Coords) (k : Fin k0_t1_loop.trips) :
    k0_cond1 L k = 1#1 ↔ (k.val = 0 ∨ uOf L k.val % 32 = 0) := by
  rw [coords_eta L]; exact cond1_iff' _ _ _

/-- The row fetched is the column's field, `u / 32`. -/
theorem off2_zero' : ∀ (c : Fin (grid0.bound 0)) (s : Fin (grid0.bound 1)) (k : Fin k0_t1_loop.trips),
    k0_off2 (coordsV c s) k 0 = (52 * s.val + 26 * c.val + k.val) / 32 := by decide +kernel
theorem off2_zero (L : grid0.Coords) (k : Fin k0_t1_loop.trips) : k0_off2 L k 0 = uOf L k.val / 32 := by
  rw [coords_eta L]; exact off2_zero' _ _ _
theorem off2_one (L : grid0.Coords) (k : Fin k0_t1_loop.trips) : k0_off2 L k 1 = 0 := rfl

/-- A trip after the first waits for the previous trip's last two copies. -/
theorem later_iff : ∀ k : Fin k0_t1_loop.trips,
    Scalar.cmpi .ne (Scalar.extui (Scalar.cmpi .sgt (Scf.iv 0#32 1#32 k) 0#32) : BitVec 32) 0#32 = 1#1 ↔ k.val ≠ 0 := by decide +kernel

end Cert.Proof.KI

end
-- ==== Proof.KIBase.lean ====
/-
  One vector subcore's view of the kernel: its thread, its four scratch buffers and four DMA semaphores among the
  storage it is handed, and the windows of the three arrays its copies name, spelt as the program spells them:
  row `u` of the flattened tables, row `u / 32` of the transposed indices, and the four quarters of row `u` of the
  result.
-/
import proofs.«204002_g15616501088794_cont_week2b_169_25_alg».proof.Proof.KIFacts

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xtM" => (Memref.whole Cert.KernelIdeal.main_v0_scv : Memref Cert.KernelIdeal.sig Kind.scVector Space.hbm Cert.KernelIdeal.S26x16384 EltTy.i32)
local notation "tbM" => (Memref.whole Cert.KernelIdeal.main_v2_scv : Memref Cert.KernelIdeal.sig Kind.scVector Space.hbm Cert.KernelIdeal.S832x100000 EltTy.f32)
local notation "otM" => (Memref.whole Cert.KernelIdeal.main_v3_scv : Memref Cert.KernelIdeal.sig Kind.scVector Space.hbm Cert.KernelIdeal.S832x16384 EltTy.f32)
local notation "vecM" => (Memref.whole Cert.KernelIdeal.cc0_scratch0 : Memref Cert.KernelIdeal.sig Kind.scVector Space.vmem Cert.KernelIdeal.S100000 EltTy.f32)
local notation "xrM" => (Memref.whole Cert.KernelIdeal.cc0_scratch1 : Memref Cert.KernelIdeal.sig Kind.scVector Space.vmem Cert.KernelIdeal.S16384 EltTy.i32)
local notation "oq0M" => (Memref.whole Cert.KernelIdeal.cc0_scratch2 : Memref Cert.KernelIdeal.sig Kind.scVector Space.vmem Cert.KernelIdeal.S4096 EltTy.f32)
local notation "oq1M" => (Memref.whole Cert.KernelIdeal.cc0_scratch3 : Memref Cert.KernelIdeal.sig Kind.scVector Space.vmem Cert.KernelIdeal.S4096 EltTy.f32)

section Tile
variable (d : Dev nD) (L : grid0.Coords)

/-- The vector subcore at coordinates `L`, as a thread of device `d`. -/
abbrev thr : Thread nD τ := V d (cV L) (jV L)

/-- Its semaphores: the table row's, the two staging buffers', the index row's. -/
abbrev vCell : GSem nD τ sig := (thr d L, .dma cc0_scratch4.sem)
abbrev o0Cell : GSem nD τ sig := (thr d L, .dma cc0_scratch5.sem)
abbrev o1Cell : GSem nD τ sig := (thr d L, .dma cc0_scratch6.sem)
abbrev xCell : GSem nD τ sig := (thr d L, .dma cc0_scoped0.sem)

theorem ownSems0_V :
    (ownSems0 (thr d L) : sProp 𝕄)
      = iprop(semVal (vCell d L) 0 ∗ semVal (o0Cell d L) 0 ∗ semVal (o1Cell d L) 0 ∗ semVal (xCell d L) 0
          ∗ bigSep (((((ownCells (thr d L)).erase (vCell d L)).erase (o0Cell d L)).erase (o1Cell d L)).erase (xCell d L)) fun g => semVal g 0) := by
  unfold SparseCore.Cfg.ownSems0
  rw [SparseCore.bigSep_erase' ((mem_ownCells (g := vCell d L)).mpr ⟨rfl, by
      show (SemLoc.dma cc0_scratch4.sem : SemLoc sig).isScoped .scVector = true; decide⟩),
    SparseCore.bigSep_erase' (Finset.mem_erase.mpr ⟨by simp [vCell, o0Cell]; decide, (mem_ownCells (g := o0Cell d L)).mpr ⟨rfl, by
      show (SemLoc.dma cc0_scratch5.sem : SemLoc sig).isScoped .scVector = true; decide⟩⟩),
    SparseCore.bigSep_erase' (Finset.mem_erase.mpr ⟨by simp [o0Cell, o1Cell]; decide, Finset.mem_erase.mpr ⟨by simp [vCell, o1Cell]; decide,
      (mem_ownCells (g := o1Cell d L)).mpr ⟨rfl, by show (SemLoc.dma cc0_scratch6.sem : SemLoc sig).isScoped .scVector = true; decide⟩⟩⟩),
    SparseCore.bigSep_erase' (Finset.mem_erase.mpr ⟨by simp [o1Cell, xCell]; decide, Finset.mem_erase.mpr ⟨by simp [o0Cell, xCell]; decide,
      Finset.mem_erase.mpr ⟨by simp [vCell, xCell]; decide,
      (mem_ownCells (g := xCell d L)).mpr ⟨rfl, by show (SemLoc.dma cc0_scoped0.sem : SemLoc sig).isScoped .scVector = true; decide⟩⟩⟩⟩)]

theorem ownBufs_V :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f) ∗ (∃ f, (thr d L).loc cc0_scratch3 ↦{fullShare} f)
          ∗ bigSep (((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2)).erase
              ((Proc.scVector (cV L) (jV L)).devRef cc0_scratch3))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩),
    SparseCore.bigSep_erase' (Finset.mem_erase.mpr ⟨fun e => absurd (Proc.devRef_injective _ e) (show (cc0_scratch3 : Ref sig .scVector) ≠ cc0_scratch2 by decide),
      Finset.mem_erase.mpr ⟨fun e => absurd (Proc.devRef_injective _ e) (show (cc0_scratch3 : Ref sig .scVector) ≠ cc0_scratch1 by decide),
      Finset.mem_erase.mpr ⟨fun e => absurd (Proc.devRef_injective _ e) (show (cc0_scratch3 : Ref sig .scVector) ≠ cc0_scratch0 by decide),
    SparseCore.Cfg.mem_ownRefs_of_owner (p := Proc.scVector (cV L) (jV L)) (b := (Proc.scVector (cV L) (jV L)).devRef cc0_scratch3) rfl⟩⟩⟩)]

/-- Row `u` of the flattened tables, the row trip `k` copies into the subcore's table scratch. -/
abbrev rowM (k : Fin k0_t1_loop.trips) : Memref sig .scVector .hbm S100000 .f32 :=
  ((tbM).slice (Rect.unit (s := S832x100000) (k0_off1 L k) S1x100000.size (k0_off1_inb L k)) (fun _ => rfl)).squeeze S100000 squeezes_S1x100000_S100000
/-- Row `u / 32` of the transposed indices, copied when the field changes. -/
abbrev xsrcM (k : Fin k0_t1_loop.trips) (h : k0_cond1 L k = 1#1) : Memref sig .scVector .hbm S16384 .i32 :=
  ((xtM).slice (Rect.unit (s := S26x16384) (k0_off2 L k) S1x16384.size (k0_off2_inb L k h)) (fun _ => rfl)).squeeze S16384 squeezes_S1x16384_S16384
/-- The four quarters of row `u` of the result. -/
abbrev ch0M (k : Fin k0_t1_loop.trips) : Memref sig .scVector .hbm S4096 .f32 :=
  ((otM).slice (Rect.unit (s := S832x16384) (k0_off5 L k) S1x4096.size (k0_off5_inb L k)) (fun _ => rfl)).squeeze S4096 squeezes_S1x4096_S4096
abbrev ch1M (k : Fin k0_t1_loop.trips) : Memref sig .scVector .hbm S4096 .f32 :=
  ((otM).slice (Rect.unit (s := S832x16384) (k0_off8 L k) S1x4096.size (k0_off8_inb L k)) (fun _ => rfl)).squeeze S4096 squeezes_S1x4096_S4096
abbrev ch2M (k : Fin k0_t1_loop.trips) : Memref sig .scVector .hbm S4096 .f32 :=
  ((otM).slice (Rect.unit (s := S832x16384) (k0_off11 L k) S1x4096.size (k0_off11_inb L k)) (fun _ => rfl)).squeeze S4096 squeezes_S1x4096_S4096
abbrev ch3M (k : Fin k0_t1_loop.trips) : Memref sig .scVector .hbm S4096 .f32 :=
  ((otM).slice (Rect.unit (s := S832x16384) (k0_off14 L k) S1x4096.size (k0_off14_inb L k)) (fun _ => rfl)).squeeze S4096 squeezes_S1x4096_S4096

/-- The trip number as the loop's own index type. -/
def kF (k : ℕ) (hk : k < 26) : Fin k0_t1_loop.trips := ⟨k, by rw [trips1]; exact hk⟩

/-! ## Element sets of `ot`, by coordinates -/

/-- Quarter `q` of row `u`. -/
def chunkN (u q : ℕ) : Finset S832x16384.Idx :=
  Finset.univ.filter fun x => (x 0).val = u ∧ 4096 * q ≤ (x 1).val ∧ (x 1).val < 4096 * (q + 1)
/-- Row `u`. -/
def rowN (u : ℕ) : Finset S832x16384.Idx := Finset.univ.filter fun x => (x 0).val = u
/-- The subcore's rows not yet begun before trip `k`. -/
def freshSet (k : ℕ) : Finset S832x16384.Idx :=
  Finset.univ.filter fun x => uOf L k ≤ (x 0).val ∧ (x 0).val < uOf L 26
/-- What of the subcore's rows is finished and back in its hands before trip `k`: the rows before `k`, less the last
    two quarters of row `k - 1`, whose copies are still in flight. -/
def doneSet (k : ℕ) : Finset S832x16384.Idx :=
  Finset.univ.filter fun x => uOf L 0 ≤ (x 0).val ∧ (x 0).val < uOf L k ∧ ((x 0).val + 1 = uOf L k → (x 1).val < 8192)

end Tile

end Cert.Proof.KI

end
-- ==== Proof.KISets.lean ====
/-
  The element sets of the result array `ot` a vector subcore's loop moves through, as identities between finite
  sets of indices.

  The subcore at `L` owns rows `uOf L 0 … uOf L 0 + 25`, one per trip. Row `u` is four quarters of 4096 columns.
  Before trip `k` the rows from `uOf L k` on are untouched (`freshSet`), and the rows before it are finished but for
  the last two quarters of row `uOf L (k - 1)`, whose copies are still in flight (`doneSet`). Every identity below
  is a statement about the two coordinates of an index and is closed by linear arithmetic.
-/
import proofs.«204002_g15616501088794_cont_week2b_169_25_alg».proof.Proof.KIBase

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "xtM" => (Memref.whole Cert.KernelIdeal.main_v0_scv : Memref Cert.KernelIdeal.sig Kind.scVector Space.hbm Cert.KernelIdeal.S26x16384 EltTy.i32)
local notation "tbM" => (Memref.whole Cert.KernelIdeal.main_v2_scv : Memref Cert.KernelIdeal.sig Kind.scVector Space.hbm Cert.KernelIdeal.S832x100000 EltTy.f32)
local notation "otM" => (Memref.whole Cert.KernelIdeal.main_v3_scv : Memref Cert.KernelIdeal.sig Kind.scVector Space.hbm Cert.KernelIdeal.S832x16384 EltTy.f32)
local notation "vecM" => (Memref.whole Cert.KernelIdeal.cc0_scratch0 : Memref Cert.KernelIdeal.sig Kind.scVector Space.vmem Cert.KernelIdeal.S100000 EltTy.f32)
local notation "xrM" => (Memref.whole Cert.KernelIdeal.cc0_scratch1 : Memref Cert.KernelIdeal.sig Kind.scVector Space.vmem Cert.KernelIdeal.S16384 EltTy.i32)
local notation "oq0M" => (Memref.whole Cert.KernelIdeal.cc0_scratch2 : Memref Cert.KernelIdeal.sig Kind.scVector Space.vmem Cert.KernelIdeal.S4096 EltTy.f32)
local notation "oq1M" => (Memref.whole Cert.KernelIdeal.cc0_scratch3 : Memref Cert.KernelIdeal.sig Kind.scVector Space.vmem Cert.KernelIdeal.S4096 EltTy.f32)

section Sets
variable (L : grid0.Coords)

/-! ## Membership, by coordinates -/

theorem mem_chunkN (u q : ℕ) (x : S832x16384.Idx) :
    x ∈ chunkN u q ↔ (x 0).val = u ∧ 4096 * q ≤ (x 1).val ∧ (x 1).val < 4096 * (q + 1) := by
  simp only [chunkN, Finset.mem_filter, Finset.mem_univ, true_and]
theorem mem_rowN (u : ℕ) (x : S832x16384.Idx) : x ∈ rowN u ↔ (x 0).val = u := by
  simp only [rowN, Finset.mem_filter, Finset.mem_univ, true_and]
theorem mem_freshSet (k : ℕ) (x : S832x16384.Idx) :
    x ∈ freshSet L k ↔ uOf L k ≤ (x 0).val ∧ (x 0).val < uOf L 26 := by
  simp only [freshSet, Finset.mem_filter, Finset.mem_univ, true_and]
theorem mem_doneSet (k : ℕ) (x : S832x16384.Idx) :
    x ∈ doneSet L k ↔ uOf L 0 ≤ (x 0).val ∧ (x 0).val < uOf L k ∧ ((x 0).val + 1 = uOf L k → (x 1).val < 8192) := by
  simp only [doneSet, Finset.mem_filter, Finset.mem_univ, true_and]

/-- A subcore's tile of `ot`: the 26 rows from `26 w`. -/
theorem mem_tileSet (w : Fin 32) (x : S832x16384.Idx) :
    x ∈ tileSet w ↔ 26 * w.val ≤ (x 0).val ∧ (x 0).val < 26 * w.val + 26 := by
  have := idx2_lt1 x
  rw [Rect.mem_set_unit]
  constructor
  · intro h
    have h0 : w.val * 26 ≤ (x 0).val ∧ (x 0).val < w.val * 26 + 26 := h 0
    omega
  · intro h a
    by_cases ha : a = 0
    · subst ha
      exact (show w.val * 26 ≤ (x 0).val ∧ (x 0).val < w.val * 26 + 26 from by omega)
    · unfold Shape.partIx Shape.partSize
      simp only [ha, ↓reduceIte, Nat.zero_mul, Nat.zero_add]
      exact ⟨Nat.zero_le _, (x a).isLt⟩

/-- A one-row window of 4096 columns placed at `(u, c)`. -/
theorem mem_unit_row (off : Fin 2 → ℕ) (inb : ∀ a, off a + S1x4096.size a ≤ S832x16384.size a) (u c : ℕ) (hoff : off = ![u, c])
    (x : S832x16384.Idx) :
    x ∈ (Rect.unit (s := S832x16384) off S1x4096.size inb).set ↔ (x 0).val = u ∧ c ≤ (x 1).val ∧ (x 1).val < c + 4096 := by
  subst hoff
  rw [Rect.mem_set_unit]
  constructor
  · intro h
    have h0 : u ≤ (x 0).val ∧ (x 0).val < u + 1 := h 0
    have h1 : c ≤ (x 1).val ∧ (x 1).val < c + 4096 := h 1
    omega
  · intro h a
    match a with
    | ⟨0, _⟩ => exact (show u ≤ (x 0).val ∧ (x 0).val < u + 1 from by omega)
    | ⟨1, _⟩ => exact (show c ≤ (x 1).val ∧ (x 1).val < c + 4096 from by omega)

/-! ## The subcore's tile and its rows -/

/-- The tile the launch hands the subcore is its 26 rows, all untouched. -/
theorem tileSet_eq : tileSet (wid (cL L) (jL L)) = freshSet L 0 := by
  ext x
  rw [mem_tileSet, mem_freshSet]
  have e : (wid (cL L) (jL L)).val = 2 * (L 1).val + (L 0).val := rfl
  rw [e]
  unfold uOf
  omega

theorem freshSet_end  : freshSet L 26 = ∅ := by
  refine Finset.eq_empty_iff_forall_notMem.mpr fun x hx => ?_
  simp only [mem_chunkN, mem_rowN, mem_freshSet, mem_doneSet, Finset.mem_union, uOf] at hx
  omega

theorem doneSet_zero  : doneSet L 0 = ∅ := by
  refine Finset.eq_empty_iff_forall_notMem.mpr fun x hx => ?_
  simp only [mem_chunkN, mem_rowN, mem_freshSet, mem_doneSet, Finset.mem_union, uOf] at hx
  omega

theorem freshSet_succ (k : ℕ) (hk : k < 26) : freshSet L k = rowN (uOf L k) ∪ freshSet L (k + 1) := by
  ext x
  have := idx2_lt0 x; have := idx2_lt1 x
  simp only [mem_chunkN, mem_rowN, mem_freshSet, mem_doneSet, Finset.mem_union, uOf]
  omega

theorem freshSet_succ_disj (k : ℕ) : Disjoint (rowN (uOf L k)) (freshSet L (k + 1)) := by
  refine Finset.disjoint_left.mpr fun x h1 h2 => ?_
  have := idx2_lt0 x; have := idx2_lt1 x
  simp only [mem_chunkN, mem_rowN, mem_freshSet, mem_doneSet, Finset.mem_union, uOf] at h1 h2
  omega

/-! ## A row is its four quarters -/

theorem rowN_eq (u : ℕ) : rowN u = ((chunkN u 0 ∪ chunkN u 1) ∪ chunkN u 2) ∪ chunkN u 3 := by
  ext x
  have := idx2_lt0 x; have := idx2_lt1 x
  simp only [mem_chunkN, mem_rowN, mem_freshSet, mem_doneSet, Finset.mem_union, uOf]
  omega

theorem chunk_disj01 (u : ℕ) : Disjoint (chunkN u 0) (chunkN u 1) := by
  refine Finset.disjoint_left.mpr fun x h1 h2 => ?_
  have := idx2_lt0 x; have := idx2_lt1 x
  simp only [mem_chunkN, mem_rowN, mem_freshSet, mem_doneSet, Finset.mem_union, uOf] at h1 h2
  omega

theorem chunk_disj012 (u : ℕ) : Disjoint (chunkN u 0 ∪ chunkN u 1) (chunkN u 2) := by
  refine Finset.disjoint_left.mpr fun x h1 h2 => ?_
  have := idx2_lt0 x; have := idx2_lt1 x
  simp only [mem_chunkN, mem_rowN, mem_freshSet, mem_doneSet, Finset.mem_union, uOf] at h1 h2
  omega

theorem chunk_disj0123 (u : ℕ) : Disjoint ((chunkN u 0 ∪ chunkN u 1) ∪ chunkN u 2) (chunkN u 3) := by
  refine Finset.disjoint_left.mpr fun x h1 h2 => ?_
  have := idx2_lt0 x; have := idx2_lt1 x
  simp only [mem_chunkN, mem_rowN, mem_freshSet, mem_doneSet, Finset.mem_union, uOf] at h1 h2
  omega

/-! ## What is finished before each trip -/

theorem doneSet_one  : doneSet L 1 = chunkN (uOf L 0) 0 ∪ chunkN (uOf L 0) 1 := by
  ext x
  have := idx2_lt0 x; have := idx2_lt1 x
  simp only [mem_chunkN, mem_rowN, mem_freshSet, mem_doneSet, Finset.mem_union, uOf]
  omega

theorem doneSet_succ (k : ℕ) (hk : 0 < k) : doneSet L (k + 1) = (((doneSet L k ∪ chunkN (uOf L (k - 1)) 2) ∪ chunkN (uOf L (k - 1)) 3) ∪ chunkN (uOf L k) 0) ∪ chunkN (uOf L k) 1 := by
  ext x
  have := idx2_lt0 x; have := idx2_lt1 x
  simp only [mem_chunkN, mem_rowN, mem_freshSet, mem_doneSet, Finset.mem_union, uOf]
  omega

theorem doneSet_succ_d1 (k : ℕ) (hk : 0 < k) : Disjoint (doneSet L k) (chunkN (uOf L (k - 1)) 2) := by
  refine Finset.disjoint_left.mpr fun x h1 h2 => ?_
  have := idx2_lt0 x; have := idx2_lt1 x
  simp only [mem_chunkN, mem_rowN, mem_freshSet, mem_doneSet, Finset.mem_union, uOf] at h1 h2
  omega

theorem doneSet_succ_d2 (k : ℕ) (hk : 0 < k) : Disjoint (doneSet L k ∪ chunkN (uOf L (k - 1)) 2) (chunkN (uOf L (k - 1)) 3) := by
  refine Finset.disjoint_left.mpr fun x h1 h2 => ?_
  have := idx2_lt0 x; have := idx2_lt1 x
  simp only [mem_chunkN, mem_rowN, mem_freshSet, mem_doneSet, Finset.mem_union, uOf] at h1 h2
  omega

theorem doneSet_succ_d3 (k : ℕ) (hk : 0 < k) : Disjoint ((doneSet L k ∪ chunkN (uOf L (k - 1)) 2) ∪ chunkN (uOf L (k - 1)) 3) (chunkN (uOf L k) 0) := by
  refine Finset.disjoint_left.mpr fun x h1 h2 => ?_
  have := idx2_lt0 x; have := idx2_lt1 x
  simp only [mem_chunkN, mem_rowN, mem_freshSet, mem_doneSet, Finset.mem_union, uOf] at h1 h2
  omega

theorem doneSet_succ_d4 (k : ℕ) (hk : 0 < k) : Disjoint (((doneSet L k ∪ chunkN (uOf L (k - 1)) 2) ∪ chunkN (uOf L (k - 1)) 3) ∪ chunkN (uOf L k) 0) (chunkN (uOf L k) 1) := by
  refine Finset.disjoint_left.mpr fun x h1 h2 => ?_
  have := idx2_lt0 x; have := idx2_lt1 x
  simp only [mem_chunkN, mem_rowN, mem_freshSet, mem_doneSet, Finset.mem_union, uOf] at h1 h2
  omega

/-- After the last trip the tile is what is finished and the last row's two quarters in flight. -/
theorem tile_final  : freshSet L 0 = (doneSet L 26 ∪ chunkN (uOf L 25) 2) ∪ chunkN (uOf L 25) 3 := by
  ext x
  have := idx2_lt0 x; have := idx2_lt1 x
  simp only [mem_chunkN, mem_rowN, mem_freshSet, mem_doneSet, Finset.mem_union, uOf]
  omega

theorem tile_final_d1  : Disjoint (doneSet L 26) (chunkN (uOf L 25) 2) := by
  refine Finset.disjoint_left.mpr fun x h1 h2 => ?_
  have := idx2_lt0 x; have := idx2_lt1 x
  simp only [mem_chunkN, mem_rowN, mem_freshSet, mem_doneSet, Finset.mem_union, uOf] at h1 h2
  omega

theorem tile_final_d2  : Disjoint (doneSet L 26 ∪ chunkN (uOf L 25) 2) (chunkN (uOf L 25) 3) := by
  refine Finset.disjoint_left.mpr fun x h1 h2 => ?_
  have := idx2_lt0 x; have := idx2_lt1 x
  simp only [mem_chunkN, mem_rowN, mem_freshSet, mem_doneSet, Finset.mem_union, uOf] at h1 h2
  omega

/-! ## The quarter windows, as the program slices them -/

theorem set_ch0M (k : Fin k0_t1_loop.trips) : (ch0M L k).view.set = chunkN (uOf L k.val) 0 := by
  have hs : (ch0M L k).view.set = (Rect.unit (s := S832x16384) (k0_off5 L k) S1x4096.size (k0_off5_inb L k)).set :=
    (View.set_reshape _ _).trans (View.set_slice_whole _ _)
  ext (x : S832x16384.Idx)
  rw [hs, mem_unit_row _ _ _ 0 (k0_off5_eq L k), mem_chunkN]
  unfold uOf
  omega

theorem set_ch1M (k : Fin k0_t1_loop.trips) : (ch1M L k).view.set = chunkN (uOf L k.val) 1 := by
  have hs : (ch1M L k).view.set = (Rect.unit (s := S832x16384) (k0_off8 L k) S1x4096.size (k0_off8_inb L k)).set :=
    (View.set_reshape _ _).trans (View.set_slice_whole _ _)
  ext (x : S832x16384.Idx)
  rw [hs, mem_unit_row _ _ _ 4096 (k0_off8_eq L k), mem_chunkN]
  unfold uOf
  omega

theorem set_ch2M (k : Fin k0_t1_loop.trips) : (ch2M L k).view.set = chunkN (uOf L k.val) 2 := by
  have hs : (ch2M L k).view.set = (Rect.unit (s := S832x16384) (k0_off11 L k) S1x4096.size (k0_off11_inb L k)).set :=
    (View.set_reshape _ _).trans (View.set_slice_whole _ _)
  ext (x : S832x16384.Idx)
  rw [hs, mem_unit_row _ _ _ 8192 (k0_off11_eq L k), mem_chunkN]
  unfold uOf
  omega

theorem set_ch3M (k : Fin k0_t1_loop.trips) : (ch3M L k).view.set = chunkN (uOf L k.val) 3 := by
  have hs : (ch3M L k).view.set = (Rect.unit (s := S832x16384) (k0_off14 L k) S1x4096.size (k0_off14_inb L k)).set :=
    (View.set_reshape _ _).trans (View.set_slice_whole _ _)
  ext (x : S832x16384.Idx)
  rw [hs, mem_unit_row _ _ _ 12288 (k0_off14_eq L k), mem_chunkN]
  unfold uOf
  omega

end Sets

end Cert.Proof.KI

end
-- ==== Proof.KIOK.lean ====
/-
  What the subcore's four scratch buffers hold along a trip, as predicates on their contents.

  In trip `k` the subcore fills output column `u = uOf L k`. Its table scratch is to hold row `u` of the flattened
  tables (`VecOK`), its index scratch row `u / 32` of the transposed indices (`XrowOK`), and each of the two staging
  buffers is filled, sixteen lanes a step, with the table scratch gathered at a quarter of the index scratch
  (`GOK0`, `GOK1`: after `t` steps lanes `0 … 16 t - 1` are done).
-/
import proofs.«204002_g15616501088794_cont_week2b_169_25_alg».proof.Proof.KIBase
import Idealize.ShloMosaic.Lib.ValueIdx

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "xtM" => (Memref.whole Cert.KernelIdeal.main_v0_scv : Memref Cert.KernelIdeal.sig Kind.scVector Space.hbm Cert.KernelIdeal.S26x16384 EltTy.i32)
local notation "tbM" => (Memref.whole Cert.KernelIdeal.main_v2_scv : Memref Cert.KernelIdeal.sig Kind.scVector Space.hbm Cert.KernelIdeal.S832x100000 EltTy.f32)
local notation "otM" => (Memref.whole Cert.KernelIdeal.main_v3_scv : Memref Cert.KernelIdeal.sig Kind.scVector Space.hbm Cert.KernelIdeal.S832x16384 EltTy.f32)
local notation "vecM" => (Memref.whole Cert.KernelIdeal.cc0_scratch0 : Memref Cert.KernelIdeal.sig Kind.scVector Space.vmem Cert.KernelIdeal.S100000 EltTy.f32)
local notation "xrM" => (Memref.whole Cert.KernelIdeal.cc0_scratch1 : Memref Cert.KernelIdeal.sig Kind.scVector Space.vmem Cert.KernelIdeal.S16384 EltTy.i32)
local notation "oq0M" => (Memref.whole Cert.KernelIdeal.cc0_scratch2 : Memref Cert.KernelIdeal.sig Kind.scVector Space.vmem Cert.KernelIdeal.S4096 EltTy.f32)
local notation "oq1M" => (Memref.whole Cert.KernelIdeal.cc0_scratch3 : Memref Cert.KernelIdeal.sig Kind.scVector Space.vmem Cert.KernelIdeal.S4096 EltTy.f32)

section OK
variable (m : (ℓ : Loc nD τ sig) → Buf (Elt F) ℓ) (d : Dev nD) (L : grid0.Coords)

/-- The index scratch holds row `f` of the transposed indices. -/
def XrowOK (fxr : Buf (Elt F) ((thr d L).loc cc0_scratch1)) (f : Fin 26) : Prop :=
  ∀ b : Fin 16384, fxr (ix1 b) = XT m d (ix2 f b)
/-- The table scratch holds row `u` of the flattened tables. -/
def VecOK (fvc : Buf (Elt F) ((thr d L).loc cc0_scratch0)) (u : Fin 832) : Prop :=
  ∀ v : Fin 100000, fvc (ix1 v) = TB m d (ix2 u v)
/-- The first staging buffer after `t` steps of the gather loop for quarter `q`: lane `p < 16 t` holds the table
    scratch at the index scratch's entry `4096 q + p`. -/
def GOK0 (q t : ℕ) (fxr : Buf (Elt F) ((thr d L).loc cc0_scratch1)) (fvc : Buf (Elt F) ((thr d L).loc cc0_scratch0))
    (fo : Buf (Elt F) ((thr d L).loc cc0_scratch2)) : Prop :=
  ∀ p : Fin 4096, p.val < 16 * t →
    fo (ix1 p) = fvc (ix1 (Cert.Spec.rowOf (fxr (ix1 ⟨(4096 * q + p.val) % 16384, Nat.mod_lt _ (by decide)⟩))))
/-- The same for the second staging buffer. -/
def GOK1 (q t : ℕ) (fxr : Buf (Elt F) ((thr d L).loc cc0_scratch1)) (fvc : Buf (Elt F) ((thr d L).loc cc0_scratch0))
    (fo : Buf (Elt F) ((thr d L).loc cc0_scratch3)) : Prop :=
  ∀ p : Fin 4096, p.val < 16 * t →
    fo (ix1 p) = fvc (ix1 (Cert.Spec.rowOf (fxr (ix1 ⟨(4096 * q + p.val) % 16384, Nat.mod_lt _ (by decide)⟩))))

end OK

end Cert.Proof.KI

end
-- ==== Proof.KIInv.lean ====
/-
  What holds between the trips of a vector subcore's loop over its 26 output columns.

  Trip `k` gathers output row `u` in four quarters through two staging buffers: quarters 0 and 2 through one buffer
  and its semaphore, 1 and 3 through the other, each buffer's previous copy waited for before it is refilled.
  Quarters 2 and 3 of a row are therefore still in flight when the next trip begins. Between trips the subcore
  holds: the rows it has not begun, as the launch left them; the finished part of its rows, at their final contents;
  and either both staging buffers and their semaphores at rest (before the first trip) or the two copies in flight,
  each known to land the final contents of its quarter.
-/
import proofs.«204002_g15616501088794_cont_week2b_169_25_alg».proof.Proof.KISets
import proofs.«204002_g15616501088794_cont_week2b_169_25_alg».proof.Proof.KIOK

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "xtM" => (Memref.whole Cert.KernelIdeal.main_v0_scv : Memref Cert.KernelIdeal.sig Kind.scVector Space.hbm Cert.KernelIdeal.S26x16384 EltTy.i32)
local notation "tbM" => (Memref.whole Cert.KernelIdeal.main_v2_scv : Memref Cert.KernelIdeal.sig Kind.scVector Space.hbm Cert.KernelIdeal.S832x100000 EltTy.f32)
local notation "otM" => (Memref.whole Cert.KernelIdeal.main_v3_scv : Memref Cert.KernelIdeal.sig Kind.scVector Space.hbm Cert.KernelIdeal.S832x16384 EltTy.f32)
local notation "vecM" => (Memref.whole Cert.KernelIdeal.cc0_scratch0 : Memref Cert.KernelIdeal.sig Kind.scVector Space.vmem Cert.KernelIdeal.S100000 EltTy.f32)
local notation "xrM" => (Memref.whole Cert.KernelIdeal.cc0_scratch1 : Memref Cert.KernelIdeal.sig Kind.scVector Space.vmem Cert.KernelIdeal.S16384 EltTy.i32)
local notation "oq0M" => (Memref.whole Cert.KernelIdeal.cc0_scratch2 : Memref Cert.KernelIdeal.sig Kind.scVector Space.vmem Cert.KernelIdeal.S4096 EltTy.f32)
local notation "oq1M" => (Memref.whole Cert.KernelIdeal.cc0_scratch3 : Memref Cert.KernelIdeal.sig Kind.scVector Space.vmem Cert.KernelIdeal.S4096 EltTy.f32)

variable (m : (ℓ : Loc nD τ sig) → Buf (Elt F) ℓ) [FloatOps F]

section Tile
variable (d : Dev nD) (L : grid0.Coords)

/-! ## The copies in flight -/

/-- What a quarter of `ot` holds once the staging buffer's copy has landed on it. -/
abbrev landed0 (c : Memref sig .scVector .hbm S4096 .f32) (fA : Buf (Elt F) (c.view.loc (thr d L)))
    (fo : Buf (Elt F) ((thr d L).loc cc0_scratch2)) : Buf (Elt F) (c.view.loc (thr d L)) :=
  c.view.writes (Elt F) fA [⟨Rect.whole S4096, ReadAs.same.apply ((oq0M).view.read (Elt F) fo)⟩]
abbrev landed1 (c : Memref sig .scVector .hbm S4096 .f32) (fA : Buf (Elt F) (c.view.loc (thr d L)))
    (fo : Buf (Elt F) ((thr d L).loc cc0_scratch3)) : Buf (Elt F) (c.view.loc (thr d L)) :=
  c.view.writes (Elt F) fA [⟨Rect.whole S4096, ReadAs.same.apply ((oq1M).view.read (Elt F) fo)⟩]

/-- A staging buffer's copy in flight: at its wait it hands back the quarter, landed, and the buffer. -/
abbrev fly0 (c : Memref sig .scVector .hbm S4096 .f32) (fA : Buf (Elt F) (c.view.loc (thr d L)))
    (fo : Buf (Elt F) ((thr d L).loc cc0_scratch2)) : sProp 𝕄 :=
  Transfers.Flight (countersEmb (U := UU)) (thr d L) (SemLoc.dma cc0_scratch5.sem) (none : HIx 1) 131072
    iprop((c.view.loc (thr d L) ↦[c.view.set]{fullShare} landed0 d L c fA fo)
      ∗ ((oq0M).view.loc (thr d L) ↦[(oq0M).view.set]{fullShare} fo))
abbrev fly1 (c : Memref sig .scVector .hbm S4096 .f32) (fA : Buf (Elt F) (c.view.loc (thr d L)))
    (fo : Buf (Elt F) ((thr d L).loc cc0_scratch3)) : sProp 𝕄 :=
  Transfers.Flight (countersEmb (U := UU)) (thr d L) (SemLoc.dma cc0_scratch6.sem) (none : HIx 1) 131072
    iprop((c.view.loc (thr d L) ↦[c.view.set]{fullShare} landed1 d L c fA fo)
      ∗ ((oq1M).view.loc (thr d L) ↦[(oq1M).view.set]{fullShare} fo))

/-- Trip number `n` as the loop's index, whatever `n` (the remainder makes it total; below 26 it is `n`). -/
def kM (n : ℕ) : Fin k0_t1_loop.trips := ⟨n % 26, by rw [trips1]; exact Nat.mod_lt _ (by decide)⟩
theorem kM_val (k : Fin k0_t1_loop.trips) : kM k.val = k := by
  apply Fin.ext; show k.val % 26 = k.val
  exact Nat.mod_eq_of_lt (Nat.lt_of_lt_of_eq k.isLt trips1)

/-- Before the first trip: both staging buffers and their semaphores at rest. -/
def tail0 : sProp 𝕄 :=
  iprop((∃ f, (oq0M).view.loc (thr d L) ↦{fullShare} f) ∗ (∃ f, (oq1M).view.loc (thr d L) ↦{fullShare} f)
    ∗ semVal (o0Cell d L) 0 ∗ semVal (o1Cell d L) 0)
/-- After trip `n`: its last two quarters in flight, each landing the final contents. -/
def tailS (n : ℕ) : sProp 𝕄 :=
  iprop(∃ fo0 fo1, ⌜(∀ fA, ∀ x ∈ chunkN (uOf L n) 2, landed0 d L (ch2M L (kM n)) fA fo0 x = OT m d x)
        ∧ (∀ fA, ∀ x ∈ chunkN (uOf L n) 3, landed1 d L (ch3M L (kM n)) fA fo1 x = OT m d x)⌝
      ∗ fly0 d L (ch2M L (kM n)) (m (otLoc d)) fo0
      ∗ ((oq0M).view.loc (thr d L) ↦[Finset.univ \ (oq0M).view.set]{fullShare} fo0)
      ∗ fly1 d L (ch3M L (kM n)) (m (otLoc d)) fo1
      ∗ ((oq1M).view.loc (thr d L) ↦[Finset.univ \ (oq1M).view.set]{fullShare} fo1))
def tailRes : ℕ → sProp 𝕄
  | 0 => tail0 d L
  | n + 1 => tailS m d L n

/-- What holds before trip `k`. -/
def oinv (O : CellTallies nD τ sig (HIx 1)) (W : Waits sig (HIx 1)) (k : ℕ) (_ : Unit) : sProp 𝕄 :=
  iprop(Transfers.MayWaits (thr d L) (none : HIx 1) O
    ∗ ((xtM).view.loc (thr d L) ↦{qT (cL L) (jL L)} XT m d)
    ∗ ((tbM).view.loc (thr d L) ↦{qT (cL L) (jL L)} TB m d)
    ∗ (∃ fv, (vecM).view.loc (thr d L) ↦{fullShare} fv)
    ∗ (∃ fx, ⌜0 < k → ∃ f : Fin 26, f.val = uOf L (k - 1) / 32 ∧ XrowOK m d L fx f⌝ ∗ (xrM).view.loc (thr d L) ↦{fullShare} fx)
    ∗ semVal (vCell d L) 0 ∗ semVal (xCell d L) 0
    ∗ (otLoc d ↦[freshSet L k]{fullShare} m (otLoc d))
    ∗ (otLoc d ↦[doneSet L k]{fullShare} OT m d)
    ∗ tailRes m d L k
    ∗ ∃ W', ⌜∀ p ∈ W', p ∈ W ∨ p.2 = none⌝ ∗ owes (thr d L) O W')

/-! ## The quarters of a row, as the program's windows and as element sets -/

theorem pts_ch0 (k : Fin k0_t1_loop.trips) (f : Buf (Elt F) (otLoc d)) :
    ((ch0M L k).view.loc (thr d L) ↦[(ch0M L k).view.set]{fullShare} f : sProp 𝕄) = otLoc d ↦[chunkN (uOf L k.val) 0]{fullShare} f := by
  rw [set_ch0M]
theorem pts_ch1 (k : Fin k0_t1_loop.trips) (f : Buf (Elt F) (otLoc d)) :
    ((ch1M L k).view.loc (thr d L) ↦[(ch1M L k).view.set]{fullShare} f : sProp 𝕄) = otLoc d ↦[chunkN (uOf L k.val) 1]{fullShare} f := by
  rw [set_ch1M]
theorem pts_ch2 (k : Fin k0_t1_loop.trips) (f : Buf (Elt F) (otLoc d)) :
    ((ch2M L k).view.loc (thr d L) ↦[(ch2M L k).view.set]{fullShare} f : sProp 𝕄) = otLoc d ↦[chunkN (uOf L k.val) 2]{fullShare} f := by
  rw [set_ch2M]
theorem pts_ch3 (k : Fin k0_t1_loop.trips) (f : Buf (Elt F) (otLoc d)) :
    ((ch3M L k).view.loc (thr d L) ↦[(ch3M L k).view.set]{fullShare} f : sProp 𝕄) = otLoc d ↦[chunkN (uOf L k.val) 3]{fullShare} f := by
  rw [set_ch3M]
theorem pts_oq0 (f : Buf (Elt F) ((thr d L).loc cc0_scratch2)) :
    ((oq0M).view.loc (thr d L) ↦[(oq0M).view.set]{fullShare} f : sProp 𝕄) = (oq0M).view.loc (thr d L) ↦{fullShare} f := by
  simp only [Memref.view_whole, View.set_whole]
theorem pts_oq1 (f : Buf (Elt F) ((thr d L).loc cc0_scratch3)) :
    ((oq1M).view.loc (thr d L) ↦[(oq1M).view.set]{fullShare} f : sProp 𝕄) = (oq1M).view.loc (thr d L) ↦{fullShare} f := by
  simp only [Memref.view_whole, View.set_whole]

/-- The rows not yet begun give up row `k`, as its four quarters. -/
theorem row_split (k : Fin k0_t1_loop.trips) (f : Buf (Elt F) (otLoc d)) :
    (otLoc d ↦[freshSet L k.val]{fullShare} f : sProp 𝕄)
      ⊢ iprop(((ch0M L k).view.loc (thr d L) ↦[(ch0M L k).view.set]{fullShare} f)
          ∗ ((ch1M L k).view.loc (thr d L) ↦[(ch1M L k).view.set]{fullShare} f)
          ∗ ((ch2M L k).view.loc (thr d L) ↦[(ch2M L k).view.set]{fullShare} f)
          ∗ ((ch3M L k).view.loc (thr d L) ↦[(ch3M L k).view.set]{fullShare} f)
          ∗ otLoc d ↦[freshSet L (k.val + 1)]{fullShare} f) := by
  have hk : k.val < 26 := Nat.lt_of_lt_of_eq k.isLt trips1
  rw [pts_ch0, pts_ch1, pts_ch2, pts_ch3, freshSet_succ L k.val hk]
  refine (pointsTo_union (freshSet_succ_disj L k.val)).1.trans ?_
  rw [rowN_eq]
  iintro ⟨Hrow, Hfr⟩
  ihave H := (pointsTo_union (chunk_disj0123 (uOf L k.val))).1 $$ Hrow
  icases H with ⟨H012, H3⟩
  ihave H := (pointsTo_union (chunk_disj012 (uOf L k.val))).1 $$ H012
  icases H with ⟨H01, H2⟩
  ihave H := (pointsTo_union (chunk_disj01 (uOf L k.val))).1 $$ H01
  icases H with ⟨H0, H1⟩
  isplitl [H0]; · iexact H0
  isplitl [H1]; · iexact H1
  isplitl [H2]; · iexact H2
  isplitl [H3]; · iexact H3
  iexact Hfr

/-- A landed quarter is that quarter of `ot` at its final contents. -/
theorem land_ch0 (k : Fin k0_t1_loop.trips) (fA : Buf (Elt F) (otLoc d)) (fo : Buf (Elt F) ((thr d L).loc cc0_scratch2))
    (h : ∀ x ∈ chunkN (uOf L k.val) 0, landed0 d L (ch0M L k) fA fo x = OT m d x) :
    ((ch0M L k).view.loc (thr d L) ↦[(ch0M L k).view.set]{fullShare} landed0 d L (ch0M L k) fA fo : sProp 𝕄)
      ⊢ otLoc d ↦[chunkN (uOf L k.val) 0]{fullShare} OT m d := by
  rw [pts_ch0]; exact Entails.of_eq (pointsTo_congr h)
theorem land_ch1 (k : Fin k0_t1_loop.trips) (fA : Buf (Elt F) (otLoc d)) (fo : Buf (Elt F) ((thr d L).loc cc0_scratch3))
    (h : ∀ x ∈ chunkN (uOf L k.val) 1, landed1 d L (ch1M L k) fA fo x = OT m d x) :
    ((ch1M L k).view.loc (thr d L) ↦[(ch1M L k).view.set]{fullShare} landed1 d L (ch1M L k) fA fo : sProp 𝕄)
      ⊢ otLoc d ↦[chunkN (uOf L k.val) 1]{fullShare} OT m d := by
  rw [pts_ch1]; exact Entails.of_eq (pointsTo_congr h)
theorem land_ch2 (k : Fin k0_t1_loop.trips) (fA : Buf (Elt F) (otLoc d)) (fo : Buf (Elt F) ((thr d L).loc cc0_scratch2))
    (h : ∀ x ∈ chunkN (uOf L k.val) 2, landed0 d L (ch2M L k) fA fo x = OT m d x) :
    ((ch2M L k).view.loc (thr d L) ↦[(ch2M L k).view.set]{fullShare} landed0 d L (ch2M L k) fA fo : sProp 𝕄)
      ⊢ otLoc d ↦[chunkN (uOf L k.val) 2]{fullShare} OT m d := by
  rw [pts_ch2]; exact Entails.of_eq (pointsTo_congr h)
theorem land_ch3 (k : Fin k0_t1_loop.trips) (fA : Buf (Elt F) (otLoc d)) (fo : Buf (Elt F) ((thr d L).loc cc0_scratch3))
    (h : ∀ x ∈ chunkN (uOf L k.val) 3, landed1 d L (ch3M L k) fA fo x = OT m d x) :
    ((ch3M L k).view.loc (thr d L) ↦[(ch3M L k).view.set]{fullShare} landed1 d L (ch3M L k) fA fo : sProp 𝕄)
      ⊢ otLoc d ↦[chunkN (uOf L k.val) 3]{fullShare} OT m d := by
  rw [pts_ch3]; exact Entails.of_eq (pointsTo_congr h)

/-- The finished part grows by the first trip's first two quarters; -/
theorem done_first (f : Buf (Elt F) (otLoc d)) :
    iprop((otLoc d ↦[chunkN (uOf L 0) 0]{fullShare} f) ∗ (otLoc d ↦[chunkN (uOf L 0) 1]{fullShare} f))
      ⊢ (otLoc d ↦[doneSet L 1]{fullShare} f : sProp 𝕄) := by
  rw [doneSet_one]; exact (pointsTo_union (chunk_disj01 _)).2
/-- later, by the previous trip's last two quarters and this trip's first two. -/
theorem done_next (n : ℕ) (f : Buf (Elt F) (otLoc d)) :
    iprop((otLoc d ↦[doneSet L (n + 1)]{fullShare} f) ∗ (otLoc d ↦[chunkN (uOf L n) 2]{fullShare} f) ∗ (otLoc d ↦[chunkN (uOf L n) 3]{fullShare} f)
        ∗ (otLoc d ↦[chunkN (uOf L (n + 1)) 0]{fullShare} f) ∗ (otLoc d ↦[chunkN (uOf L (n + 1)) 1]{fullShare} f))
      ⊢ (otLoc d ↦[doneSet L (n + 2)]{fullShare} f : sProp 𝕄) := by
  rw [doneSet_succ L (n + 1) (Nat.succ_pos n)]
  simp only [Nat.add_sub_cancel]
  iintro ⟨Hd, H2, H3, H0, H1⟩
  iapply (pointsTo_union (doneSet_succ_d4 L (n + 1) (Nat.succ_pos n))).2
  isplitr [H1]; rotate_left; · iexact H1
  iapply (pointsTo_union (doneSet_succ_d3 L (n + 1) (Nat.succ_pos n))).2
  isplitr [H0]; rotate_left; · iexact H0
  iapply (pointsTo_union (doneSet_succ_d2 L (n + 1) (Nat.succ_pos n))).2
  isplitr [H3]; rotate_left; · iexact H3
  iapply (pointsTo_union (doneSet_succ_d1 L (n + 1) (Nat.succ_pos n))).2
  isplitl [Hd]; · iexact Hd
  iexact H2

theorem tailRes_zero : tailRes m d L 0 = tail0 d L := rfl
theorem tailRes_succ (n : ℕ) : tailRes m d L (n + 1) = tailS m d L n := rfl

/-- The subcore's first output column as the kernel computes it: `(2 s + c) · 26`, a 32-bit word. -/
abbrev v2w : BitVec 32 := Scalar.muli (Scalar.addi (Scalar.muli (BitVec.ofNat 32 (L 1).val) 2#32) (BitVec.ofNat 32 (L 0).val)) 26#32

/-- The same two joins, stated at a trip's own index. -/
theorem done_first' (k : Fin k0_t1_loop.trips) (hk0 : k.val = 0) (f : Buf (Elt F) (otLoc d)) :
    iprop((otLoc d ↦[chunkN (uOf L k.val) 0]{fullShare} f) ∗ (otLoc d ↦[chunkN (uOf L k.val) 1]{fullShare} f))
      ⊢ (otLoc d ↦[doneSet L (k.val + 1)]{fullShare} f : sProp 𝕄) := by
  rw [hk0]; exact done_first d L f
theorem done_next' (k : Fin k0_t1_loop.trips) (n : ℕ) (hk : k.val = n + 1) (f : Buf (Elt F) (otLoc d)) :
    iprop((otLoc d ↦[doneSet L k.val]{fullShare} f) ∗ (otLoc d ↦[chunkN (uOf L n) 2]{fullShare} f) ∗ (otLoc d ↦[chunkN (uOf L n) 3]{fullShare} f)
        ∗ (otLoc d ↦[chunkN (uOf L k.val) 0]{fullShare} f) ∗ (otLoc d ↦[chunkN (uOf L k.val) 1]{fullShare} f))
      ⊢ (otLoc d ↦[doneSet L (k.val + 1)]{fullShare} f : sProp 𝕄) := by
  rw [hk]; exact done_next d L n f

end Tile

end Cert.Proof.KI

end
-- ==== Proof.KIValue.lean ====
/-
  What the subcore's four scratch buffers hold along a trip, and what its copies leave in `ot`.

  In trip `k` the subcore fills output column `u = uOf L k`. Its table scratch holds row `u` of the flattened tables
  (`VecOK`), its index scratch holds row `u / 32` of the transposed indices (`XrowOK`), and each of the two staging
  buffers is filled, sixteen lanes a step, with the table scratch gathered at a quarter of the index scratch
  (`GOK0`, `GOK1`: after `t` steps lanes `0 … 16 t - 1` are done). A full staging buffer copied to quarter `q` of
  row `u` of `ot` leaves there `ot[u, b] = tb[u, xt[u / 32, b]]`.
-/
import proofs.«204002_g15616501088794_cont_week2b_169_25_alg».proof.Proof.KISets
import proofs.«204002_g15616501088794_cont_week2b_169_25_alg».proof.Proof.KIOK

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "xtM" => (Memref.whole Cert.KernelIdeal.main_v0_scv : Memref Cert.KernelIdeal.sig Kind.scVector Space.hbm Cert.KernelIdeal.S26x16384 EltTy.i32)
local notation "tbM" => (Memref.whole Cert.KernelIdeal.main_v2_scv : Memref Cert.KernelIdeal.sig Kind.scVector Space.hbm Cert.KernelIdeal.S832x100000 EltTy.f32)
local notation "otM" => (Memref.whole Cert.KernelIdeal.main_v3_scv : Memref Cert.KernelIdeal.sig Kind.scVector Space.hbm Cert.KernelIdeal.S832x16384 EltTy.f32)
local notation "vecM" => (Memref.whole Cert.KernelIdeal.cc0_scratch0 : Memref Cert.KernelIdeal.sig Kind.scVector Space.vmem Cert.KernelIdeal.S100000 EltTy.f32)
local notation "xrM" => (Memref.whole Cert.KernelIdeal.cc0_scratch1 : Memref Cert.KernelIdeal.sig Kind.scVector Space.vmem Cert.KernelIdeal.S16384 EltTy.i32)
local notation "oq0M" => (Memref.whole Cert.KernelIdeal.cc0_scratch2 : Memref Cert.KernelIdeal.sig Kind.scVector Space.vmem Cert.KernelIdeal.S4096 EltTy.f32)
local notation "oq1M" => (Memref.whole Cert.KernelIdeal.cc0_scratch3 : Memref Cert.KernelIdeal.sig Kind.scVector Space.vmem Cert.KernelIdeal.S4096 EltTy.f32)

section Value
variable (m : (ℓ : Loc nD τ sig) → Buf (Elt F) ℓ) (d : Dev nD) (L : grid0.Coords)

/-- A trip number is below 26. -/
theorem k_lt (k : Fin k0_t1_loop.trips) : k.val < 26 := Nat.lt_of_lt_of_eq k.isLt trips1

/-! ## The copies into the table scratch and the index scratch -/

/-- Lane `v` of the table row window of trip `k` is `tb[u, v]`. -/
theorem rowM_emb (k : Fin k0_t1_loop.trips) (v : Fin 100000) :
    (rowM L k).view.emb (ix1 v) = ix2 (⟨uOf L k.val, uOf_lt L (k_lt k)⟩ : Fin 832) v := by
  have hc := Shape.reshapeEquiv_cons_one (n := 1) (d := ![100000]) squeezes_S1x100000_S100000.numel_eq (ix1 v)
  funext a
  apply Fin.ext
  show k0_off1 L k a + 1 * ((Shape.reshapeEquiv squeezes_S1x100000_S100000.numel_eq (ix1 v)) a).val = _
  rw [k0_off1_eq, hc]
  match a with
  | ⟨0, _⟩ => show (52 * (L 1).val + 26 * (L 0).val + k.val) + 1 * 0 = uOf L k.val; unfold uOf; omega
  | ⟨1, _⟩ => show 0 + 1 * v.val = v.val; omega

/-- The copy of the table row window into the table scratch leaves row `u` of the flattened tables there. -/
theorem vec_lands (k : Fin k0_t1_loop.trips) (fv : Buf (Elt F) ((thr d L).loc cc0_scratch0)) :
    VecOK m d L ((vecM).view.write (Elt F) fv (ReadAs.same.apply ((rowM L k).view.read (Elt F) (TB m d))) Finset.univ)
      ⟨uOf L k.val, uOf_lt L (k_lt k)⟩ := by
  intro v
  have e := View.write_whole_univ (Val := Elt F) cc0_scratch0 fv (ReadAs.same.apply ((rowM L k).view.read (Elt F) (TB m d)))
  refine (congrFun e (ix1 v)).trans ?_
  show (rowM L k).view.read (Elt F) (TB m d) (ix1 v) = _
  rw [View.read_apply, cast_eq, rowM_emb]

/-- The field of trip `k`'s column is below 26. -/
theorem field_lt (k : Fin k0_t1_loop.trips) : uOf L k.val / 32 < 26 := by
  have := uOf_lt L (k_lt k)
  omega

/-- Lane `b` of the index row window of trip `k` is `xt[u / 32, b]`. -/
theorem xsrcM_emb (k : Fin k0_t1_loop.trips) (h : k0_cond1 L k = 1#1) (b : Fin 16384) :
    (xsrcM L k h).view.emb (ix1 b) = ix2 (⟨uOf L k.val / 32, field_lt L k⟩ : Fin 26) b := by
  have hc := Shape.reshapeEquiv_cons_one (n := 1) (d := ![16384]) squeezes_S1x16384_S16384.numel_eq (ix1 b)
  funext a
  apply Fin.ext
  show k0_off2 L k a + 1 * ((Shape.reshapeEquiv squeezes_S1x16384_S16384.numel_eq (ix1 b)) a).val = _
  rw [hc]
  match a with
  | ⟨0, _⟩ => show k0_off2 L k 0 + 1 * 0 = uOf L k.val / 32; rw [off2_zero]; omega
  | ⟨1, _⟩ => show k0_off2 L k 1 + 1 * b.val = b.val; rw [off2_one]; omega

/-- The copy of the index row window into the index scratch leaves row `u / 32` of the transposed indices there. -/
theorem xrow_lands (k : Fin k0_t1_loop.trips) (h : k0_cond1 L k = 1#1) (fx : Buf (Elt F) ((thr d L).loc cc0_scratch1)) :
    XrowOK m d L ((xrM).view.write (Elt F) fx (ReadAs.same.apply ((xsrcM L k h).view.read (Elt F) (XT m d))) Finset.univ)
      ⟨uOf L k.val / 32, field_lt L k⟩ := by
  intro b
  have e := View.write_whole_univ (Val := Elt F) cc0_scratch1 fx (ReadAs.same.apply ((xsrcM L k h).view.read (Elt F) (XT m d)))
  refine (congrFun e (ix1 b)).trans ?_
  show (xsrcM L k h).view.read (Elt F) (XT m d) (ix1 b) = _
  rw [View.read_apply, cast_eq, xsrcM_emb]

/-- A trip that does not start a new field keeps the previous trip's field. -/
theorem xrow_keeps (k : ℕ) (hk : 0 < k) (hc : ¬ (uOf L k % 32 = 0)) : uOf L (k - 1) / 32 = uOf L k / 32 := by
  unfold uOf at hc ⊢
  omega

/-! ## The gather loop's side condition -/

/-- Sixteen entries of an index scratch that holds a row of the transposed indices are all rows of a table. -/
theorem chk_of_range (hpre : PreOK m) {fxr : Buf (Elt F) ((thr d L).loc cc0_scratch1)} {f : Fin 26} (hx : XrowOK m d L fxr f)
    (off : Fin 1 → ℕ) (inb : ∀ a, off a + S16.size a ≤ S16384.size a) :
    ∀ a x, ((![(xrM).view.readAt (Elt F) (Rect.unit (s := S16384) off S16.size inb).toLoadRect fxr] : Fin 1 → IVec S16 32) a x).toNat
      < S100000.size a := by
  intro a x
  have ha : a = 0 := Fin.eq_zero a
  subst ha
  obtain ⟨j, hj⟩ : ∃ j : Fin 16384, (Rect.unit (s := S16384) off S16.size inb).toLoadRect.idx x = ix1 j := ⟨_, eq_ix1 _⟩
  have e : (xrM).view.readAt (Elt F) (Rect.unit (s := S16384) off S16.size inb).toLoadRect fxr x = fxr (ix1 j) := by
    rw [← hj]; rfl
  show ((xrM).view.readAt (Elt F) (Rect.unit (s := S16384) off S16.size inb).toLoadRect fxr x).toNat < 100000
  rw [e, hx j]
  exact hpre d _

theorem chk1_of_range (hpre : PreOK m) {fxr : Buf (Elt F) ((thr d L).loc cc0_scratch1)} {f : Fin 26} (hx : XrowOK m d L fxr f)
    (off : Fin 1 → ℕ) (inb : ∀ a, off a + S16.size a ≤ S16384.size a) :
    k0_chk1 ((xrM).view.readAt (Elt F) (Rect.unit (s := S16384) off S16.size inb).toLoadRect fxr) :=
  chk_of_range m d L hpre hx off inb
theorem chk2_of_range (hpre : PreOK m) {fxr : Buf (Elt F) ((thr d L).loc cc0_scratch1)} {f : Fin 26} (hx : XrowOK m d L fxr f)
    (off : Fin 1 → ℕ) (inb : ∀ a, off a + S16.size a ≤ S16384.size a) :
    k0_chk2 ((xrM).view.readAt (Elt F) (Rect.unit (s := S16384) off S16.size inb).toLoadRect fxr) :=
  chk_of_range m d L hpre hx off inb
theorem chk3_of_range (hpre : PreOK m) {fxr : Buf (Elt F) ((thr d L).loc cc0_scratch1)} {f : Fin 26} (hx : XrowOK m d L fxr f)
    (off : Fin 1 → ℕ) (inb : ∀ a, off a + S16.size a ≤ S16384.size a) :
    k0_chk3 ((xrM).view.readAt (Elt F) (Rect.unit (s := S16384) off S16.size inb).toLoadRect fxr) :=
  chk_of_range m d L hpre hx off inb
theorem chk4_of_range (hpre : PreOK m) {fxr : Buf (Elt F) ((thr d L).loc cc0_scratch1)} {f : Fin 26} (hx : XrowOK m d L fxr f)
    (off : Fin 1 → ℕ) (inb : ∀ a, off a + S16.size a ≤ S16384.size a) :
    k0_chk4 ((xrM).view.readAt (Elt F) (Rect.unit (s := S16384) off S16.size inb).toLoadRect fxr) :=
  chk_of_range m d L hpre hx off inb

/-! ## One step of the gather loop -/

/-- One step of the gather loop into the first staging buffer: sixteen more lanes done. -/
theorem gstep0 (q t : ℕ) (fxr : Buf (Elt F) ((thr d L).loc cc0_scratch1)) (fvc : Buf (Elt F) ((thr d L).loc cc0_scratch0))
    (fo : Buf (Elt F) ((thr d L).loc cc0_scratch2))
    (off4 : Fin 1 → ℕ) (inb4 : ∀ a, off4 a + S16.size a ≤ S4096.size a) (h4 : off4 = ![16 * t])
    (off3 : Fin 1 → ℕ) (inb3 : ∀ a, off3 a + S16.size a ≤ S16384.size a) (h3 : off3 = ![16 * t + 4096 * q])
    (ht : t < 256) (hq : q < 4)
    (hh : ∀ a x, ((![(xrM).view.readAt (Elt F) (Rect.unit (s := S16384) off3 S16.size inb3).toLoadRect fxr] : Fin 1 → IVec S16 32) a x).toNat
      < S100000.size a)
    (hG : GOK0 d L q t fxr fvc fo) :
    GOK0 d L q (t + 1) fxr fvc ((oq0M).view.writes (Elt F) fo
      [⟨Rect.unit (s := S4096) off4 S16.size inb4,
        loadIdx ((vecM).view.readAt (Elt F) (LoadRect.whole S100000) fvc)
          ![(xrM).view.readAt (Elt F) (Rect.unit (s := S16384) off3 S16.size inb3).toLoadRect fxr] hh⟩]) := by
  subst h4 h3
  intro p hp
  have hp4 := p.isLt
  by_cases hlt : p.val < 16 * t
  · -- a lane of an earlier step: this step's store does not reach it
    show (oq0M).view.read (Elt F) ((oq0M).view.writes (Elt F) fo [⟨_, _⟩]) (ix1 p) = _
    refine (View.read_writes_apply_of_forall_not_mem _ _ _ _ ?_).trans (hG p hlt)
    intro pc hpc
    rw [List.mem_singleton] at hpc
    subst hpc
    rw [Rect.mem_set_unit]
    intro hm
    have h0 : 16 * t ≤ p.val ∧ p.val < 16 * t + 16 := hm 0
    omega
  · -- a lane of this step
    have hx0 : p.val - 16 * t < 16 := by omega
    have hemb : (Rect.unit (s := S4096) ![16 * t] S16.size inb4).emb (ix1 ⟨p.val - 16 * t, hx0⟩) = ix1 p := by
      funext a; apply Fin.ext
      match a with
      | ⟨0, _⟩ => show 16 * t + 1 * (p.val - 16 * t) = p.val; omega
    have hidx : (Rect.unit (s := S16384) ![16 * t + 4096 * q] S16.size inb3).toLoadRect.idx (ix1 ⟨p.val - 16 * t, hx0⟩)
        = ix1 ⟨(4096 * q + p.val) % 16384, Nat.mod_lt _ (by decide)⟩ := by
      funext a; apply Fin.ext
      match a with
      | ⟨0, _⟩ => show 16 * t + 4096 * q + 1 * (p.val - 16 * t) = (4096 * q + p.val) % 16384; omega
    have hw : (xrM).view.readAt (Elt F) (Rect.unit (s := S16384) ![16 * t + 4096 * q] S16.size inb3).toLoadRect fxr
        (ix1 ⟨p.val - 16 * t, hx0⟩) = fxr (ix1 ⟨(4096 * q + p.val) % 16384, Nat.mod_lt _ (by decide)⟩) := by
      rw [← hidx]; rfl
    have hlt' : ((xrM).view.readAt (Elt F) (Rect.unit (s := S16384) ![16 * t + 4096 * q] S16.size inb3).toLoadRect fxr
        (ix1 ⟨p.val - 16 * t, hx0⟩)).toNat < 100000 := hh 0 (ix1 ⟨p.val - 16 * t, hx0⟩)
    show (oq0M).view.read (Elt F) ((oq0M).view.writes (Elt F) fo [⟨_, _⟩]) (ix1 p) = _
    rw [← hemb, View.read_writes_cons_emb]
    show (vecM).view.readAt (Elt F) (LoadRect.whole S100000) fvc (idxAt _ hh (ix1 ⟨p.val - 16 * t, hx0⟩)) = _
    refine (congrFun (Memref.readAt_whole (Elt F) cc0_scratch0 fvc) _).trans ?_
    congr 1
    funext a; apply Fin.ext
    match a with
    | ⟨0, _⟩ =>
      show ((xrM).view.readAt (Elt F) (Rect.unit (s := S16384) ![16 * t + 4096 * q] S16.size inb3).toLoadRect fxr
        (ix1 ⟨p.val - 16 * t, hx0⟩)).toNat = (fxr (ix1 ⟨(4096 * q + p.val) % 16384, Nat.mod_lt _ (by decide)⟩)).toNat % 100000
      rw [hw] at hlt' ⊢
      exact (Nat.mod_eq_of_lt hlt').symm

/-- One step of the gather loop into the second staging buffer: sixteen more lanes done. -/
theorem gstep1 (q t : ℕ) (fxr : Buf (Elt F) ((thr d L).loc cc0_scratch1)) (fvc : Buf (Elt F) ((thr d L).loc cc0_scratch0))
    (fo : Buf (Elt F) ((thr d L).loc cc0_scratch3))
    (off4 : Fin 1 → ℕ) (inb4 : ∀ a, off4 a + S16.size a ≤ S4096.size a) (h4 : off4 = ![16 * t])
    (off3 : Fin 1 → ℕ) (inb3 : ∀ a, off3 a + S16.size a ≤ S16384.size a) (h3 : off3 = ![16 * t + 4096 * q])
    (ht : t < 256) (hq : q < 4)
    (hh : ∀ a x, ((![(xrM).view.readAt (Elt F) (Rect.unit (s := S16384) off3 S16.size inb3).toLoadRect fxr] : Fin 1 → IVec S16 32) a x).toNat
      < S100000.size a)
    (hG : GOK1 d L q t fxr fvc fo) :
    GOK1 d L q (t + 1) fxr fvc ((oq1M).view.writes (Elt F) fo
      [⟨Rect.unit (s := S4096) off4 S16.size inb4,
        loadIdx ((vecM).view.readAt (Elt F) (LoadRect.whole S100000) fvc)
          ![(xrM).view.readAt (Elt F) (Rect.unit (s := S16384) off3 S16.size inb3).toLoadRect fxr] hh⟩]) := by
  subst h4 h3
  intro p hp
  have hp4 := p.isLt
  by_cases hlt : p.val < 16 * t
  · -- a lane of an earlier step: this step's store does not reach it
    show (oq1M).view.read (Elt F) ((oq1M).view.writes (Elt F) fo [⟨_, _⟩]) (ix1 p) = _
    refine (View.read_writes_apply_of_forall_not_mem _ _ _ _ ?_).trans (hG p hlt)
    intro pc hpc
    rw [List.mem_singleton] at hpc
    subst hpc
    rw [Rect.mem_set_unit]
    intro hm
    have h0 : 16 * t ≤ p.val ∧ p.val < 16 * t + 16 := hm 0
    omega
  · -- a lane of this step
    have hx0 : p.val - 16 * t < 16 := by omega
    have hemb : (Rect.unit (s := S4096) ![16 * t] S16.size inb4).emb (ix1 ⟨p.val - 16 * t, hx0⟩) = ix1 p := by
      funext a; apply Fin.ext
      match a with
      | ⟨0, _⟩ => show 16 * t + 1 * (p.val - 16 * t) = p.val; omega
    have hidx : (Rect.unit (s := S16384) ![16 * t + 4096 * q] S16.size inb3).toLoadRect.idx (ix1 ⟨p.val - 16 * t, hx0⟩)
        = ix1 ⟨(4096 * q + p.val) % 16384, Nat.mod_lt _ (by decide)⟩ := by
      funext a; apply Fin.ext
      match a with
      | ⟨0, _⟩ => show 16 * t + 4096 * q + 1 * (p.val - 16 * t) = (4096 * q + p.val) % 16384; omega
    have hw : (xrM).view.readAt (Elt F) (Rect.unit (s := S16384) ![16 * t + 4096 * q] S16.size inb3).toLoadRect fxr
        (ix1 ⟨p.val - 16 * t, hx0⟩) = fxr (ix1 ⟨(4096 * q + p.val) % 16384, Nat.mod_lt _ (by decide)⟩) := by
      rw [← hidx]; rfl
    have hlt' : ((xrM).view.readAt (Elt F) (Rect.unit (s := S16384) ![16 * t + 4096 * q] S16.size inb3).toLoadRect fxr
        (ix1 ⟨p.val - 16 * t, hx0⟩)).toNat < 100000 := hh 0 (ix1 ⟨p.val - 16 * t, hx0⟩)
    show (oq1M).view.read (Elt F) ((oq1M).view.writes (Elt F) fo [⟨_, _⟩]) (ix1 p) = _
    rw [← hemb, View.read_writes_cons_emb]
    show (vecM).view.readAt (Elt F) (LoadRect.whole S100000) fvc (idxAt _ hh (ix1 ⟨p.val - 16 * t, hx0⟩)) = _
    refine (congrFun (Memref.readAt_whole (Elt F) cc0_scratch0 fvc) _).trans ?_
    congr 1
    funext a; apply Fin.ext
    match a with
    | ⟨0, _⟩ =>
      show ((xrM).view.readAt (Elt F) (Rect.unit (s := S16384) ![16 * t + 4096 * q] S16.size inb3).toLoadRect fxr
        (ix1 ⟨p.val - 16 * t, hx0⟩)).toNat = (fxr (ix1 ⟨(4096 * q + p.val) % 16384, Nat.mod_lt _ (by decide)⟩)).toNat % 100000
      rw [hw] at hlt' ⊢
      exact (Nat.mod_eq_of_lt hlt').symm

/-! ## The copies out of the staging buffers -/

/-- Lane `p` of quarter 0's window of trip `k` is `ot[u, p]`. -/
theorem ch0M_emb (k : Fin k0_t1_loop.trips) (p : Fin 4096) (b : Fin 16384) (hb : b.val = 4096 * 0 + p.val) :
    (ch0M L k).view.emb (ix1 p) = ix2 (⟨uOf L k.val, uOf_lt L (k_lt k)⟩ : Fin 832) b := by
  have hc := Shape.reshapeEquiv_cons_one (n := 1) (d := ![4096]) squeezes_S1x4096_S4096.numel_eq (ix1 p)
  funext a
  apply Fin.ext
  show k0_off5 L k a + 1 * ((Shape.reshapeEquiv squeezes_S1x4096_S4096.numel_eq (ix1 p)) a).val = _
  rw [k0_off5_eq, hc]
  match a with
  | ⟨0, _⟩ => show (52 * (L 1).val + 26 * (L 0).val + k.val) + 1 * 0 = uOf L k.val; unfold uOf; omega
  | ⟨1, _⟩ => show 0 + 1 * p.val = b.val; omega

/-- Lane `p` of quarter 1's window of trip `k` is `ot[u, 4096 + p]`. -/
theorem ch1M_emb (k : Fin k0_t1_loop.trips) (p : Fin 4096) (b : Fin 16384) (hb : b.val = 4096 * 1 + p.val) :
    (ch1M L k).view.emb (ix1 p) = ix2 (⟨uOf L k.val, uOf_lt L (k_lt k)⟩ : Fin 832) b := by
  have hc := Shape.reshapeEquiv_cons_one (n := 1) (d := ![4096]) squeezes_S1x4096_S4096.numel_eq (ix1 p)
  funext a
  apply Fin.ext
  show k0_off8 L k a + 1 * ((Shape.reshapeEquiv squeezes_S1x4096_S4096.numel_eq (ix1 p)) a).val = _
  rw [k0_off8_eq, hc]
  match a with
  | ⟨0, _⟩ => show (52 * (L 1).val + 26 * (L 0).val + k.val) + 1 * 0 = uOf L k.val; unfold uOf; omega
  | ⟨1, _⟩ => show 4096 + 1 * p.val = b.val; omega

/-- Lane `p` of quarter 2's window of trip `k` is `ot[u, 8192 + p]`. -/
theorem ch2M_emb (k : Fin k0_t1_loop.trips) (p : Fin 4096) (b : Fin 16384) (hb : b.val = 4096 * 2 + p.val) :
    (ch2M L k).view.emb (ix1 p) = ix2 (⟨uOf L k.val, uOf_lt L (k_lt k)⟩ : Fin 832) b := by
  have hc := Shape.reshapeEquiv_cons_one (n := 1) (d := ![4096]) squeezes_S1x4096_S4096.numel_eq (ix1 p)
  funext a
  apply Fin.ext
  show k0_off11 L k a + 1 * ((Shape.reshapeEquiv squeezes_S1x4096_S4096.numel_eq (ix1 p)) a).val = _
  rw [k0_off11_eq, hc]
  match a with
  | ⟨0, _⟩ => show (52 * (L 1).val + 26 * (L 0).val + k.val) + 1 * 0 = uOf L k.val; unfold uOf; omega
  | ⟨1, _⟩ => show 8192 + 1 * p.val = b.val; omega

/-- Lane `p` of quarter 3's window of trip `k` is `ot[u, 12288 + p]`. -/
theorem ch3M_emb (k : Fin k0_t1_loop.trips) (p : Fin 4096) (b : Fin 16384) (hb : b.val = 4096 * 3 + p.val) :
    (ch3M L k).view.emb (ix1 p) = ix2 (⟨uOf L k.val, uOf_lt L (k_lt k)⟩ : Fin 832) b := by
  have hc := Shape.reshapeEquiv_cons_one (n := 1) (d := ![4096]) squeezes_S1x4096_S4096.numel_eq (ix1 p)
  funext a
  apply Fin.ext
  show k0_off14 L k a + 1 * ((Shape.reshapeEquiv squeezes_S1x4096_S4096.numel_eq (ix1 p)) a).val = _
  rw [k0_off14_eq, hc]
  match a with
  | ⟨0, _⟩ => show (52 * (L 1).val + 26 * (L 0).val + k.val) + 1 * 0 = uOf L k.val; unfold uOf; omega
  | ⟨1, _⟩ => show 12288 + 1 * p.val = b.val; omega

/-- The first staging buffer, full for quarter 0, copied to quarter 0 of row `u` of `ot`, leaves the gathered values there. -/
theorem chunk_lands0 (k : Fin k0_t1_loop.trips) (fo : Buf (Elt F) (otLoc d))
    (fxr : Buf (Elt F) ((thr d L).loc cc0_scratch1)) (fvc : Buf (Elt F) ((thr d L).loc cc0_scratch0))
    (fo0 : Buf (Elt F) ((thr d L).loc cc0_scratch2))
    (hx : XrowOK m d L fxr (Cert.Spec.fieldOf ⟨uOf L k.val, uOf_lt L (k_lt k)⟩)) (hv : VecOK m d L fvc ⟨uOf L k.val, uOf_lt L (k_lt k)⟩)
    (hG : GOK0 d L 0 256 fxr fvc fo0) :
    ∀ x ∈ chunkN (uOf L k.val) 0,
      ((ch0M L k).view.writes (Elt F) fo [⟨Rect.whole S4096, ReadAs.same.apply ((oq0M).view.read (Elt F) fo0)⟩]) x = OT m d x := by
  intro x hxm
  obtain ⟨a, b, rfl⟩ : ∃ (a : Fin 832) (b : Fin 16384), x = ix2 a b := ⟨x 0, x 1, eq_ix2 x⟩
  rw [mem_chunkN] at hxm
  obtain ⟨hx0, hx1, hx2⟩ := hxm
  have hx0' : a.val = uOf L k.val := hx0
  have hx1' : 4096 * 0 ≤ b.val := hx1
  have hx2' : b.val < 4096 * (0 + 1) := hx2
  have ha : a = ⟨uOf L k.val, uOf_lt L (k_lt k)⟩ := Fin.ext hx0'
  subst ha
  have hp : b.val - 4096 * 0 < 4096 := by omega
  have hxe : ((ch0M L k).view.slice (Rect.whole S4096)).emb (ix1 ⟨b.val - 4096 * 0, hp⟩)
      = ix2 (⟨uOf L k.val, uOf_lt L (k_lt k)⟩ : Fin 832) b := by
    show (ch0M L k).view.emb ((Rect.whole S4096).emb (ix1 ⟨b.val - 4096 * 0, hp⟩)) = _
    rw [Rect.emb_whole_apply]
    exact ch0M_emb L k _ b (by show b.val = 4096 * 0 + (b.val - 4096 * 0); omega)
  have key := View.write_emb_of_mem (v := (ch0M L k).view.slice (Rect.whole S4096)) (Val := Elt F) fo
    (ReadAs.same.apply ((oq0M).view.read (Elt F) fo0)) (Finset.mem_univ (ix1 ⟨b.val - 4096 * 0, hp⟩))
  rw [hxe] at key
  refine key.trans ?_
  rw [cast_eq]
  show fo0 (ix1 ⟨b.val - 4096 * 0, hp⟩) = _
  rw [hG ⟨b.val - 4096 * 0, hp⟩ (by show b.val - 4096 * 0 < 16 * 256; omega), hv, hx]
  have eb : (⟨(4096 * 0 + (b.val - 4096 * 0)) % 16384, Nat.mod_lt _ (by decide)⟩ : Fin 16384) = b :=
    Fin.ext (by show (4096 * 0 + (b.val - 4096 * 0)) % 16384 = b.val; have := b.isLt; omega)
  rw [eb]
  rfl

/-- The second staging buffer, full for quarter 1, copied to quarter 1 of row `u` of `ot`, leaves the gathered values there. -/
theorem chunk_lands1 (k : Fin k0_t1_loop.trips) (fo : Buf (Elt F) (otLoc d))
    (fxr : Buf (Elt F) ((thr d L).loc cc0_scratch1)) (fvc : Buf (Elt F) ((thr d L).loc cc0_scratch0))
    (fo0 : Buf (Elt F) ((thr d L).loc cc0_scratch3))
    (hx : XrowOK m d L fxr (Cert.Spec.fieldOf ⟨uOf L k.val, uOf_lt L (k_lt k)⟩)) (hv : VecOK m d L fvc ⟨uOf L k.val, uOf_lt L (k_lt k)⟩)
    (hG : GOK1 d L 1 256 fxr fvc fo0) :
    ∀ x ∈ chunkN (uOf L k.val) 1,
      ((ch1M L k).view.writes (Elt F) fo [⟨Rect.whole S4096, ReadAs.same.apply ((oq1M).view.read (Elt F) fo0)⟩]) x = OT m d x := by
  intro x hxm
  obtain ⟨a, b, rfl⟩ : ∃ (a : Fin 832) (b : Fin 16384), x = ix2 a b := ⟨x 0, x 1, eq_ix2 x⟩
  rw [mem_chunkN] at hxm
  obtain ⟨hx0, hx1, hx2⟩ := hxm
  have hx0' : a.val = uOf L k.val := hx0
  have hx1' : 4096 * 1 ≤ b.val := hx1
  have hx2' : b.val < 4096 * (1 + 1) := hx2
  have ha : a = ⟨uOf L k.val, uOf_lt L (k_lt k)⟩ := Fin.ext hx0'
  subst ha
  have hp : b.val - 4096 * 1 < 4096 := by omega
  have hxe : ((ch1M L k).view.slice (Rect.whole S4096)).emb (ix1 ⟨b.val - 4096 * 1, hp⟩)
      = ix2 (⟨uOf L k.val, uOf_lt L (k_lt k)⟩ : Fin 832) b := by
    show (ch1M L k).view.emb ((Rect.whole S4096).emb (ix1 ⟨b.val - 4096 * 1, hp⟩)) = _
    rw [Rect.emb_whole_apply]
    exact ch1M_emb L k _ b (by show b.val = 4096 * 1 + (b.val - 4096 * 1); omega)
  have key := View.write_emb_of_mem (v := (ch1M L k).view.slice (Rect.whole S4096)) (Val := Elt F) fo
    (ReadAs.same.apply ((oq1M).view.read (Elt F) fo0)) (Finset.mem_univ (ix1 ⟨b.val - 4096 * 1, hp⟩))
  rw [hxe] at key
  refine key.trans ?_
  rw [cast_eq]
  show fo0 (ix1 ⟨b.val - 4096 * 1, hp⟩) = _
  rw [hG ⟨b.val - 4096 * 1, hp⟩ (by show b.val - 4096 * 1 < 16 * 256; omega), hv, hx]
  have eb : (⟨(4096 * 1 + (b.val - 4096 * 1)) % 16384, Nat.mod_lt _ (by decide)⟩ : Fin 16384) = b :=
    Fin.ext (by show (4096 * 1 + (b.val - 4096 * 1)) % 16384 = b.val; have := b.isLt; omega)
  rw [eb]
  rfl

/-- The first staging buffer, full for quarter 2, copied to quarter 2 of row `u` of `ot`, leaves the gathered values there. -/
theorem chunk_lands2 (k : Fin k0_t1_loop.trips) (fo : Buf (Elt F) (otLoc d))
    (fxr : Buf (Elt F) ((thr d L).loc cc0_scratch1)) (fvc : Buf (Elt F) ((thr d L).loc cc0_scratch0))
    (fo0 : Buf (Elt F) ((thr d L).loc cc0_scratch2))
    (hx : XrowOK m d L fxr (Cert.Spec.fieldOf ⟨uOf L k.val, uOf_lt L (k_lt k)⟩)) (hv : VecOK m d L fvc ⟨uOf L k.val, uOf_lt L (k_lt k)⟩)
    (hG : GOK0 d L 2 256 fxr fvc fo0) :
    ∀ x ∈ chunkN (uOf L k.val) 2,
      ((ch2M L k).view.writes (Elt F) fo [⟨Rect.whole S4096, ReadAs.same.apply ((oq0M).view.read (Elt F) fo0)⟩]) x = OT m d x := by
  intro x hxm
  obtain ⟨a, b, rfl⟩ : ∃ (a : Fin 832) (b : Fin 16384), x = ix2 a b := ⟨x 0, x 1, eq_ix2 x⟩
  rw [mem_chunkN] at hxm
  obtain ⟨hx0, hx1, hx2⟩ := hxm
  have hx0' : a.val = uOf L k.val := hx0
  have hx1' : 4096 * 2 ≤ b.val := hx1
  have hx2' : b.val < 4096 * (2 + 1) := hx2
  have ha : a = ⟨uOf L k.val, uOf_lt L (k_lt k)⟩ := Fin.ext hx0'
  subst ha
  have hp : b.val - 4096 * 2 < 4096 := by omega
  have hxe : ((ch2M L k).view.slice (Rect.whole S4096)).emb (ix1 ⟨b.val - 4096 * 2, hp⟩)
      = ix2 (⟨uOf L k.val, uOf_lt L (k_lt k)⟩ : Fin 832) b := by
    show (ch2M L k).view.emb ((Rect.whole S4096).emb (ix1 ⟨b.val - 4096 * 2, hp⟩)) = _
    rw [Rect.emb_whole_apply]
    exact ch2M_emb L k _ b (by show b.val = 4096 * 2 + (b.val - 4096 * 2); omega)
  have key := View.write_emb_of_mem (v := (ch2M L k).view.slice (Rect.whole S4096)) (Val := Elt F) fo
    (ReadAs.same.apply ((oq0M).view.read (Elt F) fo0)) (Finset.mem_univ (ix1 ⟨b.val - 4096 * 2, hp⟩))
  rw [hxe] at key
  refine key.trans ?_
  rw [cast_eq]
  show fo0 (ix1 ⟨b.val - 4096 * 2, hp⟩) = _
  rw [hG ⟨b.val - 4096 * 2, hp⟩ (by show b.val - 4096 * 2 < 16 * 256; omega), hv, hx]
  have eb : (⟨(4096 * 2 + (b.val - 4096 * 2)) % 16384, Nat.mod_lt _ (by decide)⟩ : Fin 16384) = b :=
    Fin.ext (by show (4096 * 2 + (b.val - 4096 * 2)) % 16384 = b.val; have := b.isLt; omega)
  rw [eb]
  rfl

/-- The second staging buffer, full for quarter 3, copied to quarter 3 of row `u` of `ot`, leaves the gathered values there. -/
theorem chunk_lands3 (k : Fin k0_t1_loop.trips) (fo : Buf (Elt F) (otLoc d))
    (fxr : Buf (Elt F) ((thr d L).loc cc0_scratch1)) (fvc : Buf (Elt F) ((thr d L).loc cc0_scratch0))
    (fo0 : Buf (Elt F) ((thr d L).loc cc0_scratch3))
    (hx : XrowOK m d L fxr (Cert.Spec.fieldOf ⟨uOf L k.val, uOf_lt L (k_lt k)⟩)) (hv : VecOK m d L fvc ⟨uOf L k.val, uOf_lt L (k_lt k)⟩)
    (hG : GOK1 d L 3 256 fxr fvc fo0) :
    ∀ x ∈ chunkN (uOf L k.val) 3,
      ((ch3M L k).view.writes (Elt F) fo [⟨Rect.whole S4096, ReadAs.same.apply ((oq1M).view.read (Elt F) fo0)⟩]) x = OT m d x := by
  intro x hxm
  obtain ⟨a, b, rfl⟩ : ∃ (a : Fin 832) (b : Fin 16384), x = ix2 a b := ⟨x 0, x 1, eq_ix2 x⟩
  rw [mem_chunkN] at hxm
  obtain ⟨hx0, hx1, hx2⟩ := hxm
  have hx0' : a.val = uOf L k.val := hx0
  have hx1' : 4096 * 3 ≤ b.val := hx1
  have hx2' : b.val < 4096 * (3 + 1) := hx2
  have ha : a = ⟨uOf L k.val, uOf_lt L (k_lt k)⟩ := Fin.ext hx0'
  subst ha
  have hp : b.val - 4096 * 3 < 4096 := by omega
  have hxe : ((ch3M L k).view.slice (Rect.whole S4096)).emb (ix1 ⟨b.val - 4096 * 3, hp⟩)
      = ix2 (⟨uOf L k.val, uOf_lt L (k_lt k)⟩ : Fin 832) b := by
    show (ch3M L k).view.emb ((Rect.whole S4096).emb (ix1 ⟨b.val - 4096 * 3, hp⟩)) = _
    rw [Rect.emb_whole_apply]
    exact ch3M_emb L k _ b (by show b.val = 4096 * 3 + (b.val - 4096 * 3); omega)
  have key := View.write_emb_of_mem (v := (ch3M L k).view.slice (Rect.whole S4096)) (Val := Elt F) fo
    (ReadAs.same.apply ((oq1M).view.read (Elt F) fo0)) (Finset.mem_univ (ix1 ⟨b.val - 4096 * 3, hp⟩))
  rw [hxe] at key
  refine key.trans ?_
  rw [cast_eq]
  show fo0 (ix1 ⟨b.val - 4096 * 3, hp⟩) = _
  rw [hG ⟨b.val - 4096 * 3, hp⟩ (by show b.val - 4096 * 3 < 16 * 256; omega), hv, hx]
  have eb : (⟨(4096 * 3 + (b.val - 4096 * 3)) % 16384, Nat.mod_lt _ (by decide)⟩ : Fin 16384) = b :=
    Fin.ext (by show (4096 * 3 + (b.val - 4096 * 3)) % 16384 = b.val; have := b.isLt; omega)
  rw [eb]
  rfl

end Value

end Cert.Proof.KI

end
-- ==== Proof.KIGather.lean ====
/-
  The four gather loops of one trip. Each fills a 4096-entry staging buffer, sixteen entries at a time, with the
  entries of the table row (held in the subcore's table scratch) at the positions the index row names: entry `p` of
  quarter `q` becomes `vec[xrow[4096 q + p]]`. The loop never touches the two rows, and what the staging buffer held
  before is overwritten entry by entry.
-/
import proofs.«204002_g15616501088794_cont_week2b_169_25_alg».proof.Proof.KIValue

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "xtM" => (Memref.whole Cert.KernelIdeal.main_v0_scv : Memref Cert.KernelIdeal.sig Kind.scVector Space.hbm Cert.KernelIdeal.S26x16384 EltTy.i32)
local notation "tbM" => (Memref.whole Cert.KernelIdeal.main_v2_scv : Memref Cert.KernelIdeal.sig Kind.scVector Space.hbm Cert.KernelIdeal.S832x100000 EltTy.f32)
local notation "otM" => (Memref.whole Cert.KernelIdeal.main_v3_scv : Memref Cert.KernelIdeal.sig Kind.scVector Space.hbm Cert.KernelIdeal.S832x16384 EltTy.f32)
local notation "vecM" => (Memref.whole Cert.KernelIdeal.cc0_scratch0 : Memref Cert.KernelIdeal.sig Kind.scVector Space.vmem Cert.KernelIdeal.S100000 EltTy.f32)
local notation "xrM" => (Memref.whole Cert.KernelIdeal.cc0_scratch1 : Memref Cert.KernelIdeal.sig Kind.scVector Space.vmem Cert.KernelIdeal.S16384 EltTy.i32)
local notation "oq0M" => (Memref.whole Cert.KernelIdeal.cc0_scratch2 : Memref Cert.KernelIdeal.sig Kind.scVector Space.vmem Cert.KernelIdeal.S4096 EltTy.f32)
local notation "oq1M" => (Memref.whole Cert.KernelIdeal.cc0_scratch3 : Memref Cert.KernelIdeal.sig Kind.scVector Space.vmem Cert.KernelIdeal.S4096 EltTy.f32)

variable (m : (ℓ : Loc nD τ sig) → Buf (Elt F) ℓ) [FloatOps F]

section Tile
variable (d : Dev nD) (L : grid0.Coords)

/-- What gather loop 1 keeps: the index row and the table row untouched, and the staging buffer filled, sixteen
    entries a trip, with the table row's entries at the index row's quarter 0. -/
def ginv2 (fxr : Buf (Elt F) ((thr d L).loc cc0_scratch1)) (fvc : Buf (Elt F) ((thr d L).loc cc0_scratch0)) (t : ℕ) (_ : PUnit) : sProp 𝕄 :=
  iprop(((xrM).view.loc (thr d L) ↦{fullShare} fxr)
    ∗ ((vecM).view.loc (thr d L) ↦{fullShare} fvc)
    ∗ ∃ fo, ⌜GOK0 d L 0 t fxr fvc fo⌝ ∗ (oq0M).view.loc (thr d L) ↦{fullShare} fo)

/-- Gather loop 1, whole: 256 trips of sixteen entries. -/
theorem gather2 (hpre : PreOK m) (k : Fin k0_t1_loop.trips) (v2 c0 c1 : BitVec 32) (fxr : Buf (Elt F) ((thr d L).loc cc0_scratch1)) (fvc : Buf (Elt F) ((thr d L).loc cc0_scratch0))
    (f : Fin 26) (hx : XrowOK m d L fxr f) (fo : Buf (Elt F) ((thr d L).loc cc0_scratch2)) :
    iprop(((xrM).view.loc (thr d L) ↦{fullShare} fxr) ∗ ((vecM).view.loc (thr d L) ↦{fullShare} fvc)
        ∗ ((oq0M).view.loc (thr d L) ↦{fullShare} fo))
      ⊢ wp frame (wpE (defs₀ (F := F)) 𝒱₀ (thr d L) none) Set.univ
          (Scf.Loop.for k0_t2_loop k0_t2_ok ⟨⟩
            (k0_t2_body L xtM (Memref.isWhole_whole _) tbM (Memref.isWhole_whole _) otM (Memref.isWhole_whole _)
              vecM (Memref.isWhole_whole _) xrM (Memref.isWhole_whole _) oq0M (Memref.isWhole_whole _) oq1M (Memref.isWhole_whole _)
              cc0_scratch4 cc0_scratch5 cc0_scratch6 cc0_scoped0 v2 c0 c1 k))
          (fun _ => (iprop(((xrM).view.loc (thr d L) ↦{fullShare} fxr) ∗ ((vecM).view.loc (thr d L) ↦{fullShare} fvc)
            ∗ ∃ fo', ⌜GOK0 d L 0 256 fxr fvc fo'⌝ ∗ (oq0M).view.loc (thr d L) ↦{fullShare} fo') : sProp 𝕄)) := by
  iintro ⟨Hxr, Hvec, Hq⟩
  have hchk : ∀ t : Fin k0_t2_loop.trips,
      k0_chk1 ((xrM).view.readAt (Elt F) (Rect.unit (s := S16384) (k0_off3 t) S16.size (k0_off3_inb t)).toLoadRect fxr) :=
    fun t => chk1_of_range m d L hpre hx _ _
  sl_for (ginv2 d L fxr fvc) $$ [Hxr Hvec Hq]
  case region =>
    intro t _
    unfold ginv2
    iintro ⟨Hxr, Hvec, ⟨%fo1, %hG, Hq⟩⟩
    sl_respell [k0_t2_body, SparseCore.vectorLoadIdx]
    sl_exec
    sl_step
    isplitl [Hxr]; · iexact Hxr
    isplitl [Hvec]; · iexact Hvec
    iexists _; isplitr
    rotate_left
    · iexact Hq
    · ipureintro
      exact gstep0 d L 0 t.val fxr fvc fo1 _ _ (k0_off4_eq t) _ _ (by rw [k0_off3_eq]; try simp) (Nat.lt_of_lt_of_eq t.isLt trips2) (by decide) _ hG
  · isplitl [Hxr Hvec Hq]
    · unfold ginv2
      isplitl [Hxr]; · iexact Hxr
      isplitl [Hvec]; · iexact Hvec
      iexists fo; isplitr
      · ipureintro; intro p hp; exact absurd hp (by omega)
      · iexact Hq
    · iintro %_ HI
      unfold ginv2
      icases HI with ⟨Hxr, Hvec, ⟨%fo', %hG', Hq⟩⟩
      isplitl [Hxr]; · iexact Hxr
      isplitl [Hvec]; · iexact Hvec
      iexists fo'; isplitr
      · ipureintro; have e : Scf.trips k0_t2_loop.lb k0_t2_loop.ub k0_t2_loop.st = 256 := trips2
        rw [e] at hG'; exact hG'
      · iexact Hq

/-- What gather loop 2 keeps: the index row and the table row untouched, and the staging buffer filled, sixteen
    entries a trip, with the table row's entries at the index row's quarter 1. -/
def ginv3 (fxr : Buf (Elt F) ((thr d L).loc cc0_scratch1)) (fvc : Buf (Elt F) ((thr d L).loc cc0_scratch0)) (t : ℕ) (_ : PUnit) : sProp 𝕄 :=
  iprop(((xrM).view.loc (thr d L) ↦{fullShare} fxr)
    ∗ ((vecM).view.loc (thr d L) ↦{fullShare} fvc)
    ∗ ∃ fo, ⌜GOK1 d L 1 t fxr fvc fo⌝ ∗ (oq1M).view.loc (thr d L) ↦{fullShare} fo)

/-- Gather loop 2, whole: 256 trips of sixteen entries. -/
theorem gather3 (hpre : PreOK m) (k : Fin k0_t1_loop.trips) (a12 : BitVec 32) (fxr : Buf (Elt F) ((thr d L).loc cc0_scratch1)) (fvc : Buf (Elt F) ((thr d L).loc cc0_scratch0))
    (f : Fin 26) (hx : XrowOK m d L fxr f) (fo : Buf (Elt F) ((thr d L).loc cc0_scratch3)) :
    iprop(((xrM).view.loc (thr d L) ↦{fullShare} fxr) ∗ ((vecM).view.loc (thr d L) ↦{fullShare} fvc)
        ∗ ((oq1M).view.loc (thr d L) ↦{fullShare} fo))
      ⊢ wp frame (wpE (defs₀ (F := F)) 𝒱₀ (thr d L) none) Set.univ
          (Scf.Loop.for k0_t3_loop k0_t3_ok ⟨⟩
            (k0_t3_body L xtM (Memref.isWhole_whole _) tbM (Memref.isWhole_whole _) otM (Memref.isWhole_whole _)
              vecM (Memref.isWhole_whole _) xrM (Memref.isWhole_whole _) oq0M (Memref.isWhole_whole _) oq1M (Memref.isWhole_whole _)
              cc0_scratch4 cc0_scratch5 cc0_scratch6 cc0_scoped0 k a12))
          (fun _ => (iprop(((xrM).view.loc (thr d L) ↦{fullShare} fxr) ∗ ((vecM).view.loc (thr d L) ↦{fullShare} fvc)
            ∗ ∃ fo', ⌜GOK1 d L 1 256 fxr fvc fo'⌝ ∗ (oq1M).view.loc (thr d L) ↦{fullShare} fo') : sProp 𝕄)) := by
  iintro ⟨Hxr, Hvec, Hq⟩
  have hchk : ∀ t : Fin k0_t3_loop.trips,
      k0_chk2 ((xrM).view.readAt (Elt F) (Rect.unit (s := S16384) (k0_off6 t) S16.size (k0_off6_inb t)).toLoadRect fxr) :=
    fun t => chk2_of_range m d L hpre hx _ _
  sl_for (ginv3 d L fxr fvc) $$ [Hxr Hvec Hq]
  case region =>
    intro t _
    unfold ginv3
    iintro ⟨Hxr, Hvec, ⟨%fo1, %hG, Hq⟩⟩
    sl_respell [k0_t3_body, SparseCore.vectorLoadIdx]
    sl_exec
    sl_step
    isplitl [Hxr]; · iexact Hxr
    isplitl [Hvec]; · iexact Hvec
    iexists _; isplitr
    rotate_left
    · iexact Hq
    · ipureintro
      exact gstep1 d L 1 t.val fxr fvc fo1 _ _ (k0_off7_eq t) _ _ (by rw [k0_off6_eq]; try simp) (Nat.lt_of_lt_of_eq t.isLt trips3) (by decide) _ hG
  · isplitl [Hxr Hvec Hq]
    · unfold ginv3
      isplitl [Hxr]; · iexact Hxr
      isplitl [Hvec]; · iexact Hvec
      iexists fo; isplitr
      · ipureintro; intro p hp; exact absurd hp (by omega)
      · iexact Hq
    · iintro %_ HI
      unfold ginv3
      icases HI with ⟨Hxr, Hvec, ⟨%fo', %hG', Hq⟩⟩
      isplitl [Hxr]; · iexact Hxr
      isplitl [Hvec]; · iexact Hvec
      iexists fo'; isplitr
      · ipureintro; have e : Scf.trips k0_t3_loop.lb k0_t3_loop.ub k0_t3_loop.st = 256 := trips3
        rw [e] at hG'; exact hG'
      · iexact Hq

/-- What gather loop 3 keeps: the index row and the table row untouched, and the staging buffer filled, sixteen
    entries a trip, with the table row's entries at the index row's quarter 2. -/
def ginv4 (fxr : Buf (Elt F) ((thr d L).loc cc0_scratch1)) (fvc : Buf (Elt F) ((thr d L).loc cc0_scratch0)) (t : ℕ) (_ : PUnit) : sProp 𝕄 :=
  iprop(((xrM).view.loc (thr d L) ↦{fullShare} fxr)
    ∗ ((vecM).view.loc (thr d L) ↦{fullShare} fvc)
    ∗ ∃ fo, ⌜GOK0 d L 2 t fxr fvc fo⌝ ∗ (oq0M).view.loc (thr d L) ↦{fullShare} fo)

/-- Gather loop 3, whole: 256 trips of sixteen entries. -/
theorem gather4 (hpre : PreOK m) (k : Fin k0_t1_loop.trips) (a12 : BitVec 32) (fxr : Buf (Elt F) ((thr d L).loc cc0_scratch1)) (fvc : Buf (Elt F) ((thr d L).loc cc0_scratch0))
    (f : Fin 26) (hx : XrowOK m d L fxr f) (fo : Buf (Elt F) ((thr d L).loc cc0_scratch2)) :
    iprop(((xrM).view.loc (thr d L) ↦{fullShare} fxr) ∗ ((vecM).view.loc (thr d L) ↦{fullShare} fvc)
        ∗ ((oq0M).view.loc (thr d L) ↦{fullShare} fo))
      ⊢ wp frame (wpE (defs₀ (F := F)) 𝒱₀ (thr d L) none) Set.univ
          (Scf.Loop.for k0_t4_loop k0_t4_ok ⟨⟩
            (k0_t4_body L xtM (Memref.isWhole_whole _) tbM (Memref.isWhole_whole _) otM (Memref.isWhole_whole _)
              vecM (Memref.isWhole_whole _) xrM (Memref.isWhole_whole _) oq0M (Memref.isWhole_whole _) oq1M (Memref.isWhole_whole _)
              cc0_scratch4 cc0_scratch5 cc0_scratch6 cc0_scoped0 k a12))
          (fun _ => (iprop(((xrM).view.loc (thr d L) ↦{fullShare} fxr) ∗ ((vecM).view.loc (thr d L) ↦{fullShare} fvc)
            ∗ ∃ fo', ⌜GOK0 d L 2 256 fxr fvc fo'⌝ ∗ (oq0M).view.loc (thr d L) ↦{fullShare} fo') : sProp 𝕄)) := by
  iintro ⟨Hxr, Hvec, Hq⟩
  have hchk : ∀ t : Fin k0_t4_loop.trips,
      k0_chk3 ((xrM).view.readAt (Elt F) (Rect.unit (s := S16384) (k0_off9 t) S16.size (k0_off9_inb t)).toLoadRect fxr) :=
    fun t => chk3_of_range m d L hpre hx _ _
  sl_for (ginv4 d L fxr fvc) $$ [Hxr Hvec Hq]
  case region =>
    intro t _
    unfold ginv4
    iintro ⟨Hxr, Hvec, ⟨%fo1, %hG, Hq⟩⟩
    sl_respell [k0_t4_body, SparseCore.vectorLoadIdx]
    sl_exec
    sl_step
    isplitl [Hxr]; · iexact Hxr
    isplitl [Hvec]; · iexact Hvec
    iexists _; isplitr
    rotate_left
    · iexact Hq
    · ipureintro
      exact gstep0 d L 2 t.val fxr fvc fo1 _ _ (k0_off10_eq t) _ _ (by rw [k0_off9_eq]; try simp) (Nat.lt_of_lt_of_eq t.isLt trips4) (by decide) _ hG
  · isplitl [Hxr Hvec Hq]
    · unfold ginv4
      isplitl [Hxr]; · iexact Hxr
      isplitl [Hvec]; · iexact Hvec
      iexists fo; isplitr
      · ipureintro; intro p hp; exact absurd hp (by omega)
      · iexact Hq
    · iintro %_ HI
      unfold ginv4
      icases HI with ⟨Hxr, Hvec, ⟨%fo', %hG', Hq⟩⟩
      isplitl [Hxr]; · iexact Hxr
      isplitl [Hvec]; · iexact Hvec
      iexists fo'; isplitr
      · ipureintro; have e : Scf.trips k0_t4_loop.lb k0_t4_loop.ub k0_t4_loop.st = 256 := trips4
        rw [e] at hG'; exact hG'
      · iexact Hq

/-- What gather loop 4 keeps: the index row and the table row untouched, and the staging buffer filled, sixteen
    entries a trip, with the table row's entries at the index row's quarter 3. -/
def ginv5 (fxr : Buf (Elt F) ((thr d L).loc cc0_scratch1)) (fvc : Buf (Elt F) ((thr d L).loc cc0_scratch0)) (t : ℕ) (_ : PUnit) : sProp 𝕄 :=
  iprop(((xrM).view.loc (thr d L) ↦{fullShare} fxr)
    ∗ ((vecM).view.loc (thr d L) ↦{fullShare} fvc)
    ∗ ∃ fo, ⌜GOK1 d L 3 t fxr fvc fo⌝ ∗ (oq1M).view.loc (thr d L) ↦{fullShare} fo)

/-- Gather loop 4, whole: 256 trips of sixteen entries. -/
theorem gather5 (hpre : PreOK m) (k : Fin k0_t1_loop.trips) (a12 : BitVec 32) (fxr : Buf (Elt F) ((thr d L).loc cc0_scratch1)) (fvc : Buf (Elt F) ((thr d L).loc cc0_scratch0))
    (f : Fin 26) (hx : XrowOK m d L fxr f) (fo : Buf (Elt F) ((thr d L).loc cc0_scratch3)) :
    iprop(((xrM).view.loc (thr d L) ↦{fullShare} fxr) ∗ ((vecM).view.loc (thr d L) ↦{fullShare} fvc)
        ∗ ((oq1M).view.loc (thr d L) ↦{fullShare} fo))
      ⊢ wp frame (wpE (defs₀ (F := F)) 𝒱₀ (thr d L) none) Set.univ
          (Scf.Loop.for k0_t5_loop k0_t5_ok ⟨⟩
            (k0_t5_body L xtM (Memref.isWhole_whole _) tbM (Memref.isWhole_whole _) otM (Memref.isWhole_whole _)
              vecM (Memref.isWhole_whole _) xrM (Memref.isWhole_whole _) oq0M (Memref.isWhole_whole _) oq1M (Memref.isWhole_whole _)
              cc0_scratch4 cc0_scratch5 cc0_scratch6 cc0_scoped0 k a12))
          (fun _ => (iprop(((xrM).view.loc (thr d L) ↦{fullShare} fxr) ∗ ((vecM).view.loc (thr d L) ↦{fullShare} fvc)
            ∗ ∃ fo', ⌜GOK1 d L 3 256 fxr fvc fo'⌝ ∗ (oq1M).view.loc (thr d L) ↦{fullShare} fo') : sProp 𝕄)) := by
  iintro ⟨Hxr, Hvec, Hq⟩
  have hchk : ∀ t : Fin k0_t5_loop.trips,
      k0_chk4 ((xrM).view.readAt (Elt F) (Rect.unit (s := S16384) (k0_off12 t) S16.size (k0_off12_inb t)).toLoadRect fxr) :=
    fun t => chk4_of_range m d L hpre hx _ _
  sl_for (ginv5 d L fxr fvc) $$ [Hxr Hvec Hq]
  case region =>
    intro t _
    unfold ginv5
    iintro ⟨Hxr, Hvec, ⟨%fo1, %hG, Hq⟩⟩
    sl_respell [k0_t5_body, SparseCore.vectorLoadIdx]
    sl_exec
    sl_step
    isplitl [Hxr]; · iexact Hxr
    isplitl [Hvec]; · iexact Hvec
    iexists _; isplitr
    rotate_left
    · iexact Hq
    · ipureintro
      exact gstep1 d L 3 t.val fxr fvc fo1 _ _ (k0_off13_eq t) _ _ (by rw [k0_off12_eq]; try simp) (Nat.lt_of_lt_of_eq t.isLt trips5) (by decide) _ hG
  · isplitl [Hxr Hvec Hq]
    · unfold ginv5
      isplitl [Hxr]; · iexact Hxr
      isplitl [Hvec]; · iexact Hvec
      iexists fo; isplitr
      · ipureintro; intro p hp; exact absurd hp (by omega)
      · iexact Hq
    · iintro %_ HI
      unfold ginv5
      icases HI with ⟨Hxr, Hvec, ⟨%fo', %hG', Hq⟩⟩
      isplitl [Hxr]; · iexact Hxr
      isplitl [Hvec]; · iexact Hvec
      iexists fo'; isplitr
      · ipureintro; have e : Scf.trips k0_t5_loop.lb k0_t5_loop.ub k0_t5_loop.st = 256 := trips5
        rw [e] at hG'; exact hG'
      · iexact Hq

end Tile

end Cert.Proof.KI

end
-- ==== Proof.KITrip.lean ====
/-
  One trip of a vector subcore's loop over its 26 output columns.

  Trip `k` fetches row `u` of the flattened tables (and, when the column starts a new field or the loop starts, the
  field's index row), then four times gathers a quarter of the output row into a staging buffer and starts its copy
  into `ot`. A trip after the first begins by collecting the previous trip's last two copies.
-/
import proofs.«204002_g15616501088794_cont_week2b_169_25_alg».proof.Proof.KIInv
import proofs.«204002_g15616501088794_cont_week2b_169_25_alg».proof.Proof.KIGather

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "xtM" => (Memref.whole Cert.KernelIdeal.main_v0_scv : Memref Cert.KernelIdeal.sig Kind.scVector Space.hbm Cert.KernelIdeal.S26x16384 EltTy.i32)
local notation "tbM" => (Memref.whole Cert.KernelIdeal.main_v2_scv : Memref Cert.KernelIdeal.sig Kind.scVector Space.hbm Cert.KernelIdeal.S832x100000 EltTy.f32)
local notation "otM" => (Memref.whole Cert.KernelIdeal.main_v3_scv : Memref Cert.KernelIdeal.sig Kind.scVector Space.hbm Cert.KernelIdeal.S832x16384 EltTy.f32)
local notation "vecM" => (Memref.whole Cert.KernelIdeal.cc0_scratch0 : Memref Cert.KernelIdeal.sig Kind.scVector Space.vmem Cert.KernelIdeal.S100000 EltTy.f32)
local notation "xrM" => (Memref.whole Cert.KernelIdeal.cc0_scratch1 : Memref Cert.KernelIdeal.sig Kind.scVector Space.vmem Cert.KernelIdeal.S16384 EltTy.i32)
local notation "oq0M" => (Memref.whole Cert.KernelIdeal.cc0_scratch2 : Memref Cert.KernelIdeal.sig Kind.scVector Space.vmem Cert.KernelIdeal.S4096 EltTy.f32)
local notation "oq1M" => (Memref.whole Cert.KernelIdeal.cc0_scratch3 : Memref Cert.KernelIdeal.sig Kind.scVector Space.vmem Cert.KernelIdeal.S4096 EltTy.f32)

variable (m : (ℓ : Loc nD τ sig) → Buf (Elt F) ℓ) [FloatOps F]

section Tile
variable (d : Dev nD) (L : grid0.Coords)
set_option maxHeartbeats 1600000 in
/-- The first trip: from both staging buffers at rest to the first row's last two quarters in flight. -/
theorem trip_first (hpre : PreOK m) (O : CellTallies nD τ sig (HIx 1)) (W : Waits sig (HIx 1)) (k : Fin k0_t1_loop.trips) (hk0 : k.val = 0) :
    oinv m d L O W k.val ⟨⟩
      ⊢ wp frame (wpE (defs₀ (F := F)) 𝒱₀ (thr d L) none) Set.univ
          (k0_t1_body L xtM (Memref.isWhole_whole _) tbM (Memref.isWhole_whole _) otM (Memref.isWhole_whole _)
            vecM (Memref.isWhole_whole _) xrM (Memref.isWhole_whole _) oq0M (Memref.isWhole_whole _) oq1M (Memref.isWhole_whole _)
            cc0_scratch4 cc0_scratch5 cc0_scratch6 cc0_scoped0 (v2w L) k ⟨⟩)
          (fun _ => oinv m d L O W (k.val + 1) ⟨⟩) := by
  have k0_h1 : k0_cond1 L k = 1#1 := (cond1_iff L k).2 (Or.inl hk0)
  have hneg : ¬ (Scalar.cmpi .ne (Scalar.extui (Scalar.cmpi .sgt (Scf.iv 0#32 1#32 k) 0#32) : BitVec 32) 0#32 = 1#1) := by
    rw [later_iff]; omega
  unfold k0_t1_body
  simp only [k0_part1_eq_skeleton, k0_part2_eq_skeleton]
  unfold k0_part1_skel k0_part2_skel
  unfold oinv
  rw [show tailRes m d L k.val = tail0 d L from by rw [hk0]; rfl, tailRes_succ]
  unfold tail0 tailS
  iintro ⟨#Hmw, Hxt, Htb, ⟨%fv, Hvec⟩, ⟨%fx, %hfx, Hxr⟩, HsV, HsX, Hfresh, Hdone, ⟨⟨%f0, Hq0⟩, ⟨%f1, Hq1⟩, Hs0, Hs1⟩, ⟨%W', %hW', HO⟩⟩
  ihave Hsp := (row_split d L k (m (otLoc d))) $$ Hfresh
  icases Hsp with ⟨Hc0, Hc1, Hc2, Hc3, Hfresh⟩
  sl_exec
  have hvc := vec_lands m d L k fv
  have hxr := xrow_lands m d L k k0_h1 fx
  repeat rw [wp_bind]
  iapply ((gather2 m d L hpre k _ _ _ _ _ _ hxr f0).trans (wp_wand _ _ _)) $$ [Hxr Hvec Hq0]
  · isplitl [Hxr]; · iexact Hxr
    isplitl [Hvec]; · iexact Hvec
    iexact Hq0
  iintro %_ ⟨Hxr, Hvec, %g0, %hg0, Hq0⟩
  sl_exec
  repeat rw [wp_bind]
  iapply ((gather3 m d L hpre k _ _ _ _ hxr f1).trans (wp_wand _ _ _)) $$ [Hxr Hvec Hq1]
  · isplitl [Hxr]; · iexact Hxr
    isplitl [Hvec]; · iexact Hvec
    iexact Hq1
  iintro %_ ⟨Hxr, Hvec, %g1, %hg1, Hq1⟩
  sl_exec
  repeat rw [wp_bind]
  iapply ((gather4 m d L hpre k _ _ _ _ hxr g0).trans (wp_wand _ _ _)) $$ [Hxr Hvec Hq0]
  · isplitl [Hxr]; · iexact Hxr
    isplitl [Hvec]; · iexact Hvec
    iexact Hq0
  iintro %_ ⟨Hxr, Hvec, %g2, %hg2, Hq0⟩
  sl_exec
  repeat rw [wp_bind]
  iapply ((gather5 m d L hpre k _ _ _ _ hxr g1).trans (wp_wand _ _ _)) $$ [Hxr Hvec Hq1]
  · isplitl [Hxr]; · iexact Hxr
    isplitl [Hvec]; · iexact Hvec
    iexact Hq1
  iintro %_ ⟨Hxr, Hvec, %g3, %hg3, Hq1⟩
  sl_exec
  sl_step
  rw [kM_val]
  isplitr; · iexact Hmw
  isplitl [Hxt]; · iexact Hxt
  isplitl [Htb]; · iexact Htb
  isplitl [Hvec]; · iexists _; iexact Hvec
  isplitl [Hxr]
  · iexists _; isplitr
    rotate_left; · iexact Hxr
    ipureintro; intro _
    exact ⟨⟨uOf L k.val / 32, field_lt L k⟩, by simp, hxr⟩
  isplitl [HsV]; · iexact HsV
  isplitl [HsX]; · iexact HsX
  isplitl [Hfresh]; · iexact Hfresh
  isplitl [Hc0 Hc1 Hdone]
  · iapply (done_first' d L k hk0 _)
    isplitl [Hc0]
    · iapply (land_ch0 m d L k _ _ (chunk_lands0 m d L k _ _ _ g0 hxr hvc hg0)); iexact Hc0
    · iapply (land_ch1 m d L k _ _ (chunk_lands1 m d L k _ _ _ g1 hxr hvc hg1)); iexact Hc1
  isplitl [Hs0 Hq0 Hs1 Hq1]
  · iexists g2, g3; isplitr
    · ipureintro
      exact ⟨fun fA => chunk_lands2 m d L k fA _ _ g2 hxr hvc hg2, fun fA => chunk_lands3 m d L k fA _ _ g3 hxr hvc hg3⟩
    isplitl [Hs0]; · iexact Hs0
    isplitl [Hq0]; · iexact Hq0
    isplitl [Hs1]; · iexact Hs1
    iexact Hq1
  iexists _; isplitr
  rotate_left; · iexact HO
  ipureintro; intro p hp
  repeat (rcases Finset.mem_insert.mp hp with rfl | hp; · exact Or.inr rfl)
  exact hW' p hp

set_option maxHeartbeats 1600000 in
/-- A later trip that starts a new field: it fetches the field's index row. It first collects the previous trip's last two copies, and ends with its own last two in flight. -/
theorem trip_next_fetch (hpre : PreOK m) (O : CellTallies nD τ sig (HIx 1)) (W : Waits sig (HIx 1)) (k : Fin k0_t1_loop.trips) (n : ℕ) (hk : k.val = n + 1) (k0_h1 : k0_cond1 L k = 1#1) :
    oinv m d L O W k.val ⟨⟩
      ⊢ wp frame (wpE (defs₀ (F := F)) 𝒱₀ (thr d L) none) Set.univ
          (k0_t1_body L xtM (Memref.isWhole_whole _) tbM (Memref.isWhole_whole _) otM (Memref.isWhole_whole _)
            vecM (Memref.isWhole_whole _) xrM (Memref.isWhole_whole _) oq0M (Memref.isWhole_whole _) oq1M (Memref.isWhole_whole _)
            cc0_scratch4 cc0_scratch5 cc0_scratch6 cc0_scoped0 (v2w L) k ⟨⟩)
          (fun _ => oinv m d L O W (k.val + 1) ⟨⟩) := by
  have hpos : (Scalar.cmpi .ne (Scalar.extui (Scalar.cmpi .sgt (Scf.iv 0#32 1#32 k) 0#32) : BitVec 32) 0#32 = 1#1) :=
    (later_iff k).2 (by omega)
  have hn : n < 26 := by have := k_lt k; omega
  have hkMv : (kM n).val = n := Nat.mod_eq_of_lt hn
  unfold k0_t1_body
  simp only [k0_part1_eq_skeleton, k0_part2_eq_skeleton]
  unfold k0_part1_skel k0_part2_skel
  unfold oinv
  rw [show tailRes m d L k.val = tailS m d L n from by rw [hk]; rfl, tailRes_succ]
  unfold tailS
  iintro ⟨#Hmw, Hxt, Htb, ⟨%fv, Hvec⟩, ⟨%fx, %hfx, Hxr⟩, HsV, HsX, Hfresh, Hdone, ⟨%p0, %p1, %hland, Hs0, Hq0, Hs1, Hq1⟩, ⟨%W', %hW', HO⟩⟩
  have hl2 : ∀ fA, ((ch2M L (kM n)).view.loc (thr d L) ↦[(ch2M L (kM n)).view.set]{fullShare} landed0 d L (ch2M L (kM n)) fA p0 : sProp 𝕄)
      ⊢ otLoc d ↦[chunkN (uOf L n) 2]{fullShare} OT m d := fun fA => by
    have := land_ch2 m d L (kM n) fA p0 (by rw [hkMv]; exact hland.1 fA)
    rwa [hkMv] at this
  have hl3 : ∀ fA, ((ch3M L (kM n)).view.loc (thr d L) ↦[(ch3M L (kM n)).view.set]{fullShare} landed1 d L (ch3M L (kM n)) fA p1 : sProp 𝕄)
      ⊢ otLoc d ↦[chunkN (uOf L n) 3]{fullShare} OT m d := fun fA => by
    have := land_ch3 m d L (kM n) fA p1 (by rw [hkMv]; exact hland.2 fA)
    rwa [hkMv] at this
  ihave Hsp := (row_split d L k (m (otLoc d))) $$ Hfresh
  icases Hsp with ⟨Hc0, Hc1, Hc2, Hc3, Hfresh⟩
  sl_exec
  have hvc := vec_lands m d L k fv
  have hxr := xrow_lands m d L k k0_h1 fx
  repeat rw [wp_bind]
  iapply ((gather2 m d L hpre k _ _ _ _ _ _ hxr p0).trans (wp_wand _ _ _)) $$ [Hxr Hvec Hq0]
  · isplitl [Hxr]; · iexact Hxr
    isplitl [Hvec]; · iexact Hvec
    iexact Hq0
  iintro %_ ⟨Hxr, Hvec, %g0, %hg0, Hq0⟩
  sl_exec
  repeat rw [wp_bind]
  iapply ((gather3 m d L hpre k _ _ _ _ hxr p1).trans (wp_wand _ _ _)) $$ [Hxr Hvec Hq1]
  · isplitl [Hxr]; · iexact Hxr
    isplitl [Hvec]; · iexact Hvec
    iexact Hq1
  iintro %_ ⟨Hxr, Hvec, %g1, %hg1, Hq1⟩
  sl_exec
  repeat rw [wp_bind]
  iapply ((gather4 m d L hpre k _ _ _ _ hxr g0).trans (wp_wand _ _ _)) $$ [Hxr Hvec Hq0]
  · isplitl [Hxr]; · iexact Hxr
    isplitl [Hvec]; · iexact Hvec
    iexact Hq0
  iintro %_ ⟨Hxr, Hvec, %g2, %hg2, Hq0⟩
  sl_exec
  repeat rw [wp_bind]
  iapply ((gather5 m d L hpre k _ _ _ _ hxr g1).trans (wp_wand _ _ _)) $$ [Hxr Hvec Hq1]
  · isplitl [Hxr]; · iexact Hxr
    isplitl [Hvec]; · iexact Hvec
    iexact Hq1
  iintro %_ ⟨Hxr, Hvec, %g3, %hg3, Hq1⟩
  sl_exec
  sl_step
  rw [kM_val]
  isplitr; · iexact Hmw
  isplitl [Hxt]; · iexact Hxt
  isplitl [Htb]; · iexact Htb
  isplitl [Hvec]; · iexists _; iexact Hvec
  isplitl [Hxr]
  · iexists _; isplitr
    rotate_left; · iexact Hxr
    ipureintro; intro _
    exact ⟨⟨uOf L k.val / 32, field_lt L k⟩, by simp, hxr⟩
  isplitl [HsV]; · iexact HsV
  isplitl [HsX]; · iexact HsX
  isplitl [Hfresh]; · iexact Hfresh
  isplitl [Hc0 Hc1 Hdone Hs0_dst Hs1_dst]
  · iapply (done_next' d L k n hk _)
    isplitl [Hdone]; · iexact Hdone
    isplitl [Hs0_dst]; · iapply (hl2 _); iexact Hs0_dst
    isplitl [Hs1_dst]; · iapply (hl3 _); iexact Hs1_dst
    isplitl [Hc0]
    · iapply (land_ch0 m d L k _ _ (chunk_lands0 m d L k _ _ _ g0 hxr hvc hg0)); iexact Hc0
    · iapply (land_ch1 m d L k _ _ (chunk_lands1 m d L k _ _ _ g1 hxr hvc hg1)); iexact Hc1
  isplitl [Hs0 Hq0 Hs1 Hq1]
  · iexists g2, g3; isplitr
    · ipureintro
      exact ⟨fun fA => chunk_lands2 m d L k fA _ _ g2 hxr hvc hg2, fun fA => chunk_lands3 m d L k fA _ _ g3 hxr hvc hg3⟩
    isplitl [Hs0]; · iexact Hs0
    isplitl [Hq0]; · iexact Hq0
    isplitl [Hs1]; · iexact Hs1
    iexact Hq1
  iexists _; isplitr
  rotate_left; · iexact HO
  ipureintro; intro p hp
  repeat (rcases Finset.mem_insert.mp hp with rfl | hp; · exact Or.inr rfl)
  exact hW' p hp

set_option maxHeartbeats 1600000 in
/-- A later trip within a field: the index row already held is the right one. -/
theorem trip_next_keep (hpre : PreOK m) (O : CellTallies nD τ sig (HIx 1)) (W : Waits sig (HIx 1)) (k : Fin k0_t1_loop.trips) (n : ℕ) (hk : k.val = n + 1) (k0_h1 : ¬ k0_cond1 L k = 1#1) :
    oinv m d L O W k.val ⟨⟩
      ⊢ wp frame (wpE (defs₀ (F := F)) 𝒱₀ (thr d L) none) Set.univ
          (k0_t1_body L xtM (Memref.isWhole_whole _) tbM (Memref.isWhole_whole _) otM (Memref.isWhole_whole _)
            vecM (Memref.isWhole_whole _) xrM (Memref.isWhole_whole _) oq0M (Memref.isWhole_whole _) oq1M (Memref.isWhole_whole _)
            cc0_scratch4 cc0_scratch5 cc0_scratch6 cc0_scoped0 (v2w L) k ⟨⟩)
          (fun _ => oinv m d L O W (k.val + 1) ⟨⟩) := by
  have hpos : (Scalar.cmpi .ne (Scalar.extui (Scalar.cmpi .sgt (Scf.iv 0#32 1#32 k) 0#32) : BitVec 32) 0#32 = 1#1) :=
    (later_iff k).2 (by omega)
  have hn : n < 26 := by have := k_lt k; omega
  have hkMv : (kM n).val = n := Nat.mod_eq_of_lt hn
  unfold k0_t1_body
  simp only [k0_part1_eq_skeleton, k0_part2_eq_skeleton]
  unfold k0_part1_skel k0_part2_skel
  unfold oinv
  rw [show tailRes m d L k.val = tailS m d L n from by rw [hk]; rfl, tailRes_succ]
  unfold tailS
  iintro ⟨#Hmw, Hxt, Htb, ⟨%fv, Hvec⟩, ⟨%fx, %hfx, Hxr⟩, HsV, HsX, Hfresh, Hdone, ⟨%p0, %p1, %hland, Hs0, Hq0, Hs1, Hq1⟩, ⟨%W', %hW', HO⟩⟩
  have hl2 : ∀ fA, ((ch2M L (kM n)).view.loc (thr d L) ↦[(ch2M L (kM n)).view.set]{fullShare} landed0 d L (ch2M L (kM n)) fA p0 : sProp 𝕄)
      ⊢ otLoc d ↦[chunkN (uOf L n) 2]{fullShare} OT m d := fun fA => by
    have := land_ch2 m d L (kM n) fA p0 (by rw [hkMv]; exact hland.1 fA)
    rwa [hkMv] at this
  have hl3 : ∀ fA, ((ch3M L (kM n)).view.loc (thr d L) ↦[(ch3M L (kM n)).view.set]{fullShare} landed1 d L (ch3M L (kM n)) fA p1 : sProp 𝕄)
      ⊢ otLoc d ↦[chunkN (uOf L n) 3]{fullShare} OT m d := fun fA => by
    have := land_ch3 m d L (kM n) fA p1 (by rw [hkMv]; exact hland.2 fA)
    rwa [hkMv] at this
  have hkp : 0 < k.val := by omega
  obtain ⟨f, hf, hxf⟩ := hfx hkp
  have hc : ¬ (uOf L k.val % 32 = 0) := fun h => k0_h1 ((cond1_iff L k).2 (Or.inr h))
  have hfe : f = ⟨uOf L k.val / 32, field_lt L k⟩ := Fin.ext (by rw [hf, xrow_keeps L k.val hkp hc])
  subst hfe
  ihave Hsp := (row_split d L k (m (otLoc d))) $$ Hfresh
  icases Hsp with ⟨Hc0, Hc1, Hc2, Hc3, Hfresh⟩
  sl_exec
  have hvc := vec_lands m d L k fv
  repeat rw [wp_bind]
  iapply ((gather2 m d L hpre k _ _ _ _ _ _ hxf p0).trans (wp_wand _ _ _)) $$ [Hxr Hvec Hq0]
  · isplitl [Hxr]; · iexact Hxr
    isplitl [Hvec]; · iexact Hvec
    iexact Hq0
  iintro %_ ⟨Hxr, Hvec, %g0, %hg0, Hq0⟩
  sl_exec
  repeat rw [wp_bind]
  iapply ((gather3 m d L hpre k _ _ _ _ hxf p1).trans (wp_wand _ _ _)) $$ [Hxr Hvec Hq1]
  · isplitl [Hxr]; · iexact Hxr
    isplitl [Hvec]; · iexact Hvec
    iexact Hq1
  iintro %_ ⟨Hxr, Hvec, %g1, %hg1, Hq1⟩
  sl_exec
  repeat rw [wp_bind]
  iapply ((gather4 m d L hpre k _ _ _ _ hxf g0).trans (wp_wand _ _ _)) $$ [Hxr Hvec Hq0]
  · isplitl [Hxr]; · iexact Hxr
    isplitl [Hvec]; · iexact Hvec
    iexact Hq0
  iintro %_ ⟨Hxr, Hvec, %g2, %hg2, Hq0⟩
  sl_exec
  repeat rw [wp_bind]
  iapply ((gather5 m d L hpre k _ _ _ _ hxf g1).trans (wp_wand _ _ _)) $$ [Hxr Hvec Hq1]
  · isplitl [Hxr]; · iexact Hxr
    isplitl [Hvec]; · iexact Hvec
    iexact Hq1
  iintro %_ ⟨Hxr, Hvec, %g3, %hg3, Hq1⟩
  sl_exec
  sl_step
  rw [kM_val]
  isplitr; · iexact Hmw
  isplitl [Hxt]; · iexact Hxt
  isplitl [Htb]; · iexact Htb
  isplitl [Hvec]; · iexists _; iexact Hvec
  isplitl [Hxr]
  · iexists _; isplitr
    rotate_left; · iexact Hxr
    ipureintro; intro _
    exact ⟨⟨uOf L k.val / 32, field_lt L k⟩, by simp, hxf⟩
  isplitl [HsV]; · iexact HsV
  isplitl [HsX]; · iexact HsX
  isplitl [Hfresh]; · iexact Hfresh
  isplitl [Hc0 Hc1 Hdone Hs0_dst Hs1_dst]
  · iapply (done_next' d L k n hk _)
    isplitl [Hdone]; · iexact Hdone
    isplitl [Hs0_dst]; · iapply (hl2 _); iexact Hs0_dst
    isplitl [Hs1_dst]; · iapply (hl3 _); iexact Hs1_dst
    isplitl [Hc0]
    · iapply (land_ch0 m d L k _ _ (chunk_lands0 m d L k _ _ _ g0 hxf hvc hg0)); iexact Hc0
    · iapply (land_ch1 m d L k _ _ (chunk_lands1 m d L k _ _ _ g1 hxf hvc hg1)); iexact Hc1
  isplitl [Hs0 Hq0 Hs1 Hq1]
  · iexists g2, g3; isplitr
    · ipureintro
      exact ⟨fun fA => chunk_lands2 m d L k fA _ _ g2 hxf hvc hg2, fun fA => chunk_lands3 m d L k fA _ _ g3 hxf hvc hg3⟩
    isplitl [Hs0]; · iexact Hs0
    isplitl [Hq0]; · iexact Hq0
    isplitl [Hs1]; · iexact Hs1
    iexact Hq1
  iexists _; isplitr
  rotate_left; · iexact HO
  ipureintro; intro p hp
  repeat (rcases Finset.mem_insert.mp hp with rfl | hp; · exact Or.inr rfl)
  exact hW' p hp

/-- Every trip keeps what holds between trips. -/
theorem trip (hpre : PreOK m) (O : CellTallies nD τ sig (HIx 1)) (W : Waits sig (HIx 1)) (k : Fin k0_t1_loop.trips) :
    oinv m d L O W k.val ⟨⟩
      ⊢ wp frame (wpE (defs₀ (F := F)) 𝒱₀ (thr d L) none) Set.univ
          (k0_t1_body L xtM (Memref.isWhole_whole _) tbM (Memref.isWhole_whole _) otM (Memref.isWhole_whole _)
            vecM (Memref.isWhole_whole _) xrM (Memref.isWhole_whole _) oq0M (Memref.isWhole_whole _) oq1M (Memref.isWhole_whole _)
            cc0_scratch4 cc0_scratch5 cc0_scratch6 cc0_scoped0 (v2w L) k ⟨⟩)
          (fun _ => oinv m d L O W (k.val + 1) ⟨⟩) := by
  rcases Nat.eq_zero_or_pos k.val with h0 | hp
  · exact trip_first m d L hpre O W k h0
  · obtain ⟨n, hn⟩ := Nat.exists_eq_succ_of_ne_zero (Nat.pos_iff_ne_zero.mp hp)
    by_cases hc : k0_cond1 L k = 1#1
    · exact trip_next_fetch m d L hpre O W k n hn hc
    · exact trip_next_keep m d L hpre O W k n hn hc

end Tile

end Cert.Proof.KI

end
-- ==== Proof.KIBody.lean ====
/-
  One vector subcore's whole task, and the launch theorem's obligation for it.

  The task is the 26-trip loop and two last waits. Handed its read shares of the index array and the flattened tables,
  its own 26 rows of `ot`, and its scratch buffers and semaphores at rest, the subcore ends with its rows at their
  final contents, everything else handed back as it came.
-/
import proofs.«204002_g15616501088794_cont_week2b_169_25_alg».proof.Proof.KITrip

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "xtM" => (Memref.whole Cert.KernelIdeal.main_v0_scv : Memref Cert.KernelIdeal.sig Kind.scVector Space.hbm Cert.KernelIdeal.S26x16384 EltTy.i32)
local notation "tbM" => (Memref.whole Cert.KernelIdeal.main_v2_scv : Memref Cert.KernelIdeal.sig Kind.scVector Space.hbm Cert.KernelIdeal.S832x100000 EltTy.f32)
local notation "otM" => (Memref.whole Cert.KernelIdeal.main_v3_scv : Memref Cert.KernelIdeal.sig Kind.scVector Space.hbm Cert.KernelIdeal.S832x16384 EltTy.f32)
local notation "vecM" => (Memref.whole Cert.KernelIdeal.cc0_scratch0 : Memref Cert.KernelIdeal.sig Kind.scVector Space.vmem Cert.KernelIdeal.S100000 EltTy.f32)
local notation "xrM" => (Memref.whole Cert.KernelIdeal.cc0_scratch1 : Memref Cert.KernelIdeal.sig Kind.scVector Space.vmem Cert.KernelIdeal.S16384 EltTy.i32)
local notation "oq0M" => (Memref.whole Cert.KernelIdeal.cc0_scratch2 : Memref Cert.KernelIdeal.sig Kind.scVector Space.vmem Cert.KernelIdeal.S4096 EltTy.f32)
local notation "oq1M" => (Memref.whole Cert.KernelIdeal.cc0_scratch3 : Memref Cert.KernelIdeal.sig Kind.scVector Space.vmem Cert.KernelIdeal.S4096 EltTy.f32)

variable (m : (ℓ : Loc nD τ sig) → Buf (Elt F) ℓ) [FloatOps F]

section Tile
variable (d : Dev nD) (L : grid0.Coords)

theorem pts_xt (q : PosShare TreeShare) (f : Buf (Elt F) (xtLoc d)) :
    ((xtM).view.loc (thr d L) ↦{q} f : sProp 𝕄) = xtLoc d ↦{q} f := rfl
theorem pts_tb (q : PosShare TreeShare) (f : Buf (Elt F) (tbLoc d)) :
    ((tbM).view.loc (thr d L) ↦{q} f : sProp 𝕄) = tbLoc d ↦{q} f := rfl

set_option maxHeartbeats 1600000 in
/-- The task on the vector subcore at `L` of device `d`. -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp ∗ tileRes m d (cL L) (jL L) (m (otLoc d))
        ∗ scopedBufs (thr d L) ∗ scopedSems0 (thr d L) ∗ owes (thr d L) O W)
      ⊢ wp frame (wpE (defs₀ (F := F)) 𝒱₀ (thr d L) none) Set.univ
          (cc0_k L xtM (Memref.isWhole_whole _) tbM (Memref.isWhole_whole _) otM (Memref.isWhole_whole _)
            vecM (Memref.isWhole_whole _) xrM (Memref.isWhole_whole _) oq0M (Memref.isWhole_whole _) oq1M (Memref.isWhole_whole _)
            cc0_scratch4 cc0_scratch5 cc0_scratch6 cc0_scoped0)
          fun _ => iprop(tileRes m d (cL L) (jL L) (OT m d) ∗ scopedBufs (thr d L) ∗ scopedSems0 (thr d L)
            ∗ ∃ W', ⌜∀ p ∈ W', p ∈ W ∨ p.2 = none⌝ ∗ owes (thr d L) O W') := by
  simp only [cc0_k_eq_skeleton]; unfold cc0_k_skel
  rw [(K (F := F)).scopedBufs_V hF d (cV L) (jV L), SparseCore.Cfg.scopedSems0_V (Val := Elt F) d (cV L) (jV L), ownSems0_V, ownBufs_V]
  iintro ⟨#Hlv, -, ⟨Hxt, Htb, Hot⟩, ⟨⟨%fv, Hvec⟩, ⟨%fx, Hxr⟩, ⟨%f0, Hq0⟩, ⟨%f1, Hq1⟩, Hbufs⟩, ⟨HsV, Hs0, Hs1, HsX, Hsems⟩, HO⟩
  ihave Hmw := ((K (F := F)).mayWaits_none (thr := thr d L) hO) $$ Hlv
  sl_exec
  sl_for (oinv m d L O W) $$ [Hxt Htb Hot Hvec Hxr Hq0 Hq1 HsV Hs0 Hs1 HsX HO]
  case region =>
    intro k _
    exact trip m d L hpre O W k
  · unfold oinv
    rw [tailRes_zero]
    unfold tail0
    isplitr; · iexact Hmw
    isplitl [Hxt]; · iexact Hxt
    isplitl [Htb]; · iexact Htb
    isplitl [Hvec]; · iexists fv; iexact Hvec
    isplitl [Hxr]
    · iexists fx; isplitr
      · ipureintro; intro h; exact absurd h (lt_irrefl 0)
      · iexact Hxr
    isplitl [HsV]; · iexact HsV
    isplitl [HsX]; · iexact HsX
    isplitl [Hot]
    · rw [← tileSet_eq]; iexact Hot
    isplitr
    · rw [doneSet_zero, pointsTo_empty]; iempintro
    isplitl [Hq0 Hq1 Hs0 Hs1]
    · isplitl [Hq0]; · iexists f0; iexact Hq0
      isplitl [Hq1]; · iexists f1; iexact Hq1
      isplitl [Hs0]; · iexact Hs0
      iexact Hs1
    iexists W; isplitr
    · ipureintro; exact fun p hp => Or.inl hp
    · iexact HO
  have e26 : Scf.trips k0_t1_loop.lb k0_t1_loop.ub k0_t1_loop.st = 26 := trips1
  rw [e26]
  iintro %_ HI
  unfold oinv
  rw [show tailRes m d L 26 = tailS m d L 25 from rfl]
  unfold tailS
  icases HI with ⟨-, Hxt, Htb, ⟨%fv', Hvec⟩, ⟨%fx', -, Hxr⟩, HsV, HsX, Hfresh, Hdone, ⟨%p0, %p1, %hland, Hs0, Hq0, Hs1, Hq1⟩, ⟨%W', %hW', HO⟩⟩
  have hkMv : (kM 25).val = 25 := rfl
  have hl2 : ∀ fA, ((ch2M L (kM 25)).view.loc (thr d L) ↦[(ch2M L (kM 25)).view.set]{fullShare} landed0 d L (ch2M L (kM 25)) fA p0 : sProp 𝕄)
      ⊢ otLoc d ↦[chunkN (uOf L 25) 2]{fullShare} OT m d := fun fA => land_ch2 m d L (kM 25) fA p0 (hland.1 fA)
  have hl3 : ∀ fA, ((ch3M L (kM 25)).view.loc (thr d L) ↦[(ch3M L (kM 25)).view.set]{fullShare} landed1 d L (ch3M L (kM 25)) fA p1 : sProp 𝕄)
      ⊢ otLoc d ↦[chunkN (uOf L 25) 3]{fullShare} OT m d := fun fA => land_ch3 m d L (kM 25) fA p1 (hland.2 fA)
  sl_exec
  sl_step
  isplitl [Hxt Htb Hdone Hs0_dst Hs1_dst]
  · isplitl [Hxt]; · iexact Hxt
    isplitl [Htb]; · iexact Htb
    rw [tileSet_eq, tile_final]
    iapply (pointsTo_union (tile_final_d2 L)).2
    isplitr [Hs1_dst]; rotate_left; · iapply (hl3 _); iexact Hs1_dst
    iapply (pointsTo_union (tile_final_d1 L)).2
    isplitl [Hdone]; · iexact Hdone
    iapply (hl2 _); iexact Hs0_dst
  isplitl [Hvec Hxr Hq0 Hq1 Hbufs]
  · isplitl [Hvec]; · iexists _; iexact Hvec
    isplitl [Hxr]; · iexists _; iexact Hxr
    isplitl [Hq0]; · iexists _; iexact Hq0
    isplitl [Hq1]; · iexists _; iexact Hq1
    iexact Hbufs
  isplitl [HsV Hs0 Hs1 HsX Hsems]
  · isplitl [HsV]; · iexact HsV
    isplitl [Hs0]; · iexact Hs0
    isplitl [Hs1]; · iexact Hs1
    isplitl [HsX]; · iexact HsX
    iexact Hsems
  iexists _; isplitr
  rotate_left; · iexact HO
  ipureintro; intro p hp
  repeat (rcases Finset.mem_insert.mp hp with rfl | hp; · exact Or.inr rfl)
  exact hW' p hp

end Tile

/-! ## The launch theorem's obligation -/

theorem defs₀_vector (c : Fin τ.nSC) (s : Fin τ.nSub) :
    defs₀ (F := F) (.scVector c s) 0 ()
      = SparseCore.onTile hcore0 hsub0 (fun c s => cc0_k (coordsV c s)
          xtM (Memref.isWhole_whole _) tbM (Memref.isWhole_whole _) otM (Memref.isWhole_whole _)
          vecM (Memref.isWhole_whole _) xrM (Memref.isWhole_whole _) oq0M (Memref.isWhole_whole _) oq1M (Memref.isWhole_whole _)
          cc0_scratch4 cc0_scratch5 cc0_scratch6 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every vector subcore's task, as the launch theorem asks it. -/
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF hpre O W hO).trans (wp_mono frame _ _ fun _ => obl_post)

end Cert.Proof.KI

end
-- ==== Proof.KIGlue.lean ====
/-
  The program's result as a function of its two arguments.

  The TensorCore transposes the index array, transposes each table and flattens the stack of transposed tables to one
  row per output column; the SparseCores gather along those rows; the TensorCore transposes what they leave. Read index
  by index, the composition is the lookup itself: `out[b, u] = ot[u, b] = tb[u, xt[u / 32, b]]` with
  `xt[f, b] = x[b, f]` and `tb[u, v] = t1[u / 32, u % 32, v] = tables[u / 32, v, u % 32]`, the middle step because
  `(u / 32) * 32 + u % 32 = u` makes the two row-major positions agree.
-/
import proofs.«204002_g15616501088794_cont_week2b_169_25_alg».proof.Proof.KICommon
import Idealize.ShloMosaic.Lib.ValueLayout
import Idealize.ShloMosaic.Lib.Pipeline.Value

noncomputable section

namespace Cert.Proof.KI

open Cert.KernelIdeal Cert.KernelIdeal.Gen

open Idealize.ShloMosaic Idealize.ShloMosaic.ValueIdx
open Cert.Spec (rowOf fieldOf compOf)

variable {F : FTy → Type}
variable (m : (ℓ : Loc nD τ sig) → Buf (Elt F) ℓ)

/-- `xt[f, b] = x[b, f]`. -/
theorem XT_apply (d : Dev nD) (f : Fin 26) (b : Fin 16384) : XT m d (ix2 f b) = m (a0Loc d) (ix2 b f) :=
  transpose_ix2_apply (m (a0Loc d)) transposes_S16384x26_S26x16384_1_0 f b

/-- `t1[f, e, v] = tables[f, v, e]`. -/
theorem T1_apply (d : Dev nD) (f : Fin 26) (e : Fin 32) (v : Fin 100000) : T1 m d (ix3 f e v) = m (a1Loc d) (ix3 f v e) :=
  transpose_ix3_021_apply (m (a1Loc d)) transposes_S26x100000x32_S26x32x100000_0_2_1 f e v

/-- `tb[u, v] = t1[u / 32, u % 32, v]`: row `u` of the flattened stack is row `u % 32` of matrix `u / 32`. -/
theorem TB_apply (d : Dev nD) (u : Fin 832) (v : Fin 100000) : TB m d (ix2 u v) = T1 m d (ix3 (fieldOf u) (compOf u) v) :=
  shapeCast_apply (s := S26x32x100000) (t := S832x100000) (T1 m d) shapeCasts_S26x32x100000_S832x100000 (ix2 u v) (ix3 (fieldOf u) (compOf u) v) (by
    show ((⟨3, ![26, 32, 100000]⟩ : Shape).rowMajor (ix3 (fieldOf u) (compOf u) v)).val = ((⟨2, ![832, 100000]⟩ : Shape).rowMajor (ix2 u v)).val
    rw [Shape.rowMajor_val_three, Shape.rowMajor_val_two]
    show ((u.val / 32) * 32 + u.val % 32) * 100000 + v.val = u.val * 100000 + v.val
    rw [Nat.div_add_mod' u.val 32])

/-- `ot[u, b] = tb[u, xt[u / 32, b]]`. -/
theorem OT_apply (d : Dev nD) (u : Fin 832) (b : Fin 16384) :
    OT m d (ix2 u b) = TB m d (ix2 u (rowOf (XT m d (ix2 (fieldOf u) b)))) := rfl

/-- `out[b, u] = ot[u, b]`. -/
theorem OU_apply (d : Dev nD) (b : Fin 16384) (u : Fin 832) : OU m d (ix2 b u) = OT m d (ix2 u b) :=
  transpose_ix2_apply (OT m d) transposes_S832x16384_S16384x832_1_0 b u

/-- What the program leaves is the lookup of its arguments. -/
theorem OU_eq (d : Dev nD) : OU m d = Cert.Spec.lookup (m (a0Loc d)) (m (a1Loc d)) := by
  refine funext fun (i : (⟨2, ![16384, 832]⟩ : Shape).Idx) => ?_
  obtain ⟨b, u, rfl⟩ : ∃ (b : Fin 16384) (u : Fin 832), i = ix2 b u := ⟨i 0, i 1, eq_ix2 i⟩
  rw [OU_apply, OT_apply, TB_apply, T1_apply, XT_apply]
  rfl

/-- Indices in range as the arguments hold them are in range as the kernel reads them. -/
theorem preOK_of_range (h : ∀ (d : Dev nD) (i : S16384x26.Idx), (m (a0Loc d) i).toNat < 100000) : PreOK m := by
  intro d (i : (⟨2, ![26, 16384]⟩ : Shape).Idx)
  obtain ⟨f, b, rfl⟩ : ∃ (f : Fin 26) (b : Fin 16384), i = ix2 f b := ⟨i 0, i 1, eq_ix2 i⟩
  rw [XT_apply]
  exact h d _

end Cert.Proof.KI

end
-- ==== Proof.KBCommon.lean ====
/-
  The kernel's program as the SparseCore launch theorem sees it, and what its threads are handed.

  The TensorCore transposes the index array to `xt[f, b]`, flattens the tables to one row per output column
  (`tb[32 f + e, v] = tables[f, v, e]`), starts the two SparseCores, and transposes what they leave. Each of the 32
  vector subcores (number `w = 2 s + c` for subcore `s` of SparseCore `c`) fills rows `26 w … 26 w + 25` of the
  `[832, 16384]` array `ot` with `ot[u, b] = tb[u, xt[u / 32, b]]`. It only reads `xt` and `tb`, so it is handed a read
  share of each, whole, and its own 26 rows of `ot` outright.
-/
import proofs.«204002_g15616501088794_cont_week2b_169_25_alg».proof.Defs
import proofs.«204002_g15616501088794_cont_week2b_169_25_alg».proof.Proof.Gen.Kernel
import proofs.«204002_g15616501088794_cont_week2b_169_25_alg».proof.Proof.Gen.Kernel.Skeleton
import proofs.«204002_g15616501088794_cont_week2b_169_25_alg».proof.Proof.Spec
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory, the arrays, and what the TensorCore computes before and after the call -/

variable (m : (ℓ : Loc nD τ sig) → Buf (Elt F) ℓ) (ρ : Dev nD → PrngReg)

/-- The two arguments, the three arrays the TensorCore prepares (`xt`, the transposed tables, `tb`), the kernel's
    result `ot` and the program's result, as locations of device `d`. -/
abbrev a0Loc (d : Dev nD) : Loc nD τ sig := (SparseCore.T d).loc main_arg0
abbrev a1Loc (d : Dev nD) : Loc nD τ sig := (SparseCore.T d).loc main_arg1
abbrev xtLoc (d : Dev nD) : Loc nD τ sig := (SparseCore.T d).loc main_v0
abbrev t1Loc (d : Dev nD) : Loc nD τ sig := (SparseCore.T d).loc main_v1
abbrev tbLoc (d : Dev nD) : Loc nD τ sig := (SparseCore.T d).loc main_v2
abbrev otLoc (d : Dev nD) : Loc nD τ sig := (SparseCore.T d).loc main_v3
abbrev ouLoc (d : Dev nD) : Loc nD τ sig := (SparseCore.T d).loc main_v4

/-- `xt[f, b] = x[b, f]`. -/
def XT (d : Dev nD) : Buf (Elt F) (xtLoc d) := transpose S26x16384 [1, 0] (m (a0Loc d)) transposes_S16384x26_S26x16384_1_0
/-- `t1[f, e, v] = tables[f, v, e]`. -/
def T1 (d : Dev nD) : Buf (Elt F) (t1Loc d) := transpose S26x32x100000 [0, 2, 1] (m (a1Loc d)) transposes_S26x100000x32_S26x32x100000_0_2_1
/-- `tb[32 f + e, v] = t1[f, e, v]`. -/
def TB (d : Dev nD) : Buf (Elt F) (tbLoc d) := shapeCast S832x100000 (T1 m d) shapeCasts_S26x32x100000_S832x100000
/-- What the kernel leaves: `ot[u, b] = tb[u, xt[u / 32, b]]`. -/
def OT (d : Dev nD) : Buf (Elt F) (otLoc d) := Cert.Spec.gathered (XT m d) (TB m d)
/-- The program's result: `ot` transposed. -/
def OU (d : Dev nD) : Buf (Elt F) (ouLoc d) := transpose S16384x832 [1, 0] (OT m d) transposes_S832x16384_S16384x832_1_0

/-- What the proof asks of the launch memory: every index the kernel gathers with names a row of a table. -/
def PreOK : Prop := ∀ (d : Dev nD) (i : S26x16384.Idx), (XT m d i).toNat < 100000

/-! ## Rows of `ot` per vector subcore; read shares per SparseCore and per vector subcore -/

/-- The number of vector subcore `i` of SparseCore `c`: `2 i + c`. -/
def wid (c : Fin 2) (i : Fin 16) : Fin 32 := ⟨2 * i.val + c.val, by have := c.isLt; have := i.isLt; omega⟩

theorem hdiv32 : 32 ∣ S832x16384.size 0 := ⟨26, rfl⟩
/-- Rows `26 w … 26 w + 25` of `ot`. -/
abbrev tileRect (w : Fin 32) : Rect S832x16384 := Rect.part (s := S832x16384) (a₀ := 0) hdiv32 w
abbrev tileSet (w : Fin 32) : Finset S832x16384.Idx := (tileRect w).set
/-- The rows of SparseCore `c`'s sixteen vector subcores. -/
abbrev coreSet (c : Fin 2) : Finset S832x16384.Idx := (Finset.univ : Finset (Fin 16)).biUnion fun i => tileSet (wid c i)

/-- SparseCore `c`'s read share of an array, and vector subcore `i`'s part of it. -/
abbrev qC (c : Fin 2) : PosShare TreeShare := Transfers.shareTok fullShare 2 c
abbrev qT (c : Fin 2) (i : Fin 16) : PosShare TreeShare := Transfers.shareTok (qC c) 16 i

/-! ## What the handshakes carry -/

variable [FloatOps F]

/-- A SparseCore's operands: its read shares of `xt` and `tb`, and its vector subcores' rows of `ot` at `fo`. -/
abbrev coreRes (d : Dev nD) (c : Fin 2) (fo : Buf (Elt F) (otLoc d)) : sProp 𝕄 :=
  iprop((xtLoc d ↦{qC c} XT m d) ∗ (tbLoc d ↦{qC c} TB m d) ∗ otLoc d ↦[coreSet c]{fullShare} fo)
/-- A vector subcore's: its read shares, and its own rows of `ot` at `fo`. -/
abbrev tileRes (d : Dev nD) (c : Fin 2) (i : Fin 16) (fo : Buf (Elt F) (otLoc d)) : sProp 𝕄 :=
  iprop((xtLoc d ↦{qT c i} XT m d) ∗ (tbLoc d ↦{qT c i} TB m d) ∗ otLoc d ↦[tileSet (wid c i)]{fullShare} fo)

/-- The one call hands each SparseCore its read shares and its rows of `ot` as the launch left them, and takes them
    back with the rows at `OT`; likewise each vector subcore. -/
def P : (K (F := F)).Pay (nD := nD) (Val := Elt F) (Name := ℕ) (U := UU) where
  st := fun q d c => match q with | 0 => coreRes m d (Fin.cast nCore_zero c) (m (otLoc d))
  dn := fun q d c => match q with | 0 => coreRes m d (Fin.cast nCore_zero c) (OT m d)
  go := fun q d c i => match q with | 0 => tileRes m d (Fin.cast nCore_zero c) (Fin.cast nSub_zero i) (m (otLoc d))
  td := fun q d c i => match q with | 0 => tileRes m d (Fin.cast nCore_zero c) (Fin.cast nSub_zero i) (OT m d)
  x := fun _ _ => iprop(emp)

instance P_storable : (P (F := F) m).IsStorable where
  st q d c := match q with
    | 0 => (inferInstance : BI.Storable (upEmb : UEmb _ 𝕄) (coreRes m d (Fin.cast nCore_zero c) (m (otLoc d))))
  dn q d c := match q with
    | 0 => (inferInstance : BI.Storable (upEmb : UEmb _ 𝕄) (coreRes m d (Fin.cast nCore_zero c) (OT m d)))
  go q d c i := match q with
    | 0 => (inferInstance : BI.Storable (upEmb : UEmb _ 𝕄) (tileRes m d (Fin.cast nCore_zero c) (Fin.cast nSub_zero i) (m (otLoc d))))
  td q d c i := match q with
    | 0 => (inferInstance : BI.Storable (upEmb : UEmb _ 𝕄) (tileRes m d (Fin.cast nCore_zero c) (Fin.cast nSub_zero i) (OT m d)))

/-! ## A vector subcore's coordinates -/

def coordsV (c : Fin (grid0.bound 0)) (s : Fin (grid0.bound 1)) : grid0.Coords :=
  fun | 0 => c | 1 => s | ⟨_ + 2, h⟩ => absurd h (Nat.not_lt.2 (Nat.le_add_left _ _))

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
abbrev cL (L : grid0.Coords) : Fin 2 := Fin.cast bound_zero (L 0)
abbrev jL (L : grid0.Coords) : Fin 16 := Fin.cast bound_one (L 1)

end Cert.Proof.KB

end
-- ==== Proof.KBSplit.lean ====
/-
  How the kernel's operands are divided: the whole of `ot` among the two SparseCores and, within one, among its sixteen
  vector subcores; a read share of `xt` and of `tb` likewise.

  The 32 vector subcores' blocks of rows (`tileSet w`, `w < 32`) are pairwise disjoint and cover `ot`, and
  `(c, i) ↦ 2 i + c` numbers them without repetition, so `ot` is the union over the SparseCores `c` of `coreSet c`, each
  the disjoint union of its sixteen blocks. A read share splits into a remainder and one token per receiver; the one who
  splits keeps the remainder and joins it with the tokens when they come back.
-/
import proofs.«204002_g15616501088794_cont_week2b_169_25_alg».proof.Proof.KBCommon

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The blocks of rows -/

/-- `(c, i) ↦ 2 i + c` repeats no number. -/
theorem wid_inj {c c' : Fin 2} {i i' : Fin 16} (h : wid c i = wid c' i') : c = c' ∧ i = i' := by
  have h' := congrArg Fin.val h
  simp only [wid] at h'
  have := c.isLt; have := c'.isLt
  exact ⟨Fin.ext (by omega), Fin.ext (by omega)⟩

/-- Every number below 32 is some `2 i + c`. -/
theorem wid_surj (w : Fin 32) : ∃ (c : Fin 2) (i : Fin 16), wid c i = w :=
  ⟨⟨w.val % 2, Nat.mod_lt _ (by decide)⟩, ⟨w.val / 2, by have := w.isLt; omega⟩, Fin.ext (by simp only [wid]; omega)⟩

theorem tiles_disjoint (c : Fin 2) :
    ∀ i ∈ (Finset.univ : Finset (Fin 16)), ∀ j ∈ (Finset.univ : Finset (Fin 16)), i ≠ j → Disjoint (tileSet (wid c i)) (tileSet (wid c j)) :=
  fun _ _ _ _ h => Rect.part_disjoint hdiv32 fun e => h (wid_inj e).2

theorem cores_disjoint :
    ∀ c ∈ (Finset.univ : Finset (Fin 2)), ∀ c' ∈ (Finset.univ : Finset (Fin 2)), c ≠ c' → Disjoint (coreSet c) (coreSet c') := by
  intro c _ c' _ h
  refine (Finset.disjoint_biUnion_left _ _ _).mpr fun i _ => (Finset.disjoint_biUnion_right _ _ _).mpr fun j _ => ?_
  exact Rect.part_disjoint hdiv32 fun e => h (wid_inj e).1

theorem cores_cover : (Finset.univ : Finset (Fin 2)).biUnion coreSet = Finset.univ := by
  ext x
  simp only [Finset.mem_biUnion, Finset.mem_univ, true_and, iff_true]
  obtain ⟨w, hw⟩ := Rect.exists_mem_part hdiv32 x
  obtain ⟨c, i, e⟩ := wid_surj w
  exact ⟨c, i, e ▸ hw⟩

/-! ## `ot` among the SparseCores and among a SparseCore's vector subcores -/

theorem coreSet_pts (d : Dev nD) (c : Fin 2) (q : PosShare TreeShare) (f : Buf (Elt F) (otLoc d)) :
    (otLoc d ↦[coreSet c]{q} f : sProp 𝕄) = bigSep Finset.univ fun i : Fin 16 => otLoc d ↦[tileSet (wid c i)]{q} f := by
  rw [← pointsTo_biUnion Finset.univ (ℓ := otLoc d) (fun i : Fin 16 => tileSet (wid c i)) (tiles_disjoint c)]

theorem ot_cores (d : Dev nD) (f : Buf (Elt F) (otLoc d)) :
    (otLoc d ↦{fullShare} f : sProp 𝕄) = bigSep Finset.univ fun c : Fin 2 => otLoc d ↦[coreSet c]{fullShare} f := by
  rw [← pointsTo_biUnion Finset.univ (ℓ := otLoc d) coreSet cores_disjoint, cores_cover]

/-! ## Families over the call's own index types -/

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

variable (m : (ℓ : Loc nD τ sig) → Buf (Elt F) ℓ)
variable [FloatOps F]

/-! ## A SparseCore's operands among its vector subcores -/

/-- SparseCore `c` hands each vector subcore a token of each of its two read shares, keeping the remainders, and its own
    block of rows; when the blocks come back at `OT` it joins them, and the tokens with the remainders. -/
theorem core_split (d : Dev nD) (c : Fin 2) :
    coreRes m d c (m (otLoc d)) ⊢ |={Set.univ}=> iprop(
      (bigSep Finset.univ fun i : Fin 16 => tileRes m d c i (m (otLoc d)))
      ∗ ((bigSep Finset.univ fun i : Fin 16 => tileRes m d c i (OT m d)) -∗ coreRes m d c (OT m d))) := by
  show iprop((xtLoc d ↦{qC c} XT m d) ∗ (tbLoc d ↦{qC c} TB m d) ∗ otLoc d ↦[coreSet c]{fullShare} m (otLoc d)) ⊢ |={Set.univ}=> iprop(
      (bigSep Finset.univ fun i : Fin 16 =>
        iprop((xtLoc d ↦{qT c i} XT m d) ∗ (tbLoc d ↦{qT c i} TB m d) ∗ otLoc d ↦[tileSet (wid c i)]{fullShare} m (otLoc d)))
      ∗ ((bigSep Finset.univ fun i : Fin 16 =>
          iprop((xtLoc d ↦{qT c i} XT m d) ∗ (tbLoc d ↦{qT c i} TB m d) ∗ otLoc d ↦[tileSet (wid c i)]{fullShare} OT m d))
        -∗ iprop((xtLoc d ↦{qC c} XT m d) ∗ (tbLoc d ↦{qC c} TB m d) ∗ otLoc d ↦[coreSet c]{fullShare} OT m d)))
  rw [bigSep_sep', bigSep_sep', bigSep_sep', bigSep_sep', coreSet_pts, coreSet_pts]
  iintro ⟨Hx, Ht, Ho⟩
  ihave Hx' := (Transfers.pointsTo_toks_split (ℓ := xtLoc d) (S := Finset.univ) (f := XT m d) (qC c) 16) $$ Hx
  icases Hx' with ⟨HxR, HxT⟩
  ihave Ht' := (Transfers.pointsTo_toks_split (ℓ := tbLoc d) (S := Finset.univ) (f := TB m d) (qC c) 16) $$ Ht
  icases Ht' with ⟨HtR, HtT⟩
  imodintro
  isplitl [HxT HtT Ho]
  · isplitl [HxT]; · iexact HxT
    isplitl [HtT]; · iexact HtT
    iexact Ho
  iintro ⟨HxT, HtT, Ho⟩
  isplitl [HxR HxT]
  · iapply (Transfers.pointsTo_toks_join (ℓ := xtLoc d) (S := Finset.univ) (f := XT m d) (qC c) 16)
    isplitl [HxR]; · iexact HxR
    iexact HxT
  isplitl [HtR HtT]
  · iapply (Transfers.pointsTo_toks_join (ℓ := tbLoc d) (S := Finset.univ) (f := TB m d) (qC c) 16)
    isplitl [HtR]; · iexact HtR
    iexact HtT
  iexact Ho

theorem vecSplit : (K (F := F)).VecSplit' (P m) 0 := by
  intro d c
  show coreRes m d (Fin.cast nCore_zero c) (m (otLoc d)) ⊢ |={Set.univ}=> iprop(
      (bigSep Finset.univ fun i : Fin ((K (F := F)).nSub 0) => tileRes m d (Fin.cast nCore_zero c) (Fin.cast nSub_zero i) (m (otLoc d)))
      ∗ ((bigSep Finset.univ fun i : Fin ((K (F := F)).nSub 0) => tileRes m d (Fin.cast nCore_zero c) (Fin.cast nSub_zero i) (OT m d))
          -∗ coreRes m d (Fin.cast nCore_zero c) (OT m d)))
  rw [bigSep_tasks (F := F) (fun i => tileRes m d (Fin.cast nCore_zero c) i (m (otLoc d))),
    bigSep_tasks (F := F) (fun i => tileRes m d (Fin.cast nCore_zero c) i (OT m d))]
  exact core_split m d _

/-! ## What the call takes for the two SparseCores, and what it hands back -/

/-- The two SparseCores' operands together: the two tokens of each read share, and `ot` whole. -/
theorem cores_eq (d : Dev nD) (fo : Buf (Elt F) (otLoc d)) :
    (bigSep Finset.univ fun c : Fin 2 => coreRes m d c fo)
      = iprop((bigSep Finset.univ fun c : Fin 2 => xtLoc d ↦{qC c} XT m d) ∗ (bigSep Finset.univ fun c : Fin 2 => tbLoc d ↦{qC c} TB m d)
          ∗ otLoc d ↦{fullShare} fo) := by
  show (bigSep Finset.univ fun c : Fin 2 =>
      iprop((xtLoc d ↦{qC c} XT m d) ∗ (tbLoc d ↦{qC c} TB m d) ∗ otLoc d ↦[coreSet c]{fullShare} fo)) = _
  rw [bigSep_sep', bigSep_sep', ← ot_cores]

theorem st0_eq (d : Dev nD) :
    (bigSep Finset.univ fun c : Fin ((K (F := F)).nCore 0) => (P m).st 0 d c)
      = iprop((bigSep Finset.univ fun c : Fin 2 => xtLoc d ↦{qC c} XT m d) ∗ (bigSep Finset.univ fun c : Fin 2 => tbLoc d ↦{qC c} TB m d)
          ∗ otLoc d ↦{fullShare} m (otLoc d)) := by
  show (bigSep Finset.univ fun c : Fin ((K (F := F)).nCore 0) => coreRes m d (Fin.cast nCore_zero c) (m (otLoc d))) = _
  rw [bigSep_cores (F := F) (fun c => coreRes m d c (m (otLoc d))), cores_eq]

theorem dn0_eq (d : Dev nD) :
    (bigSep Finset.univ fun c : Fin ((K (F := F)).nCore 0) => (P m).dn 0 d c)
      = iprop((bigSep Finset.univ fun c : Fin 2 => xtLoc d ↦{qC c} XT m d) ∗ (bigSep Finset.univ fun c : Fin 2 => tbLoc d ↦{qC c} TB m d)
          ∗ otLoc d ↦{fullShare} OT m d) := by
  show (bigSep Finset.univ fun c : Fin ((K (F := F)).nCore 0) => coreRes m d (Fin.cast nCore_zero c) (OT m d)) = _
  rw [bigSep_cores (F := F) (fun c => coreRes m d c (OT m d)), cores_eq]

end Cert.Proof.KB

end
-- ==== Proof.KBLaunch.lean ====
/-
  The launch of the kernel's program: from the proof of one vector subcore's task to the run of all 35 threads.

  The TensorCore transposes the index array into `xt`, the tables into `t1`, flattens `t1` into `tb`, starts the two
  SparseCores and waits for them, and transposes what they leave in `ot`. Across the call it keeps the remainder of the
  read shares of `xt` and `tb` whose two tokens it hands out, and gives `ot` away whole; it gets the tokens back with
  `ot` at `OT`. No thread signals another outside the launch's own handshakes, so the ghost state is the handshakes'
  beside the transfers' counters, which the launch element drops.
-/
import proofs.«204002_g15616501088794_cont_week2b_169_25_alg».proof.Proof.KBSplit

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## The launch element: the handshakes' rounds; nothing of the kernel's own -/

def u₀ : UU := (initOf (K (F := F)).hsCells (K (F := F)).hsToks, 1)

theorem bigSep_emp' {I : Type} (s : Finset I) : (bigSep s fun _ => iprop(emp)) = (iprop(emp) : sProp 𝕄) := bigSep_emp_const s

section Launch

variable [FloatOps F]

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Launch

/-! ## @main's arrays and host operations -/

abbrev a0' : DevRef τ sig := Proc.devRef .tc (main_arg0 : Ref sig .tc)
abbrev a1' : DevRef τ sig := Proc.devRef .tc (main_arg1 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)

/-- The four host operations, as @main spells them. -/
abbrev opXT : HloOp τ sig (Elt F) :=
  StableHlo.unary main_arg0 main_v0 ((transpose S26x16384 [1, 0] · transposes_S16384x26_S26x16384_1_0) : (⟨S16384x26, .i32⟩ : BufTy).Contents (Elt F) → (⟨S26x16384, .i32⟩ : BufTy).Contents (Elt F))
abbrev opT1 : HloOp τ sig (Elt F) :=
  StableHlo.unary main_arg1 main_v1 ((transpose S26x32x100000 [0, 2, 1] · transposes_S26x100000x32_S26x32x100000_0_2_1) : (⟨S26x100000x32, .f32⟩ : BufTy).Contents (Elt F) → (⟨S26x32x100000, .f32⟩ : BufTy).Contents (Elt F))
abbrev opTB : HloOp τ sig (Elt F) := StableHlo.reshape main_v1 main_v2 rfl shapeCasts_S26x32x100000_S832x100000
abbrev opOU : HloOp τ sig (Elt F) :=
  StableHlo.unary main_v3 main_v4 ((transpose S16384x832 [1, 0] · transposes_S832x16384_S16384x832_1_0) : (⟨S832x16384, .f32⟩ : BufTy).Contents (Elt F) → (⟨S16384x832, .f32⟩ : BufTy).Contents (Elt F))

/-- The TensorCore's arrays, all unscoped. -/
abbrev S7 : Finset (DevRef τ sig) := {a0', a1', v0', v1', v2', v3', v4'}

theorem hXT : (opXT (F := F)).bufs ⊆ S7 := show ({a0', v0'} : Finset (DevRef τ sig)) ⊆ S7 by decide
theorem hT1 : (opT1 (F := F)).bufs ⊆ S7 := show ({a1', v1'} : Finset (DevRef τ sig)) ⊆ S7 by decide
theorem hTB : (opTB (F := F)).bufs ⊆ S7 := show ({v1', v2'} : Finset (DevRef τ sig)) ⊆ S7 by decide
theorem hOU : (opOU (F := F)).bufs ⊆ S7 := show ({v3', v4'} : Finset (DevRef τ sig)) ⊆ S7 by decide

theorem held_S7 (d : Dev nD) (W : Valuation τ sig (Elt F)) :
    (held (T d) S7 W : sProp 𝕄) = iprop((a0Loc d ↦{fullShare} W a0') ∗ (a1Loc d ↦{fullShare} W a1') ∗ (xtLoc d ↦{fullShare} W v0')
      ∗ (t1Loc d ↦{fullShare} W v1') ∗ (tbLoc d ↦{fullShare} W v2') ∗ (otLoc d ↦{fullShare} W v3') ∗ ouLoc d ↦{fullShare} W v4') := by
  unfold held S7
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

theorem unscopedBufs_eq (d : Dev nD) (W : (b : Ref sig .tc) → Buf (Elt F) ((d.tc : Thread nD τ).loc b)) :
    (unscopedBufs d W : sProp 𝕄) = iprop((a0Loc d ↦{fullShare} W main_arg0) ∗ (a1Loc d ↦{fullShare} W main_arg1) ∗ (xtLoc d ↦{fullShare} W main_v0)
      ∗ (t1Loc d ↦{fullShare} W main_v1) ∗ (tbLoc d ↦{fullShare} W main_v2) ∗ (otLoc d ↦{fullShare} W main_v3) ∗ ouLoc d ↦{fullShare} W main_v4) := by
  unfold unscopedBufs
  rw [show (Finset.univ.filter fun b : Ref sig .tc => ¬ b.isScoped) = {main_arg0, main_arg1, main_v0, main_v1, main_v2, main_v3, main_v4} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The arrays' contents: at the launch; after each of the three operations before the call; after the call, `ot` at
    `OT`; after the last transpose. -/
def V0 (d : Dev nD) : Valuation τ sig (Elt F) := fun b => m (d, b)
def V1 (d : Dev nD) : Valuation τ sig (Elt F) := (opXT (F := F)).result (V0 m d)
def V2 (d : Dev nD) : Valuation τ sig (Elt F) := (opT1 (F := F)).result (V1 m d)
def V3 (d : Dev nD) : Valuation τ sig (Elt F) := (opTB (F := F)).result (V2 m d)
def V4 (d : Dev nD) : Valuation τ sig (Elt F) := Function.update (V3 m d) v3' (OT m d)
def V5 (d : Dev nD) : Valuation τ sig (Elt F) := (opOU (F := F)).result (V4 m d)

theorem unscoped_held (d : Dev nD) : (unscopedBufs d (fun b => m ((SparseCore.T d).loc b)) : sProp 𝕄) = held (T d) S7 (V0 m d) := by
  rw [unscopedBufs_eq, held_S7]; rfl

theorem V3_a0 (d : Dev nD) : V3 m d a0' = m (a0Loc d) := by
  unfold V3 V2 V1
  rw [StableHlo.reshape_result_ne _ _ _ _ _ _ _ (show main_arg0 ≠ main_v2 by decide), StableHlo.unary_result_ne _ _ _ _ _ _ (show main_arg0 ≠ main_v1 by decide),
    StableHlo.unary_result_ne _ _ _ _ _ _ (show main_arg0 ≠ main_v0 by decide)]
  rfl
theorem V3_a1 (d : Dev nD) : V3 m d a1' = m (a1Loc d) := by
  unfold V3 V2 V1
  rw [StableHlo.reshape_result_ne _ _ _ _ _ _ _ (show main_arg1 ≠ main_v2 by decide), StableHlo.unary_result_ne _ _ _ _ _ _ (show main_arg1 ≠ main_v1 by decide),
    StableHlo.unary_result_ne _ _ _ _ _ _ (show main_arg1 ≠ main_v0 by decide)]
  rfl
theorem V3_v0 (d : Dev nD) : V3 m d v0' = XT m d := by
  unfold V3 V2 V1
  rw [StableHlo.reshape_result_ne _ _ _ _ _ _ _ (show main_v0 ≠ main_v2 by decide), StableHlo.unary_result_ne _ _ _ _ _ _ (show main_v0 ≠ main_v1 by decide),
    StableHlo.unary_result]
  rfl
theorem V2_v1 (d : Dev nD) : V2 m d v1' = T1 m d := by
  unfold V2 V1
  rw [StableHlo.unary_result, StableHlo.unary_result_ne _ _ _ _ _ _ (show main_arg1 ≠ main_v0 by decide)]
  rfl
theorem V3_v2 (d : Dev nD) : V3 m d v2' = TB m d := by
  unfold V3
  rw [StableHlo.reshape_result, V2_v1]
  rfl
theorem V3_v3 (d : Dev nD) : V3 m d v3' = m (otLoc d) := by
  unfold V3 V2 V1
  rw [StableHlo.reshape_result_ne _ _ _ _ _ _ _ (show main_v3 ≠ main_v2 by decide), StableHlo.unary_result_ne _ _ _ _ _ _ (show main_v3 ≠ main_v1 by decide),
    StableHlo.unary_result_ne _ _ _ _ _ _ (show main_v3 ≠ main_v0 by decide)]
  rfl

theorem V4_v3 (d : Dev nD) : V4 m d v3' = OT m d := Function.update_self _ _ _
theorem V4_ne (d : Dev nD) {b : DevRef τ sig} (h : b ≠ v3') : V4 m d b = V3 m d b := Function.update_of_ne h _ _

theorem V5_v4 (d : Dev nD) : V5 m d v4' = OU m d := by
  unfold V5
  rw [StableHlo.unary_result, V4_v3]
  rfl
theorem V5_a0 (d : Dev nD) : V5 m d a0' = m (a0Loc d) := by
  unfold V5
  rw [StableHlo.unary_result_ne _ _ _ _ _ _ (show main_arg0 ≠ main_v4 by decide), V4_ne m d (show a0' ≠ v3' by decide), V3_a0]
theorem V5_a1 (d : Dev nD) : V5 m d a1' = m (a1Loc d) := by
  unfold V5
  rw [StableHlo.unary_result_ne _ _ _ _ _ _ (show main_arg1 ≠ main_v4 by decide), V4_ne m d (show a1' ≠ v3' by decide), V3_a1]

/-- Before the call: `xt`, `tb` and `ot` hold what the call's payloads say. -/
theorem held_V3 (d : Dev nD) :
    (held (T d) S7 (V3 m d) : sProp 𝕄) = iprop((a0Loc d ↦{fullShare} V3 m d a0') ∗ (a1Loc d ↦{fullShare} V3 m d a1') ∗ (xtLoc d ↦{fullShare} XT m d)
      ∗ (t1Loc d ↦{fullShare} V3 m d v1') ∗ (tbLoc d ↦{fullShare} TB m d) ∗ (otLoc d ↦{fullShare} m (otLoc d)) ∗ ouLoc d ↦{fullShare} V3 m d v4') := by
  rw [held_S7, V3_v0, V3_v2, V3_v3]
theorem held_V3' (d : Dev nD) :
    (held (T d) S7 ((opTB (F := F)).result (V2 m d)) : sProp 𝕄) = iprop((a0Loc d ↦{fullShare} V3 m d a0') ∗ (a1Loc d ↦{fullShare} V3 m d a1') ∗ (xtLoc d ↦{fullShare} XT m d)
      ∗ (t1Loc d ↦{fullShare} V3 m d v1') ∗ (tbLoc d ↦{fullShare} TB m d) ∗ (otLoc d ↦{fullShare} m (otLoc d)) ∗ ouLoc d ↦{fullShare} V3 m d v4') :=
  held_V3 m d
/-- After it: the same with `ot` at `OT`. -/
theorem held_V4 (d : Dev nD) :
    (held (T d) S7 (V4 m d) : sProp 𝕄) = iprop((a0Loc d ↦{fullShare} V3 m d a0') ∗ (a1Loc d ↦{fullShare} V3 m d a1') ∗ (xtLoc d ↦{fullShare} XT m d)
      ∗ (t1Loc d ↦{fullShare} V3 m d v1') ∗ (tbLoc d ↦{fullShare} TB m d) ∗ (otLoc d ↦{fullShare} OT m d) ∗ ouLoc d ↦{fullShare} V3 m d v4') := by
  rw [held_S7, V4_v3, V4_ne m d (show a0' ≠ v3' by decide), V4_ne m d (show a1' ≠ v3' by decide), V4_ne m d (show v0' ≠ v3' by decide),
    V4_ne m d (show v1' ≠ v3' by decide), V4_ne m d (show v2' ≠ v3' by decide), V4_ne m d (show v4' ≠ v3' by decide), V3_v0, V3_v2]
/-- At the end: the arguments as launched, the result at `OU`. -/
theorem held_V5 (d : Dev nD) :
    (held (T d) S7 (V5 m d) : sProp 𝕄) = iprop((a0Loc d ↦{fullShare} m (a0Loc d)) ∗ (a1Loc d ↦{fullShare} m (a1Loc d)) ∗ (xtLoc d ↦{fullShare} V5 m d v0')
      ∗ (t1Loc d ↦{fullShare} V5 m d v1') ∗ (tbLoc d ↦{fullShare} V5 m d v2') ∗ (otLoc d ↦{fullShare} V5 m d v3') ∗ ouLoc d ↦{fullShare} OU m d) := by
  rw [held_S7, V5_a0, V5_a1, V5_v4]

theorem held_V5' (d : Dev nD) :
    (held (T d) S7 ((opOU (F := F)).result (V4 m d)) : sProp 𝕄) = iprop((a0Loc d ↦{fullShare} m (a0Loc d)) ∗ (a1Loc d ↦{fullShare} m (a1Loc d)) ∗ (xtLoc d ↦{fullShare} V5 m d v0')
      ∗ (t1Loc d ↦{fullShare} V5 m d v1') ∗ (tbLoc d ↦{fullShare} V5 m d v2') ∗ (otLoc d ↦{fullShare} V5 m d v3') ∗ ouLoc d ↦{fullShare} OU m d) :=
  held_V5 m d

/-! ## @main on the TensorCore -/

section Main

variable [FloatOps F]

/-- What @main leaves the claim: the arguments at their launch contents, the result at `OU`. -/
abbrev FIN (d : Dev nD) : sProp 𝕄 :=
  iprop((a0Loc d ↦{fullShare} m (a0Loc d)) ∗ (a1Loc d ↦{fullShare} m (a1Loc d)) ∗ ouLoc d ↦{fullShare} OU m d)

/-- @main on device `d`'s TensorCore: the three operations before the call (the seven arrays held whole), the call (the
    tokens of `xt` and `tb` and the whole of `ot` out, the same back with `ot` at `OT`), the last transpose. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the index array transposed
  iapply (wp_hlo_within 𝒱 (SparseCore.T d) none Set.univ (op := opXT) (S := S7) hXT (V := V0 m d)) $$ [Hb Hheld]
  · isplitl [Hb]; · iexact Hb
    iexact Hheld
  iintro ⟨Hb, Hheld⟩
  rw [wp_ret]; imodintro
  -- the tables transposed
  iapply (wp_hlo_within 𝒱 (SparseCore.T d) none Set.univ (op := opT1) (S := S7) hT1 (V := V1 m d)) $$ [Hb Hheld]
  · isplitl [Hb]; · iexact Hb
    iexact Hheld
  iintro ⟨Hb, Hheld⟩
  rw [wp_ret]; imodintro
  -- and flattened
  iapply (wp_hlo_within 𝒱 (SparseCore.T d) none Set.univ (op := opTB) (S := S7) hTB (V := V2 m d)) $$ [Hb Hheld]
  · isplitl [Hb]; · iexact Hb
    iexact Hheld
  iintro ⟨Hb, Hheld⟩
  rw [wp_ret]; imodintro
  ihave Hh := (Entails.of_eq (held_V3' m d)) $$ Hheld
  icases Hh with ⟨Ha0, Ha1, Hxt, Ht1, Htb, Hot, Hou⟩
  -- the call: two tokens of each read share out, the remainders kept; `ot` out whole
  ihave Hx := (Transfers.pointsTo_toks_split (ℓ := xtLoc d) (S := Finset.univ) (f := XT m d) fullShare 2) $$ Hxt
  icases Hx with ⟨HxR, HxT⟩
  ihave Ht := (Transfers.pointsTo_toks_split (ℓ := tbLoc d) (S := Finset.univ) (f := TB m d) fullShare 2) $$ Htb
  icases Ht with ⟨HtR, HtT⟩
  iapply ((K (F := F)).wp_run (D (F := F)) 𝒱 (EH := EH) (P := P m) κ d 0) $$ [Hst HxT HtT Hot Hb Ha0 Ha1 Ht1 Hou HxR HtR]
  isplitr; · iexact Hctx
  isplitl [Hst]; · iexact Hst
  isplitl [HxT HtT Hot]
  · rw [st0_eq]
    isplitl [HxT]; · iexact HxT
    isplitl [HtT]; · iexact HtT
    iexact Hot
  iintro ⟨Hst, Hdn⟩
  ihave Hdn' := (Entails.of_eq (dn0_eq m d)) $$ Hdn
  icases Hdn' with ⟨HxT, HtT, Hot⟩
  ihave Hxt := (Transfers.pointsTo_toks_join (ℓ := xtLoc d) (S := Finset.univ) (f := XT m d) fullShare 2) $$ [HxR HxT]
  · isplitl [HxR]; · iexact HxR
    iexact HxT
  ihave Htb := (Transfers.pointsTo_toks_join (ℓ := tbLoc d) (S := Finset.univ) (f := TB m d) fullShare 2) $$ [HtR HtT]
  · isplitl [HtR]; · iexact HtR
    iexact HtT
  -- the last transpose
  iapply (wp_hlo_within 𝒱 (SparseCore.T d) none Set.univ (op := opOU) (S := S7) hOU (V := V4 m d)) $$ [Hb Ha0 Ha1 Hxt Ht1 Htb Hot Hou]
  · isplitl [Hb]; · iexact Hb
    rw [held_V4]
    isplitl [Ha0]; · iexact Ha0
    isplitl [Ha1]; · iexact Ha1
    isplitl [Hxt]; · iexact Hxt
    isplitl [Ht1]; · iexact Ht1
    isplitl [Htb]; · iexact Htb
    isplitl [Hot]; · iexact Hot
    iexact Hou
  iintro ⟨Hb, Hheld⟩
  ihave Hh := (Entails.of_eq (held_V5' m d)) $$ Hheld
  icases Hh with ⟨Ha0, Ha1, -, -, -, -, Hou⟩
  rw [wp_ret]; imodintro; imodintro
  isplitl [Hst]; · iexact Hst
  isplitl [Ha0]; · iexact Ha0
  isplitl [Ha1]; · iexact Ha1
  iexact Hou

/-! ## What the final memory says -/

def fq (d : Dev nD) (s' : Phys nD τ sig (Elt F)) : Prop :=
  s'.mem.mem (ouLoc d) = OU m d ∧ s'.mem.mem (a0Loc d) = m (a0Loc d) ∧ s'.mem.mem (a1Loc d) = m (a1Loc d)

theorem hfin (d : Dev nD) (s' : Phys nD τ sig (Elt F)) : iprop(FIN m d ∗ SI s') ⊢ (⌜fq m d s'⌝ : sProp 𝕄) := by
  iintro ⟨⟨Ha0, Ha1, Hou⟩, HSI⟩
  ihave H := (persistent_entails_right (SI_pointsTo_agree (st := s') (ℓ := a0Loc d) (I := Finset.univ) (q := fullShare) (f := m (a0Loc d)))) $$ [HSI Ha0]
  · isplitl [HSI] <;> iassumption
  icases H with ⟨%h0, HSI, -⟩
  ihave H := (persistent_entails_right (SI_pointsTo_agree (st := s') (ℓ := a1Loc d) (I := Finset.univ) (q := fullShare) (f := m (a1Loc d)))) $$ [HSI Ha1]
  · isplitl [HSI] <;> iassumption
  icases H with ⟨%h1, HSI, -⟩
  ihave H := (SI_pointsTo_agree (st := s') (ℓ := ouLoc d) (I := Finset.univ) (q := fullShare) (f := OU m d)) $$ [HSI Hou]
  · isplitl [HSI] <;> iassumption
  icases H with %h2
  ipureintro
  exact ⟨funext fun i => h2 i (Finset.mem_univ i), funext fun i => h0 i (Finset.mem_univ i), funext fun i => h1 i (Finset.mem_univ i)⟩

/-! ## The program's run -/

def QC : PUnit × MemSt nD τ sig (Elt F) → Prop :=
  fun r => ∀ c : Dev nD, r.2.mem (ouLoc c) = OU m c ∧ r.2.mem (a0Loc c) = m (a0Loc c) ∧ r.2.mem (a1Loc c) = m (a1Loc c)

/-- From the proof of one vector subcore's task: every weakly fair execution of the device's threads ends, the result at
    `OU`, the arguments as launched. The call is a vector-subcore kernel, so there is no sequencer kernel to prove. -/
theorem run_main [∀ e, Nonempty (Elt F e)] (htile : (K (F := F)).TileObl (D (F := F)) 𝒱 (P m) v₀ 0) :
    θ_run (Cert.Kernel.defs (F := F)) (Cert.Kernel.threads (F := F)) ⟨m, fun _ => 0, ρ⟩
      (fun r => ∀ c : Dev nD, r.2.mem (ouLoc c) = OU m c ∧ r.2.mem (a0Loc c) = m (a0Loc c) ∧ r.2.mem (a1Loc c) = m (a1Loc c)) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Main

end Cert.Proof.KB

end
-- ==== Proof.KBFacts.lean ====
/-
  Arithmetic of one vector subcore's work: which output column trip `k` fills, which field's index row it needs,
  when that row is fetched afresh, and which rows of an array a placed one-row window reads.
-/
import proofs.«204002_g15616501088794_cont_week2b_169_25_alg».proof.Proof.KBCommon

noncomputable section

namespace Cert.Proof.KB

open Cert.Kernel Cert.Kernel.Gen
open Idealize.ShloMosaic Idealize.ShloMosaic.ValueIdx

/-- The output column the subcore at `L` fills in trip `k`: `26 (2 s + c) + k`. -/
def uOf (L : grid0.Coords) (k : ℕ) : ℕ := 52 * (L 1).val + 26 * (L 0).val + k

theorem L0_lt (L : grid0.Coords) : (L 0).val < 2 := (L 0).isLt
theorem L1_lt (L : grid0.Coords) : (L 1).val < 16 := (L 1).isLt
theorem uOf_lt (L : grid0.Coords) {k : ℕ} (hk : k < 26) : uOf L k < 832 := by
  unfold uOf; have := L0_lt L; have := L1_lt L; omega

theorem trips1 : k0_t1_loop.trips = 26 := by decide
theorem trips2 : k0_t2_loop.trips = 256 := by decide
theorem trips3 : k0_t3_loop.trips = 256 := by decide
theorem trips4 : k0_t4_loop.trips = 256 := by decide
theorem trips5 : k0_t5_loop.trips = 256 := by decide

theorem coords_eta (L : grid0.Coords) : L = coordsV (L 0) (L 1) := by
  funext a; match a with | ⟨0, _⟩ => rfl | ⟨1, _⟩ => rfl

/-- The index row is fetched in the first trip and whenever the column starts a new field. -/
theorem cond1_iff' : ∀ (c : Fin (grid0.bound 0)) (s : Fin (grid0.bound 1)) (k : Fin k0_t1_loop.trips),
    k0_cond1 (coordsV c s) k = 1#1 ↔ (k.val = 0 ∨ (52 * s.val + 26 * c.val + k.val) % 32 = 0) := by decide +kernel
theorem cond1_iff (L : grid0.Coords) (k : Fin k0_t1_loop.trips) :
    k0_cond1 L k = 1#1 ↔ (k.val = 0 ∨ uOf L k.val % 32 = 0) := by
  rw [coords_eta L]; exact cond1_iff' _ _ _

/-- The row fetched is the column's field, `u / 32`. -/
theorem off2_zero' : ∀ (c : Fin (grid0.bound 0)) (s : Fin (grid0.bound 1)) (k : Fin k0_t1_loop.trips),
    k0_off2 (coordsV c s) k 0 = (52 * s.val + 26 * c.val + k.val) / 32 := by decide +kernel
theorem off2_zero (L : grid0.Coords) (k : Fin k0_t1_loop.trips) : k0_off2 L k 0 = uOf L k.val / 32 := by
  rw [coords_eta L]; exact off2_zero' _ _ _
theorem off2_one (L : grid0.Coords) (k : Fin k0_t1_loop.trips) : k0_off2 L k 1 = 0 := rfl

/-- A trip after the first waits for the previous trip's last two copies. -/
theorem later_iff : ∀ k : Fin k0_t1_loop.trips,
    Scalar.cmpi .ne (Scalar.extui (Scalar.cmpi .sgt (Scf.iv 0#32 1#32 k) 0#32) : BitVec 32) 0#32 = 1#1 ↔ k.val ≠ 0 := by decide +kernel

end Cert.Proof.KB

end
-- ==== Proof.KBBase.lean ====
/-
  One vector subcore's view of the kernel: its thread, its four scratch buffers and four DMA semaphores among the
  storage it is handed, and the windows of the three arrays its copies name, spelt as the program spells them:
  row `u` of the flattened tables, row `u / 32` of the transposed indices, and the four quarters of row `u` of the
  result.
-/
import proofs.«204002_g15616501088794_cont_week2b_169_25_alg».proof.Proof.KBFacts

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xtM" => (Memref.whole Cert.Kernel.main_v0_scv : Memref Cert.Kernel.sig Kind.scVector Space.hbm Cert.Kernel.S26x16384 EltTy.i32)
local notation "tbM" => (Memref.whole Cert.Kernel.main_v2_scv : Memref Cert.Kernel.sig Kind.scVector Space.hbm Cert.Kernel.S832x100000 EltTy.f32)
local notation "otM" => (Memref.whole Cert.Kernel.main_v3_scv : Memref Cert.Kernel.sig Kind.scVector Space.hbm Cert.Kernel.S832x16384 EltTy.f32)
local notation "vecM" => (Memref.whole Cert.Kernel.cc0_scratch0 : Memref Cert.Kernel.sig Kind.scVector Space.vmem Cert.Kernel.S100000 EltTy.f32)
local notation "xrM" => (Memref.whole Cert.Kernel.cc0_scratch1 : Memref Cert.Kernel.sig Kind.scVector Space.vmem Cert.Kernel.S16384 EltTy.i32)
local notation "oq0M" => (Memref.whole Cert.Kernel.cc0_scratch2 : Memref Cert.Kernel.sig Kind.scVector Space.vmem Cert.Kernel.S4096 EltTy.f32)
local notation "oq1M" => (Memref.whole Cert.Kernel.cc0_scratch3 : Memref Cert.Kernel.sig Kind.scVector Space.vmem Cert.Kernel.S4096 EltTy.f32)

section Tile
variable (d : Dev nD) (L : grid0.Coords)

/-- The vector subcore at coordinates `L`, as a thread of device `d`. -/
abbrev thr : Thread nD τ := V d (cV L) (jV L)

/-- Its semaphores: the table row's, the two staging buffers', the index row's. -/
abbrev vCell : GSem nD τ sig := (thr d L, .dma cc0_scratch4.sem)
abbrev o0Cell : GSem nD τ sig := (thr d L, .dma cc0_scratch5.sem)
abbrev o1Cell : GSem nD τ sig := (thr d L, .dma cc0_scratch6.sem)
abbrev xCell : GSem nD τ sig := (thr d L, .dma cc0_scoped0.sem)

theorem ownSems0_V :
    (ownSems0 (thr d L) : sProp 𝕄)
      = iprop(semVal (vCell d L) 0 ∗ semVal (o0Cell d L) 0 ∗ semVal (o1Cell d L) 0 ∗ semVal (xCell d L) 0
          ∗ bigSep (((((ownCells (thr d L)).erase (vCell d L)).erase (o0Cell d L)).erase (o1Cell d L)).erase (xCell d L)) fun g => semVal g 0) := by
  unfold SparseCore.Cfg.ownSems0
  rw [SparseCore.bigSep_erase' ((mem_ownCells (g := vCell d L)).mpr ⟨rfl, by
      show (SemLoc.dma cc0_scratch4.sem : SemLoc sig).isScoped .scVector = true; decide⟩),
    SparseCore.bigSep_erase' (Finset.mem_erase.mpr ⟨by simp [vCell, o0Cell]; decide, (mem_ownCells (g := o0Cell d L)).mpr ⟨rfl, by
      show (SemLoc.dma cc0_scratch5.sem : SemLoc sig).isScoped .scVector = true; decide⟩⟩),
    SparseCore.bigSep_erase' (Finset.mem_erase.mpr ⟨by simp [o0Cell, o1Cell]; decide, Finset.mem_erase.mpr ⟨by simp [vCell, o1Cell]; decide,
      (mem_ownCells (g := o1Cell d L)).mpr ⟨rfl, by show (SemLoc.dma cc0_scratch6.sem : SemLoc sig).isScoped .scVector = true; decide⟩⟩⟩),
    SparseCore.bigSep_erase' (Finset.mem_erase.mpr ⟨by simp [o1Cell, xCell]; decide, Finset.mem_erase.mpr ⟨by simp [o0Cell, xCell]; decide,
      Finset.mem_erase.mpr ⟨by simp [vCell, xCell]; decide,
      (mem_ownCells (g := xCell d L)).mpr ⟨rfl, by show (SemLoc.dma cc0_scoped0.sem : SemLoc sig).isScoped .scVector = true; decide⟩⟩⟩⟩)]

theorem ownBufs_V :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f) ∗ (∃ f, (thr d L).loc cc0_scratch3 ↦{fullShare} f)
          ∗ bigSep (((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2)).erase
              ((Proc.scVector (cV L) (jV L)).devRef cc0_scratch3))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩),
    SparseCore.bigSep_erase' (Finset.mem_erase.mpr ⟨fun e => absurd (Proc.devRef_injective _ e) (show (cc0_scratch3 : Ref sig .scVector) ≠ cc0_scratch2 by decide),
      Finset.mem_erase.mpr ⟨fun e => absurd (Proc.devRef_injective _ e) (show (cc0_scratch3 : Ref sig .scVector) ≠ cc0_scratch1 by decide),
      Finset.mem_erase.mpr ⟨fun e => absurd (Proc.devRef_injective _ e) (show (cc0_scratch3 : Ref sig .scVector) ≠ cc0_scratch0 by decide),
    SparseCore.Cfg.mem_ownRefs_of_owner (p := Proc.scVector (cV L) (jV L)) (b := (Proc.scVector (cV L) (jV L)).devRef cc0_scratch3) rfl⟩⟩⟩)]

/-- Row `u` of the flattened tables, the row trip `k` copies into the subcore's table scratch. -/
abbrev rowM (k : Fin k0_t1_loop.trips) : Memref sig .scVector .hbm S100000 .f32 :=
  ((tbM).slice (Rect.unit (s := S832x100000) (k0_off1 L k) S1x100000.size (k0_off1_inb L k)) (fun _ => rfl)).squeeze S100000 squeezes_S1x100000_S100000
/-- Row `u / 32` of the transposed indices, copied when the field changes. -/
abbrev xsrcM (k : Fin k0_t1_loop.trips) (h : k0_cond1 L k = 1#1) : Memref sig .scVector .hbm S16384 .i32 :=
  ((xtM).slice (Rect.unit (s := S26x16384) (k0_off2 L k) S1x16384.size (k0_off2_inb L k h)) (fun _ => rfl)).squeeze S16384 squeezes_S1x16384_S16384
/-- The four quarters of row `u` of the result. -/
abbrev ch0M (k : Fin k0_t1_loop.trips) : Memref sig .scVector .hbm S4096 .f32 :=
  ((otM).slice (Rect.unit (s := S832x16384) (k0_off5 L k) S1x4096.size (k0_off5_inb L k)) (fun _ => rfl)).squeeze S4096 squeezes_S1x4096_S4096
abbrev ch1M (k : Fin k0_t1_loop.trips) : Memref sig .scVector .hbm S4096 .f32 :=
  ((otM).slice (Rect.unit (s := S832x16384) (k0_off8 L k) S1x4096.size (k0_off8_inb L k)) (fun _ => rfl)).squeeze S4096 squeezes_S1x4096_S4096
abbrev ch2M (k : Fin k0_t1_loop.trips) : Memref sig .scVector .hbm S4096 .f32 :=
  ((otM).slice (Rect.unit (s := S832x16384) (k0_off11 L k) S1x4096.size (k0_off11_inb L k)) (fun _ => rfl)).squeeze S4096 squeezes_S1x4096_S4096
abbrev ch3M (k : Fin k0_t1_loop.trips) : Memref sig .scVector .hbm S4096 .f32 :=
  ((otM).slice (Rect.unit (s := S832x16384) (k0_off14 L k) S1x4096.size (k0_off14_inb L k)) (fun _ => rfl)).squeeze S4096 squeezes_S1x4096_S4096

/-- The trip number as the loop's own index type. -/
def kF (k : ℕ) (hk : k < 26) : Fin k0_t1_loop.trips := ⟨k, by rw [trips1]; exact hk⟩

/-! ## Element sets of `ot`, by coordinates -/

/-- Quarter `q` of row `u`. -/
def chunkN (u q : ℕ) : Finset S832x16384.Idx :=
  Finset.univ.filter fun x => (x 0).val = u ∧ 4096 * q ≤ (x 1).val ∧ (x 1).val < 4096 * (q + 1)
/-- Row `u`. -/
def rowN (u : ℕ) : Finset S832x16384.Idx := Finset.univ.filter fun x => (x 0).val = u
/-- The subcore's rows not yet begun before trip `k`. -/
def freshSet (k : ℕ) : Finset S832x16384.Idx :=
  Finset.univ.filter fun x => uOf L k ≤ (x 0).val ∧ (x 0).val < uOf L 26
/-- What of the subcore's rows is finished and back in its hands before trip `k`: the rows before `k`, less the last
    two quarters of row `k - 1`, whose copies are still in flight. -/
def doneSet (k : ℕ) : Finset S832x16384.Idx :=
  Finset.univ.filter fun x => uOf L 0 ≤ (x 0).val ∧ (x 0).val < uOf L k ∧ ((x 0).val + 1 = uOf L k → (x 1).val < 8192)

end Tile

end Cert.Proof.KB

end
-- ==== Proof.KBSets.lean ====
/-
  The element sets of the result array `ot` a vector subcore's loop moves through, as identities between finite
  sets of indices.

  The subcore at `L` owns rows `uOf L 0 … uOf L 0 + 25`, one per trip. Row `u` is four quarters of 4096 columns.
  Before trip `k` the rows from `uOf L k` on are untouched (`freshSet`), and the rows before it are finished but for
  the last two quarters of row `uOf L (k - 1)`, whose copies are still in flight (`doneSet`). Every identity below
  is a statement about the two coordinates of an index and is closed by linear arithmetic.
-/
import proofs.«204002_g15616501088794_cont_week2b_169_25_alg».proof.Proof.KBBase

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "xtM" => (Memref.whole Cert.Kernel.main_v0_scv : Memref Cert.Kernel.sig Kind.scVector Space.hbm Cert.Kernel.S26x16384 EltTy.i32)
local notation "tbM" => (Memref.whole Cert.Kernel.main_v2_scv : Memref Cert.Kernel.sig Kind.scVector Space.hbm Cert.Kernel.S832x100000 EltTy.f32)
local notation "otM" => (Memref.whole Cert.Kernel.main_v3_scv : Memref Cert.Kernel.sig Kind.scVector Space.hbm Cert.Kernel.S832x16384 EltTy.f32)
local notation "vecM" => (Memref.whole Cert.Kernel.cc0_scratch0 : Memref Cert.Kernel.sig Kind.scVector Space.vmem Cert.Kernel.S100000 EltTy.f32)
local notation "xrM" => (Memref.whole Cert.Kernel.cc0_scratch1 : Memref Cert.Kernel.sig Kind.scVector Space.vmem Cert.Kernel.S16384 EltTy.i32)
local notation "oq0M" => (Memref.whole Cert.Kernel.cc0_scratch2 : Memref Cert.Kernel.sig Kind.scVector Space.vmem Cert.Kernel.S4096 EltTy.f32)
local notation "oq1M" => (Memref.whole Cert.Kernel.cc0_scratch3 : Memref Cert.Kernel.sig Kind.scVector Space.vmem Cert.Kernel.S4096 EltTy.f32)

section Sets
variable (L : grid0.Coords)

/-! ## Membership, by coordinates -/

theorem mem_chunkN (u q : ℕ) (x : S832x16384.Idx) :
    x ∈ chunkN u q ↔ (x 0).val = u ∧ 4096 * q ≤ (x 1).val ∧ (x 1).val < 4096 * (q + 1) := by
  simp only [chunkN, Finset.mem_filter, Finset.mem_univ, true_and]
theorem mem_rowN (u : ℕ) (x : S832x16384.Idx) : x ∈ rowN u ↔ (x 0).val = u := by
  simp only [rowN, Finset.mem_filter, Finset.mem_univ, true_and]
theorem mem_freshSet (k : ℕ) (x : S832x16384.Idx) :
    x ∈ freshSet L k ↔ uOf L k ≤ (x 0).val ∧ (x 0).val < uOf L 26 := by
  simp only [freshSet, Finset.mem_filter, Finset.mem_univ, true_and]
theorem mem_doneSet (k : ℕ) (x : S832x16384.Idx) :
    x ∈ doneSet L k ↔ uOf L 0 ≤ (x 0).val ∧ (x 0).val < uOf L k ∧ ((x 0).val + 1 = uOf L k → (x 1).val < 8192) := by
  simp only [doneSet, Finset.mem_filter, Finset.mem_univ, true_and]

/-- A subcore's tile of `ot`: the 26 rows from `26 w`. -/
theorem mem_tileSet (w : Fin 32) (x : S832x16384.Idx) :
    x ∈ tileSet w ↔ 26 * w.val ≤ (x 0).val ∧ (x 0).val < 26 * w.val + 26 := by
  have := idx2_lt1 x
  rw [Rect.mem_set_unit]
  constructor
  · intro h
    have h0 : w.val * 26 ≤ (x 0).val ∧ (x 0).val < w.val * 26 + 26 := h 0
    omega
  · intro h a
    by_cases ha : a = 0
    · subst ha
      exact (show w.val * 26 ≤ (x 0).val ∧ (x 0).val < w.val * 26 + 26 from by omega)
    · unfold Shape.partIx Shape.partSize
      simp only [ha, ↓reduceIte, Nat.zero_mul, Nat.zero_add]
      exact ⟨Nat.zero_le _, (x a).isLt⟩

/-- A one-row window of 4096 columns placed at `(u, c)`. -/
theorem mem_unit_row (off : Fin 2 → ℕ) (inb : ∀ a, off a + S1x4096.size a ≤ S832x16384.size a) (u c : ℕ) (hoff : off = ![u, c])
    (x : S832x16384.Idx) :
    x ∈ (Rect.unit (s := S832x16384) off S1x4096.size inb).set ↔ (x 0).val = u ∧ c ≤ (x 1).val ∧ (x 1).val < c + 4096 := by
  subst hoff
  rw [Rect.mem_set_unit]
  constructor
  · intro h
    have h0 : u ≤ (x 0).val ∧ (x 0).val < u + 1 := h 0
    have h1 : c ≤ (x 1).val ∧ (x 1).val < c + 4096 := h 1
    omega
  · intro h a
    match a with
    | ⟨0, _⟩ => exact (show u ≤ (x 0).val ∧ (x 0).val < u + 1 from by omega)
    | ⟨1, _⟩ => exact (show c ≤ (x 1).val ∧ (x 1).val < c + 4096 from by omega)

/-! ## The subcore's tile and its rows -/

/-- The tile the launch hands the subcore is its 26 rows, all untouched. -/
theorem tileSet_eq : tileSet (wid (cL L) (jL L)) = freshSet L 0 := by
  ext x
  rw [mem_tileSet, mem_freshSet]
  have e : (wid (cL L) (jL L)).val = 2 * (L 1).val + (L 0).val := rfl
  rw [e]
  unfold uOf
  omega

theorem freshSet_end  : freshSet L 26 = ∅ := by
  refine Finset.eq_empty_iff_forall_notMem.mpr fun x hx => ?_
  simp only [mem_chunkN, mem_rowN, mem_freshSet, mem_doneSet, Finset.mem_union, uOf] at hx
  omega

theorem doneSet_zero  : doneSet L 0 = ∅ := by
  refine Finset.eq_empty_iff_forall_notMem.mpr fun x hx => ?_
  simp only [mem_chunkN, mem_rowN, mem_freshSet, mem_doneSet, Finset.mem_union, uOf] at hx
  omega

theorem freshSet_succ (k : ℕ) (hk : k < 26) : freshSet L k = rowN (uOf L k) ∪ freshSet L (k + 1) := by
  ext x
  have := idx2_lt0 x; have := idx2_lt1 x
  simp only [mem_chunkN, mem_rowN, mem_freshSet, mem_doneSet, Finset.mem_union, uOf]
  omega

theorem freshSet_succ_disj (k : ℕ) : Disjoint (rowN (uOf L k)) (freshSet L (k + 1)) := by
  refine Finset.disjoint_left.mpr fun x h1 h2 => ?_
  have := idx2_lt0 x; have := idx2_lt1 x
  simp only [mem_chunkN, mem_rowN, mem_freshSet, mem_doneSet, Finset.mem_union, uOf] at h1 h2
  omega

/-! ## A row is its four quarters -/

theorem rowN_eq (u : ℕ) : rowN u = ((chunkN u 0 ∪ chunkN u 1) ∪ chunkN u 2) ∪ chunkN u 3 := by
  ext x
  have := idx2_lt0 x; have := idx2_lt1 x
  simp only [mem_chunkN, mem_rowN, mem_freshSet, mem_doneSet, Finset.mem_union, uOf]
  omega

theorem chunk_disj01 (u : ℕ) : Disjoint (chunkN u 0) (chunkN u 1) := by
  refine Finset.disjoint_left.mpr fun x h1 h2 => ?_
  have := idx2_lt0 x; have := idx2_lt1 x
  simp only [mem_chunkN, mem_rowN, mem_freshSet, mem_doneSet, Finset.mem_union, uOf] at h1 h2
  omega

theorem chunk_disj012 (u : ℕ) : Disjoint (chunkN u 0 ∪ chunkN u 1) (chunkN u 2) := by
  refine Finset.disjoint_left.mpr fun x h1 h2 => ?_
  have := idx2_lt0 x; have := idx2_lt1 x
  simp only [mem_chunkN, mem_rowN, mem_freshSet, mem_doneSet, Finset.mem_union, uOf] at h1 h2
  omega

theorem chunk_disj0123 (u : ℕ) : Disjoint ((chunkN u 0 ∪ chunkN u 1) ∪ chunkN u 2) (chunkN u 3) := by
  refine Finset.disjoint_left.mpr fun x h1 h2 => ?_
  have := idx2_lt0 x; have := idx2_lt1 x
  simp only [mem_chunkN, mem_rowN, mem_freshSet, mem_doneSet, Finset.mem_union, uOf] at h1 h2
  omega

/-! ## What is finished before each trip -/

theorem doneSet_one  : doneSet L 1 = chunkN (uOf L 0) 0 ∪ chunkN (uOf L 0) 1 := by
  ext x
  have := idx2_lt0 x; have := idx2_lt1 x
  simp only [mem_chunkN, mem_rowN, mem_freshSet, mem_doneSet, Finset.mem_union, uOf]
  omega

theorem doneSet_succ (k : ℕ) (hk : 0 < k) : doneSet L (k + 1) = (((doneSet L k ∪ chunkN (uOf L (k - 1)) 2) ∪ chunkN (uOf L (k - 1)) 3) ∪ chunkN (uOf L k) 0) ∪ chunkN (uOf L k) 1 := by
  ext x
  have := idx2_lt0 x; have := idx2_lt1 x
  simp only [mem_chunkN, mem_rowN, mem_freshSet, mem_doneSet, Finset.mem_union, uOf]
  omega

theorem doneSet_succ_d1 (k : ℕ) (hk : 0 < k) : Disjoint (doneSet L k) (chunkN (uOf L (k - 1)) 2) := by
  refine Finset.disjoint_left.mpr fun x h1 h2 => ?_
  have := idx2_lt0 x; have := idx2_lt1 x
  simp only [mem_chunkN, mem_rowN, mem_freshSet, mem_doneSet, Finset.mem_union, uOf] at h1 h2
  omega

theorem doneSet_succ_d2 (k : ℕ) (hk : 0 < k) : Disjoint (doneSet L k ∪ chunkN (uOf L (k - 1)) 2) (chunkN (uOf L (k - 1)) 3) := by
  refine Finset.disjoint_left.mpr fun x h1 h2 => ?_
  have := idx2_lt0 x; have := idx2_lt1 x
  simp only [mem_chunkN, mem_rowN, mem_freshSet, mem_doneSet, Finset.mem_union, uOf] at h1 h2
  omega

theorem doneSet_succ_d3 (k : ℕ) (hk : 0 < k) : Disjoint ((doneSet L k ∪ chunkN (uOf L (k - 1)) 2) ∪ chunkN (uOf L (k - 1)) 3) (chunkN (uOf L k) 0) := by
  refine Finset.disjoint_left.mpr fun x h1 h2 => ?_
  have := idx2_lt0 x; have := idx2_lt1 x
  simp only [mem_chunkN, mem_rowN, mem_freshSet, mem_doneSet, Finset.mem_union, uOf] at h1 h2
  omega

theorem doneSet_succ_d4 (k : ℕ) (hk : 0 < k) : Disjoint (((doneSet L k ∪ chunkN (uOf L (k - 1)) 2) ∪ chunkN (uOf L (k - 1)) 3) ∪ chunkN (uOf L k) 0) (chunkN (uOf L k) 1) := by
  refine Finset.disjoint_left.mpr fun x h1 h2 => ?_
  have := idx2_lt0 x; have := idx2_lt1 x
  simp only [mem_chunkN, mem_rowN, mem_freshSet, mem_doneSet, Finset.mem_union, uOf] at h1 h2
  omega

/-- After the last trip the tile is what is finished and the last row's two quarters in flight. -/
theorem tile_final  : freshSet L 0 = (doneSet L 26 ∪ chunkN (uOf L 25) 2) ∪ chunkN (uOf L 25) 3 := by
  ext x
  have := idx2_lt0 x; have := idx2_lt1 x
  simp only [mem_chunkN, mem_rowN, mem_freshSet, mem_doneSet, Finset.mem_union, uOf]
  omega

theorem tile_final_d1  : Disjoint (doneSet L 26) (chunkN (uOf L 25) 2) := by
  refine Finset.disjoint_left.mpr fun x h1 h2 => ?_
  have := idx2_lt0 x; have := idx2_lt1 x
  simp only [mem_chunkN, mem_rowN, mem_freshSet, mem_doneSet, Finset.mem_union, uOf] at h1 h2
  omega

theorem tile_final_d2  : Disjoint (doneSet L 26 ∪ chunkN (uOf L 25) 2) (chunkN (uOf L 25) 3) := by
  refine Finset.disjoint_left.mpr fun x h1 h2 => ?_
  have := idx2_lt0 x; have := idx2_lt1 x
  simp only [mem_chunkN, mem_rowN, mem_freshSet, mem_doneSet, Finset.mem_union, uOf] at h1 h2
  omega

/-! ## The quarter windows, as the program slices them -/

theorem set_ch0M (k : Fin k0_t1_loop.trips) : (ch0M L k).view.set = chunkN (uOf L k.val) 0 := by
  have hs : (ch0M L k).view.set = (Rect.unit (s := S832x16384) (k0_off5 L k) S1x4096.size (k0_off5_inb L k)).set :=
    (View.set_reshape _ _).trans (View.set_slice_whole _ _)
  ext (x : S832x16384.Idx)
  rw [hs, mem_unit_row _ _ _ 0 (k0_off5_eq L k), mem_chunkN]
  unfold uOf
  omega

theorem set_ch1M (k : Fin k0_t1_loop.trips) : (ch1M L k).view.set = chunkN (uOf L k.val) 1 := by
  have hs : (ch1M L k).view.set = (Rect.unit (s := S832x16384) (k0_off8 L k) S1x4096.size (k0_off8_inb L k)).set :=
    (View.set_reshape _ _).trans (View.set_slice_whole _ _)
  ext (x : S832x16384.Idx)
  rw [hs, mem_unit_row _ _ _ 4096 (k0_off8_eq L k), mem_chunkN]
  unfold uOf
  omega

theorem set_ch2M (k : Fin k0_t1_loop.trips) : (ch2M L k).view.set = chunkN (uOf L k.val) 2 := by
  have hs : (ch2M L k).view.set = (Rect.unit (s := S832x16384) (k0_off11 L k) S1x4096.size (k0_off11_inb L k)).set :=
    (View.set_reshape _ _).trans (View.set_slice_whole _ _)
  ext (x : S832x16384.Idx)
  rw [hs, mem_unit_row _ _ _ 8192 (k0_off11_eq L k), mem_chunkN]
  unfold uOf
  omega

theorem set_ch3M (k : Fin k0_t1_loop.trips) : (ch3M L k).view.set = chunkN (uOf L k.val) 3 := by
  have hs : (ch3M L k).view.set = (Rect.unit (s := S832x16384) (k0_off14 L k) S1x4096.size (k0_off14_inb L k)).set :=
    (View.set_reshape _ _).trans (View.set_slice_whole _ _)
  ext (x : S832x16384.Idx)
  rw [hs, mem_unit_row _ _ _ 12288 (k0_off14_eq L k), mem_chunkN]
  unfold uOf
  omega

end Sets

end Cert.Proof.KB

end
-- ==== Proof.KBOK.lean ====
/-
  What the subcore's four scratch buffers hold along a trip, as predicates on their contents.

  In trip `k` the subcore fills output column `u = uOf L k`. Its table scratch is to hold row `u` of the flattened
  tables (`VecOK`), its index scratch row `u / 32` of the transposed indices (`XrowOK`), and each of the two staging
  buffers is filled, sixteen lanes a step, with the table scratch gathered at a quarter of the index scratch
  (`GOK0`, `GOK1`: after `t` steps lanes `0 … 16 t - 1` are done).
-/
import proofs.«204002_g15616501088794_cont_week2b_169_25_alg».proof.Proof.KBBase
import Idealize.ShloMosaic.Lib.ValueIdx

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "xtM" => (Memref.whole Cert.Kernel.main_v0_scv : Memref Cert.Kernel.sig Kind.scVector Space.hbm Cert.Kernel.S26x16384 EltTy.i32)
local notation "tbM" => (Memref.whole Cert.Kernel.main_v2_scv : Memref Cert.Kernel.sig Kind.scVector Space.hbm Cert.Kernel.S832x100000 EltTy.f32)
local notation "otM" => (Memref.whole Cert.Kernel.main_v3_scv : Memref Cert.Kernel.sig Kind.scVector Space.hbm Cert.Kernel.S832x16384 EltTy.f32)
local notation "vecM" => (Memref.whole Cert.Kernel.cc0_scratch0 : Memref Cert.Kernel.sig Kind.scVector Space.vmem Cert.Kernel.S100000 EltTy.f32)
local notation "xrM" => (Memref.whole Cert.Kernel.cc0_scratch1 : Memref Cert.Kernel.sig Kind.scVector Space.vmem Cert.Kernel.S16384 EltTy.i32)
local notation "oq0M" => (Memref.whole Cert.Kernel.cc0_scratch2 : Memref Cert.Kernel.sig Kind.scVector Space.vmem Cert.Kernel.S4096 EltTy.f32)
local notation "oq1M" => (Memref.whole Cert.Kernel.cc0_scratch3 : Memref Cert.Kernel.sig Kind.scVector Space.vmem Cert.Kernel.S4096 EltTy.f32)

section OK
variable (m : (ℓ : Loc nD τ sig) → Buf (Elt F) ℓ) (d : Dev nD) (L : grid0.Coords)

/-- The index scratch holds row `f` of the transposed indices. -/
def XrowOK (fxr : Buf (Elt F) ((thr d L).loc cc0_scratch1)) (f : Fin 26) : Prop :=
  ∀ b : Fin 16384, fxr (ix1 b) = XT m d (ix2 f b)
/-- The table scratch holds row `u` of the flattened tables. -/
def VecOK (fvc : Buf (Elt F) ((thr d L).loc cc0_scratch0)) (u : Fin 832) : Prop :=
  ∀ v : Fin 100000, fvc (ix1 v) = TB m d (ix2 u v)
/-- The first staging buffer after `t` steps of the gather loop for quarter `q`: lane `p < 16 t` holds the table
    scratch at the index scratch's entry `4096 q + p`. -/
def GOK0 (q t : ℕ) (fxr : Buf (Elt F) ((thr d L).loc cc0_scratch1)) (fvc : Buf (Elt F) ((thr d L).loc cc0_scratch0))
    (fo : Buf (Elt F) ((thr d L).loc cc0_scratch2)) : Prop :=
  ∀ p : Fin 4096, p.val < 16 * t →
    fo (ix1 p) = fvc (ix1 (Cert.Spec.rowOf (fxr (ix1 ⟨(4096 * q + p.val) % 16384, Nat.mod_lt _ (by decide)⟩))))
/-- The same for the second staging buffer. -/
def GOK1 (q t : ℕ) (fxr : Buf (Elt F) ((thr d L).loc cc0_scratch1)) (fvc : Buf (Elt F) ((thr d L).loc cc0_scratch0))
    (fo : Buf (Elt F) ((thr d L).loc cc0_scratch3)) : Prop :=
  ∀ p : Fin 4096, p.val < 16 * t →
    fo (ix1 p) = fvc (ix1 (Cert.Spec.rowOf (fxr (ix1 ⟨(4096 * q + p.val) % 16384, Nat.mod_lt _ (by decide)⟩))))

end OK

end Cert.Proof.KB

end
-- ==== Proof.KBInv.lean ====
/-
  What holds between the trips of a vector subcore's loop over its 26 output columns.

  Trip `k` gathers output row `u` in four quarters through two staging buffers: quarters 0 and 2 through one buffer
  and its semaphore, 1 and 3 through the other, each buffer's previous copy waited for before it is refilled.
  Quarters 2 and 3 of a row are therefore still in flight when the next trip begins. Between trips the subcore
  holds: the rows it has not begun, as the launch left them; the finished part of its rows, at their final contents;
  and either both staging buffers and their semaphores at rest (before the first trip) or the two copies in flight,
  each known to land the final contents of its quarter.
-/
import proofs.«204002_g15616501088794_cont_week2b_169_25_alg».proof.Proof.KBSets
import proofs.«204002_g15616501088794_cont_week2b_169_25_alg».proof.Proof.KBOK

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "xtM" => (Memref.whole Cert.Kernel.main_v0_scv : Memref Cert.Kernel.sig Kind.scVector Space.hbm Cert.Kernel.S26x16384 EltTy.i32)
local notation "tbM" => (Memref.whole Cert.Kernel.main_v2_scv : Memref Cert.Kernel.sig Kind.scVector Space.hbm Cert.Kernel.S832x100000 EltTy.f32)
local notation "otM" => (Memref.whole Cert.Kernel.main_v3_scv : Memref Cert.Kernel.sig Kind.scVector Space.hbm Cert.Kernel.S832x16384 EltTy.f32)
local notation "vecM" => (Memref.whole Cert.Kernel.cc0_scratch0 : Memref Cert.Kernel.sig Kind.scVector Space.vmem Cert.Kernel.S100000 EltTy.f32)
local notation "xrM" => (Memref.whole Cert.Kernel.cc0_scratch1 : Memref Cert.Kernel.sig Kind.scVector Space.vmem Cert.Kernel.S16384 EltTy.i32)
local notation "oq0M" => (Memref.whole Cert.Kernel.cc0_scratch2 : Memref Cert.Kernel.sig Kind.scVector Space.vmem Cert.Kernel.S4096 EltTy.f32)
local notation "oq1M" => (Memref.whole Cert.Kernel.cc0_scratch3 : Memref Cert.Kernel.sig Kind.scVector Space.vmem Cert.Kernel.S4096 EltTy.f32)

variable (m : (ℓ : Loc nD τ sig) → Buf (Elt F) ℓ) [FloatOps F]

section Tile
variable (d : Dev nD) (L : grid0.Coords)

/-! ## The copies in flight -/

/-- What a quarter of `ot` holds once the staging buffer's copy has landed on it. -/
abbrev landed0 (c : Memref sig .scVector .hbm S4096 .f32) (fA : Buf (Elt F) (c.view.loc (thr d L)))
    (fo : Buf (Elt F) ((thr d L).loc cc0_scratch2)) : Buf (Elt F) (c.view.loc (thr d L)) :=
  c.view.writes (Elt F) fA [⟨Rect.whole S4096, ReadAs.same.apply ((oq0M).view.read (Elt F) fo)⟩]
abbrev landed1 (c : Memref sig .scVector .hbm S4096 .f32) (fA : Buf (Elt F) (c.view.loc (thr d L)))
    (fo : Buf (Elt F) ((thr d L).loc cc0_scratch3)) : Buf (Elt F) (c.view.loc (thr d L)) :=
  c.view.writes (Elt F) fA [⟨Rect.whole S4096, ReadAs.same.apply ((oq1M).view.read (Elt F) fo)⟩]

/-- A staging buffer's copy in flight: at its wait it hands back the quarter, landed, and the buffer. -/
abbrev fly0 (c : Memref sig .scVector .hbm S4096 .f32) (fA : Buf (Elt F) (c.view.loc (thr d L)))
    (fo : Buf (Elt F) ((thr d L).loc cc0_scratch2)) : sProp 𝕄 :=
  Transfers.Flight (countersEmb (U := UU)) (thr d L) (SemLoc.dma cc0_scratch5.sem) (none : HIx 1) 131072
    iprop((c.view.loc (thr d L) ↦[c.view.set]{fullShare} landed0 d L c fA fo)
      ∗ ((oq0M).view.loc (thr d L) ↦[(oq0M).view.set]{fullShare} fo))
abbrev fly1 (c : Memref sig .scVector .hbm S4096 .f32) (fA : Buf (Elt F) (c.view.loc (thr d L)))
    (fo : Buf (Elt F) ((thr d L).loc cc0_scratch3)) : sProp 𝕄 :=
  Transfers.Flight (countersEmb (U := UU)) (thr d L) (SemLoc.dma cc0_scratch6.sem) (none : HIx 1) 131072
    iprop((c.view.loc (thr d L) ↦[c.view.set]{fullShare} landed1 d L c fA fo)
      ∗ ((oq1M).view.loc (thr d L) ↦[(oq1M).view.set]{fullShare} fo))

/-- Trip number `n` as the loop's index, whatever `n` (the remainder makes it total; below 26 it is `n`). -/
def kM (n : ℕ) : Fin k0_t1_loop.trips := ⟨n % 26, by rw [trips1]; exact Nat.mod_lt _ (by decide)⟩
theorem kM_val (k : Fin k0_t1_loop.trips) : kM k.val = k := by
  apply Fin.ext; show k.val % 26 = k.val
  exact Nat.mod_eq_of_lt (Nat.lt_of_lt_of_eq k.isLt trips1)

/-- Before the first trip: both staging buffers and their semaphores at rest. -/
def tail0 : sProp 𝕄 :=
  iprop((∃ f, (oq0M).view.loc (thr d L) ↦{fullShare} f) ∗ (∃ f, (oq1M).view.loc (thr d L) ↦{fullShare} f)
    ∗ semVal (o0Cell d L) 0 ∗ semVal (o1Cell d L) 0)
/-- After trip `n`: its last two quarters in flight, each landing the final contents. -/
def tailS (n : ℕ) : sProp 𝕄 :=
  iprop(∃ fo0 fo1, ⌜(∀ fA, ∀ x ∈ chunkN (uOf L n) 2, landed0 d L (ch2M L (kM n)) fA fo0 x = OT m d x)
        ∧ (∀ fA, ∀ x ∈ chunkN (uOf L n) 3, landed1 d L (ch3M L (kM n)) fA fo1 x = OT m d x)⌝
      ∗ fly0 d L (ch2M L (kM n)) (m (otLoc d)) fo0
      ∗ ((oq0M).view.loc (thr d L) ↦[Finset.univ \ (oq0M).view.set]{fullShare} fo0)
      ∗ fly1 d L (ch3M L (kM n)) (m (otLoc d)) fo1
      ∗ ((oq1M).view.loc (thr d L) ↦[Finset.univ \ (oq1M).view.set]{fullShare} fo1))
def tailRes : ℕ → sProp 𝕄
  | 0 => tail0 d L
  | n + 1 => tailS m d L n

/-- What holds before trip `k`. -/
def oinv (O : CellTallies nD τ sig (HIx 1)) (W : Waits sig (HIx 1)) (k : ℕ) (_ : Unit) : sProp 𝕄 :=
  iprop(Transfers.MayWaits (thr d L) (none : HIx 1) O
    ∗ ((xtM).view.loc (thr d L) ↦{qT (cL L) (jL L)} XT m d)
    ∗ ((tbM).view.loc (thr d L) ↦{qT (cL L) (jL L)} TB m d)
    ∗ (∃ fv, (vecM).view.loc (thr d L) ↦{fullShare} fv)
    ∗ (∃ fx, ⌜0 < k → ∃ f : Fin 26, f.val = uOf L (k - 1) / 32 ∧ XrowOK m d L fx f⌝ ∗ (xrM).view.loc (thr d L) ↦{fullShare} fx)
    ∗ semVal (vCell d L) 0 ∗ semVal (xCell d L) 0
    ∗ (otLoc d ↦[freshSet L k]{fullShare} m (otLoc d))
    ∗ (otLoc d ↦[doneSet L k]{fullShare} OT m d)
    ∗ tailRes m d L k
    ∗ ∃ W', ⌜∀ p ∈ W', p ∈ W ∨ p.2 = none⌝ ∗ owes (thr d L) O W')

/-! ## The quarters of a row, as the program's windows and as element sets -/

theorem pts_ch0 (k : Fin k0_t1_loop.trips) (f : Buf (Elt F) (otLoc d)) :
    ((ch0M L k).view.loc (thr d L) ↦[(ch0M L k).view.set]{fullShare} f : sProp 𝕄) = otLoc d ↦[chunkN (uOf L k.val) 0]{fullShare} f := by
  rw [set_ch0M]
theorem pts_ch1 (k : Fin k0_t1_loop.trips) (f : Buf (Elt F) (otLoc d)) :
    ((ch1M L k).view.loc (thr d L) ↦[(ch1M L k).view.set]{fullShare} f : sProp 𝕄) = otLoc d ↦[chunkN (uOf L k.val) 1]{fullShare} f := by
  rw [set_ch1M]
theorem pts_ch2 (k : Fin k0_t1_loop.trips) (f : Buf (Elt F) (otLoc d)) :
    ((ch2M L k).view.loc (thr d L) ↦[(ch2M L k).view.set]{fullShare} f : sProp 𝕄) = otLoc d ↦[chunkN (uOf L k.val) 2]{fullShare} f := by
  rw [set_ch2M]
theorem pts_ch3 (k : Fin k0_t1_loop.trips) (f : Buf (Elt F) (otLoc d)) :
    ((ch3M L k).view.loc (thr d L) ↦[(ch3M L k).view.set]{fullShare} f : sProp 𝕄) = otLoc d ↦[chunkN (uOf L k.val) 3]{fullShare} f := by
  rw [set_ch3M]
theorem pts_oq0 (f : Buf (Elt F) ((thr d L).loc cc0_scratch2)) :
    ((oq0M).view.loc (thr d L) ↦[(oq0M).view.set]{fullShare} f : sProp 𝕄) = (oq0M).view.loc (thr d L) ↦{fullShare} f := by
  simp only [Memref.view_whole, View.set_whole]
theorem pts_oq1 (f : Buf (Elt F) ((thr d L).loc cc0_scratch3)) :
    ((oq1M).view.loc (thr d L) ↦[(oq1M).view.set]{fullShare} f : sProp 𝕄) = (oq1M).view.loc (thr d L) ↦{fullShare} f := by
  simp only [Memref.view_whole, View.set_whole]

/-- The rows not yet begun give up row `k`, as its four quarters. -/
theorem row_split (k : Fin k0_t1_loop.trips) (f : Buf (Elt F) (otLoc d)) :
    (otLoc d ↦[freshSet L k.val]{fullShare} f : sProp 𝕄)
      ⊢ iprop(((ch0M L k).view.loc (thr d L) ↦[(ch0M L k).view.set]{fullShare} f)
          ∗ ((ch1M L k).view.loc (thr d L) ↦[(ch1M L k).view.set]{fullShare} f)
          ∗ ((ch2M L k).view.loc (thr d L) ↦[(ch2M L k).view.set]{fullShare} f)
          ∗ ((ch3M L k).view.loc (thr d L) ↦[(ch3M L k).view.set]{fullShare} f)
          ∗ otLoc d ↦[freshSet L (k.val + 1)]{fullShare} f) := by
  have hk : k.val < 26 := Nat.lt_of_lt_of_eq k.isLt trips1
  rw [pts_ch0, pts_ch1, pts_ch2, pts_ch3, freshSet_succ L k.val hk]
  refine (pointsTo_union (freshSet_succ_disj L k.val)).1.trans ?_
  rw [rowN_eq]
  iintro ⟨Hrow, Hfr⟩
  ihave H := (pointsTo_union (chunk_disj0123 (uOf L k.val))).1 $$ Hrow
  icases H with ⟨H012, H3⟩
  ihave H := (pointsTo_union (chunk_disj012 (uOf L k.val))).1 $$ H012
  icases H with ⟨H01, H2⟩
  ihave H := (pointsTo_union (chunk_disj01 (uOf L k.val))).1 $$ H01
  icases H with ⟨H0, H1⟩
  isplitl [H0]; · iexact H0
  isplitl [H1]; · iexact H1
  isplitl [H2]; · iexact H2
  isplitl [H3]; · iexact H3
  iexact Hfr

/-- A landed quarter is that quarter of `ot` at its final contents. -/
theorem land_ch0 (k : Fin k0_t1_loop.trips) (fA : Buf (Elt F) (otLoc d)) (fo : Buf (Elt F) ((thr d L).loc cc0_scratch2))
    (h : ∀ x ∈ chunkN (uOf L k.val) 0, landed0 d L (ch0M L k) fA fo x = OT m d x) :
    ((ch0M L k).view.loc (thr d L) ↦[(ch0M L k).view.set]{fullShare} landed0 d L (ch0M L k) fA fo : sProp 𝕄)
      ⊢ otLoc d ↦[chunkN (uOf L k.val) 0]{fullShare} OT m d := by
  rw [pts_ch0]; exact Entails.of_eq (pointsTo_congr h)
theorem land_ch1 (k : Fin k0_t1_loop.trips) (fA : Buf (Elt F) (otLoc d)) (fo : Buf (Elt F) ((thr d L).loc cc0_scratch3))
    (h : ∀ x ∈ chunkN (uOf L k.val) 1, landed1 d L (ch1M L k) fA fo x = OT m d x) :
    ((ch1M L k).view.loc (thr d L) ↦[(ch1M L k).view.set]{fullShare} landed1 d L (ch1M L k) fA fo : sProp 𝕄)
      ⊢ otLoc d ↦[chunkN (uOf L k.val) 1]{fullShare} OT m d := by
  rw [pts_ch1]; exact Entails.of_eq (pointsTo_congr h)
theorem land_ch2 (k : Fin k0_t1_loop.trips) (fA : Buf (Elt F) (otLoc d)) (fo : Buf (Elt F) ((thr d L).loc cc0_scratch2))
    (h : ∀ x ∈ chunkN (uOf L k.val) 2, landed0 d L (ch2M L k) fA fo x = OT m d x) :
    ((ch2M L k).view.loc (thr d L) ↦[(ch2M L k).view.set]{fullShare} landed0 d L (ch2M L k) fA fo : sProp 𝕄)
      ⊢ otLoc d ↦[chunkN (uOf L k.val) 2]{fullShare} OT m d := by
  rw [pts_ch2]; exact Entails.of_eq (pointsTo_congr h)
theorem land_ch3 (k : Fin k0_t1_loop.trips) (fA : Buf (Elt F) (otLoc d)) (fo : Buf (Elt F) ((thr d L).loc cc0_scratch3))
    (h : ∀ x ∈ chunkN (uOf L k.val) 3, landed1 d L (ch3M L k) fA fo x = OT m d x) :
    ((ch3M L k).view.loc (thr d L) ↦[(ch3M L k).view.set]{fullShare} landed1 d L (ch3M L k) fA fo : sProp 𝕄)
      ⊢ otLoc d ↦[chunkN (uOf L k.val) 3]{fullShare} OT m d := by
  rw [pts_ch3]; exact Entails.of_eq (pointsTo_congr h)

/-- The finished part grows by the first trip's first two quarters; -/
theorem done_first (f : Buf (Elt F) (otLoc d)) :
    iprop((otLoc d ↦[chunkN (uOf L 0) 0]{fullShare} f) ∗ (otLoc d ↦[chunkN (uOf L 0) 1]{fullShare} f))
      ⊢ (otLoc d ↦[doneSet L 1]{fullShare} f : sProp 𝕄) := by
  rw [doneSet_one]; exact (pointsTo_union (chunk_disj01 _)).2
/-- later, by the previous trip's last two quarters and this trip's first two. -/
theorem done_next (n : ℕ) (f : Buf (Elt F) (otLoc d)) :
    iprop((otLoc d ↦[doneSet L (n + 1)]{fullShare} f) ∗ (otLoc d ↦[chunkN (uOf L n) 2]{fullShare} f) ∗ (otLoc d ↦[chunkN (uOf L n) 3]{fullShare} f)
        ∗ (otLoc d ↦[chunkN (uOf L (n + 1)) 0]{fullShare} f) ∗ (otLoc d ↦[chunkN (uOf L (n + 1)) 1]{fullShare} f))
      ⊢ (otLoc d ↦[doneSet L (n + 2)]{fullShare} f : sProp 𝕄) := by
  rw [doneSet_succ L (n + 1) (Nat.succ_pos n)]
  simp only [Nat.add_sub_cancel]
  iintro ⟨Hd, H2, H3, H0, H1⟩
  iapply (pointsTo_union (doneSet_succ_d4 L (n + 1) (Nat.succ_pos n))).2
  isplitr [H1]; rotate_left; · iexact H1
  iapply (pointsTo_union (doneSet_succ_d3 L (n + 1) (Nat.succ_pos n))).2
  isplitr [H0]; rotate_left; · iexact H0
  iapply (pointsTo_union (doneSet_succ_d2 L (n + 1) (Nat.succ_pos n))).2
  isplitr [H3]; rotate_left; · iexact H3
  iapply (pointsTo_union (doneSet_succ_d1 L (n + 1) (Nat.succ_pos n))).2
  isplitl [Hd]; · iexact Hd
  iexact H2

theorem tailRes_zero : tailRes m d L 0 = tail0 d L := rfl
theorem tailRes_succ (n : ℕ) : tailRes m d L (n + 1) = tailS m d L n := rfl

/-- The subcore's first output column as the kernel computes it: `(2 s + c) · 26`, a 32-bit word. -/
abbrev v2w : BitVec 32 := Scalar.muli (Scalar.addi (Scalar.muli (BitVec.ofNat 32 (L 1).val) 2#32) (BitVec.ofNat 32 (L 0).val)) 26#32

/-- The same two joins, stated at a trip's own index. -/
theorem done_first' (k : Fin k0_t1_loop.trips) (hk0 : k.val = 0) (f : Buf (Elt F) (otLoc d)) :
    iprop((otLoc d ↦[chunkN (uOf L k.val) 0]{fullShare} f) ∗ (otLoc d ↦[chunkN (uOf L k.val) 1]{fullShare} f))
      ⊢ (otLoc d ↦[doneSet L (k.val + 1)]{fullShare} f : sProp 𝕄) := by
  rw [hk0]; exact done_first d L f
theorem done_next' (k : Fin k0_t1_loop.trips) (n : ℕ) (hk : k.val = n + 1) (f : Buf (Elt F) (otLoc d)) :
    iprop((otLoc d ↦[doneSet L k.val]{fullShare} f) ∗ (otLoc d ↦[chunkN (uOf L n) 2]{fullShare} f) ∗ (otLoc d ↦[chunkN (uOf L n) 3]{fullShare} f)
        ∗ (otLoc d ↦[chunkN (uOf L k.val) 0]{fullShare} f) ∗ (otLoc d ↦[chunkN (uOf L k.val) 1]{fullShare} f))
      ⊢ (otLoc d ↦[doneSet L (k.val + 1)]{fullShare} f : sProp 𝕄) := by
  rw [hk]; exact done_next d L n f

end Tile

end Cert.Proof.KB

end
-- ==== Proof.KBValue.lean ====
/-
  What the subcore's four scratch buffers hold along a trip, and what its copies leave in `ot`.

  In trip `k` the subcore fills output column `u = uOf L k`. Its table scratch holds row `u` of the flattened tables
  (`VecOK`), its index scratch holds row `u / 32` of the transposed indices (`XrowOK`), and each of the two staging
  buffers is filled, sixteen lanes a step, with the table scratch gathered at a quarter of the index scratch
  (`GOK0`, `GOK1`: after `t` steps lanes `0 … 16 t - 1` are done). A full staging buffer copied to quarter `q` of
  row `u` of `ot` leaves there `ot[u, b] = tb[u, xt[u / 32, b]]`.
-/
import proofs.«204002_g15616501088794_cont_week2b_169_25_alg».proof.Proof.KBSets
import proofs.«204002_g15616501088794_cont_week2b_169_25_alg».proof.Proof.KBOK

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "xtM" => (Memref.whole Cert.Kernel.main_v0_scv : Memref Cert.Kernel.sig Kind.scVector Space.hbm Cert.Kernel.S26x16384 EltTy.i32)
local notation "tbM" => (Memref.whole Cert.Kernel.main_v2_scv : Memref Cert.Kernel.sig Kind.scVector Space.hbm Cert.Kernel.S832x100000 EltTy.f32)
local notation "otM" => (Memref.whole Cert.Kernel.main_v3_scv : Memref Cert.Kernel.sig Kind.scVector Space.hbm Cert.Kernel.S832x16384 EltTy.f32)
local notation "vecM" => (Memref.whole Cert.Kernel.cc0_scratch0 : Memref Cert.Kernel.sig Kind.scVector Space.vmem Cert.Kernel.S100000 EltTy.f32)
local notation "xrM" => (Memref.whole Cert.Kernel.cc0_scratch1 : Memref Cert.Kernel.sig Kind.scVector Space.vmem Cert.Kernel.S16384 EltTy.i32)
local notation "oq0M" => (Memref.whole Cert.Kernel.cc0_scratch2 : Memref Cert.Kernel.sig Kind.scVector Space.vmem Cert.Kernel.S4096 EltTy.f32)
local notation "oq1M" => (Memref.whole Cert.Kernel.cc0_scratch3 : Memref Cert.Kernel.sig Kind.scVector Space.vmem Cert.Kernel.S4096 EltTy.f32)

section Value
variable (m : (ℓ : Loc nD τ sig) → Buf (Elt F) ℓ) (d : Dev nD) (L : grid0.Coords)

/-- A trip number is below 26. -/
theorem k_lt (k : Fin k0_t1_loop.trips) : k.val < 26 := Nat.lt_of_lt_of_eq k.isLt trips1

/-! ## The copies into the table scratch and the index scratch -/

/-- Lane `v` of the table row window of trip `k` is `tb[u, v]`. -/
theorem rowM_emb (k : Fin k0_t1_loop.trips) (v : Fin 100000) :
    (rowM L k).view.emb (ix1 v) = ix2 (⟨uOf L k.val, uOf_lt L (k_lt k)⟩ : Fin 832) v := by
  have hc := Shape.reshapeEquiv_cons_one (n := 1) (d := ![100000]) squeezes_S1x100000_S100000.numel_eq (ix1 v)
  funext a
  apply Fin.ext
  show k0_off1 L k a + 1 * ((Shape.reshapeEquiv squeezes_S1x100000_S100000.numel_eq (ix1 v)) a).val = _
  rw [k0_off1_eq, hc]
  match a with
  | ⟨0, _⟩ => show (52 * (L 1).val + 26 * (L 0).val + k.val) + 1 * 0 = uOf L k.val; unfold uOf; omega
  | ⟨1, _⟩ => show 0 + 1 * v.val = v.val; omega

/-- The copy of the table row window into the table scratch leaves row `u` of the flattened tables there. -/
theorem vec_lands (k : Fin k0_t1_loop.trips) (fv : Buf (Elt F) ((thr d L).loc cc0_scratch0)) :
    VecOK m d L ((vecM).view.write (Elt F) fv (ReadAs.same.apply ((rowM L k).view.read (Elt F) (TB m d))) Finset.univ)
      ⟨uOf L k.val, uOf_lt L (k_lt k)⟩ := by
  intro v
  have e := View.write_whole_univ (Val := Elt F) cc0_scratch0 fv (ReadAs.same.apply ((rowM L k).view.read (Elt F) (TB m d)))
  refine (congrFun e (ix1 v)).trans ?_
  show (rowM L k).view.read (Elt F) (TB m d) (ix1 v) = _
  rw [View.read_apply, cast_eq, rowM_emb]

/-- The field of trip `k`'s column is below 26. -/
theorem field_lt (k : Fin k0_t1_loop.trips) : uOf L k.val / 32 < 26 := by
  have := uOf_lt L (k_lt k)
  omega

/-- Lane `b` of the index row window of trip `k` is `xt[u / 32, b]`. -/
theorem xsrcM_emb (k : Fin k0_t1_loop.trips) (h : k0_cond1 L k = 1#1) (b : Fin 16384) :
    (xsrcM L k h).view.emb (ix1 b) = ix2 (⟨uOf L k.val / 32, field_lt L k⟩ : Fin 26) b := by
  have hc := Shape.reshapeEquiv_cons_one (n := 1) (d := ![16384]) squeezes_S1x16384_S16384.numel_eq (ix1 b)
  funext a
  apply Fin.ext
  show k0_off2 L k a + 1 * ((Shape.reshapeEquiv squeezes_S1x16384_S16384.numel_eq (ix1 b)) a).val = _
  rw [hc]
  match a with
  | ⟨0, _⟩ => show k0_off2 L k 0 + 1 * 0 = uOf L k.val / 32; rw [off2_zero]; omega
  | ⟨1, _⟩ => show k0_off2 L k 1 + 1 * b.val = b.val; rw [off2_one]; omega

/-- The copy of the index row window into the index scratch leaves row `u / 32` of the transposed indices there. -/
theorem xrow_lands (k : Fin k0_t1_loop.trips) (h : k0_cond1 L k = 1#1) (fx : Buf (Elt F) ((thr d L).loc cc0_scratch1)) :
    XrowOK m d L ((xrM).view.write (Elt F) fx (ReadAs.same.apply ((xsrcM L k h).view.read (Elt F) (XT m d))) Finset.univ)
      ⟨uOf L k.val / 32, field_lt L k⟩ := by
  intro b
  have e := View.write_whole_univ (Val := Elt F) cc0_scratch1 fx (ReadAs.same.apply ((xsrcM L k h).view.read (Elt F) (XT m d)))
  refine (congrFun e (ix1 b)).trans ?_
  show (xsrcM L k h).view.read (Elt F) (XT m d) (ix1 b) = _
  rw [View.read_apply, cast_eq, xsrcM_emb]

/-- A trip that does not start a new field keeps the previous trip's field. -/
theorem xrow_keeps (k : ℕ) (hk : 0 < k) (hc : ¬ (uOf L k % 32 = 0)) : uOf L (k - 1) / 32 = uOf L k / 32 := by
  unfold uOf at hc ⊢
  omega

/-! ## The gather loop's side condition -/

/-- Sixteen entries of an index scratch that holds a row of the transposed indices are all rows of a table. -/
theorem chk_of_range (hpre : PreOK m) {fxr : Buf (Elt F) ((thr d L).loc cc0_scratch1)} {f : Fin 26} (hx : XrowOK m d L fxr f)
    (off : Fin 1 → ℕ) (inb : ∀ a, off a + S16.size a ≤ S16384.size a) :
    ∀ a x, ((![(xrM).view.readAt (Elt F) (Rect.unit (s := S16384) off S16.size inb).toLoadRect fxr] : Fin 1 → IVec S16 32) a x).toNat
      < S100000.size a := by
  intro a x
  have ha : a = 0 := Fin.eq_zero a
  subst ha
  obtain ⟨j, hj⟩ : ∃ j : Fin 16384, (Rect.unit (s := S16384) off S16.size inb).toLoadRect.idx x = ix1 j := ⟨_, eq_ix1 _⟩
  have e : (xrM).view.readAt (Elt F) (Rect.unit (s := S16384) off S16.size inb).toLoadRect fxr x = fxr (ix1 j) := by
    rw [← hj]; rfl
  show ((xrM).view.readAt (Elt F) (Rect.unit (s := S16384) off S16.size inb).toLoadRect fxr x).toNat < 100000
  rw [e, hx j]
  exact hpre d _

theorem chk1_of_range (hpre : PreOK m) {fxr : Buf (Elt F) ((thr d L).loc cc0_scratch1)} {f : Fin 26} (hx : XrowOK m d L fxr f)
    (off : Fin 1 → ℕ) (inb : ∀ a, off a + S16.size a ≤ S16384.size a) :
    k0_chk1 ((xrM).view.readAt (Elt F) (Rect.unit (s := S16384) off S16.size inb).toLoadRect fxr) :=
  chk_of_range m d L hpre hx off inb
theorem chk2_of_range (hpre : PreOK m) {fxr : Buf (Elt F) ((thr d L).loc cc0_scratch1)} {f : Fin 26} (hx : XrowOK m d L fxr f)
    (off : Fin 1 → ℕ) (inb : ∀ a, off a + S16.size a ≤ S16384.size a) :
    k0_chk2 ((xrM).view.readAt (Elt F) (Rect.unit (s := S16384) off S16.size inb).toLoadRect fxr) :=
  chk_of_range m d L hpre hx off inb
theorem chk3_of_range (hpre : PreOK m) {fxr : Buf (Elt F) ((thr d L).loc cc0_scratch1)} {f : Fin 26} (hx : XrowOK m d L fxr f)
    (off : Fin 1 → ℕ) (inb : ∀ a, off a + S16.size a ≤ S16384.size a) :
    k0_chk3 ((xrM).view.readAt (Elt F) (Rect.unit (s := S16384) off S16.size inb).toLoadRect fxr) :=
  chk_of_range m d L hpre hx off inb
theorem chk4_of_range (hpre : PreOK m) {fxr : Buf (Elt F) ((thr d L).loc cc0_scratch1)} {f : Fin 26} (hx : XrowOK m d L fxr f)
    (off : Fin 1 → ℕ) (inb : ∀ a, off a + S16.size a ≤ S16384.size a) :
    k0_chk4 ((xrM).view.readAt (Elt F) (Rect.unit (s := S16384) off S16.size inb).toLoadRect fxr) :=
  chk_of_range m d L hpre hx off inb

/-! ## One step of the gather loop -/

/-- One step of the gather loop into the first staging buffer: sixteen more lanes done. -/
theorem gstep0 (q t : ℕ) (fxr : Buf (Elt F) ((thr d L).loc cc0_scratch1)) (fvc : Buf (Elt F) ((thr d L).loc cc0_scratch0))
    (fo : Buf (Elt F) ((thr d L).loc cc0_scratch2))
    (off4 : Fin 1 → ℕ) (inb4 : ∀ a, off4 a + S16.size a ≤ S4096.size a) (h4 : off4 = ![16 * t])
    (off3 : Fin 1 → ℕ) (inb3 : ∀ a, off3 a + S16.size a ≤ S16384.size a) (h3 : off3 = ![16 * t + 4096 * q])
    (ht : t < 256) (hq : q < 4)
    (hh : ∀ a x, ((![(xrM).view.readAt (Elt F) (Rect.unit (s := S16384) off3 S16.size inb3).toLoadRect fxr] : Fin 1 → IVec S16 32) a x).toNat
      < S100000.size a)
    (hG : GOK0 d L q t fxr fvc fo) :
    GOK0 d L q (t + 1) fxr fvc ((oq0M).view.writes (Elt F) fo
      [⟨Rect.unit (s := S4096) off4 S16.size inb4,
        loadIdx ((vecM).view.readAt (Elt F) (LoadRect.whole S100000) fvc)
          ![(xrM).view.readAt (Elt F) (Rect.unit (s := S16384) off3 S16.size inb3).toLoadRect fxr] hh⟩]) := by
  subst h4 h3
  intro p hp
  have hp4 := p.isLt
  by_cases hlt : p.val < 16 * t
  · -- a lane of an earlier step: this step's store does not reach it
    show (oq0M).view.read (Elt F) ((oq0M).view.writes (Elt F) fo [⟨_, _⟩]) (ix1 p) = _
    refine (View.read_writes_apply_of_forall_not_mem _ _ _ _ ?_).trans (hG p hlt)
    intro pc hpc
    rw [List.mem_singleton] at hpc
    subst hpc
    rw [Rect.mem_set_unit]
    intro hm
    have h0 : 16 * t ≤ p.val ∧ p.val < 16 * t + 16 := hm 0
    omega
  · -- a lane of this step
    have hx0 : p.val - 16 * t < 16 := by omega
    have hemb : (Rect.unit (s := S4096) ![16 * t] S16.size inb4).emb (ix1 ⟨p.val - 16 * t, hx0⟩) = ix1 p := by
      funext a; apply Fin.ext
      match a with
      | ⟨0, _⟩ => show 16 * t + 1 * (p.val - 16 * t) = p.val; omega
    have hidx : (Rect.unit (s := S16384) ![16 * t + 4096 * q] S16.size inb3).toLoadRect.idx (ix1 ⟨p.val - 16 * t, hx0⟩)
        = ix1 ⟨(4096 * q + p.val) % 16384, Nat.mod_lt _ (by decide)⟩ := by
      funext a; apply Fin.ext
      match a with
      | ⟨0, _⟩ => show 16 * t + 4096 * q + 1 * (p.val - 16 * t) = (4096 * q + p.val) % 16384; omega
    have hw : (xrM).view.readAt (Elt F) (Rect.unit (s := S16384) ![16 * t + 4096 * q] S16.size inb3).toLoadRect fxr
        (ix1 ⟨p.val - 16 * t, hx0⟩) = fxr (ix1 ⟨(4096 * q + p.val) % 16384, Nat.mod_lt _ (by decide)⟩) := by
      rw [← hidx]; rfl
    have hlt' : ((xrM).view.readAt (Elt F) (Rect.unit (s := S16384) ![16 * t + 4096 * q] S16.size inb3).toLoadRect fxr
        (ix1 ⟨p.val - 16 * t, hx0⟩)).toNat < 100000 := hh 0 (ix1 ⟨p.val - 16 * t, hx0⟩)
    show (oq0M).view.read (Elt F) ((oq0M).view.writes (Elt F) fo [⟨_, _⟩]) (ix1 p) = _
    rw [← hemb, View.read_writes_cons_emb]
    show (vecM).view.readAt (Elt F) (LoadRect.whole S100000) fvc (idxAt _ hh (ix1 ⟨p.val - 16 * t, hx0⟩)) = _
    refine (congrFun (Memref.readAt_whole (Elt F) cc0_scratch0 fvc) _).trans ?_
    congr 1
    funext a; apply Fin.ext
    match a with
    | ⟨0, _⟩ =>
      show ((xrM).view.readAt (Elt F) (Rect.unit (s := S16384) ![16 * t + 4096 * q] S16.size inb3).toLoadRect fxr
        (ix1 ⟨p.val - 16 * t, hx0⟩)).toNat = (fxr (ix1 ⟨(4096 * q + p.val) % 16384, Nat.mod_lt _ (by decide)⟩)).toNat % 100000
      rw [hw] at hlt' ⊢
      exact (Nat.mod_eq_of_lt hlt').symm

/-- One step of the gather loop into the second staging buffer: sixteen more lanes done. -/
theorem gstep1 (q t : ℕ) (fxr : Buf (Elt F) ((thr d L).loc cc0_scratch1)) (fvc : Buf (Elt F) ((thr d L).loc cc0_scratch0))
    (fo : Buf (Elt F) ((thr d L).loc cc0_scratch3))
    (off4 : Fin 1 → ℕ) (inb4 : ∀ a, off4 a + S16.size a ≤ S4096.size a) (h4 : off4 = ![16 * t])
    (off3 : Fin 1 → ℕ) (inb3 : ∀ a, off3 a + S16.size a ≤ S16384.size a) (h3 : off3 = ![16 * t + 4096 * q])
    (ht : t < 256) (hq : q < 4)
    (hh : ∀ a x, ((![(xrM).view.readAt (Elt F) (Rect.unit (s := S16384) off3 S16.size inb3).toLoadRect fxr] : Fin 1 → IVec S16 32) a x).toNat
      < S100000.size a)
    (hG : GOK1 d L q t fxr fvc fo) :
    GOK1 d L q (t + 1) fxr fvc ((oq1M).view.writes (Elt F) fo
      [⟨Rect.unit (s := S4096) off4 S16.size inb4,
        loadIdx ((vecM).view.readAt (Elt F) (LoadRect.whole S100000) fvc)
          ![(xrM).view.readAt (Elt F) (Rect.unit (s := S16384) off3 S16.size inb3).toLoadRect fxr] hh⟩]) := by
  subst h4 h3
  intro p hp
  have hp4 := p.isLt
  by_cases hlt : p.val < 16 * t
  · -- a lane of an earlier step: this step's store does not reach it
    show (oq1M).view.read (Elt F) ((oq1M).view.writes (Elt F) fo [⟨_, _⟩]) (ix1 p) = _
    refine (View.read_writes_apply_of_forall_not_mem _ _ _ _ ?_).trans (hG p hlt)
    intro pc hpc
    rw [List.mem_singleton] at hpc
    subst hpc
    rw [Rect.mem_set_unit]
    intro hm
    have h0 : 16 * t ≤ p.val ∧ p.val < 16 * t + 16 := hm 0
    omega
  · -- a lane of this step
    have hx0 : p.val - 16 * t < 16 := by omega
    have hemb : (Rect.unit (s := S4096) ![16 * t] S16.size inb4).emb (ix1 ⟨p.val - 16 * t, hx0⟩) = ix1 p := by
      funext a; apply Fin.ext
      match a with
      | ⟨0, _⟩ => show 16 * t + 1 * (p.val - 16 * t) = p.val; omega
    have hidx : (Rect.unit (s := S16384) ![16 * t + 4096 * q] S16.size inb3).toLoadRect.idx (ix1 ⟨p.val - 16 * t, hx0⟩)
        = ix1 ⟨(4096 * q + p.val) % 16384, Nat.mod_lt _ (by decide)⟩ := by
      funext a; apply Fin.ext
      match a with
      | ⟨0, _⟩ => show 16 * t + 4096 * q + 1 * (p.val - 16 * t) = (4096 * q + p.val) % 16384; omega
    have hw : (xrM).view.readAt (Elt F) (Rect.unit (s := S16384) ![16 * t + 4096 * q] S16.size inb3).toLoadRect fxr
        (ix1 ⟨p.val - 16 * t, hx0⟩) = fxr (ix1 ⟨(4096 * q + p.val) % 16384, Nat.mod_lt _ (by decide)⟩) := by
      rw [← hidx]; rfl
    have hlt' : ((xrM).view.readAt (Elt F) (Rect.unit (s := S16384) ![16 * t + 4096 * q] S16.size inb3).toLoadRect fxr
        (ix1 ⟨p.val - 16 * t, hx0⟩)).toNat < 100000 := hh 0 (ix1 ⟨p.val - 16 * t, hx0⟩)
    show (oq1M).view.read (Elt F) ((oq1M).view.writes (Elt F) fo [⟨_, _⟩]) (ix1 p) = _
    rw [← hemb, View.read_writes_cons_emb]
    show (vecM).view.readAt (Elt F) (LoadRect.whole S100000) fvc (idxAt _ hh (ix1 ⟨p.val - 16 * t, hx0⟩)) = _
    refine (congrFun (Memref.readAt_whole (Elt F) cc0_scratch0 fvc) _).trans ?_
    congr 1
    funext a; apply Fin.ext
    match a with
    | ⟨0, _⟩ =>
      show ((xrM).view.readAt (Elt F) (Rect.unit (s := S16384) ![16 * t + 4096 * q] S16.size inb3).toLoadRect fxr
        (ix1 ⟨p.val - 16 * t, hx0⟩)).toNat = (fxr (ix1 ⟨(4096 * q + p.val) % 16384, Nat.mod_lt _ (by decide)⟩)).toNat % 100000
      rw [hw] at hlt' ⊢
      exact (Nat.mod_eq_of_lt hlt').symm

/-! ## The copies out of the staging buffers -/

/-- Lane `p` of quarter 0's window of trip `k` is `ot[u, p]`. -/
theorem ch0M_emb (k : Fin k0_t1_loop.trips) (p : Fin 4096) (b : Fin 16384) (hb : b.val = 4096 * 0 + p.val) :
    (ch0M L k).view.emb (ix1 p) = ix2 (⟨uOf L k.val, uOf_lt L (k_lt k)⟩ : Fin 832) b := by
  have hc := Shape.reshapeEquiv_cons_one (n := 1) (d := ![4096]) squeezes_S1x4096_S4096.numel_eq (ix1 p)
  funext a
  apply Fin.ext
  show k0_off5 L k a + 1 * ((Shape.reshapeEquiv squeezes_S1x4096_S4096.numel_eq (ix1 p)) a).val = _
  rw [k0_off5_eq, hc]
  match a with
  | ⟨0, _⟩ => show (52 * (L 1).val + 26 * (L 0).val + k.val) + 1 * 0 = uOf L k.val; unfold uOf; omega
  | ⟨1, _⟩ => show 0 + 1 * p.val = b.val; omega

/-- Lane `p` of quarter 1's window of trip `k` is `ot[u, 4096 + p]`. -/
theorem ch1M_emb (k : Fin k0_t1_loop.trips) (p : Fin 4096) (b : Fin 16384) (hb : b.val = 4096 * 1 + p.val) :
    (ch1M L k).view.emb (ix1 p) = ix2 (⟨uOf L k.val, uOf_lt L (k_lt k)⟩ : Fin 832) b := by
  have hc := Shape.reshapeEquiv_cons_one (n := 1) (d := ![4096]) squeezes_S1x4096_S4096.numel_eq (ix1 p)
  funext a
  apply Fin.ext
  show k0_off8 L k a + 1 * ((Shape.reshapeEquiv squeezes_S1x4096_S4096.numel_eq (ix1 p)) a).val = _
  rw [k0_off8_eq, hc]
  match a with
  | ⟨0, _⟩ => show (52 * (L 1).val + 26 * (L 0).val + k.val) + 1 * 0 = uOf L k.val; unfold uOf; omega
  | ⟨1, _⟩ => show 4096 + 1 * p.val = b.val; omega

/-- Lane `p` of quarter 2's window of trip `k` is `ot[u, 8192 + p]`. -/
theorem ch2M_emb (k : Fin k0_t1_loop.trips) (p : Fin 4096) (b : Fin 16384) (hb : b.val = 4096 * 2 + p.val) :
    (ch2M L k).view.emb (ix1 p) = ix2 (⟨uOf L k.val, uOf_lt L (k_lt k)⟩ : Fin 832) b := by
  have hc := Shape.reshapeEquiv_cons_one (n := 1) (d := ![4096]) squeezes_S1x4096_S4096.numel_eq (ix1 p)
  funext a
  apply Fin.ext
  show k0_off11 L k a + 1 * ((Shape.reshapeEquiv squeezes_S1x4096_S4096.numel_eq (ix1 p)) a).val = _
  rw [k0_off11_eq, hc]
  match a with
  | ⟨0, _⟩ => show (52 * (L 1).val + 26 * (L 0).val + k.val) + 1 * 0 = uOf L k.val; unfold uOf; omega
  | ⟨1, _⟩ => show 8192 + 1 * p.val = b.val; omega

/-- Lane `p` of quarter 3's window of trip `k` is `ot[u, 12288 + p]`. -/
theorem ch3M_emb (k : Fin k0_t1_loop.trips) (p : Fin 4096) (b : Fin 16384) (hb : b.val = 4096 * 3 + p.val) :
    (ch3M L k).view.emb (ix1 p) = ix2 (⟨uOf L k.val, uOf_lt L (k_lt k)⟩ : Fin 832) b := by
  have hc := Shape.reshapeEquiv_cons_one (n := 1) (d := ![4096]) squeezes_S1x4096_S4096.numel_eq (ix1 p)
  funext a
  apply Fin.ext
  show k0_off14 L k a + 1 * ((Shape.reshapeEquiv squeezes_S1x4096_S4096.numel_eq (ix1 p)) a).val = _
  rw [k0_off14_eq, hc]
  match a with
  | ⟨0, _⟩ => show (52 * (L 1).val + 26 * (L 0).val + k.val) + 1 * 0 = uOf L k.val; unfold uOf; omega
  | ⟨1, _⟩ => show 12288 + 1 * p.val = b.val; omega

/-- The first staging buffer, full for quarter 0, copied to quarter 0 of row `u` of `ot`, leaves the gathered values there. -/
theorem chunk_lands0 (k : Fin k0_t1_loop.trips) (fo : Buf (Elt F) (otLoc d))
    (fxr : Buf (Elt F) ((thr d L).loc cc0_scratch1)) (fvc : Buf (Elt F) ((thr d L).loc cc0_scratch0))
    (fo0 : Buf (Elt F) ((thr d L).loc cc0_scratch2))
    (hx : XrowOK m d L fxr (Cert.Spec.fieldOf ⟨uOf L k.val, uOf_lt L (k_lt k)⟩)) (hv : VecOK m d L fvc ⟨uOf L k.val, uOf_lt L (k_lt k)⟩)
    (hG : GOK0 d L 0 256 fxr fvc fo0) :
    ∀ x ∈ chunkN (uOf L k.val) 0,
      ((ch0M L k).view.writes (Elt F) fo [⟨Rect.whole S4096, ReadAs.same.apply ((oq0M).view.read (Elt F) fo0)⟩]) x = OT m d x := by
  intro x hxm
  obtain ⟨a, b, rfl⟩ : ∃ (a : Fin 832) (b : Fin 16384), x = ix2 a b := ⟨x 0, x 1, eq_ix2 x⟩
  rw [mem_chunkN] at hxm
  obtain ⟨hx0, hx1, hx2⟩ := hxm
  have hx0' : a.val = uOf L k.val := hx0
  have hx1' : 4096 * 0 ≤ b.val := hx1
  have hx2' : b.val < 4096 * (0 + 1) := hx2
  have ha : a = ⟨uOf L k.val, uOf_lt L (k_lt k)⟩ := Fin.ext hx0'
  subst ha
  have hp : b.val - 4096 * 0 < 4096 := by omega
  have hxe : ((ch0M L k).view.slice (Rect.whole S4096)).emb (ix1 ⟨b.val - 4096 * 0, hp⟩)
      = ix2 (⟨uOf L k.val, uOf_lt L (k_lt k)⟩ : Fin 832) b := by
    show (ch0M L k).view.emb ((Rect.whole S4096).emb (ix1 ⟨b.val - 4096 * 0, hp⟩)) = _
    rw [Rect.emb_whole_apply]
    exact ch0M_emb L k _ b (by show b.val = 4096 * 0 + (b.val - 4096 * 0); omega)
  have key := View.write_emb_of_mem (v := (ch0M L k).view.slice (Rect.whole S4096)) (Val := Elt F) fo
    (ReadAs.same.apply ((oq0M).view.read (Elt F) fo0)) (Finset.mem_univ (ix1 ⟨b.val - 4096 * 0, hp⟩))
  rw [hxe] at key
  refine key.trans ?_
  rw [cast_eq]
  show fo0 (ix1 ⟨b.val - 4096 * 0, hp⟩) = _
  rw [hG ⟨b.val - 4096 * 0, hp⟩ (by show b.val - 4096 * 0 < 16 * 256; omega), hv, hx]
  have eb : (⟨(4096 * 0 + (b.val - 4096 * 0)) % 16384, Nat.mod_lt _ (by decide)⟩ : Fin 16384) = b :=
    Fin.ext (by show (4096 * 0 + (b.val - 4096 * 0)) % 16384 = b.val; have := b.isLt; omega)
  rw [eb]
  rfl

/-- The second staging buffer, full for quarter 1, copied to quarter 1 of row `u` of `ot`, leaves the gathered values there. -/
theorem chunk_lands1 (k : Fin k0_t1_loop.trips) (fo : Buf (Elt F) (otLoc d))
    (fxr : Buf (Elt F) ((thr d L).loc cc0_scratch1)) (fvc : Buf (Elt F) ((thr d L).loc cc0_scratch0))
    (fo0 : Buf (Elt F) ((thr d L).loc cc0_scratch3))
    (hx : XrowOK m d L fxr (Cert.Spec.fieldOf ⟨uOf L k.val, uOf_lt L (k_lt k)⟩)) (hv : VecOK m d L fvc ⟨uOf L k.val, uOf_lt L (k_lt k)⟩)
    (hG : GOK1 d L 1 256 fxr fvc fo0) :
    ∀ x ∈ chunkN (uOf L k.val) 1,
      ((ch1M L k).view.writes (Elt F) fo [⟨Rect.whole S4096, ReadAs.same.apply ((oq1M).view.read (Elt F) fo0)⟩]) x = OT m d x := by
  intro x hxm
  obtain ⟨a, b, rfl⟩ : ∃ (a : Fin 832) (b : Fin 16384), x = ix2 a b := ⟨x 0, x 1, eq_ix2 x⟩
  rw [mem_chunkN] at hxm
  obtain ⟨hx0, hx1, hx2⟩ := hxm
  have hx0' : a.val = uOf L k.val := hx0
  have hx1' : 4096 * 1 ≤ b.val := hx1
  have hx2' : b.val < 4096 * (1 + 1) := hx2
  have ha : a = ⟨uOf L k.val, uOf_lt L (k_lt k)⟩ := Fin.ext hx0'
  subst ha
  have hp : b.val - 4096 * 1 < 4096 := by omega
  have hxe : ((ch1M L k).view.slice (Rect.whole S4096)).emb (ix1 ⟨b.val - 4096 * 1, hp⟩)
      = ix2 (⟨uOf L k.val, uOf_lt L (k_lt k)⟩ : Fin 832) b := by
    show (ch1M L k).view.emb ((Rect.whole S4096).emb (ix1 ⟨b.val - 4096 * 1, hp⟩)) = _
    rw [Rect.emb_whole_apply]
    exact ch1M_emb L k _ b (by show b.val = 4096 * 1 + (b.val - 4096 * 1); omega)
  have key := View.write_emb_of_mem (v := (ch1M L k).view.slice (Rect.whole S4096)) (Val := Elt F) fo
    (ReadAs.same.apply ((oq1M).view.read (Elt F) fo0)) (Finset.mem_univ (ix1 ⟨b.val - 4096 * 1, hp⟩))
  rw [hxe] at key
  refine key.trans ?_
  rw [cast_eq]
  show fo0 (ix1 ⟨b.val - 4096 * 1, hp⟩) = _
  rw [hG ⟨b.val - 4096 * 1, hp⟩ (by show b.val - 4096 * 1 < 16 * 256; omega), hv, hx]
  have eb : (⟨(4096 * 1 + (b.val - 4096 * 1)) % 16384, Nat.mod_lt _ (by decide)⟩ : Fin 16384) = b :=
    Fin.ext (by show (4096 * 1 + (b.val - 4096 * 1)) % 16384 = b.val; have := b.isLt; omega)
  rw [eb]
  rfl

/-- The first staging buffer, full for quarter 2, copied to quarter 2 of row `u` of `ot`, leaves the gathered values there. -/
theorem chunk_lands2 (k : Fin k0_t1_loop.trips) (fo : Buf (Elt F) (otLoc d))
    (fxr : Buf (Elt F) ((thr d L).loc cc0_scratch1)) (fvc : Buf (Elt F) ((thr d L).loc cc0_scratch0))
    (fo0 : Buf (Elt F) ((thr d L).loc cc0_scratch2))
    (hx : XrowOK m d L fxr (Cert.Spec.fieldOf ⟨uOf L k.val, uOf_lt L (k_lt k)⟩)) (hv : VecOK m d L fvc ⟨uOf L k.val, uOf_lt L (k_lt k)⟩)
    (hG : GOK0 d L 2 256 fxr fvc fo0) :
    ∀ x ∈ chunkN (uOf L k.val) 2,
      ((ch2M L k).view.writes (Elt F) fo [⟨Rect.whole S4096, ReadAs.same.apply ((oq0M).view.read (Elt F) fo0)⟩]) x = OT m d x := by
  intro x hxm
  obtain ⟨a, b, rfl⟩ : ∃ (a : Fin 832) (b : Fin 16384), x = ix2 a b := ⟨x 0, x 1, eq_ix2 x⟩
  rw [mem_chunkN] at hxm
  obtain ⟨hx0, hx1, hx2⟩ := hxm
  have hx0' : a.val = uOf L k.val := hx0
  have hx1' : 4096 * 2 ≤ b.val := hx1
  have hx2' : b.val < 4096 * (2 + 1) := hx2
  have ha : a = ⟨uOf L k.val, uOf_lt L (k_lt k)⟩ := Fin.ext hx0'
  subst ha
  have hp : b.val - 4096 * 2 < 4096 := by omega
  have hxe : ((ch2M L k).view.slice (Rect.whole S4096)).emb (ix1 ⟨b.val - 4096 * 2, hp⟩)
      = ix2 (⟨uOf L k.val, uOf_lt L (k_lt k)⟩ : Fin 832) b := by
    show (ch2M L k).view.emb ((Rect.whole S4096).emb (ix1 ⟨b.val - 4096 * 2, hp⟩)) = _
    rw [Rect.emb_whole_apply]
    exact ch2M_emb L k _ b (by show b.val = 4096 * 2 + (b.val - 4096 * 2); omega)
  have key := View.write_emb_of_mem (v := (ch2M L k).view.slice (Rect.whole S4096)) (Val := Elt F) fo
    (ReadAs.same.apply ((oq0M).view.read (Elt F) fo0)) (Finset.mem_univ (ix1 ⟨b.val - 4096 * 2, hp⟩))
  rw [hxe] at key
  refine key.trans ?_
  rw [cast_eq]
  show fo0 (ix1 ⟨b.val - 4096 * 2, hp⟩) = _
  rw [hG ⟨b.val - 4096 * 2, hp⟩ (by show b.val - 4096 * 2 < 16 * 256; omega), hv, hx]
  have eb : (⟨(4096 * 2 + (b.val - 4096 * 2)) % 16384, Nat.mod_lt _ (by decide)⟩ : Fin 16384) = b :=
    Fin.ext (by show (4096 * 2 + (b.val - 4096 * 2)) % 16384 = b.val; have := b.isLt; omega)
  rw [eb]
  rfl

/-- The second staging buffer, full for quarter 3, copied to quarter 3 of row `u` of `ot`, leaves the gathered values there. -/
theorem chunk_lands3 (k : Fin k0_t1_loop.trips) (fo : Buf (Elt F) (otLoc d))
    (fxr : Buf (Elt F) ((thr d L).loc cc0_scratch1)) (fvc : Buf (Elt F) ((thr d L).loc cc0_scratch0))
    (fo0 : Buf (Elt F) ((thr d L).loc cc0_scratch3))
    (hx : XrowOK m d L fxr (Cert.Spec.fieldOf ⟨uOf L k.val, uOf_lt L (k_lt k)⟩)) (hv : VecOK m d L fvc ⟨uOf L k.val, uOf_lt L (k_lt k)⟩)
    (hG : GOK1 d L 3 256 fxr fvc fo0) :
    ∀ x ∈ chunkN (uOf L k.val) 3,
      ((ch3M L k).view.writes (Elt F) fo [⟨Rect.whole S4096, ReadAs.same.apply ((oq1M).view.read (Elt F) fo0)⟩]) x = OT m d x := by
  intro x hxm
  obtain ⟨a, b, rfl⟩ : ∃ (a : Fin 832) (b : Fin 16384), x = ix2 a b := ⟨x 0, x 1, eq_ix2 x⟩
  rw [mem_chunkN] at hxm
  obtain ⟨hx0, hx1, hx2⟩ := hxm
  have hx0' : a.val = uOf L k.val := hx0
  have hx1' : 4096 * 3 ≤ b.val := hx1
  have hx2' : b.val < 4096 * (3 + 1) := hx2
  have ha : a = ⟨uOf L k.val, uOf_lt L (k_lt k)⟩ := Fin.ext hx0'
  subst ha
  have hp : b.val - 4096 * 3 < 4096 := by omega
  have hxe : ((ch3M L k).view.slice (Rect.whole S4096)).emb (ix1 ⟨b.val - 4096 * 3, hp⟩)
      = ix2 (⟨uOf L k.val, uOf_lt L (k_lt k)⟩ : Fin 832) b := by
    show (ch3M L k).view.emb ((Rect.whole S4096).emb (ix1 ⟨b.val - 4096 * 3, hp⟩)) = _
    rw [Rect.emb_whole_apply]
    exact ch3M_emb L k _ b (by show b.val = 4096 * 3 + (b.val - 4096 * 3); omega)
  have key := View.write_emb_of_mem (v := (ch3M L k).view.slice (Rect.whole S4096)) (Val := Elt F) fo
    (ReadAs.same.apply ((oq1M).view.read (Elt F) fo0)) (Finset.mem_univ (ix1 ⟨b.val - 4096 * 3, hp⟩))
  rw [hxe] at key
  refine key.trans ?_
  rw [cast_eq]
  show fo0 (ix1 ⟨b.val - 4096 * 3, hp⟩) = _
  rw [hG ⟨b.val - 4096 * 3, hp⟩ (by show b.val - 4096 * 3 < 16 * 256; omega), hv, hx]
  have eb : (⟨(4096 * 3 + (b.val - 4096 * 3)) % 16384, Nat.mod_lt _ (by decide)⟩ : Fin 16384) = b :=
    Fin.ext (by show (4096 * 3 + (b.val - 4096 * 3)) % 16384 = b.val; have := b.isLt; omega)
  rw [eb]
  rfl

end Value

end Cert.Proof.KB

end
-- ==== Proof.KBGather.lean ====
/-
  The four gather loops of one trip. Each fills a 4096-entry staging buffer, sixteen entries at a time, with the
  entries of the table row (held in the subcore's table scratch) at the positions the index row names: entry `p` of
  quarter `q` becomes `vec[xrow[4096 q + p]]`. The loop never touches the two rows, and what the staging buffer held
  before is overwritten entry by entry.
-/
import proofs.«204002_g15616501088794_cont_week2b_169_25_alg».proof.Proof.KBValue

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "xtM" => (Memref.whole Cert.Kernel.main_v0_scv : Memref Cert.Kernel.sig Kind.scVector Space.hbm Cert.Kernel.S26x16384 EltTy.i32)
local notation "tbM" => (Memref.whole Cert.Kernel.main_v2_scv : Memref Cert.Kernel.sig Kind.scVector Space.hbm Cert.Kernel.S832x100000 EltTy.f32)
local notation "otM" => (Memref.whole Cert.Kernel.main_v3_scv : Memref Cert.Kernel.sig Kind.scVector Space.hbm Cert.Kernel.S832x16384 EltTy.f32)
local notation "vecM" => (Memref.whole Cert.Kernel.cc0_scratch0 : Memref Cert.Kernel.sig Kind.scVector Space.vmem Cert.Kernel.S100000 EltTy.f32)
local notation "xrM" => (Memref.whole Cert.Kernel.cc0_scratch1 : Memref Cert.Kernel.sig Kind.scVector Space.vmem Cert.Kernel.S16384 EltTy.i32)
local notation "oq0M" => (Memref.whole Cert.Kernel.cc0_scratch2 : Memref Cert.Kernel.sig Kind.scVector Space.vmem Cert.Kernel.S4096 EltTy.f32)
local notation "oq1M" => (Memref.whole Cert.Kernel.cc0_scratch3 : Memref Cert.Kernel.sig Kind.scVector Space.vmem Cert.Kernel.S4096 EltTy.f32)

variable (m : (ℓ : Loc nD τ sig) → Buf (Elt F) ℓ) [FloatOps F]

section Tile
variable (d : Dev nD) (L : grid0.Coords)

/-- What gather loop 1 keeps: the index row and the table row untouched, and the staging buffer filled, sixteen
    entries a trip, with the table row's entries at the index row's quarter 0. -/
def ginv2 (fxr : Buf (Elt F) ((thr d L).loc cc0_scratch1)) (fvc : Buf (Elt F) ((thr d L).loc cc0_scratch0)) (t : ℕ) (_ : PUnit) : sProp 𝕄 :=
  iprop(((xrM).view.loc (thr d L) ↦{fullShare} fxr)
    ∗ ((vecM).view.loc (thr d L) ↦{fullShare} fvc)
    ∗ ∃ fo, ⌜GOK0 d L 0 t fxr fvc fo⌝ ∗ (oq0M).view.loc (thr d L) ↦{fullShare} fo)

/-- Gather loop 1, whole: 256 trips of sixteen entries. -/
theorem gather2 (hpre : PreOK m) (k : Fin k0_t1_loop.trips) (v2 c0 c1 : BitVec 32) (fxr : Buf (Elt F) ((thr d L).loc cc0_scratch1)) (fvc : Buf (Elt F) ((thr d L).loc cc0_scratch0))
    (f : Fin 26) (hx : XrowOK m d L fxr f) (fo : Buf (Elt F) ((thr d L).loc cc0_scratch2)) :
    iprop(((xrM).view.loc (thr d L) ↦{fullShare} fxr) ∗ ((vecM).view.loc (thr d L) ↦{fullShare} fvc)
        ∗ ((oq0M).view.loc (thr d L) ↦{fullShare} fo))
      ⊢ wp frame (wpE (defs₀ (F := F)) 𝒱₀ (thr d L) none) Set.univ
          (Scf.Loop.for k0_t2_loop k0_t2_ok ⟨⟩
            (k0_t2_body L xtM (Memref.isWhole_whole _) tbM (Memref.isWhole_whole _) otM (Memref.isWhole_whole _)
              vecM (Memref.isWhole_whole _) xrM (Memref.isWhole_whole _) oq0M (Memref.isWhole_whole _) oq1M (Memref.isWhole_whole _)
              cc0_scratch4 cc0_scratch5 cc0_scratch6 cc0_scoped0 v2 c0 c1 k))
          (fun _ => (iprop(((xrM).view.loc (thr d L) ↦{fullShare} fxr) ∗ ((vecM).view.loc (thr d L) ↦{fullShare} fvc)
            ∗ ∃ fo', ⌜GOK0 d L 0 256 fxr fvc fo'⌝ ∗ (oq0M).view.loc (thr d L) ↦{fullShare} fo') : sProp 𝕄)) := by
  iintro ⟨Hxr, Hvec, Hq⟩
  have hchk : ∀ t : Fin k0_t2_loop.trips,
      k0_chk1 ((xrM).view.readAt (Elt F) (Rect.unit (s := S16384) (k0_off3 t) S16.size (k0_off3_inb t)).toLoadRect fxr) :=
    fun t => chk1_of_range m d L hpre hx _ _
  sl_for (ginv2 d L fxr fvc) $$ [Hxr Hvec Hq]
  case region =>
    intro t _
    unfold ginv2
    iintro ⟨Hxr, Hvec, ⟨%fo1, %hG, Hq⟩⟩
    sl_respell [k0_t2_body, SparseCore.vectorLoadIdx]
    sl_exec
    sl_step
    isplitl [Hxr]; · iexact Hxr
    isplitl [Hvec]; · iexact Hvec
    iexists _; isplitr
    rotate_left
    · iexact Hq
    · ipureintro
      exact gstep0 d L 0 t.val fxr fvc fo1 _ _ (k0_off4_eq t) _ _ (by rw [k0_off3_eq]; try simp) (Nat.lt_of_lt_of_eq t.isLt trips2) (by decide) _ hG
  · isplitl [Hxr Hvec Hq]
    · unfold ginv2
      isplitl [Hxr]; · iexact Hxr
      isplitl [Hvec]; · iexact Hvec
      iexists fo; isplitr
      · ipureintro; intro p hp; exact absurd hp (by omega)
      · iexact Hq
    · iintro %_ HI
      unfold ginv2
      icases HI with ⟨Hxr, Hvec, ⟨%fo', %hG', Hq⟩⟩
      isplitl [Hxr]; · iexact Hxr
      isplitl [Hvec]; · iexact Hvec
      iexists fo'; isplitr
      · ipureintro; have e : Scf.trips k0_t2_loop.lb k0_t2_loop.ub k0_t2_loop.st = 256 := trips2
        rw [e] at hG'; exact hG'
      · iexact Hq

/-- What gather loop 2 keeps: the index row and the table row untouched, and the staging buffer filled, sixteen
    entries a trip, with the table row's entries at the index row's quarter 1. -/
def ginv3 (fxr : Buf (Elt F) ((thr d L).loc cc0_scratch1)) (fvc : Buf (Elt F) ((thr d L).loc cc0_scratch0)) (t : ℕ) (_ : PUnit) : sProp 𝕄 :=
  iprop(((xrM).view.loc (thr d L) ↦{fullShare} fxr)
    ∗ ((vecM).view.loc (thr d L) ↦{fullShare} fvc)
    ∗ ∃ fo, ⌜GOK1 d L 1 t fxr fvc fo⌝ ∗ (oq1M).view.loc (thr d L) ↦{fullShare} fo)

/-- Gather loop 2, whole: 256 trips of sixteen entries. -/
theorem gather3 (hpre : PreOK m) (k : Fin k0_t1_loop.trips) (a12 : BitVec 32) (fxr : Buf (Elt F) ((thr d L).loc cc0_scratch1)) (fvc : Buf (Elt F) ((thr d L).loc cc0_scratch0))
    (f : Fin 26) (hx : XrowOK m d L fxr f) (fo : Buf (Elt F) ((thr d L).loc cc0_scratch3)) :
    iprop(((xrM).view.loc (thr d L) ↦{fullShare} fxr) ∗ ((vecM).view.loc (thr d L) ↦{fullShare} fvc)
        ∗ ((oq1M).view.loc (thr d L) ↦{fullShare} fo))
      ⊢ wp frame (wpE (defs₀ (F := F)) 𝒱₀ (thr d L) none) Set.univ
          (Scf.Loop.for k0_t3_loop k0_t3_ok ⟨⟩
            (k0_t3_body L xtM (Memref.isWhole_whole _) tbM (Memref.isWhole_whole _) otM (Memref.isWhole_whole _)
              vecM (Memref.isWhole_whole _) xrM (Memref.isWhole_whole _) oq0M (Memref.isWhole_whole _) oq1M (Memref.isWhole_whole _)
              cc0_scratch4 cc0_scratch5 cc0_scratch6 cc0_scoped0 k a12))
          (fun _ => (iprop(((xrM).view.loc (thr d L) ↦{fullShare} fxr) ∗ ((vecM).view.loc (thr d L) ↦{fullShare} fvc)
            ∗ ∃ fo', ⌜GOK1 d L 1 256 fxr fvc fo'⌝ ∗ (oq1M).view.loc (thr d L) ↦{fullShare} fo') : sProp 𝕄)) := by
  iintro ⟨Hxr, Hvec, Hq⟩
  have hchk : ∀ t : Fin k0_t3_loop.trips,
      k0_chk2 ((xrM).view.readAt (Elt F) (Rect.unit (s := S16384) (k0_off6 t) S16.size (k0_off6_inb t)).toLoadRect fxr) :=
    fun t => chk2_of_range m d L hpre hx _ _
  sl_for (ginv3 d L fxr fvc) $$ [Hxr Hvec Hq]
  case region =>
    intro t _
    unfold ginv3
    iintro ⟨Hxr, Hvec, ⟨%fo1, %hG, Hq⟩⟩
    sl_respell [k0_t3_body, SparseCore.vectorLoadIdx]
    sl_exec
    sl_step
    isplitl [Hxr]; · iexact Hxr
    isplitl [Hvec]; · iexact Hvec
    iexists _; isplitr
    rotate_left
    · iexact Hq
    · ipureintro
      exact gstep1 d L 1 t.val fxr fvc fo1 _ _ (k0_off7_eq t) _ _ (by rw [k0_off6_eq]; try simp) (Nat.lt_of_lt_of_eq t.isLt trips3) (by decide) _ hG
  · isplitl [Hxr Hvec Hq]
    · unfold ginv3
      isplitl [Hxr]; · iexact Hxr
      isplitl [Hvec]; · iexact Hvec
      iexists fo; isplitr
      · ipureintro; intro p hp; exact absurd hp (by omega)
      · iexact Hq
    · iintro %_ HI
      unfold ginv3
      icases HI with ⟨Hxr, Hvec, ⟨%fo', %hG', Hq⟩⟩
      isplitl [Hxr]; · iexact Hxr
      isplitl [Hvec]; · iexact Hvec
      iexists fo'; isplitr
      · ipureintro; have e : Scf.trips k0_t3_loop.lb k0_t3_loop.ub k0_t3_loop.st = 256 := trips3
        rw [e] at hG'; exact hG'
      · iexact Hq

/-- What gather loop 3 keeps: the index row and the table row untouched, and the staging buffer filled, sixteen
    entries a trip, with the table row's entries at the index row's quarter 2. -/
def ginv4 (fxr : Buf (Elt F) ((thr d L).loc cc0_scratch1)) (fvc : Buf (Elt F) ((thr d L).loc cc0_scratch0)) (t : ℕ) (_ : PUnit) : sProp 𝕄 :=
  iprop(((xrM).view.loc (thr d L) ↦{fullShare} fxr)
    ∗ ((vecM).view.loc (thr d L) ↦{fullShare} fvc)
    ∗ ∃ fo, ⌜GOK0 d L 2 t fxr fvc fo⌝ ∗ (oq0M).view.loc (thr d L) ↦{fullShare} fo)

/-- Gather loop 3, whole: 256 trips of sixteen entries. -/
theorem gather4 (hpre : PreOK m) (k : Fin k0_t1_loop.trips) (a12 : BitVec 32) (fxr : Buf (Elt F) ((thr d L).loc cc0_scratch1)) (fvc : Buf (Elt F) ((thr d L).loc cc0_scratch0))
    (f : Fin 26) (hx : XrowOK m d L fxr f) (fo : Buf (Elt F) ((thr d L).loc cc0_scratch2)) :
    iprop(((xrM).view.loc (thr d L) ↦{fullShare} fxr) ∗ ((vecM).view.loc (thr d L) ↦{fullShare} fvc)
        ∗ ((oq0M).view.loc (thr d L) ↦{fullShare} fo))
      ⊢ wp frame (wpE (defs₀ (F := F)) 𝒱₀ (thr d L) none) Set.univ
          (Scf.Loop.for k0_t4_loop k0_t4_ok ⟨⟩
            (k0_t4_body L xtM (Memref.isWhole_whole _) tbM (Memref.isWhole_whole _) otM (Memref.isWhole_whole _)
              vecM (Memref.isWhole_whole _) xrM (Memref.isWhole_whole _) oq0M (Memref.isWhole_whole _) oq1M (Memref.isWhole_whole _)
              cc0_scratch4 cc0_scratch5 cc0_scratch6 cc0_scoped0 k a12))
          (fun _ => (iprop(((xrM).view.loc (thr d L) ↦{fullShare} fxr) ∗ ((vecM).view.loc (thr d L) ↦{fullShare} fvc)
            ∗ ∃ fo', ⌜GOK0 d L 2 256 fxr fvc fo'⌝ ∗ (oq0M).view.loc (thr d L) ↦{fullShare} fo') : sProp 𝕄)) := by
  iintro ⟨Hxr, Hvec, Hq⟩
  have hchk : ∀ t : Fin k0_t4_loop.trips,
      k0_chk3 ((xrM).view.readAt (Elt F) (Rect.unit (s := S16384) (k0_off9 t) S16.size (k0_off9_inb t)).toLoadRect fxr) :=
    fun t => chk3_of_range m d L hpre hx _ _
  sl_for (ginv4 d L fxr fvc) $$ [Hxr Hvec Hq]
  case region =>
    intro t _
    unfold ginv4
    iintro ⟨Hxr, Hvec, ⟨%fo1, %hG, Hq⟩⟩
    sl_respell [k0_t4_body, SparseCore.vectorLoadIdx]
    sl_exec
    sl_step
    isplitl [Hxr]; · iexact Hxr
    isplitl [Hvec]; · iexact Hvec
    iexists _; isplitr
    rotate_left
    · iexact Hq
    · ipureintro
      exact gstep0 d L 2 t.val fxr fvc fo1 _ _ (k0_off10_eq t) _ _ (by rw [k0_off9_eq]; try simp) (Nat.lt_of_lt_of_eq t.isLt trips4) (by decide) _ hG
  · isplitl [Hxr Hvec Hq]
    · unfold ginv4
      isplitl [Hxr]; · iexact Hxr
      isplitl [Hvec]; · iexact Hvec
      iexists fo; isplitr
      · ipureintro; intro p hp; exact absurd hp (by omega)
      · iexact Hq
    · iintro %_ HI
      unfold ginv4
      icases HI with ⟨Hxr, Hvec, ⟨%fo', %hG', Hq⟩⟩
      isplitl [Hxr]; · iexact Hxr
      isplitl [Hvec]; · iexact Hvec
      iexists fo'; isplitr
      · ipureintro; have e : Scf.trips k0_t4_loop.lb k0_t4_loop.ub k0_t4_loop.st = 256 := trips4
        rw [e] at hG'; exact hG'
      · iexact Hq

/-- What gather loop 4 keeps: the index row and the table row untouched, and the staging buffer filled, sixteen
    entries a trip, with the table row's entries at the index row's quarter 3. -/
def ginv5 (fxr : Buf (Elt F) ((thr d L).loc cc0_scratch1)) (fvc : Buf (Elt F) ((thr d L).loc cc0_scratch0)) (t : ℕ) (_ : PUnit) : sProp 𝕄 :=
  iprop(((xrM).view.loc (thr d L) ↦{fullShare} fxr)
    ∗ ((vecM).view.loc (thr d L) ↦{fullShare} fvc)
    ∗ ∃ fo, ⌜GOK1 d L 3 t fxr fvc fo⌝ ∗ (oq1M).view.loc (thr d L) ↦{fullShare} fo)

/-- Gather loop 4, whole: 256 trips of sixteen entries. -/
theorem gather5 (hpre : PreOK m) (k : Fin k0_t1_loop.trips) (a12 : BitVec 32) (fxr : Buf (Elt F) ((thr d L).loc cc0_scratch1)) (fvc : Buf (Elt F) ((thr d L).loc cc0_scratch0))
    (f : Fin 26) (hx : XrowOK m d L fxr f) (fo : Buf (Elt F) ((thr d L).loc cc0_scratch3)) :
    iprop(((xrM).view.loc (thr d L) ↦{fullShare} fxr) ∗ ((vecM).view.loc (thr d L) ↦{fullShare} fvc)
        ∗ ((oq1M).view.loc (thr d L) ↦{fullShare} fo))
      ⊢ wp frame (wpE (defs₀ (F := F)) 𝒱₀ (thr d L) none) Set.univ
          (Scf.Loop.for k0_t5_loop k0_t5_ok ⟨⟩
            (k0_t5_body L xtM (Memref.isWhole_whole _) tbM (Memref.isWhole_whole _) otM (Memref.isWhole_whole _)
              vecM (Memref.isWhole_whole _) xrM (Memref.isWhole_whole _) oq0M (Memref.isWhole_whole _) oq1M (Memref.isWhole_whole _)
              cc0_scratch4 cc0_scratch5 cc0_scratch6 cc0_scoped0 k a12))
          (fun _ => (iprop(((xrM).view.loc (thr d L) ↦{fullShare} fxr) ∗ ((vecM).view.loc (thr d L) ↦{fullShare} fvc)
            ∗ ∃ fo', ⌜GOK1 d L 3 256 fxr fvc fo'⌝ ∗ (oq1M).view.loc (thr d L) ↦{fullShare} fo') : sProp 𝕄)) := by
  iintro ⟨Hxr, Hvec, Hq⟩
  have hchk : ∀ t : Fin k0_t5_loop.trips,
      k0_chk4 ((xrM).view.readAt (Elt F) (Rect.unit (s := S16384) (k0_off12 t) S16.size (k0_off12_inb t)).toLoadRect fxr) :=
    fun t => chk4_of_range m d L hpre hx _ _
  sl_for (ginv5 d L fxr fvc) $$ [Hxr Hvec Hq]
  case region =>
    intro t _
    unfold ginv5
    iintro ⟨Hxr, Hvec, ⟨%fo1, %hG, Hq⟩⟩
    sl_respell [k0_t5_body, SparseCore.vectorLoadIdx]
    sl_exec
    sl_step
    isplitl [Hxr]; · iexact Hxr
    isplitl [Hvec]; · iexact Hvec
    iexists _; isplitr
    rotate_left
    · iexact Hq
    · ipureintro
      exact gstep1 d L 3 t.val fxr fvc fo1 _ _ (k0_off13_eq t) _ _ (by rw [k0_off12_eq]; try simp) (Nat.lt_of_lt_of_eq t.isLt trips5) (by decide) _ hG
  · isplitl [Hxr Hvec Hq]
    · unfold ginv5
      isplitl [Hxr]; · iexact Hxr
      isplitl [Hvec]; · iexact Hvec
      iexists fo; isplitr
      · ipureintro; intro p hp; exact absurd hp (by omega)
      · iexact Hq
    · iintro %_ HI
      unfold ginv5
      icases HI with ⟨Hxr, Hvec, ⟨%fo', %hG', Hq⟩⟩
      isplitl [Hxr]; · iexact Hxr
      isplitl [Hvec]; · iexact Hvec
      iexists fo'; isplitr
      · ipureintro; have e : Scf.trips k0_t5_loop.lb k0_t5_loop.ub k0_t5_loop.st = 256 := trips5
        rw [e] at hG'; exact hG'
      · iexact Hq

end Tile

end Cert.Proof.KB

end
-- ==== Proof.KBTrip.lean ====
/-
  One trip of a vector subcore's loop over its 26 output columns.

  Trip `k` fetches row `u` of the flattened tables (and, when the column starts a new field or the loop starts, the
  field's index row), then four times gathers a quarter of the output row into a staging buffer and starts its copy
  into `ot`. A trip after the first begins by collecting the previous trip's last two copies.
-/
import proofs.«204002_g15616501088794_cont_week2b_169_25_alg».proof.Proof.KBInv
import proofs.«204002_g15616501088794_cont_week2b_169_25_alg».proof.Proof.KBGather

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "xtM" => (Memref.whole Cert.Kernel.main_v0_scv : Memref Cert.Kernel.sig Kind.scVector Space.hbm Cert.Kernel.S26x16384 EltTy.i32)
local notation "tbM" => (Memref.whole Cert.Kernel.main_v2_scv : Memref Cert.Kernel.sig Kind.scVector Space.hbm Cert.Kernel.S832x100000 EltTy.f32)
local notation "otM" => (Memref.whole Cert.Kernel.main_v3_scv : Memref Cert.Kernel.sig Kind.scVector Space.hbm Cert.Kernel.S832x16384 EltTy.f32)
local notation "vecM" => (Memref.whole Cert.Kernel.cc0_scratch0 : Memref Cert.Kernel.sig Kind.scVector Space.vmem Cert.Kernel.S100000 EltTy.f32)
local notation "xrM" => (Memref.whole Cert.Kernel.cc0_scratch1 : Memref Cert.Kernel.sig Kind.scVector Space.vmem Cert.Kernel.S16384 EltTy.i32)
local notation "oq0M" => (Memref.whole Cert.Kernel.cc0_scratch2 : Memref Cert.Kernel.sig Kind.scVector Space.vmem Cert.Kernel.S4096 EltTy.f32)
local notation "oq1M" => (Memref.whole Cert.Kernel.cc0_scratch3 : Memref Cert.Kernel.sig Kind.scVector Space.vmem Cert.Kernel.S4096 EltTy.f32)

variable (m : (ℓ : Loc nD τ sig) → Buf (Elt F) ℓ) [FloatOps F]

section Tile
variable (d : Dev nD) (L : grid0.Coords)
set_option maxHeartbeats 1600000 in
/-- The first trip: from both staging buffers at rest to the first row's last two quarters in flight. -/
theorem trip_first (hpre : PreOK m) (O : CellTallies nD τ sig (HIx 1)) (W : Waits sig (HIx 1)) (k : Fin k0_t1_loop.trips) (hk0 : k.val = 0) :
    oinv m d L O W k.val ⟨⟩
      ⊢ wp frame (wpE (defs₀ (F := F)) 𝒱₀ (thr d L) none) Set.univ
          (k0_t1_body L xtM (Memref.isWhole_whole _) tbM (Memref.isWhole_whole _) otM (Memref.isWhole_whole _)
            vecM (Memref.isWhole_whole _) xrM (Memref.isWhole_whole _) oq0M (Memref.isWhole_whole _) oq1M (Memref.isWhole_whole _)
            cc0_scratch4 cc0_scratch5 cc0_scratch6 cc0_scoped0 (v2w L) k ⟨⟩)
          (fun _ => oinv m d L O W (k.val + 1) ⟨⟩) := by
  have k0_h1 : k0_cond1 L k = 1#1 := (cond1_iff L k).2 (Or.inl hk0)
  have hneg : ¬ (Scalar.cmpi .ne (Scalar.extui (Scalar.cmpi .sgt (Scf.iv 0#32 1#32 k) 0#32) : BitVec 32) 0#32 = 1#1) := by
    rw [later_iff]; omega
  unfold k0_t1_body
  simp only [k0_part1_eq_skeleton, k0_part2_eq_skeleton]
  unfold k0_part1_skel k0_part2_skel
  unfold oinv
  rw [show tailRes m d L k.val = tail0 d L from by rw [hk0]; rfl, tailRes_succ]
  unfold tail0 tailS
  iintro ⟨#Hmw, Hxt, Htb, ⟨%fv, Hvec⟩, ⟨%fx, %hfx, Hxr⟩, HsV, HsX, Hfresh, Hdone, ⟨⟨%f0, Hq0⟩, ⟨%f1, Hq1⟩, Hs0, Hs1⟩, ⟨%W', %hW', HO⟩⟩
  ihave Hsp := (row_split d L k (m (otLoc d))) $$ Hfresh
  icases Hsp with ⟨Hc0, Hc1, Hc2, Hc3, Hfresh⟩
  sl_exec
  have hvc := vec_lands m d L k fv
  have hxr := xrow_lands m d L k k0_h1 fx
  repeat rw [wp_bind]
  iapply ((gather2 m d L hpre k _ _ _ _ _ _ hxr f0).trans (wp_wand _ _ _)) $$ [Hxr Hvec Hq0]
  · isplitl [Hxr]; · iexact Hxr
    isplitl [Hvec]; · iexact Hvec
    iexact Hq0
  iintro %_ ⟨Hxr, Hvec, %g0, %hg0, Hq0⟩
  sl_exec
  repeat rw [wp_bind]
  iapply ((gather3 m d L hpre k _ _ _ _ hxr f1).trans (wp_wand _ _ _)) $$ [Hxr Hvec Hq1]
  · isplitl [Hxr]; · iexact Hxr
    isplitl [Hvec]; · iexact Hvec
    iexact Hq1
  iintro %_ ⟨Hxr, Hvec, %g1, %hg1, Hq1⟩
  sl_exec
  repeat rw [wp_bind]
  iapply ((gather4 m d L hpre k _ _ _ _ hxr g0).trans (wp_wand _ _ _)) $$ [Hxr Hvec Hq0]
  · isplitl [Hxr]; · iexact Hxr
    isplitl [Hvec]; · iexact Hvec
    iexact Hq0
  iintro %_ ⟨Hxr, Hvec, %g2, %hg2, Hq0⟩
  sl_exec
  repeat rw [wp_bind]
  iapply ((gather5 m d L hpre k _ _ _ _ hxr g1).trans (wp_wand _ _ _)) $$ [Hxr Hvec Hq1]
  · isplitl [Hxr]; · iexact Hxr
    isplitl [Hvec]; · iexact Hvec
    iexact Hq1
  iintro %_ ⟨Hxr, Hvec, %g3, %hg3, Hq1⟩
  sl_exec
  sl_step
  rw [kM_val]
  isplitr; · iexact Hmw
  isplitl [Hxt]; · iexact Hxt
  isplitl [Htb]; · iexact Htb
  isplitl [Hvec]; · iexists _; iexact Hvec
  isplitl [Hxr]
  · iexists _; isplitr
    rotate_left; · iexact Hxr
    ipureintro; intro _
    exact ⟨⟨uOf L k.val / 32, field_lt L k⟩, by simp, hxr⟩
  isplitl [HsV]; · iexact HsV
  isplitl [HsX]; · iexact HsX
  isplitl [Hfresh]; · iexact Hfresh
  isplitl [Hc0 Hc1 Hdone]
  · iapply (done_first' d L k hk0 _)
    isplitl [Hc0]
    · iapply (land_ch0 m d L k _ _ (chunk_lands0 m d L k _ _ _ g0 hxr hvc hg0)); iexact Hc0
    · iapply (land_ch1 m d L k _ _ (chunk_lands1 m d L k _ _ _ g1 hxr hvc hg1)); iexact Hc1
  isplitl [Hs0 Hq0 Hs1 Hq1]
  · iexists g2, g3; isplitr
    · ipureintro
      exact ⟨fun fA => chunk_lands2 m d L k fA _ _ g2 hxr hvc hg2, fun fA => chunk_lands3 m d L k fA _ _ g3 hxr hvc hg3⟩
    isplitl [Hs0]; · iexact Hs0
    isplitl [Hq0]; · iexact Hq0
    isplitl [Hs1]; · iexact Hs1
    iexact Hq1
  iexists _; isplitr
  rotate_left; · iexact HO
  ipureintro; intro p hp
  repeat (rcases Finset.mem_insert.mp hp with rfl | hp; · exact Or.inr rfl)
  exact hW' p hp

set_option maxHeartbeats 1600000 in
/-- A later trip that starts a new field: it fetches the field's index row. It first collects the previous trip's last two copies, and ends with its own last two in flight. -/
theorem trip_next_fetch (hpre : PreOK m) (O : CellTallies nD τ sig (HIx 1)) (W : Waits sig (HIx 1)) (k : Fin k0_t1_loop.trips) (n : ℕ) (hk : k.val = n + 1) (k0_h1 : k0_cond1 L k = 1#1) :
    oinv m d L O W k.val ⟨⟩
      ⊢ wp frame (wpE (defs₀ (F := F)) 𝒱₀ (thr d L) none) Set.univ
          (k0_t1_body L xtM (Memref.isWhole_whole _) tbM (Memref.isWhole_whole _) otM (Memref.isWhole_whole _)
            vecM (Memref.isWhole_whole _) xrM (Memref.isWhole_whole _) oq0M (Memref.isWhole_whole _) oq1M (Memref.isWhole_whole _)
            cc0_scratch4 cc0_scratch5 cc0_scratch6 cc0_scoped0 (v2w L) k ⟨⟩)
          (fun _ => oinv m d L O W (k.val + 1) ⟨⟩) := by
  have hpos : (Scalar.cmpi .ne (Scalar.extui (Scalar.cmpi .sgt (Scf.iv 0#32 1#32 k) 0#32) : BitVec 32) 0#32 = 1#1) :=
    (later_iff k).2 (by omega)
  have hn : n < 26 := by have := k_lt k; omega
  have hkMv : (kM n).val = n := Nat.mod_eq_of_lt hn
  unfold k0_t1_body
  simp only [k0_part1_eq_skeleton, k0_part2_eq_skeleton]
  unfold k0_part1_skel k0_part2_skel
  unfold oinv
  rw [show tailRes m d L k.val = tailS m d L n from by rw [hk]; rfl, tailRes_succ]
  unfold tailS
  iintro ⟨#Hmw, Hxt, Htb, ⟨%fv, Hvec⟩, ⟨%fx, %hfx, Hxr⟩, HsV, HsX, Hfresh, Hdone, ⟨%p0, %p1, %hland, Hs0, Hq0, Hs1, Hq1⟩, ⟨%W', %hW', HO⟩⟩
  have hl2 : ∀ fA, ((ch2M L (kM n)).view.loc (thr d L) ↦[(ch2M L (kM n)).view.set]{fullShare} landed0 d L (ch2M L (kM n)) fA p0 : sProp 𝕄)
      ⊢ otLoc d ↦[chunkN (uOf L n) 2]{fullShare} OT m d := fun fA => by
    have := land_ch2 m d L (kM n) fA p0 (by rw [hkMv]; exact hland.1 fA)
    rwa [hkMv] at this
  have hl3 : ∀ fA, ((ch3M L (kM n)).view.loc (thr d L) ↦[(ch3M L (kM n)).view.set]{fullShare} landed1 d L (ch3M L (kM n)) fA p1 : sProp 𝕄)
      ⊢ otLoc d ↦[chunkN (uOf L n) 3]{fullShare} OT m d := fun fA => by
    have := land_ch3 m d L (kM n) fA p1 (by rw [hkMv]; exact hland.2 fA)
    rwa [hkMv] at this
  ihave Hsp := (row_split d L k (m (otLoc d))) $$ Hfresh
  icases Hsp with ⟨Hc0, Hc1, Hc2, Hc3, Hfresh⟩
  sl_exec
  have hvc := vec_lands m d L k fv
  have hxr := xrow_lands m d L k k0_h1 fx
  repeat rw [wp_bind]
  iapply ((gather2 m d L hpre k _ _ _ _ _ _ hxr p0).trans (wp_wand _ _ _)) $$ [Hxr Hvec Hq0]
  · isplitl [Hxr]; · iexact Hxr
    isplitl [Hvec]; · iexact Hvec
    iexact Hq0
  iintro %_ ⟨Hxr, Hvec, %g0, %hg0, Hq0⟩
  sl_exec
  repeat rw [wp_bind]
  iapply ((gather3 m d L hpre k _ _ _ _ hxr p1).trans (wp_wand _ _ _)) $$ [Hxr Hvec Hq1]
  · isplitl [Hxr]; · iexact Hxr
    isplitl [Hvec]; · iexact Hvec
    iexact Hq1
  iintro %_ ⟨Hxr, Hvec, %g1, %hg1, Hq1⟩
  sl_exec
  repeat rw [wp_bind]
  iapply ((gather4 m d L hpre k _ _ _ _ hxr g0).trans (wp_wand _ _ _)) $$ [Hxr Hvec Hq0]
  · isplitl [Hxr]; · iexact Hxr
    isplitl [Hvec]; · iexact Hvec
    iexact Hq0
  iintro %_ ⟨Hxr, Hvec, %g2, %hg2, Hq0⟩
  sl_exec
  repeat rw [wp_bind]
  iapply ((gather5 m d L hpre k _ _ _ _ hxr g1).trans (wp_wand _ _ _)) $$ [Hxr Hvec Hq1]
  · isplitl [Hxr]; · iexact Hxr
    isplitl [Hvec]; · iexact Hvec
    iexact Hq1
  iintro %_ ⟨Hxr, Hvec, %g3, %hg3, Hq1⟩
  sl_exec
  sl_step
  rw [kM_val]
  isplitr; · iexact Hmw
  isplitl [Hxt]; · iexact Hxt
  isplitl [Htb]; · iexact Htb
  isplitl [Hvec]; · iexists _; iexact Hvec
  isplitl [Hxr]
  · iexists _; isplitr
    rotate_left; · iexact Hxr
    ipureintro; intro _
    exact ⟨⟨uOf L k.val / 32, field_lt L k⟩, by simp, hxr⟩
  isplitl [HsV]; · iexact HsV
  isplitl [HsX]; · iexact HsX
  isplitl [Hfresh]; · iexact Hfresh
  isplitl [Hc0 Hc1 Hdone Hs0_dst Hs1_dst]
  · iapply (done_next' d L k n hk _)
    isplitl [Hdone]; · iexact Hdone
    isplitl [Hs0_dst]; · iapply (hl2 _); iexact Hs0_dst
    isplitl [Hs1_dst]; · iapply (hl3 _); iexact Hs1_dst
    isplitl [Hc0]
    · iapply (land_ch0 m d L k _ _ (chunk_lands0 m d L k _ _ _ g0 hxr hvc hg0)); iexact Hc0
    · iapply (land_ch1 m d L k _ _ (chunk_lands1 m d L k _ _ _ g1 hxr hvc hg1)); iexact Hc1
  isplitl [Hs0 Hq0 Hs1 Hq1]
  · iexists g2, g3; isplitr
    · ipureintro
      exact ⟨fun fA => chunk_lands2 m d L k fA _ _ g2 hxr hvc hg2, fun fA => chunk_lands3 m d L k fA _ _ g3 hxr hvc hg3⟩
    isplitl [Hs0]; · iexact Hs0
    isplitl [Hq0]; · iexact Hq0
    isplitl [Hs1]; · iexact Hs1
    iexact Hq1
  iexists _; isplitr
  rotate_left; · iexact HO
  ipureintro; intro p hp
  repeat (rcases Finset.mem_insert.mp hp with rfl | hp; · exact Or.inr rfl)
  exact hW' p hp

set_option maxHeartbeats 1600000 in
/-- A later trip within a field: the index row already held is the right one. -/
theorem trip_next_keep (hpre : PreOK m) (O : CellTallies nD τ sig (HIx 1)) (W : Waits sig (HIx 1)) (k : Fin k0_t1_loop.trips) (n : ℕ) (hk : k.val = n + 1) (k0_h1 : ¬ k0_cond1 L k = 1#1) :
    oinv m d L O W k.val ⟨⟩
      ⊢ wp frame (wpE (defs₀ (F := F)) 𝒱₀ (thr d L) none) Set.univ
          (k0_t1_body L xtM (Memref.isWhole_whole _) tbM (Memref.isWhole_whole _) otM (Memref.isWhole_whole _)
            vecM (Memref.isWhole_whole _) xrM (Memref.isWhole_whole _) oq0M (Memref.isWhole_whole _) oq1M (Memref.isWhole_whole _)
            cc0_scratch4 cc0_scratch5 cc0_scratch6 cc0_scoped0 (v2w L) k ⟨⟩)
          (fun _ => oinv m d L O W (k.val + 1) ⟨⟩) := by
  have hpos : (Scalar.cmpi .ne (Scalar.extui (Scalar.cmpi .sgt (Scf.iv 0#32 1#32 k) 0#32) : BitVec 32) 0#32 = 1#1) :=
    (later_iff k).2 (by omega)
  have hn : n < 26 := by have := k_lt k; omega
  have hkMv : (kM n).val = n := Nat.mod_eq_of_lt hn
  unfold k0_t1_body
  simp only [k0_part1_eq_skeleton, k0_part2_eq_skeleton]
  unfold k0_part1_skel k0_part2_skel
  unfold oinv
  rw [show tailRes m d L k.val = tailS m d L n from by rw [hk]; rfl, tailRes_succ]
  unfold tailS
  iintro ⟨#Hmw, Hxt, Htb, ⟨%fv, Hvec⟩, ⟨%fx, %hfx, Hxr⟩, HsV, HsX, Hfresh, Hdone, ⟨%p0, %p1, %hland, Hs0, Hq0, Hs1, Hq1⟩, ⟨%W', %hW', HO⟩⟩
  have hl2 : ∀ fA, ((ch2M L (kM n)).view.loc (thr d L) ↦[(ch2M L (kM n)).view.set]{fullShare} landed0 d L (ch2M L (kM n)) fA p0 : sProp 𝕄)
      ⊢ otLoc d ↦[chunkN (uOf L n) 2]{fullShare} OT m d := fun fA => by
    have := land_ch2 m d L (kM n) fA p0 (by rw [hkMv]; exact hland.1 fA)
    rwa [hkMv] at this
  have hl3 : ∀ fA, ((ch3M L (kM n)).view.loc (thr d L) ↦[(ch3M L (kM n)).view.set]{fullShare} landed1 d L (ch3M L (kM n)) fA p1 : sProp 𝕄)
      ⊢ otLoc d ↦[chunkN (uOf L n) 3]{fullShare} OT m d := fun fA => by
    have := land_ch3 m d L (kM n) fA p1 (by rw [hkMv]; exact hland.2 fA)
    rwa [hkMv] at this
  have hkp : 0 < k.val := by omega
  obtain ⟨f, hf, hxf⟩ := hfx hkp
  have hc : ¬ (uOf L k.val % 32 = 0) := fun h => k0_h1 ((cond1_iff L k).2 (Or.inr h))
  have hfe : f = ⟨uOf L k.val / 32, field_lt L k⟩ := Fin.ext (by rw [hf, xrow_keeps L k.val hkp hc])
  subst hfe
  ihave Hsp := (row_split d L k (m (otLoc d))) $$ Hfresh
  icases Hsp with ⟨Hc0, Hc1, Hc2, Hc3, Hfresh⟩
  sl_exec
  have hvc := vec_lands m d L k fv
  repeat rw [wp_bind]
  iapply ((gather2 m d L hpre k _ _ _ _ _ _ hxf p0).trans (wp_wand _ _ _)) $$ [Hxr Hvec Hq0]
  · isplitl [Hxr]; · iexact Hxr
    isplitl [Hvec]; · iexact Hvec
    iexact Hq0
  iintro %_ ⟨Hxr, Hvec, %g0, %hg0, Hq0⟩
  sl_exec
  repeat rw [wp_bind]
  iapply ((gather3 m d L hpre k _ _ _ _ hxf p1).trans (wp_wand _ _ _)) $$ [Hxr Hvec Hq1]
  · isplitl [Hxr]; · iexact Hxr
    isplitl [Hvec]; · iexact Hvec
    iexact Hq1
  iintro %_ ⟨Hxr, Hvec, %g1, %hg1, Hq1⟩
  sl_exec
  repeat rw [wp_bind]
  iapply ((gather4 m d L hpre k _ _ _ _ hxf g0).trans (wp_wand _ _ _)) $$ [Hxr Hvec Hq0]
  · isplitl [Hxr]; · iexact Hxr
    isplitl [Hvec]; · iexact Hvec
    iexact Hq0
  iintro %_ ⟨Hxr, Hvec, %g2, %hg2, Hq0⟩
  sl_exec
  repeat rw [wp_bind]
  iapply ((gather5 m d L hpre k _ _ _ _ hxf g1).trans (wp_wand _ _ _)) $$ [Hxr Hvec Hq1]
  · isplitl [Hxr]; · iexact Hxr
    isplitl [Hvec]; · iexact Hvec
    iexact Hq1
  iintro %_ ⟨Hxr, Hvec, %g3, %hg3, Hq1⟩
  sl_exec
  sl_step
  rw [kM_val]
  isplitr; · iexact Hmw
  isplitl [Hxt]; · iexact Hxt
  isplitl [Htb]; · iexact Htb
  isplitl [Hvec]; · iexists _; iexact Hvec
  isplitl [Hxr]
  · iexists _; isplitr
    rotate_left; · iexact Hxr
    ipureintro; intro _
    exact ⟨⟨uOf L k.val / 32, field_lt L k⟩, by simp, hxf⟩
  isplitl [HsV]; · iexact HsV
  isplitl [HsX]; · iexact HsX
  isplitl [Hfresh]; · iexact Hfresh
  isplitl [Hc0 Hc1 Hdone Hs0_dst Hs1_dst]
  · iapply (done_next' d L k n hk _)
    isplitl [Hdone]; · iexact Hdone
    isplitl [Hs0_dst]; · iapply (hl2 _); iexact Hs0_dst
    isplitl [Hs1_dst]; · iapply (hl3 _); iexact Hs1_dst
    isplitl [Hc0]
    · iapply (land_ch0 m d L k _ _ (chunk_lands0 m d L k _ _ _ g0 hxf hvc hg0)); iexact Hc0
    · iapply (land_ch1 m d L k _ _ (chunk_lands1 m d L k _ _ _ g1 hxf hvc hg1)); iexact Hc1
  isplitl [Hs0 Hq0 Hs1 Hq1]
  · iexists g2, g3; isplitr
    · ipureintro
      exact ⟨fun fA => chunk_lands2 m d L k fA _ _ g2 hxf hvc hg2, fun fA => chunk_lands3 m d L k fA _ _ g3 hxf hvc hg3⟩
    isplitl [Hs0]; · iexact Hs0
    isplitl [Hq0]; · iexact Hq0
    isplitl [Hs1]; · iexact Hs1
    iexact Hq1
  iexists _; isplitr
  rotate_left; · iexact HO
  ipureintro; intro p hp
  repeat (rcases Finset.mem_insert.mp hp with rfl | hp; · exact Or.inr rfl)
  exact hW' p hp

/-- Every trip keeps what holds between trips. -/
theorem trip (hpre : PreOK m) (O : CellTallies nD τ sig (HIx 1)) (W : Waits sig (HIx 1)) (k : Fin k0_t1_loop.trips) :
    oinv m d L O W k.val ⟨⟩
      ⊢ wp frame (wpE (defs₀ (F := F)) 𝒱₀ (thr d L) none) Set.univ
          (k0_t1_body L xtM (Memref.isWhole_whole _) tbM (Memref.isWhole_whole _) otM (Memref.isWhole_whole _)
            vecM (Memref.isWhole_whole _) xrM (Memref.isWhole_whole _) oq0M (Memref.isWhole_whole _) oq1M (Memref.isWhole_whole _)
            cc0_scratch4 cc0_scratch5 cc0_scratch6 cc0_scoped0 (v2w L) k ⟨⟩)
          (fun _ => oinv m d L O W (k.val + 1) ⟨⟩) := by
  rcases Nat.eq_zero_or_pos k.val with h0 | hp
  · exact trip_first m d L hpre O W k h0
  · obtain ⟨n, hn⟩ := Nat.exists_eq_succ_of_ne_zero (Nat.pos_iff_ne_zero.mp hp)
    by_cases hc : k0_cond1 L k = 1#1
    · exact trip_next_fetch m d L hpre O W k n hn hc
    · exact trip_next_keep m d L hpre O W k n hn hc

end Tile

end Cert.Proof.KB

end
-- ==== Proof.KBBody.lean ====
/-
  One vector subcore's whole task, and the launch theorem's obligation for it.

  The task is the 26-trip loop and two last waits. Handed its read shares of the index array and the flattened tables,
  its own 26 rows of `ot`, and its scratch buffers and semaphores at rest, the subcore ends with its rows at their
  final contents, everything else handed back as it came.
-/
import proofs.«204002_g15616501088794_cont_week2b_169_25_alg».proof.Proof.KBTrip

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "xtM" => (Memref.whole Cert.Kernel.main_v0_scv : Memref Cert.Kernel.sig Kind.scVector Space.hbm Cert.Kernel.S26x16384 EltTy.i32)
local notation "tbM" => (Memref.whole Cert.Kernel.main_v2_scv : Memref Cert.Kernel.sig Kind.scVector Space.hbm Cert.Kernel.S832x100000 EltTy.f32)
local notation "otM" => (Memref.whole Cert.Kernel.main_v3_scv : Memref Cert.Kernel.sig Kind.scVector Space.hbm Cert.Kernel.S832x16384 EltTy.f32)
local notation "vecM" => (Memref.whole Cert.Kernel.cc0_scratch0 : Memref Cert.Kernel.sig Kind.scVector Space.vmem Cert.Kernel.S100000 EltTy.f32)
local notation "xrM" => (Memref.whole Cert.Kernel.cc0_scratch1 : Memref Cert.Kernel.sig Kind.scVector Space.vmem Cert.Kernel.S16384 EltTy.i32)
local notation "oq0M" => (Memref.whole Cert.Kernel.cc0_scratch2 : Memref Cert.Kernel.sig Kind.scVector Space.vmem Cert.Kernel.S4096 EltTy.f32)
local notation "oq1M" => (Memref.whole Cert.Kernel.cc0_scratch3 : Memref Cert.Kernel.sig Kind.scVector Space.vmem Cert.Kernel.S4096 EltTy.f32)

variable (m : (ℓ : Loc nD τ sig) → Buf (Elt F) ℓ) [FloatOps F]

section Tile
variable (d : Dev nD) (L : grid0.Coords)

theorem pts_xt (q : PosShare TreeShare) (f : Buf (Elt F) (xtLoc d)) :
    ((xtM).view.loc (thr d L) ↦{q} f : sProp 𝕄) = xtLoc d ↦{q} f := rfl
theorem pts_tb (q : PosShare TreeShare) (f : Buf (Elt F) (tbLoc d)) :
    ((tbM).view.loc (thr d L) ↦{q} f : sProp 𝕄) = tbLoc d ↦{q} f := rfl

set_option maxHeartbeats 1600000 in
/-- The task on the vector subcore at `L` of device `d`. -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp ∗ tileRes m d (cL L) (jL L) (m (otLoc d))
        ∗ scopedBufs (thr d L) ∗ scopedSems0 (thr d L) ∗ owes (thr d L) O W)
      ⊢ wp frame (wpE (defs₀ (F := F)) 𝒱₀ (thr d L) none) Set.univ
          (cc0_k L xtM (Memref.isWhole_whole _) tbM (Memref.isWhole_whole _) otM (Memref.isWhole_whole _)
            vecM (Memref.isWhole_whole _) xrM (Memref.isWhole_whole _) oq0M (Memref.isWhole_whole _) oq1M (Memref.isWhole_whole _)
            cc0_scratch4 cc0_scratch5 cc0_scratch6 cc0_scoped0)
          fun _ => iprop(tileRes m d (cL L) (jL L) (OT m d) ∗ scopedBufs (thr d L) ∗ scopedSems0 (thr d L)
            ∗ ∃ W', ⌜∀ p ∈ W', p ∈ W ∨ p.2 = none⌝ ∗ owes (thr d L) O W') := by
  simp only [cc0_k_eq_skeleton]; unfold cc0_k_skel
  rw [(K (F := F)).scopedBufs_V hF d (cV L) (jV L), SparseCore.Cfg.scopedSems0_V (Val := Elt F) d (cV L) (jV L), ownSems0_V, ownBufs_V]
  iintro ⟨#Hlv, -, ⟨Hxt, Htb, Hot⟩, ⟨⟨%fv, Hvec⟩, ⟨%fx, Hxr⟩, ⟨%f0, Hq0⟩, ⟨%f1, Hq1⟩, Hbufs⟩, ⟨HsV, Hs0, Hs1, HsX, Hsems⟩, HO⟩
  ihave Hmw := ((K (F := F)).mayWaits_none (thr := thr d L) hO) $$ Hlv
  sl_exec
  sl_for (oinv m d L O W) $$ [Hxt Htb Hot Hvec Hxr Hq0 Hq1 HsV Hs0 Hs1 HsX HO]
  case region =>
    intro k _
    exact trip m d L hpre O W k
  · unfold oinv
    rw [tailRes_zero]
    unfold tail0
    isplitr; · iexact Hmw
    isplitl [Hxt]; · iexact Hxt
    isplitl [Htb]; · iexact Htb
    isplitl [Hvec]; · iexists fv; iexact Hvec
    isplitl [Hxr]
    · iexists fx; isplitr
      · ipureintro; intro h; exact absurd h (lt_irrefl 0)
      · iexact Hxr
    isplitl [HsV]; · iexact HsV
    isplitl [HsX]; · iexact HsX
    isplitl [Hot]
    · rw [← tileSet_eq]; iexact Hot
    isplitr
    · rw [doneSet_zero, pointsTo_empty]; iempintro
    isplitl [Hq0 Hq1 Hs0 Hs1]
    · isplitl [Hq0]; · iexists f0; iexact Hq0
      isplitl [Hq1]; · iexists f1; iexact Hq1
      isplitl [Hs0]; · iexact Hs0
      iexact Hs1
    iexists W; isplitr
    · ipureintro; exact fun p hp => Or.inl hp
    · iexact HO
  have e26 : Scf.trips k0_t1_loop.lb k0_t1_loop.ub k0_t1_loop.st = 26 := trips1
  rw [e26]
  iintro %_ HI
  unfold oinv
  rw [show tailRes m d L 26 = tailS m d L 25 from rfl]
  unfold tailS
  icases HI with ⟨-, Hxt, Htb, ⟨%fv', Hvec⟩, ⟨%fx', -, Hxr⟩, HsV, HsX, Hfresh, Hdone, ⟨%p0, %p1, %hland, Hs0, Hq0, Hs1, Hq1⟩, ⟨%W', %hW', HO⟩⟩
  have hkMv : (kM 25).val = 25 := rfl
  have hl2 : ∀ fA, ((ch2M L (kM 25)).view.loc (thr d L) ↦[(ch2M L (kM 25)).view.set]{fullShare} landed0 d L (ch2M L (kM 25)) fA p0 : sProp 𝕄)
      ⊢ otLoc d ↦[chunkN (uOf L 25) 2]{fullShare} OT m d := fun fA => land_ch2 m d L (kM 25) fA p0 (hland.1 fA)
  have hl3 : ∀ fA, ((ch3M L (kM 25)).view.loc (thr d L) ↦[(ch3M L (kM 25)).view.set]{fullShare} landed1 d L (ch3M L (kM 25)) fA p1 : sProp 𝕄)
      ⊢ otLoc d ↦[chunkN (uOf L 25) 3]{fullShare} OT m d := fun fA => land_ch3 m d L (kM 25) fA p1 (hland.2 fA)
  sl_exec
  sl_step
  isplitl [Hxt Htb Hdone Hs0_dst Hs1_dst]
  · isplitl [Hxt]; · iexact Hxt
    isplitl [Htb]; · iexact Htb
    rw [tileSet_eq, tile_final]
    iapply (pointsTo_union (tile_final_d2 L)).2
    isplitr [Hs1_dst]; rotate_left; · iapply (hl3 _); iexact Hs1_dst
    iapply (pointsTo_union (tile_final_d1 L)).2
    isplitl [Hdone]; · iexact Hdone
    iapply (hl2 _); iexact Hs0_dst
  isplitl [Hvec Hxr Hq0 Hq1 Hbufs]
  · isplitl [Hvec]; · iexists _; iexact Hvec
    isplitl [Hxr]; · iexists _; iexact Hxr
    isplitl [Hq0]; · iexists _; iexact Hq0
    isplitl [Hq1]; · iexists _; iexact Hq1
    iexact Hbufs
  isplitl [HsV Hs0 Hs1 HsX Hsems]
  · isplitl [HsV]; · iexact HsV
    isplitl [Hs0]; · iexact Hs0
    isplitl [Hs1]; · iexact Hs1
    isplitl [HsX]; · iexact HsX
    iexact Hsems
  iexists _; isplitr
  rotate_left; · iexact HO
  ipureintro; intro p hp
  repeat (rcases Finset.mem_insert.mp hp with rfl | hp; · exact Or.inr rfl)
  exact hW' p hp

end Tile

/-! ## The launch theorem's obligation -/

theorem defs₀_vector (c : Fin τ.nSC) (s : Fin τ.nSub) :
    defs₀ (F := F) (.scVector c s) 0 ()
      = SparseCore.onTile hcore0 hsub0 (fun c s => cc0_k (coordsV c s)
          xtM (Memref.isWhole_whole _) tbM (Memref.isWhole_whole _) otM (Memref.isWhole_whole _)
          vecM (Memref.isWhole_whole _) xrM (Memref.isWhole_whole _) oq0M (Memref.isWhole_whole _) oq1M (Memref.isWhole_whole _)
          cc0_scratch4 cc0_scratch5 cc0_scratch6 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every vector subcore's task, as the launch theorem asks it. -/
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF hpre O W hO).trans (wp_mono frame _ _ fun _ => obl_post)

end Cert.Proof.KB

end
-- ==== Proof.KBGlue.lean ====
/-
  The program's result as a function of its two arguments.

  The TensorCore transposes the index array, transposes each table and flattens the stack of transposed tables to one
  row per output column; the SparseCores gather along those rows; the TensorCore transposes what they leave. Read index
  by index, the composition is the lookup itself: `out[b, u] = ot[u, b] = tb[u, xt[u / 32, b]]` with
  `xt[f, b] = x[b, f]` and `tb[u, v] = t1[u / 32, u % 32, v] = tables[u / 32, v, u % 32]`, the middle step because
  `(u / 32) * 32 + u % 32 = u` makes the two row-major positions agree.
-/
import proofs.«204002_g15616501088794_cont_week2b_169_25_alg».proof.Proof.KBCommon
import Idealize.ShloMosaic.Lib.ValueLayout
import Idealize.ShloMosaic.Lib.Pipeline.Value

noncomputable section

namespace Cert.Proof.KB

open Cert.Kernel Cert.Kernel.Gen

open Idealize.ShloMosaic Idealize.ShloMosaic.ValueIdx
open Cert.Spec (rowOf fieldOf compOf)

variable {F : FTy → Type}
variable (m : (ℓ : Loc nD τ sig) → Buf (Elt F) ℓ)

/-- `xt[f, b] = x[b, f]`. -/
theorem XT_apply (d : Dev nD) (f : Fin 26) (b : Fin 16384) : XT m d (ix2 f b) = m (a0Loc d) (ix2 b f) :=
  transpose_ix2_apply (m (a0Loc d)) transposes_S16384x26_S26x16384_1_0 f b

/-- `t1[f, e, v] = tables[f, v, e]`. -/
theorem T1_apply (d : Dev nD) (f : Fin 26) (e : Fin 32) (v : Fin 100000) : T1 m d (ix3 f e v) = m (a1Loc d) (ix3 f v e) :=
  transpose_ix3_021_apply (m (a1Loc d)) transposes_S26x100000x32_S26x32x100000_0_2_1 f e v

/-- `tb[u, v] = t1[u / 32, u % 32, v]`: row `u` of the flattened stack is row `u % 32` of matrix `u / 32`. -/
theorem TB_apply (d : Dev nD) (u : Fin 832) (v : Fin 100000) : TB m d (ix2 u v) = T1 m d (ix3 (fieldOf u) (compOf u) v) :=
  shapeCast_apply (s := S26x32x100000) (t := S832x100000) (T1 m d) shapeCasts_S26x32x100000_S832x100000 (ix2 u v) (ix3 (fieldOf u) (compOf u) v) (by
    show ((⟨3, ![26, 32, 100000]⟩ : Shape).rowMajor (ix3 (fieldOf u) (compOf u) v)).val = ((⟨2, ![832, 100000]⟩ : Shape).rowMajor (ix2 u v)).val
    rw [Shape.rowMajor_val_three, Shape.rowMajor_val_two]
    show ((u.val / 32) * 32 + u.val % 32) * 100000 + v.val = u.val * 100000 + v.val
    rw [Nat.div_add_mod' u.val 32])

/-- `ot[u, b] = tb[u, xt[u / 32, b]]`. -/
theorem OT_apply (d : Dev nD) (u : Fin 832) (b : Fin 16384) :
    OT m d (ix2 u b) = TB m d (ix2 u (rowOf (XT m d (ix2 (fieldOf u) b)))) := rfl

/-- `out[b, u] = ot[u, b]`. -/
theorem OU_apply (d : Dev nD) (b : Fin 16384) (u : Fin 832) : OU m d (ix2 b u) = OT m d (ix2 u b) :=
  transpose_ix2_apply (OT m d) transposes_S832x16384_S16384x832_1_0 b u

/-- What the program leaves is the lookup of its arguments. -/
theorem OU_eq (d : Dev nD) : OU m d = Cert.Spec.lookup (m (a0Loc d)) (m (a1Loc d)) := by
  refine funext fun (i : (⟨2, ![16384, 832]⟩ : Shape).Idx) => ?_
  obtain ⟨b, u, rfl⟩ : ∃ (b : Fin 16384) (u : Fin 832), i = ix2 b u := ⟨i 0, i 1, eq_ix2 i⟩
  rw [OU_apply, OT_apply, TB_apply, T1_apply, XT_apply]
  rfl

/-- Indices in range as the arguments hold them are in range as the kernel reads them. -/
theorem preOK_of_range (h : ∀ (d : Dev nD) (i : S16384x26.Idx), (m (a0Loc d) i).toNat < 100000) : PreOK m := by
  intro d (i : (⟨2, ![26, 16384]⟩ : Shape).Idx)
  obtain ⟨f, b, rfl⟩ : ∃ (f : Fin 26) (b : Fin 16384), i = ix2 f b := ⟨i 0, i 1, eq_ix2 i⟩
  rw [XT_apply]
  exact h d _

end Cert.Proof.KB

end
-- ==== Proof.RefFn.lean ====
/-
  The reference lookup as pure functions of its two arguments.

  The reference program slices column `k` out of the index array and table `k` out of the stack of tables, looks the
  column up in the table (`take`), and concatenates the 26 results along the feature axis: the first sixteen into a block
  of 512 columns, the last ten into a block of 320, then the two blocks. The definitions below are those stages, each the
  pure operations of the printed program in its own spelling and order, so that what the run leaves in the result
  buffer is `refOut` of the argument buffers' contents by unfolding alone.

  Choice made here for the per-field stages: ONE definition each for the column stage (`colFn`) and the table stage
  (`tabFn`), taking the slice's start vector and the fact that the slice fits as arguments; the 26 fields are then the
  small named terms `field0 … field25`, and `refOut` is stated over those names.

  `take` is the library's gather with numpy's index handling around it: a negative index is first shifted by the table's
  length (`wrapped`), the shifted index is laid out as a one-column matrix (`idxCol`), a row is marked valid when its
  index lies in `[0, 99999]` (`inRange`), and an invalid row is filled with the quiet NaN word `0x7FC00000`.
-/
import proofs.«204002_g15616501088794_cont_week2b_169_25_alg».proof.ReferenceIdeal

noncomputable section

namespace Cert.RefFn

open Idealize.ShloMosaic Cert.ReferenceIdeal Cert.ReferenceIdeal.Facts₀

variable {F : FTy → Type} [FloatOps F] [Facts]

/-! ## `take`: one table, one column of indices -/

/-- The index with a negative value shifted by the number of rows: `idx < 0 ? idx + 100000 : idx`. -/
def wrapped (idx : IVec S16384 32) : IVec S16384 32 :=
  select (cmpi .slt idx (broadcastInDim S16384 ![] bcast_S_S16384 (constantI S_ 32 0#32)))
    (addi idx (broadcastInDim S16384 ![] bcast_S_S16384 (constantI S_ 32 100000#32)))
    idx

/-- The shifted index as a matrix of one column: the gather's start indices. -/
def idxCol (idx : IVec S16384 32) : IVec S16384x1 32 :=
  broadcastInDim S16384x1 ![0] bcast_S16384_S16384x1_0 (wrapped idx)

/-- Per batch row, whether the shifted index is a row of the table: `0 ≤ i ∧ i ≤ 99999`, and-reduced over the one
    column (from `true`). -/
def inRange (idx : IVec S16384 32) : IVec S16384 1 :=
  Host.reduce IntOp.andi
    (andi (cmpi .sge (idxCol idx) (broadcastInDim S16384x1 ![] bcast_S_S16384x1 (constantI S_ 32 0#32)))
      (cmpi .sle (idxCol idx)
        (broadcastInDim S16384x1 ![0, 1] bcast_S1x1_S16384x1_0_1
          (broadcastInDim S1x1 ![1] bcast_S1_S1x1_1 (constantI S1 32 99999#32)))))
    (constantI S_ 1 1#1) reducesTo_S16384x1_S16384_d1 h_S_

/-- The gathered rows: row `b` of the result is the table's row at `idxCol idx b`. -/
def gatheredRows (tab : FVec F S100000x32 .f32) (idx : IVec S16384 32) : FVec F S16384x32 .f32 :=
  Host.gather gather_S100000x32_S16384x1_S16384x32_1_0_n_n_0_1_132 tab (idxCol idx)

/-- `take`: the gathered row where the index is in range, the NaN word elsewhere. -/
def takeFn (tab : FVec F S100000x32 .f32) (idx : IVec S16384 32) : FVec F S16384x32 .f32 :=
  select (broadcastInDim S16384x32 ![0] bcast_S16384_S16384x32_0 (inRange idx))
    (gatheredRows tab idx)
    (broadcastInDim S16384x32 ![] bcast_S_S16384x32 (constant S_ .f32 0x7FC00000#32))

/-! ## The per-field stages -/

/-- A column of the index array as a vector: the slice of one column starting at `off`, then the reshape that drops
    the unit axis. -/
def colFn (off : Fin 2 → Nat) (h : S16384x26.Slices off S16384x1) (x : IVec S16384x26 32) : IVec S16384 32 :=
  shapeCast S16384 (extractStridedSlice S16384x1 off x h) shapeCasts_S16384x1_S16384

/-- One table of the stack as a matrix: the slice of one table starting at `off`, then the reshape that drops the
    unit axis. -/
def tabFn (off : Fin 3 → Nat) (h : S26x100000x32.Slices off S1x100000x32) (t : FVec F S26x100000x32 .f32) :
    FVec F S100000x32 .f32 :=
  shapeCast S100000x32 (extractStridedSlice S1x100000x32 off t h) shapeCasts_S1x100000x32_S100000x32

-- bun scratch/gen_refrun.js fields
/-- Field 0: rows of table 0 chosen by column 0 of the indices. -/
def field0 (x : IVec S16384x26 32) (t : FVec F S26x100000x32 .f32) : FVec F S16384x32 .f32 :=
  takeFn (tabFn ![0, 0, 0] slices_S26x100000x32_S1x100000x32_0_0_0 t) (colFn ![0, 0] slices_S16384x26_S16384x1_0_0 x)

/-- Field 1: rows of table 1 chosen by column 1 of the indices. -/
def field1 (x : IVec S16384x26 32) (t : FVec F S26x100000x32 .f32) : FVec F S16384x32 .f32 :=
  takeFn (tabFn ![1, 0, 0] slices_S26x100000x32_S1x100000x32_1_0_0 t) (colFn ![0, 1] slices_S16384x26_S16384x1_0_1 x)

/-- Field 2: rows of table 2 chosen by column 2 of the indices. -/
def field2 (x : IVec S16384x26 32) (t : FVec F S26x100000x32 .f32) : FVec F S16384x32 .f32 :=
  takeFn (tabFn ![2, 0, 0] slices_S26x100000x32_S1x100000x32_2_0_0 t) (colFn ![0, 2] slices_S16384x26_S16384x1_0_2 x)

/-- Field 3: rows of table 3 chosen by column 3 of the indices. -/
def field3 (x : IVec S16384x26 32) (t : FVec F S26x100000x32 .f32) : FVec F S16384x32 .f32 :=
  takeFn (tabFn ![3, 0, 0] slices_S26x100000x32_S1x100000x32_3_0_0 t) (colFn ![0, 3] slices_S16384x26_S16384x1_0_3 x)

/-- Field 4: rows of table 4 chosen by column 4 of the indices. -/
def field4 (x : IVec S16384x26 32) (t : FVec F S26x100000x32 .f32) : FVec F S16384x32 .f32 :=
  takeFn (tabFn ![4, 0, 0] slices_S26x100000x32_S1x100000x32_4_0_0 t) (colFn ![0, 4] slices_S16384x26_S16384x1_0_4 x)

/-- Field 5: rows of table 5 chosen by column 5 of the indices. -/
def field5 (x : IVec S16384x26 32) (t : FVec F S26x100000x32 .f32) : FVec F S16384x32 .f32 :=
  takeFn (tabFn ![5, 0, 0] slices_S26x100000x32_S1x100000x32_5_0_0 t) (colFn ![0, 5] slices_S16384x26_S16384x1_0_5 x)

/-- Field 6: rows of table 6 chosen by column 6 of the indices. -/
def field6 (x : IVec S16384x26 32) (t : FVec F S26x100000x32 .f32) : FVec F S16384x32 .f32 :=
  takeFn (tabFn ![6, 0, 0] slices_S26x100000x32_S1x100000x32_6_0_0 t) (colFn ![0, 6] slices_S16384x26_S16384x1_0_6 x)

/-- Field 7: rows of table 7 chosen by column 7 of the indices. -/
def field7 (x : IVec S16384x26 32) (t : FVec F S26x100000x32 .f32) : FVec F S16384x32 .f32 :=
  takeFn (tabFn ![7, 0, 0] slices_S26x100000x32_S1x100000x32_7_0_0 t) (colFn ![0, 7] slices_S16384x26_S16384x1_0_7 x)

/-- Field 8: rows of table 8 chosen by column 8 of the indices. -/
def field8 (x : IVec S16384x26 32) (t : FVec F S26x100000x32 .f32) : FVec F S16384x32 .f32 :=
  takeFn (tabFn ![8, 0, 0] slices_S26x100000x32_S1x100000x32_8_0_0 t) (colFn ![0, 8] slices_S16384x26_S16384x1_0_8 x)

/-- Field 9: rows of table 9 chosen by column 9 of the indices. -/
def field9 (x : IVec S16384x26 32) (t : FVec F S26x100000x32 .f32) : FVec F S16384x32 .f32 :=
  takeFn (tabFn ![9, 0, 0] slices_S26x100000x32_S1x100000x32_9_0_0 t) (colFn ![0, 9] slices_S16384x26_S16384x1_0_9 x)

/-- Field 10: rows of table 10 chosen by column 10 of the indices. -/
def field10 (x : IVec S16384x26 32) (t : FVec F S26x100000x32 .f32) : FVec F S16384x32 .f32 :=
  takeFn (tabFn ![10, 0, 0] slices_S26x100000x32_S1x100000x32_10_0_0 t) (colFn ![0, 10] slices_S16384x26_S16384x1_0_10 x)

/-- Field 11: rows of table 11 chosen by column 11 of the indices. -/
def field11 (x : IVec S16384x26 32) (t : FVec F S26x100000x32 .f32) : FVec F S16384x32 .f32 :=
  takeFn (tabFn ![11, 0, 0] slices_S26x100000x32_S1x100000x32_11_0_0 t) (colFn ![0, 11] slices_S16384x26_S16384x1_0_11 x)

/-- Field 12: rows of table 12 chosen by column 12 of the indices. -/
def field12 (x : IVec S16384x26 32) (t : FVec F S26x100000x32 .f32) : FVec F S16384x32 .f32 :=
  takeFn (tabFn ![12, 0, 0] slices_S26x100000x32_S1x100000x32_12_0_0 t) (colFn ![0, 12] slices_S16384x26_S16384x1_0_12 x)

/-- Field 13: rows of table 13 chosen by column 13 of the indices. -/
def field13 (x : IVec S16384x26 32) (t : FVec F S26x100000x32 .f32) : FVec F S16384x32 .f32 :=
  takeFn (tabFn ![13, 0, 0] slices_S26x100000x32_S1x100000x32_13_0_0 t) (colFn ![0, 13] slices_S16384x26_S16384x1_0_13 x)

/-- Field 14: rows of table 14 chosen by column 14 of the indices. -/
def field14 (x : IVec S16384x26 32) (t : FVec F S26x100000x32 .f32) : FVec F S16384x32 .f32 :=
  takeFn (tabFn ![14, 0, 0] slices_S26x100000x32_S1x100000x32_14_0_0 t) (colFn ![0, 14] slices_S16384x26_S16384x1_0_14 x)

/-- Field 15: rows of table 15 chosen by column 15 of the indices. -/
def field15 (x : IVec S16384x26 32) (t : FVec F S26x100000x32 .f32) : FVec F S16384x32 .f32 :=
  takeFn (tabFn ![15, 0, 0] slices_S26x100000x32_S1x100000x32_15_0_0 t) (colFn ![0, 15] slices_S16384x26_S16384x1_0_15 x)

/-- Field 16: rows of table 16 chosen by column 16 of the indices. -/
def field16 (x : IVec S16384x26 32) (t : FVec F S26x100000x32 .f32) : FVec F S16384x32 .f32 :=
  takeFn (tabFn ![16, 0, 0] slices_S26x100000x32_S1x100000x32_16_0_0 t) (colFn ![0, 16] slices_S16384x26_S16384x1_0_16 x)

/-- Field 17: rows of table 17 chosen by column 17 of the indices. -/
def field17 (x : IVec S16384x26 32) (t : FVec F S26x100000x32 .f32) : FVec F S16384x32 .f32 :=
  takeFn (tabFn ![17, 0, 0] slices_S26x100000x32_S1x100000x32_17_0_0 t) (colFn ![0, 17] slices_S16384x26_S16384x1_0_17 x)

/-- Field 18: rows of table 18 chosen by column 18 of the indices. -/
def field18 (x : IVec S16384x26 32) (t : FVec F S26x100000x32 .f32) : FVec F S16384x32 .f32 :=
  takeFn (tabFn ![18, 0, 0] slices_S26x100000x32_S1x100000x32_18_0_0 t) (colFn ![0, 18] slices_S16384x26_S16384x1_0_18 x)

/-- Field 19: rows of table 19 chosen by column 19 of the indices. -/
def field19 (x : IVec S16384x26 32) (t : FVec F S26x100000x32 .f32) : FVec F S16384x32 .f32 :=
  takeFn (tabFn ![19, 0, 0] slices_S26x100000x32_S1x100000x32_19_0_0 t) (colFn ![0, 19] slices_S16384x26_S16384x1_0_19 x)

/-- Field 20: rows of table 20 chosen by column 20 of the indices. -/
def field20 (x : IVec S16384x26 32) (t : FVec F S26x100000x32 .f32) : FVec F S16384x32 .f32 :=
  takeFn (tabFn ![20, 0, 0] slices_S26x100000x32_S1x100000x32_20_0_0 t) (colFn ![0, 20] slices_S16384x26_S16384x1_0_20 x)

/-- Field 21: rows of table 21 chosen by column 21 of the indices. -/
def field21 (x : IVec S16384x26 32) (t : FVec F S26x100000x32 .f32) : FVec F S16384x32 .f32 :=
  takeFn (tabFn ![21, 0, 0] slices_S26x100000x32_S1x100000x32_21_0_0 t) (colFn ![0, 21] slices_S16384x26_S16384x1_0_21 x)

/-- Field 22: rows of table 22 chosen by column 22 of the indices. -/
def field22 (x : IVec S16384x26 32) (t : FVec F S26x100000x32 .f32) : FVec F S16384x32 .f32 :=
  takeFn (tabFn ![22, 0, 0] slices_S26x100000x32_S1x100000x32_22_0_0 t) (colFn ![0, 22] slices_S16384x26_S16384x1_0_22 x)

/-- Field 23: rows of table 23 chosen by column 23 of the indices. -/
def field23 (x : IVec S16384x26 32) (t : FVec F S26x100000x32 .f32) : FVec F S16384x32 .f32 :=
  takeFn (tabFn ![23, 0, 0] slices_S26x100000x32_S1x100000x32_23_0_0 t) (colFn ![0, 23] slices_S16384x26_S16384x1_0_23 x)

/-- Field 24: rows of table 24 chosen by column 24 of the indices. -/
def field24 (x : IVec S16384x26 32) (t : FVec F S26x100000x32 .f32) : FVec F S16384x32 .f32 :=
  takeFn (tabFn ![24, 0, 0] slices_S26x100000x32_S1x100000x32_24_0_0 t) (colFn ![0, 24] slices_S16384x26_S16384x1_0_24 x)

/-- Field 25: rows of table 25 chosen by column 25 of the indices. -/
def field25 (x : IVec S16384x26 32) (t : FVec F S26x100000x32 .f32) : FVec F S16384x32 .f32 :=
  takeFn (tabFn ![25, 0, 0] slices_S26x100000x32_S1x100000x32_25_0_0 t) (colFn ![0, 25] slices_S16384x26_S16384x1_0_25 x)

/-! ## The result -/

/-- Fields 0 … 15 side by side: 512 columns. -/
def lo (x : IVec S16384x26 32) (t : FVec F S26x100000x32 .f32) : FVec F S16384x512 .f32 :=
  concatenate S16384x512 1 [⟨S16384x32, field0 x t⟩, ⟨S16384x32, field1 x t⟩, ⟨S16384x32, field2 x t⟩, ⟨S16384x32, field3 x t⟩, ⟨S16384x32, field4 x t⟩, ⟨S16384x32, field5 x t⟩, ⟨S16384x32, field6 x t⟩, ⟨S16384x32, field7 x t⟩, ⟨S16384x32, field8 x t⟩, ⟨S16384x32, field9 x t⟩, ⟨S16384x32, field10 x t⟩, ⟨S16384x32, field11 x t⟩, ⟨S16384x32, field12 x t⟩, ⟨S16384x32, field13 x t⟩, ⟨S16384x32, field14 x t⟩, ⟨S16384x32, field15 x t⟩]
    concatenates_S16384x32_S16384x32_S16384x32_S16384x32_S16384x32_S16384x32_S16384x32_S16384x32_S16384x32_S16384x32_S16384x32_S16384x32_S16384x32_S16384x32_S16384x32_S16384x32_S16384x512_d1

/-- Fields 16 … 25 side by side: 320 columns. -/
def hi (x : IVec S16384x26 32) (t : FVec F S26x100000x32 .f32) : FVec F S16384x320 .f32 :=
  concatenate S16384x320 1 [⟨S16384x32, field16 x t⟩, ⟨S16384x32, field17 x t⟩, ⟨S16384x32, field18 x t⟩, ⟨S16384x32, field19 x t⟩, ⟨S16384x32, field20 x t⟩, ⟨S16384x32, field21 x t⟩, ⟨S16384x32, field22 x t⟩, ⟨S16384x32, field23 x t⟩, ⟨S16384x32, field24 x t⟩, ⟨S16384x32, field25 x t⟩]
    concatenates_S16384x32_S16384x32_S16384x32_S16384x32_S16384x32_S16384x32_S16384x32_S16384x32_S16384x32_S16384x32_S16384x320_d1

/-- What the reference returns: the two blocks side by side, 832 columns. -/
def refOut (x : IVec S16384x26 32) (t : FVec F S26x100000x32 .f32) : FVec F S16384x832 .f32 :=
  concatenate S16384x832 1 [⟨S16384x512, lo x t⟩, ⟨S16384x320, hi x t⟩] concatenates_S16384x512_S16384x320_S16384x832_d1

end Cert.RefFn

end
-- ==== Proof.LibTypedRef.lean ====
/-
  An inlined call's operations are the plain ones, no program in sight.

  A called function's host operations name their buffers by references that CARRY the tensor type of the value they hold,
  and move the operation's function to the buffers' own types along the equation "the buffer's type is the carried
  type". When that equation is the identity — which it is at every literal reference — the typed operation IS the plain
  builder's at the same buffers with the same function. The proof destructures each typed reference so that the carried
  type becomes, literally, the buffer's type: the transports are then along reflexivity and disappear. The function is
  given twice, at the two spellings of its type (over the carried types, over the buffers' types), and the two are
  related by heterogeneous equality; at literal references that relation is reflexivity, because the two types compute
  to the same one.

  Why bother: a fold of many operations read at a buffer contains one transport per typed operand, and comparing such a
  term with a transport-free one makes the checker recompute a buffer's type from the signature's tables at every
  transport, nested. Entry by entry the same facts cost one such computation per operand. So a list of operations is
  first rewritten, entry by entry, to its plain spelling (the tactic at the end), and only then folded.
-/
import Idealize.ShloMosaic.Lib.StableHlo

namespace Cert.LibTypedRef

open Idealize.ShloMosaic Idealize.ShloMosaic.StableHlo

variable {τ : Topo} {sig : RefSig} {Val : EltTy → Type} {Tx Ta Tb Tc Ty : BufTy}

/-- A typed constant-like operation is the plain one at its buffer, for the same value. -/
theorem tnullary_eq (y : TRef sig Ty) (v : Ty.Contents Val) (w : y.ref.ty.Contents Val) (h : HEq v w) :
    (TRef.nullary y v : HloOp τ sig Val) = StableHlo.nullary y.ref w y.dev := by
  obtain ⟨y, rfl, _, _⟩ := y
  cases h; rfl

/-- A typed one-operand operation is the plain one at its buffers, for the same function. -/
theorem tunary_eq (x : TRef sig Tx) (y : TRef sig Ty) (f : Tx.Contents Val → Ty.Contents Val)
    (g : x.ref.ty.Contents Val → y.ref.ty.Contents Val) (h : HEq f g) :
    (TRef.unary x y f : HloOp τ sig Val) = StableHlo.unary x.ref y.ref g x.dev y.dev := by
  obtain ⟨x, rfl, _, _⟩ := x
  obtain ⟨y, rfl, _, _⟩ := y
  cases h; rfl

/-- A typed two-operand operation is the plain one at its buffers, for the same function. -/
theorem tbinary_eq (a : TRef sig Ta) (b : TRef sig Tb) (y : TRef sig Ty)
    (f : Ta.Contents Val → Tb.Contents Val → Ty.Contents Val)
    (g : a.ref.ty.Contents Val → b.ref.ty.Contents Val → y.ref.ty.Contents Val) (h : HEq f g) :
    (TRef.binary a b y f : HloOp τ sig Val) = StableHlo.binary a.ref b.ref y.ref g a.dev b.dev y.dev := by
  obtain ⟨a, rfl, _, _⟩ := a
  obtain ⟨b, rfl, _, _⟩ := b
  obtain ⟨y, rfl, _, _⟩ := y
  cases h; rfl

/-- A typed three-operand operation is the plain one at its buffers, for the same function. -/
theorem tternary_eq (c : TRef sig Tc) (a : TRef sig Ta) (b : TRef sig Tb) (y : TRef sig Ty)
    (f : Tc.Contents Val → Ta.Contents Val → Tb.Contents Val → Ty.Contents Val)
    (g : c.ref.ty.Contents Val → a.ref.ty.Contents Val → b.ref.ty.Contents Val → y.ref.ty.Contents Val) (h : HEq f g) :
    (TRef.ternary c a b y f : HloOp τ sig Val)
      = StableHlo.ternary c.ref a.ref b.ref y.ref g c.dev a.dev b.dev y.dev := by
  obtain ⟨c, rfl, _, _⟩ := c
  obtain ⟨a, rfl, _, _⟩ := a
  obtain ⟨b, rfl, _, _⟩ := b
  obtain ⟨y, rfl, _, _⟩ := y
  cases h; rfl

/-- Two literal lists of operations are equal entry by entry: an entry spelt the same on both sides by reflexivity
    (at reducible transparency, so that a typed entry is never compared with a plain one by computation), a typed
    operation against its plain spelling by the four lemmas above. Closes `[e₁, …, eₙ] = [p₁, …, pₙ]`. -/
macro "ops_entries" : tactic =>
  `(tactic| repeat (first
      | refine congrArg₂ List.cons (by first
          | with_reducible rfl
          | exact Cert.LibTypedRef.tnullary_eq _ _ _ HEq.rfl
          | exact Cert.LibTypedRef.tunary_eq _ _ _ _ HEq.rfl
          | exact Cert.LibTypedRef.tbinary_eq _ _ _ _ _ HEq.rfl
          | exact Cert.LibTypedRef.tternary_eq _ _ _ _ _ _ HEq.rfl) ?_
      | exact rfl))

end Cert.LibTypedRef
-- ==== Proof.RefRun.lean ====
/-
  The reference program's run, read back as the function `Cert.RefFn.refOut` of its two arguments.

  The reference's @main is a straight line of 705 host operations. For each of the 26 fields: a slice and a reshape of
  the index array (the field's column of indices), a slice and a reshape of the stack of tables (the field's table), and
  the 23 operations of `take` on the two (the function is inlined at each call, and `where` inside it: one select).
  Then the concatenation of the first sixteen results, of the last ten, and of the two blocks.

  Per field `k` the file lists the 27 operations twice: as the program states them (`fieldTk`: the call's operations over
  buffers that carry their tensor types) and at the buffers themselves (`fieldPk`), proves the two lists equal entry by
  entry, and proves of the second: every operation touches TensorCore buffers only and determines its result
  (`fieldk_ok`); the buffers the field writes are `fieldWk`, so any other buffer keeps its contents through the field
  (`fieldk_keep`); and the field's result buffer ends at `RefFn.fieldk` of the two arguments' contents (`fieldk_res`:
  each operation's result rewritten to its function of its operands, back to the arguments, which is the definition of
  `RefFn.fieldk` unfolded).

  @main is then the sequence of `ops` = the fields' lists in order and the last three operations (`main_eq`: the three
  printed windows, each a chain of binds reassociated). The contents after fields `0 … k-1` are named `valk`. No field
  writes an argument (`valk_main_arg0`, `valk_main_arg1`); field `k`'s result buffer holds `RefFn.fieldk` right after
  field `k` (`val(k+1)_res`) and is written by no later field, so it holds the same at the end (`lastk`, `end_resk`).
  The last three operations read those 26 buffers (`tail_res`), which gives `RefFn.refOut` (`out_eq`), and write neither
  argument. The run is the library's statement for a straight line of host operations, read at the three buffers.
-/
import proofs.«204002_g15616501088794_cont_week2b_169_25_alg».proof.Proof.Gen.ReferenceIdeal
import proofs.«204002_g15616501088794_cont_week2b_169_25_alg».proof.Proof.RefFn
import proofs.«204002_g15616501088794_cont_week2b_169_25_alg».proof.Proof.LibTypedRef
import Idealize.ShloMosaic.Lib.StableHlo.Run
import Idealize.ShloMosaic.PureOps.Ideal

noncomputable section

namespace Cert.RefRun

open Cert.ReferenceIdeal Cert.ReferenceIdeal.Facts₀ Idealize.ShloMosaic Idealize.ShloMosaic.TcCoe Idealize.SL.Sem
open Idealize.ShloMosaic.StableHlo Cert.LibTypedRef

variable {F : FTy → Type} [FloatOps F]

/-- One operation's written buffer is in the list of written buffers. -/
macro "writes_mem" : tactic =>
  `(tactic| (simp only [nullary_writes, unary_writes, binary_writes, ternary_writes, reshape_writes, nary_writes,
      Finset.singleton_subset_iff, List.mem_toFinset]; exact List.mem_map_of_mem (by decide)))

/-! ## One call of `take` -/

/-- The 23 operations of one call of `take` (the inlined `where` its seventh), over the call's typed buffers, in the
    printed order. -/
def takeOpsT (a0 : TRef sig ⟨S100000x32, .f32⟩) (a1 : TRef sig ⟨S16384, .i32⟩) (φ : fn_take.Bufs) : List (HloOp τ sig (Elt F)) :=
  [ TRef.nullary φ.c (constantI S_ 32 0#32),
    TRef.unary φ.c φ.v0 (broadcastInDim S16384 ![] bcast_S_S16384),
    TRef.binary a1 φ.v0 φ.v1 (cmpi .slt),
    TRef.nullary φ.c_0 (constantI S_ 32 100000#32),
    TRef.unary φ.c_0 φ.v2 (broadcastInDim S16384 ![] bcast_S_S16384),
    TRef.binary a1 φ.v2 φ.v3 addi,
    TRef.ternary φ.v1 φ.v3 a1 φ.call0.v0 select,
    TRef.unary φ.call0.v0 φ.v5 (broadcastInDim S16384x1 ![0] bcast_S16384_S16384x1_0),
    TRef.nullary φ.c_1 (constantI S1 32 99999#32),
    TRef.nullary φ.c_2 (constantI S_ 32 0#32),
    TRef.unary φ.c_2 φ.v6 (broadcastInDim S16384x1 ![] bcast_S_S16384x1),
    TRef.binary φ.v5 φ.v6 φ.v7 (cmpi .sge),
    TRef.unary φ.c_1 φ.v8 (broadcastInDim S1x1 ![1] bcast_S1_S1x1_1),
    TRef.unary φ.v8 φ.v9 (broadcastInDim S16384x1 ![0, 1] bcast_S1x1_S16384x1_0_1),
    TRef.binary φ.v5 φ.v9 φ.v10 (cmpi .sle),
    TRef.binary φ.v7 φ.v10 φ.v11 andi,
    TRef.nullary φ.c_3 (constantI S_ 1 1#1),
    TRef.binary φ.v11 φ.c_3 φ.v12 (fun x v => Host.reduce IntOp.andi x v reducesTo_S16384x1_S16384_d1 h_S_),
    TRef.binary a0 φ.v5 φ.v13 (fun x i => Host.gather gather_S100000x32_S16384x1_S16384x32_1_0_n_n_0_1_132 x i),
    TRef.unary φ.v12 φ.v14 (broadcastInDim S16384x32 ![0] bcast_S16384_S16384x32_0),
    TRef.nullary φ.cst (constant S_ .f32 0x7FC00000#32),
    TRef.unary φ.cst φ.v15 (broadcastInDim S16384x32 ![] bcast_S_S16384x32),
    TRef.ternary φ.v14 φ.v13 φ.v15 φ.v16 select ]

/-- The printed function is that straight line. -/
theorem take_seq (a0 : TRef sig ⟨S100000x32, .f32⟩) (a1 : TRef sig ⟨S16384, .i32⟩) (φ : fn_take.Bufs) :
    fn_take.body (F := F) a0 a1 φ = seq (takeOpsT a0 a1 φ) := by
  simp only [fn_take.body, fn_where.body, takeOpsT, seq, bind_assoc, pure_bind]

/-! ## The fields -/

/-! ### Field 0 -/

/-- Field 0 as the program states it: the two slices and reshapes, then the call's operations over its typed buffers. -/
def fieldT0 : List (HloOp τ sig (Elt F)) :=
  unary main_arg0 main_v0 ((extractStridedSlice S16384x1 ![0, 0] · slices_S16384x26_S16384x1_0_0) : (⟨S16384x26, .i32⟩ : BufTy).Contents (Elt F) → (⟨S16384x1, .i32⟩ : BufTy).Contents (Elt F)) ::
  reshape main_v0 main_v1 rfl shapeCasts_S16384x1_S16384 ::
  unary main_arg1 main_v2 ((extractStridedSlice S1x100000x32 ![0, 0, 0] · slices_S26x100000x32_S1x100000x32_0_0_0) : (⟨S26x100000x32, .f32⟩ : BufTy).Contents (Elt F) → (⟨S1x100000x32, .f32⟩ : BufTy).Contents (Elt F)) ::
  reshape main_v2 main_v3 rfl shapeCasts_S1x100000x32_S100000x32 ::
  takeOpsT (.of main_v3) (.of main_v1) main_call0

/-- The same 28 operations at the buffers themselves. -/
def fieldP0 : List (HloOp τ sig (Elt F)) :=
  [ unary main_arg0 main_v0 ((extractStridedSlice S16384x1 ![0, 0] · slices_S16384x26_S16384x1_0_0) : (⟨S16384x26, .i32⟩ : BufTy).Contents (Elt F) → (⟨S16384x1, .i32⟩ : BufTy).Contents (Elt F)),
    reshape main_v0 main_v1 rfl shapeCasts_S16384x1_S16384,
    unary main_arg1 main_v2 ((extractStridedSlice S1x100000x32 ![0, 0, 0] · slices_S26x100000x32_S1x100000x32_0_0_0) : (⟨S26x100000x32, .f32⟩ : BufTy).Contents (Elt F) → (⟨S1x100000x32, .f32⟩ : BufTy).Contents (Elt F)),
    reshape main_v2 main_v3 rfl shapeCasts_S1x100000x32_S100000x32,
    nullary main_call0_c (constantI S_ 32 0#32 : (⟨S_, .i32⟩ : BufTy).Contents (Elt F)),
    unary main_call0_c main_call0_v0 (broadcastInDim S16384 ![] bcast_S_S16384 : (⟨S_, .i32⟩ : BufTy).Contents (Elt F) → (⟨S16384, .i32⟩ : BufTy).Contents (Elt F)),
    binary main_v1 main_call0_v0 main_call0_v1 (cmpi .slt : (⟨S16384, .i32⟩ : BufTy).Contents (Elt F) → (⟨S16384, .i32⟩ : BufTy).Contents (Elt F) → (⟨S16384, .i1⟩ : BufTy).Contents (Elt F)),
    nullary main_call0_c_0 (constantI S_ 32 100000#32 : (⟨S_, .i32⟩ : BufTy).Contents (Elt F)),
    unary main_call0_c_0 main_call0_v2 (broadcastInDim S16384 ![] bcast_S_S16384 : (⟨S_, .i32⟩ : BufTy).Contents (Elt F) → (⟨S16384, .i32⟩ : BufTy).Contents (Elt F)),
    binary main_v1 main_call0_v2 main_call0_v3 (addi : (⟨S16384, .i32⟩ : BufTy).Contents (Elt F) → (⟨S16384, .i32⟩ : BufTy).Contents (Elt F) → (⟨S16384, .i32⟩ : BufTy).Contents (Elt F)),
    ternary main_call0_v1 main_call0_v3 main_v1 main_call0_v4 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_call0_v4 main_call0_v5 (broadcastInDim S16384x1 ![0] bcast_S16384_S16384x1_0 : (⟨S16384, .i32⟩ : BufTy).Contents (Elt F) → (⟨S16384x1, .i32⟩ : BufTy).Contents (Elt F)),
    nullary main_call0_c_1 (constantI S1 32 99999#32 : (⟨S1, .i32⟩ : BufTy).Contents (Elt F)),
    nullary main_call0_c_2 (constantI S_ 32 0#32 : (⟨S_, .i32⟩ : BufTy).Contents (Elt F)),
    unary main_call0_c_2 main_call0_v6 (broadcastInDim S16384x1 ![] bcast_S_S16384x1 : (⟨S_, .i32⟩ : BufTy).Contents (Elt F) → (⟨S16384x1, .i32⟩ : BufTy).Contents (Elt F)),
    binary main_call0_v5 main_call0_v6 main_call0_v7 (cmpi .sge : (⟨S16384x1, .i32⟩ : BufTy).Contents (Elt F) → (⟨S16384x1, .i32⟩ : BufTy).Contents (Elt F) → (⟨S16384x1, .i1⟩ : BufTy).Contents (Elt F)),
    unary main_call0_c_1 main_call0_v8 (broadcastInDim S1x1 ![1] bcast_S1_S1x1_1 : (⟨S1, .i32⟩ : BufTy).Contents (Elt F) → (⟨S1x1, .i32⟩ : BufTy).Contents (Elt F)),
    unary main_call0_v8 main_call0_v9 (broadcastInDim S16384x1 ![0, 1] bcast_S1x1_S16384x1_0_1 : (⟨S1x1, .i32⟩ : BufTy).Contents (Elt F) → (⟨S16384x1, .i32⟩ : BufTy).Contents (Elt F)),
    binary main_call0_v5 main_call0_v9 main_call0_v10 (cmpi .sle : (⟨S16384x1, .i32⟩ : BufTy).Contents (Elt F) → (⟨S16384x1, .i32⟩ : BufTy).Contents (Elt F) → (⟨S16384x1, .i1⟩ : BufTy).Contents (Elt F)),
    binary main_call0_v7 main_call0_v10 main_call0_v11 (andi : (⟨S16384x1, .i1⟩ : BufTy).Contents (Elt F) → (⟨S16384x1, .i1⟩ : BufTy).Contents (Elt F) → (⟨S16384x1, .i1⟩ : BufTy).Contents (Elt F)),
    nullary main_call0_c_3 (constantI S_ 1 1#1 : (⟨S_, .i1⟩ : BufTy).Contents (Elt F)),
    binary main_call0_v11 main_call0_c_3 main_call0_v12 (fun x v => Host.reduce IntOp.andi x v reducesTo_S16384x1_S16384_d1 h_S_ : (⟨S16384x1, .i1⟩ : BufTy).Contents (Elt F) → (⟨S_, .i1⟩ : BufTy).Contents (Elt F) → (⟨S16384, .i1⟩ : BufTy).Contents (Elt F)),
    binary main_v3 main_call0_v5 main_call0_v13 (fun x i => Host.gather gather_S100000x32_S16384x1_S16384x32_1_0_n_n_0_1_132 x i : (⟨S100000x32, .f32⟩ : BufTy).Contents (Elt F) → (⟨S16384x1, .i32⟩ : BufTy).Contents (Elt F) → (⟨S16384x32, .f32⟩ : BufTy).Contents (Elt F)),
    unary main_call0_v12 main_call0_v14 (broadcastInDim S16384x32 ![0] bcast_S16384_S16384x32_0 : (⟨S16384, .i1⟩ : BufTy).Contents (Elt F) → (⟨S16384x32, .i1⟩ : BufTy).Contents (Elt F)),
    nullary main_call0_cst (constant S_ .f32 0x7FC00000#32 : (⟨S_, .f32⟩ : BufTy).Contents (Elt F)),
    unary main_call0_cst main_call0_v15 (broadcastInDim S16384x32 ![] bcast_S_S16384x32 : (⟨S_, .f32⟩ : BufTy).Contents (Elt F) → (⟨S16384x32, .f32⟩ : BufTy).Contents (Elt F)),
    ternary main_call0_v14 main_call0_v13 main_call0_v15 main_v4 (select : (⟨S16384x32, .i1⟩ : BufTy).Contents (Elt F) → (⟨S16384x32, .f32⟩ : BufTy).Contents (Elt F) → (⟨S16384x32, .f32⟩ : BufTy).Contents (Elt F) → (⟨S16384x32, .f32⟩ : BufTy).Contents (Elt F)) ]

/-- The buffers field 0 writes. -/
abbrev fieldW0 : List (Ref sig .tc) := [main_v0, main_v1, main_v2, main_v3, main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v4]

theorem fieldT0_eq : (fieldT0 : List (HloOp τ sig (Elt F))) = fieldP0 := by
  unfold fieldT0 fieldP0 takeOpsT
  ops_entries

theorem field0_ok : (fieldP0 : List (HloOp τ sig (Elt F))).Forall fun op => op.bufs ⊆ tcRefs τ sig ∧ op.fresh = ∅ := by
  unfold fieldP0
  exact ⟨⟨unary_bufs_sub .., rfl⟩, ⟨reshape_bufs_sub .., rfl⟩, ⟨unary_bufs_sub .., rfl⟩, ⟨reshape_bufs_sub .., rfl⟩, ⟨nullary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨ternary_bufs_sub .., rfl⟩, ⟨unary_bufs_sub .., rfl⟩, ⟨nullary_bufs_sub .., rfl⟩, ⟨nullary_bufs_sub .., rfl⟩, ⟨unary_bufs_sub .., rfl⟩, ⟨binary_bufs_sub .., rfl⟩, ⟨unary_bufs_sub .., rfl⟩, ⟨unary_bufs_sub .., rfl⟩, ⟨binary_bufs_sub .., rfl⟩, ⟨binary_bufs_sub .., rfl⟩, ⟨nullary_bufs_sub .., rfl⟩, ⟨binary_bufs_sub .., rfl⟩, ⟨binary_bufs_sub .., rfl⟩, ⟨unary_bufs_sub .., rfl⟩, ⟨nullary_bufs_sub .., rfl⟩, ⟨unary_bufs_sub .., rfl⟩, ⟨ternary_bufs_sub .., rfl⟩⟩

theorem field0_writes : (fieldP0 : List (HloOp τ sig (Elt F))).Forall fun op => op.writes ⊆ (fieldW0.map (Proc.devRef (τ := τ) .tc)).toFinset := by
  unfold fieldP0
  simp only [List.Forall]
  exact ⟨by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem⟩

/-- A buffer field 0 does not write keeps its contents through it. -/
theorem field0_keep (W : Valuation τ sig (Elt F)) (r : Ref sig .tc) (h : r ∉ fieldW0) :
    after fieldP0 W (Proc.devRef .tc r) = W (Proc.devRef .tc r) :=
  after_of_writes_sub fieldP0 W field0_writes h

/-- What field 0 leaves in its result buffer: the field's function of the two arguments' contents. -/
theorem field0_res (W : Valuation τ sig (Elt F)) :
    after fieldP0 W (Proc.devRef .tc main_v4) = RefFn.field0 (W (Proc.devRef .tc main_arg0)) (W (Proc.devRef .tc main_arg1)) := by
  unfold fieldP0
  after_results_simp
  rfl

/-! ### Field 1 -/

/-- Field 1 as the program states it: the two slices and reshapes, then the call's operations over its typed buffers. -/
def fieldT1 : List (HloOp τ sig (Elt F)) :=
  unary main_arg0 main_v5 ((extractStridedSlice S16384x1 ![0, 1] · slices_S16384x26_S16384x1_0_1) : (⟨S16384x26, .i32⟩ : BufTy).Contents (Elt F) → (⟨S16384x1, .i32⟩ : BufTy).Contents (Elt F)) ::
  reshape main_v5 main_v6 rfl shapeCasts_S16384x1_S16384 ::
  unary main_arg1 main_v7 ((extractStridedSlice S1x100000x32 ![1, 0, 0] · slices_S26x100000x32_S1x100000x32_1_0_0) : (⟨S26x100000x32, .f32⟩ : BufTy).Contents (Elt F) → (⟨S1x100000x32, .f32⟩ : BufTy).Contents (Elt F)) ::
  reshape main_v7 main_v8 rfl shapeCasts_S1x100000x32_S100000x32 ::
  takeOpsT (.of main_v8) (.of main_v6) main_call1

/-- The same 28 operations at the buffers themselves. -/
def fieldP1 : List (HloOp τ sig (Elt F)) :=
  [ unary main_arg0 main_v5 ((extractStridedSlice S16384x1 ![0, 1] · slices_S16384x26_S16384x1_0_1) : (⟨S16384x26, .i32⟩ : BufTy).Contents (Elt F) → (⟨S16384x1, .i32⟩ : BufTy).Contents (Elt F)),
    reshape main_v5 main_v6 rfl shapeCasts_S16384x1_S16384,
    unary main_arg1 main_v7 ((extractStridedSlice S1x100000x32 ![1, 0, 0] · slices_S26x100000x32_S1x100000x32_1_0_0) : (⟨S26x100000x32, .f32⟩ : BufTy).Contents (Elt F) → (⟨S1x100000x32, .f32⟩ : BufTy).Contents (Elt F)),
    reshape main_v7 main_v8 rfl shapeCasts_S1x100000x32_S100000x32,
    nullary main_call1_c (constantI S_ 32 0#32 : (⟨S_, .i32⟩ : BufTy).Contents (Elt F)),
    unary main_call1_c main_call1_v0 (broadcastInDim S16384 ![] bcast_S_S16384 : (⟨S_, .i32⟩ : BufTy).Contents (Elt F) → (⟨S16384, .i32⟩ : BufTy).Contents (Elt F)),
    binary main_v6 main_call1_v0 main_call1_v1 (cmpi .slt : (⟨S16384, .i32⟩ : BufTy).Contents (Elt F) → (⟨S16384, .i32⟩ : BufTy).Contents (Elt F) → (⟨S16384, .i1⟩ : BufTy).Contents (Elt F)),
    nullary main_call1_c_0 (constantI S_ 32 100000#32 : (⟨S_, .i32⟩ : BufTy).Contents (Elt F)),
    unary main_call1_c_0 main_call1_v2 (broadcastInDim S16384 ![] bcast_S_S16384 : (⟨S_, .i32⟩ : BufTy).Contents (Elt F) → (⟨S16384, .i32⟩ : BufTy).Contents (Elt F)),
    binary main_v6 main_call1_v2 main_call1_v3 (addi : (⟨S16384, .i32⟩ : BufTy).Contents (Elt F) → (⟨S16384, .i32⟩ : BufTy).Contents (Elt F) → (⟨S16384, .i32⟩ : BufTy).Contents (Elt F)),
    ternary main_call1_v1 main_call1_v3 main_v6 main_call1_v4 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_call1_v4 main_call1_v5 (broadcastInDim S16384x1 ![0] bcast_S16384_S16384x1_0 : (⟨S16384, .i32⟩ : BufTy).Contents (Elt F) → (⟨S16384x1, .i32⟩ : BufTy).Contents (Elt F)),
    nullary main_call1_c_1 (constantI S1 32 99999#32 : (⟨S1, .i32⟩ : BufTy).Contents (Elt F)),
    nullary main_call1_c_2 (constantI S_ 32 0#32 : (⟨S_, .i32⟩ : BufTy).Contents (Elt F)),
    unary main_call1_c_2 main_call1_v6 (broadcastInDim S16384x1 ![] bcast_S_S16384x1 : (⟨S_, .i32⟩ : BufTy).Contents (Elt F) → (⟨S16384x1, .i32⟩ : BufTy).Contents (Elt F)),
    binary main_call1_v5 main_call1_v6 main_call1_v7 (cmpi .sge : (⟨S16384x1, .i32⟩ : BufTy).Contents (Elt F) → (⟨S16384x1, .i32⟩ : BufTy).Contents (Elt F) → (⟨S16384x1, .i1⟩ : BufTy).Contents (Elt F)),
    unary main_call1_c_1 main_call1_v8 (broadcastInDim S1x1 ![1] bcast_S1_S1x1_1 : (⟨S1, .i32⟩ : BufTy).Contents (Elt F) → (⟨S1x1, .i32⟩ : BufTy).Contents (Elt F)),
    unary main_call1_v8 main_call1_v9 (broadcastInDim S16384x1 ![0, 1] bcast_S1x1_S16384x1_0_1 : (⟨S1x1, .i32⟩ : BufTy).Contents (Elt F) → (⟨S16384x1, .i32⟩ : BufTy).Contents (Elt F)),
    binary main_call1_v5 main_call1_v9 main_call1_v10 (cmpi .sle : (⟨S16384x1, .i32⟩ : BufTy).Contents (Elt F) → (⟨S16384x1, .i32⟩ : BufTy).Contents (Elt F) → (⟨S16384x1, .i1⟩ : BufTy).Contents (Elt F)),
    binary main_call1_v7 main_call1_v10 main_call1_v11 (andi : (⟨S16384x1, .i1⟩ : BufTy).Contents (Elt F) → (⟨S16384x1, .i1⟩ : BufTy).Contents (Elt F) → (⟨S16384x1, .i1⟩ : BufTy).Contents (Elt F)),
    nullary main_call1_c_3 (constantI S_ 1 1#1 : (⟨S_, .i1⟩ : BufTy).Contents (Elt F)),
    binary main_call1_v11 main_call1_c_3 main_call1_v12 (fun x v => Host.reduce IntOp.andi x v reducesTo_S16384x1_S16384_d1 h_S_ : (⟨S16384x1, .i1⟩ : BufTy).Contents (Elt F) → (⟨S_, .i1⟩ : BufTy).Contents (Elt F) → (⟨S16384, .i1⟩ : BufTy).Contents (Elt F)),
    binary main_v8 main_call1_v5 main_call1_v13 (fun x i => Host.gather gather_S100000x32_S16384x1_S16384x32_1_0_n_n_0_1_132 x i : (⟨S100000x32, .f32⟩ : BufTy).Contents (Elt F) → (⟨S16384x1, .i32⟩ : BufTy).Contents (Elt F) → (⟨S16384x32, .f32⟩ : BufTy).Contents (Elt F)),
    unary main_call1_v12 main_call1_v14 (broadcastInDim S16384x32 ![0] bcast_S16384_S16384x32_0 : (⟨S16384, .i1⟩ : BufTy).Contents (Elt F) → (⟨S16384x32, .i1⟩ : BufTy).Contents (Elt F)),
    nullary main_call1_cst (constant S_ .f32 0x7FC00000#32 : (⟨S_, .f32⟩ : BufTy).Contents (Elt F)),
    unary main_call1_cst main_call1_v15 (broadcastInDim S16384x32 ![] bcast_S_S16384x32 : (⟨S_, .f32⟩ : BufTy).Contents (Elt F) → (⟨S16384x32, .f32⟩ : BufTy).Contents (Elt F)),
    ternary main_call1_v14 main_call1_v13 main_call1_v15 main_v9 (select : (⟨S16384x32, .i1⟩ : BufTy).Contents (Elt F) → (⟨S16384x32, .f32⟩ : BufTy).Contents (Elt F) → (⟨S16384x32, .f32⟩ : BufTy).Contents (Elt F) → (⟨S16384x32, .f32⟩ : BufTy).Contents (Elt F)) ]

/-- The buffers field 1 writes. -/
abbrev fieldW1 : List (Ref sig .tc) := [main_v5, main_v6, main_v7, main_v8, main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v9]

theorem fieldT1_eq : (fieldT1 : List (HloOp τ sig (Elt F))) = fieldP1 := by
  unfold fieldT1 fieldP1 takeOpsT
  ops_entries

theorem field1_ok : (fieldP1 : List (HloOp τ sig (Elt F))).Forall fun op => op.bufs ⊆ tcRefs τ sig ∧ op.fresh = ∅ := by
  unfold fieldP1
  exact ⟨⟨unary_bufs_sub .., rfl⟩, ⟨reshape_bufs_sub .., rfl⟩, ⟨unary_bufs_sub .., rfl⟩, ⟨reshape_bufs_sub .., rfl⟩, ⟨nullary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨ternary_bufs_sub .., rfl⟩, ⟨unary_bufs_sub .., rfl⟩, ⟨nullary_bufs_sub .., rfl⟩, ⟨nullary_bufs_sub .., rfl⟩, ⟨unary_bufs_sub .., rfl⟩, ⟨binary_bufs_sub .., rfl⟩, ⟨unary_bufs_sub .., rfl⟩, ⟨unary_bufs_sub .., rfl⟩, ⟨binary_bufs_sub .., rfl⟩, ⟨binary_bufs_sub .., rfl⟩, ⟨nullary_bufs_sub .., rfl⟩, ⟨binary_bufs_sub .., rfl⟩, ⟨binary_bufs_sub .., rfl⟩, ⟨unary_bufs_sub .., rfl⟩, ⟨nullary_bufs_sub .., rfl⟩, ⟨unary_bufs_sub .., rfl⟩, ⟨ternary_bufs_sub .., rfl⟩⟩

theorem field1_writes : (fieldP1 : List (HloOp τ sig (Elt F))).Forall fun op => op.writes ⊆ (fieldW1.map (Proc.devRef (τ := τ) .tc)).toFinset := by
  unfold fieldP1
  simp only [List.Forall]
  exact ⟨by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem⟩

/-- A buffer field 1 does not write keeps its contents through it. -/
theorem field1_keep (W : Valuation τ sig (Elt F)) (r : Ref sig .tc) (h : r ∉ fieldW1) :
    after fieldP1 W (Proc.devRef .tc r) = W (Proc.devRef .tc r) :=
  after_of_writes_sub fieldP1 W field1_writes h

/-- What field 1 leaves in its result buffer: the field's function of the two arguments' contents. -/
theorem field1_res (W : Valuation τ sig (Elt F)) :
    after fieldP1 W (Proc.devRef .tc main_v9) = RefFn.field1 (W (Proc.devRef .tc main_arg0)) (W (Proc.devRef .tc main_arg1)) := by
  unfold fieldP1
  after_results_simp
  rfl

/-! ### Field 2 -/

/-- Field 2 as the program states it: the two slices and reshapes, then the call's operations over its typed buffers. -/
def fieldT2 : List (HloOp τ sig (Elt F)) :=
  unary main_arg0 main_v10 ((extractStridedSlice S16384x1 ![0, 2] · slices_S16384x26_S16384x1_0_2) : (⟨S16384x26, .i32⟩ : BufTy).Contents (Elt F) → (⟨S16384x1, .i32⟩ : BufTy).Contents (Elt F)) ::
  reshape main_v10 main_v11 rfl shapeCasts_S16384x1_S16384 ::
  unary main_arg1 main_v12 ((extractStridedSlice S1x100000x32 ![2, 0, 0] · slices_S26x100000x32_S1x100000x32_2_0_0) : (⟨S26x100000x32, .f32⟩ : BufTy).Contents (Elt F) → (⟨S1x100000x32, .f32⟩ : BufTy).Contents (Elt F)) ::
  reshape main_v12 main_v13 rfl shapeCasts_S1x100000x32_S100000x32 ::
  takeOpsT (.of main_v13) (.of main_v11) main_call2

/-- The same 28 operations at the buffers themselves. -/
def fieldP2 : List (HloOp τ sig (Elt F)) :=
  [ unary main_arg0 main_v10 ((extractStridedSlice S16384x1 ![0, 2] · slices_S16384x26_S16384x1_0_2) : (⟨S16384x26, .i32⟩ : BufTy).Contents (Elt F) → (⟨S16384x1, .i32⟩ : BufTy).Contents (Elt F)),
    reshape main_v10 main_v11 rfl shapeCasts_S16384x1_S16384,
    unary main_arg1 main_v12 ((extractStridedSlice S1x100000x32 ![2, 0, 0] · slices_S26x100000x32_S1x100000x32_2_0_0) : (⟨S26x100000x32, .f32⟩ : BufTy).Contents (Elt F) → (⟨S1x100000x32, .f32⟩ : BufTy).Contents (Elt F)),
    reshape main_v12 main_v13 rfl shapeCasts_S1x100000x32_S100000x32,
    nullary main_call2_c (constantI S_ 32 0#32 : (⟨S_, .i32⟩ : BufTy).Contents (Elt F)),
    unary main_call2_c main_call2_v0 (broadcastInDim S16384 ![] bcast_S_S16384 : (⟨S_, .i32⟩ : BufTy).Contents (Elt F) → (⟨S16384, .i32⟩ : BufTy).Contents (Elt F)),
    binary main_v11 main_call2_v0 main_call2_v1 (cmpi .slt : (⟨S16384, .i32⟩ : BufTy).Contents (Elt F) → (⟨S16384, .i32⟩ : BufTy).Contents (Elt F) → (⟨S16384, .i1⟩ : BufTy).Contents (Elt F)),
    nullary main_call2_c_0 (constantI S_ 32 100000#32 : (⟨S_, .i32⟩ : BufTy).Contents (Elt F)),
    unary main_call2_c_0 main_call2_v2 (broadcastInDim S16384 ![] bcast_S_S16384 : (⟨S_, .i32⟩ : BufTy).Contents (Elt F) → (⟨S16384, .i32⟩ : BufTy).Contents (Elt F)),
    binary main_v11 main_call2_v2 main_call2_v3 (addi : (⟨S16384, .i32⟩ : BufTy).Contents (Elt F) → (⟨S16384, .i32⟩ : BufTy).Contents (Elt F) → (⟨S16384, .i32⟩ : BufTy).Contents (Elt F)),
    ternary main_call2_v1 main_call2_v3 main_v11 main_call2_v4 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_call2_v4 main_call2_v5 (broadcastInDim S16384x1 ![0] bcast_S16384_S16384x1_0 : (⟨S16384, .i32⟩ : BufTy).Contents (Elt F) → (⟨S16384x1, .i32⟩ : BufTy).Contents (Elt F)),
    nullary main_call2_c_1 (constantI S1 32 99999#32 : (⟨S1, .i32⟩ : BufTy).Contents (Elt F)),
    nullary main_call2_c_2 (constantI S_ 32 0#32 : (⟨S_, .i32⟩ : BufTy).Contents (Elt F)),
    unary main_call2_c_2 main_call2_v6 (broadcastInDim S16384x1 ![] bcast_S_S16384x1 : (⟨S_, .i32⟩ : BufTy).Contents (Elt F) → (⟨S16384x1, .i32⟩ : BufTy).Contents (Elt F)),
    binary main_call2_v5 main_call2_v6 main_call2_v7 (cmpi .sge : (⟨S16384x1, .i32⟩ : BufTy).Contents (Elt F) → (⟨S16384x1, .i32⟩ : BufTy).Contents (Elt F) → (⟨S16384x1, .i1⟩ : BufTy).Contents (Elt F)),
    unary main_call2_c_1 main_call2_v8 (broadcastInDim S1x1 ![1] bcast_S1_S1x1_1 : (⟨S1, .i32⟩ : BufTy).Contents (Elt F) → (⟨S1x1, .i32⟩ : BufTy).Contents (Elt F)),
    unary main_call2_v8 main_call2_v9 (broadcastInDim S16384x1 ![0, 1] bcast_S1x1_S16384x1_0_1 : (⟨S1x1, .i32⟩ : BufTy).Contents (Elt F) → (⟨S16384x1, .i32⟩ : BufTy).Contents (Elt F)),
    binary main_call2_v5 main_call2_v9 main_call2_v10 (cmpi .sle : (⟨S16384x1, .i32⟩ : BufTy).Contents (Elt F) → (⟨S16384x1, .i32⟩ : BufTy).Contents (Elt F) → (⟨S16384x1, .i1⟩ : BufTy).Contents (Elt F)),
    binary main_call2_v7 main_call2_v10 main_call2_v11 (andi : (⟨S16384x1, .i1⟩ : BufTy).Contents (Elt F) → (⟨S16384x1, .i1⟩ : BufTy).Contents (Elt F) → (⟨S16384x1, .i1⟩ : BufTy).Contents (Elt F)),
    nullary main_call2_c_3 (constantI S_ 1 1#1 : (⟨S_, .i1⟩ : BufTy).Contents (Elt F)),
    binary main_call2_v11 main_call2_c_3 main_call2_v12 (fun x v => Host.reduce IntOp.andi x v reducesTo_S16384x1_S16384_d1 h_S_ : (⟨S16384x1, .i1⟩ : BufTy).Contents (Elt F) → (⟨S_, .i1⟩ : BufTy).Contents (Elt F) → (⟨S16384, .i1⟩ : BufTy).Contents (Elt F)),
    binary main_v13 main_call2_v5 main_call2_v13 (fun x i => Host.gather gather_S100000x32_S16384x1_S16384x32_1_0_n_n_0_1_132 x i : (⟨S100000x32, .f32⟩ : BufTy).Contents (Elt F) → (⟨S16384x1, .i32⟩ : BufTy).Contents (Elt F) → (⟨S16384x32, .f32⟩ : BufTy).Contents (Elt F)),
    unary main_call2_v12 main_call2_v14 (broadcastInDim S16384x32 ![0] bcast_S16384_S16384x32_0 : (⟨S16384, .i1⟩ : BufTy).Contents (Elt F) → (⟨S16384x32, .i1⟩ : BufTy).Contents (Elt F)),
    nullary main_call2_cst (constant S_ .f32 0x7FC00000#32 : (⟨S_, .f32⟩ : BufTy).Contents (Elt F)),
    unary main_call2_cst main_call2_v15 (broadcastInDim S16384x32 ![] bcast_S_S16384x32 : (⟨S_, .f32⟩ : BufTy).Contents (Elt F) → (⟨S16384x32, .f32⟩ : BufTy).Contents (Elt F)),
    ternary main_call2_v14 main_call2_v13 main_call2_v15 main_v14 (select : (⟨S16384x32, .i1⟩ : BufTy).Contents (Elt F) → (⟨S16384x32, .f32⟩ : BufTy).Contents (Elt F) → (⟨S16384x32, .f32⟩ : BufTy).Contents (Elt F) → (⟨S16384x32, .f32⟩ : BufTy).Contents (Elt F)) ]

/-- The buffers field 2 writes. -/
abbrev fieldW2 : List (Ref sig .tc) := [main_v10, main_v11, main_v12, main_v13, main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v14]

theorem fieldT2_eq : (fieldT2 : List (HloOp τ sig (Elt F))) = fieldP2 := by
  unfold fieldT2 fieldP2 takeOpsT
  ops_entries

theorem field2_ok : (fieldP2 : List (HloOp τ sig (Elt F))).Forall fun op => op.bufs ⊆ tcRefs τ sig ∧ op.fresh = ∅ := by
  unfold fieldP2
  exact ⟨⟨unary_bufs_sub .., rfl⟩, ⟨reshape_bufs_sub .., rfl⟩, ⟨unary_bufs_sub .., rfl⟩, ⟨reshape_bufs_sub .., rfl⟩, ⟨nullary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨ternary_bufs_sub .., rfl⟩, ⟨unary_bufs_sub .., rfl⟩, ⟨nullary_bufs_sub .., rfl⟩, ⟨nullary_bufs_sub .., rfl⟩, ⟨unary_bufs_sub .., rfl⟩, ⟨binary_bufs_sub .., rfl⟩, ⟨unary_bufs_sub .., rfl⟩, ⟨unary_bufs_sub .., rfl⟩, ⟨binary_bufs_sub .., rfl⟩, ⟨binary_bufs_sub .., rfl⟩, ⟨nullary_bufs_sub .., rfl⟩, ⟨binary_bufs_sub .., rfl⟩, ⟨binary_bufs_sub .., rfl⟩, ⟨unary_bufs_sub .., rfl⟩, ⟨nullary_bufs_sub .., rfl⟩, ⟨unary_bufs_sub .., rfl⟩, ⟨ternary_bufs_sub .., rfl⟩⟩

theorem field2_writes : (fieldP2 : List (HloOp τ sig (Elt F))).Forall fun op => op.writes ⊆ (fieldW2.map (Proc.devRef (τ := τ) .tc)).toFinset := by
  unfold fieldP2
  simp only [List.Forall]
  exact ⟨by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem⟩

/-- A buffer field 2 does not write keeps its contents through it. -/
theorem field2_keep (W : Valuation τ sig (Elt F)) (r : Ref sig .tc) (h : r ∉ fieldW2) :
    after fieldP2 W (Proc.devRef .tc r) = W (Proc.devRef .tc r) :=
  after_of_writes_sub fieldP2 W field2_writes h

/-- What field 2 leaves in its result buffer: the field's function of the two arguments' contents. -/
theorem field2_res (W : Valuation τ sig (Elt F)) :
    after fieldP2 W (Proc.devRef .tc main_v14) = RefFn.field2 (W (Proc.devRef .tc main_arg0)) (W (Proc.devRef .tc main_arg1)) := by
  unfold fieldP2
  after_results_simp
  rfl

/-! ### Field 3 -/

/-- Field 3 as the program states it: the two slices and reshapes, then the call's operations over its typed buffers. -/
def fieldT3 : List (HloOp τ sig (Elt F)) :=
  unary main_arg0 main_v15 ((extractStridedSlice S16384x1 ![0, 3] · slices_S16384x26_S16384x1_0_3) : (⟨S16384x26, .i32⟩ : BufTy).Contents (Elt F) → (⟨S16384x1, .i32⟩ : BufTy).Contents (Elt F)) ::
  reshape main_v15 main_v16 rfl shapeCasts_S16384x1_S16384 ::
  unary main_arg1 main_v17 ((extractStridedSlice S1x100000x32 ![3, 0, 0] · slices_S26x100000x32_S1x100000x32_3_0_0) : (⟨S26x100000x32, .f32⟩ : BufTy).Contents (Elt F) → (⟨S1x100000x32, .f32⟩ : BufTy).Contents (Elt F)) ::
  reshape main_v17 main_v18 rfl shapeCasts_S1x100000x32_S100000x32 ::
  takeOpsT (.of main_v18) (.of main_v16) main_call3

/-- The same 28 operations at the buffers themselves. -/
def fieldP3 : List (HloOp τ sig (Elt F)) :=
  [ unary main_arg0 main_v15 ((extractStridedSlice S16384x1 ![0, 3] · slices_S16384x26_S16384x1_0_3) : (⟨S16384x26, .i32⟩ : BufTy).Contents (Elt F) → (⟨S16384x1, .i32⟩ : BufTy).Contents (Elt F)),
    reshape main_v15 main_v16 rfl shapeCasts_S16384x1_S16384,
    unary main_arg1 main_v17 ((extractStridedSlice S1x100000x32 ![3, 0, 0] · slices_S26x100000x32_S1x100000x32_3_0_0) : (⟨S26x100000x32, .f32⟩ : BufTy).Contents (Elt F) → (⟨S1x100000x32, .f32⟩ : BufTy).Contents (Elt F)),
    reshape main_v17 main_v18 rfl shapeCasts_S1x100000x32_S100000x32,
    nullary main_call3_c (constantI S_ 32 0#32 : (⟨S_, .i32⟩ : BufTy).Contents (Elt F)),
    unary main_call3_c main_call3_v0 (broadcastInDim S16384 ![] bcast_S_S16384 : (⟨S_, .i32⟩ : BufTy).Contents (Elt F) → (⟨S16384, .i32⟩ : BufTy).Contents (Elt F)),
    binary main_v16 main_call3_v0 main_call3_v1 (cmpi .slt : (⟨S16384, .i32⟩ : BufTy).Contents (Elt F) → (⟨S16384, .i32⟩ : BufTy).Contents (Elt F) → (⟨S16384, .i1⟩ : BufTy).Contents (Elt F)),
    nullary main_call3_c_0 (constantI S_ 32 100000#32 : (⟨S_, .i32⟩ : BufTy).Contents (Elt F)),
    unary main_call3_c_0 main_call3_v2 (broadcastInDim S16384 ![] bcast_S_S16384 : (⟨S_, .i32⟩ : BufTy).Contents (Elt F) → (⟨S16384, .i32⟩ : BufTy).Contents (Elt F)),
    binary main_v16 main_call3_v2 main_call3_v3 (addi : (⟨S16384, .i32⟩ : BufTy).Contents (Elt F) → (⟨S16384, .i32⟩ : BufTy).Contents (Elt F) → (⟨S16384, .i32⟩ : BufTy).Contents (Elt F)),
    ternary main_call3_v1 main_call3_v3 main_v16 main_call3_v4 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_call3_v4 main_call3_v5 (broadcastInDim S16384x1 ![0] bcast_S16384_S16384x1_0 : (⟨S16384, .i32⟩ : BufTy).Contents (Elt F) → (⟨S16384x1, .i32⟩ : BufTy).Contents (Elt F)),
    nullary main_call3_c_1 (constantI S1 32 99999#32 : (⟨S1, .i32⟩ : BufTy).Contents (Elt F)),
    nullary main_call3_c_2 (constantI S_ 32 0#32 : (⟨S_, .i32⟩ : BufTy).Contents (Elt F)),
    unary main_call3_c_2 main_call3_v6 (broadcastInDim S16384x1 ![] bcast_S_S16384x1 : (⟨S_, .i32⟩ : BufTy).Contents (Elt F) → (⟨S16384x1, .i32⟩ : BufTy).Contents (Elt F)),
    binary main_call3_v5 main_call3_v6 main_call3_v7 (cmpi .sge : (⟨S16384x1, .i32⟩ : BufTy).Contents (Elt F) → (⟨S16384x1, .i32⟩ : BufTy).Contents (Elt F) → (⟨S16384x1, .i1⟩ : BufTy).Contents (Elt F)),
    unary main_call3_c_1 main_call3_v8 (broadcastInDim S1x1 ![1] bcast_S1_S1x1_1 : (⟨S1, .i32⟩ : BufTy).Contents (Elt F) → (⟨S1x1, .i32⟩ : BufTy).Contents (Elt F)),
    unary main_call3_v8 main_call3_v9 (broadcastInDim S16384x1 ![0, 1] bcast_S1x1_S16384x1_0_1 : (⟨S1x1, .i32⟩ : BufTy).Contents (Elt F) → (⟨S16384x1, .i32⟩ : BufTy).Contents (Elt F)),
    binary main_call3_v5 main_call3_v9 main_call3_v10 (cmpi .sle : (⟨S16384x1, .i32⟩ : BufTy).Contents (Elt F) → (⟨S16384x1, .i32⟩ : BufTy).Contents (Elt F) → (⟨S16384x1, .i1⟩ : BufTy).Contents (Elt F)),
    binary main_call3_v7 main_call3_v10 main_call3_v11 (andi : (⟨S16384x1, .i1⟩ : BufTy).Contents (Elt F) → (⟨S16384x1, .i1⟩ : BufTy).Contents (Elt F) → (⟨S16384x1, .i1⟩ : BufTy).Contents (Elt F)),
    nullary main_call3_c_3 (constantI S_ 1 1#1 : (⟨S_, .i1⟩ : BufTy).Contents (Elt F)),
    binary main_call3_v11 main_call3_c_3 main_call3_v12 (fun x v => Host.reduce IntOp.andi x v reducesTo_S16384x1_S16384_d1 h_S_ : (⟨S16384x1, .i1⟩ : BufTy).Contents (Elt F) → (⟨S_, .i1⟩ : BufTy).Contents (Elt F) → (⟨S16384, .i1⟩ : BufTy).Contents (Elt F)),
    binary main_v18 main_call3_v5 main_call3_v13 (fun x i => Host.gather gather_S100000x32_S16384x1_S16384x32_1_0_n_n_0_1_132 x i : (⟨S100000x32, .f32⟩ : BufTy).Contents (Elt F) → (⟨S16384x1, .i32⟩ : BufTy).Contents (Elt F) → (⟨S16384x32, .f32⟩ : BufTy).Contents (Elt F)),
    unary main_call3_v12 main_call3_v14 (broadcastInDim S16384x32 ![0] bcast_S16384_S16384x32_0 : (⟨S16384, .i1⟩ : BufTy).Contents (Elt F) → (⟨S16384x32, .i1⟩ : BufTy).Contents (Elt F)),
    nullary main_call3_cst (constant S_ .f32 0x7FC00000#32 : (⟨S_, .f32⟩ : BufTy).Contents (Elt F)),
    unary main_call3_cst main_call3_v15 (broadcastInDim S16384x32 ![] bcast_S_S16384x32 : (⟨S_, .f32⟩ : BufTy).Contents (Elt F) → (⟨S16384x32, .f32⟩ : BufTy).Contents (Elt F)),
    ternary main_call3_v14 main_call3_v13 main_call3_v15 main_v19 (select : (⟨S16384x32, .i1⟩ : BufTy).Contents (Elt F) → (⟨S16384x32, .f32⟩ : BufTy).Contents (Elt F) → (⟨S16384x32, .f32⟩ : BufTy).Contents (Elt F) → (⟨S16384x32, .f32⟩ : BufTy).Contents (Elt F)) ]

/-- The buffers field 3 writes. -/
abbrev fieldW3 : List (Ref sig .tc) := [main_v15, main_v16, main_v17, main_v18, main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_v14, main_call3_cst, main_call3_v15, main_v19]

theorem fieldT3_eq : (fieldT3 : List (HloOp τ sig (Elt F))) = fieldP3 := by
  unfold fieldT3 fieldP3 takeOpsT
  ops_entries

theorem field3_ok : (fieldP3 : List (HloOp τ sig (Elt F))).Forall fun op => op.bufs ⊆ tcRefs τ sig ∧ op.fresh = ∅ := by
  unfold fieldP3
  exact ⟨⟨unary_bufs_sub .., rfl⟩, ⟨reshape_bufs_sub .., rfl⟩, ⟨unary_bufs_sub .., rfl⟩, ⟨reshape_bufs_sub .., rfl⟩, ⟨nullary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨ternary_bufs_sub .., rfl⟩, ⟨unary_bufs_sub .., rfl⟩, ⟨nullary_bufs_sub .., rfl⟩, ⟨nullary_bufs_sub .., rfl⟩, ⟨unary_bufs_sub .., rfl⟩, ⟨binary_bufs_sub .., rfl⟩, ⟨unary_bufs_sub .., rfl⟩, ⟨unary_bufs_sub .., rfl⟩, ⟨binary_bufs_sub .., rfl⟩, ⟨binary_bufs_sub .., rfl⟩, ⟨nullary_bufs_sub .., rfl⟩, ⟨binary_bufs_sub .., rfl⟩, ⟨binary_bufs_sub .., rfl⟩, ⟨unary_bufs_sub .., rfl⟩, ⟨nullary_bufs_sub .., rfl⟩, ⟨unary_bufs_sub .., rfl⟩, ⟨ternary_bufs_sub .., rfl⟩⟩

theorem field3_writes : (fieldP3 : List (HloOp τ sig (Elt F))).Forall fun op => op.writes ⊆ (fieldW3.map (Proc.devRef (τ := τ) .tc)).toFinset := by
  unfold fieldP3
  simp only [List.Forall]
  exact ⟨by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem⟩

/-- A buffer field 3 does not write keeps its contents through it. -/
theorem field3_keep (W : Valuation τ sig (Elt F)) (r : Ref sig .tc) (h : r ∉ fieldW3) :
    after fieldP3 W (Proc.devRef .tc r) = W (Proc.devRef .tc r) :=
  after_of_writes_sub fieldP3 W field3_writes h

/-- What field 3 leaves in its result buffer: the field's function of the two arguments' contents. -/
theorem field3_res (W : Valuation τ sig (Elt F)) :
    after fieldP3 W (Proc.devRef .tc main_v19) = RefFn.field3 (W (Proc.devRef .tc main_arg0)) (W (Proc.devRef .tc main_arg1)) := by
  unfold fieldP3
  after_results_simp
  rfl

/-! ### Field 4 -/

/-- Field 4 as the program states it: the two slices and reshapes, then the call's operations over its typed buffers. -/
def fieldT4 : List (HloOp τ sig (Elt F)) :=
  unary main_arg0 main_v20 ((extractStridedSlice S16384x1 ![0, 4] · slices_S16384x26_S16384x1_0_4) : (⟨S16384x26, .i32⟩ : BufTy).Contents (Elt F) → (⟨S16384x1, .i32⟩ : BufTy).Contents (Elt F)) ::
  reshape main_v20 main_v21 rfl shapeCasts_S16384x1_S16384 ::
  unary main_arg1 main_v22 ((extractStridedSlice S1x100000x32 ![4, 0, 0] · slices_S26x100000x32_S1x100000x32_4_0_0) : (⟨S26x100000x32, .f32⟩ : BufTy).Contents (Elt F) → (⟨S1x100000x32, .f32⟩ : BufTy).Contents (Elt F)) ::
  reshape main_v22 main_v23 rfl shapeCasts_S1x100000x32_S100000x32 ::
  takeOpsT (.of main_v23) (.of main_v21) main_call4

/-- The same 28 operations at the buffers themselves. -/
def fieldP4 : List (HloOp τ sig (Elt F)) :=
  [ unary main_arg0 main_v20 ((extractStridedSlice S16384x1 ![0, 4] · slices_S16384x26_S16384x1_0_4) : (⟨S16384x26, .i32⟩ : BufTy).Contents (Elt F) → (⟨S16384x1, .i32⟩ : BufTy).Contents (Elt F)),
    reshape main_v20 main_v21 rfl shapeCasts_S16384x1_S16384,
    unary main_arg1 main_v22 ((extractStridedSlice S1x100000x32 ![4, 0, 0] · slices_S26x100000x32_S1x100000x32_4_0_0) : (⟨S26x100000x32, .f32⟩ : BufTy).Contents (Elt F) → (⟨S1x100000x32, .f32⟩ : BufTy).Contents (Elt F)),
    reshape main_v22 main_v23 rfl shapeCasts_S1x100000x32_S100000x32,
    nullary main_call4_c (constantI S_ 32 0#32 : (⟨S_, .i32⟩ : BufTy).Contents (Elt F)),
    unary main_call4_c main_call4_v0 (broadcastInDim S16384 ![] bcast_S_S16384 : (⟨S_, .i32⟩ : BufTy).Contents (Elt F) → (⟨S16384, .i32⟩ : BufTy).Contents (Elt F)),
    binary main_v21 main_call4_v0 main_call4_v1 (cmpi .slt : (⟨S16384, .i32⟩ : BufTy).Contents (Elt F) → (⟨S16384, .i32⟩ : BufTy).Contents (Elt F) → (⟨S16384, .i1⟩ : BufTy).Contents (Elt F)),
    nullary main_call4_c_0 (constantI S_ 32 100000#32 : (⟨S_, .i32⟩ : BufTy).Contents (Elt F)),
    unary main_call4_c_0 main_call4_v2 (broadcastInDim S16384 ![] bcast_S_S16384 : (⟨S_, .i32⟩ : BufTy).Contents (Elt F) → (⟨S16384, .i32⟩ : BufTy).Contents (Elt F)),
    binary main_v21 main_call4_v2 main_call4_v3 (addi : (⟨S16384, .i32⟩ : BufTy).Contents (Elt F) → (⟨S16384, .i32⟩ : BufTy).Contents (Elt F) → (⟨S16384, .i32⟩ : BufTy).Contents (Elt F)),
    ternary main_call4_v1 main_call4_v3 main_v21 main_call4_v4 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_call4_v4 main_call4_v5 (broadcastInDim S16384x1 ![0] bcast_S16384_S16384x1_0 : (⟨S16384, .i32⟩ : BufTy).Contents (Elt F) → (⟨S16384x1, .i32⟩ : BufTy).Contents (Elt F)),
    nullary main_call4_c_1 (constantI S1 32 99999#32 : (⟨S1, .i32⟩ : BufTy).Contents (Elt F)),
    nullary main_call4_c_2 (constantI S_ 32 0#32 : (⟨S_, .i32⟩ : BufTy).Contents (Elt F)),
    unary main_call4_c_2 main_call4_v6 (broadcastInDim S16384x1 ![] bcast_S_S16384x1 : (⟨S_, .i32⟩ : BufTy).Contents (Elt F) → (⟨S16384x1, .i32⟩ : BufTy).Contents (Elt F)),
    binary main_call4_v5 main_call4_v6 main_call4_v7 (cmpi .sge : (⟨S16384x1, .i32⟩ : BufTy).Contents (Elt F) → (⟨S16384x1, .i32⟩ : BufTy).Contents (Elt F) → (⟨S16384x1, .i1⟩ : BufTy).Contents (Elt F)),
    unary main_call4_c_1 main_call4_v8 (broadcastInDim S1x1 ![1] bcast_S1_S1x1_1 : (⟨S1, .i32⟩ : BufTy).Contents (Elt F) → (⟨S1x1, .i32⟩ : BufTy).Contents (Elt F)),
    unary main_call4_v8 main_call4_v9 (broadcastInDim S16384x1 ![0, 1] bcast_S1x1_S16384x1_0_1 : (⟨S1x1, .i32⟩ : BufTy).Contents (Elt F) → (⟨S16384x1, .i32⟩ : BufTy).Contents (Elt F)),
    binary main_call4_v5 main_call4_v9 main_call4_v10 (cmpi .sle : (⟨S16384x1, .i32⟩ : BufTy).Contents (Elt F) → (⟨S16384x1, .i32⟩ : BufTy).Contents (Elt F) → (⟨S16384x1, .i1⟩ : BufTy).Contents (Elt F)),
    binary main_call4_v7 main_call4_v10 main_call4_v11 (andi : (⟨S16384x1, .i1⟩ : BufTy).Contents (Elt F) → (⟨S16384x1, .i1⟩ : BufTy).Contents (Elt F) → (⟨S16384x1, .i1⟩ : BufTy).Contents (Elt F)),
    nullary main_call4_c_3 (constantI S_ 1 1#1 : (⟨S_, .i1⟩ : BufTy).Contents (Elt F)),
    binary main_call4_v11 main_call4_c_3 main_call4_v12 (fun x v => Host.reduce IntOp.andi x v reducesTo_S16384x1_S16384_d1 h_S_ : (⟨S16384x1, .i1⟩ : BufTy).Contents (Elt F) → (⟨S_, .i1⟩ : BufTy).Contents (Elt F) → (⟨S16384, .i1⟩ : BufTy).Contents (Elt F)),
    binary main_v23 main_call4_v5 main_call4_v13 (fun x i => Host.gather gather_S100000x32_S16384x1_S16384x32_1_0_n_n_0_1_132 x i : (⟨S100000x32, .f32⟩ : BufTy).Contents (Elt F) → (⟨S16384x1, .i32⟩ : BufTy).Contents (Elt F) → (⟨S16384x32, .f32⟩ : BufTy).Contents (Elt F)),
    unary main_call4_v12 main_call4_v14 (broadcastInDim S16384x32 ![0] bcast_S16384_S16384x32_0 : (⟨S16384, .i1⟩ : BufTy).Contents (Elt F) → (⟨S16384x32, .i1⟩ : BufTy).Contents (Elt F)),
    nullary main_call4_cst (constant S_ .f32 0x7FC00000#32 : (⟨S_, .f32⟩ : BufTy).Contents (Elt F)),
    unary main_call4_cst main_call4_v15 (broadcastInDim S16384x32 ![] bcast_S_S16384x32 : (⟨S_, .f32⟩ : BufTy).Contents (Elt F) → (⟨S16384x32, .f32⟩ : BufTy).Contents (Elt F)),
    ternary main_call4_v14 main_call4_v13 main_call4_v15 main_v24 (select : (⟨S16384x32, .i1⟩ : BufTy).Contents (Elt F) → (⟨S16384x32, .f32⟩ : BufTy).Contents (Elt F) → (⟨S16384x32, .f32⟩ : BufTy).Contents (Elt F) → (⟨S16384x32, .f32⟩ : BufTy).Contents (Elt F)) ]

/-- The buffers field 4 writes. -/
abbrev fieldW4 : List (Ref sig .tc) := [main_v20, main_v21, main_v22, main_v23, main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13, main_call4_v14, main_call4_cst, main_call4_v15, main_v24]

theorem fieldT4_eq : (fieldT4 : List (HloOp τ sig (Elt F))) = fieldP4 := by
  unfold fieldT4 fieldP4 takeOpsT
  ops_entries

theorem field4_ok : (fieldP4 : List (HloOp τ sig (Elt F))).Forall fun op => op.bufs ⊆ tcRefs τ sig ∧ op.fresh = ∅ := by
  unfold fieldP4
  exact ⟨⟨unary_bufs_sub .., rfl⟩, ⟨reshape_bufs_sub .., rfl⟩, ⟨unary_bufs_sub .., rfl⟩, ⟨reshape_bufs_sub .., rfl⟩, ⟨nullary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨ternary_bufs_sub .., rfl⟩, ⟨unary_bufs_sub .., rfl⟩, ⟨nullary_bufs_sub .., rfl⟩, ⟨nullary_bufs_sub .., rfl⟩, ⟨unary_bufs_sub .., rfl⟩, ⟨binary_bufs_sub .., rfl⟩, ⟨unary_bufs_sub .., rfl⟩, ⟨unary_bufs_sub .., rfl⟩, ⟨binary_bufs_sub .., rfl⟩, ⟨binary_bufs_sub .., rfl⟩, ⟨nullary_bufs_sub .., rfl⟩, ⟨binary_bufs_sub .., rfl⟩, ⟨binary_bufs_sub .., rfl⟩, ⟨unary_bufs_sub .., rfl⟩, ⟨nullary_bufs_sub .., rfl⟩, ⟨unary_bufs_sub .., rfl⟩, ⟨ternary_bufs_sub .., rfl⟩⟩

theorem field4_writes : (fieldP4 : List (HloOp τ sig (Elt F))).Forall fun op => op.writes ⊆ (fieldW4.map (Proc.devRef (τ := τ) .tc)).toFinset := by
  unfold fieldP4
  simp only [List.Forall]
  exact ⟨by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem⟩

/-- A buffer field 4 does not write keeps its contents through it. -/
theorem field4_keep (W : Valuation τ sig (Elt F)) (r : Ref sig .tc) (h : r ∉ fieldW4) :
    after fieldP4 W (Proc.devRef .tc r) = W (Proc.devRef .tc r) :=
  after_of_writes_sub fieldP4 W field4_writes h

/-- What field 4 leaves in its result buffer: the field's function of the two arguments' contents. -/
theorem field4_res (W : Valuation τ sig (Elt F)) :
    after fieldP4 W (Proc.devRef .tc main_v24) = RefFn.field4 (W (Proc.devRef .tc main_arg0)) (W (Proc.devRef .tc main_arg1)) := by
  unfold fieldP4
  after_results_simp
  rfl

/-! ### Field 5 -/

/-- Field 5 as the program states it: the two slices and reshapes, then the call's operations over its typed buffers. -/
def fieldT5 : List (HloOp τ sig (Elt F)) :=
  unary main_arg0 main_v25 ((extractStridedSlice S16384x1 ![0, 5] · slices_S16384x26_S16384x1_0_5) : (⟨S16384x26, .i32⟩ : BufTy).Contents (Elt F) → (⟨S16384x1, .i32⟩ : BufTy).Contents (Elt F)) ::
  reshape main_v25 main_v26 rfl shapeCasts_S16384x1_S16384 ::
  unary main_arg1 main_v27 ((extractStridedSlice S1x100000x32 ![5, 0, 0] · slices_S26x100000x32_S1x100000x32_5_0_0) : (⟨S26x100000x32, .f32⟩ : BufTy).Contents (Elt F) → (⟨S1x100000x32, .f32⟩ : BufTy).Contents (Elt F)) ::
  reshape main_v27 main_v28 rfl shapeCasts_S1x100000x32_S100000x32 ::
  takeOpsT (.of main_v28) (.of main_v26) main_call5

/-- The same 28 operations at the buffers themselves. -/
def fieldP5 : List (HloOp τ sig (Elt F)) :=
  [ unary main_arg0 main_v25 ((extractStridedSlice S16384x1 ![0, 5] · slices_S16384x26_S16384x1_0_5) : (⟨S16384x26, .i32⟩ : BufTy).Contents (Elt F) → (⟨S16384x1, .i32⟩ : BufTy).Contents (Elt F)),
    reshape main_v25 main_v26 rfl shapeCasts_S16384x1_S16384,
    unary main_arg1 main_v27 ((extractStridedSlice S1x100000x32 ![5, 0, 0] · slices_S26x100000x32_S1x100000x32_5_0_0) : (⟨S26x100000x32, .f32⟩ : BufTy).Contents (Elt F) → (⟨S1x100000x32, .f32⟩ : BufTy).Contents (Elt F)),
    reshape main_v27 main_v28 rfl shapeCasts_S1x100000x32_S100000x32,
    nullary main_call5_c (constantI S_ 32 0#32 : (⟨S_, .i32⟩ : BufTy).Contents (Elt F)),
    unary main_call5_c main_call5_v0 (broadcastInDim S16384 ![] bcast_S_S16384 : (⟨S_, .i32⟩ : BufTy).Contents (Elt F) → (⟨S16384, .i32⟩ : BufTy).Contents (Elt F)),
    binary main_v26 main_call5_v0 main_call5_v1 (cmpi .slt : (⟨S16384, .i32⟩ : BufTy).Contents (Elt F) → (⟨S16384, .i32⟩ : BufTy).Contents (Elt F) → (⟨S16384, .i1⟩ : BufTy).Contents (Elt F)),
    nullary main_call5_c_0 (constantI S_ 32 100000#32 : (⟨S_, .i32⟩ : BufTy).Contents (Elt F)),
    unary main_call5_c_0 main_call5_v2 (broadcastInDim S16384 ![] bcast_S_S16384 : (⟨S_, .i32⟩ : BufTy).Contents (Elt F) → (⟨S16384, .i32⟩ : BufTy).Contents (Elt F)),
    binary main_v26 main_call5_v2 main_call5_v3 (addi : (⟨S16384, .i32⟩ : BufTy).Contents (Elt F) → (⟨S16384, .i32⟩ : BufTy).Contents (Elt F) → (⟨S16384, .i32⟩ : BufTy).Contents (Elt F)),
    ternary main_call5_v1 main_call5_v3 main_v26 main_call5_v4 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_call5_v4 main_call5_v5 (broadcastInDim S16384x1 ![0] bcast_S16384_S16384x1_0 : (⟨S16384, .i32⟩ : BufTy).Contents (Elt F) → (⟨S16384x1, .i32⟩ : BufTy).Contents (Elt F)),
    nullary main_call5_c_1 (constantI S1 32 99999#32 : (⟨S1, .i32⟩ : BufTy).Contents (Elt F)),
    nullary main_call5_c_2 (constantI S_ 32 0#32 : (⟨S_, .i32⟩ : BufTy).Contents (Elt F)),
    unary main_call5_c_2 main_call5_v6 (broadcastInDim S16384x1 ![] bcast_S_S16384x1 : (⟨S_, .i32⟩ : BufTy).Contents (Elt F) → (⟨S16384x1, .i32⟩ : BufTy).Contents (Elt F)),
    binary main_call5_v5 main_call5_v6 main_call5_v7 (cmpi .sge : (⟨S16384x1, .i32⟩ : BufTy).Contents (Elt F) → (⟨S16384x1, .i32⟩ : BufTy).Contents (Elt F) → (⟨S16384x1, .i1⟩ : BufTy).Contents (Elt F)),
    unary main_call5_c_1 main_call5_v8 (broadcastInDim S1x1 ![1] bcast_S1_S1x1_1 : (⟨S1, .i32⟩ : BufTy).Contents (Elt F) → (⟨S1x1, .i32⟩ : BufTy).Contents (Elt F)),
    unary main_call5_v8 main_call5_v9 (broadcastInDim S16384x1 ![0, 1] bcast_S1x1_S16384x1_0_1 : (⟨S1x1, .i32⟩ : BufTy).Contents (Elt F) → (⟨S16384x1, .i32⟩ : BufTy).Contents (Elt F)),
    binary main_call5_v5 main_call5_v9 main_call5_v10 (cmpi .sle : (⟨S16384x1, .i32⟩ : BufTy).Contents (Elt F) → (⟨S16384x1, .i32⟩ : BufTy).Contents (Elt F) → (⟨S16384x1, .i1⟩ : BufTy).Contents (Elt F)),
    binary main_call5_v7 main_call5_v10 main_call5_v11 (andi : (⟨S16384x1, .i1⟩ : BufTy).Contents (Elt F) → (⟨S16384x1, .i1⟩ : BufTy).Contents (Elt F) → (⟨S16384x1, .i1⟩ : BufTy).Contents (Elt F)),
    nullary main_call5_c_3 (constantI S_ 1 1#1 : (⟨S_, .i1⟩ : BufTy).Contents (Elt F)),
    binary main_call5_v11 main_call5_c_3 main_call5_v12 (fun x v => Host.reduce IntOp.andi x v reducesTo_S16384x1_S16384_d1 h_S_ : (⟨S16384x1, .i1⟩ : BufTy).Contents (Elt F) → (⟨S_, .i1⟩ : BufTy).Contents (Elt F) → (⟨S16384, .i1⟩ : BufTy).Contents (Elt F)),
    binary main_v28 main_call5_v5 main_call5_v13 (fun x i => Host.gather gather_S100000x32_S16384x1_S16384x32_1_0_n_n_0_1_132 x i : (⟨S100000x32, .f32⟩ : BufTy).Contents (Elt F) → (⟨S16384x1, .i32⟩ : BufTy).Contents (Elt F) → (⟨S16384x32, .f32⟩ : BufTy).Contents (Elt F)),
    unary main_call5_v12 main_call5_v14 (broadcastInDim S16384x32 ![0] bcast_S16384_S16384x32_0 : (⟨S16384, .i1⟩ : BufTy).Contents (Elt F) → (⟨S16384x32, .i1⟩ : BufTy).Contents (Elt F)),
    nullary main_call5_cst (constant S_ .f32 0x7FC00000#32 : (⟨S_, .f32⟩ : BufTy).Contents (Elt F)),
    unary main_call5_cst main_call5_v15 (broadcastInDim S16384x32 ![] bcast_S_S16384x32 : (⟨S_, .f32⟩ : BufTy).Contents (Elt F) → (⟨S16384x32, .f32⟩ : BufTy).Contents (Elt F)),
    ternary main_call5_v14 main_call5_v13 main_call5_v15 main_v29 (select : (⟨S16384x32, .i1⟩ : BufTy).Contents (Elt F) → (⟨S16384x32, .f32⟩ : BufTy).Contents (Elt F) → (⟨S16384x32, .f32⟩ : BufTy).Contents (Elt F) → (⟨S16384x32, .f32⟩ : BufTy).Contents (Elt F)) ]

/-- The buffers field 5 writes. -/
abbrev fieldW5 : List (Ref sig .tc) := [main_v25, main_v26, main_v27, main_v28, main_call5_c, main_call5_v0, main_call5_v1, main_call5_c_0, main_call5_v2, main_call5_v3, main_call5_v4, main_call5_v5, main_call5_c_1, main_call5_c_2, main_call5_v6, main_call5_v7, main_call5_v8, main_call5_v9, main_call5_v10, main_call5_v11, main_call5_c_3, main_call5_v12, main_call5_v13, main_call5_v14, main_call5_cst, main_call5_v15, main_v29]

theorem fieldT5_eq : (fieldT5 : List (HloOp τ sig (Elt F))) = fieldP5 := by
  unfold fieldT5 fieldP5 takeOpsT
  ops_entries

theorem field5_ok : (fieldP5 : List (HloOp τ sig (Elt F))).Forall fun op => op.bufs ⊆ tcRefs τ sig ∧ op.fresh = ∅ := by
  unfold fieldP5
  exact ⟨⟨unary_bufs_sub .., rfl⟩, ⟨reshape_bufs_sub .., rfl⟩, ⟨unary_bufs_sub .., rfl⟩, ⟨reshape_bufs_sub .., rfl⟩, ⟨nullary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨ternary_bufs_sub .., rfl⟩, ⟨unary_bufs_sub .., rfl⟩, ⟨nullary_bufs_sub .., rfl⟩, ⟨nullary_bufs_sub .., rfl⟩, ⟨unary_bufs_sub .., rfl⟩, ⟨binary_bufs_sub .., rfl⟩, ⟨unary_bufs_sub .., rfl⟩, ⟨unary_bufs_sub .., rfl⟩, ⟨binary_bufs_sub .., rfl⟩, ⟨binary_bufs_sub .., rfl⟩, ⟨nullary_bufs_sub .., rfl⟩, ⟨binary_bufs_sub .., rfl⟩, ⟨binary_bufs_sub .., rfl⟩, ⟨unary_bufs_sub .., rfl⟩, ⟨nullary_bufs_sub .., rfl⟩, ⟨unary_bufs_sub .., rfl⟩, ⟨ternary_bufs_sub .., rfl⟩⟩

theorem field5_writes : (fieldP5 : List (HloOp τ sig (Elt F))).Forall fun op => op.writes ⊆ (fieldW5.map (Proc.devRef (τ := τ) .tc)).toFinset := by
  unfold fieldP5
  simp only [List.Forall]
  exact ⟨by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem⟩

/-- A buffer field 5 does not write keeps its contents through it. -/
theorem field5_keep (W : Valuation τ sig (Elt F)) (r : Ref sig .tc) (h : r ∉ fieldW5) :
    after fieldP5 W (Proc.devRef .tc r) = W (Proc.devRef .tc r) :=
  after_of_writes_sub fieldP5 W field5_writes h

/-- What field 5 leaves in its result buffer: the field's function of the two arguments' contents. -/
theorem field5_res (W : Valuation τ sig (Elt F)) :
    after fieldP5 W (Proc.devRef .tc main_v29) = RefFn.field5 (W (Proc.devRef .tc main_arg0)) (W (Proc.devRef .tc main_arg1)) := by
  unfold fieldP5
  after_results_simp
  rfl

/-! ### Field 6 -/

/-- Field 6 as the program states it: the two slices and reshapes, then the call's operations over its typed buffers. -/
def fieldT6 : List (HloOp τ sig (Elt F)) :=
  unary main_arg0 main_v30 ((extractStridedSlice S16384x1 ![0, 6] · slices_S16384x26_S16384x1_0_6) : (⟨S16384x26, .i32⟩ : BufTy).Contents (Elt F) → (⟨S16384x1, .i32⟩ : BufTy).Contents (Elt F)) ::
  reshape main_v30 main_v31 rfl shapeCasts_S16384x1_S16384 ::
  unary main_arg1 main_v32 ((extractStridedSlice S1x100000x32 ![6, 0, 0] · slices_S26x100000x32_S1x100000x32_6_0_0) : (⟨S26x100000x32, .f32⟩ : BufTy).Contents (Elt F) → (⟨S1x100000x32, .f32⟩ : BufTy).Contents (Elt F)) ::
  reshape main_v32 main_v33 rfl shapeCasts_S1x100000x32_S100000x32 ::
  takeOpsT (.of main_v33) (.of main_v31) main_call6

/-- The same 28 operations at the buffers themselves. -/
def fieldP6 : List (HloOp τ sig (Elt F)) :=
  [ unary main_arg0 main_v30 ((extractStridedSlice S16384x1 ![0, 6] · slices_S16384x26_S16384x1_0_6) : (⟨S16384x26, .i32⟩ : BufTy).Contents (Elt F) → (⟨S16384x1, .i32⟩ : BufTy).Contents (Elt F)),
    reshape main_v30 main_v31 rfl shapeCasts_S16384x1_S16384,
    unary main_arg1 main_v32 ((extractStridedSlice S1x100000x32 ![6, 0, 0] · slices_S26x100000x32_S1x100000x32_6_0_0) : (⟨S26x100000x32, .f32⟩ : BufTy).Contents (Elt F) → (⟨S1x100000x32, .f32⟩ : BufTy).Contents (Elt F)),
    reshape main_v32 main_v33 rfl shapeCasts_S1x100000x32_S100000x32,
    nullary main_call6_c (constantI S_ 32 0#32 : (⟨S_, .i32⟩ : BufTy).Contents (Elt F)),
    unary main_call6_c main_call6_v0 (broadcastInDim S16384 ![] bcast_S_S16384 : (⟨S_, .i32⟩ : BufTy).Contents (Elt F) → (⟨S16384, .i32⟩ : BufTy).Contents (Elt F)),
    binary main_v31 main_call6_v0 main_call6_v1 (cmpi .slt : (⟨S16384, .i32⟩ : BufTy).Contents (Elt F) → (⟨S16384, .i32⟩ : BufTy).Contents (Elt F) → (⟨S16384, .i1⟩ : BufTy).Contents (Elt F)),
    nullary main_call6_c_0 (constantI S_ 32 100000#32 : (⟨S_, .i32⟩ : BufTy).Contents (Elt F)),
    unary main_call6_c_0 main_call6_v2 (broadcastInDim S16384 ![] bcast_S_S16384 : (⟨S_, .i32⟩ : BufTy).Contents (Elt F) → (⟨S16384, .i32⟩ : BufTy).Contents (Elt F)),
    binary main_v31 main_call6_v2 main_call6_v3 (addi : (⟨S16384, .i32⟩ : BufTy).Contents (Elt F) → (⟨S16384, .i32⟩ : BufTy).Contents (Elt F) → (⟨S16384, .i32⟩ : BufTy).Contents (Elt F)),
    ternary main_call6_v1 main_call6_v3 main_v31 main_call6_v4 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_call6_v4 main_call6_v5 (broadcastInDim S16384x1 ![0] bcast_S16384_S16384x1_0 : (⟨S16384, .i32⟩ : BufTy).Contents (Elt F) → (⟨S16384x1, .i32⟩ : BufTy).Contents (Elt F)),
    nullary main_call6_c_1 (constantI S1 32 99999#32 : (⟨S1, .i32⟩ : BufTy).Contents (Elt F)),
    nullary main_call6_c_2 (constantI S_ 32 0#32 : (⟨S_, .i32⟩ : BufTy).Contents (Elt F)),
    unary main_call6_c_2 main_call6_v6 (broadcastInDim S16384x1 ![] bcast_S_S16384x1 : (⟨S_, .i32⟩ : BufTy).Contents (Elt F) → (⟨S16384x1, .i32⟩ : BufTy).Contents (Elt F)),
    binary main_call6_v5 main_call6_v6 main_call6_v7 (cmpi .sge : (⟨S16384x1, .i32⟩ : BufTy).Contents (Elt F) → (⟨S16384x1, .i32⟩ : BufTy).Contents (Elt F) → (⟨S16384x1, .i1⟩ : BufTy).Contents (Elt F)),
    unary main_call6_c_1 main_call6_v8 (broadcastInDim S1x1 ![1] bcast_S1_S1x1_1 : (⟨S1, .i32⟩ : BufTy).Contents (Elt F) → (⟨S1x1, .i32⟩ : BufTy).Contents (Elt F)),
    unary main_call6_v8 main_call6_v9 (broadcastInDim S16384x1 ![0, 1] bcast_S1x1_S16384x1_0_1 : (⟨S1x1, .i32⟩ : BufTy).Contents (Elt F) → (⟨S16384x1, .i32⟩ : BufTy).Contents (Elt F)),
    binary main_call6_v5 main_call6_v9 main_call6_v10 (cmpi .sle : (⟨S16384x1, .i32⟩ : BufTy).Contents (Elt F) → (⟨S16384x1, .i32⟩ : BufTy).Contents (Elt F) → (⟨S16384x1, .i1⟩ : BufTy).Contents (Elt F)),
    binary main_call6_v7 main_call6_v10 main_call6_v11 (andi : (⟨S16384x1, .i1⟩ : BufTy).Contents (Elt F) → (⟨S16384x1, .i1⟩ : BufTy).Contents (Elt F) → (⟨S16384x1, .i1⟩ : BufTy).Contents (Elt F)),
    nullary main_call6_c_3 (constantI S_ 1 1#1 : (⟨S_, .i1⟩ : BufTy).Contents (Elt F)),
    binary main_call6_v11 main_call6_c_3 main_call6_v12 (fun x v => Host.reduce IntOp.andi x v reducesTo_S16384x1_S16384_d1 h_S_ : (⟨S16384x1, .i1⟩ : BufTy).Contents (Elt F) → (⟨S_, .i1⟩ : BufTy).Contents (Elt F) → (⟨S16384, .i1⟩ : BufTy).Contents (Elt F)),
    binary main_v33 main_call6_v5 main_call6_v13 (fun x i => Host.gather gather_S100000x32_S16384x1_S16384x32_1_0_n_n_0_1_132 x i : (⟨S100000x32, .f32⟩ : BufTy).Contents (Elt F) → (⟨S16384x1, .i32⟩ : BufTy).Contents (Elt F) → (⟨S16384x32, .f32⟩ : BufTy).Contents (Elt F)),
    unary main_call6_v12 main_call6_v14 (broadcastInDim S16384x32 ![0] bcast_S16384_S16384x32_0 : (⟨S16384, .i1⟩ : BufTy).Contents (Elt F) → (⟨S16384x32, .i1⟩ : BufTy).Contents (Elt F)),
    nullary main_call6_cst (constant S_ .f32 0x7FC00000#32 : (⟨S_, .f32⟩ : BufTy).Contents (Elt F)),
    unary main_call6_cst main_call6_v15 (broadcastInDim S16384x32 ![] bcast_S_S16384x32 : (⟨S_, .f32⟩ : BufTy).Contents (Elt F) → (⟨S16384x32, .f32⟩ : BufTy).Contents (Elt F)),
    ternary main_call6_v14 main_call6_v13 main_call6_v15 main_v34 (select : (⟨S16384x32, .i1⟩ : BufTy).Contents (Elt F) → (⟨S16384x32, .f32⟩ : BufTy).Contents (Elt F) → (⟨S16384x32, .f32⟩ : BufTy).Contents (Elt F) → (⟨S16384x32, .f32⟩ : BufTy).Contents (Elt F)) ]

/-- The buffers field 6 writes. -/
abbrev fieldW6 : List (Ref sig .tc) := [main_v30, main_v31, main_v32, main_v33, main_call6_c, main_call6_v0, main_call6_v1, main_call6_c_0, main_call6_v2, main_call6_v3, main_call6_v4, main_call6_v5, main_call6_c_1, main_call6_c_2, main_call6_v6, main_call6_v7, main_call6_v8, main_call6_v9, main_call6_v10, main_call6_v11, main_call6_c_3, main_call6_v12, main_call6_v13, main_call6_v14, main_call6_cst, main_call6_v15, main_v34]

theorem fieldT6_eq : (fieldT6 : List (HloOp τ sig (Elt F))) = fieldP6 := by
  unfold fieldT6 fieldP6 takeOpsT
  ops_entries

theorem field6_ok : (fieldP6 : List (HloOp τ sig (Elt F))).Forall fun op => op.bufs ⊆ tcRefs τ sig ∧ op.fresh = ∅ := by
  unfold fieldP6
  exact ⟨⟨unary_bufs_sub .., rfl⟩, ⟨reshape_bufs_sub .., rfl⟩, ⟨unary_bufs_sub .., rfl⟩, ⟨reshape_bufs_sub .., rfl⟩, ⟨nullary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨ternary_bufs_sub .., rfl⟩, ⟨unary_bufs_sub .., rfl⟩, ⟨nullary_bufs_sub .., rfl⟩, ⟨nullary_bufs_sub .., rfl⟩, ⟨unary_bufs_sub .., rfl⟩, ⟨binary_bufs_sub .., rfl⟩, ⟨unary_bufs_sub .., rfl⟩, ⟨unary_bufs_sub .., rfl⟩, ⟨binary_bufs_sub .., rfl⟩, ⟨binary_bufs_sub .., rfl⟩, ⟨nullary_bufs_sub .., rfl⟩, ⟨binary_bufs_sub .., rfl⟩, ⟨binary_bufs_sub .., rfl⟩, ⟨unary_bufs_sub .., rfl⟩, ⟨nullary_bufs_sub .., rfl⟩, ⟨unary_bufs_sub .., rfl⟩, ⟨ternary_bufs_sub .., rfl⟩⟩

theorem field6_writes : (fieldP6 : List (HloOp τ sig (Elt F))).Forall fun op => op.writes ⊆ (fieldW6.map (Proc.devRef (τ := τ) .tc)).toFinset := by
  unfold fieldP6
  simp only [List.Forall]
  exact ⟨by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem⟩

/-- A buffer field 6 does not write keeps its contents through it. -/
theorem field6_keep (W : Valuation τ sig (Elt F)) (r : Ref sig .tc) (h : r ∉ fieldW6) :
    after fieldP6 W (Proc.devRef .tc r) = W (Proc.devRef .tc r) :=
  after_of_writes_sub fieldP6 W field6_writes h

/-- What field 6 leaves in its result buffer: the field's function of the two arguments' contents. -/
theorem field6_res (W : Valuation τ sig (Elt F)) :
    after fieldP6 W (Proc.devRef .tc main_v34) = RefFn.field6 (W (Proc.devRef .tc main_arg0)) (W (Proc.devRef .tc main_arg1)) := by
  unfold fieldP6
  after_results_simp
  rfl

/-! ### Field 7 -/

/-- Field 7 as the program states it: the two slices and reshapes, then the call's operations over its typed buffers. -/
def fieldT7 : List (HloOp τ sig (Elt F)) :=
  unary main_arg0 main_v35 ((extractStridedSlice S16384x1 ![0, 7] · slices_S16384x26_S16384x1_0_7) : (⟨S16384x26, .i32⟩ : BufTy).Contents (Elt F) → (⟨S16384x1, .i32⟩ : BufTy).Contents (Elt F)) ::
  reshape main_v35 main_v36 rfl shapeCasts_S16384x1_S16384 ::
  unary main_arg1 main_v37 ((extractStridedSlice S1x100000x32 ![7, 0, 0] · slices_S26x100000x32_S1x100000x32_7_0_0) : (⟨S26x100000x32, .f32⟩ : BufTy).Contents (Elt F) → (⟨S1x100000x32, .f32⟩ : BufTy).Contents (Elt F)) ::
  reshape main_v37 main_v38 rfl shapeCasts_S1x100000x32_S100000x32 ::
  takeOpsT (.of main_v38) (.of main_v36) main_call7

/-- The same 28 operations at the buffers themselves. -/
def fieldP7 : List (HloOp τ sig (Elt F)) :=
  [ unary main_arg0 main_v35 ((extractStridedSlice S16384x1 ![0, 7] · slices_S16384x26_S16384x1_0_7) : (⟨S16384x26, .i32⟩ : BufTy).Contents (Elt F) → (⟨S16384x1, .i32⟩ : BufTy).Contents (Elt F)),
    reshape main_v35 main_v36 rfl shapeCasts_S16384x1_S16384,
    unary main_arg1 main_v37 ((extractStridedSlice S1x100000x32 ![7, 0, 0] · slices_S26x100000x32_S1x100000x32_7_0_0) : (⟨S26x100000x32, .f32⟩ : BufTy).Contents (Elt F) → (⟨S1x100000x32, .f32⟩ : BufTy).Contents (Elt F)),
    reshape main_v37 main_v38 rfl shapeCasts_S1x100000x32_S100000x32,
    nullary main_call7_c (constantI S_ 32 0#32 : (⟨S_, .i32⟩ : BufTy).Contents (Elt F)),
    unary main_call7_c main_call7_v0 (broadcastInDim S16384 ![] bcast_S_S16384 : (⟨S_, .i32⟩ : BufTy).Contents (Elt F) → (⟨S16384, .i32⟩ : BufTy).Contents (Elt F)),
    binary main_v36 main_call7_v0 main_call7_v1 (cmpi .slt : (⟨S16384, .i32⟩ : BufTy).Contents (Elt F) → (⟨S16384, .i32⟩ : BufTy).Contents (Elt F) → (⟨S16384, .i1⟩ : BufTy).Contents (Elt F)),
    nullary main_call7_c_0 (constantI S_ 32 100000#32 : (⟨S_, .i32⟩ : BufTy).Contents (Elt F)),
    unary main_call7_c_0 main_call7_v2 (broadcastInDim S16384 ![] bcast_S_S16384 : (⟨S_, .i32⟩ : BufTy).Contents (Elt F) → (⟨S16384, .i32⟩ : BufTy).Contents (Elt F)),
    binary main_v36 main_call7_v2 main_call7_v3 (addi : (⟨S16384, .i32⟩ : BufTy).Contents (Elt F) → (⟨S16384, .i32⟩ : BufTy).Contents (Elt F) → (⟨S16384, .i32⟩ : BufTy).Contents (Elt F)),
    ternary main_call7_v1 main_call7_v3 main_v36 main_call7_v4 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_call7_v4 main_call7_v5 (broadcastInDim S16384x1 ![0] bcast_S16384_S16384x1_0 : (⟨S16384, .i32⟩ : BufTy).Contents (Elt F) → (⟨S16384x1, .i32⟩ : BufTy).Contents (Elt F)),
    nullary main_call7_c_1 (constantI S1 32 99999#32 : (⟨S1, .i32⟩ : BufTy).Contents (Elt F)),
    nullary main_call7_c_2 (constantI S_ 32 0#32 : (⟨S_, .i32⟩ : BufTy).Contents (Elt F)),
    unary main_call7_c_2 main_call7_v6 (broadcastInDim S16384x1 ![] bcast_S_S16384x1 : (⟨S_, .i32⟩ : BufTy).Contents (Elt F) → (⟨S16384x1, .i32⟩ : BufTy).Contents (Elt F)),
    binary main_call7_v5 main_call7_v6 main_call7_v7 (cmpi .sge : (⟨S16384x1, .i32⟩ : BufTy).Contents (Elt F) → (⟨S16384x1, .i32⟩ : BufTy).Contents (Elt F) → (⟨S16384x1, .i1⟩ : BufTy).Contents (Elt F)),
    unary main_call7_c_1 main_call7_v8 (broadcastInDim S1x1 ![1] bcast_S1_S1x1_1 : (⟨S1, .i32⟩ : BufTy).Contents (Elt F) → (⟨S1x1, .i32⟩ : BufTy).Contents (Elt F)),
    unary main_call7_v8 main_call7_v9 (broadcastInDim S16384x1 ![0, 1] bcast_S1x1_S16384x1_0_1 : (⟨S1x1, .i32⟩ : BufTy).Contents (Elt F) → (⟨S16384x1, .i32⟩ : BufTy).Contents (Elt F)),
    binary main_call7_v5 main_call7_v9 main_call7_v10 (cmpi .sle : (⟨S16384x1, .i32⟩ : BufTy).Contents (Elt F) → (⟨S16384x1, .i32⟩ : BufTy).Contents (Elt F) → (⟨S16384x1, .i1⟩ : BufTy).Contents (Elt F)),
    binary main_call7_v7 main_call7_v10 main_call7_v11 (andi : (⟨S16384x1, .i1⟩ : BufTy).Contents (Elt F) → (⟨S16384x1, .i1⟩ : BufTy).Contents (Elt F) → (⟨S16384x1, .i1⟩ : BufTy).Contents (Elt F)),
    nullary main_call7_c_3 (constantI S_ 1 1#1 : (⟨S_, .i1⟩ : BufTy).Contents (Elt F)),
    binary main_call7_v11 main_call7_c_3 main_call7_v12 (fun x v => Host.reduce IntOp.andi x v reducesTo_S16384x1_S16384_d1 h_S_ : (⟨S16384x1, .i1⟩ : BufTy).Contents (Elt F) → (⟨S_, .i1⟩ : BufTy).Contents (Elt F) → (⟨S16384, .i1⟩ : BufTy).Contents (Elt F)),
    binary main_v38 main_call7_v5 main_call7_v13 (fun x i => Host.gather gather_S100000x32_S16384x1_S16384x32_1_0_n_n_0_1_132 x i : (⟨S100000x32, .f32⟩ : BufTy).Contents (Elt F) → (⟨S16384x1, .i32⟩ : BufTy).Contents (Elt F) → (⟨S16384x32, .f32⟩ : BufTy).Contents (Elt F)),
    unary main_call7_v12 main_call7_v14 (broadcastInDim S16384x32 ![0] bcast_S16384_S16384x32_0 : (⟨S16384, .i1⟩ : BufTy).Contents (Elt F) → (⟨S16384x32, .i1⟩ : BufTy).Contents (Elt F)),
    nullary main_call7_cst (constant S_ .f32 0x7FC00000#32 : (⟨S_, .f32⟩ : BufTy).Contents (Elt F)),
    unary main_call7_cst main_call7_v15 (broadcastInDim S16384x32 ![] bcast_S_S16384x32 : (⟨S_, .f32⟩ : BufTy).Contents (Elt F) → (⟨S16384x32, .f32⟩ : BufTy).Contents (Elt F)),
    ternary main_call7_v14 main_call7_v13 main_call7_v15 main_v39 (select : (⟨S16384x32, .i1⟩ : BufTy).Contents (Elt F) → (⟨S16384x32, .f32⟩ : BufTy).Contents (Elt F) → (⟨S16384x32, .f32⟩ : BufTy).Contents (Elt F) → (⟨S16384x32, .f32⟩ : BufTy).Contents (Elt F)) ]

/-- The buffers field 7 writes. -/
abbrev fieldW7 : List (Ref sig .tc) := [main_v35, main_v36, main_v37, main_v38, main_call7_c, main_call7_v0, main_call7_v1, main_call7_c_0, main_call7_v2, main_call7_v3, main_call7_v4, main_call7_v5, main_call7_c_1, main_call7_c_2, main_call7_v6, main_call7_v7, main_call7_v8, main_call7_v9, main_call7_v10, main_call7_v11, main_call7_c_3, main_call7_v12, main_call7_v13, main_call7_v14, main_call7_cst, main_call7_v15, main_v39]

theorem fieldT7_eq : (fieldT7 : List (HloOp τ sig (Elt F))) = fieldP7 := by
  unfold fieldT7 fieldP7 takeOpsT
  ops_entries

theorem field7_ok : (fieldP7 : List (HloOp τ sig (Elt F))).Forall fun op => op.bufs ⊆ tcRefs τ sig ∧ op.fresh = ∅ := by
  unfold fieldP7
  exact ⟨⟨unary_bufs_sub .., rfl⟩, ⟨reshape_bufs_sub .., rfl⟩, ⟨unary_bufs_sub .., rfl⟩, ⟨reshape_bufs_sub .., rfl⟩, ⟨nullary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨ternary_bufs_sub .., rfl⟩, ⟨unary_bufs_sub .., rfl⟩, ⟨nullary_bufs_sub .., rfl⟩, ⟨nullary_bufs_sub .., rfl⟩, ⟨unary_bufs_sub .., rfl⟩, ⟨binary_bufs_sub .., rfl⟩, ⟨unary_bufs_sub .., rfl⟩, ⟨unary_bufs_sub .., rfl⟩, ⟨binary_bufs_sub .., rfl⟩, ⟨binary_bufs_sub .., rfl⟩, ⟨nullary_bufs_sub .., rfl⟩, ⟨binary_bufs_sub .., rfl⟩, ⟨binary_bufs_sub .., rfl⟩, ⟨unary_bufs_sub .., rfl⟩, ⟨nullary_bufs_sub .., rfl⟩, ⟨unary_bufs_sub .., rfl⟩, ⟨ternary_bufs_sub .., rfl⟩⟩

theorem field7_writes : (fieldP7 : List (HloOp τ sig (Elt F))).Forall fun op => op.writes ⊆ (fieldW7.map (Proc.devRef (τ := τ) .tc)).toFinset := by
  unfold fieldP7
  simp only [List.Forall]
  exact ⟨by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem⟩

/-- A buffer field 7 does not write keeps its contents through it. -/
theorem field7_keep (W : Valuation τ sig (Elt F)) (r : Ref sig .tc) (h : r ∉ fieldW7) :
    after fieldP7 W (Proc.devRef .tc r) = W (Proc.devRef .tc r) :=
  after_of_writes_sub fieldP7 W field7_writes h

/-- What field 7 leaves in its result buffer: the field's function of the two arguments' contents. -/
theorem field7_res (W : Valuation τ sig (Elt F)) :
    after fieldP7 W (Proc.devRef .tc main_v39) = RefFn.field7 (W (Proc.devRef .tc main_arg0)) (W (Proc.devRef .tc main_arg1)) := by
  unfold fieldP7
  after_results_simp
  rfl

/-! ### Field 8 -/

/-- Field 8 as the program states it: the two slices and reshapes, then the call's operations over its typed buffers. -/
def fieldT8 : List (HloOp τ sig (Elt F)) :=
  unary main_arg0 main_v40 ((extractStridedSlice S16384x1 ![0, 8] · slices_S16384x26_S16384x1_0_8) : (⟨S16384x26, .i32⟩ : BufTy).Contents (Elt F) → (⟨S16384x1, .i32⟩ : BufTy).Contents (Elt F)) ::
  reshape main_v40 main_v41 rfl shapeCasts_S16384x1_S16384 ::
  unary main_arg1 main_v42 ((extractStridedSlice S1x100000x32 ![8, 0, 0] · slices_S26x100000x32_S1x100000x32_8_0_0) : (⟨S26x100000x32, .f32⟩ : BufTy).Contents (Elt F) → (⟨S1x100000x32, .f32⟩ : BufTy).Contents (Elt F)) ::
  reshape main_v42 main_v43 rfl shapeCasts_S1x100000x32_S100000x32 ::
  takeOpsT (.of main_v43) (.of main_v41) main_call8

/-- The same 28 operations at the buffers themselves. -/
def fieldP8 : List (HloOp τ sig (Elt F)) :=
  [ unary main_arg0 main_v40 ((extractStridedSlice S16384x1 ![0, 8] · slices_S16384x26_S16384x1_0_8) : (⟨S16384x26, .i32⟩ : BufTy).Contents (Elt F) → (⟨S16384x1, .i32⟩ : BufTy).Contents (Elt F)),
    reshape main_v40 main_v41 rfl shapeCasts_S16384x1_S16384,
    unary main_arg1 main_v42 ((extractStridedSlice S1x100000x32 ![8, 0, 0] · slices_S26x100000x32_S1x100000x32_8_0_0) : (⟨S26x100000x32, .f32⟩ : BufTy).Contents (Elt F) → (⟨S1x100000x32, .f32⟩ : BufTy).Contents (Elt F)),
    reshape main_v42 main_v43 rfl shapeCasts_S1x100000x32_S100000x32,
    nullary main_call8_c (constantI S_ 32 0#32 : (⟨S_, .i32⟩ : BufTy).Contents (Elt F)),
    unary main_call8_c main_call8_v0 (broadcastInDim S16384 ![] bcast_S_S16384 : (⟨S_, .i32⟩ : BufTy).Contents (Elt F) → (⟨S16384, .i32⟩ : BufTy).Contents (Elt F)),
    binary main_v41 main_call8_v0 main_call8_v1 (cmpi .slt : (⟨S16384, .i32⟩ : BufTy).Contents (Elt F) → (⟨S16384, .i32⟩ : BufTy).Contents (Elt F) → (⟨S16384, .i1⟩ : BufTy).Contents (Elt F)),
    nullary main_call8_c_0 (constantI S_ 32 100000#32 : (⟨S_, .i32⟩ : BufTy).Contents (Elt F)),
    unary main_call8_c_0 main_call8_v2 (broadcastInDim S16384 ![] bcast_S_S16384 : (⟨S_, .i32⟩ : BufTy).Contents (Elt F) → (⟨S16384, .i32⟩ : BufTy).Contents (Elt F)),
    binary main_v41 main_call8_v2 main_call8_v3 (addi : (⟨S16384, .i32⟩ : BufTy).Contents (Elt F) → (⟨S16384, .i32⟩ : BufTy).Contents (Elt F) → (⟨S16384, .i32⟩ : BufTy).Contents (Elt F)),
    ternary main_call8_v1 main_call8_v3 main_v41 main_call8_v4 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_call8_v4 main_call8_v5 (broadcastInDim S16384x1 ![0] bcast_S16384_S16384x1_0 : (⟨S16384, .i32⟩ : BufTy).Contents (Elt F) → (⟨S16384x1, .i32⟩ : BufTy).Contents (Elt F)),
    nullary main_call8_c_1 (constantI S1 32 99999#32 : (⟨S1, .i32⟩ : BufTy).Contents (Elt F)),
    nullary main_call8_c_2 (constantI S_ 32 0#32 : (⟨S_, .i32⟩ : BufTy).Contents (Elt F)),
    unary main_call8_c_2 main_call8_v6 (broadcastInDim S16384x1 ![] bcast_S_S16384x1 : (⟨S_, .i32⟩ : BufTy).Contents (Elt F) → (⟨S16384x1, .i32⟩ : BufTy).Contents (Elt F)),
    binary main_call8_v5 main_call8_v6 main_call8_v7 (cmpi .sge : (⟨S16384x1, .i32⟩ : BufTy).Contents (Elt F) → (⟨S16384x1, .i32⟩ : BufTy).Contents (Elt F) → (⟨S16384x1, .i1⟩ : BufTy).Contents (Elt F)),
    unary main_call8_c_1 main_call8_v8 (broadcastInDim S1x1 ![1] bcast_S1_S1x1_1 : (⟨S1, .i32⟩ : BufTy).Contents (Elt F) → (⟨S1x1, .i32⟩ : BufTy).Contents (Elt F)),
    unary main_call8_v8 main_call8_v9 (broadcastInDim S16384x1 ![0, 1] bcast_S1x1_S16384x1_0_1 : (⟨S1x1, .i32⟩ : BufTy).Contents (Elt F) → (⟨S16384x1, .i32⟩ : BufTy).Contents (Elt F)),
    binary main_call8_v5 main_call8_v9 main_call8_v10 (cmpi .sle : (⟨S16384x1, .i32⟩ : BufTy).Contents (Elt F) → (⟨S16384x1, .i32⟩ : BufTy).Contents (Elt F) → (⟨S16384x1, .i1⟩ : BufTy).Contents (Elt F)),
    binary main_call8_v7 main_call8_v10 main_call8_v11 (andi : (⟨S16384x1, .i1⟩ : BufTy).Contents (Elt F) → (⟨S16384x1, .i1⟩ : BufTy).Contents (Elt F) → (⟨S16384x1, .i1⟩ : BufTy).Contents (Elt F)),
    nullary main_call8_c_3 (constantI S_ 1 1#1 : (⟨S_, .i1⟩ : BufTy).Contents (Elt F)),
    binary main_call8_v11 main_call8_c_3 main_call8_v12 (fun x v => Host.reduce IntOp.andi x v reducesTo_S16384x1_S16384_d1 h_S_ : (⟨S16384x1, .i1⟩ : BufTy).Contents (Elt F) → (⟨S_, .i1⟩ : BufTy).Contents (Elt F) → (⟨S16384, .i1⟩ : BufTy).Contents (Elt F)),
    binary main_v43 main_call8_v5 main_call8_v13 (fun x i => Host.gather gather_S100000x32_S16384x1_S16384x32_1_0_n_n_0_1_132 x i : (⟨S100000x32, .f32⟩ : BufTy).Contents (Elt F) → (⟨S16384x1, .i32⟩ : BufTy).Contents (Elt F) → (⟨S16384x32, .f32⟩ : BufTy).Contents (Elt F)),
    unary main_call8_v12 main_call8_v14 (broadcastInDim S16384x32 ![0] bcast_S16384_S16384x32_0 : (⟨S16384, .i1⟩ : BufTy).Contents (Elt F) → (⟨S16384x32, .i1⟩ : BufTy).Contents (Elt F)),
    nullary main_call8_cst (constant S_ .f32 0x7FC00000#32 : (⟨S_, .f32⟩ : BufTy).Contents (Elt F)),
    unary main_call8_cst main_call8_v15 (broadcastInDim S16384x32 ![] bcast_S_S16384x32 : (⟨S_, .f32⟩ : BufTy).Contents (Elt F) → (⟨S16384x32, .f32⟩ : BufTy).Contents (Elt F)),
    ternary main_call8_v14 main_call8_v13 main_call8_v15 main_v44 (select : (⟨S16384x32, .i1⟩ : BufTy).Contents (Elt F) → (⟨S16384x32, .f32⟩ : BufTy).Contents (Elt F) → (⟨S16384x32, .f32⟩ : BufTy).Contents (Elt F) → (⟨S16384x32, .f32⟩ : BufTy).Contents (Elt F)) ]

/-- The buffers field 8 writes. -/
abbrev fieldW8 : List (Ref sig .tc) := [main_v40, main_v41, main_v42, main_v43, main_call8_c, main_call8_v0, main_call8_v1, main_call8_c_0, main_call8_v2, main_call8_v3, main_call8_v4, main_call8_v5, main_call8_c_1, main_call8_c_2, main_call8_v6, main_call8_v7, main_call8_v8, main_call8_v9, main_call8_v10, main_call8_v11, main_call8_c_3, main_call8_v12, main_call8_v13, main_call8_v14, main_call8_cst, main_call8_v15, main_v44]

theorem fieldT8_eq : (fieldT8 : List (HloOp τ sig (Elt F))) = fieldP8 := by
  unfold fieldT8 fieldP8 takeOpsT
  ops_entries

theorem field8_ok : (fieldP8 : List (HloOp τ sig (Elt F))).Forall fun op => op.bufs ⊆ tcRefs τ sig ∧ op.fresh = ∅ := by
  unfold fieldP8
  exact ⟨⟨unary_bufs_sub .., rfl⟩, ⟨reshape_bufs_sub .., rfl⟩, ⟨unary_bufs_sub .., rfl⟩, ⟨reshape_bufs_sub .., rfl⟩, ⟨nullary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨ternary_bufs_sub .., rfl⟩, ⟨unary_bufs_sub .., rfl⟩, ⟨nullary_bufs_sub .., rfl⟩, ⟨nullary_bufs_sub .., rfl⟩, ⟨unary_bufs_sub .., rfl⟩, ⟨binary_bufs_sub .., rfl⟩, ⟨unary_bufs_sub .., rfl⟩, ⟨unary_bufs_sub .., rfl⟩, ⟨binary_bufs_sub .., rfl⟩, ⟨binary_bufs_sub .., rfl⟩, ⟨nullary_bufs_sub .., rfl⟩, ⟨binary_bufs_sub .., rfl⟩, ⟨binary_bufs_sub .., rfl⟩, ⟨unary_bufs_sub .., rfl⟩, ⟨nullary_bufs_sub .., rfl⟩, ⟨unary_bufs_sub .., rfl⟩, ⟨ternary_bufs_sub .., rfl⟩⟩

theorem field8_writes : (fieldP8 : List (HloOp τ sig (Elt F))).Forall fun op => op.writes ⊆ (fieldW8.map (Proc.devRef (τ := τ) .tc)).toFinset := by
  unfold fieldP8
  simp only [List.Forall]
  exact ⟨by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem⟩

/-- A buffer field 8 does not write keeps its contents through it. -/
theorem field8_keep (W : Valuation τ sig (Elt F)) (r : Ref sig .tc) (h : r ∉ fieldW8) :
    after fieldP8 W (Proc.devRef .tc r) = W (Proc.devRef .tc r) :=
  after_of_writes_sub fieldP8 W field8_writes h

/-- What field 8 leaves in its result buffer: the field's function of the two arguments' contents. -/
theorem field8_res (W : Valuation τ sig (Elt F)) :
    after fieldP8 W (Proc.devRef .tc main_v44) = RefFn.field8 (W (Proc.devRef .tc main_arg0)) (W (Proc.devRef .tc main_arg1)) := by
  unfold fieldP8
  after_results_simp
  rfl

/-! ### Field 9 -/

/-- Field 9 as the program states it: the two slices and reshapes, then the call's operations over its typed buffers. -/
def fieldT9 : List (HloOp τ sig (Elt F)) :=
  unary main_arg0 main_v45 ((extractStridedSlice S16384x1 ![0, 9] · slices_S16384x26_S16384x1_0_9) : (⟨S16384x26, .i32⟩ : BufTy).Contents (Elt F) → (⟨S16384x1, .i32⟩ : BufTy).Contents (Elt F)) ::
  reshape main_v45 main_v46 rfl shapeCasts_S16384x1_S16384 ::
  unary main_arg1 main_v47 ((extractStridedSlice S1x100000x32 ![9, 0, 0] · slices_S26x100000x32_S1x100000x32_9_0_0) : (⟨S26x100000x32, .f32⟩ : BufTy).Contents (Elt F) → (⟨S1x100000x32, .f32⟩ : BufTy).Contents (Elt F)) ::
  reshape main_v47 main_v48 rfl shapeCasts_S1x100000x32_S100000x32 ::
  takeOpsT (.of main_v48) (.of main_v46) main_call9

/-- The same 28 operations at the buffers themselves. -/
def fieldP9 : List (HloOp τ sig (Elt F)) :=
  [ unary main_arg0 main_v45 ((extractStridedSlice S16384x1 ![0, 9] · slices_S16384x26_S16384x1_0_9) : (⟨S16384x26, .i32⟩ : BufTy).Contents (Elt F) → (⟨S16384x1, .i32⟩ : BufTy).Contents (Elt F)),
    reshape main_v45 main_v46 rfl shapeCasts_S16384x1_S16384,
    unary main_arg1 main_v47 ((extractStridedSlice S1x100000x32 ![9, 0, 0] · slices_S26x100000x32_S1x100000x32_9_0_0) : (⟨S26x100000x32, .f32⟩ : BufTy).Contents (Elt F) → (⟨S1x100000x32, .f32⟩ : BufTy).Contents (Elt F)),
    reshape main_v47 main_v48 rfl shapeCasts_S1x100000x32_S100000x32,
    nullary main_call9_c (constantI S_ 32 0#32 : (⟨S_, .i32⟩ : BufTy).Contents (Elt F)),
    unary main_call9_c main_call9_v0 (broadcastInDim S16384 ![] bcast_S_S16384 : (⟨S_, .i32⟩ : BufTy).Contents (Elt F) → (⟨S16384, .i32⟩ : BufTy).Contents (Elt F)),
    binary main_v46 main_call9_v0 main_call9_v1 (cmpi .slt : (⟨S16384, .i32⟩ : BufTy).Contents (Elt F) → (⟨S16384, .i32⟩ : BufTy).Contents (Elt F) → (⟨S16384, .i1⟩ : BufTy).Contents (Elt F)),
    nullary main_call9_c_0 (constantI S_ 32 100000#32 : (⟨S_, .i32⟩ : BufTy).Contents (Elt F)),
    unary main_call9_c_0 main_call9_v2 (broadcastInDim S16384 ![] bcast_S_S16384 : (⟨S_, .i32⟩ : BufTy).Contents (Elt F) → (⟨S16384, .i32⟩ : BufTy).Contents (Elt F)),
    binary main_v46 main_call9_v2 main_call9_v3 (addi : (⟨S16384, .i32⟩ : BufTy).Contents (Elt F) → (⟨S16384, .i32⟩ : BufTy).Contents (Elt F) → (⟨S16384, .i32⟩ : BufTy).Contents (Elt F)),
    ternary main_call9_v1 main_call9_v3 main_v46 main_call9_v4 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_call9_v4 main_call9_v5 (broadcastInDim S16384x1 ![0] bcast_S16384_S16384x1_0 : (⟨S16384, .i32⟩ : BufTy).Contents (Elt F) → (⟨S16384x1, .i32⟩ : BufTy).Contents (Elt F)),
    nullary main_call9_c_1 (constantI S1 32 99999#32 : (⟨S1, .i32⟩ : BufTy).Contents (Elt F)),
    nullary main_call9_c_2 (constantI S_ 32 0#32 : (⟨S_, .i32⟩ : BufTy).Contents (Elt F)),
    unary main_call9_c_2 main_call9_v6 (broadcastInDim S16384x1 ![] bcast_S_S16384x1 : (⟨S_, .i32⟩ : BufTy).Contents (Elt F) → (⟨S16384x1, .i32⟩ : BufTy).Contents (Elt F)),
    binary main_call9_v5 main_call9_v6 main_call9_v7 (cmpi .sge : (⟨S16384x1, .i32⟩ : BufTy).Contents (Elt F) → (⟨S16384x1, .i32⟩ : BufTy).Contents (Elt F) → (⟨S16384x1, .i1⟩ : BufTy).Contents (Elt F)),
    unary main_call9_c_1 main_call9_v8 (broadcastInDim S1x1 ![1] bcast_S1_S1x1_1 : (⟨S1, .i32⟩ : BufTy).Contents (Elt F) → (⟨S1x1, .i32⟩ : BufTy).Contents (Elt F)),
    unary main_call9_v8 main_call9_v9 (broadcastInDim S16384x1 ![0, 1] bcast_S1x1_S16384x1_0_1 : (⟨S1x1, .i32⟩ : BufTy).Contents (Elt F) → (⟨S16384x1, .i32⟩ : BufTy).Contents (Elt F)),
    binary main_call9_v5 main_call9_v9 main_call9_v10 (cmpi .sle : (⟨S16384x1, .i32⟩ : BufTy).Contents (Elt F) → (⟨S16384x1, .i32⟩ : BufTy).Contents (Elt F) → (⟨S16384x1, .i1⟩ : BufTy).Contents (Elt F)),
    binary main_call9_v7 main_call9_v10 main_call9_v11 (andi : (⟨S16384x1, .i1⟩ : BufTy).Contents (Elt F) → (⟨S16384x1, .i1⟩ : BufTy).Contents (Elt F) → (⟨S16384x1, .i1⟩ : BufTy).Contents (Elt F)),
    nullary main_call9_c_3 (constantI S_ 1 1#1 : (⟨S_, .i1⟩ : BufTy).Contents (Elt F)),
    binary main_call9_v11 main_call9_c_3 main_call9_v12 (fun x v => Host.reduce IntOp.andi x v reducesTo_S16384x1_S16384_d1 h_S_ : (⟨S16384x1, .i1⟩ : BufTy).Contents (Elt F) → (⟨S_, .i1⟩ : BufTy).Contents (Elt F) → (⟨S16384, .i1⟩ : BufTy).Contents (Elt F)),
    binary main_v48 main_call9_v5 main_call9_v13 (fun x i => Host.gather gather_S100000x32_S16384x1_S16384x32_1_0_n_n_0_1_132 x i : (⟨S100000x32, .f32⟩ : BufTy).Contents (Elt F) → (⟨S16384x1, .i32⟩ : BufTy).Contents (Elt F) → (⟨S16384x32, .f32⟩ : BufTy).Contents (Elt F)),
    unary main_call9_v12 main_call9_v14 (broadcastInDim S16384x32 ![0] bcast_S16384_S16384x32_0 : (⟨S16384, .i1⟩ : BufTy).Contents (Elt F) → (⟨S16384x32, .i1⟩ : BufTy).Contents (Elt F)),
    nullary main_call9_cst (constant S_ .f32 0x7FC00000#32 : (⟨S_, .f32⟩ : BufTy).Contents (Elt F)),
    unary main_call9_cst main_call9_v15 (broadcastInDim S16384x32 ![] bcast_S_S16384x32 : (⟨S_, .f32⟩ : BufTy).Contents (Elt F) → (⟨S16384x32, .f32⟩ : BufTy).Contents (Elt F)),
    ternary main_call9_v14 main_call9_v13 main_call9_v15 main_v49 (select : (⟨S16384x32, .i1⟩ : BufTy).Contents (Elt F) → (⟨S16384x32, .f32⟩ : BufTy).Contents (Elt F) → (⟨S16384x32, .f32⟩ : BufTy).Contents (Elt F) → (⟨S16384x32, .f32⟩ : BufTy).Contents (Elt F)) ]

/-- The buffers field 9 writes. -/
abbrev fieldW9 : List (Ref sig .tc) := [main_v45, main_v46, main_v47, main_v48, main_call9_c, main_call9_v0, main_call9_v1, main_call9_c_0, main_call9_v2, main_call9_v3, main_call9_v4, main_call9_v5, main_call9_c_1, main_call9_c_2, main_call9_v6, main_call9_v7, main_call9_v8, main_call9_v9, main_call9_v10, main_call9_v11, main_call9_c_3, main_call9_v12, main_call9_v13, main_call9_v14, main_call9_cst, main_call9_v15, main_v49]

theorem fieldT9_eq : (fieldT9 : List (HloOp τ sig (Elt F))) = fieldP9 := by
  unfold fieldT9 fieldP9 takeOpsT
  ops_entries

theorem field9_ok : (fieldP9 : List (HloOp τ sig (Elt F))).Forall fun op => op.bufs ⊆ tcRefs τ sig ∧ op.fresh = ∅ := by
  unfold fieldP9
  exact ⟨⟨unary_bufs_sub .., rfl⟩, ⟨reshape_bufs_sub .., rfl⟩, ⟨unary_bufs_sub .., rfl⟩, ⟨reshape_bufs_sub .., rfl⟩, ⟨nullary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨ternary_bufs_sub .., rfl⟩, ⟨unary_bufs_sub .., rfl⟩, ⟨nullary_bufs_sub .., rfl⟩, ⟨nullary_bufs_sub .., rfl⟩, ⟨unary_bufs_sub .., rfl⟩, ⟨binary_bufs_sub .., rfl⟩, ⟨unary_bufs_sub .., rfl⟩, ⟨unary_bufs_sub .., rfl⟩, ⟨binary_bufs_sub .., rfl⟩, ⟨binary_bufs_sub .., rfl⟩, ⟨nullary_bufs_sub .., rfl⟩, ⟨binary_bufs_sub .., rfl⟩, ⟨binary_bufs_sub .., rfl⟩, ⟨unary_bufs_sub .., rfl⟩, ⟨nullary_bufs_sub .., rfl⟩, ⟨unary_bufs_sub .., rfl⟩, ⟨ternary_bufs_sub .., rfl⟩⟩

theorem field9_writes : (fieldP9 : List (HloOp τ sig (Elt F))).Forall fun op => op.writes ⊆ (fieldW9.map (Proc.devRef (τ := τ) .tc)).toFinset := by
  unfold fieldP9
  simp only [List.Forall]
  exact ⟨by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem⟩

/-- A buffer field 9 does not write keeps its contents through it. -/
theorem field9_keep (W : Valuation τ sig (Elt F)) (r : Ref sig .tc) (h : r ∉ fieldW9) :
    after fieldP9 W (Proc.devRef .tc r) = W (Proc.devRef .tc r) :=
  after_of_writes_sub fieldP9 W field9_writes h

/-- What field 9 leaves in its result buffer: the field's function of the two arguments' contents. -/
theorem field9_res (W : Valuation τ sig (Elt F)) :
    after fieldP9 W (Proc.devRef .tc main_v49) = RefFn.field9 (W (Proc.devRef .tc main_arg0)) (W (Proc.devRef .tc main_arg1)) := by
  unfold fieldP9
  after_results_simp
  rfl

/-! ### Field 10 -/

/-- Field 10 as the program states it: the two slices and reshapes, then the call's operations over its typed buffers. -/
def fieldT10 : List (HloOp τ sig (Elt F)) :=
  unary main_arg0 main_v50 ((extractStridedSlice S16384x1 ![0, 10] · slices_S16384x26_S16384x1_0_10) : (⟨S16384x26, .i32⟩ : BufTy).Contents (Elt F) → (⟨S16384x1, .i32⟩ : BufTy).Contents (Elt F)) ::
  reshape main_v50 main_v51 rfl shapeCasts_S16384x1_S16384 ::
  unary main_arg1 main_v52 ((extractStridedSlice S1x100000x32 ![10, 0, 0] · slices_S26x100000x32_S1x100000x32_10_0_0) : (⟨S26x100000x32, .f32⟩ : BufTy).Contents (Elt F) → (⟨S1x100000x32, .f32⟩ : BufTy).Contents (Elt F)) ::
  reshape main_v52 main_v53 rfl shapeCasts_S1x100000x32_S100000x32 ::
  takeOpsT (.of main_v53) (.of main_v51) main_call10

/-- The same 28 operations at the buffers themselves. -/
def fieldP10 : List (HloOp τ sig (Elt F)) :=
  [ unary main_arg0 main_v50 ((extractStridedSlice S16384x1 ![0, 10] · slices_S16384x26_S16384x1_0_10) : (⟨S16384x26, .i32⟩ : BufTy).Contents (Elt F) → (⟨S16384x1, .i32⟩ : BufTy).Contents (Elt F)),
    reshape main_v50 main_v51 rfl shapeCasts_S16384x1_S16384,
    unary main_arg1 main_v52 ((extractStridedSlice S1x100000x32 ![10, 0, 0] · slices_S26x100000x32_S1x100000x32_10_0_0) : (⟨S26x100000x32, .f32⟩ : BufTy).Contents (Elt F) → (⟨S1x100000x32, .f32⟩ : BufTy).Contents (Elt F)),
    reshape main_v52 main_v53 rfl shapeCasts_S1x100000x32_S100000x32,
    nullary main_call10_c (constantI S_ 32 0#32 : (⟨S_, .i32⟩ : BufTy).Contents (Elt F)),
    unary main_call10_c main_call10_v0 (broadcastInDim S16384 ![] bcast_S_S16384 : (⟨S_, .i32⟩ : BufTy).Contents (Elt F) → (⟨S16384, .i32⟩ : BufTy).Contents (Elt F)),
    binary main_v51 main_call10_v0 main_call10_v1 (cmpi .slt : (⟨S16384, .i32⟩ : BufTy).Contents (Elt F) → (⟨S16384, .i32⟩ : BufTy).Contents (Elt F) → (⟨S16384, .i1⟩ : BufTy).Contents (Elt F)),
    nullary main_call10_c_0 (constantI S_ 32 100000#32 : (⟨S_, .i32⟩ : BufTy).Contents (Elt F)),
    unary main_call10_c_0 main_call10_v2 (broadcastInDim S16384 ![] bcast_S_S16384 : (⟨S_, .i32⟩ : BufTy).Contents (Elt F) → (⟨S16384, .i32⟩ : BufTy).Contents (Elt F)),
    binary main_v51 main_call10_v2 main_call10_v3 (addi : (⟨S16384, .i32⟩ : BufTy).Contents (Elt F) → (⟨S16384, .i32⟩ : BufTy).Contents (Elt F) → (⟨S16384, .i32⟩ : BufTy).Contents (Elt F)),
    ternary main_call10_v1 main_call10_v3 main_v51 main_call10_v4 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_call10_v4 main_call10_v5 (broadcastInDim S16384x1 ![0] bcast_S16384_S16384x1_0 : (⟨S16384, .i32⟩ : BufTy).Contents (Elt F) → (⟨S16384x1, .i32⟩ : BufTy).Contents (Elt F)),
    nullary main_call10_c_1 (constantI S1 32 99999#32 : (⟨S1, .i32⟩ : BufTy).Contents (Elt F)),
    nullary main_call10_c_2 (constantI S_ 32 0#32 : (⟨S_, .i32⟩ : BufTy).Contents (Elt F)),
    unary main_call10_c_2 main_call10_v6 (broadcastInDim S16384x1 ![] bcast_S_S16384x1 : (⟨S_, .i32⟩ : BufTy).Contents (Elt F) → (⟨S16384x1, .i32⟩ : BufTy).Contents (Elt F)),
    binary main_call10_v5 main_call10_v6 main_call10_v7 (cmpi .sge : (⟨S16384x1, .i32⟩ : BufTy).Contents (Elt F) → (⟨S16384x1, .i32⟩ : BufTy).Contents (Elt F) → (⟨S16384x1, .i1⟩ : BufTy).Contents (Elt F)),
    unary main_call10_c_1 main_call10_v8 (broadcastInDim S1x1 ![1] bcast_S1_S1x1_1 : (⟨S1, .i32⟩ : BufTy).Contents (Elt F) → (⟨S1x1, .i32⟩ : BufTy).Contents (Elt F)),
    unary main_call10_v8 main_call10_v9 (broadcastInDim S16384x1 ![0, 1] bcast_S1x1_S16384x1_0_1 : (⟨S1x1, .i32⟩ : BufTy).Contents (Elt F) → (⟨S16384x1, .i32⟩ : BufTy).Contents (Elt F)),
    binary main_call10_v5 main_call10_v9 main_call10_v10 (cmpi .sle : (⟨S16384x1, .i32⟩ : BufTy).Contents (Elt F) → (⟨S16384x1, .i32⟩ : BufTy).Contents (Elt F) → (⟨S16384x1, .i1⟩ : BufTy).Contents (Elt F)),
    binary main_call10_v7 main_call10_v10 main_call10_v11 (andi : (⟨S16384x1, .i1⟩ : BufTy).Contents (Elt F) → (⟨S16384x1, .i1⟩ : BufTy).Contents (Elt F) → (⟨S16384x1, .i1⟩ : BufTy).Contents (Elt F)),
    nullary main_call10_c_3 (constantI S_ 1 1#1 : (⟨S_, .i1⟩ : BufTy).Contents (Elt F)),
    binary main_call10_v11 main_call10_c_3 main_call10_v12 (fun x v => Host.reduce IntOp.andi x v reducesTo_S16384x1_S16384_d1 h_S_ : (⟨S16384x1, .i1⟩ : BufTy).Contents (Elt F) → (⟨S_, .i1⟩ : BufTy).Contents (Elt F) → (⟨S16384, .i1⟩ : BufTy).Contents (Elt F)),
    binary main_v53 main_call10_v5 main_call10_v13 (fun x i => Host.gather gather_S100000x32_S16384x1_S16384x32_1_0_n_n_0_1_132 x i : (⟨S100000x32, .f32⟩ : BufTy).Contents (Elt F) → (⟨S16384x1, .i32⟩ : BufTy).Contents (Elt F) → (⟨S16384x32, .f32⟩ : BufTy).Contents (Elt F)),
    unary main_call10_v12 main_call10_v14 (broadcastInDim S16384x32 ![0] bcast_S16384_S16384x32_0 : (⟨S16384, .i1⟩ : BufTy).Contents (Elt F) → (⟨S16384x32, .i1⟩ : BufTy).Contents (Elt F)),
    nullary main_call10_cst (constant S_ .f32 0x7FC00000#32 : (⟨S_, .f32⟩ : BufTy).Contents (Elt F)),
    unary main_call10_cst main_call10_v15 (broadcastInDim S16384x32 ![] bcast_S_S16384x32 : (⟨S_, .f32⟩ : BufTy).Contents (Elt F) → (⟨S16384x32, .f32⟩ : BufTy).Contents (Elt F)),
    ternary main_call10_v14 main_call10_v13 main_call10_v15 main_v54 (select : (⟨S16384x32, .i1⟩ : BufTy).Contents (Elt F) → (⟨S16384x32, .f32⟩ : BufTy).Contents (Elt F) → (⟨S16384x32, .f32⟩ : BufTy).Contents (Elt F) → (⟨S16384x32, .f32⟩ : BufTy).Contents (Elt F)) ]

/-- The buffers field 10 writes. -/
abbrev fieldW10 : List (Ref sig .tc) := [main_v50, main_v51, main_v52, main_v53, main_call10_c, main_call10_v0, main_call10_v1, main_call10_c_0, main_call10_v2, main_call10_v3, main_call10_v4, main_call10_v5, main_call10_c_1, main_call10_c_2, main_call10_v6, main_call10_v7, main_call10_v8, main_call10_v9, main_call10_v10, main_call10_v11, main_call10_c_3, main_call10_v12, main_call10_v13, main_call10_v14, main_call10_cst, main_call10_v15, main_v54]

theorem fieldT10_eq : (fieldT10 : List (HloOp τ sig (Elt F))) = fieldP10 := by
  unfold fieldT10 fieldP10 takeOpsT
  ops_entries

theorem field10_ok : (fieldP10 : List (HloOp τ sig (Elt F))).Forall fun op => op.bufs ⊆ tcRefs τ sig ∧ op.fresh = ∅ := by
  unfold fieldP10
  exact ⟨⟨unary_bufs_sub .., rfl⟩, ⟨reshape_bufs_sub .., rfl⟩, ⟨unary_bufs_sub .., rfl⟩, ⟨reshape_bufs_sub .., rfl⟩, ⟨nullary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨ternary_bufs_sub .., rfl⟩, ⟨unary_bufs_sub .., rfl⟩, ⟨nullary_bufs_sub .., rfl⟩, ⟨nullary_bufs_sub .., rfl⟩, ⟨unary_bufs_sub .., rfl⟩, ⟨binary_bufs_sub .., rfl⟩, ⟨unary_bufs_sub .., rfl⟩, ⟨unary_bufs_sub .., rfl⟩, ⟨binary_bufs_sub .., rfl⟩, ⟨binary_bufs_sub .., rfl⟩, ⟨nullary_bufs_sub .., rfl⟩, ⟨binary_bufs_sub .., rfl⟩, ⟨binary_bufs_sub .., rfl⟩, ⟨unary_bufs_sub .., rfl⟩, ⟨nullary_bufs_sub .., rfl⟩, ⟨unary_bufs_sub .., rfl⟩, ⟨ternary_bufs_sub .., rfl⟩⟩

theorem field10_writes : (fieldP10 : List (HloOp τ sig (Elt F))).Forall fun op => op.writes ⊆ (fieldW10.map (Proc.devRef (τ := τ) .tc)).toFinset := by
  unfold fieldP10
  simp only [List.Forall]
  exact ⟨by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem⟩

/-- A buffer field 10 does not write keeps its contents through it. -/
theorem field10_keep (W : Valuation τ sig (Elt F)) (r : Ref sig .tc) (h : r ∉ fieldW10) :
    after fieldP10 W (Proc.devRef .tc r) = W (Proc.devRef .tc r) :=
  after_of_writes_sub fieldP10 W field10_writes h

/-- What field 10 leaves in its result buffer: the field's function of the two arguments' contents. -/
theorem field10_res (W : Valuation τ sig (Elt F)) :
    after fieldP10 W (Proc.devRef .tc main_v54) = RefFn.field10 (W (Proc.devRef .tc main_arg0)) (W (Proc.devRef .tc main_arg1)) := by
  unfold fieldP10
  after_results_simp
  rfl

/-! ### Field 11 -/

/-- Field 11 as the program states it: the two slices and reshapes, then the call's operations over its typed buffers. -/
def fieldT11 : List (HloOp τ sig (Elt F)) :=
  unary main_arg0 main_v55 ((extractStridedSlice S16384x1 ![0, 11] · slices_S16384x26_S16384x1_0_11) : (⟨S16384x26, .i32⟩ : BufTy).Contents (Elt F) → (⟨S16384x1, .i32⟩ : BufTy).Contents (Elt F)) ::
  reshape main_v55 main_v56 rfl shapeCasts_S16384x1_S16384 ::
  unary main_arg1 main_v57 ((extractStridedSlice S1x100000x32 ![11, 0, 0] · slices_S26x100000x32_S1x100000x32_11_0_0) : (⟨S26x100000x32, .f32⟩ : BufTy).Contents (Elt F) → (⟨S1x100000x32, .f32⟩ : BufTy).Contents (Elt F)) ::
  reshape main_v57 main_v58 rfl shapeCasts_S1x100000x32_S100000x32 ::
  takeOpsT (.of main_v58) (.of main_v56) main_call11

/-- The same 28 operations at the buffers themselves. -/
def fieldP11 : List (HloOp τ sig (Elt F)) :=
  [ unary main_arg0 main_v55 ((extractStridedSlice S16384x1 ![0, 11] · slices_S16384x26_S16384x1_0_11) : (⟨S16384x26, .i32⟩ : BufTy).Contents (Elt F) → (⟨S16384x1, .i32⟩ : BufTy).Contents (Elt F)),
    reshape main_v55 main_v56 rfl shapeCasts_S16384x1_S16384,
    unary main_arg1 main_v57 ((extractStridedSlice S1x100000x32 ![11, 0, 0] · slices_S26x100000x32_S1x100000x32_11_0_0) : (⟨S26x100000x32, .f32⟩ : BufTy).Contents (Elt F) → (⟨S1x100000x32, .f32⟩ : BufTy).Contents (Elt F)),
    reshape main_v57 main_v58 rfl shapeCasts_S1x100000x32_S100000x32,
    nullary main_call11_c (constantI S_ 32 0#32 : (⟨S_, .i32⟩ : BufTy).Contents (Elt F)),
    unary main_call11_c main_call11_v0 (broadcastInDim S16384 ![] bcast_S_S16384 : (⟨S_, .i32⟩ : BufTy).Contents (Elt F) → (⟨S16384, .i32⟩ : BufTy).Contents (Elt F)),
    binary main_v56 main_call11_v0 main_call11_v1 (cmpi .slt : (⟨S16384, .i32⟩ : BufTy).Contents (Elt F) → (⟨S16384, .i32⟩ : BufTy).Contents (Elt F) → (⟨S16384, .i1⟩ : BufTy).Contents (Elt F)),
    nullary main_call11_c_0 (constantI S_ 32 100000#32 : (⟨S_, .i32⟩ : BufTy).Contents (Elt F)),
    unary main_call11_c_0 main_call11_v2 (broadcastInDim S16384 ![] bcast_S_S16384 : (⟨S_, .i32⟩ : BufTy).Contents (Elt F) → (⟨S16384, .i32⟩ : BufTy).Contents (Elt F)),
    binary main_v56 main_call11_v2 main_call11_v3 (addi : (⟨S16384, .i32⟩ : BufTy).Contents (Elt F) → (⟨S16384, .i32⟩ : BufTy).Contents (Elt F) → (⟨S16384, .i32⟩ : BufTy).Contents (Elt F)),
    ternary main_call11_v1 main_call11_v3 main_v56 main_call11_v4 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_call11_v4 main_call11_v5 (broadcastInDim S16384x1 ![0] bcast_S16384_S16384x1_0 : (⟨S16384, .i32⟩ : BufTy).Contents (Elt F) → (⟨S16384x1, .i32⟩ : BufTy).Contents (Elt F)),
    nullary main_call11_c_1 (constantI S1 32 99999#32 : (⟨S1, .i32⟩ : BufTy).Contents (Elt F)),
    nullary main_call11_c_2 (constantI S_ 32 0#32 : (⟨S_, .i32⟩ : BufTy).Contents (Elt F)),
    unary main_call11_c_2 main_call11_v6 (broadcastInDim S16384x1 ![] bcast_S_S16384x1 : (⟨S_, .i32⟩ : BufTy).Contents (Elt F) → (⟨S16384x1, .i32⟩ : BufTy).Contents (Elt F)),
    binary main_call11_v5 main_call11_v6 main_call11_v7 (cmpi .sge : (⟨S16384x1, .i32⟩ : BufTy).Contents (Elt F) → (⟨S16384x1, .i32⟩ : BufTy).Contents (Elt F) → (⟨S16384x1, .i1⟩ : BufTy).Contents (Elt F)),
    unary main_call11_c_1 main_call11_v8 (broadcastInDim S1x1 ![1] bcast_S1_S1x1_1 : (⟨S1, .i32⟩ : BufTy).Contents (Elt F) → (⟨S1x1, .i32⟩ : BufTy).Contents (Elt F)),
    unary main_call11_v8 main_call11_v9 (broadcastInDim S16384x1 ![0, 1] bcast_S1x1_S16384x1_0_1 : (⟨S1x1, .i32⟩ : BufTy).Contents (Elt F) → (⟨S16384x1, .i32⟩ : BufTy).Contents (Elt F)),
    binary main_call11_v5 main_call11_v9 main_call11_v10 (cmpi .sle : (⟨S16384x1, .i32⟩ : BufTy).Contents (Elt F) → (⟨S16384x1, .i32⟩ : BufTy).Contents (Elt F) → (⟨S16384x1, .i1⟩ : BufTy).Contents (Elt F)),
    binary main_call11_v7 main_call11_v10 main_call11_v11 (andi : (⟨S16384x1, .i1⟩ : BufTy).Contents (Elt F) → (⟨S16384x1, .i1⟩ : BufTy).Contents (Elt F) → (⟨S16384x1, .i1⟩ : BufTy).Contents (Elt F)),
    nullary main_call11_c_3 (constantI S_ 1 1#1 : (⟨S_, .i1⟩ : BufTy).Contents (Elt F)),
    binary main_call11_v11 main_call11_c_3 main_call11_v12 (fun x v => Host.reduce IntOp.andi x v reducesTo_S16384x1_S16384_d1 h_S_ : (⟨S16384x1, .i1⟩ : BufTy).Contents (Elt F) → (⟨S_, .i1⟩ : BufTy).Contents (Elt F) → (⟨S16384, .i1⟩ : BufTy).Contents (Elt F)),
    binary main_v58 main_call11_v5 main_call11_v13 (fun x i => Host.gather gather_S100000x32_S16384x1_S16384x32_1_0_n_n_0_1_132 x i : (⟨S100000x32, .f32⟩ : BufTy).Contents (Elt F) → (⟨S16384x1, .i32⟩ : BufTy).Contents (Elt F) → (⟨S16384x32, .f32⟩ : BufTy).Contents (Elt F)),
    unary main_call11_v12 main_call11_v14 (broadcastInDim S16384x32 ![0] bcast_S16384_S16384x32_0 : (⟨S16384, .i1⟩ : BufTy).Contents (Elt F) → (⟨S16384x32, .i1⟩ : BufTy).Contents (Elt F)),
    nullary main_call11_cst (constant S_ .f32 0x7FC00000#32 : (⟨S_, .f32⟩ : BufTy).Contents (Elt F)),
    unary main_call11_cst main_call11_v15 (broadcastInDim S16384x32 ![] bcast_S_S16384x32 : (⟨S_, .f32⟩ : BufTy).Contents (Elt F) → (⟨S16384x32, .f32⟩ : BufTy).Contents (Elt F)),
    ternary main_call11_v14 main_call11_v13 main_call11_v15 main_v59 (select : (⟨S16384x32, .i1⟩ : BufTy).Contents (Elt F) → (⟨S16384x32, .f32⟩ : BufTy).Contents (Elt F) → (⟨S16384x32, .f32⟩ : BufTy).Contents (Elt F) → (⟨S16384x32, .f32⟩ : BufTy).Contents (Elt F)) ]

/-- The buffers field 11 writes. -/
abbrev fieldW11 : List (Ref sig .tc) := [main_v55, main_v56, main_v57, main_v58, main_call11_c, main_call11_v0, main_call11_v1, main_call11_c_0, main_call11_v2, main_call11_v3, main_call11_v4, main_call11_v5, main_call11_c_1, main_call11_c_2, main_call11_v6, main_call11_v7, main_call11_v8, main_call11_v9, main_call11_v10, main_call11_v11, main_call11_c_3, main_call11_v12, main_call11_v13, main_call11_v14, main_call11_cst, main_call11_v15, main_v59]

theorem fieldT11_eq : (fieldT11 : List (HloOp τ sig (Elt F))) = fieldP11 := by
  unfold fieldT11 fieldP11 takeOpsT
  ops_entries

theorem field11_ok : (fieldP11 : List (HloOp τ sig (Elt F))).Forall fun op => op.bufs ⊆ tcRefs τ sig ∧ op.fresh = ∅ := by
  unfold fieldP11
  exact ⟨⟨unary_bufs_sub .., rfl⟩, ⟨reshape_bufs_sub .., rfl⟩, ⟨unary_bufs_sub .., rfl⟩, ⟨reshape_bufs_sub .., rfl⟩, ⟨nullary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨ternary_bufs_sub .., rfl⟩, ⟨unary_bufs_sub .., rfl⟩, ⟨nullary_bufs_sub .., rfl⟩, ⟨nullary_bufs_sub .., rfl⟩, ⟨unary_bufs_sub .., rfl⟩, ⟨binary_bufs_sub .., rfl⟩, ⟨unary_bufs_sub .., rfl⟩, ⟨unary_bufs_sub .., rfl⟩, ⟨binary_bufs_sub .., rfl⟩, ⟨binary_bufs_sub .., rfl⟩, ⟨nullary_bufs_sub .., rfl⟩, ⟨binary_bufs_sub .., rfl⟩, ⟨binary_bufs_sub .., rfl⟩, ⟨unary_bufs_sub .., rfl⟩, ⟨nullary_bufs_sub .., rfl⟩, ⟨unary_bufs_sub .., rfl⟩, ⟨ternary_bufs_sub .., rfl⟩⟩

theorem field11_writes : (fieldP11 : List (HloOp τ sig (Elt F))).Forall fun op => op.writes ⊆ (fieldW11.map (Proc.devRef (τ := τ) .tc)).toFinset := by
  unfold fieldP11
  simp only [List.Forall]
  exact ⟨by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem⟩

/-- A buffer field 11 does not write keeps its contents through it. -/
theorem field11_keep (W : Valuation τ sig (Elt F)) (r : Ref sig .tc) (h : r ∉ fieldW11) :
    after fieldP11 W (Proc.devRef .tc r) = W (Proc.devRef .tc r) :=
  after_of_writes_sub fieldP11 W field11_writes h

/-- What field 11 leaves in its result buffer: the field's function of the two arguments' contents. -/
theorem field11_res (W : Valuation τ sig (Elt F)) :
    after fieldP11 W (Proc.devRef .tc main_v59) = RefFn.field11 (W (Proc.devRef .tc main_arg0)) (W (Proc.devRef .tc main_arg1)) := by
  unfold fieldP11
  after_results_simp
  rfl

/-! ### Field 12 -/

/-- Field 12 as the program states it: the two slices and reshapes, then the call's operations over its typed buffers. -/
def fieldT12 : List (HloOp τ sig (Elt F)) :=
  unary main_arg0 main_v60 ((extractStridedSlice S16384x1 ![0, 12] · slices_S16384x26_S16384x1_0_12) : (⟨S16384x26, .i32⟩ : BufTy).Contents (Elt F) → (⟨S16384x1, .i32⟩ : BufTy).Contents (Elt F)) ::
  reshape main_v60 main_v61 rfl shapeCasts_S16384x1_S16384 ::
  unary main_arg1 main_v62 ((extractStridedSlice S1x100000x32 ![12, 0, 0] · slices_S26x100000x32_S1x100000x32_12_0_0) : (⟨S26x100000x32, .f32⟩ : BufTy).Contents (Elt F) → (⟨S1x100000x32, .f32⟩ : BufTy).Contents (Elt F)) ::
  reshape main_v62 main_v63 rfl shapeCasts_S1x100000x32_S100000x32 ::
  takeOpsT (.of main_v63) (.of main_v61) main_call12

/-- The same 28 operations at the buffers themselves. -/
def fieldP12 : List (HloOp τ sig (Elt F)) :=
  [ unary main_arg0 main_v60 ((extractStridedSlice S16384x1 ![0, 12] · slices_S16384x26_S16384x1_0_12) : (⟨S16384x26, .i32⟩ : BufTy).Contents (Elt F) → (⟨S16384x1, .i32⟩ : BufTy).Contents (Elt F)),
    reshape main_v60 main_v61 rfl shapeCasts_S16384x1_S16384,
    unary main_arg1 main_v62 ((extractStridedSlice S1x100000x32 ![12, 0, 0] · slices_S26x100000x32_S1x100000x32_12_0_0) : (⟨S26x100000x32, .f32⟩ : BufTy).Contents (Elt F) → (⟨S1x100000x32, .f32⟩ : BufTy).Contents (Elt F)),
    reshape main_v62 main_v63 rfl shapeCasts_S1x100000x32_S100000x32,
    nullary main_call12_c (constantI S_ 32 0#32 : (⟨S_, .i32⟩ : BufTy).Contents (Elt F)),
    unary main_call12_c main_call12_v0 (broadcastInDim S16384 ![] bcast_S_S16384 : (⟨S_, .i32⟩ : BufTy).Contents (Elt F) → (⟨S16384, .i32⟩ : BufTy).Contents (Elt F)),
    binary main_v61 main_call12_v0 main_call12_v1 (cmpi .slt : (⟨S16384, .i32⟩ : BufTy).Contents (Elt F) → (⟨S16384, .i32⟩ : BufTy).Contents (Elt F) → (⟨S16384, .i1⟩ : BufTy).Contents (Elt F)),
    nullary main_call12_c_0 (constantI S_ 32 100000#32 : (⟨S_, .i32⟩ : BufTy).Contents (Elt F)),
    unary main_call12_c_0 main_call12_v2 (broadcastInDim S16384 ![] bcast_S_S16384 : (⟨S_, .i32⟩ : BufTy).Contents (Elt F) → (⟨S16384, .i32⟩ : BufTy).Contents (Elt F)),
    binary main_v61 main_call12_v2 main_call12_v3 (addi : (⟨S16384, .i32⟩ : BufTy).Contents (Elt F) → (⟨S16384, .i32⟩ : BufTy).Contents (Elt F) → (⟨S16384, .i32⟩ : BufTy).Contents (Elt F)),
    ternary main_call12_v1 main_call12_v3 main_v61 main_call12_v4 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_call12_v4 main_call12_v5 (broadcastInDim S16384x1 ![0] bcast_S16384_S16384x1_0 : (⟨S16384, .i32⟩ : BufTy).Contents (Elt F) → (⟨S16384x1, .i32⟩ : BufTy).Contents (Elt F)),
    nullary main_call12_c_1 (constantI S1 32 99999#32 : (⟨S1, .i32⟩ : BufTy).Contents (Elt F)),
    nullary main_call12_c_2 (constantI S_ 32 0#32 : (⟨S_, .i32⟩ : BufTy).Contents (Elt F)),
    unary main_call12_c_2 main_call12_v6 (broadcastInDim S16384x1 ![] bcast_S_S16384x1 : (⟨S_, .i32⟩ : BufTy).Contents (Elt F) → (⟨S16384x1, .i32⟩ : BufTy).Contents (Elt F)),
    binary main_call12_v5 main_call12_v6 main_call12_v7 (cmpi .sge : (⟨S16384x1, .i32⟩ : BufTy).Contents (Elt F) → (⟨S16384x1, .i32⟩ : BufTy).Contents (Elt F) → (⟨S16384x1, .i1⟩ : BufTy).Contents (Elt F)),
    unary main_call12_c_1 main_call12_v8 (broadcastInDim S1x1 ![1] bcast_S1_S1x1_1 : (⟨S1, .i32⟩ : BufTy).Contents (Elt F) → (⟨S1x1, .i32⟩ : BufTy).Contents (Elt F)),
    unary main_call12_v8 main_call12_v9 (broadcastInDim S16384x1 ![0, 1] bcast_S1x1_S16384x1_0_1 : (⟨S1x1, .i32⟩ : BufTy).Contents (Elt F) → (⟨S16384x1, .i32⟩ : BufTy).Contents (Elt F)),
    binary main_call12_v5 main_call12_v9 main_call12_v10 (cmpi .sle : (⟨S16384x1, .i32⟩ : BufTy).Contents (Elt F) → (⟨S16384x1, .i32⟩ : BufTy).Contents (Elt F) → (⟨S16384x1, .i1⟩ : BufTy).Contents (Elt F)),
    binary main_call12_v7 main_call12_v10 main_call12_v11 (andi : (⟨S16384x1, .i1⟩ : BufTy).Contents (Elt F) → (⟨S16384x1, .i1⟩ : BufTy).Contents (Elt F) → (⟨S16384x1, .i1⟩ : BufTy).Contents (Elt F)),
    nullary main_call12_c_3 (constantI S_ 1 1#1 : (⟨S_, .i1⟩ : BufTy).Contents (Elt F)),
    binary main_call12_v11 main_call12_c_3 main_call12_v12 (fun x v => Host.reduce IntOp.andi x v reducesTo_S16384x1_S16384_d1 h_S_ : (⟨S16384x1, .i1⟩ : BufTy).Contents (Elt F) → (⟨S_, .i1⟩ : BufTy).Contents (Elt F) → (⟨S16384, .i1⟩ : BufTy).Contents (Elt F)),
    binary main_v63 main_call12_v5 main_call12_v13 (fun x i => Host.gather gather_S100000x32_S16384x1_S16384x32_1_0_n_n_0_1_132 x i : (⟨S100000x32, .f32⟩ : BufTy).Contents (Elt F) → (⟨S16384x1, .i32⟩ : BufTy).Contents (Elt F) → (⟨S16384x32, .f32⟩ : BufTy).Contents (Elt F)),
    unary main_call12_v12 main_call12_v14 (broadcastInDim S16384x32 ![0] bcast_S16384_S16384x32_0 : (⟨S16384, .i1⟩ : BufTy).Contents (Elt F) → (⟨S16384x32, .i1⟩ : BufTy).Contents (Elt F)),
    nullary main_call12_cst (constant S_ .f32 0x7FC00000#32 : (⟨S_, .f32⟩ : BufTy).Contents (Elt F)),
    unary main_call12_cst main_call12_v15 (broadcastInDim S16384x32 ![] bcast_S_S16384x32 : (⟨S_, .f32⟩ : BufTy).Contents (Elt F) → (⟨S16384x32, .f32⟩ : BufTy).Contents (Elt F)),
    ternary main_call12_v14 main_call12_v13 main_call12_v15 main_v64 (select : (⟨S16384x32, .i1⟩ : BufTy).Contents (Elt F) → (⟨S16384x32, .f32⟩ : BufTy).Contents (Elt F) → (⟨S16384x32, .f32⟩ : BufTy).Contents (Elt F) → (⟨S16384x32, .f32⟩ : BufTy).Contents (Elt F)) ]

/-- The buffers field 12 writes. -/
abbrev fieldW12 : List (Ref sig .tc) := [main_v60, main_v61, main_v62, main_v63, main_call12_c, main_call12_v0, main_call12_v1, main_call12_c_0, main_call12_v2, main_call12_v3, main_call12_v4, main_call12_v5, main_call12_c_1, main_call12_c_2, main_call12_v6, main_call12_v7, main_call12_v8, main_call12_v9, main_call12_v10, main_call12_v11, main_call12_c_3, main_call12_v12, main_call12_v13, main_call12_v14, main_call12_cst, main_call12_v15, main_v64]

theorem fieldT12_eq : (fieldT12 : List (HloOp τ sig (Elt F))) = fieldP12 := by
  unfold fieldT12 fieldP12 takeOpsT
  ops_entries

theorem field12_ok : (fieldP12 : List (HloOp τ sig (Elt F))).Forall fun op => op.bufs ⊆ tcRefs τ sig ∧ op.fresh = ∅ := by
  unfold fieldP12
  exact ⟨⟨unary_bufs_sub .., rfl⟩, ⟨reshape_bufs_sub .., rfl⟩, ⟨unary_bufs_sub .., rfl⟩, ⟨reshape_bufs_sub .., rfl⟩, ⟨nullary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨ternary_bufs_sub .., rfl⟩, ⟨unary_bufs_sub .., rfl⟩, ⟨nullary_bufs_sub .., rfl⟩, ⟨nullary_bufs_sub .., rfl⟩, ⟨unary_bufs_sub .., rfl⟩, ⟨binary_bufs_sub .., rfl⟩, ⟨unary_bufs_sub .., rfl⟩, ⟨unary_bufs_sub .., rfl⟩, ⟨binary_bufs_sub .., rfl⟩, ⟨binary_bufs_sub .., rfl⟩, ⟨nullary_bufs_sub .., rfl⟩, ⟨binary_bufs_sub .., rfl⟩, ⟨binary_bufs_sub .., rfl⟩, ⟨unary_bufs_sub .., rfl⟩, ⟨nullary_bufs_sub .., rfl⟩, ⟨unary_bufs_sub .., rfl⟩, ⟨ternary_bufs_sub .., rfl⟩⟩

theorem field12_writes : (fieldP12 : List (HloOp τ sig (Elt F))).Forall fun op => op.writes ⊆ (fieldW12.map (Proc.devRef (τ := τ) .tc)).toFinset := by
  unfold fieldP12
  simp only [List.Forall]
  exact ⟨by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem⟩

/-- A buffer field 12 does not write keeps its contents through it. -/
theorem field12_keep (W : Valuation τ sig (Elt F)) (r : Ref sig .tc) (h : r ∉ fieldW12) :
    after fieldP12 W (Proc.devRef .tc r) = W (Proc.devRef .tc r) :=
  after_of_writes_sub fieldP12 W field12_writes h

/-- What field 12 leaves in its result buffer: the field's function of the two arguments' contents. -/
theorem field12_res (W : Valuation τ sig (Elt F)) :
    after fieldP12 W (Proc.devRef .tc main_v64) = RefFn.field12 (W (Proc.devRef .tc main_arg0)) (W (Proc.devRef .tc main_arg1)) := by
  unfold fieldP12
  after_results_simp
  rfl

/-! ### Field 13 -/

/-- Field 13 as the program states it: the two slices and reshapes, then the call's operations over its typed buffers. -/
def fieldT13 : List (HloOp τ sig (Elt F)) :=
  unary main_arg0 main_v65 ((extractStridedSlice S16384x1 ![0, 13] · slices_S16384x26_S16384x1_0_13) : (⟨S16384x26, .i32⟩ : BufTy).Contents (Elt F) → (⟨S16384x1, .i32⟩ : BufTy).Contents (Elt F)) ::
  reshape main_v65 main_v66 rfl shapeCasts_S16384x1_S16384 ::
  unary main_arg1 main_v67 ((extractStridedSlice S1x100000x32 ![13, 0, 0] · slices_S26x100000x32_S1x100000x32_13_0_0) : (⟨S26x100000x32, .f32⟩ : BufTy).Contents (Elt F) → (⟨S1x100000x32, .f32⟩ : BufTy).Contents (Elt F)) ::
  reshape main_v67 main_v68 rfl shapeCasts_S1x100000x32_S100000x32 ::
  takeOpsT (.of main_v68) (.of main_v66) main_call13

/-- The same 28 operations at the buffers themselves. -/
def fieldP13 : List (HloOp τ sig (Elt F)) :=
  [ unary main_arg0 main_v65 ((extractStridedSlice S16384x1 ![0, 13] · slices_S16384x26_S16384x1_0_13) : (⟨S16384x26, .i32⟩ : BufTy).Contents (Elt F) → (⟨S16384x1, .i32⟩ : BufTy).Contents (Elt F)),
    reshape main_v65 main_v66 rfl shapeCasts_S16384x1_S16384,
    unary main_arg1 main_v67 ((extractStridedSlice S1x100000x32 ![13, 0, 0] · slices_S26x100000x32_S1x100000x32_13_0_0) : (⟨S26x100000x32, .f32⟩ : BufTy).Contents (Elt F) → (⟨S1x100000x32, .f32⟩ : BufTy).Contents (Elt F)),
    reshape main_v67 main_v68 rfl shapeCasts_S1x100000x32_S100000x32,
    nullary main_call13_c (constantI S_ 32 0#32 : (⟨S_, .i32⟩ : BufTy).Contents (Elt F)),
    unary main_call13_c main_call13_v0 (broadcastInDim S16384 ![] bcast_S_S16384 : (⟨S_, .i32⟩ : BufTy).Contents (Elt F) → (⟨S16384, .i32⟩ : BufTy).Contents (Elt F)),
    binary main_v66 main_call13_v0 main_call13_v1 (cmpi .slt : (⟨S16384, .i32⟩ : BufTy).Contents (Elt F) → (⟨S16384, .i32⟩ : BufTy).Contents (Elt F) → (⟨S16384, .i1⟩ : BufTy).Contents (Elt F)),
    nullary main_call13_c_0 (constantI S_ 32 100000#32 : (⟨S_, .i32⟩ : BufTy).Contents (Elt F)),
    unary main_call13_c_0 main_call13_v2 (broadcastInDim S16384 ![] bcast_S_S16384 : (⟨S_, .i32⟩ : BufTy).Contents (Elt F) → (⟨S16384, .i32⟩ : BufTy).Contents (Elt F)),
    binary main_v66 main_call13_v2 main_call13_v3 (addi : (⟨S16384, .i32⟩ : BufTy).Contents (Elt F) → (⟨S16384, .i32⟩ : BufTy).Contents (Elt F) → (⟨S16384, .i32⟩ : BufTy).Contents (Elt F)),
    ternary main_call13_v1 main_call13_v3 main_v66 main_call13_v4 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_call13_v4 main_call13_v5 (broadcastInDim S16384x1 ![0] bcast_S16384_S16384x1_0 : (⟨S16384, .i32⟩ : BufTy).Contents (Elt F) → (⟨S16384x1, .i32⟩ : BufTy).Contents (Elt F)),
    nullary main_call13_c_1 (constantI S1 32 99999#32 : (⟨S1, .i32⟩ : BufTy).Contents (Elt F)),
    nullary main_call13_c_2 (constantI S_ 32 0#32 : (⟨S_, .i32⟩ : BufTy).Contents (Elt F)),
    unary main_call13_c_2 main_call13_v6 (broadcastInDim S16384x1 ![] bcast_S_S16384x1 : (⟨S_, .i32⟩ : BufTy).Contents (Elt F) → (⟨S16384x1, .i32⟩ : BufTy).Contents (Elt F)),
    binary main_call13_v5 main_call13_v6 main_call13_v7 (cmpi .sge : (⟨S16384x1, .i32⟩ : BufTy).Contents (Elt F) → (⟨S16384x1, .i32⟩ : BufTy).Contents (Elt F) → (⟨S16384x1, .i1⟩ : BufTy).Contents (Elt F)),
    unary main_call13_c_1 main_call13_v8 (broadcastInDim S1x1 ![1] bcast_S1_S1x1_1 : (⟨S1, .i32⟩ : BufTy).Contents (Elt F) → (⟨S1x1, .i32⟩ : BufTy).Contents (Elt F)),
    unary main_call13_v8 main_call13_v9 (broadcastInDim S16384x1 ![0, 1] bcast_S1x1_S16384x1_0_1 : (⟨S1x1, .i32⟩ : BufTy).Contents (Elt F) → (⟨S16384x1, .i32⟩ : BufTy).Contents (Elt F)),
    binary main_call13_v5 main_call13_v9 main_call13_v10 (cmpi .sle : (⟨S16384x1, .i32⟩ : BufTy).Contents (Elt F) → (⟨S16384x1, .i32⟩ : BufTy).Contents (Elt F) → (⟨S16384x1, .i1⟩ : BufTy).Contents (Elt F)),
    binary main_call13_v7 main_call13_v10 main_call13_v11 (andi : (⟨S16384x1, .i1⟩ : BufTy).Contents (Elt F) → (⟨S16384x1, .i1⟩ : BufTy).Contents (Elt F) → (⟨S16384x1, .i1⟩ : BufTy).Contents (Elt F)),
    nullary main_call13_c_3 (constantI S_ 1 1#1 : (⟨S_, .i1⟩ : BufTy).Contents (Elt F)),
    binary main_call13_v11 main_call13_c_3 main_call13_v12 (fun x v => Host.reduce IntOp.andi x v reducesTo_S16384x1_S16384_d1 h_S_ : (⟨S16384x1, .i1⟩ : BufTy).Contents (Elt F) → (⟨S_, .i1⟩ : BufTy).Contents (Elt F) → (⟨S16384, .i1⟩ : BufTy).Contents (Elt F)),
    binary main_v68 main_call13_v5 main_call13_v13 (fun x i => Host.gather gather_S100000x32_S16384x1_S16384x32_1_0_n_n_0_1_132 x i : (⟨S100000x32, .f32⟩ : BufTy).Contents (Elt F) → (⟨S16384x1, .i32⟩ : BufTy).Contents (Elt F) → (⟨S16384x32, .f32⟩ : BufTy).Contents (Elt F)),
    unary main_call13_v12 main_call13_v14 (broadcastInDim S16384x32 ![0] bcast_S16384_S16384x32_0 : (⟨S16384, .i1⟩ : BufTy).Contents (Elt F) → (⟨S16384x32, .i1⟩ : BufTy).Contents (Elt F)),
    nullary main_call13_cst (constant S_ .f32 0x7FC00000#32 : (⟨S_, .f32⟩ : BufTy).Contents (Elt F)),
    unary main_call13_cst main_call13_v15 (broadcastInDim S16384x32 ![] bcast_S_S16384x32 : (⟨S_, .f32⟩ : BufTy).Contents (Elt F) → (⟨S16384x32, .f32⟩ : BufTy).Contents (Elt F)),
    ternary main_call13_v14 main_call13_v13 main_call13_v15 main_v69 (select : (⟨S16384x32, .i1⟩ : BufTy).Contents (Elt F) → (⟨S16384x32, .f32⟩ : BufTy).Contents (Elt F) → (⟨S16384x32, .f32⟩ : BufTy).Contents (Elt F) → (⟨S16384x32, .f32⟩ : BufTy).Contents (Elt F)) ]

/-- The buffers field 13 writes. -/
abbrev fieldW13 : List (Ref sig .tc) := [main_v65, main_v66, main_v67, main_v68, main_call13_c, main_call13_v0, main_call13_v1, main_call13_c_0, main_call13_v2, main_call13_v3, main_call13_v4, main_call13_v5, main_call13_c_1, main_call13_c_2, main_call13_v6, main_call13_v7, main_call13_v8, main_call13_v9, main_call13_v10, main_call13_v11, main_call13_c_3, main_call13_v12, main_call13_v13, main_call13_v14, main_call13_cst, main_call13_v15, main_v69]

theorem fieldT13_eq : (fieldT13 : List (HloOp τ sig (Elt F))) = fieldP13 := by
  unfold fieldT13 fieldP13 takeOpsT
  ops_entries

theorem field13_ok : (fieldP13 : List (HloOp τ sig (Elt F))).Forall fun op => op.bufs ⊆ tcRefs τ sig ∧ op.fresh = ∅ := by
  unfold fieldP13
  exact ⟨⟨unary_bufs_sub .., rfl⟩, ⟨reshape_bufs_sub .., rfl⟩, ⟨unary_bufs_sub .., rfl⟩, ⟨reshape_bufs_sub .., rfl⟩, ⟨nullary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨ternary_bufs_sub .., rfl⟩, ⟨unary_bufs_sub .., rfl⟩, ⟨nullary_bufs_sub .., rfl⟩, ⟨nullary_bufs_sub .., rfl⟩, ⟨unary_bufs_sub .., rfl⟩, ⟨binary_bufs_sub .., rfl⟩, ⟨unary_bufs_sub .., rfl⟩, ⟨unary_bufs_sub .., rfl⟩, ⟨binary_bufs_sub .., rfl⟩, ⟨binary_bufs_sub .., rfl⟩, ⟨nullary_bufs_sub .., rfl⟩, ⟨binary_bufs_sub .., rfl⟩, ⟨binary_bufs_sub .., rfl⟩, ⟨unary_bufs_sub .., rfl⟩, ⟨nullary_bufs_sub .., rfl⟩, ⟨unary_bufs_sub .., rfl⟩, ⟨ternary_bufs_sub .., rfl⟩⟩

theorem field13_writes : (fieldP13 : List (HloOp τ sig (Elt F))).Forall fun op => op.writes ⊆ (fieldW13.map (Proc.devRef (τ := τ) .tc)).toFinset := by
  unfold fieldP13
  simp only [List.Forall]
  exact ⟨by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem⟩

/-- A buffer field 13 does not write keeps its contents through it. -/
theorem field13_keep (W : Valuation τ sig (Elt F)) (r : Ref sig .tc) (h : r ∉ fieldW13) :
    after fieldP13 W (Proc.devRef .tc r) = W (Proc.devRef .tc r) :=
  after_of_writes_sub fieldP13 W field13_writes h

/-- What field 13 leaves in its result buffer: the field's function of the two arguments' contents. -/
theorem field13_res (W : Valuation τ sig (Elt F)) :
    after fieldP13 W (Proc.devRef .tc main_v69) = RefFn.field13 (W (Proc.devRef .tc main_arg0)) (W (Proc.devRef .tc main_arg1)) := by
  unfold fieldP13
  after_results_simp
  rfl

/-! ### Field 14 -/

/-- Field 14 as the program states it: the two slices and reshapes, then the call's operations over its typed buffers. -/
def fieldT14 : List (HloOp τ sig (Elt F)) :=
  unary main_arg0 main_v70 ((extractStridedSlice S16384x1 ![0, 14] · slices_S16384x26_S16384x1_0_14) : (⟨S16384x26, .i32⟩ : BufTy).Contents (Elt F) → (⟨S16384x1, .i32⟩ : BufTy).Contents (Elt F)) ::
  reshape main_v70 main_v71 rfl shapeCasts_S16384x1_S16384 ::
  unary main_arg1 main_v72 ((extractStridedSlice S1x100000x32 ![14, 0, 0] · slices_S26x100000x32_S1x100000x32_14_0_0) : (⟨S26x100000x32, .f32⟩ : BufTy).Contents (Elt F) → (⟨S1x100000x32, .f32⟩ : BufTy).Contents (Elt F)) ::
  reshape main_v72 main_v73 rfl shapeCasts_S1x100000x32_S100000x32 ::
  takeOpsT (.of main_v73) (.of main_v71) main_call14

/-- The same 28 operations at the buffers themselves. -/
def fieldP14 : List (HloOp τ sig (Elt F)) :=
  [ unary main_arg0 main_v70 ((extractStridedSlice S16384x1 ![0, 14] · slices_S16384x26_S16384x1_0_14) : (⟨S16384x26, .i32⟩ : BufTy).Contents (Elt F) → (⟨S16384x1, .i32⟩ : BufTy).Contents (Elt F)),
    reshape main_v70 main_v71 rfl shapeCasts_S16384x1_S16384,
    unary main_arg1 main_v72 ((extractStridedSlice S1x100000x32 ![14, 0, 0] · slices_S26x100000x32_S1x100000x32_14_0_0) : (⟨S26x100000x32, .f32⟩ : BufTy).Contents (Elt F) → (⟨S1x100000x32, .f32⟩ : BufTy).Contents (Elt F)),
    reshape main_v72 main_v73 rfl shapeCasts_S1x100000x32_S100000x32,
    nullary main_call14_c (constantI S_ 32 0#32 : (⟨S_, .i32⟩ : BufTy).Contents (Elt F)),
    unary main_call14_c main_call14_v0 (broadcastInDim S16384 ![] bcast_S_S16384 : (⟨S_, .i32⟩ : BufTy).Contents (Elt F) → (⟨S16384, .i32⟩ : BufTy).Contents (Elt F)),
    binary main_v71 main_call14_v0 main_call14_v1 (cmpi .slt : (⟨S16384, .i32⟩ : BufTy).Contents (Elt F) → (⟨S16384, .i32⟩ : BufTy).Contents (Elt F) → (⟨S16384, .i1⟩ : BufTy).Contents (Elt F)),
    nullary main_call14_c_0 (constantI S_ 32 100000#32 : (⟨S_, .i32⟩ : BufTy).Contents (Elt F)),
    unary main_call14_c_0 main_call14_v2 (broadcastInDim S16384 ![] bcast_S_S16384 : (⟨S_, .i32⟩ : BufTy).Contents (Elt F) → (⟨S16384, .i32⟩ : BufTy).Contents (Elt F)),
    binary main_v71 main_call14_v2 main_call14_v3 (addi : (⟨S16384, .i32⟩ : BufTy).Contents (Elt F) → (⟨S16384, .i32⟩ : BufTy).Contents (Elt F) → (⟨S16384, .i32⟩ : BufTy).Contents (Elt F)),
    ternary main_call14_v1 main_call14_v3 main_v71 main_call14_v4 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_call14_v4 main_call14_v5 (broadcastInDim S16384x1 ![0] bcast_S16384_S16384x1_0 : (⟨S16384, .i32⟩ : BufTy).Contents (Elt F) → (⟨S16384x1, .i32⟩ : BufTy).Contents (Elt F)),
    nullary main_call14_c_1 (constantI S1 32 99999#32 : (⟨S1, .i32⟩ : BufTy).Contents (Elt F)),
    nullary main_call14_c_2 (constantI S_ 32 0#32 : (⟨S_, .i32⟩ : BufTy).Contents (Elt F)),
    unary main_call14_c_2 main_call14_v6 (broadcastInDim S16384x1 ![] bcast_S_S16384x1 : (⟨S_, .i32⟩ : BufTy).Contents (Elt F) → (⟨S16384x1, .i32⟩ : BufTy).Contents (Elt F)),
    binary main_call14_v5 main_call14_v6 main_call14_v7 (cmpi .sge : (⟨S16384x1, .i32⟩ : BufTy).Contents (Elt F) → (⟨S16384x1, .i32⟩ : BufTy).Contents (Elt F) → (⟨S16384x1, .i1⟩ : BufTy).Contents (Elt F)),
    unary main_call14_c_1 main_call14_v8 (broadcastInDim S1x1 ![1] bcast_S1_S1x1_1 : (⟨S1, .i32⟩ : BufTy).Contents (Elt F) → (⟨S1x1, .i32⟩ : BufTy).Contents (Elt F)),
    unary main_call14_v8 main_call14_v9 (broadcastInDim S16384x1 ![0, 1] bcast_S1x1_S16384x1_0_1 : (⟨S1x1, .i32⟩ : BufTy).Contents (Elt F) → (⟨S16384x1, .i32⟩ : BufTy).Contents (Elt F)),
    binary main_call14_v5 main_call14_v9 main_call14_v10 (cmpi .sle : (⟨S16384x1, .i32⟩ : BufTy).Contents (Elt F) → (⟨S16384x1, .i32⟩ : BufTy).Contents (Elt F) → (⟨S16384x1, .i1⟩ : BufTy).Contents (Elt F)),
    binary main_call14_v7 main_call14_v10 main_call14_v11 (andi : (⟨S16384x1, .i1⟩ : BufTy).Contents (Elt F) → (⟨S16384x1, .i1⟩ : BufTy).Contents (Elt F) → (⟨S16384x1, .i1⟩ : BufTy).Contents (Elt F)),
    nullary main_call14_c_3 (constantI S_ 1 1#1 : (⟨S_, .i1⟩ : BufTy).Contents (Elt F)),
    binary main_call14_v11 main_call14_c_3 main_call14_v12 (fun x v => Host.reduce IntOp.andi x v reducesTo_S16384x1_S16384_d1 h_S_ : (⟨S16384x1, .i1⟩ : BufTy).Contents (Elt F) → (⟨S_, .i1⟩ : BufTy).Contents (Elt F) → (⟨S16384, .i1⟩ : BufTy).Contents (Elt F)),
    binary main_v73 main_call14_v5 main_call14_v13 (fun x i => Host.gather gather_S100000x32_S16384x1_S16384x32_1_0_n_n_0_1_132 x i : (⟨S100000x32, .f32⟩ : BufTy).Contents (Elt F) → (⟨S16384x1, .i32⟩ : BufTy).Contents (Elt F) → (⟨S16384x32, .f32⟩ : BufTy).Contents (Elt F)),
    unary main_call14_v12 main_call14_v14 (broadcastInDim S16384x32 ![0] bcast_S16384_S16384x32_0 : (⟨S16384, .i1⟩ : BufTy).Contents (Elt F) → (⟨S16384x32, .i1⟩ : BufTy).Contents (Elt F)),
    nullary main_call14_cst (constant S_ .f32 0x7FC00000#32 : (⟨S_, .f32⟩ : BufTy).Contents (Elt F)),
    unary main_call14_cst main_call14_v15 (broadcastInDim S16384x32 ![] bcast_S_S16384x32 : (⟨S_, .f32⟩ : BufTy).Contents (Elt F) → (⟨S16384x32, .f32⟩ : BufTy).Contents (Elt F)),
    ternary main_call14_v14 main_call14_v13 main_call14_v15 main_v74 (select : (⟨S16384x32, .i1⟩ : BufTy).Contents (Elt F) → (⟨S16384x32, .f32⟩ : BufTy).Contents (Elt F) → (⟨S16384x32, .f32⟩ : BufTy).Contents (Elt F) → (⟨S16384x32, .f32⟩ : BufTy).Contents (Elt F)) ]

/-- The buffers field 14 writes. -/
abbrev fieldW14 : List (Ref sig .tc) := [main_v70, main_v71, main_v72, main_v73, main_call14_c, main_call14_v0, main_call14_v1, main_call14_c_0, main_call14_v2, main_call14_v3, main_call14_v4, main_call14_v5, main_call14_c_1, main_call14_c_2, main_call14_v6, main_call14_v7, main_call14_v8, main_call14_v9, main_call14_v10, main_call14_v11, main_call14_c_3, main_call14_v12, main_call14_v13, main_call14_v14, main_call14_cst, main_call14_v15, main_v74]

theorem fieldT14_eq : (fieldT14 : List (HloOp τ sig (Elt F))) = fieldP14 := by
  unfold fieldT14 fieldP14 takeOpsT
  ops_entries

theorem field14_ok : (fieldP14 : List (HloOp τ sig (Elt F))).Forall fun op => op.bufs ⊆ tcRefs τ sig ∧ op.fresh = ∅ := by
  unfold fieldP14
  exact ⟨⟨unary_bufs_sub .., rfl⟩, ⟨reshape_bufs_sub .., rfl⟩, ⟨unary_bufs_sub .., rfl⟩, ⟨reshape_bufs_sub .., rfl⟩, ⟨nullary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨ternary_bufs_sub .., rfl⟩, ⟨unary_bufs_sub .., rfl⟩, ⟨nullary_bufs_sub .., rfl⟩, ⟨nullary_bufs_sub .., rfl⟩, ⟨unary_bufs_sub .., rfl⟩, ⟨binary_bufs_sub .., rfl⟩, ⟨unary_bufs_sub .., rfl⟩, ⟨unary_bufs_sub .., rfl⟩, ⟨binary_bufs_sub .., rfl⟩, ⟨binary_bufs_sub .., rfl⟩, ⟨nullary_bufs_sub .., rfl⟩, ⟨binary_bufs_sub .., rfl⟩, ⟨binary_bufs_sub .., rfl⟩, ⟨unary_bufs_sub .., rfl⟩, ⟨nullary_bufs_sub .., rfl⟩, ⟨unary_bufs_sub .., rfl⟩, ⟨ternary_bufs_sub .., rfl⟩⟩

theorem field14_writes : (fieldP14 : List (HloOp τ sig (Elt F))).Forall fun op => op.writes ⊆ (fieldW14.map (Proc.devRef (τ := τ) .tc)).toFinset := by
  unfold fieldP14
  simp only [List.Forall]
  exact ⟨by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem⟩

/-- A buffer field 14 does not write keeps its contents through it. -/
theorem field14_keep (W : Valuation τ sig (Elt F)) (r : Ref sig .tc) (h : r ∉ fieldW14) :
    after fieldP14 W (Proc.devRef .tc r) = W (Proc.devRef .tc r) :=
  after_of_writes_sub fieldP14 W field14_writes h

/-- What field 14 leaves in its result buffer: the field's function of the two arguments' contents. -/
theorem field14_res (W : Valuation τ sig (Elt F)) :
    after fieldP14 W (Proc.devRef .tc main_v74) = RefFn.field14 (W (Proc.devRef .tc main_arg0)) (W (Proc.devRef .tc main_arg1)) := by
  unfold fieldP14
  after_results_simp
  rfl

/-! ### Field 15 -/

/-- Field 15 as the program states it: the two slices and reshapes, then the call's operations over its typed buffers. -/
def fieldT15 : List (HloOp τ sig (Elt F)) :=
  unary main_arg0 main_v75 ((extractStridedSlice S16384x1 ![0, 15] · slices_S16384x26_S16384x1_0_15) : (⟨S16384x26, .i32⟩ : BufTy).Contents (Elt F) → (⟨S16384x1, .i32⟩ : BufTy).Contents (Elt F)) ::
  reshape main_v75 main_v76 rfl shapeCasts_S16384x1_S16384 ::
  unary main_arg1 main_v77 ((extractStridedSlice S1x100000x32 ![15, 0, 0] · slices_S26x100000x32_S1x100000x32_15_0_0) : (⟨S26x100000x32, .f32⟩ : BufTy).Contents (Elt F) → (⟨S1x100000x32, .f32⟩ : BufTy).Contents (Elt F)) ::
  reshape main_v77 main_v78 rfl shapeCasts_S1x100000x32_S100000x32 ::
  takeOpsT (.of main_v78) (.of main_v76) main_call15

/-- The same 28 operations at the buffers themselves. -/
def fieldP15 : List (HloOp τ sig (Elt F)) :=
  [ unary main_arg0 main_v75 ((extractStridedSlice S16384x1 ![0, 15] · slices_S16384x26_S16384x1_0_15) : (⟨S16384x26, .i32⟩ : BufTy).Contents (Elt F) → (⟨S16384x1, .i32⟩ : BufTy).Contents (Elt F)),
    reshape main_v75 main_v76 rfl shapeCasts_S16384x1_S16384,
    unary main_arg1 main_v77 ((extractStridedSlice S1x100000x32 ![15, 0, 0] · slices_S26x100000x32_S1x100000x32_15_0_0) : (⟨S26x100000x32, .f32⟩ : BufTy).Contents (Elt F) → (⟨S1x100000x32, .f32⟩ : BufTy).Contents (Elt F)),
    reshape main_v77 main_v78 rfl shapeCasts_S1x100000x32_S100000x32,
    nullary main_call15_c (constantI S_ 32 0#32 : (⟨S_, .i32⟩ : BufTy).Contents (Elt F)),
    unary main_call15_c main_call15_v0 (broadcastInDim S16384 ![] bcast_S_S16384 : (⟨S_, .i32⟩ : BufTy).Contents (Elt F) → (⟨S16384, .i32⟩ : BufTy).Contents (Elt F)),
    binary main_v76 main_call15_v0 main_call15_v1 (cmpi .slt : (⟨S16384, .i32⟩ : BufTy).Contents (Elt F) → (⟨S16384, .i32⟩ : BufTy).Contents (Elt F) → (⟨S16384, .i1⟩ : BufTy).Contents (Elt F)),
    nullary main_call15_c_0 (constantI S_ 32 100000#32 : (⟨S_, .i32⟩ : BufTy).Contents (Elt F)),
    unary main_call15_c_0 main_call15_v2 (broadcastInDim S16384 ![] bcast_S_S16384 : (⟨S_, .i32⟩ : BufTy).Contents (Elt F) → (⟨S16384, .i32⟩ : BufTy).Contents (Elt F)),
    binary main_v76 main_call15_v2 main_call15_v3 (addi : (⟨S16384, .i32⟩ : BufTy).Contents (Elt F) → (⟨S16384, .i32⟩ : BufTy).Contents (Elt F) → (⟨S16384, .i32⟩ : BufTy).Contents (Elt F)),
    ternary main_call15_v1 main_call15_v3 main_v76 main_call15_v4 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_call15_v4 main_call15_v5 (broadcastInDim S16384x1 ![0] bcast_S16384_S16384x1_0 : (⟨S16384, .i32⟩ : BufTy).Contents (Elt F) → (⟨S16384x1, .i32⟩ : BufTy).Contents (Elt F)),
    nullary main_call15_c_1 (constantI S1 32 99999#32 : (⟨S1, .i32⟩ : BufTy).Contents (Elt F)),
    nullary main_call15_c_2 (constantI S_ 32 0#32 : (⟨S_, .i32⟩ : BufTy).Contents (Elt F)),
    unary main_call15_c_2 main_call15_v6 (broadcastInDim S16384x1 ![] bcast_S_S16384x1 : (⟨S_, .i32⟩ : BufTy).Contents (Elt F) → (⟨S16384x1, .i32⟩ : BufTy).Contents (Elt F)),
    binary main_call15_v5 main_call15_v6 main_call15_v7 (cmpi .sge : (⟨S16384x1, .i32⟩ : BufTy).Contents (Elt F) → (⟨S16384x1, .i32⟩ : BufTy).Contents (Elt F) → (⟨S16384x1, .i1⟩ : BufTy).Contents (Elt F)),
    unary main_call15_c_1 main_call15_v8 (broadcastInDim S1x1 ![1] bcast_S1_S1x1_1 : (⟨S1, .i32⟩ : BufTy).Contents (Elt F) → (⟨S1x1, .i32⟩ : BufTy).Contents (Elt F)),
    unary main_call15_v8 main_call15_v9 (broadcastInDim S16384x1 ![0, 1] bcast_S1x1_S16384x1_0_1 : (⟨S1x1, .i32⟩ : BufTy).Contents (Elt F) → (⟨S16384x1, .i32⟩ : BufTy).Contents (Elt F)),
    binary main_call15_v5 main_call15_v9 main_call15_v10 (cmpi .sle : (⟨S16384x1, .i32⟩ : BufTy).Contents (Elt F) → (⟨S16384x1, .i32⟩ : BufTy).Contents (Elt F) → (⟨S16384x1, .i1⟩ : BufTy).Contents (Elt F)),
    binary main_call15_v7 main_call15_v10 main_call15_v11 (andi : (⟨S16384x1, .i1⟩ : BufTy).Contents (Elt F) → (⟨S16384x1, .i1⟩ : BufTy).Contents (Elt F) → (⟨S16384x1, .i1⟩ : BufTy).Contents (Elt F)),
    nullary main_call15_c_3 (constantI S_ 1 1#1 : (⟨S_, .i1⟩ : BufTy).Contents (Elt F)),
    binary main_call15_v11 main_call15_c_3 main_call15_v12 (fun x v => Host.reduce IntOp.andi x v reducesTo_S16384x1_S16384_d1 h_S_ : (⟨S16384x1, .i1⟩ : BufTy).Contents (Elt F) → (⟨S_, .i1⟩ : BufTy).Contents (Elt F) → (⟨S16384, .i1⟩ : BufTy).Contents (Elt F)),
    binary main_v78 main_call15_v5 main_call15_v13 (fun x i => Host.gather gather_S100000x32_S16384x1_S16384x32_1_0_n_n_0_1_132 x i : (⟨S100000x32, .f32⟩ : BufTy).Contents (Elt F) → (⟨S16384x1, .i32⟩ : BufTy).Contents (Elt F) → (⟨S16384x32, .f32⟩ : BufTy).Contents (Elt F)),
    unary main_call15_v12 main_call15_v14 (broadcastInDim S16384x32 ![0] bcast_S16384_S16384x32_0 : (⟨S16384, .i1⟩ : BufTy).Contents (Elt F) → (⟨S16384x32, .i1⟩ : BufTy).Contents (Elt F)),
    nullary main_call15_cst (constant S_ .f32 0x7FC00000#32 : (⟨S_, .f32⟩ : BufTy).Contents (Elt F)),
    unary main_call15_cst main_call15_v15 (broadcastInDim S16384x32 ![] bcast_S_S16384x32 : (⟨S_, .f32⟩ : BufTy).Contents (Elt F) → (⟨S16384x32, .f32⟩ : BufTy).Contents (Elt F)),
    ternary main_call15_v14 main_call15_v13 main_call15_v15 main_v79 (select : (⟨S16384x32, .i1⟩ : BufTy).Contents (Elt F) → (⟨S16384x32, .f32⟩ : BufTy).Contents (Elt F) → (⟨S16384x32, .f32⟩ : BufTy).Contents (Elt F) → (⟨S16384x32, .f32⟩ : BufTy).Contents (Elt F)) ]

/-- The buffers field 15 writes. -/
abbrev fieldW15 : List (Ref sig .tc) := [main_v75, main_v76, main_v77, main_v78, main_call15_c, main_call15_v0, main_call15_v1, main_call15_c_0, main_call15_v2, main_call15_v3, main_call15_v4, main_call15_v5, main_call15_c_1, main_call15_c_2, main_call15_v6, main_call15_v7, main_call15_v8, main_call15_v9, main_call15_v10, main_call15_v11, main_call15_c_3, main_call15_v12, main_call15_v13, main_call15_v14, main_call15_cst, main_call15_v15, main_v79]

theorem fieldT15_eq : (fieldT15 : List (HloOp τ sig (Elt F))) = fieldP15 := by
  unfold fieldT15 fieldP15 takeOpsT
  ops_entries

theorem field15_ok : (fieldP15 : List (HloOp τ sig (Elt F))).Forall fun op => op.bufs ⊆ tcRefs τ sig ∧ op.fresh = ∅ := by
  unfold fieldP15
  exact ⟨⟨unary_bufs_sub .., rfl⟩, ⟨reshape_bufs_sub .., rfl⟩, ⟨unary_bufs_sub .., rfl⟩, ⟨reshape_bufs_sub .., rfl⟩, ⟨nullary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨ternary_bufs_sub .., rfl⟩, ⟨unary_bufs_sub .., rfl⟩, ⟨nullary_bufs_sub .., rfl⟩, ⟨nullary_bufs_sub .., rfl⟩, ⟨unary_bufs_sub .., rfl⟩, ⟨binary_bufs_sub .., rfl⟩, ⟨unary_bufs_sub .., rfl⟩, ⟨unary_bufs_sub .., rfl⟩, ⟨binary_bufs_sub .., rfl⟩, ⟨binary_bufs_sub .., rfl⟩, ⟨nullary_bufs_sub .., rfl⟩, ⟨binary_bufs_sub .., rfl⟩, ⟨binary_bufs_sub .., rfl⟩, ⟨unary_bufs_sub .., rfl⟩, ⟨nullary_bufs_sub .., rfl⟩, ⟨unary_bufs_sub .., rfl⟩, ⟨ternary_bufs_sub .., rfl⟩⟩

theorem field15_writes : (fieldP15 : List (HloOp τ sig (Elt F))).Forall fun op => op.writes ⊆ (fieldW15.map (Proc.devRef (τ := τ) .tc)).toFinset := by
  unfold fieldP15
  simp only [List.Forall]
  exact ⟨by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem⟩

/-- A buffer field 15 does not write keeps its contents through it. -/
theorem field15_keep (W : Valuation τ sig (Elt F)) (r : Ref sig .tc) (h : r ∉ fieldW15) :
    after fieldP15 W (Proc.devRef .tc r) = W (Proc.devRef .tc r) :=
  after_of_writes_sub fieldP15 W field15_writes h

/-- What field 15 leaves in its result buffer: the field's function of the two arguments' contents. -/
theorem field15_res (W : Valuation τ sig (Elt F)) :
    after fieldP15 W (Proc.devRef .tc main_v79) = RefFn.field15 (W (Proc.devRef .tc main_arg0)) (W (Proc.devRef .tc main_arg1)) := by
  unfold fieldP15
  after_results_simp
  rfl

/-! ### Field 16 -/

/-- Field 16 as the program states it: the two slices and reshapes, then the call's operations over its typed buffers. -/
def fieldT16 : List (HloOp τ sig (Elt F)) :=
  unary main_arg0 main_v80 ((extractStridedSlice S16384x1 ![0, 16] · slices_S16384x26_S16384x1_0_16) : (⟨S16384x26, .i32⟩ : BufTy).Contents (Elt F) → (⟨S16384x1, .i32⟩ : BufTy).Contents (Elt F)) ::
  reshape main_v80 main_v81 rfl shapeCasts_S16384x1_S16384 ::
  unary main_arg1 main_v82 ((extractStridedSlice S1x100000x32 ![16, 0, 0] · slices_S26x100000x32_S1x100000x32_16_0_0) : (⟨S26x100000x32, .f32⟩ : BufTy).Contents (Elt F) → (⟨S1x100000x32, .f32⟩ : BufTy).Contents (Elt F)) ::
  reshape main_v82 main_v83 rfl shapeCasts_S1x100000x32_S100000x32 ::
  takeOpsT (.of main_v83) (.of main_v81) main_call16

/-- The same 28 operations at the buffers themselves. -/
def fieldP16 : List (HloOp τ sig (Elt F)) :=
  [ unary main_arg0 main_v80 ((extractStridedSlice S16384x1 ![0, 16] · slices_S16384x26_S16384x1_0_16) : (⟨S16384x26, .i32⟩ : BufTy).Contents (Elt F) → (⟨S16384x1, .i32⟩ : BufTy).Contents (Elt F)),
    reshape main_v80 main_v81 rfl shapeCasts_S16384x1_S16384,
    unary main_arg1 main_v82 ((extractStridedSlice S1x100000x32 ![16, 0, 0] · slices_S26x100000x32_S1x100000x32_16_0_0) : (⟨S26x100000x32, .f32⟩ : BufTy).Contents (Elt F) → (⟨S1x100000x32, .f32⟩ : BufTy).Contents (Elt F)),
    reshape main_v82 main_v83 rfl shapeCasts_S1x100000x32_S100000x32,
    nullary main_call16_c (constantI S_ 32 0#32 : (⟨S_, .i32⟩ : BufTy).Contents (Elt F)),
    unary main_call16_c main_call16_v0 (broadcastInDim S16384 ![] bcast_S_S16384 : (⟨S_, .i32⟩ : BufTy).Contents (Elt F) → (⟨S16384, .i32⟩ : BufTy).Contents (Elt F)),
    binary main_v81 main_call16_v0 main_call16_v1 (cmpi .slt : (⟨S16384, .i32⟩ : BufTy).Contents (Elt F) → (⟨S16384, .i32⟩ : BufTy).Contents (Elt F) → (⟨S16384, .i1⟩ : BufTy).Contents (Elt F)),
    nullary main_call16_c_0 (constantI S_ 32 100000#32 : (⟨S_, .i32⟩ : BufTy).Contents (Elt F)),
    unary main_call16_c_0 main_call16_v2 (broadcastInDim S16384 ![] bcast_S_S16384 : (⟨S_, .i32⟩ : BufTy).Contents (Elt F) → (⟨S16384, .i32⟩ : BufTy).Contents (Elt F)),
    binary main_v81 main_call16_v2 main_call16_v3 (addi : (⟨S16384, .i32⟩ : BufTy).Contents (Elt F) → (⟨S16384, .i32⟩ : BufTy).Contents (Elt F) → (⟨S16384, .i32⟩ : BufTy).Contents (Elt F)),
    ternary main_call16_v1 main_call16_v3 main_v81 main_call16_v4 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_call16_v4 main_call16_v5 (broadcastInDim S16384x1 ![0] bcast_S16384_S16384x1_0 : (⟨S16384, .i32⟩ : BufTy).Contents (Elt F) → (⟨S16384x1, .i32⟩ : BufTy).Contents (Elt F)),
    nullary main_call16_c_1 (constantI S1 32 99999#32 : (⟨S1, .i32⟩ : BufTy).Contents (Elt F)),
    nullary main_call16_c_2 (constantI S_ 32 0#32 : (⟨S_, .i32⟩ : BufTy).Contents (Elt F)),
    unary main_call16_c_2 main_call16_v6 (broadcastInDim S16384x1 ![] bcast_S_S16384x1 : (⟨S_, .i32⟩ : BufTy).Contents (Elt F) → (⟨S16384x1, .i32⟩ : BufTy).Contents (Elt F)),
    binary main_call16_v5 main_call16_v6 main_call16_v7 (cmpi .sge : (⟨S16384x1, .i32⟩ : BufTy).Contents (Elt F) → (⟨S16384x1, .i32⟩ : BufTy).Contents (Elt F) → (⟨S16384x1, .i1⟩ : BufTy).Contents (Elt F)),
    unary main_call16_c_1 main_call16_v8 (broadcastInDim S1x1 ![1] bcast_S1_S1x1_1 : (⟨S1, .i32⟩ : BufTy).Contents (Elt F) → (⟨S1x1, .i32⟩ : BufTy).Contents (Elt F)),
    unary main_call16_v8 main_call16_v9 (broadcastInDim S16384x1 ![0, 1] bcast_S1x1_S16384x1_0_1 : (⟨S1x1, .i32⟩ : BufTy).Contents (Elt F) → (⟨S16384x1, .i32⟩ : BufTy).Contents (Elt F)),
    binary main_call16_v5 main_call16_v9 main_call16_v10 (cmpi .sle : (⟨S16384x1, .i32⟩ : BufTy).Contents (Elt F) → (⟨S16384x1, .i32⟩ : BufTy).Contents (Elt F) → (⟨S16384x1, .i1⟩ : BufTy).Contents (Elt F)),
    binary main_call16_v7 main_call16_v10 main_call16_v11 (andi : (⟨S16384x1, .i1⟩ : BufTy).Contents (Elt F) → (⟨S16384x1, .i1⟩ : BufTy).Contents (Elt F) → (⟨S16384x1, .i1⟩ : BufTy).Contents (Elt F)),
    nullary main_call16_c_3 (constantI S_ 1 1#1 : (⟨S_, .i1⟩ : BufTy).Contents (Elt F)),
    binary main_call16_v11 main_call16_c_3 main_call16_v12 (fun x v => Host.reduce IntOp.andi x v reducesTo_S16384x1_S16384_d1 h_S_ : (⟨S16384x1, .i1⟩ : BufTy).Contents (Elt F) → (⟨S_, .i1⟩ : BufTy).Contents (Elt F) → (⟨S16384, .i1⟩ : BufTy).Contents (Elt F)),
    binary main_v83 main_call16_v5 main_call16_v13 (fun x i => Host.gather gather_S100000x32_S16384x1_S16384x32_1_0_n_n_0_1_132 x i : (⟨S100000x32, .f32⟩ : BufTy).Contents (Elt F) → (⟨S16384x1, .i32⟩ : BufTy).Contents (Elt F) → (⟨S16384x32, .f32⟩ : BufTy).Contents (Elt F)),
    unary main_call16_v12 main_call16_v14 (broadcastInDim S16384x32 ![0] bcast_S16384_S16384x32_0 : (⟨S16384, .i1⟩ : BufTy).Contents (Elt F) → (⟨S16384x32, .i1⟩ : BufTy).Contents (Elt F)),
    nullary main_call16_cst (constant S_ .f32 0x7FC00000#32 : (⟨S_, .f32⟩ : BufTy).Contents (Elt F)),
    unary main_call16_cst main_call16_v15 (broadcastInDim S16384x32 ![] bcast_S_S16384x32 : (⟨S_, .f32⟩ : BufTy).Contents (Elt F) → (⟨S16384x32, .f32⟩ : BufTy).Contents (Elt F)),
    ternary main_call16_v14 main_call16_v13 main_call16_v15 main_v84 (select : (⟨S16384x32, .i1⟩ : BufTy).Contents (Elt F) → (⟨S16384x32, .f32⟩ : BufTy).Contents (Elt F) → (⟨S16384x32, .f32⟩ : BufTy).Contents (Elt F) → (⟨S16384x32, .f32⟩ : BufTy).Contents (Elt F)) ]

/-- The buffers field 16 writes. -/
abbrev fieldW16 : List (Ref sig .tc) := [main_v80, main_v81, main_v82, main_v83, main_call16_c, main_call16_v0, main_call16_v1, main_call16_c_0, main_call16_v2, main_call16_v3, main_call16_v4, main_call16_v5, main_call16_c_1, main_call16_c_2, main_call16_v6, main_call16_v7, main_call16_v8, main_call16_v9, main_call16_v10, main_call16_v11, main_call16_c_3, main_call16_v12, main_call16_v13, main_call16_v14, main_call16_cst, main_call16_v15, main_v84]

theorem fieldT16_eq : (fieldT16 : List (HloOp τ sig (Elt F))) = fieldP16 := by
  unfold fieldT16 fieldP16 takeOpsT
  ops_entries

theorem field16_ok : (fieldP16 : List (HloOp τ sig (Elt F))).Forall fun op => op.bufs ⊆ tcRefs τ sig ∧ op.fresh = ∅ := by
  unfold fieldP16
  exact ⟨⟨unary_bufs_sub .., rfl⟩, ⟨reshape_bufs_sub .., rfl⟩, ⟨unary_bufs_sub .., rfl⟩, ⟨reshape_bufs_sub .., rfl⟩, ⟨nullary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨ternary_bufs_sub .., rfl⟩, ⟨unary_bufs_sub .., rfl⟩, ⟨nullary_bufs_sub .., rfl⟩, ⟨nullary_bufs_sub .., rfl⟩, ⟨unary_bufs_sub .., rfl⟩, ⟨binary_bufs_sub .., rfl⟩, ⟨unary_bufs_sub .., rfl⟩, ⟨unary_bufs_sub .., rfl⟩, ⟨binary_bufs_sub .., rfl⟩, ⟨binary_bufs_sub .., rfl⟩, ⟨nullary_bufs_sub .., rfl⟩, ⟨binary_bufs_sub .., rfl⟩, ⟨binary_bufs_sub .., rfl⟩, ⟨unary_bufs_sub .., rfl⟩, ⟨nullary_bufs_sub .., rfl⟩, ⟨unary_bufs_sub .., rfl⟩, ⟨ternary_bufs_sub .., rfl⟩⟩

theorem field16_writes : (fieldP16 : List (HloOp τ sig (Elt F))).Forall fun op => op.writes ⊆ (fieldW16.map (Proc.devRef (τ := τ) .tc)).toFinset := by
  unfold fieldP16
  simp only [List.Forall]
  exact ⟨by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem⟩

/-- A buffer field 16 does not write keeps its contents through it. -/
theorem field16_keep (W : Valuation τ sig (Elt F)) (r : Ref sig .tc) (h : r ∉ fieldW16) :
    after fieldP16 W (Proc.devRef .tc r) = W (Proc.devRef .tc r) :=
  after_of_writes_sub fieldP16 W field16_writes h

/-- What field 16 leaves in its result buffer: the field's function of the two arguments' contents. -/
theorem field16_res (W : Valuation τ sig (Elt F)) :
    after fieldP16 W (Proc.devRef .tc main_v84) = RefFn.field16 (W (Proc.devRef .tc main_arg0)) (W (Proc.devRef .tc main_arg1)) := by
  unfold fieldP16
  after_results_simp
  rfl

/-! ### Field 17 -/

/-- Field 17 as the program states it: the two slices and reshapes, then the call's operations over its typed buffers. -/
def fieldT17 : List (HloOp τ sig (Elt F)) :=
  unary main_arg0 main_v85 ((extractStridedSlice S16384x1 ![0, 17] · slices_S16384x26_S16384x1_0_17) : (⟨S16384x26, .i32⟩ : BufTy).Contents (Elt F) → (⟨S16384x1, .i32⟩ : BufTy).Contents (Elt F)) ::
  reshape main_v85 main_v86 rfl shapeCasts_S16384x1_S16384 ::
  unary main_arg1 main_v87 ((extractStridedSlice S1x100000x32 ![17, 0, 0] · slices_S26x100000x32_S1x100000x32_17_0_0) : (⟨S26x100000x32, .f32⟩ : BufTy).Contents (Elt F) → (⟨S1x100000x32, .f32⟩ : BufTy).Contents (Elt F)) ::
  reshape main_v87 main_v88 rfl shapeCasts_S1x100000x32_S100000x32 ::
  takeOpsT (.of main_v88) (.of main_v86) main_call17

/-- The same 28 operations at the buffers themselves. -/
def fieldP17 : List (HloOp τ sig (Elt F)) :=
  [ unary main_arg0 main_v85 ((extractStridedSlice S16384x1 ![0, 17] · slices_S16384x26_S16384x1_0_17) : (⟨S16384x26, .i32⟩ : BufTy).Contents (Elt F) → (⟨S16384x1, .i32⟩ : BufTy).Contents (Elt F)),
    reshape main_v85 main_v86 rfl shapeCasts_S16384x1_S16384,
    unary main_arg1 main_v87 ((extractStridedSlice S1x100000x32 ![17, 0, 0] · slices_S26x100000x32_S1x100000x32_17_0_0) : (⟨S26x100000x32, .f32⟩ : BufTy).Contents (Elt F) → (⟨S1x100000x32, .f32⟩ : BufTy).Contents (Elt F)),
    reshape main_v87 main_v88 rfl shapeCasts_S1x100000x32_S100000x32,
    nullary main_call17_c (constantI S_ 32 0#32 : (⟨S_, .i32⟩ : BufTy).Contents (Elt F)),
    unary main_call17_c main_call17_v0 (broadcastInDim S16384 ![] bcast_S_S16384 : (⟨S_, .i32⟩ : BufTy).Contents (Elt F) → (⟨S16384, .i32⟩ : BufTy).Contents (Elt F)),
    binary main_v86 main_call17_v0 main_call17_v1 (cmpi .slt : (⟨S16384, .i32⟩ : BufTy).Contents (Elt F) → (⟨S16384, .i32⟩ : BufTy).Contents (Elt F) → (⟨S16384, .i1⟩ : BufTy).Contents (Elt F)),
    nullary main_call17_c_0 (constantI S_ 32 100000#32 : (⟨S_, .i32⟩ : BufTy).Contents (Elt F)),
    unary main_call17_c_0 main_call17_v2 (broadcastInDim S16384 ![] bcast_S_S16384 : (⟨S_, .i32⟩ : BufTy).Contents (Elt F) → (⟨S16384, .i32⟩ : BufTy).Contents (Elt F)),
    binary main_v86 main_call17_v2 main_call17_v3 (addi : (⟨S16384, .i32⟩ : BufTy).Contents (Elt F) → (⟨S16384, .i32⟩ : BufTy).Contents (Elt F) → (⟨S16384, .i32⟩ : BufTy).Contents (Elt F)),
    ternary main_call17_v1 main_call17_v3 main_v86 main_call17_v4 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_call17_v4 main_call17_v5 (broadcastInDim S16384x1 ![0] bcast_S16384_S16384x1_0 : (⟨S16384, .i32⟩ : BufTy).Contents (Elt F) → (⟨S16384x1, .i32⟩ : BufTy).Contents (Elt F)),
    nullary main_call17_c_1 (constantI S1 32 99999#32 : (⟨S1, .i32⟩ : BufTy).Contents (Elt F)),
    nullary main_call17_c_2 (constantI S_ 32 0#32 : (⟨S_, .i32⟩ : BufTy).Contents (Elt F)),
    unary main_call17_c_2 main_call17_v6 (broadcastInDim S16384x1 ![] bcast_S_S16384x1 : (⟨S_, .i32⟩ : BufTy).Contents (Elt F) → (⟨S16384x1, .i32⟩ : BufTy).Contents (Elt F)),
    binary main_call17_v5 main_call17_v6 main_call17_v7 (cmpi .sge : (⟨S16384x1, .i32⟩ : BufTy).Contents (Elt F) → (⟨S16384x1, .i32⟩ : BufTy).Contents (Elt F) → (⟨S16384x1, .i1⟩ : BufTy).Contents (Elt F)),
    unary main_call17_c_1 main_call17_v8 (broadcastInDim S1x1 ![1] bcast_S1_S1x1_1 : (⟨S1, .i32⟩ : BufTy).Contents (Elt F) → (⟨S1x1, .i32⟩ : BufTy).Contents (Elt F)),
    unary main_call17_v8 main_call17_v9 (broadcastInDim S16384x1 ![0, 1] bcast_S1x1_S16384x1_0_1 : (⟨S1x1, .i32⟩ : BufTy).Contents (Elt F) → (⟨S16384x1, .i32⟩ : BufTy).Contents (Elt F)),
    binary main_call17_v5 main_call17_v9 main_call17_v10 (cmpi .sle : (⟨S16384x1, .i32⟩ : BufTy).Contents (Elt F) → (⟨S16384x1, .i32⟩ : BufTy).Contents (Elt F) → (⟨S16384x1, .i1⟩ : BufTy).Contents (Elt F)),
    binary main_call17_v7 main_call17_v10 main_call17_v11 (andi : (⟨S16384x1, .i1⟩ : BufTy).Contents (Elt F) → (⟨S16384x1, .i1⟩ : BufTy).Contents (Elt F) → (⟨S16384x1, .i1⟩ : BufTy).Contents (Elt F)),
    nullary main_call17_c_3 (constantI S_ 1 1#1 : (⟨S_, .i1⟩ : BufTy).Contents (Elt F)),
    binary main_call17_v11 main_call17_c_3 main_call17_v12 (fun x v => Host.reduce IntOp.andi x v reducesTo_S16384x1_S16384_d1 h_S_ : (⟨S16384x1, .i1⟩ : BufTy).Contents (Elt F) → (⟨S_, .i1⟩ : BufTy).Contents (Elt F) → (⟨S16384, .i1⟩ : BufTy).Contents (Elt F)),
    binary main_v88 main_call17_v5 main_call17_v13 (fun x i => Host.gather gather_S100000x32_S16384x1_S16384x32_1_0_n_n_0_1_132 x i : (⟨S100000x32, .f32⟩ : BufTy).Contents (Elt F) → (⟨S16384x1, .i32⟩ : BufTy).Contents (Elt F) → (⟨S16384x32, .f32⟩ : BufTy).Contents (Elt F)),
    unary main_call17_v12 main_call17_v14 (broadcastInDim S16384x32 ![0] bcast_S16384_S16384x32_0 : (⟨S16384, .i1⟩ : BufTy).Contents (Elt F) → (⟨S16384x32, .i1⟩ : BufTy).Contents (Elt F)),
    nullary main_call17_cst (constant S_ .f32 0x7FC00000#32 : (⟨S_, .f32⟩ : BufTy).Contents (Elt F)),
    unary main_call17_cst main_call17_v15 (broadcastInDim S16384x32 ![] bcast_S_S16384x32 : (⟨S_, .f32⟩ : BufTy).Contents (Elt F) → (⟨S16384x32, .f32⟩ : BufTy).Contents (Elt F)),
    ternary main_call17_v14 main_call17_v13 main_call17_v15 main_v89 (select : (⟨S16384x32, .i1⟩ : BufTy).Contents (Elt F) → (⟨S16384x32, .f32⟩ : BufTy).Contents (Elt F) → (⟨S16384x32, .f32⟩ : BufTy).Contents (Elt F) → (⟨S16384x32, .f32⟩ : BufTy).Contents (Elt F)) ]

/-- The buffers field 17 writes. -/
abbrev fieldW17 : List (Ref sig .tc) := [main_v85, main_v86, main_v87, main_v88, main_call17_c, main_call17_v0, main_call17_v1, main_call17_c_0, main_call17_v2, main_call17_v3, main_call17_v4, main_call17_v5, main_call17_c_1, main_call17_c_2, main_call17_v6, main_call17_v7, main_call17_v8, main_call17_v9, main_call17_v10, main_call17_v11, main_call17_c_3, main_call17_v12, main_call17_v13, main_call17_v14, main_call17_cst, main_call17_v15, main_v89]

theorem fieldT17_eq : (fieldT17 : List (HloOp τ sig (Elt F))) = fieldP17 := by
  unfold fieldT17 fieldP17 takeOpsT
  ops_entries

theorem field17_ok : (fieldP17 : List (HloOp τ sig (Elt F))).Forall fun op => op.bufs ⊆ tcRefs τ sig ∧ op.fresh = ∅ := by
  unfold fieldP17
  exact ⟨⟨unary_bufs_sub .., rfl⟩, ⟨reshape_bufs_sub .., rfl⟩, ⟨unary_bufs_sub .., rfl⟩, ⟨reshape_bufs_sub .., rfl⟩, ⟨nullary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨ternary_bufs_sub .., rfl⟩, ⟨unary_bufs_sub .., rfl⟩, ⟨nullary_bufs_sub .., rfl⟩, ⟨nullary_bufs_sub .., rfl⟩, ⟨unary_bufs_sub .., rfl⟩, ⟨binary_bufs_sub .., rfl⟩, ⟨unary_bufs_sub .., rfl⟩, ⟨unary_bufs_sub .., rfl⟩, ⟨binary_bufs_sub .., rfl⟩, ⟨binary_bufs_sub .., rfl⟩, ⟨nullary_bufs_sub .., rfl⟩, ⟨binary_bufs_sub .., rfl⟩, ⟨binary_bufs_sub .., rfl⟩, ⟨unary_bufs_sub .., rfl⟩, ⟨nullary_bufs_sub .., rfl⟩, ⟨unary_bufs_sub .., rfl⟩, ⟨ternary_bufs_sub .., rfl⟩⟩

theorem field17_writes : (fieldP17 : List (HloOp τ sig (Elt F))).Forall fun op => op.writes ⊆ (fieldW17.map (Proc.devRef (τ := τ) .tc)).toFinset := by
  unfold fieldP17
  simp only [List.Forall]
  exact ⟨by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem⟩

/-- A buffer field 17 does not write keeps its contents through it. -/
theorem field17_keep (W : Valuation τ sig (Elt F)) (r : Ref sig .tc) (h : r ∉ fieldW17) :
    after fieldP17 W (Proc.devRef .tc r) = W (Proc.devRef .tc r) :=
  after_of_writes_sub fieldP17 W field17_writes h

/-- What field 17 leaves in its result buffer: the field's function of the two arguments' contents. -/
theorem field17_res (W : Valuation τ sig (Elt F)) :
    after fieldP17 W (Proc.devRef .tc main_v89) = RefFn.field17 (W (Proc.devRef .tc main_arg0)) (W (Proc.devRef .tc main_arg1)) := by
  unfold fieldP17
  after_results_simp
  rfl

/-! ### Field 18 -/

/-- Field 18 as the program states it: the two slices and reshapes, then the call's operations over its typed buffers. -/
def fieldT18 : List (HloOp τ sig (Elt F)) :=
  unary main_arg0 main_v90 ((extractStridedSlice S16384x1 ![0, 18] · slices_S16384x26_S16384x1_0_18) : (⟨S16384x26, .i32⟩ : BufTy).Contents (Elt F) → (⟨S16384x1, .i32⟩ : BufTy).Contents (Elt F)) ::
  reshape main_v90 main_v91 rfl shapeCasts_S16384x1_S16384 ::
  unary main_arg1 main_v92 ((extractStridedSlice S1x100000x32 ![18, 0, 0] · slices_S26x100000x32_S1x100000x32_18_0_0) : (⟨S26x100000x32, .f32⟩ : BufTy).Contents (Elt F) → (⟨S1x100000x32, .f32⟩ : BufTy).Contents (Elt F)) ::
  reshape main_v92 main_v93 rfl shapeCasts_S1x100000x32_S100000x32 ::
  takeOpsT (.of main_v93) (.of main_v91) main_call18

/-- The same 28 operations at the buffers themselves. -/
def fieldP18 : List (HloOp τ sig (Elt F)) :=
  [ unary main_arg0 main_v90 ((extractStridedSlice S16384x1 ![0, 18] · slices_S16384x26_S16384x1_0_18) : (⟨S16384x26, .i32⟩ : BufTy).Contents (Elt F) → (⟨S16384x1, .i32⟩ : BufTy).Contents (Elt F)),
    reshape main_v90 main_v91 rfl shapeCasts_S16384x1_S16384,
    unary main_arg1 main_v92 ((extractStridedSlice S1x100000x32 ![18, 0, 0] · slices_S26x100000x32_S1x100000x32_18_0_0) : (⟨S26x100000x32, .f32⟩ : BufTy).Contents (Elt F) → (⟨S1x100000x32, .f32⟩ : BufTy).Contents (Elt F)),
    reshape main_v92 main_v93 rfl shapeCasts_S1x100000x32_S100000x32,
    nullary main_call18_c (constantI S_ 32 0#32 : (⟨S_, .i32⟩ : BufTy).Contents (Elt F)),
    unary main_call18_c main_call18_v0 (broadcastInDim S16384 ![] bcast_S_S16384 : (⟨S_, .i32⟩ : BufTy).Contents (Elt F) → (⟨S16384, .i32⟩ : BufTy).Contents (Elt F)),
    binary main_v91 main_call18_v0 main_call18_v1 (cmpi .slt : (⟨S16384, .i32⟩ : BufTy).Contents (Elt F) → (⟨S16384, .i32⟩ : BufTy).Contents (Elt F) → (⟨S16384, .i1⟩ : BufTy).Contents (Elt F)),
    nullary main_call18_c_0 (constantI S_ 32 100000#32 : (⟨S_, .i32⟩ : BufTy).Contents (Elt F)),
    unary main_call18_c_0 main_call18_v2 (broadcastInDim S16384 ![] bcast_S_S16384 : (⟨S_, .i32⟩ : BufTy).Contents (Elt F) → (⟨S16384, .i32⟩ : BufTy).Contents (Elt F)),
    binary main_v91 main_call18_v2 main_call18_v3 (addi : (⟨S16384, .i32⟩ : BufTy).Contents (Elt F) → (⟨S16384, .i32⟩ : BufTy).Contents (Elt F) → (⟨S16384, .i32⟩ : BufTy).Contents (Elt F)),
    ternary main_call18_v1 main_call18_v3 main_v91 main_call18_v4 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_call18_v4 main_call18_v5 (broadcastInDim S16384x1 ![0] bcast_S16384_S16384x1_0 : (⟨S16384, .i32⟩ : BufTy).Contents (Elt F) → (⟨S16384x1, .i32⟩ : BufTy).Contents (Elt F)),
    nullary main_call18_c_1 (constantI S1 32 99999#32 : (⟨S1, .i32⟩ : BufTy).Contents (Elt F)),
    nullary main_call18_c_2 (constantI S_ 32 0#32 : (⟨S_, .i32⟩ : BufTy).Contents (Elt F)),
    unary main_call18_c_2 main_call18_v6 (broadcastInDim S16384x1 ![] bcast_S_S16384x1 : (⟨S_, .i32⟩ : BufTy).Contents (Elt F) → (⟨S16384x1, .i32⟩ : BufTy).Contents (Elt F)),
    binary main_call18_v5 main_call18_v6 main_call18_v7 (cmpi .sge : (⟨S16384x1, .i32⟩ : BufTy).Contents (Elt F) → (⟨S16384x1, .i32⟩ : BufTy).Contents (Elt F) → (⟨S16384x1, .i1⟩ : BufTy).Contents (Elt F)),
    unary main_call18_c_1 main_call18_v8 (broadcastInDim S1x1 ![1] bcast_S1_S1x1_1 : (⟨S1, .i32⟩ : BufTy).Contents (Elt F) → (⟨S1x1, .i32⟩ : BufTy).Contents (Elt F)),
    unary main_call18_v8 main_call18_v9 (broadcastInDim S16384x1 ![0, 1] bcast_S1x1_S16384x1_0_1 : (⟨S1x1, .i32⟩ : BufTy).Contents (Elt F) → (⟨S16384x1, .i32⟩ : BufTy).Contents (Elt F)),
    binary main_call18_v5 main_call18_v9 main_call18_v10 (cmpi .sle : (⟨S16384x1, .i32⟩ : BufTy).Contents (Elt F) → (⟨S16384x1, .i32⟩ : BufTy).Contents (Elt F) → (⟨S16384x1, .i1⟩ : BufTy).Contents (Elt F)),
    binary main_call18_v7 main_call18_v10 main_call18_v11 (andi : (⟨S16384x1, .i1⟩ : BufTy).Contents (Elt F) → (⟨S16384x1, .i1⟩ : BufTy).Contents (Elt F) → (⟨S16384x1, .i1⟩ : BufTy).Contents (Elt F)),
    nullary main_call18_c_3 (constantI S_ 1 1#1 : (⟨S_, .i1⟩ : BufTy).Contents (Elt F)),
    binary main_call18_v11 main_call18_c_3 main_call18_v12 (fun x v => Host.reduce IntOp.andi x v reducesTo_S16384x1_S16384_d1 h_S_ : (⟨S16384x1, .i1⟩ : BufTy).Contents (Elt F) → (⟨S_, .i1⟩ : BufTy).Contents (Elt F) → (⟨S16384, .i1⟩ : BufTy).Contents (Elt F)),
    binary main_v93 main_call18_v5 main_call18_v13 (fun x i => Host.gather gather_S100000x32_S16384x1_S16384x32_1_0_n_n_0_1_132 x i : (⟨S100000x32, .f32⟩ : BufTy).Contents (Elt F) → (⟨S16384x1, .i32⟩ : BufTy).Contents (Elt F) → (⟨S16384x32, .f32⟩ : BufTy).Contents (Elt F)),
    unary main_call18_v12 main_call18_v14 (broadcastInDim S16384x32 ![0] bcast_S16384_S16384x32_0 : (⟨S16384, .i1⟩ : BufTy).Contents (Elt F) → (⟨S16384x32, .i1⟩ : BufTy).Contents (Elt F)),
    nullary main_call18_cst (constant S_ .f32 0x7FC00000#32 : (⟨S_, .f32⟩ : BufTy).Contents (Elt F)),
    unary main_call18_cst main_call18_v15 (broadcastInDim S16384x32 ![] bcast_S_S16384x32 : (⟨S_, .f32⟩ : BufTy).Contents (Elt F) → (⟨S16384x32, .f32⟩ : BufTy).Contents (Elt F)),
    ternary main_call18_v14 main_call18_v13 main_call18_v15 main_v94 (select : (⟨S16384x32, .i1⟩ : BufTy).Contents (Elt F) → (⟨S16384x32, .f32⟩ : BufTy).Contents (Elt F) → (⟨S16384x32, .f32⟩ : BufTy).Contents (Elt F) → (⟨S16384x32, .f32⟩ : BufTy).Contents (Elt F)) ]

/-- The buffers field 18 writes. -/
abbrev fieldW18 : List (Ref sig .tc) := [main_v90, main_v91, main_v92, main_v93, main_call18_c, main_call18_v0, main_call18_v1, main_call18_c_0, main_call18_v2, main_call18_v3, main_call18_v4, main_call18_v5, main_call18_c_1, main_call18_c_2, main_call18_v6, main_call18_v7, main_call18_v8, main_call18_v9, main_call18_v10, main_call18_v11, main_call18_c_3, main_call18_v12, main_call18_v13, main_call18_v14, main_call18_cst, main_call18_v15, main_v94]

theorem fieldT18_eq : (fieldT18 : List (HloOp τ sig (Elt F))) = fieldP18 := by
  unfold fieldT18 fieldP18 takeOpsT
  ops_entries

theorem field18_ok : (fieldP18 : List (HloOp τ sig (Elt F))).Forall fun op => op.bufs ⊆ tcRefs τ sig ∧ op.fresh = ∅ := by
  unfold fieldP18
  exact ⟨⟨unary_bufs_sub .., rfl⟩, ⟨reshape_bufs_sub .., rfl⟩, ⟨unary_bufs_sub .., rfl⟩, ⟨reshape_bufs_sub .., rfl⟩, ⟨nullary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨ternary_bufs_sub .., rfl⟩, ⟨unary_bufs_sub .., rfl⟩, ⟨nullary_bufs_sub .., rfl⟩, ⟨nullary_bufs_sub .., rfl⟩, ⟨unary_bufs_sub .., rfl⟩, ⟨binary_bufs_sub .., rfl⟩, ⟨unary_bufs_sub .., rfl⟩, ⟨unary_bufs_sub .., rfl⟩, ⟨binary_bufs_sub .., rfl⟩, ⟨binary_bufs_sub .., rfl⟩, ⟨nullary_bufs_sub .., rfl⟩, ⟨binary_bufs_sub .., rfl⟩, ⟨binary_bufs_sub .., rfl⟩, ⟨unary_bufs_sub .., rfl⟩, ⟨nullary_bufs_sub .., rfl⟩, ⟨unary_bufs_sub .., rfl⟩, ⟨ternary_bufs_sub .., rfl⟩⟩

theorem field18_writes : (fieldP18 : List (HloOp τ sig (Elt F))).Forall fun op => op.writes ⊆ (fieldW18.map (Proc.devRef (τ := τ) .tc)).toFinset := by
  unfold fieldP18
  simp only [List.Forall]
  exact ⟨by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem⟩

/-- A buffer field 18 does not write keeps its contents through it. -/
theorem field18_keep (W : Valuation τ sig (Elt F)) (r : Ref sig .tc) (h : r ∉ fieldW18) :
    after fieldP18 W (Proc.devRef .tc r) = W (Proc.devRef .tc r) :=
  after_of_writes_sub fieldP18 W field18_writes h

/-- What field 18 leaves in its result buffer: the field's function of the two arguments' contents. -/
theorem field18_res (W : Valuation τ sig (Elt F)) :
    after fieldP18 W (Proc.devRef .tc main_v94) = RefFn.field18 (W (Proc.devRef .tc main_arg0)) (W (Proc.devRef .tc main_arg1)) := by
  unfold fieldP18
  after_results_simp
  rfl

/-! ### Field 19 -/

/-- Field 19 as the program states it: the two slices and reshapes, then the call's operations over its typed buffers. -/
def fieldT19 : List (HloOp τ sig (Elt F)) :=
  unary main_arg0 main_v95 ((extractStridedSlice S16384x1 ![0, 19] · slices_S16384x26_S16384x1_0_19) : (⟨S16384x26, .i32⟩ : BufTy).Contents (Elt F) → (⟨S16384x1, .i32⟩ : BufTy).Contents (Elt F)) ::
  reshape main_v95 main_v96 rfl shapeCasts_S16384x1_S16384 ::
  unary main_arg1 main_v97 ((extractStridedSlice S1x100000x32 ![19, 0, 0] · slices_S26x100000x32_S1x100000x32_19_0_0) : (⟨S26x100000x32, .f32⟩ : BufTy).Contents (Elt F) → (⟨S1x100000x32, .f32⟩ : BufTy).Contents (Elt F)) ::
  reshape main_v97 main_v98 rfl shapeCasts_S1x100000x32_S100000x32 ::
  takeOpsT (.of main_v98) (.of main_v96) main_call19

/-- The same 28 operations at the buffers themselves. -/
def fieldP19 : List (HloOp τ sig (Elt F)) :=
  [ unary main_arg0 main_v95 ((extractStridedSlice S16384x1 ![0, 19] · slices_S16384x26_S16384x1_0_19) : (⟨S16384x26, .i32⟩ : BufTy).Contents (Elt F) → (⟨S16384x1, .i32⟩ : BufTy).Contents (Elt F)),
    reshape main_v95 main_v96 rfl shapeCasts_S16384x1_S16384,
    unary main_arg1 main_v97 ((extractStridedSlice S1x100000x32 ![19, 0, 0] · slices_S26x100000x32_S1x100000x32_19_0_0) : (⟨S26x100000x32, .f32⟩ : BufTy).Contents (Elt F) → (⟨S1x100000x32, .f32⟩ : BufTy).Contents (Elt F)),
    reshape main_v97 main_v98 rfl shapeCasts_S1x100000x32_S100000x32,
    nullary main_call19_c (constantI S_ 32 0#32 : (⟨S_, .i32⟩ : BufTy).Contents (Elt F)),
    unary main_call19_c main_call19_v0 (broadcastInDim S16384 ![] bcast_S_S16384 : (⟨S_, .i32⟩ : BufTy).Contents (Elt F) → (⟨S16384, .i32⟩ : BufTy).Contents (Elt F)),
    binary main_v96 main_call19_v0 main_call19_v1 (cmpi .slt : (⟨S16384, .i32⟩ : BufTy).Contents (Elt F) → (⟨S16384, .i32⟩ : BufTy).Contents (Elt F) → (⟨S16384, .i1⟩ : BufTy).Contents (Elt F)),
    nullary main_call19_c_0 (constantI S_ 32 100000#32 : (⟨S_, .i32⟩ : BufTy).Contents (Elt F)),
    unary main_call19_c_0 main_call19_v2 (broadcastInDim S16384 ![] bcast_S_S16384 : (⟨S_, .i32⟩ : BufTy).Contents (Elt F) → (⟨S16384, .i32⟩ : BufTy).Contents (Elt F)),
    binary main_v96 main_call19_v2 main_call19_v3 (addi : (⟨S16384, .i32⟩ : BufTy).Contents (Elt F) → (⟨S16384, .i32⟩ : BufTy).Contents (Elt F) → (⟨S16384, .i32⟩ : BufTy).Contents (Elt F)),
    ternary main_call19_v1 main_call19_v3 main_v96 main_call19_v4 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_call19_v4 main_call19_v5 (broadcastInDim S16384x1 ![0] bcast_S16384_S16384x1_0 : (⟨S16384, .i32⟩ : BufTy).Contents (Elt F) → (⟨S16384x1, .i32⟩ : BufTy).Contents (Elt F)),
    nullary main_call19_c_1 (constantI S1 32 99999#32 : (⟨S1, .i32⟩ : BufTy).Contents (Elt F)),
    nullary main_call19_c_2 (constantI S_ 32 0#32 : (⟨S_, .i32⟩ : BufTy).Contents (Elt F)),
    unary main_call19_c_2 main_call19_v6 (broadcastInDim S16384x1 ![] bcast_S_S16384x1 : (⟨S_, .i32⟩ : BufTy).Contents (Elt F) → (⟨S16384x1, .i32⟩ : BufTy).Contents (Elt F)),
    binary main_call19_v5 main_call19_v6 main_call19_v7 (cmpi .sge : (⟨S16384x1, .i32⟩ : BufTy).Contents (Elt F) → (⟨S16384x1, .i32⟩ : BufTy).Contents (Elt F) → (⟨S16384x1, .i1⟩ : BufTy).Contents (Elt F)),
    unary main_call19_c_1 main_call19_v8 (broadcastInDim S1x1 ![1] bcast_S1_S1x1_1 : (⟨S1, .i32⟩ : BufTy).Contents (Elt F) → (⟨S1x1, .i32⟩ : BufTy).Contents (Elt F)),
    unary main_call19_v8 main_call19_v9 (broadcastInDim S16384x1 ![0, 1] bcast_S1x1_S16384x1_0_1 : (⟨S1x1, .i32⟩ : BufTy).Contents (Elt F) → (⟨S16384x1, .i32⟩ : BufTy).Contents (Elt F)),
    binary main_call19_v5 main_call19_v9 main_call19_v10 (cmpi .sle : (⟨S16384x1, .i32⟩ : BufTy).Contents (Elt F) → (⟨S16384x1, .i32⟩ : BufTy).Contents (Elt F) → (⟨S16384x1, .i1⟩ : BufTy).Contents (Elt F)),
    binary main_call19_v7 main_call19_v10 main_call19_v11 (andi : (⟨S16384x1, .i1⟩ : BufTy).Contents (Elt F) → (⟨S16384x1, .i1⟩ : BufTy).Contents (Elt F) → (⟨S16384x1, .i1⟩ : BufTy).Contents (Elt F)),
    nullary main_call19_c_3 (constantI S_ 1 1#1 : (⟨S_, .i1⟩ : BufTy).Contents (Elt F)),
    binary main_call19_v11 main_call19_c_3 main_call19_v12 (fun x v => Host.reduce IntOp.andi x v reducesTo_S16384x1_S16384_d1 h_S_ : (⟨S16384x1, .i1⟩ : BufTy).Contents (Elt F) → (⟨S_, .i1⟩ : BufTy).Contents (Elt F) → (⟨S16384, .i1⟩ : BufTy).Contents (Elt F)),
    binary main_v98 main_call19_v5 main_call19_v13 (fun x i => Host.gather gather_S100000x32_S16384x1_S16384x32_1_0_n_n_0_1_132 x i : (⟨S100000x32, .f32⟩ : BufTy).Contents (Elt F) → (⟨S16384x1, .i32⟩ : BufTy).Contents (Elt F) → (⟨S16384x32, .f32⟩ : BufTy).Contents (Elt F)),
    unary main_call19_v12 main_call19_v14 (broadcastInDim S16384x32 ![0] bcast_S16384_S16384x32_0 : (⟨S16384, .i1⟩ : BufTy).Contents (Elt F) → (⟨S16384x32, .i1⟩ : BufTy).Contents (Elt F)),
    nullary main_call19_cst (constant S_ .f32 0x7FC00000#32 : (⟨S_, .f32⟩ : BufTy).Contents (Elt F)),
    unary main_call19_cst main_call19_v15 (broadcastInDim S16384x32 ![] bcast_S_S16384x32 : (⟨S_, .f32⟩ : BufTy).Contents (Elt F) → (⟨S16384x32, .f32⟩ : BufTy).Contents (Elt F)),
    ternary main_call19_v14 main_call19_v13 main_call19_v15 main_v99 (select : (⟨S16384x32, .i1⟩ : BufTy).Contents (Elt F) → (⟨S16384x32, .f32⟩ : BufTy).Contents (Elt F) → (⟨S16384x32, .f32⟩ : BufTy).Contents (Elt F) → (⟨S16384x32, .f32⟩ : BufTy).Contents (Elt F)) ]

/-- The buffers field 19 writes. -/
abbrev fieldW19 : List (Ref sig .tc) := [main_v95, main_v96, main_v97, main_v98, main_call19_c, main_call19_v0, main_call19_v1, main_call19_c_0, main_call19_v2, main_call19_v3, main_call19_v4, main_call19_v5, main_call19_c_1, main_call19_c_2, main_call19_v6, main_call19_v7, main_call19_v8, main_call19_v9, main_call19_v10, main_call19_v11, main_call19_c_3, main_call19_v12, main_call19_v13, main_call19_v14, main_call19_cst, main_call19_v15, main_v99]

theorem fieldT19_eq : (fieldT19 : List (HloOp τ sig (Elt F))) = fieldP19 := by
  unfold fieldT19 fieldP19 takeOpsT
  ops_entries

theorem field19_ok : (fieldP19 : List (HloOp τ sig (Elt F))).Forall fun op => op.bufs ⊆ tcRefs τ sig ∧ op.fresh = ∅ := by
  unfold fieldP19
  exact ⟨⟨unary_bufs_sub .., rfl⟩, ⟨reshape_bufs_sub .., rfl⟩, ⟨unary_bufs_sub .., rfl⟩, ⟨reshape_bufs_sub .., rfl⟩, ⟨nullary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨ternary_bufs_sub .., rfl⟩, ⟨unary_bufs_sub .., rfl⟩, ⟨nullary_bufs_sub .., rfl⟩, ⟨nullary_bufs_sub .., rfl⟩, ⟨unary_bufs_sub .., rfl⟩, ⟨binary_bufs_sub .., rfl⟩, ⟨unary_bufs_sub .., rfl⟩, ⟨unary_bufs_sub .., rfl⟩, ⟨binary_bufs_sub .., rfl⟩, ⟨binary_bufs_sub .., rfl⟩, ⟨nullary_bufs_sub .., rfl⟩, ⟨binary_bufs_sub .., rfl⟩, ⟨binary_bufs_sub .., rfl⟩, ⟨unary_bufs_sub .., rfl⟩, ⟨nullary_bufs_sub .., rfl⟩, ⟨unary_bufs_sub .., rfl⟩, ⟨ternary_bufs_sub .., rfl⟩⟩

theorem field19_writes : (fieldP19 : List (HloOp τ sig (Elt F))).Forall fun op => op.writes ⊆ (fieldW19.map (Proc.devRef (τ := τ) .tc)).toFinset := by
  unfold fieldP19
  simp only [List.Forall]
  exact ⟨by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem⟩

/-- A buffer field 19 does not write keeps its contents through it. -/
theorem field19_keep (W : Valuation τ sig (Elt F)) (r : Ref sig .tc) (h : r ∉ fieldW19) :
    after fieldP19 W (Proc.devRef .tc r) = W (Proc.devRef .tc r) :=
  after_of_writes_sub fieldP19 W field19_writes h

/-- What field 19 leaves in its result buffer: the field's function of the two arguments' contents. -/
theorem field19_res (W : Valuation τ sig (Elt F)) :
    after fieldP19 W (Proc.devRef .tc main_v99) = RefFn.field19 (W (Proc.devRef .tc main_arg0)) (W (Proc.devRef .tc main_arg1)) := by
  unfold fieldP19
  after_results_simp
  rfl

/-! ### Field 20 -/

/-- Field 20 as the program states it: the two slices and reshapes, then the call's operations over its typed buffers. -/
def fieldT20 : List (HloOp τ sig (Elt F)) :=
  unary main_arg0 main_v100 ((extractStridedSlice S16384x1 ![0, 20] · slices_S16384x26_S16384x1_0_20) : (⟨S16384x26, .i32⟩ : BufTy).Contents (Elt F) → (⟨S16384x1, .i32⟩ : BufTy).Contents (Elt F)) ::
  reshape main_v100 main_v101 rfl shapeCasts_S16384x1_S16384 ::
  unary main_arg1 main_v102 ((extractStridedSlice S1x100000x32 ![20, 0, 0] · slices_S26x100000x32_S1x100000x32_20_0_0) : (⟨S26x100000x32, .f32⟩ : BufTy).Contents (Elt F) → (⟨S1x100000x32, .f32⟩ : BufTy).Contents (Elt F)) ::
  reshape main_v102 main_v103 rfl shapeCasts_S1x100000x32_S100000x32 ::
  takeOpsT (.of main_v103) (.of main_v101) main_call20

/-- The same 28 operations at the buffers themselves. -/
def fieldP20 : List (HloOp τ sig (Elt F)) :=
  [ unary main_arg0 main_v100 ((extractStridedSlice S16384x1 ![0, 20] · slices_S16384x26_S16384x1_0_20) : (⟨S16384x26, .i32⟩ : BufTy).Contents (Elt F) → (⟨S16384x1, .i32⟩ : BufTy).Contents (Elt F)),
    reshape main_v100 main_v101 rfl shapeCasts_S16384x1_S16384,
    unary main_arg1 main_v102 ((extractStridedSlice S1x100000x32 ![20, 0, 0] · slices_S26x100000x32_S1x100000x32_20_0_0) : (⟨S26x100000x32, .f32⟩ : BufTy).Contents (Elt F) → (⟨S1x100000x32, .f32⟩ : BufTy).Contents (Elt F)),
    reshape main_v102 main_v103 rfl shapeCasts_S1x100000x32_S100000x32,
    nullary main_call20_c (constantI S_ 32 0#32 : (⟨S_, .i32⟩ : BufTy).Contents (Elt F)),
    unary main_call20_c main_call20_v0 (broadcastInDim S16384 ![] bcast_S_S16384 : (⟨S_, .i32⟩ : BufTy).Contents (Elt F) → (⟨S16384, .i32⟩ : BufTy).Contents (Elt F)),
    binary main_v101 main_call20_v0 main_call20_v1 (cmpi .slt : (⟨S16384, .i32⟩ : BufTy).Contents (Elt F) → (⟨S16384, .i32⟩ : BufTy).Contents (Elt F) → (⟨S16384, .i1⟩ : BufTy).Contents (Elt F)),
    nullary main_call20_c_0 (constantI S_ 32 100000#32 : (⟨S_, .i32⟩ : BufTy).Contents (Elt F)),
    unary main_call20_c_0 main_call20_v2 (broadcastInDim S16384 ![] bcast_S_S16384 : (⟨S_, .i32⟩ : BufTy).Contents (Elt F) → (⟨S16384, .i32⟩ : BufTy).Contents (Elt F)),
    binary main_v101 main_call20_v2 main_call20_v3 (addi : (⟨S16384, .i32⟩ : BufTy).Contents (Elt F) → (⟨S16384, .i32⟩ : BufTy).Contents (Elt F) → (⟨S16384, .i32⟩ : BufTy).Contents (Elt F)),
    ternary main_call20_v1 main_call20_v3 main_v101 main_call20_v4 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_call20_v4 main_call20_v5 (broadcastInDim S16384x1 ![0] bcast_S16384_S16384x1_0 : (⟨S16384, .i32⟩ : BufTy).Contents (Elt F) → (⟨S16384x1, .i32⟩ : BufTy).Contents (Elt F)),
    nullary main_call20_c_1 (constantI S1 32 99999#32 : (⟨S1, .i32⟩ : BufTy).Contents (Elt F)),
    nullary main_call20_c_2 (constantI S_ 32 0#32 : (⟨S_, .i32⟩ : BufTy).Contents (Elt F)),
    unary main_call20_c_2 main_call20_v6 (broadcastInDim S16384x1 ![] bcast_S_S16384x1 : (⟨S_, .i32⟩ : BufTy).Contents (Elt F) → (⟨S16384x1, .i32⟩ : BufTy).Contents (Elt F)),
    binary main_call20_v5 main_call20_v6 main_call20_v7 (cmpi .sge : (⟨S16384x1, .i32⟩ : BufTy).Contents (Elt F) → (⟨S16384x1, .i32⟩ : BufTy).Contents (Elt F) → (⟨S16384x1, .i1⟩ : BufTy).Contents (Elt F)),
    unary main_call20_c_1 main_call20_v8 (broadcastInDim S1x1 ![1] bcast_S1_S1x1_1 : (⟨S1, .i32⟩ : BufTy).Contents (Elt F) → (⟨S1x1, .i32⟩ : BufTy).Contents (Elt F)),
    unary main_call20_v8 main_call20_v9 (broadcastInDim S16384x1 ![0, 1] bcast_S1x1_S16384x1_0_1 : (⟨S1x1, .i32⟩ : BufTy).Contents (Elt F) → (⟨S16384x1, .i32⟩ : BufTy).Contents (Elt F)),
    binary main_call20_v5 main_call20_v9 main_call20_v10 (cmpi .sle : (⟨S16384x1, .i32⟩ : BufTy).Contents (Elt F) → (⟨S16384x1, .i32⟩ : BufTy).Contents (Elt F) → (⟨S16384x1, .i1⟩ : BufTy).Contents (Elt F)),
    binary main_call20_v7 main_call20_v10 main_call20_v11 (andi : (⟨S16384x1, .i1⟩ : BufTy).Contents (Elt F) → (⟨S16384x1, .i1⟩ : BufTy).Contents (Elt F) → (⟨S16384x1, .i1⟩ : BufTy).Contents (Elt F)),
    nullary main_call20_c_3 (constantI S_ 1 1#1 : (⟨S_, .i1⟩ : BufTy).Contents (Elt F)),
    binary main_call20_v11 main_call20_c_3 main_call20_v12 (fun x v => Host.reduce IntOp.andi x v reducesTo_S16384x1_S16384_d1 h_S_ : (⟨S16384x1, .i1⟩ : BufTy).Contents (Elt F) → (⟨S_, .i1⟩ : BufTy).Contents (Elt F) → (⟨S16384, .i1⟩ : BufTy).Contents (Elt F)),
    binary main_v103 main_call20_v5 main_call20_v13 (fun x i => Host.gather gather_S100000x32_S16384x1_S16384x32_1_0_n_n_0_1_132 x i : (⟨S100000x32, .f32⟩ : BufTy).Contents (Elt F) → (⟨S16384x1, .i32⟩ : BufTy).Contents (Elt F) → (⟨S16384x32, .f32⟩ : BufTy).Contents (Elt F)),
    unary main_call20_v12 main_call20_v14 (broadcastInDim S16384x32 ![0] bcast_S16384_S16384x32_0 : (⟨S16384, .i1⟩ : BufTy).Contents (Elt F) → (⟨S16384x32, .i1⟩ : BufTy).Contents (Elt F)),
    nullary main_call20_cst (constant S_ .f32 0x7FC00000#32 : (⟨S_, .f32⟩ : BufTy).Contents (Elt F)),
    unary main_call20_cst main_call20_v15 (broadcastInDim S16384x32 ![] bcast_S_S16384x32 : (⟨S_, .f32⟩ : BufTy).Contents (Elt F) → (⟨S16384x32, .f32⟩ : BufTy).Contents (Elt F)),
    ternary main_call20_v14 main_call20_v13 main_call20_v15 main_v104 (select : (⟨S16384x32, .i1⟩ : BufTy).Contents (Elt F) → (⟨S16384x32, .f32⟩ : BufTy).Contents (Elt F) → (⟨S16384x32, .f32⟩ : BufTy).Contents (Elt F) → (⟨S16384x32, .f32⟩ : BufTy).Contents (Elt F)) ]

/-- The buffers field 20 writes. -/
abbrev fieldW20 : List (Ref sig .tc) := [main_v100, main_v101, main_v102, main_v103, main_call20_c, main_call20_v0, main_call20_v1, main_call20_c_0, main_call20_v2, main_call20_v3, main_call20_v4, main_call20_v5, main_call20_c_1, main_call20_c_2, main_call20_v6, main_call20_v7, main_call20_v8, main_call20_v9, main_call20_v10, main_call20_v11, main_call20_c_3, main_call20_v12, main_call20_v13, main_call20_v14, main_call20_cst, main_call20_v15, main_v104]

theorem fieldT20_eq : (fieldT20 : List (HloOp τ sig (Elt F))) = fieldP20 := by
  unfold fieldT20 fieldP20 takeOpsT
  ops_entries

theorem field20_ok : (fieldP20 : List (HloOp τ sig (Elt F))).Forall fun op => op.bufs ⊆ tcRefs τ sig ∧ op.fresh = ∅ := by
  unfold fieldP20
  exact ⟨⟨unary_bufs_sub .., rfl⟩, ⟨reshape_bufs_sub .., rfl⟩, ⟨unary_bufs_sub .., rfl⟩, ⟨reshape_bufs_sub .., rfl⟩, ⟨nullary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨ternary_bufs_sub .., rfl⟩, ⟨unary_bufs_sub .., rfl⟩, ⟨nullary_bufs_sub .., rfl⟩, ⟨nullary_bufs_sub .., rfl⟩, ⟨unary_bufs_sub .., rfl⟩, ⟨binary_bufs_sub .., rfl⟩, ⟨unary_bufs_sub .., rfl⟩, ⟨unary_bufs_sub .., rfl⟩, ⟨binary_bufs_sub .., rfl⟩, ⟨binary_bufs_sub .., rfl⟩, ⟨nullary_bufs_sub .., rfl⟩, ⟨binary_bufs_sub .., rfl⟩, ⟨binary_bufs_sub .., rfl⟩, ⟨unary_bufs_sub .., rfl⟩, ⟨nullary_bufs_sub .., rfl⟩, ⟨unary_bufs_sub .., rfl⟩, ⟨ternary_bufs_sub .., rfl⟩⟩

theorem field20_writes : (fieldP20 : List (HloOp τ sig (Elt F))).Forall fun op => op.writes ⊆ (fieldW20.map (Proc.devRef (τ := τ) .tc)).toFinset := by
  unfold fieldP20
  simp only [List.Forall]
  exact ⟨by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem⟩

/-- A buffer field 20 does not write keeps its contents through it. -/
theorem field20_keep (W : Valuation τ sig (Elt F)) (r : Ref sig .tc) (h : r ∉ fieldW20) :
    after fieldP20 W (Proc.devRef .tc r) = W (Proc.devRef .tc r) :=
  after_of_writes_sub fieldP20 W field20_writes h

/-- What field 20 leaves in its result buffer: the field's function of the two arguments' contents. -/
theorem field20_res (W : Valuation τ sig (Elt F)) :
    after fieldP20 W (Proc.devRef .tc main_v104) = RefFn.field20 (W (Proc.devRef .tc main_arg0)) (W (Proc.devRef .tc main_arg1)) := by
  unfold fieldP20
  after_results_simp
  rfl

/-! ### Field 21 -/

/-- Field 21 as the program states it: the two slices and reshapes, then the call's operations over its typed buffers. -/
def fieldT21 : List (HloOp τ sig (Elt F)) :=
  unary main_arg0 main_v105 ((extractStridedSlice S16384x1 ![0, 21] · slices_S16384x26_S16384x1_0_21) : (⟨S16384x26, .i32⟩ : BufTy).Contents (Elt F) → (⟨S16384x1, .i32⟩ : BufTy).Contents (Elt F)) ::
  reshape main_v105 main_v106 rfl shapeCasts_S16384x1_S16384 ::
  unary main_arg1 main_v107 ((extractStridedSlice S1x100000x32 ![21, 0, 0] · slices_S26x100000x32_S1x100000x32_21_0_0) : (⟨S26x100000x32, .f32⟩ : BufTy).Contents (Elt F) → (⟨S1x100000x32, .f32⟩ : BufTy).Contents (Elt F)) ::
  reshape main_v107 main_v108 rfl shapeCasts_S1x100000x32_S100000x32 ::
  takeOpsT (.of main_v108) (.of main_v106) main_call21

/-- The same 28 operations at the buffers themselves. -/
def fieldP21 : List (HloOp τ sig (Elt F)) :=
  [ unary main_arg0 main_v105 ((extractStridedSlice S16384x1 ![0, 21] · slices_S16384x26_S16384x1_0_21) : (⟨S16384x26, .i32⟩ : BufTy).Contents (Elt F) → (⟨S16384x1, .i32⟩ : BufTy).Contents (Elt F)),
    reshape main_v105 main_v106 rfl shapeCasts_S16384x1_S16384,
    unary main_arg1 main_v107 ((extractStridedSlice S1x100000x32 ![21, 0, 0] · slices_S26x100000x32_S1x100000x32_21_0_0) : (⟨S26x100000x32, .f32⟩ : BufTy).Contents (Elt F) → (⟨S1x100000x32, .f32⟩ : BufTy).Contents (Elt F)),
    reshape main_v107 main_v108 rfl shapeCasts_S1x100000x32_S100000x32,
    nullary main_call21_c (constantI S_ 32 0#32 : (⟨S_, .i32⟩ : BufTy).Contents (Elt F)),
    unary main_call21_c main_call21_v0 (broadcastInDim S16384 ![] bcast_S_S16384 : (⟨S_, .i32⟩ : BufTy).Contents (Elt F) → (⟨S16384, .i32⟩ : BufTy).Contents (Elt F)),
    binary main_v106 main_call21_v0 main_call21_v1 (cmpi .slt : (⟨S16384, .i32⟩ : BufTy).Contents (Elt F) → (⟨S16384, .i32⟩ : BufTy).Contents (Elt F) → (⟨S16384, .i1⟩ : BufTy).Contents (Elt F)),
    nullary main_call21_c_0 (constantI S_ 32 100000#32 : (⟨S_, .i32⟩ : BufTy).Contents (Elt F)),
    unary main_call21_c_0 main_call21_v2 (broadcastInDim S16384 ![] bcast_S_S16384 : (⟨S_, .i32⟩ : BufTy).Contents (Elt F) → (⟨S16384, .i32⟩ : BufTy).Contents (Elt F)),
    binary main_v106 main_call21_v2 main_call21_v3 (addi : (⟨S16384, .i32⟩ : BufTy).Contents (Elt F) → (⟨S16384, .i32⟩ : BufTy).Contents (Elt F) → (⟨S16384, .i32⟩ : BufTy).Contents (Elt F)),
    ternary main_call21_v1 main_call21_v3 main_v106 main_call21_v4 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_call21_v4 main_call21_v5 (broadcastInDim S16384x1 ![0] bcast_S16384_S16384x1_0 : (⟨S16384, .i32⟩ : BufTy).Contents (Elt F) → (⟨S16384x1, .i32⟩ : BufTy).Contents (Elt F)),
    nullary main_call21_c_1 (constantI S1 32 99999#32 : (⟨S1, .i32⟩ : BufTy).Contents (Elt F)),
    nullary main_call21_c_2 (constantI S_ 32 0#32 : (⟨S_, .i32⟩ : BufTy).Contents (Elt F)),
    unary main_call21_c_2 main_call21_v6 (broadcastInDim S16384x1 ![] bcast_S_S16384x1 : (⟨S_, .i32⟩ : BufTy).Contents (Elt F) → (⟨S16384x1, .i32⟩ : BufTy).Contents (Elt F)),
    binary main_call21_v5 main_call21_v6 main_call21_v7 (cmpi .sge : (⟨S16384x1, .i32⟩ : BufTy).Contents (Elt F) → (⟨S16384x1, .i32⟩ : BufTy).Contents (Elt F) → (⟨S16384x1, .i1⟩ : BufTy).Contents (Elt F)),
    unary main_call21_c_1 main_call21_v8 (broadcastInDim S1x1 ![1] bcast_S1_S1x1_1 : (⟨S1, .i32⟩ : BufTy).Contents (Elt F) → (⟨S1x1, .i32⟩ : BufTy).Contents (Elt F)),
    unary main_call21_v8 main_call21_v9 (broadcastInDim S16384x1 ![0, 1] bcast_S1x1_S16384x1_0_1 : (⟨S1x1, .i32⟩ : BufTy).Contents (Elt F) → (⟨S16384x1, .i32⟩ : BufTy).Contents (Elt F)),
    binary main_call21_v5 main_call21_v9 main_call21_v10 (cmpi .sle : (⟨S16384x1, .i32⟩ : BufTy).Contents (Elt F) → (⟨S16384x1, .i32⟩ : BufTy).Contents (Elt F) → (⟨S16384x1, .i1⟩ : BufTy).Contents (Elt F)),
    binary main_call21_v7 main_call21_v10 main_call21_v11 (andi : (⟨S16384x1, .i1⟩ : BufTy).Contents (Elt F) → (⟨S16384x1, .i1⟩ : BufTy).Contents (Elt F) → (⟨S16384x1, .i1⟩ : BufTy).Contents (Elt F)),
    nullary main_call21_c_3 (constantI S_ 1 1#1 : (⟨S_, .i1⟩ : BufTy).Contents (Elt F)),
    binary main_call21_v11 main_call21_c_3 main_call21_v12 (fun x v => Host.reduce IntOp.andi x v reducesTo_S16384x1_S16384_d1 h_S_ : (⟨S16384x1, .i1⟩ : BufTy).Contents (Elt F) → (⟨S_, .i1⟩ : BufTy).Contents (Elt F) → (⟨S16384, .i1⟩ : BufTy).Contents (Elt F)),
    binary main_v108 main_call21_v5 main_call21_v13 (fun x i => Host.gather gather_S100000x32_S16384x1_S16384x32_1_0_n_n_0_1_132 x i : (⟨S100000x32, .f32⟩ : BufTy).Contents (Elt F) → (⟨S16384x1, .i32⟩ : BufTy).Contents (Elt F) → (⟨S16384x32, .f32⟩ : BufTy).Contents (Elt F)),
    unary main_call21_v12 main_call21_v14 (broadcastInDim S16384x32 ![0] bcast_S16384_S16384x32_0 : (⟨S16384, .i1⟩ : BufTy).Contents (Elt F) → (⟨S16384x32, .i1⟩ : BufTy).Contents (Elt F)),
    nullary main_call21_cst (constant S_ .f32 0x7FC00000#32 : (⟨S_, .f32⟩ : BufTy).Contents (Elt F)),
    unary main_call21_cst main_call21_v15 (broadcastInDim S16384x32 ![] bcast_S_S16384x32 : (⟨S_, .f32⟩ : BufTy).Contents (Elt F) → (⟨S16384x32, .f32⟩ : BufTy).Contents (Elt F)),
    ternary main_call21_v14 main_call21_v13 main_call21_v15 main_v109 (select : (⟨S16384x32, .i1⟩ : BufTy).Contents (Elt F) → (⟨S16384x32, .f32⟩ : BufTy).Contents (Elt F) → (⟨S16384x32, .f32⟩ : BufTy).Contents (Elt F) → (⟨S16384x32, .f32⟩ : BufTy).Contents (Elt F)) ]

/-- The buffers field 21 writes. -/
abbrev fieldW21 : List (Ref sig .tc) := [main_v105, main_v106, main_v107, main_v108, main_call21_c, main_call21_v0, main_call21_v1, main_call21_c_0, main_call21_v2, main_call21_v3, main_call21_v4, main_call21_v5, main_call21_c_1, main_call21_c_2, main_call21_v6, main_call21_v7, main_call21_v8, main_call21_v9, main_call21_v10, main_call21_v11, main_call21_c_3, main_call21_v12, main_call21_v13, main_call21_v14, main_call21_cst, main_call21_v15, main_v109]

theorem fieldT21_eq : (fieldT21 : List (HloOp τ sig (Elt F))) = fieldP21 := by
  unfold fieldT21 fieldP21 takeOpsT
  ops_entries

theorem field21_ok : (fieldP21 : List (HloOp τ sig (Elt F))).Forall fun op => op.bufs ⊆ tcRefs τ sig ∧ op.fresh = ∅ := by
  unfold fieldP21
  exact ⟨⟨unary_bufs_sub .., rfl⟩, ⟨reshape_bufs_sub .., rfl⟩, ⟨unary_bufs_sub .., rfl⟩, ⟨reshape_bufs_sub .., rfl⟩, ⟨nullary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨ternary_bufs_sub .., rfl⟩, ⟨unary_bufs_sub .., rfl⟩, ⟨nullary_bufs_sub .., rfl⟩, ⟨nullary_bufs_sub .., rfl⟩, ⟨unary_bufs_sub .., rfl⟩, ⟨binary_bufs_sub .., rfl⟩, ⟨unary_bufs_sub .., rfl⟩, ⟨unary_bufs_sub .., rfl⟩, ⟨binary_bufs_sub .., rfl⟩, ⟨binary_bufs_sub .., rfl⟩, ⟨nullary_bufs_sub .., rfl⟩, ⟨binary_bufs_sub .., rfl⟩, ⟨binary_bufs_sub .., rfl⟩, ⟨unary_bufs_sub .., rfl⟩, ⟨nullary_bufs_sub .., rfl⟩, ⟨unary_bufs_sub .., rfl⟩, ⟨ternary_bufs_sub .., rfl⟩⟩

theorem field21_writes : (fieldP21 : List (HloOp τ sig (Elt F))).Forall fun op => op.writes ⊆ (fieldW21.map (Proc.devRef (τ := τ) .tc)).toFinset := by
  unfold fieldP21
  simp only [List.Forall]
  exact ⟨by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem⟩

/-- A buffer field 21 does not write keeps its contents through it. -/
theorem field21_keep (W : Valuation τ sig (Elt F)) (r : Ref sig .tc) (h : r ∉ fieldW21) :
    after fieldP21 W (Proc.devRef .tc r) = W (Proc.devRef .tc r) :=
  after_of_writes_sub fieldP21 W field21_writes h

/-- What field 21 leaves in its result buffer: the field's function of the two arguments' contents. -/
theorem field21_res (W : Valuation τ sig (Elt F)) :
    after fieldP21 W (Proc.devRef .tc main_v109) = RefFn.field21 (W (Proc.devRef .tc main_arg0)) (W (Proc.devRef .tc main_arg1)) := by
  unfold fieldP21
  after_results_simp
  rfl

/-! ### Field 22 -/

/-- Field 22 as the program states it: the two slices and reshapes, then the call's operations over its typed buffers. -/
def fieldT22 : List (HloOp τ sig (Elt F)) :=
  unary main_arg0 main_v110 ((extractStridedSlice S16384x1 ![0, 22] · slices_S16384x26_S16384x1_0_22) : (⟨S16384x26, .i32⟩ : BufTy).Contents (Elt F) → (⟨S16384x1, .i32⟩ : BufTy).Contents (Elt F)) ::
  reshape main_v110 main_v111 rfl shapeCasts_S16384x1_S16384 ::
  unary main_arg1 main_v112 ((extractStridedSlice S1x100000x32 ![22, 0, 0] · slices_S26x100000x32_S1x100000x32_22_0_0) : (⟨S26x100000x32, .f32⟩ : BufTy).Contents (Elt F) → (⟨S1x100000x32, .f32⟩ : BufTy).Contents (Elt F)) ::
  reshape main_v112 main_v113 rfl shapeCasts_S1x100000x32_S100000x32 ::
  takeOpsT (.of main_v113) (.of main_v111) main_call22

/-- The same 28 operations at the buffers themselves. -/
def fieldP22 : List (HloOp τ sig (Elt F)) :=
  [ unary main_arg0 main_v110 ((extractStridedSlice S16384x1 ![0, 22] · slices_S16384x26_S16384x1_0_22) : (⟨S16384x26, .i32⟩ : BufTy).Contents (Elt F) → (⟨S16384x1, .i32⟩ : BufTy).Contents (Elt F)),
    reshape main_v110 main_v111 rfl shapeCasts_S16384x1_S16384,
    unary main_arg1 main_v112 ((extractStridedSlice S1x100000x32 ![22, 0, 0] · slices_S26x100000x32_S1x100000x32_22_0_0) : (⟨S26x100000x32, .f32⟩ : BufTy).Contents (Elt F) → (⟨S1x100000x32, .f32⟩ : BufTy).Contents (Elt F)),
    reshape main_v112 main_v113 rfl shapeCasts_S1x100000x32_S100000x32,
    nullary main_call22_c (constantI S_ 32 0#32 : (⟨S_, .i32⟩ : BufTy).Contents (Elt F)),
    unary main_call22_c main_call22_v0 (broadcastInDim S16384 ![] bcast_S_S16384 : (⟨S_, .i32⟩ : BufTy).Contents (Elt F) → (⟨S16384, .i32⟩ : BufTy).Contents (Elt F)),
    binary main_v111 main_call22_v0 main_call22_v1 (cmpi .slt : (⟨S16384, .i32⟩ : BufTy).Contents (Elt F) → (⟨S16384, .i32⟩ : BufTy).Contents (Elt F) → (⟨S16384, .i1⟩ : BufTy).Contents (Elt F)),
    nullary main_call22_c_0 (constantI S_ 32 100000#32 : (⟨S_, .i32⟩ : BufTy).Contents (Elt F)),
    unary main_call22_c_0 main_call22_v2 (broadcastInDim S16384 ![] bcast_S_S16384 : (⟨S_, .i32⟩ : BufTy).Contents (Elt F) → (⟨S16384, .i32⟩ : BufTy).Contents (Elt F)),
    binary main_v111 main_call22_v2 main_call22_v3 (addi : (⟨S16384, .i32⟩ : BufTy).Contents (Elt F) → (⟨S16384, .i32⟩ : BufTy).Contents (Elt F) → (⟨S16384, .i32⟩ : BufTy).Contents (Elt F)),
    ternary main_call22_v1 main_call22_v3 main_v111 main_call22_v4 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_call22_v4 main_call22_v5 (broadcastInDim S16384x1 ![0] bcast_S16384_S16384x1_0 : (⟨S16384, .i32⟩ : BufTy).Contents (Elt F) → (⟨S16384x1, .i32⟩ : BufTy).Contents (Elt F)),
    nullary main_call22_c_1 (constantI S1 32 99999#32 : (⟨S1, .i32⟩ : BufTy).Contents (Elt F)),
    nullary main_call22_c_2 (constantI S_ 32 0#32 : (⟨S_, .i32⟩ : BufTy).Contents (Elt F)),
    unary main_call22_c_2 main_call22_v6 (broadcastInDim S16384x1 ![] bcast_S_S16384x1 : (⟨S_, .i32⟩ : BufTy).Contents (Elt F) → (⟨S16384x1, .i32⟩ : BufTy).Contents (Elt F)),
    binary main_call22_v5 main_call22_v6 main_call22_v7 (cmpi .sge : (⟨S16384x1, .i32⟩ : BufTy).Contents (Elt F) → (⟨S16384x1, .i32⟩ : BufTy).Contents (Elt F) → (⟨S16384x1, .i1⟩ : BufTy).Contents (Elt F)),
    unary main_call22_c_1 main_call22_v8 (broadcastInDim S1x1 ![1] bcast_S1_S1x1_1 : (⟨S1, .i32⟩ : BufTy).Contents (Elt F) → (⟨S1x1, .i32⟩ : BufTy).Contents (Elt F)),
    unary main_call22_v8 main_call22_v9 (broadcastInDim S16384x1 ![0, 1] bcast_S1x1_S16384x1_0_1 : (⟨S1x1, .i32⟩ : BufTy).Contents (Elt F) → (⟨S16384x1, .i32⟩ : BufTy).Contents (Elt F)),
    binary main_call22_v5 main_call22_v9 main_call22_v10 (cmpi .sle : (⟨S16384x1, .i32⟩ : BufTy).Contents (Elt F) → (⟨S16384x1, .i32⟩ : BufTy).Contents (Elt F) → (⟨S16384x1, .i1⟩ : BufTy).Contents (Elt F)),
    binary main_call22_v7 main_call22_v10 main_call22_v11 (andi : (⟨S16384x1, .i1⟩ : BufTy).Contents (Elt F) → (⟨S16384x1, .i1⟩ : BufTy).Contents (Elt F) → (⟨S16384x1, .i1⟩ : BufTy).Contents (Elt F)),
    nullary main_call22_c_3 (constantI S_ 1 1#1 : (⟨S_, .i1⟩ : BufTy).Contents (Elt F)),
    binary main_call22_v11 main_call22_c_3 main_call22_v12 (fun x v => Host.reduce IntOp.andi x v reducesTo_S16384x1_S16384_d1 h_S_ : (⟨S16384x1, .i1⟩ : BufTy).Contents (Elt F) → (⟨S_, .i1⟩ : BufTy).Contents (Elt F) → (⟨S16384, .i1⟩ : BufTy).Contents (Elt F)),
    binary main_v113 main_call22_v5 main_call22_v13 (fun x i => Host.gather gather_S100000x32_S16384x1_S16384x32_1_0_n_n_0_1_132 x i : (⟨S100000x32, .f32⟩ : BufTy).Contents (Elt F) → (⟨S16384x1, .i32⟩ : BufTy).Contents (Elt F) → (⟨S16384x32, .f32⟩ : BufTy).Contents (Elt F)),
    unary main_call22_v12 main_call22_v14 (broadcastInDim S16384x32 ![0] bcast_S16384_S16384x32_0 : (⟨S16384, .i1⟩ : BufTy).Contents (Elt F) → (⟨S16384x32, .i1⟩ : BufTy).Contents (Elt F)),
    nullary main_call22_cst (constant S_ .f32 0x7FC00000#32 : (⟨S_, .f32⟩ : BufTy).Contents (Elt F)),
    unary main_call22_cst main_call22_v15 (broadcastInDim S16384x32 ![] bcast_S_S16384x32 : (⟨S_, .f32⟩ : BufTy).Contents (Elt F) → (⟨S16384x32, .f32⟩ : BufTy).Contents (Elt F)),
    ternary main_call22_v14 main_call22_v13 main_call22_v15 main_v114 (select : (⟨S16384x32, .i1⟩ : BufTy).Contents (Elt F) → (⟨S16384x32, .f32⟩ : BufTy).Contents (Elt F) → (⟨S16384x32, .f32⟩ : BufTy).Contents (Elt F) → (⟨S16384x32, .f32⟩ : BufTy).Contents (Elt F)) ]

/-- The buffers field 22 writes. -/
abbrev fieldW22 : List (Ref sig .tc) := [main_v110, main_v111, main_v112, main_v113, main_call22_c, main_call22_v0, main_call22_v1, main_call22_c_0, main_call22_v2, main_call22_v3, main_call22_v4, main_call22_v5, main_call22_c_1, main_call22_c_2, main_call22_v6, main_call22_v7, main_call22_v8, main_call22_v9, main_call22_v10, main_call22_v11, main_call22_c_3, main_call22_v12, main_call22_v13, main_call22_v14, main_call22_cst, main_call22_v15, main_v114]

theorem fieldT22_eq : (fieldT22 : List (HloOp τ sig (Elt F))) = fieldP22 := by
  unfold fieldT22 fieldP22 takeOpsT
  ops_entries

theorem field22_ok : (fieldP22 : List (HloOp τ sig (Elt F))).Forall fun op => op.bufs ⊆ tcRefs τ sig ∧ op.fresh = ∅ := by
  unfold fieldP22
  exact ⟨⟨unary_bufs_sub .., rfl⟩, ⟨reshape_bufs_sub .., rfl⟩, ⟨unary_bufs_sub .., rfl⟩, ⟨reshape_bufs_sub .., rfl⟩, ⟨nullary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨ternary_bufs_sub .., rfl⟩, ⟨unary_bufs_sub .., rfl⟩, ⟨nullary_bufs_sub .., rfl⟩, ⟨nullary_bufs_sub .., rfl⟩, ⟨unary_bufs_sub .., rfl⟩, ⟨binary_bufs_sub .., rfl⟩, ⟨unary_bufs_sub .., rfl⟩, ⟨unary_bufs_sub .., rfl⟩, ⟨binary_bufs_sub .., rfl⟩, ⟨binary_bufs_sub .., rfl⟩, ⟨nullary_bufs_sub .., rfl⟩, ⟨binary_bufs_sub .., rfl⟩, ⟨binary_bufs_sub .., rfl⟩, ⟨unary_bufs_sub .., rfl⟩, ⟨nullary_bufs_sub .., rfl⟩, ⟨unary_bufs_sub .., rfl⟩, ⟨ternary_bufs_sub .., rfl⟩⟩

theorem field22_writes : (fieldP22 : List (HloOp τ sig (Elt F))).Forall fun op => op.writes ⊆ (fieldW22.map (Proc.devRef (τ := τ) .tc)).toFinset := by
  unfold fieldP22
  simp only [List.Forall]
  exact ⟨by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem⟩

/-- A buffer field 22 does not write keeps its contents through it. -/
theorem field22_keep (W : Valuation τ sig (Elt F)) (r : Ref sig .tc) (h : r ∉ fieldW22) :
    after fieldP22 W (Proc.devRef .tc r) = W (Proc.devRef .tc r) :=
  after_of_writes_sub fieldP22 W field22_writes h

/-- What field 22 leaves in its result buffer: the field's function of the two arguments' contents. -/
theorem field22_res (W : Valuation τ sig (Elt F)) :
    after fieldP22 W (Proc.devRef .tc main_v114) = RefFn.field22 (W (Proc.devRef .tc main_arg0)) (W (Proc.devRef .tc main_arg1)) := by
  unfold fieldP22
  after_results_simp
  rfl

/-! ### Field 23 -/

/-- Field 23 as the program states it: the two slices and reshapes, then the call's operations over its typed buffers. -/
def fieldT23 : List (HloOp τ sig (Elt F)) :=
  unary main_arg0 main_v115 ((extractStridedSlice S16384x1 ![0, 23] · slices_S16384x26_S16384x1_0_23) : (⟨S16384x26, .i32⟩ : BufTy).Contents (Elt F) → (⟨S16384x1, .i32⟩ : BufTy).Contents (Elt F)) ::
  reshape main_v115 main_v116 rfl shapeCasts_S16384x1_S16384 ::
  unary main_arg1 main_v117 ((extractStridedSlice S1x100000x32 ![23, 0, 0] · slices_S26x100000x32_S1x100000x32_23_0_0) : (⟨S26x100000x32, .f32⟩ : BufTy).Contents (Elt F) → (⟨S1x100000x32, .f32⟩ : BufTy).Contents (Elt F)) ::
  reshape main_v117 main_v118 rfl shapeCasts_S1x100000x32_S100000x32 ::
  takeOpsT (.of main_v118) (.of main_v116) main_call23

/-- The same 28 operations at the buffers themselves. -/
def fieldP23 : List (HloOp τ sig (Elt F)) :=
  [ unary main_arg0 main_v115 ((extractStridedSlice S16384x1 ![0, 23] · slices_S16384x26_S16384x1_0_23) : (⟨S16384x26, .i32⟩ : BufTy).Contents (Elt F) → (⟨S16384x1, .i32⟩ : BufTy).Contents (Elt F)),
    reshape main_v115 main_v116 rfl shapeCasts_S16384x1_S16384,
    unary main_arg1 main_v117 ((extractStridedSlice S1x100000x32 ![23, 0, 0] · slices_S26x100000x32_S1x100000x32_23_0_0) : (⟨S26x100000x32, .f32⟩ : BufTy).Contents (Elt F) → (⟨S1x100000x32, .f32⟩ : BufTy).Contents (Elt F)),
    reshape main_v117 main_v118 rfl shapeCasts_S1x100000x32_S100000x32,
    nullary main_call23_c (constantI S_ 32 0#32 : (⟨S_, .i32⟩ : BufTy).Contents (Elt F)),
    unary main_call23_c main_call23_v0 (broadcastInDim S16384 ![] bcast_S_S16384 : (⟨S_, .i32⟩ : BufTy).Contents (Elt F) → (⟨S16384, .i32⟩ : BufTy).Contents (Elt F)),
    binary main_v116 main_call23_v0 main_call23_v1 (cmpi .slt : (⟨S16384, .i32⟩ : BufTy).Contents (Elt F) → (⟨S16384, .i32⟩ : BufTy).Contents (Elt F) → (⟨S16384, .i1⟩ : BufTy).Contents (Elt F)),
    nullary main_call23_c_0 (constantI S_ 32 100000#32 : (⟨S_, .i32⟩ : BufTy).Contents (Elt F)),
    unary main_call23_c_0 main_call23_v2 (broadcastInDim S16384 ![] bcast_S_S16384 : (⟨S_, .i32⟩ : BufTy).Contents (Elt F) → (⟨S16384, .i32⟩ : BufTy).Contents (Elt F)),
    binary main_v116 main_call23_v2 main_call23_v3 (addi : (⟨S16384, .i32⟩ : BufTy).Contents (Elt F) → (⟨S16384, .i32⟩ : BufTy).Contents (Elt F) → (⟨S16384, .i32⟩ : BufTy).Contents (Elt F)),
    ternary main_call23_v1 main_call23_v3 main_v116 main_call23_v4 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_call23_v4 main_call23_v5 (broadcastInDim S16384x1 ![0] bcast_S16384_S16384x1_0 : (⟨S16384, .i32⟩ : BufTy).Contents (Elt F) → (⟨S16384x1, .i32⟩ : BufTy).Contents (Elt F)),
    nullary main_call23_c_1 (constantI S1 32 99999#32 : (⟨S1, .i32⟩ : BufTy).Contents (Elt F)),
    nullary main_call23_c_2 (constantI S_ 32 0#32 : (⟨S_, .i32⟩ : BufTy).Contents (Elt F)),
    unary main_call23_c_2 main_call23_v6 (broadcastInDim S16384x1 ![] bcast_S_S16384x1 : (⟨S_, .i32⟩ : BufTy).Contents (Elt F) → (⟨S16384x1, .i32⟩ : BufTy).Contents (Elt F)),
    binary main_call23_v5 main_call23_v6 main_call23_v7 (cmpi .sge : (⟨S16384x1, .i32⟩ : BufTy).Contents (Elt F) → (⟨S16384x1, .i32⟩ : BufTy).Contents (Elt F) → (⟨S16384x1, .i1⟩ : BufTy).Contents (Elt F)),
    unary main_call23_c_1 main_call23_v8 (broadcastInDim S1x1 ![1] bcast_S1_S1x1_1 : (⟨S1, .i32⟩ : BufTy).Contents (Elt F) → (⟨S1x1, .i32⟩ : BufTy).Contents (Elt F)),
    unary main_call23_v8 main_call23_v9 (broadcastInDim S16384x1 ![0, 1] bcast_S1x1_S16384x1_0_1 : (⟨S1x1, .i32⟩ : BufTy).Contents (Elt F) → (⟨S16384x1, .i32⟩ : BufTy).Contents (Elt F)),
    binary main_call23_v5 main_call23_v9 main_call23_v10 (cmpi .sle : (⟨S16384x1, .i32⟩ : BufTy).Contents (Elt F) → (⟨S16384x1, .i32⟩ : BufTy).Contents (Elt F) → (⟨S16384x1, .i1⟩ : BufTy).Contents (Elt F)),
    binary main_call23_v7 main_call23_v10 main_call23_v11 (andi : (⟨S16384x1, .i1⟩ : BufTy).Contents (Elt F) → (⟨S16384x1, .i1⟩ : BufTy).Contents (Elt F) → (⟨S16384x1, .i1⟩ : BufTy).Contents (Elt F)),
    nullary main_call23_c_3 (constantI S_ 1 1#1 : (⟨S_, .i1⟩ : BufTy).Contents (Elt F)),
    binary main_call23_v11 main_call23_c_3 main_call23_v12 (fun x v => Host.reduce IntOp.andi x v reducesTo_S16384x1_S16384_d1 h_S_ : (⟨S16384x1, .i1⟩ : BufTy).Contents (Elt F) → (⟨S_, .i1⟩ : BufTy).Contents (Elt F) → (⟨S16384, .i1⟩ : BufTy).Contents (Elt F)),
    binary main_v118 main_call23_v5 main_call23_v13 (fun x i => Host.gather gather_S100000x32_S16384x1_S16384x32_1_0_n_n_0_1_132 x i : (⟨S100000x32, .f32⟩ : BufTy).Contents (Elt F) → (⟨S16384x1, .i32⟩ : BufTy).Contents (Elt F) → (⟨S16384x32, .f32⟩ : BufTy).Contents (Elt F)),
    unary main_call23_v12 main_call23_v14 (broadcastInDim S16384x32 ![0] bcast_S16384_S16384x32_0 : (⟨S16384, .i1⟩ : BufTy).Contents (Elt F) → (⟨S16384x32, .i1⟩ : BufTy).Contents (Elt F)),
    nullary main_call23_cst (constant S_ .f32 0x7FC00000#32 : (⟨S_, .f32⟩ : BufTy).Contents (Elt F)),
    unary main_call23_cst main_call23_v15 (broadcastInDim S16384x32 ![] bcast_S_S16384x32 : (⟨S_, .f32⟩ : BufTy).Contents (Elt F) → (⟨S16384x32, .f32⟩ : BufTy).Contents (Elt F)),
    ternary main_call23_v14 main_call23_v13 main_call23_v15 main_v119 (select : (⟨S16384x32, .i1⟩ : BufTy).Contents (Elt F) → (⟨S16384x32, .f32⟩ : BufTy).Contents (Elt F) → (⟨S16384x32, .f32⟩ : BufTy).Contents (Elt F) → (⟨S16384x32, .f32⟩ : BufTy).Contents (Elt F)) ]

/-- The buffers field 23 writes. -/
abbrev fieldW23 : List (Ref sig .tc) := [main_v115, main_v116, main_v117, main_v118, main_call23_c, main_call23_v0, main_call23_v1, main_call23_c_0, main_call23_v2, main_call23_v3, main_call23_v4, main_call23_v5, main_call23_c_1, main_call23_c_2, main_call23_v6, main_call23_v7, main_call23_v8, main_call23_v9, main_call23_v10, main_call23_v11, main_call23_c_3, main_call23_v12, main_call23_v13, main_call23_v14, main_call23_cst, main_call23_v15, main_v119]

theorem fieldT23_eq : (fieldT23 : List (HloOp τ sig (Elt F))) = fieldP23 := by
  unfold fieldT23 fieldP23 takeOpsT
  ops_entries

theorem field23_ok : (fieldP23 : List (HloOp τ sig (Elt F))).Forall fun op => op.bufs ⊆ tcRefs τ sig ∧ op.fresh = ∅ := by
  unfold fieldP23
  exact ⟨⟨unary_bufs_sub .., rfl⟩, ⟨reshape_bufs_sub .., rfl⟩, ⟨unary_bufs_sub .., rfl⟩, ⟨reshape_bufs_sub .., rfl⟩, ⟨nullary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨ternary_bufs_sub .., rfl⟩, ⟨unary_bufs_sub .., rfl⟩, ⟨nullary_bufs_sub .., rfl⟩, ⟨nullary_bufs_sub .., rfl⟩, ⟨unary_bufs_sub .., rfl⟩, ⟨binary_bufs_sub .., rfl⟩, ⟨unary_bufs_sub .., rfl⟩, ⟨unary_bufs_sub .., rfl⟩, ⟨binary_bufs_sub .., rfl⟩, ⟨binary_bufs_sub .., rfl⟩, ⟨nullary_bufs_sub .., rfl⟩, ⟨binary_bufs_sub .., rfl⟩, ⟨binary_bufs_sub .., rfl⟩, ⟨unary_bufs_sub .., rfl⟩, ⟨nullary_bufs_sub .., rfl⟩, ⟨unary_bufs_sub .., rfl⟩, ⟨ternary_bufs_sub .., rfl⟩⟩

theorem field23_writes : (fieldP23 : List (HloOp τ sig (Elt F))).Forall fun op => op.writes ⊆ (fieldW23.map (Proc.devRef (τ := τ) .tc)).toFinset := by
  unfold fieldP23
  simp only [List.Forall]
  exact ⟨by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem⟩

/-- A buffer field 23 does not write keeps its contents through it. -/
theorem field23_keep (W : Valuation τ sig (Elt F)) (r : Ref sig .tc) (h : r ∉ fieldW23) :
    after fieldP23 W (Proc.devRef .tc r) = W (Proc.devRef .tc r) :=
  after_of_writes_sub fieldP23 W field23_writes h

/-- What field 23 leaves in its result buffer: the field's function of the two arguments' contents. -/
theorem field23_res (W : Valuation τ sig (Elt F)) :
    after fieldP23 W (Proc.devRef .tc main_v119) = RefFn.field23 (W (Proc.devRef .tc main_arg0)) (W (Proc.devRef .tc main_arg1)) := by
  unfold fieldP23
  after_results_simp
  rfl

/-! ### Field 24 -/

/-- Field 24 as the program states it: the two slices and reshapes, then the call's operations over its typed buffers. -/
def fieldT24 : List (HloOp τ sig (Elt F)) :=
  unary main_arg0 main_v120 ((extractStridedSlice S16384x1 ![0, 24] · slices_S16384x26_S16384x1_0_24) : (⟨S16384x26, .i32⟩ : BufTy).Contents (Elt F) → (⟨S16384x1, .i32⟩ : BufTy).Contents (Elt F)) ::
  reshape main_v120 main_v121 rfl shapeCasts_S16384x1_S16384 ::
  unary main_arg1 main_v122 ((extractStridedSlice S1x100000x32 ![24, 0, 0] · slices_S26x100000x32_S1x100000x32_24_0_0) : (⟨S26x100000x32, .f32⟩ : BufTy).Contents (Elt F) → (⟨S1x100000x32, .f32⟩ : BufTy).Contents (Elt F)) ::
  reshape main_v122 main_v123 rfl shapeCasts_S1x100000x32_S100000x32 ::
  takeOpsT (.of main_v123) (.of main_v121) main_call24

/-- The same 28 operations at the buffers themselves. -/
def fieldP24 : List (HloOp τ sig (Elt F)) :=
  [ unary main_arg0 main_v120 ((extractStridedSlice S16384x1 ![0, 24] · slices_S16384x26_S16384x1_0_24) : (⟨S16384x26, .i32⟩ : BufTy).Contents (Elt F) → (⟨S16384x1, .i32⟩ : BufTy).Contents (Elt F)),
    reshape main_v120 main_v121 rfl shapeCasts_S16384x1_S16384,
    unary main_arg1 main_v122 ((extractStridedSlice S1x100000x32 ![24, 0, 0] · slices_S26x100000x32_S1x100000x32_24_0_0) : (⟨S26x100000x32, .f32⟩ : BufTy).Contents (Elt F) → (⟨S1x100000x32, .f32⟩ : BufTy).Contents (Elt F)),
    reshape main_v122 main_v123 rfl shapeCasts_S1x100000x32_S100000x32,
    nullary main_call24_c (constantI S_ 32 0#32 : (⟨S_, .i32⟩ : BufTy).Contents (Elt F)),
    unary main_call24_c main_call24_v0 (broadcastInDim S16384 ![] bcast_S_S16384 : (⟨S_, .i32⟩ : BufTy).Contents (Elt F) → (⟨S16384, .i32⟩ : BufTy).Contents (Elt F)),
    binary main_v121 main_call24_v0 main_call24_v1 (cmpi .slt : (⟨S16384, .i32⟩ : BufTy).Contents (Elt F) → (⟨S16384, .i32⟩ : BufTy).Contents (Elt F) → (⟨S16384, .i1⟩ : BufTy).Contents (Elt F)),
    nullary main_call24_c_0 (constantI S_ 32 100000#32 : (⟨S_, .i32⟩ : BufTy).Contents (Elt F)),
    unary main_call24_c_0 main_call24_v2 (broadcastInDim S16384 ![] bcast_S_S16384 : (⟨S_, .i32⟩ : BufTy).Contents (Elt F) → (⟨S16384, .i32⟩ : BufTy).Contents (Elt F)),
    binary main_v121 main_call24_v2 main_call24_v3 (addi : (⟨S16384, .i32⟩ : BufTy).Contents (Elt F) → (⟨S16384, .i32⟩ : BufTy).Contents (Elt F) → (⟨S16384, .i32⟩ : BufTy).Contents (Elt F)),
    ternary main_call24_v1 main_call24_v3 main_v121 main_call24_v4 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_call24_v4 main_call24_v5 (broadcastInDim S16384x1 ![0] bcast_S16384_S16384x1_0 : (⟨S16384, .i32⟩ : BufTy).Contents (Elt F) → (⟨S16384x1, .i32⟩ : BufTy).Contents (Elt F)),
    nullary main_call24_c_1 (constantI S1 32 99999#32 : (⟨S1, .i32⟩ : BufTy).Contents (Elt F)),
    nullary main_call24_c_2 (constantI S_ 32 0#32 : (⟨S_, .i32⟩ : BufTy).Contents (Elt F)),
    unary main_call24_c_2 main_call24_v6 (broadcastInDim S16384x1 ![] bcast_S_S16384x1 : (⟨S_, .i32⟩ : BufTy).Contents (Elt F) → (⟨S16384x1, .i32⟩ : BufTy).Contents (Elt F)),
    binary main_call24_v5 main_call24_v6 main_call24_v7 (cmpi .sge : (⟨S16384x1, .i32⟩ : BufTy).Contents (Elt F) → (⟨S16384x1, .i32⟩ : BufTy).Contents (Elt F) → (⟨S16384x1, .i1⟩ : BufTy).Contents (Elt F)),
    unary main_call24_c_1 main_call24_v8 (broadcastInDim S1x1 ![1] bcast_S1_S1x1_1 : (⟨S1, .i32⟩ : BufTy).Contents (Elt F) → (⟨S1x1, .i32⟩ : BufTy).Contents (Elt F)),
    unary main_call24_v8 main_call24_v9 (broadcastInDim S16384x1 ![0, 1] bcast_S1x1_S16384x1_0_1 : (⟨S1x1, .i32⟩ : BufTy).Contents (Elt F) → (⟨S16384x1, .i32⟩ : BufTy).Contents (Elt F)),
    binary main_call24_v5 main_call24_v9 main_call24_v10 (cmpi .sle : (⟨S16384x1, .i32⟩ : BufTy).Contents (Elt F) → (⟨S16384x1, .i32⟩ : BufTy).Contents (Elt F) → (⟨S16384x1, .i1⟩ : BufTy).Contents (Elt F)),
    binary main_call24_v7 main_call24_v10 main_call24_v11 (andi : (⟨S16384x1, .i1⟩ : BufTy).Contents (Elt F) → (⟨S16384x1, .i1⟩ : BufTy).Contents (Elt F) → (⟨S16384x1, .i1⟩ : BufTy).Contents (Elt F)),
    nullary main_call24_c_3 (constantI S_ 1 1#1 : (⟨S_, .i1⟩ : BufTy).Contents (Elt F)),
    binary main_call24_v11 main_call24_c_3 main_call24_v12 (fun x v => Host.reduce IntOp.andi x v reducesTo_S16384x1_S16384_d1 h_S_ : (⟨S16384x1, .i1⟩ : BufTy).Contents (Elt F) → (⟨S_, .i1⟩ : BufTy).Contents (Elt F) → (⟨S16384, .i1⟩ : BufTy).Contents (Elt F)),
    binary main_v123 main_call24_v5 main_call24_v13 (fun x i => Host.gather gather_S100000x32_S16384x1_S16384x32_1_0_n_n_0_1_132 x i : (⟨S100000x32, .f32⟩ : BufTy).Contents (Elt F) → (⟨S16384x1, .i32⟩ : BufTy).Contents (Elt F) → (⟨S16384x32, .f32⟩ : BufTy).Contents (Elt F)),
    unary main_call24_v12 main_call24_v14 (broadcastInDim S16384x32 ![0] bcast_S16384_S16384x32_0 : (⟨S16384, .i1⟩ : BufTy).Contents (Elt F) → (⟨S16384x32, .i1⟩ : BufTy).Contents (Elt F)),
    nullary main_call24_cst (constant S_ .f32 0x7FC00000#32 : (⟨S_, .f32⟩ : BufTy).Contents (Elt F)),
    unary main_call24_cst main_call24_v15 (broadcastInDim S16384x32 ![] bcast_S_S16384x32 : (⟨S_, .f32⟩ : BufTy).Contents (Elt F) → (⟨S16384x32, .f32⟩ : BufTy).Contents (Elt F)),
    ternary main_call24_v14 main_call24_v13 main_call24_v15 main_v124 (select : (⟨S16384x32, .i1⟩ : BufTy).Contents (Elt F) → (⟨S16384x32, .f32⟩ : BufTy).Contents (Elt F) → (⟨S16384x32, .f32⟩ : BufTy).Contents (Elt F) → (⟨S16384x32, .f32⟩ : BufTy).Contents (Elt F)) ]

/-- The buffers field 24 writes. -/
abbrev fieldW24 : List (Ref sig .tc) := [main_v120, main_v121, main_v122, main_v123, main_call24_c, main_call24_v0, main_call24_v1, main_call24_c_0, main_call24_v2, main_call24_v3, main_call24_v4, main_call24_v5, main_call24_c_1, main_call24_c_2, main_call24_v6, main_call24_v7, main_call24_v8, main_call24_v9, main_call24_v10, main_call24_v11, main_call24_c_3, main_call24_v12, main_call24_v13, main_call24_v14, main_call24_cst, main_call24_v15, main_v124]

theorem fieldT24_eq : (fieldT24 : List (HloOp τ sig (Elt F))) = fieldP24 := by
  unfold fieldT24 fieldP24 takeOpsT
  ops_entries

theorem field24_ok : (fieldP24 : List (HloOp τ sig (Elt F))).Forall fun op => op.bufs ⊆ tcRefs τ sig ∧ op.fresh = ∅ := by
  unfold fieldP24
  exact ⟨⟨unary_bufs_sub .., rfl⟩, ⟨reshape_bufs_sub .., rfl⟩, ⟨unary_bufs_sub .., rfl⟩, ⟨reshape_bufs_sub .., rfl⟩, ⟨nullary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨ternary_bufs_sub .., rfl⟩, ⟨unary_bufs_sub .., rfl⟩, ⟨nullary_bufs_sub .., rfl⟩, ⟨nullary_bufs_sub .., rfl⟩, ⟨unary_bufs_sub .., rfl⟩, ⟨binary_bufs_sub .., rfl⟩, ⟨unary_bufs_sub .., rfl⟩, ⟨unary_bufs_sub .., rfl⟩, ⟨binary_bufs_sub .., rfl⟩, ⟨binary_bufs_sub .., rfl⟩, ⟨nullary_bufs_sub .., rfl⟩, ⟨binary_bufs_sub .., rfl⟩, ⟨binary_bufs_sub .., rfl⟩, ⟨unary_bufs_sub .., rfl⟩, ⟨nullary_bufs_sub .., rfl⟩, ⟨unary_bufs_sub .., rfl⟩, ⟨ternary_bufs_sub .., rfl⟩⟩

theorem field24_writes : (fieldP24 : List (HloOp τ sig (Elt F))).Forall fun op => op.writes ⊆ (fieldW24.map (Proc.devRef (τ := τ) .tc)).toFinset := by
  unfold fieldP24
  simp only [List.Forall]
  exact ⟨by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem⟩

/-- A buffer field 24 does not write keeps its contents through it. -/
theorem field24_keep (W : Valuation τ sig (Elt F)) (r : Ref sig .tc) (h : r ∉ fieldW24) :
    after fieldP24 W (Proc.devRef .tc r) = W (Proc.devRef .tc r) :=
  after_of_writes_sub fieldP24 W field24_writes h

/-- What field 24 leaves in its result buffer: the field's function of the two arguments' contents. -/
theorem field24_res (W : Valuation τ sig (Elt F)) :
    after fieldP24 W (Proc.devRef .tc main_v124) = RefFn.field24 (W (Proc.devRef .tc main_arg0)) (W (Proc.devRef .tc main_arg1)) := by
  unfold fieldP24
  after_results_simp
  rfl

/-! ### Field 25 -/

/-- Field 25 as the program states it: the two slices and reshapes, then the call's operations over its typed buffers. -/
def fieldT25 : List (HloOp τ sig (Elt F)) :=
  unary main_arg0 main_v125 ((extractStridedSlice S16384x1 ![0, 25] · slices_S16384x26_S16384x1_0_25) : (⟨S16384x26, .i32⟩ : BufTy).Contents (Elt F) → (⟨S16384x1, .i32⟩ : BufTy).Contents (Elt F)) ::
  reshape main_v125 main_v126 rfl shapeCasts_S16384x1_S16384 ::
  unary main_arg1 main_v127 ((extractStridedSlice S1x100000x32 ![25, 0, 0] · slices_S26x100000x32_S1x100000x32_25_0_0) : (⟨S26x100000x32, .f32⟩ : BufTy).Contents (Elt F) → (⟨S1x100000x32, .f32⟩ : BufTy).Contents (Elt F)) ::
  reshape main_v127 main_v128 rfl shapeCasts_S1x100000x32_S100000x32 ::
  takeOpsT (.of main_v128) (.of main_v126) main_call25

/-- The same 28 operations at the buffers themselves. -/
def fieldP25 : List (HloOp τ sig (Elt F)) :=
  [ unary main_arg0 main_v125 ((extractStridedSlice S16384x1 ![0, 25] · slices_S16384x26_S16384x1_0_25) : (⟨S16384x26, .i32⟩ : BufTy).Contents (Elt F) → (⟨S16384x1, .i32⟩ : BufTy).Contents (Elt F)),
    reshape main_v125 main_v126 rfl shapeCasts_S16384x1_S16384,
    unary main_arg1 main_v127 ((extractStridedSlice S1x100000x32 ![25, 0, 0] · slices_S26x100000x32_S1x100000x32_25_0_0) : (⟨S26x100000x32, .f32⟩ : BufTy).Contents (Elt F) → (⟨S1x100000x32, .f32⟩ : BufTy).Contents (Elt F)),
    reshape main_v127 main_v128 rfl shapeCasts_S1x100000x32_S100000x32,
    nullary main_call25_c (constantI S_ 32 0#32 : (⟨S_, .i32⟩ : BufTy).Contents (Elt F)),
    unary main_call25_c main_call25_v0 (broadcastInDim S16384 ![] bcast_S_S16384 : (⟨S_, .i32⟩ : BufTy).Contents (Elt F) → (⟨S16384, .i32⟩ : BufTy).Contents (Elt F)),
    binary main_v126 main_call25_v0 main_call25_v1 (cmpi .slt : (⟨S16384, .i32⟩ : BufTy).Contents (Elt F) → (⟨S16384, .i32⟩ : BufTy).Contents (Elt F) → (⟨S16384, .i1⟩ : BufTy).Contents (Elt F)),
    nullary main_call25_c_0 (constantI S_ 32 100000#32 : (⟨S_, .i32⟩ : BufTy).Contents (Elt F)),
    unary main_call25_c_0 main_call25_v2 (broadcastInDim S16384 ![] bcast_S_S16384 : (⟨S_, .i32⟩ : BufTy).Contents (Elt F) → (⟨S16384, .i32⟩ : BufTy).Contents (Elt F)),
    binary main_v126 main_call25_v2 main_call25_v3 (addi : (⟨S16384, .i32⟩ : BufTy).Contents (Elt F) → (⟨S16384, .i32⟩ : BufTy).Contents (Elt F) → (⟨S16384, .i32⟩ : BufTy).Contents (Elt F)),
    ternary main_call25_v1 main_call25_v3 main_v126 main_call25_v4 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_call25_v4 main_call25_v5 (broadcastInDim S16384x1 ![0] bcast_S16384_S16384x1_0 : (⟨S16384, .i32⟩ : BufTy).Contents (Elt F) → (⟨S16384x1, .i32⟩ : BufTy).Contents (Elt F)),
    nullary main_call25_c_1 (constantI S1 32 99999#32 : (⟨S1, .i32⟩ : BufTy).Contents (Elt F)),
    nullary main_call25_c_2 (constantI S_ 32 0#32 : (⟨S_, .i32⟩ : BufTy).Contents (Elt F)),
    unary main_call25_c_2 main_call25_v6 (broadcastInDim S16384x1 ![] bcast_S_S16384x1 : (⟨S_, .i32⟩ : BufTy).Contents (Elt F) → (⟨S16384x1, .i32⟩ : BufTy).Contents (Elt F)),
    binary main_call25_v5 main_call25_v6 main_call25_v7 (cmpi .sge : (⟨S16384x1, .i32⟩ : BufTy).Contents (Elt F) → (⟨S16384x1, .i32⟩ : BufTy).Contents (Elt F) → (⟨S16384x1, .i1⟩ : BufTy).Contents (Elt F)),
    unary main_call25_c_1 main_call25_v8 (broadcastInDim S1x1 ![1] bcast_S1_S1x1_1 : (⟨S1, .i32⟩ : BufTy).Contents (Elt F) → (⟨S1x1, .i32⟩ : BufTy).Contents (Elt F)),
    unary main_call25_v8 main_call25_v9 (broadcastInDim S16384x1 ![0, 1] bcast_S1x1_S16384x1_0_1 : (⟨S1x1, .i32⟩ : BufTy).Contents (Elt F) → (⟨S16384x1, .i32⟩ : BufTy).Contents (Elt F)),
    binary main_call25_v5 main_call25_v9 main_call25_v10 (cmpi .sle : (⟨S16384x1, .i32⟩ : BufTy).Contents (Elt F) → (⟨S16384x1, .i32⟩ : BufTy).Contents (Elt F) → (⟨S16384x1, .i1⟩ : BufTy).Contents (Elt F)),
    binary main_call25_v7 main_call25_v10 main_call25_v11 (andi : (⟨S16384x1, .i1⟩ : BufTy).Contents (Elt F) → (⟨S16384x1, .i1⟩ : BufTy).Contents (Elt F) → (⟨S16384x1, .i1⟩ : BufTy).Contents (Elt F)),
    nullary main_call25_c_3 (constantI S_ 1 1#1 : (⟨S_, .i1⟩ : BufTy).Contents (Elt F)),
    binary main_call25_v11 main_call25_c_3 main_call25_v12 (fun x v => Host.reduce IntOp.andi x v reducesTo_S16384x1_S16384_d1 h_S_ : (⟨S16384x1, .i1⟩ : BufTy).Contents (Elt F) → (⟨S_, .i1⟩ : BufTy).Contents (Elt F) → (⟨S16384, .i1⟩ : BufTy).Contents (Elt F)),
    binary main_v128 main_call25_v5 main_call25_v13 (fun x i => Host.gather gather_S100000x32_S16384x1_S16384x32_1_0_n_n_0_1_132 x i : (⟨S100000x32, .f32⟩ : BufTy).Contents (Elt F) → (⟨S16384x1, .i32⟩ : BufTy).Contents (Elt F) → (⟨S16384x32, .f32⟩ : BufTy).Contents (Elt F)),
    unary main_call25_v12 main_call25_v14 (broadcastInDim S16384x32 ![0] bcast_S16384_S16384x32_0 : (⟨S16384, .i1⟩ : BufTy).Contents (Elt F) → (⟨S16384x32, .i1⟩ : BufTy).Contents (Elt F)),
    nullary main_call25_cst (constant S_ .f32 0x7FC00000#32 : (⟨S_, .f32⟩ : BufTy).Contents (Elt F)),
    unary main_call25_cst main_call25_v15 (broadcastInDim S16384x32 ![] bcast_S_S16384x32 : (⟨S_, .f32⟩ : BufTy).Contents (Elt F) → (⟨S16384x32, .f32⟩ : BufTy).Contents (Elt F)),
    ternary main_call25_v14 main_call25_v13 main_call25_v15 main_v129 (select : (⟨S16384x32, .i1⟩ : BufTy).Contents (Elt F) → (⟨S16384x32, .f32⟩ : BufTy).Contents (Elt F) → (⟨S16384x32, .f32⟩ : BufTy).Contents (Elt F) → (⟨S16384x32, .f32⟩ : BufTy).Contents (Elt F)) ]

/-- The buffers field 25 writes. -/
abbrev fieldW25 : List (Ref sig .tc) := [main_v125, main_v126, main_v127, main_v128, main_call25_c, main_call25_v0, main_call25_v1, main_call25_c_0, main_call25_v2, main_call25_v3, main_call25_v4, main_call25_v5, main_call25_c_1, main_call25_c_2, main_call25_v6, main_call25_v7, main_call25_v8, main_call25_v9, main_call25_v10, main_call25_v11, main_call25_c_3, main_call25_v12, main_call25_v13, main_call25_v14, main_call25_cst, main_call25_v15, main_v129]

theorem fieldT25_eq : (fieldT25 : List (HloOp τ sig (Elt F))) = fieldP25 := by
  unfold fieldT25 fieldP25 takeOpsT
  ops_entries

theorem field25_ok : (fieldP25 : List (HloOp τ sig (Elt F))).Forall fun op => op.bufs ⊆ tcRefs τ sig ∧ op.fresh = ∅ := by
  unfold fieldP25
  exact ⟨⟨unary_bufs_sub .., rfl⟩, ⟨reshape_bufs_sub .., rfl⟩, ⟨unary_bufs_sub .., rfl⟩, ⟨reshape_bufs_sub .., rfl⟩, ⟨nullary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨ternary_bufs_sub .., rfl⟩, ⟨unary_bufs_sub .., rfl⟩, ⟨nullary_bufs_sub .., rfl⟩, ⟨nullary_bufs_sub .., rfl⟩, ⟨unary_bufs_sub .., rfl⟩, ⟨binary_bufs_sub .., rfl⟩, ⟨unary_bufs_sub .., rfl⟩, ⟨unary_bufs_sub .., rfl⟩, ⟨binary_bufs_sub .., rfl⟩, ⟨binary_bufs_sub .., rfl⟩, ⟨nullary_bufs_sub .., rfl⟩, ⟨binary_bufs_sub .., rfl⟩, ⟨binary_bufs_sub .., rfl⟩, ⟨unary_bufs_sub .., rfl⟩, ⟨nullary_bufs_sub .., rfl⟩, ⟨unary_bufs_sub .., rfl⟩, ⟨ternary_bufs_sub .., rfl⟩⟩

theorem field25_writes : (fieldP25 : List (HloOp τ sig (Elt F))).Forall fun op => op.writes ⊆ (fieldW25.map (Proc.devRef (τ := τ) .tc)).toFinset := by
  unfold fieldP25
  simp only [List.Forall]
  exact ⟨by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem⟩

/-- A buffer field 25 does not write keeps its contents through it. -/
theorem field25_keep (W : Valuation τ sig (Elt F)) (r : Ref sig .tc) (h : r ∉ fieldW25) :
    after fieldP25 W (Proc.devRef .tc r) = W (Proc.devRef .tc r) :=
  after_of_writes_sub fieldP25 W field25_writes h

/-- What field 25 leaves in its result buffer: the field's function of the two arguments' contents. -/
theorem field25_res (W : Valuation τ sig (Elt F)) :
    after fieldP25 W (Proc.devRef .tc main_v129) = RefFn.field25 (W (Proc.devRef .tc main_arg0)) (W (Proc.devRef .tc main_arg1)) := by
  unfold fieldP25
  after_results_simp
  rfl

/-! ## @main as one straight line -/

/-- The last three operations: the two partial concatenations and the concatenation of the two. -/
def tailOps : List (HloOp τ sig (Elt F)) :=
  [ nary ![main_v4, main_v9, main_v14, main_v19, main_v24, main_v29, main_v34, main_v39, main_v44, main_v49, main_v54, main_v59, main_v64, main_v69, main_v74, main_v79] main_v130 (fun u => concatenate S16384x512 1 [⟨S16384x32, u 0⟩, ⟨S16384x32, u 1⟩, ⟨S16384x32, u 2⟩, ⟨S16384x32, u 3⟩, ⟨S16384x32, u 4⟩, ⟨S16384x32, u 5⟩, ⟨S16384x32, u 6⟩, ⟨S16384x32, u 7⟩, ⟨S16384x32, u 8⟩, ⟨S16384x32, u 9⟩, ⟨S16384x32, u 10⟩, ⟨S16384x32, u 11⟩, ⟨S16384x32, u 12⟩, ⟨S16384x32, u 13⟩, ⟨S16384x32, u 14⟩, ⟨S16384x32, u 15⟩] concatenates_S16384x32_S16384x32_S16384x32_S16384x32_S16384x32_S16384x32_S16384x32_S16384x32_S16384x32_S16384x32_S16384x32_S16384x32_S16384x32_S16384x32_S16384x32_S16384x32_S16384x512_d1),
    nary ![main_v84, main_v89, main_v94, main_v99, main_v104, main_v109, main_v114, main_v119, main_v124, main_v129] main_v131 (fun u => concatenate S16384x320 1 [⟨S16384x32, u 0⟩, ⟨S16384x32, u 1⟩, ⟨S16384x32, u 2⟩, ⟨S16384x32, u 3⟩, ⟨S16384x32, u 4⟩, ⟨S16384x32, u 5⟩, ⟨S16384x32, u 6⟩, ⟨S16384x32, u 7⟩, ⟨S16384x32, u 8⟩, ⟨S16384x32, u 9⟩] concatenates_S16384x32_S16384x32_S16384x32_S16384x32_S16384x32_S16384x32_S16384x32_S16384x32_S16384x32_S16384x32_S16384x320_d1),
    binary main_v130 main_v131 main_v132 ((fun a b => concatenate S16384x832 1 [⟨S16384x512, a⟩, ⟨S16384x320, b⟩] concatenates_S16384x512_S16384x320_S16384x832_d1) : (⟨S16384x512, .f32⟩ : BufTy).Contents (Elt F) → (⟨S16384x320, .f32⟩ : BufTy).Contents (Elt F) → (⟨S16384x832, .f32⟩ : BufTy).Contents (Elt F)) ]

set_option maxRecDepth 4096 in
/-- Window 0 of @main is its fields' operations in order. -/
theorem part0_eq (d : Dev nD) : main_part0 (F := F) d = seq (fieldT0 ++ (fieldT1 ++ (fieldT2 ++ (fieldT3 ++ (fieldT4 ++ (fieldT5 ++ (fieldT6 ++ (fieldT7 ++ (fieldT8 ++ (fieldT9 ++ (fieldT10 ++ (fieldT11)))))))))))) := by
  simp only [main_part0, take_seq, seq_append, fieldT0, fieldT1, fieldT2, fieldT3, fieldT4, fieldT5, fieldT6, fieldT7, fieldT8, fieldT9, fieldT10, fieldT11, seq, bind_assoc]

set_option maxRecDepth 4096 in
/-- Window 1 of @main is its fields' operations in order. -/
theorem part1_eq (d : Dev nD) : main_part1 (F := F) d = seq (fieldT12 ++ (fieldT13 ++ (fieldT14 ++ (fieldT15 ++ (fieldT16 ++ (fieldT17 ++ (fieldT18 ++ (fieldT19 ++ (fieldT20 ++ (fieldT21 ++ (fieldT22 ++ (fieldT23)))))))))))) := by
  simp only [main_part1, take_seq, seq_append, fieldT12, fieldT13, fieldT14, fieldT15, fieldT16, fieldT17, fieldT18, fieldT19, fieldT20, fieldT21, fieldT22, fieldT23, seq, bind_assoc]

set_option maxRecDepth 4096 in
/-- Window 2 of @main is its fields' operations in order, then the last three. -/
theorem part2_eq (d : Dev nD) : main_part2 (F := F) d = seq (fieldT24 ++ (fieldT25 ++ (tailOps))) := by
  simp only [main_part2, take_seq, seq_append, fieldT24, fieldT25, tailOps, seq, bind_assoc]

/-- @main's operations in order: the 26 fields' (at the buffers themselves), then the last three. -/
def ops : List (HloOp τ sig (Elt F)) :=
  fieldP0 ++ (fieldP1 ++ (fieldP2 ++ (fieldP3 ++ (fieldP4 ++ (fieldP5 ++ (fieldP6 ++ (fieldP7 ++ (fieldP8 ++ (fieldP9 ++ (fieldP10 ++ (fieldP11 ++ (fieldP12 ++ (fieldP13 ++ (fieldP14 ++ (fieldP15 ++ (fieldP16 ++ (fieldP17 ++ (fieldP18 ++ (fieldP19 ++ (fieldP20 ++ (fieldP21 ++ (fieldP22 ++ (fieldP23 ++ (fieldP24 ++ (fieldP25 ++ (tailOps))))))))))))))))))))))))))

theorem main_eq (d : Dev nD) : main (F := F) d = seq ops := by
  simp only [main, part0_eq, part1_eq, part2_eq, ops, fieldT0_eq, fieldT1_eq, fieldT2_eq, fieldT3_eq, fieldT4_eq, fieldT5_eq, fieldT6_eq, fieldT7_eq, fieldT8_eq, fieldT9_eq, fieldT10_eq, fieldT11_eq, fieldT12_eq, fieldT13_eq, fieldT14_eq, fieldT15_eq, fieldT16_eq, fieldT17_eq, fieldT18_eq, fieldT19_eq, fieldT20_eq, fieldT21_eq, fieldT22_eq, fieldT23_eq, fieldT24_eq, fieldT25_eq, seq_append, bind_assoc]

theorem scopedRefs_eq : (Finset.univ.filter fun b : Ref sig .tc => b.isScoped) = ∅ := by decide
theorem scopedSems_eq : (Finset.univ.filter fun sm : SemLoc sig => sm.isScoped .tc) = ∅ := by decide

theorem forall_append {α : Type} {p : α → Prop} {l₁ l₂ : List α} (h₁ : l₁.Forall p) (h₂ : l₂.Forall p) : (l₁ ++ l₂).Forall p :=
  List.forall_iff_forall_mem.mpr fun x hx =>
    (List.mem_append.mp hx).elim (List.forall_iff_forall_mem.mp h₁ x) (List.forall_iff_forall_mem.mp h₂ x)

theorem tail_ok : (tailOps : List (HloOp τ sig (Elt F))).Forall fun op => op.bufs ⊆ tcRefs τ sig ∧ op.fresh = ∅ := by
  unfold tailOps
  exact ⟨⟨nary_bufs_sub .., rfl⟩, ⟨nary_bufs_sub .., rfl⟩, ⟨binary_bufs_sub .., rfl⟩⟩

/-- Every operation touches TensorCore buffers only and determines its result. -/
theorem ops_ok : (ops : List (HloOp τ sig (Elt F))).Forall fun op => op.bufs ⊆ tcRefs τ sig ∧ op.fresh = ∅ :=
  forall_append field0_ok (forall_append field1_ok (forall_append field2_ok (forall_append field3_ok (forall_append field4_ok (forall_append field5_ok (forall_append field6_ok (forall_append field7_ok (forall_append field8_ok (forall_append field9_ok (forall_append field10_ok (forall_append field11_ok (forall_append field12_ok (forall_append field13_ok (forall_append field14_ok (forall_append field15_ok (forall_append field16_ok (forall_append field17_ok (forall_append field18_ok (forall_append field19_ok (forall_append field20_ok (forall_append field21_ok (forall_append field22_ok (forall_append field23_ok (forall_append field24_ok (forall_append field25_ok (tail_ok))))))))))))))))))))))))))

theorem ops_sub : (ops : List (HloOp τ sig (Elt F))).Forall fun op => op.bufs ⊆ tcRefs τ sig :=
  List.forall_iff_forall_mem.mpr fun op h => (List.forall_iff_forall_mem.mp ops_ok op h).1
theorem ops_fresh : ∀ op ∈ (ops : List (HloOp τ sig (Elt F))), op.fresh = ∅ :=
  fun op h => (List.forall_iff_forall_mem.mp ops_ok op h).2

/-! ## The buffers' contents, field after field -/

/-- The buffers' contents after fields 0 … 0. -/
def val1 (V : Valuation τ sig (Elt F)) : Valuation τ sig (Elt F) := after fieldP0 (V)
/-- The buffers' contents after fields 0 … 1. -/
def val2 (V : Valuation τ sig (Elt F)) : Valuation τ sig (Elt F) := after fieldP1 (val1 V)
/-- The buffers' contents after fields 0 … 2. -/
def val3 (V : Valuation τ sig (Elt F)) : Valuation τ sig (Elt F) := after fieldP2 (val2 V)
/-- The buffers' contents after fields 0 … 3. -/
def val4 (V : Valuation τ sig (Elt F)) : Valuation τ sig (Elt F) := after fieldP3 (val3 V)
/-- The buffers' contents after fields 0 … 4. -/
def val5 (V : Valuation τ sig (Elt F)) : Valuation τ sig (Elt F) := after fieldP4 (val4 V)
/-- The buffers' contents after fields 0 … 5. -/
def val6 (V : Valuation τ sig (Elt F)) : Valuation τ sig (Elt F) := after fieldP5 (val5 V)
/-- The buffers' contents after fields 0 … 6. -/
def val7 (V : Valuation τ sig (Elt F)) : Valuation τ sig (Elt F) := after fieldP6 (val6 V)
/-- The buffers' contents after fields 0 … 7. -/
def val8 (V : Valuation τ sig (Elt F)) : Valuation τ sig (Elt F) := after fieldP7 (val7 V)
/-- The buffers' contents after fields 0 … 8. -/
def val9 (V : Valuation τ sig (Elt F)) : Valuation τ sig (Elt F) := after fieldP8 (val8 V)
/-- The buffers' contents after fields 0 … 9. -/
def val10 (V : Valuation τ sig (Elt F)) : Valuation τ sig (Elt F) := after fieldP9 (val9 V)
/-- The buffers' contents after fields 0 … 10. -/
def val11 (V : Valuation τ sig (Elt F)) : Valuation τ sig (Elt F) := after fieldP10 (val10 V)
/-- The buffers' contents after fields 0 … 11. -/
def val12 (V : Valuation τ sig (Elt F)) : Valuation τ sig (Elt F) := after fieldP11 (val11 V)
/-- The buffers' contents after fields 0 … 12. -/
def val13 (V : Valuation τ sig (Elt F)) : Valuation τ sig (Elt F) := after fieldP12 (val12 V)
/-- The buffers' contents after fields 0 … 13. -/
def val14 (V : Valuation τ sig (Elt F)) : Valuation τ sig (Elt F) := after fieldP13 (val13 V)
/-- The buffers' contents after fields 0 … 14. -/
def val15 (V : Valuation τ sig (Elt F)) : Valuation τ sig (Elt F) := after fieldP14 (val14 V)
/-- The buffers' contents after fields 0 … 15. -/
def val16 (V : Valuation τ sig (Elt F)) : Valuation τ sig (Elt F) := after fieldP15 (val15 V)
/-- The buffers' contents after fields 0 … 16. -/
def val17 (V : Valuation τ sig (Elt F)) : Valuation τ sig (Elt F) := after fieldP16 (val16 V)
/-- The buffers' contents after fields 0 … 17. -/
def val18 (V : Valuation τ sig (Elt F)) : Valuation τ sig (Elt F) := after fieldP17 (val17 V)
/-- The buffers' contents after fields 0 … 18. -/
def val19 (V : Valuation τ sig (Elt F)) : Valuation τ sig (Elt F) := after fieldP18 (val18 V)
/-- The buffers' contents after fields 0 … 19. -/
def val20 (V : Valuation τ sig (Elt F)) : Valuation τ sig (Elt F) := after fieldP19 (val19 V)
/-- The buffers' contents after fields 0 … 20. -/
def val21 (V : Valuation τ sig (Elt F)) : Valuation τ sig (Elt F) := after fieldP20 (val20 V)
/-- The buffers' contents after fields 0 … 21. -/
def val22 (V : Valuation τ sig (Elt F)) : Valuation τ sig (Elt F) := after fieldP21 (val21 V)
/-- The buffers' contents after fields 0 … 22. -/
def val23 (V : Valuation τ sig (Elt F)) : Valuation τ sig (Elt F) := after fieldP22 (val22 V)
/-- The buffers' contents after fields 0 … 23. -/
def val24 (V : Valuation τ sig (Elt F)) : Valuation τ sig (Elt F) := after fieldP23 (val23 V)
/-- The buffers' contents after fields 0 … 24. -/
def val25 (V : Valuation τ sig (Elt F)) : Valuation τ sig (Elt F) := after fieldP24 (val24 V)
/-- The buffers' contents after fields 0 … 25. -/
def val26 (V : Valuation τ sig (Elt F)) : Valuation τ sig (Elt F) := after fieldP25 (val25 V)

/-- The contents after two lines in a row. -/
theorem after_append : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_append l₁ l₂]

theorem after_ops (V : Valuation τ sig (Elt F)) : after ops V = after tailOps (val26 V) := by
  simp only [ops, after_append]
  rfl

/-! The two arguments are written by no field. -/
theorem val1_main_arg0 (V : Valuation τ sig (Elt F)) : val1 V (Proc.devRef .tc main_arg0) = V (Proc.devRef .tc main_arg0) :=
  (field0_keep _ main_arg0 (by decide))
theorem val2_main_arg0 (V : Valuation τ sig (Elt F)) : val2 V (Proc.devRef .tc main_arg0) = V (Proc.devRef .tc main_arg0) :=
  (field1_keep _ main_arg0 (by decide)).trans (val1_main_arg0 V)
theorem val3_main_arg0 (V : Valuation τ sig (Elt F)) : val3 V (Proc.devRef .tc main_arg0) = V (Proc.devRef .tc main_arg0) :=
  (field2_keep _ main_arg0 (by decide)).trans (val2_main_arg0 V)
theorem val4_main_arg0 (V : Valuation τ sig (Elt F)) : val4 V (Proc.devRef .tc main_arg0) = V (Proc.devRef .tc main_arg0) :=
  (field3_keep _ main_arg0 (by decide)).trans (val3_main_arg0 V)
theorem val5_main_arg0 (V : Valuation τ sig (Elt F)) : val5 V (Proc.devRef .tc main_arg0) = V (Proc.devRef .tc main_arg0) :=
  (field4_keep _ main_arg0 (by decide)).trans (val4_main_arg0 V)
theorem val6_main_arg0 (V : Valuation τ sig (Elt F)) : val6 V (Proc.devRef .tc main_arg0) = V (Proc.devRef .tc main_arg0) :=
  (field5_keep _ main_arg0 (by decide)).trans (val5_main_arg0 V)
theorem val7_main_arg0 (V : Valuation τ sig (Elt F)) : val7 V (Proc.devRef .tc main_arg0) = V (Proc.devRef .tc main_arg0) :=
  (field6_keep _ main_arg0 (by decide)).trans (val6_main_arg0 V)
theorem val8_main_arg0 (V : Valuation τ sig (Elt F)) : val8 V (Proc.devRef .tc main_arg0) = V (Proc.devRef .tc main_arg0) :=
  (field7_keep _ main_arg0 (by decide)).trans (val7_main_arg0 V)
theorem val9_main_arg0 (V : Valuation τ sig (Elt F)) : val9 V (Proc.devRef .tc main_arg0) = V (Proc.devRef .tc main_arg0) :=
  (field8_keep _ main_arg0 (by decide)).trans (val8_main_arg0 V)
theorem val10_main_arg0 (V : Valuation τ sig (Elt F)) : val10 V (Proc.devRef .tc main_arg0) = V (Proc.devRef .tc main_arg0) :=
  (field9_keep _ main_arg0 (by decide)).trans (val9_main_arg0 V)
theorem val11_main_arg0 (V : Valuation τ sig (Elt F)) : val11 V (Proc.devRef .tc main_arg0) = V (Proc.devRef .tc main_arg0) :=
  (field10_keep _ main_arg0 (by decide)).trans (val10_main_arg0 V)
theorem val12_main_arg0 (V : Valuation τ sig (Elt F)) : val12 V (Proc.devRef .tc main_arg0) = V (Proc.devRef .tc main_arg0) :=
  (field11_keep _ main_arg0 (by decide)).trans (val11_main_arg0 V)
theorem val13_main_arg0 (V : Valuation τ sig (Elt F)) : val13 V (Proc.devRef .tc main_arg0) = V (Proc.devRef .tc main_arg0) :=
  (field12_keep _ main_arg0 (by decide)).trans (val12_main_arg0 V)
theorem val14_main_arg0 (V : Valuation τ sig (Elt F)) : val14 V (Proc.devRef .tc main_arg0) = V (Proc.devRef .tc main_arg0) :=
  (field13_keep _ main_arg0 (by decide)).trans (val13_main_arg0 V)
theorem val15_main_arg0 (V : Valuation τ sig (Elt F)) : val15 V (Proc.devRef .tc main_arg0) = V (Proc.devRef .tc main_arg0) :=
  (field14_keep _ main_arg0 (by decide)).trans (val14_main_arg0 V)
theorem val16_main_arg0 (V : Valuation τ sig (Elt F)) : val16 V (Proc.devRef .tc main_arg0) = V (Proc.devRef .tc main_arg0) :=
  (field15_keep _ main_arg0 (by decide)).trans (val15_main_arg0 V)
theorem val17_main_arg0 (V : Valuation τ sig (Elt F)) : val17 V (Proc.devRef .tc main_arg0) = V (Proc.devRef .tc main_arg0) :=
  (field16_keep _ main_arg0 (by decide)).trans (val16_main_arg0 V)
theorem val18_main_arg0 (V : Valuation τ sig (Elt F)) : val18 V (Proc.devRef .tc main_arg0) = V (Proc.devRef .tc main_arg0) :=
  (field17_keep _ main_arg0 (by decide)).trans (val17_main_arg0 V)
theorem val19_main_arg0 (V : Valuation τ sig (Elt F)) : val19 V (Proc.devRef .tc main_arg0) = V (Proc.devRef .tc main_arg0) :=
  (field18_keep _ main_arg0 (by decide)).trans (val18_main_arg0 V)
theorem val20_main_arg0 (V : Valuation τ sig (Elt F)) : val20 V (Proc.devRef .tc main_arg0) = V (Proc.devRef .tc main_arg0) :=
  (field19_keep _ main_arg0 (by decide)).trans (val19_main_arg0 V)
theorem val21_main_arg0 (V : Valuation τ sig (Elt F)) : val21 V (Proc.devRef .tc main_arg0) = V (Proc.devRef .tc main_arg0) :=
  (field20_keep _ main_arg0 (by decide)).trans (val20_main_arg0 V)
theorem val22_main_arg0 (V : Valuation τ sig (Elt F)) : val22 V (Proc.devRef .tc main_arg0) = V (Proc.devRef .tc main_arg0) :=
  (field21_keep _ main_arg0 (by decide)).trans (val21_main_arg0 V)
theorem val23_main_arg0 (V : Valuation τ sig (Elt F)) : val23 V (Proc.devRef .tc main_arg0) = V (Proc.devRef .tc main_arg0) :=
  (field22_keep _ main_arg0 (by decide)).trans (val22_main_arg0 V)
theorem val24_main_arg0 (V : Valuation τ sig (Elt F)) : val24 V (Proc.devRef .tc main_arg0) = V (Proc.devRef .tc main_arg0) :=
  (field23_keep _ main_arg0 (by decide)).trans (val23_main_arg0 V)
theorem val25_main_arg0 (V : Valuation τ sig (Elt F)) : val25 V (Proc.devRef .tc main_arg0) = V (Proc.devRef .tc main_arg0) :=
  (field24_keep _ main_arg0 (by decide)).trans (val24_main_arg0 V)
theorem val26_main_arg0 (V : Valuation τ sig (Elt F)) : val26 V (Proc.devRef .tc main_arg0) = V (Proc.devRef .tc main_arg0) :=
  (field25_keep _ main_arg0 (by decide)).trans (val25_main_arg0 V)
theorem val1_main_arg1 (V : Valuation τ sig (Elt F)) : val1 V (Proc.devRef .tc main_arg1) = V (Proc.devRef .tc main_arg1) :=
  (field0_keep _ main_arg1 (by decide))
theorem val2_main_arg1 (V : Valuation τ sig (Elt F)) : val2 V (Proc.devRef .tc main_arg1) = V (Proc.devRef .tc main_arg1) :=
  (field1_keep _ main_arg1 (by decide)).trans (val1_main_arg1 V)
theorem val3_main_arg1 (V : Valuation τ sig (Elt F)) : val3 V (Proc.devRef .tc main_arg1) = V (Proc.devRef .tc main_arg1) :=
  (field2_keep _ main_arg1 (by decide)).trans (val2_main_arg1 V)
theorem val4_main_arg1 (V : Valuation τ sig (Elt F)) : val4 V (Proc.devRef .tc main_arg1) = V (Proc.devRef .tc main_arg1) :=
  (field3_keep _ main_arg1 (by decide)).trans (val3_main_arg1 V)
theorem val5_main_arg1 (V : Valuation τ sig (Elt F)) : val5 V (Proc.devRef .tc main_arg1) = V (Proc.devRef .tc main_arg1) :=
  (field4_keep _ main_arg1 (by decide)).trans (val4_main_arg1 V)
theorem val6_main_arg1 (V : Valuation τ sig (Elt F)) : val6 V (Proc.devRef .tc main_arg1) = V (Proc.devRef .tc main_arg1) :=
  (field5_keep _ main_arg1 (by decide)).trans (val5_main_arg1 V)
theorem val7_main_arg1 (V : Valuation τ sig (Elt F)) : val7 V (Proc.devRef .tc main_arg1) = V (Proc.devRef .tc main_arg1) :=
  (field6_keep _ main_arg1 (by decide)).trans (val6_main_arg1 V)
theorem val8_main_arg1 (V : Valuation τ sig (Elt F)) : val8 V (Proc.devRef .tc main_arg1) = V (Proc.devRef .tc main_arg1) :=
  (field7_keep _ main_arg1 (by decide)).trans (val7_main_arg1 V)
theorem val9_main_arg1 (V : Valuation τ sig (Elt F)) : val9 V (Proc.devRef .tc main_arg1) = V (Proc.devRef .tc main_arg1) :=
  (field8_keep _ main_arg1 (by decide)).trans (val8_main_arg1 V)
theorem val10_main_arg1 (V : Valuation τ sig (Elt F)) : val10 V (Proc.devRef .tc main_arg1) = V (Proc.devRef .tc main_arg1) :=
  (field9_keep _ main_arg1 (by decide)).trans (val9_main_arg1 V)
theorem val11_main_arg1 (V : Valuation τ sig (Elt F)) : val11 V (Proc.devRef .tc main_arg1) = V (Proc.devRef .tc main_arg1) :=
  (field10_keep _ main_arg1 (by decide)).trans (val10_main_arg1 V)
theorem val12_main_arg1 (V : Valuation τ sig (Elt F)) : val12 V (Proc.devRef .tc main_arg1) = V (Proc.devRef .tc main_arg1) :=
  (field11_keep _ main_arg1 (by decide)).trans (val11_main_arg1 V)
theorem val13_main_arg1 (V : Valuation τ sig (Elt F)) : val13 V (Proc.devRef .tc main_arg1) = V (Proc.devRef .tc main_arg1) :=
  (field12_keep _ main_arg1 (by decide)).trans (val12_main_arg1 V)
theorem val14_main_arg1 (V : Valuation τ sig (Elt F)) : val14 V (Proc.devRef .tc main_arg1) = V (Proc.devRef .tc main_arg1) :=
  (field13_keep _ main_arg1 (by decide)).trans (val13_main_arg1 V)
theorem val15_main_arg1 (V : Valuation τ sig (Elt F)) : val15 V (Proc.devRef .tc main_arg1) = V (Proc.devRef .tc main_arg1) :=
  (field14_keep _ main_arg1 (by decide)).trans (val14_main_arg1 V)
theorem val16_main_arg1 (V : Valuation τ sig (Elt F)) : val16 V (Proc.devRef .tc main_arg1) = V (Proc.devRef .tc main_arg1) :=
  (field15_keep _ main_arg1 (by decide)).trans (val15_main_arg1 V)
theorem val17_main_arg1 (V : Valuation τ sig (Elt F)) : val17 V (Proc.devRef .tc main_arg1) = V (Proc.devRef .tc main_arg1) :=
  (field16_keep _ main_arg1 (by decide)).trans (val16_main_arg1 V)
theorem val18_main_arg1 (V : Valuation τ sig (Elt F)) : val18 V (Proc.devRef .tc main_arg1) = V (Proc.devRef .tc main_arg1) :=
  (field17_keep _ main_arg1 (by decide)).trans (val17_main_arg1 V)
theorem val19_main_arg1 (V : Valuation τ sig (Elt F)) : val19 V (Proc.devRef .tc main_arg1) = V (Proc.devRef .tc main_arg1) :=
  (field18_keep _ main_arg1 (by decide)).trans (val18_main_arg1 V)
theorem val20_main_arg1 (V : Valuation τ sig (Elt F)) : val20 V (Proc.devRef .tc main_arg1) = V (Proc.devRef .tc main_arg1) :=
  (field19_keep _ main_arg1 (by decide)).trans (val19_main_arg1 V)
theorem val21_main_arg1 (V : Valuation τ sig (Elt F)) : val21 V (Proc.devRef .tc main_arg1) = V (Proc.devRef .tc main_arg1) :=
  (field20_keep _ main_arg1 (by decide)).trans (val20_main_arg1 V)
theorem val22_main_arg1 (V : Valuation τ sig (Elt F)) : val22 V (Proc.devRef .tc main_arg1) = V (Proc.devRef .tc main_arg1) :=
  (field21_keep _ main_arg1 (by decide)).trans (val21_main_arg1 V)
theorem val23_main_arg1 (V : Valuation τ sig (Elt F)) : val23 V (Proc.devRef .tc main_arg1) = V (Proc.devRef .tc main_arg1) :=
  (field22_keep _ main_arg1 (by decide)).trans (val22_main_arg1 V)
theorem val24_main_arg1 (V : Valuation τ sig (Elt F)) : val24 V (Proc.devRef .tc main_arg1) = V (Proc.devRef .tc main_arg1) :=
  (field23_keep _ main_arg1 (by decide)).trans (val23_main_arg1 V)
theorem val25_main_arg1 (V : Valuation τ sig (Elt F)) : val25 V (Proc.devRef .tc main_arg1) = V (Proc.devRef .tc main_arg1) :=
  (field24_keep _ main_arg1 (by decide)).trans (val24_main_arg1 V)
theorem val26_main_arg1 (V : Valuation τ sig (Elt F)) : val26 V (Proc.devRef .tc main_arg1) = V (Proc.devRef .tc main_arg1) :=
  (field25_keep _ main_arg1 (by decide)).trans (val25_main_arg1 V)

/-! Field k's result buffer right after field k. -/
theorem val1_res (V : Valuation τ sig (Elt F)) :
    val1 V (Proc.devRef .tc main_v4) = RefFn.field0 (V (Proc.devRef .tc main_arg0)) (V (Proc.devRef .tc main_arg1)) := by
  unfold val1
  rw [field0_res]
theorem val2_res (V : Valuation τ sig (Elt F)) :
    val2 V (Proc.devRef .tc main_v9) = RefFn.field1 (V (Proc.devRef .tc main_arg0)) (V (Proc.devRef .tc main_arg1)) := by
  unfold val2
  rw [field1_res, val1_main_arg0, val1_main_arg1]
theorem val3_res (V : Valuation τ sig (Elt F)) :
    val3 V (Proc.devRef .tc main_v14) = RefFn.field2 (V (Proc.devRef .tc main_arg0)) (V (Proc.devRef .tc main_arg1)) := by
  unfold val3
  rw [field2_res, val2_main_arg0, val2_main_arg1]
theorem val4_res (V : Valuation τ sig (Elt F)) :
    val4 V (Proc.devRef .tc main_v19) = RefFn.field3 (V (Proc.devRef .tc main_arg0)) (V (Proc.devRef .tc main_arg1)) := by
  unfold val4
  rw [field3_res, val3_main_arg0, val3_main_arg1]
theorem val5_res (V : Valuation τ sig (Elt F)) :
    val5 V (Proc.devRef .tc main_v24) = RefFn.field4 (V (Proc.devRef .tc main_arg0)) (V (Proc.devRef .tc main_arg1)) := by
  unfold val5
  rw [field4_res, val4_main_arg0, val4_main_arg1]
theorem val6_res (V : Valuation τ sig (Elt F)) :
    val6 V (Proc.devRef .tc main_v29) = RefFn.field5 (V (Proc.devRef .tc main_arg0)) (V (Proc.devRef .tc main_arg1)) := by
  unfold val6
  rw [field5_res, val5_main_arg0, val5_main_arg1]
theorem val7_res (V : Valuation τ sig (Elt F)) :
    val7 V (Proc.devRef .tc main_v34) = RefFn.field6 (V (Proc.devRef .tc main_arg0)) (V (Proc.devRef .tc main_arg1)) := by
  unfold val7
  rw [field6_res, val6_main_arg0, val6_main_arg1]
theorem val8_res (V : Valuation τ sig (Elt F)) :
    val8 V (Proc.devRef .tc main_v39) = RefFn.field7 (V (Proc.devRef .tc main_arg0)) (V (Proc.devRef .tc main_arg1)) := by
  unfold val8
  rw [field7_res, val7_main_arg0, val7_main_arg1]
theorem val9_res (V : Valuation τ sig (Elt F)) :
    val9 V (Proc.devRef .tc main_v44) = RefFn.field8 (V (Proc.devRef .tc main_arg0)) (V (Proc.devRef .tc main_arg1)) := by
  unfold val9
  rw [field8_res, val8_main_arg0, val8_main_arg1]
theorem val10_res (V : Valuation τ sig (Elt F)) :
    val10 V (Proc.devRef .tc main_v49) = RefFn.field9 (V (Proc.devRef .tc main_arg0)) (V (Proc.devRef .tc main_arg1)) := by
  unfold val10
  rw [field9_res, val9_main_arg0, val9_main_arg1]
theorem val11_res (V : Valuation τ sig (Elt F)) :
    val11 V (Proc.devRef .tc main_v54) = RefFn.field10 (V (Proc.devRef .tc main_arg0)) (V (Proc.devRef .tc main_arg1)) := by
  unfold val11
  rw [field10_res, val10_main_arg0, val10_main_arg1]
theorem val12_res (V : Valuation τ sig (Elt F)) :
    val12 V (Proc.devRef .tc main_v59) = RefFn.field11 (V (Proc.devRef .tc main_arg0)) (V (Proc.devRef .tc main_arg1)) := by
  unfold val12
  rw [field11_res, val11_main_arg0, val11_main_arg1]
theorem val13_res (V : Valuation τ sig (Elt F)) :
    val13 V (Proc.devRef .tc main_v64) = RefFn.field12 (V (Proc.devRef .tc main_arg0)) (V (Proc.devRef .tc main_arg1)) := by
  unfold val13
  rw [field12_res, val12_main_arg0, val12_main_arg1]
theorem val14_res (V : Valuation τ sig (Elt F)) :
    val14 V (Proc.devRef .tc main_v69) = RefFn.field13 (V (Proc.devRef .tc main_arg0)) (V (Proc.devRef .tc main_arg1)) := by
  unfold val14
  rw [field13_res, val13_main_arg0, val13_main_arg1]
theorem val15_res (V : Valuation τ sig (Elt F)) :
    val15 V (Proc.devRef .tc main_v74) = RefFn.field14 (V (Proc.devRef .tc main_arg0)) (V (Proc.devRef .tc main_arg1)) := by
  unfold val15
  rw [field14_res, val14_main_arg0, val14_main_arg1]
theorem val16_res (V : Valuation τ sig (Elt F)) :
    val16 V (Proc.devRef .tc main_v79) = RefFn.field15 (V (Proc.devRef .tc main_arg0)) (V (Proc.devRef .tc main_arg1)) := by
  unfold val16
  rw [field15_res, val15_main_arg0, val15_main_arg1]
theorem val17_res (V : Valuation τ sig (Elt F)) :
    val17 V (Proc.devRef .tc main_v84) = RefFn.field16 (V (Proc.devRef .tc main_arg0)) (V (Proc.devRef .tc main_arg1)) := by
  unfold val17
  rw [field16_res, val16_main_arg0, val16_main_arg1]
theorem val18_res (V : Valuation τ sig (Elt F)) :
    val18 V (Proc.devRef .tc main_v89) = RefFn.field17 (V (Proc.devRef .tc main_arg0)) (V (Proc.devRef .tc main_arg1)) := by
  unfold val18
  rw [field17_res, val17_main_arg0, val17_main_arg1]
theorem val19_res (V : Valuation τ sig (Elt F)) :
    val19 V (Proc.devRef .tc main_v94) = RefFn.field18 (V (Proc.devRef .tc main_arg0)) (V (Proc.devRef .tc main_arg1)) := by
  unfold val19
  rw [field18_res, val18_main_arg0, val18_main_arg1]
theorem val20_res (V : Valuation τ sig (Elt F)) :
    val20 V (Proc.devRef .tc main_v99) = RefFn.field19 (V (Proc.devRef .tc main_arg0)) (V (Proc.devRef .tc main_arg1)) := by
  unfold val20
  rw [field19_res, val19_main_arg0, val19_main_arg1]
theorem val21_res (V : Valuation τ sig (Elt F)) :
    val21 V (Proc.devRef .tc main_v104) = RefFn.field20 (V (Proc.devRef .tc main_arg0)) (V (Proc.devRef .tc main_arg1)) := by
  unfold val21
  rw [field20_res, val20_main_arg0, val20_main_arg1]
theorem val22_res (V : Valuation τ sig (Elt F)) :
    val22 V (Proc.devRef .tc main_v109) = RefFn.field21 (V (Proc.devRef .tc main_arg0)) (V (Proc.devRef .tc main_arg1)) := by
  unfold val22
  rw [field21_res, val21_main_arg0, val21_main_arg1]
theorem val23_res (V : Valuation τ sig (Elt F)) :
    val23 V (Proc.devRef .tc main_v114) = RefFn.field22 (V (Proc.devRef .tc main_arg0)) (V (Proc.devRef .tc main_arg1)) := by
  unfold val23
  rw [field22_res, val22_main_arg0, val22_main_arg1]
theorem val24_res (V : Valuation τ sig (Elt F)) :
    val24 V (Proc.devRef .tc main_v119) = RefFn.field23 (V (Proc.devRef .tc main_arg0)) (V (Proc.devRef .tc main_arg1)) := by
  unfold val24
  rw [field23_res, val23_main_arg0, val23_main_arg1]
theorem val25_res (V : Valuation τ sig (Elt F)) :
    val25 V (Proc.devRef .tc main_v124) = RefFn.field24 (V (Proc.devRef .tc main_arg0)) (V (Proc.devRef .tc main_arg1)) := by
  unfold val25
  rw [field24_res, val24_main_arg0, val24_main_arg1]
theorem val26_res (V : Valuation τ sig (Elt F)) :
    val26 V (Proc.devRef .tc main_v129) = RefFn.field25 (V (Proc.devRef .tc main_arg0)) (V (Proc.devRef .tc main_arg1)) := by
  unfold val26
  rw [field25_res, val25_main_arg0, val25_main_arg1]

/-! The buffers the fields from k on write, and that a buffer outside them holds at the end what it held before field k. -/
abbrev laterW26 : List (Ref sig .tc) := []
abbrev laterW25 : List (Ref sig .tc) := fieldW25 ++ laterW26
abbrev laterW24 : List (Ref sig .tc) := fieldW24 ++ laterW25
abbrev laterW23 : List (Ref sig .tc) := fieldW23 ++ laterW24
abbrev laterW22 : List (Ref sig .tc) := fieldW22 ++ laterW23
abbrev laterW21 : List (Ref sig .tc) := fieldW21 ++ laterW22
abbrev laterW20 : List (Ref sig .tc) := fieldW20 ++ laterW21
abbrev laterW19 : List (Ref sig .tc) := fieldW19 ++ laterW20
abbrev laterW18 : List (Ref sig .tc) := fieldW18 ++ laterW19
abbrev laterW17 : List (Ref sig .tc) := fieldW17 ++ laterW18
abbrev laterW16 : List (Ref sig .tc) := fieldW16 ++ laterW17
abbrev laterW15 : List (Ref sig .tc) := fieldW15 ++ laterW16
abbrev laterW14 : List (Ref sig .tc) := fieldW14 ++ laterW15
abbrev laterW13 : List (Ref sig .tc) := fieldW13 ++ laterW14
abbrev laterW12 : List (Ref sig .tc) := fieldW12 ++ laterW13
abbrev laterW11 : List (Ref sig .tc) := fieldW11 ++ laterW12
abbrev laterW10 : List (Ref sig .tc) := fieldW10 ++ laterW11
abbrev laterW9 : List (Ref sig .tc) := fieldW9 ++ laterW10
abbrev laterW8 : List (Ref sig .tc) := fieldW8 ++ laterW9
abbrev laterW7 : List (Ref sig .tc) := fieldW7 ++ laterW8
abbrev laterW6 : List (Ref sig .tc) := fieldW6 ++ laterW7
abbrev laterW5 : List (Ref sig .tc) := fieldW5 ++ laterW6
abbrev laterW4 : List (Ref sig .tc) := fieldW4 ++ laterW5
abbrev laterW3 : List (Ref sig .tc) := fieldW3 ++ laterW4
abbrev laterW2 : List (Ref sig .tc) := fieldW2 ++ laterW3
abbrev laterW1 : List (Ref sig .tc) := fieldW1 ++ laterW2
abbrev laterW0 : List (Ref sig .tc) := fieldW0 ++ laterW1

theorem last26 (V : Valuation τ sig (Elt F)) (r : Ref sig .tc) (_ : r ∉ laterW26) : val26 V (Proc.devRef .tc r) = val26 V (Proc.devRef .tc r) := rfl
theorem last25 (V : Valuation τ sig (Elt F)) (r : Ref sig .tc) (h : r ∉ laterW25) : val26 V (Proc.devRef .tc r) = val25 V (Proc.devRef .tc r) :=
  (last26 V r fun hm => h (List.mem_append_right _ hm)).trans (field25_keep _ r fun hm => h (List.mem_append_left _ hm))
theorem last24 (V : Valuation τ sig (Elt F)) (r : Ref sig .tc) (h : r ∉ laterW24) : val26 V (Proc.devRef .tc r) = val24 V (Proc.devRef .tc r) :=
  (last25 V r fun hm => h (List.mem_append_right _ hm)).trans (field24_keep _ r fun hm => h (List.mem_append_left _ hm))
theorem last23 (V : Valuation τ sig (Elt F)) (r : Ref sig .tc) (h : r ∉ laterW23) : val26 V (Proc.devRef .tc r) = val23 V (Proc.devRef .tc r) :=
  (last24 V r fun hm => h (List.mem_append_right _ hm)).trans (field23_keep _ r fun hm => h (List.mem_append_left _ hm))
theorem last22 (V : Valuation τ sig (Elt F)) (r : Ref sig .tc) (h : r ∉ laterW22) : val26 V (Proc.devRef .tc r) = val22 V (Proc.devRef .tc r) :=
  (last23 V r fun hm => h (List.mem_append_right _ hm)).trans (field22_keep _ r fun hm => h (List.mem_append_left _ hm))
theorem last21 (V : Valuation τ sig (Elt F)) (r : Ref sig .tc) (h : r ∉ laterW21) : val26 V (Proc.devRef .tc r) = val21 V (Proc.devRef .tc r) :=
  (last22 V r fun hm => h (List.mem_append_right _ hm)).trans (field21_keep _ r fun hm => h (List.mem_append_left _ hm))
theorem last20 (V : Valuation τ sig (Elt F)) (r : Ref sig .tc) (h : r ∉ laterW20) : val26 V (Proc.devRef .tc r) = val20 V (Proc.devRef .tc r) :=
  (last21 V r fun hm => h (List.mem_append_right _ hm)).trans (field20_keep _ r fun hm => h (List.mem_append_left _ hm))
theorem last19 (V : Valuation τ sig (Elt F)) (r : Ref sig .tc) (h : r ∉ laterW19) : val26 V (Proc.devRef .tc r) = val19 V (Proc.devRef .tc r) :=
  (last20 V r fun hm => h (List.mem_append_right _ hm)).trans (field19_keep _ r fun hm => h (List.mem_append_left _ hm))
theorem last18 (V : Valuation τ sig (Elt F)) (r : Ref sig .tc) (h : r ∉ laterW18) : val26 V (Proc.devRef .tc r) = val18 V (Proc.devRef .tc r) :=
  (last19 V r fun hm => h (List.mem_append_right _ hm)).trans (field18_keep _ r fun hm => h (List.mem_append_left _ hm))
theorem last17 (V : Valuation τ sig (Elt F)) (r : Ref sig .tc) (h : r ∉ laterW17) : val26 V (Proc.devRef .tc r) = val17 V (Proc.devRef .tc r) :=
  (last18 V r fun hm => h (List.mem_append_right _ hm)).trans (field17_keep _ r fun hm => h (List.mem_append_left _ hm))
theorem last16 (V : Valuation τ sig (Elt F)) (r : Ref sig .tc) (h : r ∉ laterW16) : val26 V (Proc.devRef .tc r) = val16 V (Proc.devRef .tc r) :=
  (last17 V r fun hm => h (List.mem_append_right _ hm)).trans (field16_keep _ r fun hm => h (List.mem_append_left _ hm))
theorem last15 (V : Valuation τ sig (Elt F)) (r : Ref sig .tc) (h : r ∉ laterW15) : val26 V (Proc.devRef .tc r) = val15 V (Proc.devRef .tc r) :=
  (last16 V r fun hm => h (List.mem_append_right _ hm)).trans (field15_keep _ r fun hm => h (List.mem_append_left _ hm))
theorem last14 (V : Valuation τ sig (Elt F)) (r : Ref sig .tc) (h : r ∉ laterW14) : val26 V (Proc.devRef .tc r) = val14 V (Proc.devRef .tc r) :=
  (last15 V r fun hm => h (List.mem_append_right _ hm)).trans (field14_keep _ r fun hm => h (List.mem_append_left _ hm))
theorem last13 (V : Valuation τ sig (Elt F)) (r : Ref sig .tc) (h : r ∉ laterW13) : val26 V (Proc.devRef .tc r) = val13 V (Proc.devRef .tc r) :=
  (last14 V r fun hm => h (List.mem_append_right _ hm)).trans (field13_keep _ r fun hm => h (List.mem_append_left _ hm))
theorem last12 (V : Valuation τ sig (Elt F)) (r : Ref sig .tc) (h : r ∉ laterW12) : val26 V (Proc.devRef .tc r) = val12 V (Proc.devRef .tc r) :=
  (last13 V r fun hm => h (List.mem_append_right _ hm)).trans (field12_keep _ r fun hm => h (List.mem_append_left _ hm))
theorem last11 (V : Valuation τ sig (Elt F)) (r : Ref sig .tc) (h : r ∉ laterW11) : val26 V (Proc.devRef .tc r) = val11 V (Proc.devRef .tc r) :=
  (last12 V r fun hm => h (List.mem_append_right _ hm)).trans (field11_keep _ r fun hm => h (List.mem_append_left _ hm))
theorem last10 (V : Valuation τ sig (Elt F)) (r : Ref sig .tc) (h : r ∉ laterW10) : val26 V (Proc.devRef .tc r) = val10 V (Proc.devRef .tc r) :=
  (last11 V r fun hm => h (List.mem_append_right _ hm)).trans (field10_keep _ r fun hm => h (List.mem_append_left _ hm))
theorem last9 (V : Valuation τ sig (Elt F)) (r : Ref sig .tc) (h : r ∉ laterW9) : val26 V (Proc.devRef .tc r) = val9 V (Proc.devRef .tc r) :=
  (last10 V r fun hm => h (List.mem_append_right _ hm)).trans (field9_keep _ r fun hm => h (List.mem_append_left _ hm))
theorem last8 (V : Valuation τ sig (Elt F)) (r : Ref sig .tc) (h : r ∉ laterW8) : val26 V (Proc.devRef .tc r) = val8 V (Proc.devRef .tc r) :=
  (last9 V r fun hm => h (List.mem_append_right _ hm)).trans (field8_keep _ r fun hm => h (List.mem_append_left _ hm))
theorem last7 (V : Valuation τ sig (Elt F)) (r : Ref sig .tc) (h : r ∉ laterW7) : val26 V (Proc.devRef .tc r) = val7 V (Proc.devRef .tc r) :=
  (last8 V r fun hm => h (List.mem_append_right _ hm)).trans (field7_keep _ r fun hm => h (List.mem_append_left _ hm))
theorem last6 (V : Valuation τ sig (Elt F)) (r : Ref sig .tc) (h : r ∉ laterW6) : val26 V (Proc.devRef .tc r) = val6 V (Proc.devRef .tc r) :=
  (last7 V r fun hm => h (List.mem_append_right _ hm)).trans (field6_keep _ r fun hm => h (List.mem_append_left _ hm))
theorem last5 (V : Valuation τ sig (Elt F)) (r : Ref sig .tc) (h : r ∉ laterW5) : val26 V (Proc.devRef .tc r) = val5 V (Proc.devRef .tc r) :=
  (last6 V r fun hm => h (List.mem_append_right _ hm)).trans (field5_keep _ r fun hm => h (List.mem_append_left _ hm))
theorem last4 (V : Valuation τ sig (Elt F)) (r : Ref sig .tc) (h : r ∉ laterW4) : val26 V (Proc.devRef .tc r) = val4 V (Proc.devRef .tc r) :=
  (last5 V r fun hm => h (List.mem_append_right _ hm)).trans (field4_keep _ r fun hm => h (List.mem_append_left _ hm))
theorem last3 (V : Valuation τ sig (Elt F)) (r : Ref sig .tc) (h : r ∉ laterW3) : val26 V (Proc.devRef .tc r) = val3 V (Proc.devRef .tc r) :=
  (last4 V r fun hm => h (List.mem_append_right _ hm)).trans (field3_keep _ r fun hm => h (List.mem_append_left _ hm))
theorem last2 (V : Valuation τ sig (Elt F)) (r : Ref sig .tc) (h : r ∉ laterW2) : val26 V (Proc.devRef .tc r) = val2 V (Proc.devRef .tc r) :=
  (last3 V r fun hm => h (List.mem_append_right _ hm)).trans (field2_keep _ r fun hm => h (List.mem_append_left _ hm))
theorem last1 (V : Valuation τ sig (Elt F)) (r : Ref sig .tc) (h : r ∉ laterW1) : val26 V (Proc.devRef .tc r) = val1 V (Proc.devRef .tc r) :=
  (last2 V r fun hm => h (List.mem_append_right _ hm)).trans (field1_keep _ r fun hm => h (List.mem_append_left _ hm))

/-! Field k's result buffer at the end. -/
theorem end_res0 (V : Valuation τ sig (Elt F)) :
    val26 V (Proc.devRef .tc main_v4) = RefFn.field0 (V (Proc.devRef .tc main_arg0)) (V (Proc.devRef .tc main_arg1)) :=
  (last1 V main_v4 (by decide)).trans (val1_res V)
theorem end_res1 (V : Valuation τ sig (Elt F)) :
    val26 V (Proc.devRef .tc main_v9) = RefFn.field1 (V (Proc.devRef .tc main_arg0)) (V (Proc.devRef .tc main_arg1)) :=
  (last2 V main_v9 (by decide)).trans (val2_res V)
theorem end_res2 (V : Valuation τ sig (Elt F)) :
    val26 V (Proc.devRef .tc main_v14) = RefFn.field2 (V (Proc.devRef .tc main_arg0)) (V (Proc.devRef .tc main_arg1)) :=
  (last3 V main_v14 (by decide)).trans (val3_res V)
theorem end_res3 (V : Valuation τ sig (Elt F)) :
    val26 V (Proc.devRef .tc main_v19) = RefFn.field3 (V (Proc.devRef .tc main_arg0)) (V (Proc.devRef .tc main_arg1)) :=
  (last4 V main_v19 (by decide)).trans (val4_res V)
theorem end_res4 (V : Valuation τ sig (Elt F)) :
    val26 V (Proc.devRef .tc main_v24) = RefFn.field4 (V (Proc.devRef .tc main_arg0)) (V (Proc.devRef .tc main_arg1)) :=
  (last5 V main_v24 (by decide)).trans (val5_res V)
theorem end_res5 (V : Valuation τ sig (Elt F)) :
    val26 V (Proc.devRef .tc main_v29) = RefFn.field5 (V (Proc.devRef .tc main_arg0)) (V (Proc.devRef .tc main_arg1)) :=
  (last6 V main_v29 (by decide)).trans (val6_res V)
theorem end_res6 (V : Valuation τ sig (Elt F)) :
    val26 V (Proc.devRef .tc main_v34) = RefFn.field6 (V (Proc.devRef .tc main_arg0)) (V (Proc.devRef .tc main_arg1)) :=
  (last7 V main_v34 (by decide)).trans (val7_res V)
theorem end_res7 (V : Valuation τ sig (Elt F)) :
    val26 V (Proc.devRef .tc main_v39) = RefFn.field7 (V (Proc.devRef .tc main_arg0)) (V (Proc.devRef .tc main_arg1)) :=
  (last8 V main_v39 (by decide)).trans (val8_res V)
theorem end_res8 (V : Valuation τ sig (Elt F)) :
    val26 V (Proc.devRef .tc main_v44) = RefFn.field8 (V (Proc.devRef .tc main_arg0)) (V (Proc.devRef .tc main_arg1)) :=
  (last9 V main_v44 (by decide)).trans (val9_res V)
theorem end_res9 (V : Valuation τ sig (Elt F)) :
    val26 V (Proc.devRef .tc main_v49) = RefFn.field9 (V (Proc.devRef .tc main_arg0)) (V (Proc.devRef .tc main_arg1)) :=
  (last10 V main_v49 (by decide)).trans (val10_res V)
theorem end_res10 (V : Valuation τ sig (Elt F)) :
    val26 V (Proc.devRef .tc main_v54) = RefFn.field10 (V (Proc.devRef .tc main_arg0)) (V (Proc.devRef .tc main_arg1)) :=
  (last11 V main_v54 (by decide)).trans (val11_res V)
theorem end_res11 (V : Valuation τ sig (Elt F)) :
    val26 V (Proc.devRef .tc main_v59) = RefFn.field11 (V (Proc.devRef .tc main_arg0)) (V (Proc.devRef .tc main_arg1)) :=
  (last12 V main_v59 (by decide)).trans (val12_res V)
theorem end_res12 (V : Valuation τ sig (Elt F)) :
    val26 V (Proc.devRef .tc main_v64) = RefFn.field12 (V (Proc.devRef .tc main_arg0)) (V (Proc.devRef .tc main_arg1)) :=
  (last13 V main_v64 (by decide)).trans (val13_res V)
theorem end_res13 (V : Valuation τ sig (Elt F)) :
    val26 V (Proc.devRef .tc main_v69) = RefFn.field13 (V (Proc.devRef .tc main_arg0)) (V (Proc.devRef .tc main_arg1)) :=
  (last14 V main_v69 (by decide)).trans (val14_res V)
theorem end_res14 (V : Valuation τ sig (Elt F)) :
    val26 V (Proc.devRef .tc main_v74) = RefFn.field14 (V (Proc.devRef .tc main_arg0)) (V (Proc.devRef .tc main_arg1)) :=
  (last15 V main_v74 (by decide)).trans (val15_res V)
theorem end_res15 (V : Valuation τ sig (Elt F)) :
    val26 V (Proc.devRef .tc main_v79) = RefFn.field15 (V (Proc.devRef .tc main_arg0)) (V (Proc.devRef .tc main_arg1)) :=
  (last16 V main_v79 (by decide)).trans (val16_res V)
theorem end_res16 (V : Valuation τ sig (Elt F)) :
    val26 V (Proc.devRef .tc main_v84) = RefFn.field16 (V (Proc.devRef .tc main_arg0)) (V (Proc.devRef .tc main_arg1)) :=
  (last17 V main_v84 (by decide)).trans (val17_res V)
theorem end_res17 (V : Valuation τ sig (Elt F)) :
    val26 V (Proc.devRef .tc main_v89) = RefFn.field17 (V (Proc.devRef .tc main_arg0)) (V (Proc.devRef .tc main_arg1)) :=
  (last18 V main_v89 (by decide)).trans (val18_res V)
theorem end_res18 (V : Valuation τ sig (Elt F)) :
    val26 V (Proc.devRef .tc main_v94) = RefFn.field18 (V (Proc.devRef .tc main_arg0)) (V (Proc.devRef .tc main_arg1)) :=
  (last19 V main_v94 (by decide)).trans (val19_res V)
theorem end_res19 (V : Valuation τ sig (Elt F)) :
    val26 V (Proc.devRef .tc main_v99) = RefFn.field19 (V (Proc.devRef .tc main_arg0)) (V (Proc.devRef .tc main_arg1)) :=
  (last20 V main_v99 (by decide)).trans (val20_res V)
theorem end_res20 (V : Valuation τ sig (Elt F)) :
    val26 V (Proc.devRef .tc main_v104) = RefFn.field20 (V (Proc.devRef .tc main_arg0)) (V (Proc.devRef .tc main_arg1)) :=
  (last21 V main_v104 (by decide)).trans (val21_res V)
theorem end_res21 (V : Valuation τ sig (Elt F)) :
    val26 V (Proc.devRef .tc main_v109) = RefFn.field21 (V (Proc.devRef .tc main_arg0)) (V (Proc.devRef .tc main_arg1)) :=
  (last22 V main_v109 (by decide)).trans (val22_res V)
theorem end_res22 (V : Valuation τ sig (Elt F)) :
    val26 V (Proc.devRef .tc main_v114) = RefFn.field22 (V (Proc.devRef .tc main_arg0)) (V (Proc.devRef .tc main_arg1)) :=
  (last23 V main_v114 (by decide)).trans (val23_res V)
theorem end_res23 (V : Valuation τ sig (Elt F)) :
    val26 V (Proc.devRef .tc main_v119) = RefFn.field23 (V (Proc.devRef .tc main_arg0)) (V (Proc.devRef .tc main_arg1)) :=
  (last24 V main_v119 (by decide)).trans (val24_res V)
theorem end_res24 (V : Valuation τ sig (Elt F)) :
    val26 V (Proc.devRef .tc main_v124) = RefFn.field24 (V (Proc.devRef .tc main_arg0)) (V (Proc.devRef .tc main_arg1)) :=
  (last25 V main_v124 (by decide)).trans (val25_res V)
theorem end_res25 (V : Valuation τ sig (Elt F)) :
    val26 V (Proc.devRef .tc main_v129) = RefFn.field25 (V (Proc.devRef .tc main_arg0)) (V (Proc.devRef .tc main_arg1)) :=
  (last26 V main_v129 (by decide)).trans (val26_res V)

/-! ## The last three operations, and the result -/

abbrev tailW : List (Ref sig .tc) := [main_v130, main_v131, main_v132]

theorem tail_writes : (tailOps : List (HloOp τ sig (Elt F))).Forall fun op => op.writes ⊆ (tailW.map (Proc.devRef (τ := τ) .tc)).toFinset := by
  unfold tailOps
  simp only [List.Forall]
  exact ⟨by writes_mem, by writes_mem, by writes_mem⟩

theorem tail_keep (W : Valuation τ sig (Elt F)) (r : Ref sig .tc) (h : r ∉ tailW) :
    after tailOps W (Proc.devRef .tc r) = W (Proc.devRef .tc r) :=
  after_of_writes_sub tailOps W tail_writes h

/-- What the last three operations leave in the result buffer: the 26 fields' buffers side by side, sixteen and ten. -/
theorem tail_res (W : Valuation τ sig (Elt F)) :
    after tailOps W (Proc.devRef .tc main_v132) =
      concatenate S16384x832 1
        [⟨S16384x512, concatenate S16384x512 1 [⟨S16384x32, W (Proc.devRef .tc main_v4)⟩, ⟨S16384x32, W (Proc.devRef .tc main_v9)⟩, ⟨S16384x32, W (Proc.devRef .tc main_v14)⟩, ⟨S16384x32, W (Proc.devRef .tc main_v19)⟩, ⟨S16384x32, W (Proc.devRef .tc main_v24)⟩, ⟨S16384x32, W (Proc.devRef .tc main_v29)⟩, ⟨S16384x32, W (Proc.devRef .tc main_v34)⟩, ⟨S16384x32, W (Proc.devRef .tc main_v39)⟩, ⟨S16384x32, W (Proc.devRef .tc main_v44)⟩, ⟨S16384x32, W (Proc.devRef .tc main_v49)⟩, ⟨S16384x32, W (Proc.devRef .tc main_v54)⟩, ⟨S16384x32, W (Proc.devRef .tc main_v59)⟩, ⟨S16384x32, W (Proc.devRef .tc main_v64)⟩, ⟨S16384x32, W (Proc.devRef .tc main_v69)⟩, ⟨S16384x32, W (Proc.devRef .tc main_v74)⟩, ⟨S16384x32, W (Proc.devRef .tc main_v79)⟩]
            concatenates_S16384x32_S16384x32_S16384x32_S16384x32_S16384x32_S16384x32_S16384x32_S16384x32_S16384x32_S16384x32_S16384x32_S16384x32_S16384x32_S16384x32_S16384x32_S16384x32_S16384x512_d1⟩,
         ⟨S16384x320, concatenate S16384x320 1 [⟨S16384x32, W (Proc.devRef .tc main_v84)⟩, ⟨S16384x32, W (Proc.devRef .tc main_v89)⟩, ⟨S16384x32, W (Proc.devRef .tc main_v94)⟩, ⟨S16384x32, W (Proc.devRef .tc main_v99)⟩, ⟨S16384x32, W (Proc.devRef .tc main_v104)⟩, ⟨S16384x32, W (Proc.devRef .tc main_v109)⟩, ⟨S16384x32, W (Proc.devRef .tc main_v114)⟩, ⟨S16384x32, W (Proc.devRef .tc main_v119)⟩, ⟨S16384x32, W (Proc.devRef .tc main_v124)⟩, ⟨S16384x32, W (Proc.devRef .tc main_v129)⟩]
            concatenates_S16384x32_S16384x32_S16384x32_S16384x32_S16384x32_S16384x32_S16384x32_S16384x32_S16384x32_S16384x32_S16384x320_d1⟩]
        concatenates_S16384x512_S16384x320_S16384x832_d1 := by
  unfold tailOps
  after_results
  dsimp only [Matrix.cons_val]
  repeat (rw [nary_result_ne]; rotate_left; decide)

/-- The result buffer after @main's operations: the reference function of the two arguments' contents. -/
theorem out_eq (V : Valuation τ sig (Elt F)) :
    after ops V (Proc.devRef .tc main_v132) = RefFn.refOut (V (Proc.devRef .tc main_arg0)) (V (Proc.devRef .tc main_arg1)) := by
  rw [after_ops, tail_res, end_res0, end_res1, end_res2, end_res3, end_res4, end_res5, end_res6, end_res7, end_res8, end_res9, end_res10, end_res11, end_res12, end_res13, end_res14, end_res15, end_res16, end_res17, end_res18, end_res19, end_res20, end_res21, end_res22, end_res23, end_res24, end_res25]
  rfl

theorem arg0_eq (V : Valuation τ sig (Elt F)) : after ops V (Proc.devRef .tc main_arg0) = V (Proc.devRef .tc main_arg0) := by
  rw [after_ops, tail_keep _ main_arg0 (by decide), val26_main_arg0]
theorem arg1_eq (V : Valuation τ sig (Elt F)) : after ops V (Proc.devRef .tc main_arg1) = V (Proc.devRef .tc main_arg1) := by
  rw [after_ops, tail_keep _ main_arg1 (by decide), val26_main_arg1]

/-- On every device, for any float values, from any memory with zero counters: every weakly fair execution of @main
    terminates with the result buffer at the reference function of the arguments' launch contents, the arguments unchanged. -/
theorem run_gen (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v132) = RefFn.refOut (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v132).trans (out_eq _), (h c main_arg0).trans (arg0_eq _), (h c main_arg1).trans (arg1_eq _)⟩)
    (run_seq scopedRefs_eq scopedSems_eq defs main (fun _ => ops) main_eq (fun _ => ops_sub) m ρ (fun _ => ops_fresh))

/-- The same at the extended reals. -/
theorem run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v132)
            = Cert.RefFn.refOut (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)) :=
  run_gen m ρ

end Cert.RefRun

end
-- ==== Proof.LibRowOps.lean ====
/-
  Rows gathered and rows accumulated, read at an index.

  A table `x : [N, C]` (or `[N, A, B]`) gathered at a column of start indices `idx : [E, 1]` — what `x[idx]` of a table of rows
  lowers to — has at `(e, j)` the entry `x (row e, j)`, where `row e` is the start index read signed and clamped into
  `[0, N − 1]`.  Dually, accumulating updates `u : [E, C]` into a table at a column of scatter indices gives at `(n, j)` the
  table's entry plus the sum of `u (e, j)` over the edges `e` whose index, read signed, is exactly `n` (an index outside
  `[0, N)` names no row and its update is dropped).
-/
import Idealize.ShloMosaic.PureOps.Ideal
import Idealize.ShloMosaic.Lib.ValueIdx

noncomputable section

open scoped BigOperators

namespace Idealize.ShloMosaic.RowOps

open Idealize.ShloMosaic Idealize.ShloMosaic.ValueIdx

/-- The row a start-index word names: read signed, clamped into `[0, N − 1]`. -/
def rowOf {w : Nat} (N : Nat) (hN : 0 < N) (v : BitVec w) : Fin N := ⟨min v.toInt.toNat (N - 1), by omega⟩

section Gather2
variable {α : Type}

/-- The dimension numbers of a row gather from `[N, C]` at `[E, 1]` start indices. -/
abbrev rowDims2 (N C E : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The gathered table at `(e, j)` is the table at `(row e, j)`. -/
theorem gather_row2_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (j : Fin C) :
    Host.gather (rowDims2 N C E wf) x idx (ix2 e j) = x (ix2 (rowOf N hN (idx (ix2 e 0))) j) := by
  unfold Host.gather
  congr 1
  funext a
  refine Fin.ext ?_
  show (rowDims2 N C E wf).start (ix2 e j) idx a + (rowDims2 N C E wf).batchCoord (ix2 e j) a
    + (rowDims2 N C E wf).offCoord (ix2 e j) a = _
  rw [GatherDims.batchCoord_eq_zero _ _ _ List.not_mem_nil]
  have ha : a = 0 ∨ a = 1 := by
    rcases a with ⟨v, hv⟩
    have hv2 : v < 2 := hv
    interval_cases v
    · exact Or.inl rfl
    · exact Or.inr rfl
  rcases ha with rfl | rfl
  ·
    rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims2 N C E wf).startIndexMap from List.mem_singleton.mpr rfl)]
    have hsi : (rowDims2 N C E wf).siIdx (ix2 e j) ⟨List.idxOf (0 : Fin 2) (rowDims2 N C E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  · unfold GatherDims.start
    rw [dif_neg (show (1 : Fin 2) ∉ (rowDims2 N C E wf).startIndexMap from
      fun h => absurd (congrArg Fin.val (List.mem_singleton.mp h)) Nat.one_ne_zero)]
    simp only [Nat.zero_add]
    unfold GatherDims.offCoord
    rw [dif_pos ((GatherDims.mem_sKept _ _).mpr
      ⟨fun h => absurd (congrArg Fin.val (List.mem_singleton.mp h)) Nat.one_ne_zero, List.not_mem_nil⟩)]
    rfl

end Gather2

section Gather3
variable {α : Type}

/-- The dimension numbers of a row gather from `[N, A, B]` at `[E, 1]` start indices. -/
abbrev rowDims3 (N A B E : Nat)
    (wf : GatherDims.WF ⟨3, ![N, A, B]⟩ ⟨2, ![E, 1]⟩ ⟨3, ![E, A, B]⟩ [1, 2] [0] [] [0] [] 1 ![1, A, B]) :
    GatherDims ⟨3, ![N, A, B]⟩ ⟨2, ![E, 1]⟩ ⟨3, ![E, A, B]⟩ where
  offsetDims := [1, 2]
  collapsedSliceDims := [0]
  operandBatchingDims := []
  startIndicesBatchingDims := []
  startIndexMap := [0]
  indexVectorDim := 1
  sliceSizes := ![1, A, B]
  wf := wf

/-- The gathered table at `(e, a, b)` is the table at `(row e, a, b)`. -/
theorem gather_row3_apply {N A B E w : Nat} (hN : 0 < N)
    (wf : GatherDims.WF ⟨3, ![N, A, B]⟩ ⟨2, ![E, 1]⟩ ⟨3, ![E, A, B]⟩ [1, 2] [0] [] [0] [] 1 ![1, A, B])
    (x : (⟨3, ![N, A, B]⟩ : Shape).Idx → α) (idx : IVec ⟨2, ![E, 1]⟩ w) (e : Fin E) (a : Fin A) (b : Fin B) :
    Host.gather (rowDims3 N A B E wf) x idx (ix3 e a b) = x (ix3 (rowOf N hN (idx (ix2 e 0))) a b) := by
  unfold Host.gather
  congr 1
  funext k
  refine Fin.ext ?_
  show (rowDims3 N A B E wf).start (ix3 e a b) idx k + (rowDims3 N A B E wf).batchCoord (ix3 e a b) k
    + (rowDims3 N A B E wf).offCoord (ix3 e a b) k = _
  rw [GatherDims.batchCoord_eq_zero _ _ _ List.not_mem_nil]
  have hk : k = 0 ∨ k = 1 ∨ k = 2 := by
    rcases k with ⟨v, hv⟩
    have hv3 : v < 3 := hv
    interval_cases v
    · exact Or.inl rfl
    · exact Or.inr (Or.inl rfl)
    · exact Or.inr (Or.inr rfl)
  rcases hk with rfl | rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 3) ∈ (rowDims3 N A B E wf).startIndexMap from List.mem_singleton.mpr rfl)]
    have hsi : (rowDims3 N A B E wf).siIdx (ix3 e a b) ⟨List.idxOf (0 : Fin 3) (rowDims3 N A B E wf).startIndexMap,
        List.idxOf_lt_length_iff.2 (List.mem_singleton.mpr rfl)⟩ = ix2 e 0 := by
      funext c; refine Fin.ext ?_
      match c with
      | ⟨0, _⟩ => rfl
      | ⟨1, _⟩ => rfl
    rw [hsi]
    rfl
  · unfold GatherDims.start
    rw [dif_neg (show (1 : Fin 3) ∉ (rowDims3 N A B E wf).startIndexMap from
      fun h => absurd (congrArg Fin.val (List.mem_singleton.mp h)) Nat.one_ne_zero)]
    simp only [Nat.zero_add]
    unfold GatherDims.offCoord
    rw [dif_pos ((GatherDims.mem_sKept _ _).mpr
      ⟨fun h => absurd (congrArg Fin.val (List.mem_singleton.mp h)) Nat.one_ne_zero, List.not_mem_nil⟩)]
    rfl
  · unfold GatherDims.start
    rw [dif_neg (show (2 : Fin 3) ∉ (rowDims3 N A B E wf).startIndexMap from
      fun h => absurd (congrArg Fin.val (List.mem_singleton.mp h)) (Nat.succ_ne_zero 1))]
    simp only [Nat.zero_add]
    unfold GatherDims.offCoord
    rw [dif_pos ((GatherDims.mem_sKept _ _).mpr
      ⟨fun h => absurd (congrArg Fin.val (List.mem_singleton.mp h)) (Nat.succ_ne_zero 1), List.not_mem_nil⟩)]
    rfl

end Gather3

section Scatter2

/-- The dimension numbers of a row accumulation into `[N, C]` at `[E, 1]` scatter indices. -/
abbrev rowScat2 (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N C E w : Nat} (wf : ScatterDims.WF ⟨2, ![N, C]⟩ ⟨2, ![E, 1]⟩ ⟨2, ![E, C]⟩ [1] [0] [0] 1)
  (idx : IVec ⟨2, ![E, 1]⟩ w)

theorem scat2_start0 (e : Fin E) (j : Fin C) :
    (rowScat2 N C E wf).start (ix2 e j) idx 0 = (idx (ix2 e 0)).toInt := by
  unfold ScatterDims.start
  rw [dif_pos (show (0 : Fin 2) ∈ (rowScat2 N C E wf).scatterDimsToOperandDims from List.mem_singleton.mpr rfl)]
  have hsi : (rowScat2 N C E wf).siIdx (ix2 e j) ⟨List.idxOf (0 : Fin 2) (rowScat2 N C E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

theorem scat2_start1 (e : Fin E) (j : Fin C) : (rowScat2 N C E wf).start (ix2 e j) idx 1 = 0 := by
  unfold ScatterDims.start
  rw [dif_neg (show (1 : Fin 2) ∉ (rowScat2 N C E wf).scatterDimsToOperandDims from
    fun h => absurd (congrArg Fin.val (List.mem_singleton.mp h)) Nat.one_ne_zero)]

theorem scat2_window0 (e : Fin E) (j : Fin C) : (rowScat2 N C E wf).window (ix2 e j) 0 = 0 := by
  unfold ScatterDims.window
  rw [dif_neg (show (0 : Fin 2) ∉ (rowScat2 N C E wf).sKept from by simp [ScatterDims.sKept, Shape.kept])]

theorem scat2_window1 (e : Fin E) (j : Fin C) : (rowScat2 N C E wf).window (ix2 e j) 1 = j.val := by
  unfold ScatterDims.window
  rw [dif_pos (show (1 : Fin 2) ∈ (rowScat2 N C E wf).sKept from by simp [ScatterDims.sKept, Shape.kept])]
  rfl

/-- Update `(e, j)` lands on table entry `(n, j')` exactly when edge `e`'s index, read signed, is `n` and `j = j'`. -/
theorem scat2_hit (e : Fin E) (j : Fin C) (n : Fin N) (j' : Fin C) :
    (rowScat2 N C E wf).resultIdx? (ix2 e j) idx = some (ix2 n j') ↔ (idx (ix2 e 0)).toInt = (n.val : ℤ) ∧ j = j' := by
  have hn : n.val < N := n.isLt
  have hj : j.val < C := j.isLt
  have hall_iff : ∀ a, (rowScat2 N C E wf).start (ix2 e j) idx a + ((rowScat2 N C E wf).window (ix2 e j) a : ℤ)
      = if a = 0 then (idx (ix2 e 0)).toInt else (j.val : ℤ) := by
    intro a
    have ha : a = 0 ∨ a = 1 := by
      rcases a with ⟨v, hv⟩
      have hv2 : v < 2 := hv
      interval_cases v
      · exact Or.inl rfl
      · exact Or.inr rfl
    rcases ha with rfl | rfl
    · rw [scat2_start0, scat2_window0, if_pos rfl]; simp
    · rw [scat2_start1, scat2_window1, if_neg (fun h => absurd (congrArg Fin.val h) Nat.one_ne_zero)]; simp
  unfold ScatterDims.resultIdx?
  constructor
  · intro h
    split at h
    · have hEq := Option.some.inj h
      have h0 := congrArg (fun f => (f 0).val) hEq
      have h1 := congrArg (fun f => (f 1).val) hEq
      rename_i hall
      have hb := (hall 0).1
      rw [hall_iff 0, if_pos rfl] at hb
      simp only [hall_iff, if_pos, if_neg (fun h : (1 : Fin 2) = 0 => absurd (congrArg Fin.val h) Nat.one_ne_zero)] at h0 h1
      have h0' : (idx (ix2 e 0)).toInt.toNat = n.val := h0
      have h1' : ((j.val : ℤ)).toNat = j'.val := h1
      refine ⟨by omega, Fin.ext (by omega)⟩
    · exact absurd h (by simp)
  · rintro ⟨hv, rfl⟩
    have hall : ∀ a, 0 ≤ (rowScat2 N C E wf).start (ix2 e j) idx a + ((rowScat2 N C E wf).window (ix2 e j) a : ℤ) ∧
        (rowScat2 N C E wf).start (ix2 e j) idx a + ((rowScat2 N C E wf).window (ix2 e j) a : ℤ)
          < ((⟨2, ![N, C]⟩ : Shape).size a : ℤ) := by
      intro a
      rw [hall_iff a]
      have ha : a = 0 ∨ a = 1 := by
        rcases a with ⟨v, hv⟩
        have hv2 : v < 2 := hv
        interval_cases v
        · exact Or.inl rfl
        · exact Or.inr rfl
      rcases ha with rfl | rfl
      · rw [if_pos rfl, hv]
        refine ⟨by omega, ?_⟩
        show (n.val : ℤ) < (N : ℤ)
        omega
      · rw [if_neg (fun h => absurd (congrArg Fin.val h) Nat.one_ne_zero)]
        refine ⟨by omega, ?_⟩
        show (j.val : ℤ) < (C : ℤ)
        omega
    rw [dif_pos hall]
    congr 1
    funext a
    refine Fin.ext ?_
    show ((rowScat2 N C E wf).start (ix2 e j) idx a + ((rowScat2 N C E wf).window (ix2 e j) a : ℤ)).toNat = _
    rw [hall_iff a]
    have ha : a = 0 ∨ a = 1 := by
      rcases a with ⟨v, hv⟩
      have hv2 : v < 2 := hv
      interval_cases v
      · exact Or.inl rfl
      · exact Or.inr rfl
    rcases ha with rfl | rfl
    · rw [if_pos rfl, hv]
      show ((n.val : ℤ)).toNat = n.val
      omega
    · rw [if_neg (fun h => absurd (congrArg Fin.val h) Nat.one_ne_zero)]
      show ((j.val : ℤ)).toNat = j.val
      omega

/-- The accumulated table at `(n, j)`: its entry plus the updates of the edges whose index is `n`. -/
theorem scatterAdd_row2_apply (x : FVec Ideal ⟨2, ![N, C]⟩ .f32) (upd : FVec Ideal ⟨2, ![E, C]⟩ .f32) (n : Fin N) (j : Fin C) :
    Host.scatterAdd (F := Ideal) (rowScat2 N C E wf) x idx upd (ix2 n j)
      = x (ix2 n j) + ∑ e : Fin E, if (idx (ix2 e 0)).toInt = (n.val : ℤ) then upd (ix2 e j) else 0 := by
  show x (ix2 n j) + ∑ u ∈ Finset.univ.filter (fun u => (rowScat2 N C E wf).resultIdx? u idx = some (ix2 n j)), upd u = _
  congr 1
  rw [Finset.sum_filter, sum_idx2]
  refine Finset.sum_congr rfl fun e _ => ?_
  by_cases he : (idx (ix2 e 0)).toInt = (n.val : ℤ)
  · rw [if_pos he]
    rw [Finset.sum_eq_single j]
    · rw [if_pos ((scat2_hit wf idx e j n j).mpr ⟨he, rfl⟩)]
    · intro j' _ hne
      rw [if_neg (fun h => hne ((scat2_hit wf idx e j' n j).mp h).2)]
    · intro h; exact absurd (Finset.mem_univ j) h
  · rw [if_neg he]
    refine Finset.sum_eq_zero fun j' _ => ?_
    rw [if_neg (fun h => he ((scat2_hit wf idx e j' n j).mp h).1)]

end Scatter2

section Scatter3

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl
/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The dimension numbers of a row accumulation into `[N, A, B]` at `[E, 1]` scatter indices. -/
abbrev rowScat3 (N A B E : Nat) (wf : ScatterDims.WF ⟨3, ![N, A, B]⟩ ⟨2, ![E, 1]⟩ ⟨3, ![E, A, B]⟩ [1, 2] [0] [0] 1) :
    ScatterDims ⟨3, ![N, A, B]⟩ ⟨2, ![E, 1]⟩ ⟨3, ![E, A, B]⟩ where
  updateWindowDims := [1, 2]
  insertedWindowDims := [0]
  scatterDimsToOperandDims := [0]
  indexVectorDim := 1
  wf := wf

variable {N A B E w : Nat} (wf : ScatterDims.WF ⟨3, ![N, A, B]⟩ ⟨2, ![E, 1]⟩ ⟨3, ![E, A, B]⟩ [1, 2] [0] [0] 1)
  (idx : IVec ⟨2, ![E, 1]⟩ w)

theorem axis3_cases (k : Fin (⟨3, ![N, A, B]⟩ : Shape).rank) : k = 0 ∨ k = 1 ∨ k = 2 := by
  rcases k with ⟨v, hv⟩
  have hv3 : v < 3 := hv
  interval_cases v
  · exact Or.inl rfl
  · exact Or.inr (Or.inl rfl)
  · exact Or.inr (Or.inr rfl)

theorem scat3_sum (e : Fin E) (a : Fin A) (b : Fin B) (k : Fin (⟨3, ![N, A, B]⟩ : Shape).rank) :
    (rowScat3 N A B E wf).start (ix3 e a b) idx k + ((rowScat3 N A B E wf).window (ix3 e a b) k : ℤ)
      = if k = 0 then (idx (ix2 e 0)).toInt else if k = 1 then (a.val : ℤ) else (b.val : ℤ) := by
  rcases axis3_cases k with rfl | rfl | rfl
  · rw [if_pos rfl]
    unfold ScatterDims.start ScatterDims.window
    rw [dif_pos (show (0 : Fin 3) ∈ (rowScat3 N A B E wf).scatterDimsToOperandDims from List.mem_singleton.mpr rfl),
      dif_neg (show (0 : Fin 3) ∉ (rowScat3 N A B E wf).sKept from by simp [ScatterDims.sKept, Shape.kept])]
    have hsi : (rowScat3 N A B E wf).siIdx (ix3 e a b) ⟨List.idxOf (0 : Fin 3) (rowScat3 N A B E wf).scatterDimsToOperandDims,
        List.idxOf_lt_length_iff.2 (List.mem_singleton.mpr rfl)⟩ = ix2 e 0 := by
      funext c; refine Fin.ext ?_
      match c with
      | ⟨0, _⟩ => rfl
      | ⟨1, _⟩ => rfl
    rw [hsi]; simp
  · rw [if_neg (fun h => absurd (congrArg Fin.val h) Nat.one_ne_zero), if_pos rfl]
    unfold ScatterDims.start ScatterDims.window
    rw [dif_neg (show (1 : Fin 3) ∉ (rowScat3 N A B E wf).scatterDimsToOperandDims from
        fun h => absurd (congrArg Fin.val (List.mem_singleton.mp h)) Nat.one_ne_zero),
      dif_pos (show (1 : Fin 3) ∈ (rowScat3 N A B E wf).sKept from by simp [ScatterDims.sKept, Shape.kept])]
    simp only [Int.zero_add]
    rfl
  · rw [if_neg (fun h => absurd (congrArg Fin.val h) (Nat.succ_ne_zero 1)),
      if_neg (fun h => absurd (congrArg Fin.val h) (by decide : (2 : ℕ) ≠ 1))]
    unfold ScatterDims.start ScatterDims.window
    rw [dif_neg (show (2 : Fin 3) ∉ (rowScat3 N A B E wf).scatterDimsToOperandDims from
        fun h => absurd (congrArg Fin.val (List.mem_singleton.mp h)) (Nat.succ_ne_zero 1)),
      dif_pos (show (2 : Fin 3) ∈ (rowScat3 N A B E wf).sKept from by simp [ScatterDims.sKept, Shape.kept])]
    simp only [Int.zero_add]
    rfl

/-- Update `(e, a, b)` lands on table entry `(n, a', b')` exactly when edge `e`'s index, read signed, is `n`, `a = a'`, `b = b'`. -/
theorem scat3_hit (e : Fin E) (a : Fin A) (b : Fin B) (n : Fin N) (a' : Fin A) (b' : Fin B) :
    (rowScat3 N A B E wf).resultIdx? (ix3 e a b) idx = some (ix3 n a' b')
      ↔ (idx (ix2 e 0)).toInt = (n.val : ℤ) ∧ a = a' ∧ b = b' := by
  have hn : n.val < N := n.isLt
  have ha : a.val < A := a.isLt
  have hb : b.val < B := b.isLt
  have h10 : ¬ ((1 : Fin (⟨3, ![N, A, B]⟩ : Shape).rank) = 0) := fun h => absurd (congrArg Fin.val h) Nat.one_ne_zero
  have h20 : ¬ ((2 : Fin (⟨3, ![N, A, B]⟩ : Shape).rank) = 0) := fun h => absurd (congrArg Fin.val h) (Nat.succ_ne_zero 1)
  have h21 : ¬ ((2 : Fin (⟨3, ![N, A, B]⟩ : Shape).rank) = 1) := fun h => absurd (congrArg Fin.val h) (by decide : (2 : ℕ) ≠ 1)
  unfold ScatterDims.resultIdx?
  constructor
  · intro h
    split at h
    · rename_i hall
      have hEq := Option.some.inj h
      have h0 : ((rowScat3 N A B E wf).start (ix3 e a b) idx 0 + ((rowScat3 N A B E wf).window (ix3 e a b) 0 : ℤ)).toNat = n.val :=
        congrArg (fun f => (f 0).val) hEq
      have h1 : ((rowScat3 N A B E wf).start (ix3 e a b) idx 1 + ((rowScat3 N A B E wf).window (ix3 e a b) 1 : ℤ)).toNat = a'.val :=
        congrArg (fun f => (f 1).val) hEq
      have h2 : ((rowScat3 N A B E wf).start (ix3 e a b) idx 2 + ((rowScat3 N A B E wf).window (ix3 e a b) 2 : ℤ)).toNat = b'.val :=
        congrArg (fun f => (f 2).val) hEq
      have hb0 := (hall 0).1
      rw [scat3_sum, if_pos rfl] at hb0 h0
      rw [scat3_sum, if_neg h10, if_pos rfl] at h1
      rw [scat3_sum, if_neg h20, if_neg h21] at h2
      refine ⟨by omega, Fin.ext (by omega), Fin.ext (by omega)⟩
    · exact absurd h (by simp)
  · rintro ⟨hv, rfl, rfl⟩
    have hall : ∀ k, 0 ≤ (rowScat3 N A B E wf).start (ix3 e a b) idx k + ((rowScat3 N A B E wf).window (ix3 e a b) k : ℤ) ∧
        (rowScat3 N A B E wf).start (ix3 e a b) idx k + ((rowScat3 N A B E wf).window (ix3 e a b) k : ℤ)
          < ((⟨3, ![N, A, B]⟩ : Shape).size k : ℤ) := by
      intro k
      rw [scat3_sum]
      rcases axis3_cases k with rfl | rfl | rfl
      · rw [if_pos rfl, hv]
        refine ⟨by omega, ?_⟩
        show (n.val : ℤ) < (N : ℤ)
        omega
      · rw [if_neg h10, if_pos rfl]
        refine ⟨by omega, ?_⟩
        show (a.val : ℤ) < (A : ℤ)
        omega
      · rw [if_neg h20, if_neg h21]
        refine ⟨by omega, ?_⟩
        show (b.val : ℤ) < (B : ℤ)
        omega
    rw [dif_pos hall]
    congr 1
    funext k
    refine Fin.ext ?_
    show ((rowScat3 N A B E wf).start (ix3 e a b) idx k + ((rowScat3 N A B E wf).window (ix3 e a b) k : ℤ)).toNat = _
    rw [scat3_sum]
    rcases axis3_cases k with rfl | rfl | rfl
    · rw [if_pos rfl, hv]
      show ((n.val : ℤ)).toNat = n.val
      omega
    · rw [if_neg h10, if_pos rfl]
      show ((a.val : ℤ)).toNat = a.val
      omega
    · rw [if_neg h20, if_neg h21]
      show ((b.val : ℤ)).toNat = b.val
      omega

/-- The accumulated table at `(n, a, b)`: its entry plus the updates of the edges whose index is `n`. -/
theorem scatterAdd_row3_apply (x : FVec Ideal ⟨3, ![N, A, B]⟩ .f32) (upd : FVec Ideal ⟨3, ![E, A, B]⟩ .f32)
    (n : Fin N) (a : Fin A) (b : Fin B) :
    Host.scatterAdd (F := Ideal) (rowScat3 N A B E wf) x idx upd (ix3 n a b)
      = x (ix3 n a b) + ∑ e : Fin E, if (idx (ix2 e 0)).toInt = (n.val : ℤ) then upd (ix3 e a b) else 0 := by
  show x (ix3 n a b) + ∑ u ∈ Finset.univ.filter (fun u => (rowScat3 N A B E wf).resultIdx? u idx = some (ix3 n a b)), upd u = _
  congr 1
  rw [Finset.sum_filter, sum_idx3]
  refine Finset.sum_congr rfl fun e _ => ?_
  by_cases he : (idx (ix2 e 0)).toInt = (n.val : ℤ)
  · rw [if_pos he]
    rw [Finset.sum_eq_single a]
    · rw [Finset.sum_eq_single b]
      · rw [if_pos ((scat3_hit wf idx e a b n a b).mpr ⟨he, rfl, rfl⟩)]
      · intro b' _ hne
        rw [if_neg (fun h => hne ((scat3_hit wf idx e a b' n a b).mp h).2.2)]
      · intro h; exact absurd (Finset.mem_univ b) h
    · intro a' _ hne
      refine Finset.sum_eq_zero fun b' _ => ?_
      rw [if_neg (fun h => hne ((scat3_hit wf idx e a' b' n a b).mp h).2.1)]
    · intro h; exact absurd (Finset.mem_univ a) h
  · rw [if_neg he]
    refine Finset.sum_eq_zero fun a' _ => Finset.sum_eq_zero fun b' _ => ?_
    rw [if_neg (fun h => he ((scat3_hit wf idx e a' b' n a b).mp h).1)]

end Scatter3

end Idealize.ShloMosaic.RowOps

end
-- ==== Proof.RefValue.lean ====
/-
  The reference's value: with every index word in `[0, 100000)` the reference's 24-operation `take`, applied field by
  field and concatenated, is the plain lookup `out[b, 32 f + e] = tables[f, x[b, f], e]`.

  `take` handles an index the way numpy does: a negative index has the table's length added, the row gather clamps
  its start index into the table, and a row whose index lies outside `[0, 99999]` is replaced by a NaN constant.
  For an index word `v` with `v.toNat < 100000` the word is non-negative as a signed number, so nothing is added, the
  clamp is the identity, the row is kept, and the gathered row is row `v.toNat` of the table. The per-field slices
  and reshapes pick column `f` of the indices and table `f` of the stack, and the three concatenations put field
  `f`'s 32 components at columns `32 f … 32 f + 31`.
-/
import proofs.«204002_g15616501088794_cont_week2b_169_25_alg».proof.Proof.RefFn
import proofs.«204002_g15616501088794_cont_week2b_169_25_alg».proof.Proof.Gen.ReferenceIdeal
import proofs.«204002_g15616501088794_cont_week2b_169_25_alg».proof.Proof.Spec
import proofs.«204002_g15616501088794_cont_week2b_169_25_alg».proof.Proof.LibRowOps
import Idealize.ShloMosaic.Lib.ValueLayout
import Idealize.ShloMosaic.PureOps.Reduce

noncomputable section

namespace Cert.RefValue

open Idealize.ShloMosaic Idealize.ShloMosaic.ValueIdx Cert.ReferenceIdeal Cert.ReferenceIdeal.Facts₀ Cert.RefFn

/-! ## Index words in range -/

/-- A word below 100000 read as a signed number is its unsigned value. -/
theorem toInt_of_lt (v : BitVec 32) (h : v.toNat < 100000) : v.toInt = (v.toNat : Int) := by
  rw [BitVec.toInt_eq_toNat_cond]
  split <;> omega

/-- A word below 100000 is not negative as a signed number. -/
theorem word_not_neg (v : BitVec 32) (h : v.toNat < 100000) : IntOp.cmpi .slt v 0#32 = 0#1 := by
  have : ¬ IntOp.cmpi .slt v 0#32 = 1#1 := by
    rw [IntOp.cmpi_slt, toInt_of_lt v h, show (0#32 : BitVec 32).toInt = 0 from by decide]
    omega
  exact eq_zero_of_ne_one this

/-- A word below 100000 passes the validity test `0 ≤ v ∧ v ≤ 99999` (both signed). -/
theorem word_valid (v : BitVec 32) (h : v.toNat < 100000) :
    IntOp.andi (IntOp.cmpi .sge v 0#32) (IntOp.cmpi .sle v 99999#32) = 1#1 := by
  rw [IntOp.andi_eq_one, IntOp.cmpi_sge, IntOp.cmpi_sle, toInt_of_lt v h,
    show (0#32 : BitVec 32).toInt = 0 from by decide, show (99999#32 : BitVec 32).toInt = 99999 from by decide]
  constructor <;> omega

/-- For a word below 100000 the gather's clamped row is the word's own value. -/
theorem word_row (v : BitVec 32) (h : v.toNat < 100000) :
    RowOps.rowOf 100000 (by decide) v = Cert.Spec.rowOf v := by
  apply Fin.ext
  show min v.toInt.toNat (100000 - 1) = v.toNat % 100000
  rw [Nat.mod_eq_of_lt h, toInt_of_lt v h]
  omega

/-! ## `take` at in-range indices -/

section Take
variable {F : FTy → Type} [FloatOps F] [Facts]

/-- An in-range index is not shifted. -/
theorem wrapped_eq (idx : IVec S16384 32) (h : ∀ k, (idx k).toNat < 100000) : wrapped idx = idx := by
  funext k
  show Scalar.select (IntOp.cmpi .slt (idx k) 0#32) (IntOp.addi (idx k) 100000#32) (idx k) = idx k
  rw [word_not_neg _ (h k), select_zero]

/-- Every start index of the gather is an index word, so below 100000. -/
theorem idxCol_lt (idx : IVec S16384 32) (h : ∀ k, (idx k).toNat < 100000) (i : S16384x1.Idx) :
    (idxCol idx i).toNat < 100000 := by
  unfold idxCol
  rw [wrapped_eq idx h]
  exact h _

/-- The start index of batch row `b` is the index word of `b`. -/
theorem idxCol_apply (idx : IVec S16384 32) (h : ∀ k, (idx k).toNat < 100000) (b : Fin 16384) :
    idxCol idx (ix2 b (0 : Fin 1)) = idx (ix1 b) := by
  unfold idxCol
  rw [wrapped_eq idx h]
  refine broadcastInDim_apply _ _ idx (ix2 b (0 : Fin 1)) (ix1 b) (fun a => ?_)
  match a with
  | ⟨0, _⟩ => exact (if_neg (show ¬ (16384 : Nat) = 1 by decide)).symm

/-- A left fold by `and` over ones, from one, is one. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi (1#1 : BitVec 1) 1#1 = 1#1 from by decide]
    exact foldl_andi_ones f hf l

/-- Every batch row is marked valid. -/
theorem inRange_eq (idx : IVec S16384 32) (h : ∀ k, (idx k).toNat < 100000) (k : S16384.Idx) : inRange idx k = 1#1 := by
  unfold inRange
  rw [Host.reduce_eq_foldl]
  refine foldl_andi_ones _ ?_ _
  intro i
  exact word_valid _ (idxCol_lt idx h i)

/-- `take` at in-range indices: row `idx b` of the table. -/
theorem takeFn_apply (tab : FVec F S100000x32 .f32) (idx : IVec S16384 32) (h : ∀ k, (idx k).toNat < 100000)
    (b : Fin 16384) (e : Fin 32) :
    takeFn tab idx (ix2 b e) = tab (ix2 (Cert.Spec.rowOf (idx (ix1 b))) e) := by
  unfold takeFn
  rw [select_apply]
  have hm : broadcastInDim S16384x32 ![0] bcast_S16384_S16384x32_0 (inRange idx) (ix2 b e) = 1#1 := inRange_eq idx h _
  rw [hm, select_one]
  unfold gatheredRows
  refine (RowOps.gather_row2_apply (by decide) gather_S100000x32_S16384x1_S16384x32_1_0_n_n_0_1_132_wf tab (idxCol idx) b e).trans ?_
  rw [idxCol_apply idx h b, word_row _ (h _)]

end Take

/-! ## The per-field stages -/

section Stages
variable {F : FTy → Type} [FloatOps F] [Facts]

/-- Column `k` of the index array, as a vector, at batch row `b`. -/
theorem colFn_apply (k : Fin 26) (h : S16384x26.Slices ![0, k.val] S16384x1) (x : IVec S16384x26 32) (b : Fin 16384) :
    colFn ![0, k.val] h x (ix1 b) = x (ix2 b k) := by
  unfold colFn
  refine (shapeCast_apply _ _ (ix1 b) (ix2 b (0 : Fin 1)) ?_).trans ?_
  · rw [Shape.rowMajor_val_two, Shape.rowMajor_val_one]
    show b.val * 1 + 0 = b.val
    omega
  · exact slice2_axis1_apply k.val x h b (0 : Fin 1) k rfl

/-- Table `k` of the stack, as a matrix, at row `r` and component `e`. -/
theorem tabFn_apply (k : Fin 26) (h : S26x100000x32.Slices ![k.val, 0, 0] S1x100000x32) (t : FVec F S26x100000x32 .f32)
    (r : Fin 100000) (e : Fin 32) : tabFn ![k.val, 0, 0] h t (ix2 r e) = t (ix3 k r e) := by
  unfold tabFn
  refine (shapeCast_1ab_ab_apply _ _ r e).trans ?_
  refine extractStridedSlice_apply _ t h _ _ (fun a => ?_)
  match a with
  | ⟨0, _⟩ => rfl
  | ⟨1, _⟩ => exact (Nat.zero_add _).symm
  | ⟨2, _⟩ => exact (Nat.zero_add _).symm

/-- The lookup restricted to one field `k`: `(b, e) ↦ tables[k, x[b, k], e]`. -/
def fieldG {α : Type} (x : IVec S16384x26 32) (t : S26x100000x32.Idx → α) (k : Fin 26) : S16384x32.Idx → α :=
  fun i => t (ix3 k (Cert.Spec.rowOf (x (ix2 (i 0) k))) (i 1))

/-- Field `k` of the lookup sits at output columns `32 k … 32 k + 31`. -/
theorem fieldG_apply {α : Type} (x : IVec S16384x26 32) (t : S26x100000x32.Idx → α) (b : Fin 16384) (u : Fin 832)
    (k : Fin 26) (e : Fin 32) (hk : k.val = u.val / 32) (he : e.val = u.val % 32) :
    fieldG x t k (ix2 b e) = Cert.Spec.lookup x t (ix2 b u) := by
  have h1 : k = Cert.Spec.fieldOf u := Fin.ext hk
  have h2 : e = Cert.Spec.compOf u := Fin.ext he
  subst h1 h2
  rfl

/-- One field of the reference: `take` of table `k` at column `k` is the lookup's field `k`. -/
theorem field_eq (k : Fin 26) (h1 : S16384x26.Slices ![0, k.val] S16384x1) (h2 : S26x100000x32.Slices ![k.val, 0, 0] S1x100000x32)
    (x : IVec S16384x26 32) (t : FVec F S26x100000x32 .f32) (hx : ∀ i, (x i).toNat < 100000) :
    takeFn (tabFn ![k.val, 0, 0] h2 t) (colFn ![0, k.val] h1 x) = fieldG x t k := by
  funext i
  obtain ⟨b, e, rfl⟩ : ∃ (b : Fin 16384) (e : Fin 32), i = ix2 b e := ⟨i 0, i 1, eq_ix2 i⟩
  have hc : ∀ j, (colFn ![0, k.val] h1 x j).toNat < 100000 := fun j => hx _
  rw [takeFn_apply _ _ hc b e, colFn_apply, tabFn_apply]
  rfl

end Stages

/-! ## The concatenations -/

section Concat
variable {α : Type}

/-- Sixteen pieces of 32 columns side by side: column `u` is column `u % 32` of piece `u / 32`. -/
theorem concat16_apply (p : Fin 16 → (S16384x32.Idx → α))
    (h : Shape.Concatenates [S16384x32, S16384x32, S16384x32, S16384x32, S16384x32, S16384x32, S16384x32, S16384x32, S16384x32, S16384x32, S16384x32, S16384x32, S16384x32, S16384x32, S16384x32, S16384x32] S16384x512 1) (b : Fin 16384) (u : Fin 512) :
    concatenate S16384x512 1 [⟨S16384x32, p 0⟩, ⟨S16384x32, p 1⟩, ⟨S16384x32, p 2⟩, ⟨S16384x32, p 3⟩, ⟨S16384x32, p 4⟩, ⟨S16384x32, p 5⟩, ⟨S16384x32, p 6⟩, ⟨S16384x32, p 7⟩, ⟨S16384x32, p 8⟩, ⟨S16384x32, p 9⟩, ⟨S16384x32, p 10⟩, ⟨S16384x32, p 11⟩, ⟨S16384x32, p 12⟩, ⟨S16384x32, p 13⟩, ⟨S16384x32, p 14⟩, ⟨S16384x32, p 15⟩] h (ix2 b u)
      = p ⟨u.val / 32, by have := u.isLt; omega⟩ (ix2 b ⟨u.val % 32, Nat.mod_lt _ (by decide)⟩) :=
  concatenate_ofFn_apply (N := 16) 1 p h rfl 32 rfl (ix2 b u) ⟨u.val / 32, by have := u.isLt; omega⟩ rfl
    (ix2 b ⟨u.val % 32, Nat.mod_lt _ (by decide)⟩) rfl (fun c hc => by
      match c with
      | ⟨0, _⟩ => rfl
      | ⟨1, _⟩ => exact absurd rfl hc)

/-- Ten pieces of 32 columns side by side: column `u` is column `u % 32` of piece `u / 32`. -/
theorem concat10_apply (p : Fin 10 → (S16384x32.Idx → α))
    (h : Shape.Concatenates [S16384x32, S16384x32, S16384x32, S16384x32, S16384x32, S16384x32, S16384x32, S16384x32, S16384x32, S16384x32] S16384x320 1) (b : Fin 16384) (u : Fin 320) :
    concatenate S16384x320 1 [⟨S16384x32, p 0⟩, ⟨S16384x32, p 1⟩, ⟨S16384x32, p 2⟩, ⟨S16384x32, p 3⟩, ⟨S16384x32, p 4⟩, ⟨S16384x32, p 5⟩, ⟨S16384x32, p 6⟩, ⟨S16384x32, p 7⟩, ⟨S16384x32, p 8⟩, ⟨S16384x32, p 9⟩] h (ix2 b u)
      = p ⟨u.val / 32, by have := u.isLt; omega⟩ (ix2 b ⟨u.val % 32, Nat.mod_lt _ (by decide)⟩) :=
  concatenate_ofFn_apply (N := 10) 1 p h rfl 32 rfl (ix2 b u) ⟨u.val / 32, by have := u.isLt; omega⟩ rfl
    (ix2 b ⟨u.val % 32, Nat.mod_lt _ (by decide)⟩) rfl (fun c hc => by
      match c with
      | ⟨0, _⟩ => rfl
      | ⟨1, _⟩ => exact absurd rfl hc)

end Concat

/-! ## The result -/

section Result
variable {F : FTy → Type} [FloatOps F] [Facts]

/-- The reference's result is the lookup, for contents of any float type. -/
theorem refOut_eq_gen (x : IVec S16384x26 32) (t : FVec F S26x100000x32 .f32) (hx : ∀ i, (x i).toNat < 100000) :
    refOut x t = Cert.Spec.lookup x t := by
  funext i
  obtain ⟨b, u, rfl⟩ : ∃ (b : Fin 16384) (u : Fin 832), i = ix2 b u := ⟨i 0, i 1, eq_ix2 i⟩
  have e0 : field0 x t = fieldG x t 0 :=
    field_eq 0 slices_S16384x26_S16384x1_0_0 slices_S26x100000x32_S1x100000x32_0_0_0 x t hx
  have e1 : field1 x t = fieldG x t 1 :=
    field_eq 1 slices_S16384x26_S16384x1_0_1 slices_S26x100000x32_S1x100000x32_1_0_0 x t hx
  have e2 : field2 x t = fieldG x t 2 :=
    field_eq 2 slices_S16384x26_S16384x1_0_2 slices_S26x100000x32_S1x100000x32_2_0_0 x t hx
  have e3 : field3 x t = fieldG x t 3 :=
    field_eq 3 slices_S16384x26_S16384x1_0_3 slices_S26x100000x32_S1x100000x32_3_0_0 x t hx
  have e4 : field4 x t = fieldG x t 4 :=
    field_eq 4 slices_S16384x26_S16384x1_0_4 slices_S26x100000x32_S1x100000x32_4_0_0 x t hx
  have e5 : field5 x t = fieldG x t 5 :=
    field_eq 5 slices_S16384x26_S16384x1_0_5 slices_S26x100000x32_S1x100000x32_5_0_0 x t hx
  have e6 : field6 x t = fieldG x t 6 :=
    field_eq 6 slices_S16384x26_S16384x1_0_6 slices_S26x100000x32_S1x100000x32_6_0_0 x t hx
  have e7 : field7 x t = fieldG x t 7 :=
    field_eq 7 slices_S16384x26_S16384x1_0_7 slices_S26x100000x32_S1x100000x32_7_0_0 x t hx
  have e8 : field8 x t = fieldG x t 8 :=
    field_eq 8 slices_S16384x26_S16384x1_0_8 slices_S26x100000x32_S1x100000x32_8_0_0 x t hx
  have e9 : field9 x t = fieldG x t 9 :=
    field_eq 9 slices_S16384x26_S16384x1_0_9 slices_S26x100000x32_S1x100000x32_9_0_0 x t hx
  have e10 : field10 x t = fieldG x t 10 :=
    field_eq 10 slices_S16384x26_S16384x1_0_10 slices_S26x100000x32_S1x100000x32_10_0_0 x t hx
  have e11 : field11 x t = fieldG x t 11 :=
    field_eq 11 slices_S16384x26_S16384x1_0_11 slices_S26x100000x32_S1x100000x32_11_0_0 x t hx
  have e12 : field12 x t = fieldG x t 12 :=
    field_eq 12 slices_S16384x26_S16384x1_0_12 slices_S26x100000x32_S1x100000x32_12_0_0 x t hx
  have e13 : field13 x t = fieldG x t 13 :=
    field_eq 13 slices_S16384x26_S16384x1_0_13 slices_S26x100000x32_S1x100000x32_13_0_0 x t hx
  have e14 : field14 x t = fieldG x t 14 :=
    field_eq 14 slices_S16384x26_S16384x1_0_14 slices_S26x100000x32_S1x100000x32_14_0_0 x t hx
  have e15 : field15 x t = fieldG x t 15 :=
    field_eq 15 slices_S16384x26_S16384x1_0_15 slices_S26x100000x32_S1x100000x32_15_0_0 x t hx
  have e16 : field16 x t = fieldG x t 16 :=
    field_eq 16 slices_S16384x26_S16384x1_0_16 slices_S26x100000x32_S1x100000x32_16_0_0 x t hx
  have e17 : field17 x t = fieldG x t 17 :=
    field_eq 17 slices_S16384x26_S16384x1_0_17 slices_S26x100000x32_S1x100000x32_17_0_0 x t hx
  have e18 : field18 x t = fieldG x t 18 :=
    field_eq 18 slices_S16384x26_S16384x1_0_18 slices_S26x100000x32_S1x100000x32_18_0_0 x t hx
  have e19 : field19 x t = fieldG x t 19 :=
    field_eq 19 slices_S16384x26_S16384x1_0_19 slices_S26x100000x32_S1x100000x32_19_0_0 x t hx
  have e20 : field20 x t = fieldG x t 20 :=
    field_eq 20 slices_S16384x26_S16384x1_0_20 slices_S26x100000x32_S1x100000x32_20_0_0 x t hx
  have e21 : field21 x t = fieldG x t 21 :=
    field_eq 21 slices_S16384x26_S16384x1_0_21 slices_S26x100000x32_S1x100000x32_21_0_0 x t hx
  have e22 : field22 x t = fieldG x t 22 :=
    field_eq 22 slices_S16384x26_S16384x1_0_22 slices_S26x100000x32_S1x100000x32_22_0_0 x t hx
  have e23 : field23 x t = fieldG x t 23 :=
    field_eq 23 slices_S16384x26_S16384x1_0_23 slices_S26x100000x32_S1x100000x32_23_0_0 x t hx
  have e24 : field24 x t = fieldG x t 24 :=
    field_eq 24 slices_S16384x26_S16384x1_0_24 slices_S26x100000x32_S1x100000x32_24_0_0 x t hx
  have e25 : field25 x t = fieldG x t 25 :=
    field_eq 25 slices_S16384x26_S16384x1_0_25 slices_S26x100000x32_S1x100000x32_25_0_0 x t hx
  unfold refOut
  by_cases hu : u.val < 512
  · -- a column below 512 lies in the first block, at the same position
    refine (concatenate_pair_apply_left 1 (lo x t) (hi x t) _ (ix2 b u) rfl (ix2 b ⟨u.val, hu⟩) (fun c => ?_)).trans ?_
    · match c with
      | ⟨0, _⟩ => rfl
      | ⟨1, _⟩ => rfl
    · unfold lo
      rw [e0, e1, e2, e3, e4, e5, e6, e7, e8, e9, e10, e11, e12, e13, e14, e15]
      refine (concat16_apply (fun n => fieldG x t ⟨n.val, by have := n.isLt; omega⟩) _ b ⟨u.val, hu⟩).trans ?_
      exact fieldG_apply x t b u _ _ rfl rfl
  · -- a column from 512 on lies in the second block, 512 columns earlier
    have hu2 : u.val - 512 < 320 := by have := u.isLt; omega
    refine (concatenate_pair_apply_right 1 (lo x t) (hi x t) _ (ix2 b u) rfl rfl (ix2 b ⟨u.val - 512, hu2⟩)
      (fun c hc => ?_) ?_).trans ?_
    · match c with
      | ⟨0, _⟩ => rfl
      | ⟨1, _⟩ => exact absurd rfl hc
    · show (u.val - 512) + 512 = u.val
      omega
    · unfold hi
      rw [e16, e17, e18, e19, e20, e21, e22, e23, e24, e25]
      refine (concat10_apply (fun n => fieldG x t ⟨16 + n.val, by have := n.isLt; omega⟩) _ b ⟨u.val - 512, hu2⟩).trans ?_
      exact fieldG_apply x t b u _ _ (by show 16 + (u.val - 512) / 32 = u.val / 32; omega)
        (by show (u.val - 512) % 32 = u.val % 32; omega)

end Result

/-- The reference's result at the extended reals is the lookup. -/
theorem refOut_eq (x : IVec Cert.ReferenceIdeal.S16384x26 32) (t : FVec Ideal Cert.ReferenceIdeal.S26x100000x32 .f32) (hx : ∀ i, (x i).toNat < 100000) :
    Cert.RefFn.refOut (F := Ideal) x t = Cert.Spec.lookup x t :=
  refOut_eq_gen x t hx

end Cert.RefValue

end
-- ==== Proof.PreRange.lean ====
/-
  The precondition's integer half, read back: when the printed predicate evaluates to true, every index word,
  read as an unsigned number, is below 100000.

  The predicate is the conjunction of a finiteness test of the tables and `all((0 <= x) & (x <= 99999))`, both
  comparisons signed. A 32-bit word that is non-negative as a signed number is its own unsigned value, so the
  two comparisons together say `x.toNat <= 99999`.
-/
import proofs.«204002_g15616501088794_cont_week2b_169_25_alg».proof.Proof.Gen.Pre_input_domain
import Idealize.ShloMosaic.Lib.ReduceAll
import Idealize.ShloMosaic.Lib.ValueIdx

namespace Cert.PreRange

open Idealize.ShloMosaic Idealize.ShloMosaic.ValueIdx

/-- The rank-0 shape has one index. -/
instance : Subsingleton Cert.Pre_input_domain.S_.Idx := ⟨fun a b => funext fun d => d.elim0⟩

/-- A word that is at least 0 and at most 99999, both as signed numbers, is below 100000 as an unsigned number. -/
theorem word_in_range (v : BitVec 32)
    (e : IntOp.andi (IntOp.cmpi .sge v 0#32) (IntOp.cmpi .sle v 99999#32) = 1#1) : v.toNat < 100000 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide,
    decide_eq_true_eq, BitVec.toInt_eq_toNat_cond, BitVec.toNat_ofNat, Nat.reducePow, Nat.reduceMod] at e
  omega

/-- The precondition true at `(x, t)` puts every index word in `[0, 100000)`. -/
theorem x_in_range {F : FTy → Type} [FloatOps F] (x : IVec Cert.Pre_input_domain.S16384x26 32) (t : FVec F Cert.Pre_input_domain.S26x100000x32 .f32)
    (h : Cert.Pre_input_domain.fn (F := F) x t = (fun _ => 1#1)) : ∀ i, (x i).toNat < 100000 := by
  intro i
  have e := congrFun h ix0
  dsimp only [Cert.Pre_input_domain.fn, andi] at e
  have e2 := (IntOp.andi_eq_one.1 e).2
  have e3 := Host.reduce_andi_all _ _ _ _ _ e2 i
  exact word_in_range (x i) e3
-- ==== Proof.lean ====
/-
  The five claims of the certificate, assembled.

  The operator looks up, for each of 16384 batch rows and each of 26 categorical fields, a row of 32 numbers in that
  field's table of 100000 rows, and lays the 26 rows side by side: `out[b, 32 f + e] = tables[f, x[b, f], e]`.

  The kernel transposes the indices and flattens the tables to one row per output column on the TensorCore, has the
  32 vector subcores of the two SparseCores each fill 26 of the 832 rows of the transposed result by gathering from
  a table row held in their own memory, and transposes back. Its run (the launch theorem applied to the subcores'
  task, once at the word-level reading and once at the extended-real one) ends with the arguments unchanged and the
  result at that lookup. The reference slices out each field's column and table, takes the rows with the library's
  bounds-checked gather, and concatenates; under the precondition every index is in range, the bounds check passes
  everywhere, and its run ends at the same lookup. Pure data movement: no arithmetic on the table entries is
  involved, so the two results agree entry by entry as extended reals.
-/
import proofs.«204002_g15616501088794_cont_week2b_169_25_alg».proof.Defs
import proofs.«204002_g15616501088794_cont_week2b_169_25_alg».proof.Proof.Gen.Kernel
import proofs.«204002_g15616501088794_cont_week2b_169_25_alg».proof.Proof.Gen.Kernel.Skeleton
import proofs.«204002_g15616501088794_cont_week2b_169_25_alg».proof.Proof.Gen.KernelIdeal
import proofs.«204002_g15616501088794_cont_week2b_169_25_alg».proof.Proof.Gen.KernelIdeal.Skeleton
import proofs.«204002_g15616501088794_cont_week2b_169_25_alg».proof.Proof.Gen.ReferenceIdeal
import proofs.«204002_g15616501088794_cont_week2b_169_25_alg».proof.Proof.Gen.Pre_input_domain
import proofs.«204002_g15616501088794_cont_week2b_169_25_alg».proof.Proof.KILaunch
import proofs.«204002_g15616501088794_cont_week2b_169_25_alg».proof.Proof.KIBody
import proofs.«204002_g15616501088794_cont_week2b_169_25_alg».proof.Proof.KIGlue
import proofs.«204002_g15616501088794_cont_week2b_169_25_alg».proof.Proof.KBLaunch
import proofs.«204002_g15616501088794_cont_week2b_169_25_alg».proof.Proof.KBBody
import proofs.«204002_g15616501088794_cont_week2b_169_25_alg».proof.Proof.KBGlue
import proofs.«204002_g15616501088794_cont_week2b_169_25_alg».proof.Proof.RefRun
import proofs.«204002_g15616501088794_cont_week2b_169_25_alg».proof.Proof.RefValue
import proofs.«204002_g15616501088794_cont_week2b_169_25_alg».proof.Proof.PreRange
import proofs.«204002_g15616501088794_cont_week2b_169_25_alg».proof.Proof.Spec
import Idealize.ShloMosaic.Adequacy
import Idealize.ShloMosaic.Init

noncomputable section

namespace Cert.Proof

open Idealize.ShloMosaic Idealize.SL.Sem

/-- The idealized kernel's run: arguments unchanged, the result at the kernel's own whole-array function. -/
theorem runI (m : (ℓ : Loc Cert.KernelIdeal.nD Cert.KernelIdeal.τ Cert.KernelIdeal.sig) → Buf (Elt Ideal) ℓ) (ρ : Dev Cert.KernelIdeal.nD → PrngReg)
    (hpre : Cert.Proof.KI.PreOK (F := Ideal) m) :
    θ_run (Cert.KernelIdeal.defs (F := Ideal)) (Cert.KernelIdeal.threads (F := Ideal)) ⟨m, fun _ => 0, ρ⟩
      (fun r => ∀ c : Dev Cert.KernelIdeal.nD, r.2.mem (Cert.Proof.KI.ouLoc c) = Cert.Proof.KI.OU m c
        ∧ r.2.mem (Cert.Proof.KI.a0Loc c) = m (Cert.Proof.KI.a0Loc c)
        ∧ r.2.mem (Cert.Proof.KI.a1Loc c) = m (Cert.Proof.KI.a1Loc c)) :=
  Cert.Proof.KI.run_main m ρ (Cert.Proof.KI.tileObl m Cert.Proof.KI.facts hpre)

/-- The word-level kernel's run, the same statement at bit patterns. -/
theorem runB (m : (ℓ : Loc Cert.Kernel.nD Cert.Kernel.τ Cert.Kernel.sig) → Buf (Elt Bits) ℓ) (ρ : Dev Cert.Kernel.nD → PrngReg)
    (hpre : Cert.Proof.KB.PreOK (F := Bits) m) :
    θ_run (Cert.Kernel.defs (F := Bits)) (Cert.Kernel.threads (F := Bits)) ⟨m, fun _ => 0, ρ⟩
      (fun r => ∀ c : Dev Cert.Kernel.nD, r.2.mem (Cert.Proof.KB.ouLoc c) = Cert.Proof.KB.OU m c
        ∧ r.2.mem (Cert.Proof.KB.a0Loc c) = m (Cert.Proof.KB.a0Loc c)
        ∧ r.2.mem (Cert.Proof.KB.a1Loc c) = m (Cert.Proof.KB.a1Loc c)) :=
  Cert.Proof.KB.run_main m ρ (Cert.Proof.KB.tileObl m Cert.Proof.KB.facts hpre)

theorem claim : Cert.Claim := by
  refine ⟨Cert.Kernel.Gen.facts, Cert.KernelIdeal.Gen.facts, Cert.ReferenceIdeal.Gen.facts, Cert.Pre_input_domain.Gen.facts,
    ?_, ?_, ?_, trivial, ?_⟩
  · -- the word-level kernel: the precondition puts the indices in range, which is all its run asks
    intro m g hpre
    exact (θ_run Cert.Kernel.defs _ _).mono (fun _ h c => (h c).2)
      (runB m g (Cert.Proof.KB.preOK_of_range m (fun d i => Cert.PreRange.x_in_range (F := Bits) _ _ (hpre d) i)))
  · -- the idealized kernel, its value dropped
    intro m g hpre
    exact (θ_run Cert.KernelIdeal.defs _ _).mono (fun _ h c => (h c).2)
      (runI m g (Cert.Proof.KI.preOK_of_range m (fun d i => Cert.PreRange.x_in_range (F := Ideal) _ _ (hpre d) i)))
  · -- the reference, its value dropped
    intro m g _
    exact (θ_run Cert.ReferenceIdeal.defs _ _).mono (fun _ h c => (h c).2) (Cert.RefRun.run m g)
  · -- both end at the lookup of the kernel's arguments
    intro m g m' g' hpre hagree
    have hr : ∀ (d : Dev Cert.KernelIdeal.nD) (i : Cert.KernelIdeal.S16384x26.Idx), (m (Cert.Proof.KI.a0Loc d) i).toNat < 100000 :=
      fun d i => Cert.PreRange.x_in_range (F := Ideal) _ _ (hpre d) i
    refine ⟨fun c => Cert.Spec.lookup (m (Cert.Proof.KI.a0Loc c)) (m (Cert.Proof.KI.a1Loc c)), ?_, ?_⟩
    · exact (θ_run Cert.KernelIdeal.defs _ _).mono (fun _ h c => ⟨(h c).1.trans (Cert.Proof.KI.OU_eq m c), (h c).2⟩)
        (runI m g (Cert.Proof.KI.preOK_of_range m hr))
    · refine (θ_run Cert.ReferenceIdeal.defs _ _).mono (fun _ h c => ⟨(h c).1.trans ?_, (h c).2⟩) (Cert.RefRun.run m' g')
      rw [(hagree c).1, (hagree c).2]
      exact Cert.RefValue.refOut_eq _ _ (hr c)

end Cert.Proof

end
